-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v463) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x512x128 : Shape := ⟨3, ![4, 512, 128]⟩
abbrev S4x512x512 : Shape := ⟨3, ![4, 512, 512]⟩
abbrev S128x128 : Shape := ⟨2, ![128, 128]⟩
abbrev S128 : Shape := ⟨1, ![128]⟩
abbrev S_ : Shape := ⟨0, ![]⟩

class Facts : Prop where
  bcast_S_S4x512x128 : S_.BroadcastsInDim S4x512x128 (![] : Fin 0 → Fin S4x512x128.rank)
  reducesTo_S4x512x128_S_d0_1_2 : S4x512x128.ReducesTo [0, 1, 2] S_
  h_S_ : 0 < S_.numel
  bcast_S_S4x512x512 : S_.BroadcastsInDim S4x512x512 (![] : Fin 0 → Fin S4x512x512.rank)
  reducesTo_S4x512x512_S_d0_1_2 : S4x512x512.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S128 .f32) (main_arg12 : FVec F S128 .f32) (main_arg13 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_v63 main_v67

def fn_part2 {F : FTy → Type} [FloatOps F] (main_arg7 : FVec F S128 .f32) (main_arg8 : FVec F S128 .f32) (main_arg9 : FVec F S128 .f32) (main_arg10 : FVec F S128 .f32) (main_arg11 : FVec F S128 .f32) (main_arg12 : FVec F S128 .f32) (main_arg13 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_v48 main_v49 main_v50

def fn_part1 {F : FTy → Type} [FloatOps F] (main_arg4 : FVec F S128x128 .f32) (main_arg5 : FVec F S128 .f32) (main_arg6 : FVec F S128 .f32) (main_arg7 : FVec F S128 .f32) (main_arg8 : FVec F S128 .f32) (main_arg9 : FVec F S128 .f32) (main_arg10 : FVec F S128 .f32) (main_arg11 : FVec F S128 .f32) (main_arg12 : FVec F S128 .f32) (main_arg13 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S4x512x128 .f32) (main_arg1 : FVec F S4x512x512 .f32) (main_arg2 : FVec F S128x128 .f32) (main_arg3 : FVec F S128x128 .f32) (main_arg4 : FVec F S128x128 .f32) (main_arg5 : FVec F S128 .f32) (main_arg6 : FVec F S128 .f32) (main_arg7 : FVec F S128 .f32) (main_arg8 : FVec F S128 .f32) (main_arg9 : FVec F S128 .f32) (main_arg10 : FVec F S128 .f32) (main_arg11 : FVec F S128 .f32) (main_arg12 : FVec F S128 .f32) (main_arg13 : FVec F S128 .f32) : IVec S_ 1 :=
  let main_v0 : FVec F S4x512x128 .f32 := Host.absf main_arg0
  let main_cst : FVec F S_ .f32 := constant S_ .f32 0x7F800000#32
  let main_v1 : FVec F S4x512x128 .f32 := broadcastInDim S4x512x128 ![] bcast_S_S4x512x128 main_cst
  let main_v2 : IVec S4x512x128 1 := cmpf .olt main_v0 main_v1
  let main_c : IVec S_ 1 := constantI S_ 1 1#1
  let main_v3 : IVec S_ 1 := (fun x v => Host.reduce IntOp.andi x v reducesTo_S4x512x128_S_d0_1_2 h_S_) main_v2 main_c
  let main_v4 : FVec F S4x512x512 .f32 := Host.absf main_arg1
  let main_cst_0 : FVec F S_ .f32 := constant S_ .f32 0x7F800000#32
  let main_v5 : FVec F S4x512x512 .f32 := broadcastInDim S4x512x512 ![] bcast_S_S4x512x512 main_cst_0
  let main_v6 : IVec S4x512x512 1 := cmpf .olt main_v4 main_v5
  let main_c_1 : IVec S_ 1 := constantI S_ 1 1#1
  let main_v7 : IVec S_ 1 := (fun x v => Host.reduce IntOp.andi x v reducesTo_S4x512x512_S_d0_1_2 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_arg11 main_arg12 main_arg13 main_v13 main_v16
-- ==== Kernel.lean ====
abbrev S4x512x128 : Shape := ⟨3, ![4, 512, 128]⟩
abbrev S4x512x512 : Shape := ⟨3, ![4, 512, 512]⟩
abbrev S128x128 : Shape := ⟨2, ![128, 128]⟩
abbrev S128 : Shape := ⟨1, ![128]⟩
abbrev S1x128 : Shape := ⟨2, ![1, 128]⟩
abbrev S1x512x128 : Shape := ⟨3, ![1, 512, 128]⟩
abbrev S1x512x512 : Shape := ⟨3, ![1, 512, 512]⟩
abbrev S512x128 : Shape := ⟨2, ![512, 128]⟩
abbrev S512x512 : Shape := ⟨2, ![512, 512]⟩
abbrev S512 : Shape := ⟨1, ![512]⟩
abbrev S512x1 : Shape := ⟨2, ![512, 1]⟩

abbrev nBuf : Space → Nat
  | .hbm => 24
  | .vmem => 18
  | .smem => 0
  | _ => 0

abbrev bufTy : (tb : Table) → Fin (tcTables nBuf tb) → BufTy
  | .hbm, ⟨0, _⟩ => ⟨S4x512x128, .f32⟩
  | .hbm, ⟨1, _⟩ => ⟨S4x512x512, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S1x128, .f32⟩
  | .hbm, ⟨15, _⟩ => ⟨S1x128, .f32⟩
  | .hbm, ⟨16, _⟩ => ⟨S1x128, .f32⟩
  | .hbm, ⟨17, _⟩ => ⟨S1x128, .f32⟩
  | .hbm, ⟨18, _⟩ => ⟨S1x128, .f32⟩
  | .hbm, ⟨19, _⟩ => ⟨S1x128, .f32⟩
  | .hbm, ⟨20, _⟩ => ⟨S1x128, .f32⟩
  | .hbm, ⟨21, _⟩ => ⟨S1x128, .f32⟩
  | .hbm, ⟨22, _⟩ => ⟨S1x128, .f32⟩
  | .hbm, ⟨23, _⟩ => ⟨S4x512x128, .f32⟩
  | .local _ .vmem, ⟨0, _⟩ => ⟨S1x512x128, .f32⟩
  | .local _ .vmem, ⟨1, _⟩ => ⟨S1x512x128, .f32⟩
  | .local _ .vmem, ⟨2, _⟩ => ⟨S1x512x512, .f32⟩
  | .local _ .vmem, ⟨3, _⟩ => ⟨S1x512x512, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x512x128, .f32⟩
  | .local _ .vmem, ⟨17, _⟩ => ⟨S1x512x128, .f32⟩
  | _, _ => ⟨S4x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1x512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  shapeCasts_S128_S1x128 : S128.ShapeCasts S1x128
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  reduces_S512x128_S512 : S512x128.Reduces [1] S512
  shapeCasts_S512_S512x1 : S512.ShapeCasts S512x1
  broadcasts_S512x1_S512x128 : S512x1.Broadcasts S512x128
  shapeCasts_S512x128_S1x512x128 : S512x128.ShapeCasts S1x512x128
  dot_S512x128_S128x128_S512x128_1_0_0_1_n_n_wf : DotDims.WF S512x128 S128x128 S512x128 [1] [0] [0] [1] [] []
  dot_S512x512_S512x128_S512x128_0_0_1_1_n_n_wf : DotDims.WF S512x512 S512x128 S512x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x128.size a ≤ S4x512x128.size a
  hwx0_0 : ∀ i : grid0.Coords, EltTy.bits .f32 = 32 ∨ (Rect.block (s := S4x512x128) S1x512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S4x512x512.size a
  hwx0_1 : ∀ i : grid0.Coords, EltTy.bits .f32 = 32 ∨ (Rect.block (s := S4x512x512) S1x512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x128.size a
  hwx0_12 : ∀ i : grid0.Coords, EltTy.bits .f32 = 32 ∨ (Rect.block (s := S1x128) S1x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x128.size a ≤ S1x128.size a
  hwx0_13 : ∀ i : grid0.Coords, EltTy.bits .f32 = 32 ∨ (Rect.block (s := S1x128) S1x128.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x512x128.size a ≤ S4x512x128.size a
  hwx0_14 : ∀ i : grid0.Coords, EltTy.bits .f32 = 32 ∨ (Rect.block (s := S4x512x128) S1x512x128.size (cc0_transform_14 i) (hinb0_14 i)).WholeWords (EltTy.packing .f32)

variable [Facts₀]

def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x512_S512x128_S512x128_0_0_1_1_n_n : DotDims S512x512 S512x128 S512x128 where
  lhsContracting := [0]
  rhsContracting := [0]
  lhsNonContracting := [1]
  rhsNonContracting := [1]
  lhsBatch := []
  rhsBatch := []
  wf := dot_S512x512_S512x128_S512x128_0_0_1_1_n_n_wf

abbrev win0_0 : Pipeline.Window sig grid0 :=
  Pipeline.Window.ofSpec (Memref.whole main_arg0) S1x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v5) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v6) S1x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v7) S1x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v8) S1x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v9) S1x512x128.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S4x512x128 : Shape := ⟨3, ![4, 512, 128]⟩
abbrev S4x512x512 : Shape := ⟨3, ![4, 512, 512]⟩
abbrev S128x128 : Shape := ⟨2, ![128, 128]⟩
abbrev S128 : Shape := ⟨1, ![128]⟩
abbrev S512 : Shape := ⟨1, ![512]⟩
abbrev S512x512 : Shape := ⟨2, ![512, 512]⟩
abbrev S262144 : Shape := ⟨1, ![262144]⟩
abbrev S1x512 : Shape := ⟨2, ![1, 512]⟩
abbrev S1x512x512 : Shape := ⟨3, ![1, 512, 512]⟩
abbrev S1x512x128 : Shape := ⟨3, ![1, 512, 128]⟩
abbrev S512x128 : Shape := ⟨2, ![512, 128]⟩
abbrev S262144x1 : Shape := ⟨2, ![262144, 1]⟩
abbrev S_ : Shape := ⟨0, ![]⟩
abbrev S1 : Shape := ⟨1, ![1]⟩
abbrev S1x1 : Shape := ⟨2, ![1, 1]⟩
abbrev S262144x128 : Shape := ⟨2, ![262144, 128]⟩
abbrev S1x128 : Shape := ⟨2, ![1, 128]⟩
abbrev S512x1 : Shape := ⟨2, ![512, 1]⟩

abbrev nBuf : Space → Nat
  | .hbm => 1114
  | .vmem => 0
  | .smem => 0
  | _ => 0

abbrev hbmTy0_0 (i : Nat) : BufTy := match i % 128 with
  | 0 => ⟨S4x512x128, .f32⟩
  | 1 => ⟨S4x512x512, .f32⟩
  | 2 => ⟨S128x128, .f32⟩
  | 3 => ⟨S128x128, .f32⟩
  | 4 => ⟨S128x128, .f32⟩
  | 5 => ⟨S128, .f32⟩
  | 6 => ⟨S128, .f32⟩
  | 7 => ⟨S128, .f32⟩
  | 8 => ⟨S128, .f32⟩
  | 9 => ⟨S128, .f32⟩
  | 10 => ⟨S128, .f32⟩
  | 11 => ⟨S128, .f32⟩
  | 12 => ⟨S128, .f32⟩
  | 13 => ⟨S128, .f32⟩
  | 14 => ⟨S512, .i32⟩
  | 15 => ⟨S512x512, .i32⟩
  | 16 => ⟨S262144, .i32⟩
  | 17 => ⟨S512, .i32⟩
  | 18 => ⟨S1x512, .i32⟩
  | 19 => ⟨S512x512, .i32⟩
  | 20 => ⟨S262144, .i32⟩
  | 21 => ⟨S1x512x512, .f32⟩
  | 22 => ⟨S512x512, .f32⟩
  | 23 => ⟨S262144, .f32⟩
  | 24 => ⟨S1x512x128, .f32⟩
  | 25 => ⟨S512x128, .f32⟩
  | 26 => ⟨S512x128, .f32⟩
  | 27 => ⟨S262144x1, .f32⟩
  | 28 => ⟨S_, .i32⟩
  | 29 => ⟨S262144, .i32⟩
  | 30 => ⟨S262144, .i1⟩
  | 31 => ⟨S_, .i32⟩
  | 32 => ⟨S262144, .i32⟩
  | 33 => ⟨S262144, .i32⟩
  | 34 => ⟨S262144, .i32⟩
  | 35 => ⟨S262144x1, .i32⟩
  | 36 => ⟨S1, .i32⟩
  | 37 => ⟨S_, .i32⟩
  | 38 => ⟨S262144x1, .i32⟩
  | 39 => ⟨S262144x1, .i1⟩
  | 40 => ⟨S1x1, .i32⟩
  | 41 => ⟨S262144x1, .i32⟩
  | 42 => ⟨S262144x1, .i1⟩
  | 43 => ⟨S262144x1, .i1⟩
  | 44 => ⟨S_, .i1⟩
  | 45 => ⟨S262144, .i1⟩
  | 46 => ⟨S262144x128, .f32⟩
  | 47 => ⟨S262144x128, .i1⟩
  | 48 => ⟨S_, .f32⟩
  | 49 => ⟨S262144x128, .f32⟩
  | 50 => ⟨S262144x128, .f32⟩
  | 51 => ⟨S262144x128, .f32⟩
  | 52 => ⟨S262144x128, .f32⟩
  | 53 => ⟨S_, .f32⟩
  | 54 => ⟨S512x128, .f32⟩
  | 55 => ⟨S_, .i32⟩
  | 56 => ⟨S262144, .i32⟩
  | 57 => ⟨S262144, .i1⟩
  | 58 => ⟨S_, .i32⟩
  | 59 => ⟨S262144, .i32⟩
  | 60 => ⟨S262144, .i32⟩
  | 61 => ⟨S262144, .i32⟩
  | 62 => ⟨S262144x1, .i32⟩
  | 63 => ⟨S512x128, .f32⟩
  | 64 => ⟨S1x128, .f32⟩
  | 65 => ⟨S512x128, .f32⟩
  | 66 => ⟨S512x128, .f32⟩
  | 67 => ⟨S512x128, .f32⟩
  | 68 => ⟨S_, .f32⟩
  | 69 => ⟨S512, .f32⟩
  | 70 => ⟨S512x1, .f32⟩
  | 71 => ⟨S_, .f32⟩
  | 72 => ⟨S512x1, .f32⟩
  | 73 => ⟨S512x1, .f32⟩
  | 74 => ⟨S_, .i32⟩
  | 75 => ⟨S_, .f32⟩
  | 76 => ⟨S512, .f32⟩
  | 77 => ⟨S512x1, .f32⟩
  | 78 => ⟨S_, .f32⟩
  | 79 => ⟨S512x1, .f32⟩
  | 80 => ⟨S512x1, .f32⟩
  | 81 => ⟨S512x128, .f32⟩
  | 82 => ⟨S512x128, .f32⟩
  | 83 => ⟨S512x128, .f32⟩
  | 84 => ⟨S_, .f32⟩
  | 85 => ⟨S_, .f32⟩
  | 86 => ⟨S_, .f32⟩
  | 87 => ⟨S_, .f32⟩
  | 88 => ⟨S512, .f32⟩
  | 89 => ⟨S512x1, .f32⟩
  | 90 => ⟨S512x1, .f32⟩
  | 91 => ⟨S512x1, .f32⟩
  | 92 => ⟨S_, .f32⟩
  | 93 => ⟨S_, .i1⟩
  | 94 => ⟨S_, .f32⟩
  | 95 => ⟨S_, .f32⟩
  | 96 => ⟨S512x1, .f32⟩
  | 97 => ⟨S512x1, .f32⟩
  | 98 => ⟨S512x128, .f32⟩
  | 99 => ⟨S512x128, .f32⟩
  | 100 => ⟨S_, .f32⟩
  | 101 => ⟨S512x1, .f32⟩
  | 102 => ⟨S512x1, .f32⟩
  | 103 => ⟨S512x1, .f32⟩
  | 104 => ⟨S512x128, .f32⟩
  | 105 => ⟨S512x128, .f32⟩
  | 106 => ⟨S1x128, .f32⟩
  | 107 => ⟨S512x128, .f32⟩
  | 108 => ⟨S512x128, .f32⟩
  | 109 => ⟨S1x128, .f32⟩
  | 110 => ⟨S512x128, .f32⟩
  | 111 => ⟨S512x128, .f32⟩
  | 112 => ⟨S_, .f32⟩
  | 113 => ⟨S512x128, .f32⟩
  | 114 => ⟨S512x128, .f32⟩
  | 115 => ⟨S512x128, .f32⟩
  | 116 => ⟨S262144x1, .f32⟩
  | 117 => ⟨S_, .i32⟩
  | 118 => ⟨S262144, .i32⟩
  | 119 => ⟨S262144, .i1⟩
  | 120 => ⟨S_, .i32⟩
  | 121 => ⟨S262144, .i32⟩
  | 122 => ⟨S262144, .i32⟩
  | 123 => ⟨S262144, .i32⟩
  | 124 => ⟨S262144x1, .i32⟩
  | 125 => ⟨S1, .i32⟩
  | 126 => ⟨S_, .i32⟩
  | 127 => ⟨S262144x1, .i32⟩
  | _ => ⟨S4x512x128, .f32⟩

abbrev hbmTy0_1 (i : Nat) : BufTy := match i % 128 with
  | 0 => ⟨S262144x1, .i1⟩
  | 1 => ⟨S1x1, .i32⟩
  | 2 => ⟨S262144x1, .i32⟩
  | 3 => ⟨S262144x1, .i1⟩
  | 4 => ⟨S262144x1, .i1⟩
  | 5 => ⟨S_, .i1⟩
  | 6 => ⟨S262144, .i1⟩
  | 7 => ⟨S262144x128, .f32⟩
  | 8 => ⟨S262144x128, .i1⟩
  | 9 => ⟨S_, .f32⟩
  | 10 => ⟨S262144x128, .f32⟩
  | 11 => ⟨S262144x128, .f32⟩
  | 12 => ⟨S262144x128, .f32⟩
  | 13 => ⟨S262144x128, .f32⟩
  | 14 => ⟨S_, .f32⟩
  | 15 => ⟨S512x128, .f32⟩
  | 16 => ⟨S_, .i32⟩
  | 17 => ⟨S262144, .i32⟩
  | 18 => ⟨S262144, .i1⟩
  | 19 => ⟨S_, .i32⟩
  | 20 => ⟨S262144, .i32⟩
  | 21 => ⟨S262144, .i32⟩
  | 22 => ⟨S262144, .i32⟩
  | 23 => ⟨S262144x1, .i32⟩
  | 24 => ⟨S512x128, .f32⟩
  | 25 => ⟨S1x128, .f32⟩
  | 26 => ⟨S512x128, .f32⟩
  | 27 => ⟨S512x128, .f32⟩
  | 28 => ⟨S512x128, .f32⟩
  | 29 => ⟨S_, .f32⟩
  | 30 => ⟨S512, .f32⟩
  | 31 => ⟨S512x1, .f32⟩
  | 32 => ⟨S_, .f32⟩
  | 33 => ⟨S512x1, .f32⟩
  | 34 => ⟨S512x1, .f32⟩
  | 35 => ⟨S_, .i32⟩
  | 36 => ⟨S_, .f32⟩
  | 37 => ⟨S512, .f32⟩
  | 38 => ⟨S512x1, .f32⟩
  | 39 => ⟨S_, .f32⟩
  | 40 => ⟨S512x1, .f32⟩
  | 41 => ⟨S512x1, .f32⟩
  | 42 => ⟨S512x128, .f32⟩
  | 43 => ⟨S512x128, .f32⟩
  | 44 => ⟨S512x128, .f32⟩
  | 45 => ⟨S_, .f32⟩
  | 46 => ⟨S_, .f32⟩
  | 47 => ⟨S_, .f32⟩
  | 48 => ⟨S_, .f32⟩
  | 49 => ⟨S512, .f32⟩
  | 50 => ⟨S512x1, .f32⟩
  | 51 => ⟨S512x1, .f32⟩
  | 52 => ⟨S512x1, .f32⟩
  | 53 => ⟨S_, .f32⟩
  | 54 => ⟨S_, .i1⟩
  | 55 => ⟨S_, .f32⟩
  | 56 => ⟨S_, .f32⟩
  | 57 => ⟨S512x1, .f32⟩
  | 58 => ⟨S512x1, .f32⟩
  | 59 => ⟨S512x128, .f32⟩
  | 60 => ⟨S512x128, .f32⟩
  | 61 => ⟨S_, .f32⟩
  | 62 => ⟨S512x1, .f32⟩
  | 63 => ⟨S512x1, .f32⟩
  | 64 => ⟨S512x1, .f32⟩
  | 65 => ⟨S512x128, .f32⟩
  | 66 => ⟨S512x128, .f32⟩
  | 67 => ⟨S1x128, .f32⟩
  | 68 => ⟨S512x128, .f32⟩
  | 69 => ⟨S512x128, .f32⟩
  | 70 => ⟨S1x128, .f32⟩
  | 71 => ⟨S512x128, .f32⟩
  | 72 => ⟨S512x128, .f32⟩
  | 73 => ⟨S_, .f32⟩
  | 74 => ⟨S512x128, .f32⟩
  | 75 => ⟨S512x128, .f32⟩
  | 76 => ⟨S512x128, .f32⟩
  | 77 => ⟨S262144x1, .f32⟩
  | 78 => ⟨S_, .i32⟩
  | 79 => ⟨S262144, .i32⟩
  | 80 => ⟨S262144, .i1⟩
  | 81 => ⟨S_, .i32⟩
  | 82 => ⟨S262144, .i32⟩
  | 83 => ⟨S262144, .i32⟩
  | 84 => ⟨S262144, .i32⟩
  | 85 => ⟨S262144x1, .i32⟩
  | 86 => ⟨S1, .i32⟩
  | 87 => ⟨S_, .i32⟩
  | 88 => ⟨S262144x1, .i32⟩
  | 89 => ⟨S262144x1, .i1⟩
  | 90 => ⟨S1x1, .i32⟩
  | 91 => ⟨S262144x1, .i32⟩
  | 92 => ⟨S262144x1, .i1⟩
  | 93 => ⟨S262144x1, .i1⟩
  | 94 => ⟨S_, .i1⟩
  | 95 => ⟨S262144, .i1⟩
  | 96 => ⟨S262144x128, .f32⟩
  | 97 => ⟨S262144x128, .i1⟩
  | 98 => ⟨S_, .f32⟩
  | 99 => ⟨S262144x128, .f32⟩
  | 100 => ⟨S262144x128, .f32⟩
  | 101 => ⟨S262144x128, .f32⟩
  | 102 => ⟨S262144x128, .f32⟩
  | 103 => ⟨S_, .f32⟩
  | 104 => ⟨S512x128, .f32⟩
  | 105 => ⟨S_, .i32⟩
  | 106 => ⟨S262144, .i32⟩
  | 107 => ⟨S262144, .i1⟩
  | 108 => ⟨S_, .i32⟩
  | 109 => ⟨S262144, .i32⟩
  | 110 => ⟨S262144, .i32⟩
  | 111 => ⟨S262144, .i32⟩
  | 112 => ⟨S262144x1, .i32⟩
  | 113 => ⟨S512x128, .f32⟩
  | 114 => ⟨S1x128, .f32⟩
  | 115 => ⟨S512x128, .f32⟩
  | 116 => ⟨S512x128, .f32⟩
  | 117 => ⟨S512x128, .f32⟩
  | 118 => ⟨S_, .f32⟩
  | 119 => ⟨S512, .f32⟩
  | 120 => ⟨S512x1, .f32⟩
  | 121 => ⟨S_, .f32⟩
  | 122 => ⟨S512x1, .f32⟩
  | 123 => ⟨S512x1, .f32⟩
  | 124 => ⟨S_, .i32⟩
  | 125 => ⟨S_, .f32⟩
  | 126 => ⟨S512, .f32⟩
  | 127 => ⟨S512x1, .f32⟩
  | _ => ⟨S4x512x128, .f32⟩

abbrev hbmTy0_2 (i : Nat) : BufTy := match i % 128 with
  | 0 => ⟨S_, .f32⟩
  | 1 => ⟨S512x1, .f32⟩
  | 2 => ⟨S512x1, .f32⟩
  | 3 => ⟨S512x128, .f32⟩
  | 4 => ⟨S512x128, .f32⟩
  | 5 => ⟨S512x128, .f32⟩
  | 6 => ⟨S_, .f32⟩
  | 7 => ⟨S_, .f32⟩
  | 8 => ⟨S_, .f32⟩
  | 9 => ⟨S_, .f32⟩
  | 10 => ⟨S512, .f32⟩
  | 11 => ⟨S512x1, .f32⟩
  | 12 => ⟨S512x1, .f32⟩
  | 13 => ⟨S512x1, .f32⟩
  | 14 => ⟨S_, .f32⟩
  | 15 => ⟨S_, .i1⟩
  | 16 => ⟨S_, .f32⟩
  | 17 => ⟨S_, .f32⟩
  | 18 => ⟨S512x1, .f32⟩
  | 19 => ⟨S512x1, .f32⟩
  | 20 => ⟨S512x128, .f32⟩
  | 21 => ⟨S512x128, .f32⟩
  | 22 => ⟨S_, .f32⟩
  | 23 => ⟨S512x1, .f32⟩
  | 24 => ⟨S512x1, .f32⟩
  | 25 => ⟨S512x1, .f32⟩
  | 26 => ⟨S512x128, .f32⟩
  | 27 => ⟨S512x128, .f32⟩
  | 28 => ⟨S1x128, .f32⟩
  | 29 => ⟨S512x128, .f32⟩
  | 30 => ⟨S512x128, .f32⟩
  | 31 => ⟨S1x128, .f32⟩
  | 32 => ⟨S512x128, .f32⟩
  | 33 => ⟨S512x128, .f32⟩
  | 34 => ⟨S_, .f32⟩
  | 35 => ⟨S512x128, .f32⟩
  | 36 => ⟨S512x128, .f32⟩
  | 37 => ⟨S1x512x512, .f32⟩
  | 38 => ⟨S512x512, .f32⟩
  | 39 => ⟨S262144, .f32⟩
  | 40 => ⟨S1x512x128, .f32⟩
  | 41 => ⟨S512x128, .f32⟩
  | 42 => ⟨S512x128, .f32⟩
  | 43 => ⟨S262144x1, .f32⟩
  | 44 => ⟨S_, .i32⟩
  | 45 => ⟨S262144, .i32⟩
  | 46 => ⟨S262144, .i1⟩
  | 47 => ⟨S_, .i32⟩
  | 48 => ⟨S262144, .i32⟩
  | 49 => ⟨S262144, .i32⟩
  | 50 => ⟨S262144, .i32⟩
  | 51 => ⟨S262144x1, .i32⟩
  | 52 => ⟨S1, .i32⟩
  | 53 => ⟨S_, .i32⟩
  | 54 => ⟨S262144x1, .i32⟩
  | 55 => ⟨S262144x1, .i1⟩
  | 56 => ⟨S1x1, .i32⟩
  | 57 => ⟨S262144x1, .i32⟩
  | 58 => ⟨S262144x1, .i1⟩
  | 59 => ⟨S262144x1, .i1⟩
  | 60 => ⟨S_, .i1⟩
  | 61 => ⟨S262144, .i1⟩
  | 62 => ⟨S262144x128, .f32⟩
  | 63 => ⟨S262144x128, .i1⟩
  | 64 => ⟨S_, .f32⟩
  | 65 => ⟨S262144x128, .f32⟩
  | 66 => ⟨S262144x128, .f32⟩
  | 67 => ⟨S262144x128, .f32⟩
  | 68 => ⟨S262144x128, .f32⟩
  | 69 => ⟨S_, .f32⟩
  | 70 => ⟨S512x128, .f32⟩
  | 71 => ⟨S_, .i32⟩
  | 72 => ⟨S262144, .i32⟩
  | 73 => ⟨S262144, .i1⟩
  | 74 => ⟨S_, .i32⟩
  | 75 => ⟨S262144, .i32⟩
  | 76 => ⟨S262144, .i32⟩
  | 77 => ⟨S262144, .i32⟩
  | 78 => ⟨S262144x1, .i32⟩
  | 79 => ⟨S512x128, .f32⟩
  | 80 => ⟨S1x128, .f32⟩
  | 81 => ⟨S512x128, .f32⟩
  | 82 => ⟨S512x128, .f32⟩
  | 83 => ⟨S512x128, .f32⟩
  | 84 => ⟨S_, .f32⟩
  | 85 => ⟨S512, .f32⟩
  | 86 => ⟨S512x1, .f32⟩
  | 87 => ⟨S_, .f32⟩
  | 88 => ⟨S512x1, .f32⟩
  | 89 => ⟨S512x1, .f32⟩
  | 90 => ⟨S_, .i32⟩
  | 91 => ⟨S_, .f32⟩
  | 92 => ⟨S512, .f32⟩
  | 93 => ⟨S512x1, .f32⟩
  | 94 => ⟨S_, .f32⟩
  | 95 => ⟨S512x1, .f32⟩
  | 96 => ⟨S512x1, .f32⟩
  | 97 => ⟨S512x128, .f32⟩
  | 98 => ⟨S512x128, .f32⟩
  | 99 => ⟨S512x128, .f32⟩
  | 100 => ⟨S_, .f32⟩
  | 101 => ⟨S_, .f32⟩
  | 102 => ⟨S_, .f32⟩
  | 103 => ⟨S_, .f32⟩
  | 104 => ⟨S512, .f32⟩
  | 105 => ⟨S512x1, .f32⟩
  | 106 => ⟨S512x1, .f32⟩
  | 107 => ⟨S512x1, .f32⟩
  | 108 => ⟨S_, .f32⟩
  | 109 => ⟨S_, .i1⟩
  | 110 => ⟨S_, .f32⟩
  | 111 => ⟨S_, .f32⟩
  | 112 => ⟨S512x1, .f32⟩
  | 113 => ⟨S512x1, .f32⟩
  | 114 => ⟨S512x128, .f32⟩
  | 115 => ⟨S512x128, .f32⟩
  | 116 => ⟨S_, .f32⟩
  | 117 => ⟨S512x1, .f32⟩
  | 118 => ⟨S512x1, .f32⟩
  | 119 => ⟨S512x1, .f32⟩
  | 120 => ⟨S512x128, .f32⟩
  | 121 => ⟨S512x128, .f32⟩
  | 122 => ⟨S1x128, .f32⟩
  | 123 => ⟨S512x128, .f32⟩
  | 124 => ⟨S512x128, .f32⟩
  | 125 => ⟨S1x128, .f32⟩
  | 126 => ⟨S512x128, .f32⟩
  | 127 => ⟨S512x128, .f32⟩
  | _ => ⟨S4x512x128, .f32⟩

abbrev hbmTy0_3 (i : Nat) : BufTy := match i % 128 with
  | 0 => ⟨S_, .f32⟩
  | 1 => ⟨S512x128, .f32⟩
  | 2 => ⟨S512x128, .f32⟩
  | 3 => ⟨S512x128, .f32⟩
  | 4 => ⟨S262144x1, .f32⟩
  | 5 => ⟨S_, .i32⟩
  | 6 => ⟨S262144, .i32⟩
  | 7 => ⟨S262144, .i1⟩
  | 8 => ⟨S_, .i32⟩
  | 9 => ⟨S262144, .i32⟩
  | 10 => ⟨S262144, .i32⟩
  | 11 => ⟨S262144, .i32⟩
  | 12 => ⟨S262144x1, .i32⟩
  | 13 => ⟨S1, .i32⟩
  | 14 => ⟨S_, .i32⟩
  | 15 => ⟨S262144x1, .i32⟩
  | 16 => ⟨S262144x1, .i1⟩
  | 17 => ⟨S1x1, .i32⟩
  | 18 => ⟨S262144x1, .i32⟩
  | 19 => ⟨S262144x1, .i1⟩
  | 20 => ⟨S262144x1, .i1⟩
  | 21 => ⟨S_, .i1⟩
  | 22 => ⟨S262144, .i1⟩
  | 23 => ⟨S262144x128, .f32⟩
  | 24 => ⟨S262144x128, .i1⟩
  | 25 => ⟨S_, .f32⟩
  | 26 => ⟨S262144x128, .f32⟩
  | 27 => ⟨S262144x128, .f32⟩
  | 28 => ⟨S262144x128, .f32⟩
  | 29 => ⟨S262144x128, .f32⟩
  | 30 => ⟨S_, .f32⟩
  | 31 => ⟨S512x128, .f32⟩
  | 32 => ⟨S_, .i32⟩
  | 33 => ⟨S262144, .i32⟩
  | 34 => ⟨S262144, .i1⟩
  | 35 => ⟨S_, .i32⟩
  | 36 => ⟨S262144, .i32⟩
  | 37 => ⟨S262144, .i32⟩
  | 38 => ⟨S262144, .i32⟩
  | 39 => ⟨S262144x1, .i32⟩
  | 40 => ⟨S512x128, .f32⟩
  | 41 => ⟨S1x128, .f32⟩
  | 42 => ⟨S512x128, .f32⟩
  | 43 => ⟨S512x128, .f32⟩
  | 44 => ⟨S512x128, .f32⟩
  | 45 => ⟨S_, .f32⟩
  | 46 => ⟨S512, .f32⟩
  | 47 => ⟨S512x1, .f32⟩
  | 48 => ⟨S_, .f32⟩
  | 49 => ⟨S512x1, .f32⟩
  | 50 => ⟨S512x1, .f32⟩
  | 51 => ⟨S_, .i32⟩
  | 52 => ⟨S_, .f32⟩
  | 53 => ⟨S512, .f32⟩
  | 54 => ⟨S512x1, .f32⟩
  | 55 => ⟨S_, .f32⟩
  | 56 => ⟨S512x1, .f32⟩
  | 57 => ⟨S512x1, .f32⟩
  | 58 => ⟨S512x128, .f32⟩
  | 59 => ⟨S512x128, .f32⟩
  | 60 => ⟨S512x128, .f32⟩
  | 61 => ⟨S_, .f32⟩
  | 62 => ⟨S_, .f32⟩
  | 63 => ⟨S_, .f32⟩
  | 64 => ⟨S_, .f32⟩
  | 65 => ⟨S512, .f32⟩
  | 66 => ⟨S512x1, .f32⟩
  | 67 => ⟨S512x1, .f32⟩
  | 68 => ⟨S512x1, .f32⟩
  | 69 => ⟨S_, .f32⟩
  | 70 => ⟨S_, .i1⟩
  | 71 => ⟨S_, .f32⟩
  | 72 => ⟨S_, .f32⟩
  | 73 => ⟨S512x1, .f32⟩
  | 74 => ⟨S512x1, .f32⟩
  | 75 => ⟨S512x128, .f32⟩
  | 76 => ⟨S512x128, .f32⟩
  | 77 => ⟨S_, .f32⟩
  | 78 => ⟨S512x1, .f32⟩
  | 79 => ⟨S512x1, .f32⟩
  | 80 => ⟨S512x1, .f32⟩
  | 81 => ⟨S512x128, .f32⟩
  | 82 => ⟨S512x128, .f32⟩
  | 83 => ⟨S1x128, .f32⟩
  | 84 => ⟨S512x128, .f32⟩
  | 85 => ⟨S512x128, .f32⟩
  | 86 => ⟨S1x128, .f32⟩
  | 87 => ⟨S512x128, .f32⟩
  | 88 => ⟨S512x128, .f32⟩
  | 89 => ⟨S_, .f32⟩
  | 90 => ⟨S512x128, .f32⟩
  | 91 => ⟨S512x128, .f32⟩
  | 92 => ⟨S512x128, .f32⟩
  | 93 => ⟨S262144x1, .f32⟩
  | 94 => ⟨S_, .i32⟩
  | 95 => ⟨S262144, .i32⟩
  | 96 => ⟨S262144, .i1⟩
  | 97 => ⟨S_, .i32⟩
  | 98 => ⟨S262144, .i32⟩
  | 99 => ⟨S262144, .i32⟩
  | 100 => ⟨S262144, .i32⟩
  | 101 => ⟨S262144x1, .i32⟩
  | 102 => ⟨S1, .i32⟩
  | 103 => ⟨S_, .i32⟩
  | 104 => ⟨S262144x1, .i32⟩
  | 105 => ⟨S262144x1, .i1⟩
  | 106 => ⟨S1x1, .i32⟩
  | 107 => ⟨S262144x1, .i32⟩
  | 108 => ⟨S262144x1, .i1⟩
  | 109 => ⟨S262144x1, .i1⟩
  | 110 => ⟨S_, .i1⟩
  | 111 => ⟨S262144, .i1⟩
  | 112 => ⟨S262144x128, .f32⟩
  | 113 => ⟨S262144x128, .i1⟩
  | 114 => ⟨S_, .f32⟩
  | 115 => ⟨S262144x128, .f32⟩
  | 116 => ⟨S262144x128, .f32⟩
  | 117 => ⟨S262144x128, .f32⟩
  | 118 => ⟨S262144x128, .f32⟩
  | 119 => ⟨S_, .f32⟩
  | 120 => ⟨S512x128, .f32⟩
  | 121 => ⟨S_, .i32⟩
  | 122 => ⟨S262144, .i32⟩
  | 123 => ⟨S262144, .i1⟩
  | 124 => ⟨S_, .i32⟩
  | 125 => ⟨S262144, .i32⟩
  | 126 => ⟨S262144, .i32⟩
  | 127 => ⟨S262144, .i32⟩
  | _ => ⟨S4x512x128, .f32⟩

abbrev hbmTy0_4 (i : Nat) : BufTy := match i % 128 with
  | 0 => ⟨S262144x1, .i32⟩
  | 1 => ⟨S512x128, .f32⟩
  | 2 => ⟨S1x128, .f32⟩
  | 3 => ⟨S512x128, .f32⟩
  | 4 => ⟨S512x128, .f32⟩
  | 5 => ⟨S512x128, .f32⟩
  | 6 => ⟨S_, .f32⟩
  | 7 => ⟨S512, .f32⟩
  | 8 => ⟨S512x1, .f32⟩
  | 9 => ⟨S_, .f32⟩
  | 10 => ⟨S512x1, .f32⟩
  | 11 => ⟨S512x1, .f32⟩
  | 12 => ⟨S_, .i32⟩
  | 13 => ⟨S_, .f32⟩
  | 14 => ⟨S512, .f32⟩
  | 15 => ⟨S512x1, .f32⟩
  | 16 => ⟨S_, .f32⟩
  | 17 => ⟨S512x1, .f32⟩
  | 18 => ⟨S512x1, .f32⟩
  | 19 => ⟨S512x128, .f32⟩
  | 20 => ⟨S512x128, .f32⟩
  | 21 => ⟨S512x128, .f32⟩
  | 22 => ⟨S_, .f32⟩
  | 23 => ⟨S_, .f32⟩
  | 24 => ⟨S_, .f32⟩
  | 25 => ⟨S_, .f32⟩
  | 26 => ⟨S512, .f32⟩
  | 27 => ⟨S512x1, .f32⟩
  | 28 => ⟨S512x1, .f32⟩
  | 29 => ⟨S512x1, .f32⟩
  | 30 => ⟨S_, .f32⟩
  | 31 => ⟨S_, .i1⟩
  | 32 => ⟨S_, .f32⟩
  | 33 => ⟨S_, .f32⟩
  | 34 => ⟨S512x1, .f32⟩
  | 35 => ⟨S512x1, .f32⟩
  | 36 => ⟨S512x128, .f32⟩
  | 37 => ⟨S512x128, .f32⟩
  | 38 => ⟨S_, .f32⟩
  | 39 => ⟨S512x1, .f32⟩
  | 40 => ⟨S512x1, .f32⟩
  | 41 => ⟨S512x1, .f32⟩
  | 42 => ⟨S512x128, .f32⟩
  | 43 => ⟨S512x128, .f32⟩
  | 44 => ⟨S1x128, .f32⟩
  | 45 => ⟨S512x128, .f32⟩
  | 46 => ⟨S512x128, .f32⟩
  | 47 => ⟨S1x128, .f32⟩
  | 48 => ⟨S512x128, .f32⟩
  | 49 => ⟨S512x128, .f32⟩
  | 50 => ⟨S_, .f32⟩
  | 51 => ⟨S512x128, .f32⟩
  | 52 => ⟨S512x128, .f32⟩
  | 53 => ⟨S1x512x512, .f32⟩
  | 54 => ⟨S512x512, .f32⟩
  | 55 => ⟨S262144, .f32⟩
  | 56 => ⟨S1x512x128, .f32⟩
  | 57 => ⟨S512x128, .f32⟩
  | 58 => ⟨S512x128, .f32⟩
  | 59 => ⟨S262144x1, .f32⟩
  | 60 => ⟨S_, .i32⟩
  | 61 => ⟨S262144, .i32⟩
  | 62 => ⟨S262144, .i1⟩
  | 63 => ⟨S_, .i32⟩
  | 64 => ⟨S262144, .i32⟩
  | 65 => ⟨S262144, .i32⟩
  | 66 => ⟨S262144, .i32⟩
  | 67 => ⟨S262144x1, .i32⟩
  | 68 => ⟨S1, .i32⟩
  | 69 => ⟨S_, .i32⟩
  | 70 => ⟨S262144x1, .i32⟩
  | 71 => ⟨S262144x1, .i1⟩
  | 72 => ⟨S1x1, .i32⟩
  | 73 => ⟨S262144x1, .i32⟩
  | 74 => ⟨S262144x1, .i1⟩
  | 75 => ⟨S262144x1, .i1⟩
  | 76 => ⟨S_, .i1⟩
  | 77 => ⟨S262144, .i1⟩
  | 78 => ⟨S262144x128, .f32⟩
  | 79 => ⟨S262144x128, .i1⟩
  | 80 => ⟨S_, .f32⟩
  | 81 => ⟨S262144x128, .f32⟩
  | 82 => ⟨S262144x128, .f32⟩
  | 83 => ⟨S262144x128, .f32⟩
  | 84 => ⟨S262144x128, .f32⟩
  | 85 => ⟨S_, .f32⟩
  | 86 => ⟨S512x128, .f32⟩
  | 87 => ⟨S_, .i32⟩
  | 88 => ⟨S262144, .i32⟩
  | 89 => ⟨S262144, .i1⟩
  | 90 => ⟨S_, .i32⟩
  | 91 => ⟨S262144, .i32⟩
  | 92 => ⟨S262144, .i32⟩
  | 93 => ⟨S262144, .i32⟩
  | 94 => ⟨S262144x1, .i32⟩
  | 95 => ⟨S512x128, .f32⟩
  | 96 => ⟨S1x128, .f32⟩
  | 97 => ⟨S512x128, .f32⟩
  | 98 => ⟨S512x128, .f32⟩
  | 99 => ⟨S512x128, .f32⟩
  | 100 => ⟨S_, .f32⟩
  | 101 => ⟨S512, .f32⟩
  | 102 => ⟨S512x1, .f32⟩
  | 103 => ⟨S_, .f32⟩
  | 104 => ⟨S512x1, .f32⟩
  | 105 => ⟨S512x1, .f32⟩
  | 106 => ⟨S_, .i32⟩
  | 107 => ⟨S_, .f32⟩
  | 108 => ⟨S512, .f32⟩
  | 109 => ⟨S512x1, .f32⟩
  | 110 => ⟨S_, .f32⟩
  | 111 => ⟨S512x1, .f32⟩
  | 112 => ⟨S512x1, .f32⟩
  | 113 => ⟨S512x128, .f32⟩
  | 114 => ⟨S512x128, .f32⟩
  | 115 => ⟨S512x128, .f32⟩
  | 116 => ⟨S_, .f32⟩
  | 117 => ⟨S_, .f32⟩
  | 118 => ⟨S_, .f32⟩
  | 119 => ⟨S_, .f32⟩
  | 120 => ⟨S512, .f32⟩
  | 121 => ⟨S512x1, .f32⟩
  | 122 => ⟨S512x1, .f32⟩
  | 123 => ⟨S512x1, .f32⟩
  | 124 => ⟨S_, .f32⟩
  | 125 => ⟨S_, .i1⟩
  | 126 => ⟨S_, .f32⟩
  | 127 => ⟨S_, .f32⟩
  | _ => ⟨S4x512x128, .f32⟩

abbrev hbmTy0_5 (i : Nat) : BufTy := match i % 128 with
  | 0 => ⟨S512x1, .f32⟩
  | 1 => ⟨S512x1, .f32⟩
  | 2 => ⟨S512x128, .f32⟩
  | 3 => ⟨S512x128, .f32⟩
  | 4 => ⟨S_, .f32⟩
  | 5 => ⟨S512x1, .f32⟩
  | 6 => ⟨S512x1, .f32⟩
  | 7 => ⟨S512x1, .f32⟩
  | 8 => ⟨S512x128, .f32⟩
  | 9 => ⟨S512x128, .f32⟩
  | 10 => ⟨S1x128, .f32⟩
  | 11 => ⟨S512x128, .f32⟩
  | 12 => ⟨S512x128, .f32⟩
  | 13 => ⟨S1x128, .f32⟩
  | 14 => ⟨S512x128, .f32⟩
  | 15 => ⟨S512x128, .f32⟩
  | 16 => ⟨S_, .f32⟩
  | 17 => ⟨S512x128, .f32⟩
  | 18 => ⟨S512x128, .f32⟩
  | 19 => ⟨S512x128, .f32⟩
  | 20 => ⟨S262144x1, .f32⟩
  | 21 => ⟨S_, .i32⟩
  | 22 => ⟨S262144, .i32⟩
  | 23 => ⟨S262144, .i1⟩
  | 24 => ⟨S_, .i32⟩
  | 25 => ⟨S262144, .i32⟩
  | 26 => ⟨S262144, .i32⟩
  | 27 => ⟨S262144, .i32⟩
  | 28 => ⟨S262144x1, .i32⟩
  | 29 => ⟨S1, .i32⟩
  | 30 => ⟨S_, .i32⟩
  | 31 => ⟨S262144x1, .i32⟩
  | 32 => ⟨S262144x1, .i1⟩
  | 33 => ⟨S1x1, .i32⟩
  | 34 => ⟨S262144x1, .i32⟩
  | 35 => ⟨S262144x1, .i1⟩
  | 36 => ⟨S262144x1, .i1⟩
  | 37 => ⟨S_, .i1⟩
  | 38 => ⟨S262144, .i1⟩
  | 39 => ⟨S262144x128, .f32⟩
  | 40 => ⟨S262144x128, .i1⟩
  | 41 => ⟨S_, .f32⟩
  | 42 => ⟨S262144x128, .f32⟩
  | 43 => ⟨S262144x128, .f32⟩
  | 44 => ⟨S262144x128, .f32⟩
  | 45 => ⟨S262144x128, .f32⟩
  | 46 => ⟨S_, .f32⟩
  | 47 => ⟨S512x128, .f32⟩
  | 48 => ⟨S_, .i32⟩
  | 49 => ⟨S262144, .i32⟩
  | 50 => ⟨S262144, .i1⟩
  | 51 => ⟨S_, .i32⟩
  | 52 => ⟨S262144, .i32⟩
  | 53 => ⟨S262144, .i32⟩
  | 54 => ⟨S262144, .i32⟩
  | 55 => ⟨S262144x1, .i32⟩
  | 56 => ⟨S512x128, .f32⟩
  | 57 => ⟨S1x128, .f32⟩
  | 58 => ⟨S512x128, .f32⟩
  | 59 => ⟨S512x128, .f32⟩
  | 60 => ⟨S512x128, .f32⟩
  | 61 => ⟨S_, .f32⟩
  | 62 => ⟨S512, .f32⟩
  | 63 => ⟨S512x1, .f32⟩
  | 64 => ⟨S_, .f32⟩
  | 65 => ⟨S512x1, .f32⟩
  | 66 => ⟨S512x1, .f32⟩
  | 67 => ⟨S_, .i32⟩
  | 68 => ⟨S_, .f32⟩
  | 69 => ⟨S512, .f32⟩
  | 70 => ⟨S512x1, .f32⟩
  | 71 => ⟨S_, .f32⟩
  | 72 => ⟨S512x1, .f32⟩
  | 73 => ⟨S512x1, .f32⟩
  | 74 => ⟨S512x128, .f32⟩
  | 75 => ⟨S512x128, .f32⟩
  | 76 => ⟨S512x128, .f32⟩
  | 77 => ⟨S_, .f32⟩
  | 78 => ⟨S_, .f32⟩
  | 79 => ⟨S_, .f32⟩
  | 80 => ⟨S_, .f32⟩
  | 81 => ⟨S512, .f32⟩
  | 82 => ⟨S512x1, .f32⟩
  | 83 => ⟨S512x1, .f32⟩
  | 84 => ⟨S512x1, .f32⟩
  | 85 => ⟨S_, .f32⟩
  | 86 => ⟨S_, .i1⟩
  | 87 => ⟨S_, .f32⟩
  | 88 => ⟨S_, .f32⟩
  | 89 => ⟨S512x1, .f32⟩
  | 90 => ⟨S512x1, .f32⟩
  | 91 => ⟨S512x128, .f32⟩
  | 92 => ⟨S512x128, .f32⟩
  | 93 => ⟨S_, .f32⟩
  | 94 => ⟨S512x1, .f32⟩
  | 95 => ⟨S512x1, .f32⟩
  | 96 => ⟨S512x1, .f32⟩
  | 97 => ⟨S512x128, .f32⟩
  | 98 => ⟨S512x128, .f32⟩
  | 99 => ⟨S1x128, .f32⟩
  | 100 => ⟨S512x128, .f32⟩
  | 101 => ⟨S512x128, .f32⟩
  | 102 => ⟨S1x128, .f32⟩
  | 103 => ⟨S512x128, .f32⟩
  | 104 => ⟨S512x128, .f32⟩
  | 105 => ⟨S_, .f32⟩
  | 106 => ⟨S512x128, .f32⟩
  | 107 => ⟨S512x128, .f32⟩
  | 108 => ⟨S512x128, .f32⟩
  | 109 => ⟨S262144x1, .f32⟩
  | 110 => ⟨S_, .i32⟩
  | 111 => ⟨S262144, .i32⟩
  | 112 => ⟨S262144, .i1⟩
  | 113 => ⟨S_, .i32⟩
  | 114 => ⟨S262144, .i32⟩
  | 115 => ⟨S262144, .i32⟩
  | 116 => ⟨S262144, .i32⟩
  | 117 => ⟨S262144x1, .i32⟩
  | 118 => ⟨S1, .i32⟩
  | 119 => ⟨S_, .i32⟩
  | 120 => ⟨S262144x1, .i32⟩
  | 121 => ⟨S262144x1, .i1⟩
  | 122 => ⟨S1x1, .i32⟩
  | 123 => ⟨S262144x1, .i32⟩
  | 124 => ⟨S262144x1, .i1⟩
  | 125 => ⟨S262144x1, .i1⟩
  | 126 => ⟨S_, .i1⟩
  | 127 => ⟨S262144, .i1⟩
  | _ => ⟨S4x512x128, .f32⟩

abbrev hbmTy0_6 (i : Nat) : BufTy := match i % 128 with
  | 0 => ⟨S262144x128, .f32⟩
  | 1 => ⟨S262144x128, .i1⟩
  | 2 => ⟨S_, .f32⟩
  | 3 => ⟨S262144x128, .f32⟩
  | 4 => ⟨S262144x128, .f32⟩
  | 5 => ⟨S262144x128, .f32⟩
  | 6 => ⟨S262144x128, .f32⟩
  | 7 => ⟨S_, .f32⟩
  | 8 => ⟨S512x128, .f32⟩
  | 9 => ⟨S_, .i32⟩
  | 10 => ⟨S262144, .i32⟩
  | 11 => ⟨S262144, .i1⟩
  | 12 => ⟨S_, .i32⟩
  | 13 => ⟨S262144, .i32⟩
  | 14 => ⟨S262144, .i32⟩
  | 15 => ⟨S262144, .i32⟩
  | 16 => ⟨S262144x1, .i32⟩
  | 17 => ⟨S512x128, .f32⟩
  | 18 => ⟨S1x128, .f32⟩
  | 19 => ⟨S512x128, .f32⟩
  | 20 => ⟨S512x128, .f32⟩
  | 21 => ⟨S512x128, .f32⟩
  | 22 => ⟨S_, .f32⟩
  | 23 => ⟨S512, .f32⟩
  | 24 => ⟨S512x1, .f32⟩
  | 25 => ⟨S_, .f32⟩
  | 26 => ⟨S512x1, .f32⟩
  | 27 => ⟨S512x1, .f32⟩
  | 28 => ⟨S_, .i32⟩
  | 29 => ⟨S_, .f32⟩
  | 30 => ⟨S512, .f32⟩
  | 31 => ⟨S512x1, .f32⟩
  | 32 => ⟨S_, .f32⟩
  | 33 => ⟨S512x1, .f32⟩
  | 34 => ⟨S512x1, .f32⟩
  | 35 => ⟨S512x128, .f32⟩
  | 36 => ⟨S512x128, .f32⟩
  | 37 => ⟨S512x128, .f32⟩
  | 38 => ⟨S_, .f32⟩
  | 39 => ⟨S_, .f32⟩
  | 40 => ⟨S_, .f32⟩
  | 41 => ⟨S_, .f32⟩
  | 42 => ⟨S512, .f32⟩
  | 43 => ⟨S512x1, .f32⟩
  | 44 => ⟨S512x1, .f32⟩
  | 45 => ⟨S512x1, .f32⟩
  | 46 => ⟨S_, .f32⟩
  | 47 => ⟨S_, .i1⟩
  | 48 => ⟨S_, .f32⟩
  | 49 => ⟨S_, .f32⟩
  | 50 => ⟨S512x1, .f32⟩
  | 51 => ⟨S512x1, .f32⟩
  | 52 => ⟨S512x128, .f32⟩
  | 53 => ⟨S512x128, .f32⟩
  | 54 => ⟨S_, .f32⟩
  | 55 => ⟨S512x1, .f32⟩
  | 56 => ⟨S512x1, .f32⟩
  | 57 => ⟨S512x1, .f32⟩
  | 58 => ⟨S512x128, .f32⟩
  | 59 => ⟨S512x128, .f32⟩
  | 60 => ⟨S1x128, .f32⟩
  | 61 => ⟨S512x128, .f32⟩
  | 62 => ⟨S512x128, .f32⟩
  | 63 => ⟨S1x128, .f32⟩
  | 64 => ⟨S512x128, .f32⟩
  | 65 => ⟨S512x128, .f32⟩
  | 66 => ⟨S_, .f32⟩
  | 67 => ⟨S512x128, .f32⟩
  | 68 => ⟨S512x128, .f32⟩
  | 69 => ⟨S1x512x512, .f32⟩
  | 70 => ⟨S512x512, .f32⟩
  | 71 => ⟨S262144, .f32⟩
  | 72 => ⟨S1x512x128, .f32⟩
  | 73 => ⟨S512x128, .f32⟩
  | 74 => ⟨S512x128, .f32⟩
  | 75 => ⟨S262144x1, .f32⟩
  | 76 => ⟨S_, .i32⟩
  | 77 => ⟨S262144, .i32⟩
  | 78 => ⟨S262144, .i1⟩
  | 79 => ⟨S_, .i32⟩
  | 80 => ⟨S262144, .i32⟩
  | 81 => ⟨S262144, .i32⟩
  | 82 => ⟨S262144, .i32⟩
  | 83 => ⟨S262144x1, .i32⟩
  | 84 => ⟨S1, .i32⟩
  | 85 => ⟨S_, .i32⟩
  | 86 => ⟨S262144x1, .i32⟩
  | 87 => ⟨S262144x1, .i1⟩
  | 88 => ⟨S1x1, .i32⟩
  | 89 => ⟨S262144x1, .i32⟩
  | 90 => ⟨S262144x1, .i1⟩
  | 91 => ⟨S262144x1, .i1⟩
  | 92 => ⟨S_, .i1⟩
  | 93 => ⟨S262144, .i1⟩
  | 94 => ⟨S262144x128, .f32⟩
  | 95 => ⟨S262144x128, .i1⟩
  | 96 => ⟨S_, .f32⟩
  | 97 => ⟨S262144x128, .f32⟩
  | 98 => ⟨S262144x128, .f32⟩
  | 99 => ⟨S262144x128, .f32⟩
  | 100 => ⟨S262144x128, .f32⟩
  | 101 => ⟨S_, .f32⟩
  | 102 => ⟨S512x128, .f32⟩
  | 103 => ⟨S_, .i32⟩
  | 104 => ⟨S262144, .i32⟩
  | 105 => ⟨S262144, .i1⟩
  | 106 => ⟨S_, .i32⟩
  | 107 => ⟨S262144, .i32⟩
  | 108 => ⟨S262144, .i32⟩
  | 109 => ⟨S262144, .i32⟩
  | 110 => ⟨S262144x1, .i32⟩
  | 111 => ⟨S512x128, .f32⟩
  | 112 => ⟨S1x128, .f32⟩
  | 113 => ⟨S512x128, .f32⟩
  | 114 => ⟨S512x128, .f32⟩
  | 115 => ⟨S512x128, .f32⟩
  | 116 => ⟨S_, .f32⟩
  | 117 => ⟨S512, .f32⟩
  | 118 => ⟨S512x1, .f32⟩
  | 119 => ⟨S_, .f32⟩
  | 120 => ⟨S512x1, .f32⟩
  | 121 => ⟨S512x1, .f32⟩
  | 122 => ⟨S_, .i32⟩
  | 123 => ⟨S_, .f32⟩
  | 124 => ⟨S512, .f32⟩
  | 125 => ⟨S512x1, .f32⟩
  | 126 => ⟨S_, .f32⟩
  | 127 => ⟨S512x1, .f32⟩
  | _ => ⟨S4x512x128, .f32⟩

abbrev hbmTy0_7 (i : Nat) : BufTy := match i % 128 with
  | 0 => ⟨S512x1, .f32⟩
  | 1 => ⟨S512x128, .f32⟩
  | 2 => ⟨S512x128, .f32⟩
  | 3 => ⟨S512x128, .f32⟩
  | 4 => ⟨S_, .f32⟩
  | 5 => ⟨S_, .f32⟩
  | 6 => ⟨S_, .f32⟩
  | 7 => ⟨S_, .f32⟩
  | 8 => ⟨S512, .f32⟩
  | 9 => ⟨S512x1, .f32⟩
  | 10 => ⟨S512x1, .f32⟩
  | 11 => ⟨S512x1, .f32⟩
  | 12 => ⟨S_, .f32⟩
  | 13 => ⟨S_, .i1⟩
  | 14 => ⟨S_, .f32⟩
  | 15 => ⟨S_, .f32⟩
  | 16 => ⟨S512x1, .f32⟩
  | 17 => ⟨S512x1, .f32⟩
  | 18 => ⟨S512x128, .f32⟩
  | 19 => ⟨S512x128, .f32⟩
  | 20 => ⟨S_, .f32⟩
  | 21 => ⟨S512x1, .f32⟩
  | 22 => ⟨S512x1, .f32⟩
  | 23 => ⟨S512x1, .f32⟩
  | 24 => ⟨S512x128, .f32⟩
  | 25 => ⟨S512x128, .f32⟩
  | 26 => ⟨S1x128, .f32⟩
  | 27 => ⟨S512x128, .f32⟩
  | 28 => ⟨S512x128, .f32⟩
  | 29 => ⟨S1x128, .f32⟩
  | 30 => ⟨S512x128, .f32⟩
  | 31 => ⟨S512x128, .f32⟩
  | 32 => ⟨S_, .f32⟩
  | 33 => ⟨S512x128, .f32⟩
  | 34 => ⟨S512x128, .f32⟩
  | 35 => ⟨S512x128, .f32⟩
  | 36 => ⟨S262144x1, .f32⟩
  | 37 => ⟨S_, .i32⟩
  | 38 => ⟨S262144, .i32⟩
  | 39 => ⟨S262144, .i1⟩
  | 40 => ⟨S_, .i32⟩
  | 41 => ⟨S262144, .i32⟩
  | 42 => ⟨S262144, .i32⟩
  | 43 => ⟨S262144, .i32⟩
  | 44 => ⟨S262144x1, .i32⟩
  | 45 => ⟨S1, .i32⟩
  | 46 => ⟨S_, .i32⟩
  | 47 => ⟨S262144x1, .i32⟩
  | 48 => ⟨S262144x1, .i1⟩
  | 49 => ⟨S1x1, .i32⟩
  | 50 => ⟨S262144x1, .i32⟩
  | 51 => ⟨S262144x1, .i1⟩
  | 52 => ⟨S262144x1, .i1⟩
  | 53 => ⟨S_, .i1⟩
  | 54 => ⟨S262144, .i1⟩
  | 55 => ⟨S262144x128, .f32⟩
  | 56 => ⟨S262144x128, .i1⟩
  | 57 => ⟨S_, .f32⟩
  | 58 => ⟨S262144x128, .f32⟩
  | 59 => ⟨S262144x128, .f32⟩
  | 60 => ⟨S262144x128, .f32⟩
  | 61 => ⟨S262144x128, .f32⟩
  | 62 => ⟨S_, .f32⟩
  | 63 => ⟨S512x128, .f32⟩
  | 64 => ⟨S_, .i32⟩
  | 65 => ⟨S262144, .i32⟩
  | 66 => ⟨S262144, .i1⟩
  | 67 => ⟨S_, .i32⟩
  | 68 => ⟨S262144, .i32⟩
  | 69 => ⟨S262144, .i32⟩
  | 70 => ⟨S262144, .i32⟩
  | 71 => ⟨S262144x1, .i32⟩
  | 72 => ⟨S512x128, .f32⟩
  | 73 => ⟨S1x128, .f32⟩
  | 74 => ⟨S512x128, .f32⟩
  | 75 => ⟨S512x128, .f32⟩
  | 76 => ⟨S512x128, .f32⟩
  | 77 => ⟨S_, .f32⟩
  | 78 => ⟨S512, .f32⟩
  | 79 => ⟨S512x1, .f32⟩
  | 80 => ⟨S_, .f32⟩
  | 81 => ⟨S512x1, .f32⟩
  | 82 => ⟨S512x1, .f32⟩
  | 83 => ⟨S_, .i32⟩
  | 84 => ⟨S_, .f32⟩
  | 85 => ⟨S512, .f32⟩
  | 86 => ⟨S512x1, .f32⟩
  | 87 => ⟨S_, .f32⟩
  | 88 => ⟨S512x1, .f32⟩
  | 89 => ⟨S512x1, .f32⟩
  | 90 => ⟨S512x128, .f32⟩
  | 91 => ⟨S512x128, .f32⟩
  | 92 => ⟨S512x128, .f32⟩
  | 93 => ⟨S_, .f32⟩
  | 94 => ⟨S_, .f32⟩
  | 95 => ⟨S_, .f32⟩
  | 96 => ⟨S_, .f32⟩
  | 97 => ⟨S512, .f32⟩
  | 98 => ⟨S512x1, .f32⟩
  | 99 => ⟨S512x1, .f32⟩
  | 100 => ⟨S512x1, .f32⟩
  | 101 => ⟨S_, .f32⟩
  | 102 => ⟨S_, .i1⟩
  | 103 => ⟨S_, .f32⟩
  | 104 => ⟨S_, .f32⟩
  | 105 => ⟨S512x1, .f32⟩
  | 106 => ⟨S512x1, .f32⟩
  | 107 => ⟨S512x128, .f32⟩
  | 108 => ⟨S512x128, .f32⟩
  | 109 => ⟨S_, .f32⟩
  | 110 => ⟨S512x1, .f32⟩
  | 111 => ⟨S512x1, .f32⟩
  | 112 => ⟨S512x1, .f32⟩
  | 113 => ⟨S512x128, .f32⟩
  | 114 => ⟨S512x128, .f32⟩
  | 115 => ⟨S1x128, .f32⟩
  | 116 => ⟨S512x128, .f32⟩
  | 117 => ⟨S512x128, .f32⟩
  | 118 => ⟨S1x128, .f32⟩
  | 119 => ⟨S512x128, .f32⟩
  | 120 => ⟨S512x128, .f32⟩
  | 121 => ⟨S_, .f32⟩
  | 122 => ⟨S512x128, .f32⟩
  | 123 => ⟨S512x128, .f32⟩
  | 124 => ⟨S512x128, .f32⟩
  | 125 => ⟨S262144x1, .f32⟩
  | 126 => ⟨S_, .i32⟩
  | 127 => ⟨S262144, .i32⟩
  | _ => ⟨S4x512x128, .f32⟩

abbrev hbmTy0_8 (i : Nat) : BufTy := match i % 128 with
  | 0 => ⟨S262144, .i1⟩
  | 1 => ⟨S_, .i32⟩
  | 2 => ⟨S262144, .i32⟩
  | 3 => ⟨S262144, .i32⟩
  | 4 => ⟨S262144, .i32⟩
  | 5 => ⟨S262144x1, .i32⟩
  | 6 => ⟨S1, .i32⟩
  | 7 => ⟨S_, .i32⟩
  | 8 => ⟨S262144x1, .i32⟩
  | 9 => ⟨S262144x1, .i1⟩
  | 10 => ⟨S1x1, .i32⟩
  | 11 => ⟨S262144x1, .i32⟩
  | 12 => ⟨S262144x1, .i1⟩
  | 13 => ⟨S262144x1, .i1⟩
  | 14 => ⟨S_, .i1⟩
  | 15 => ⟨S262144, .i1⟩
  | 16 => ⟨S262144x128, .f32⟩
  | 17 => ⟨S262144x128, .i1⟩
  | 18 => ⟨S_, .f32⟩
  | 19 => ⟨S262144x128, .f32⟩
  | 20 => ⟨S262144x128, .f32⟩
  | 21 => ⟨S262144x128, .f32⟩
  | 22 => ⟨S262144x128, .f32⟩
  | 23 => ⟨S_, .f32⟩
  | 24 => ⟨S512x128, .f32⟩
  | 25 => ⟨S_, .i32⟩
  | 26 => ⟨S262144, .i32⟩
  | 27 => ⟨S262144, .i1⟩
  | 28 => ⟨S_, .i32⟩
  | 29 => ⟨S262144, .i32⟩
  | 30 => ⟨S262144, .i32⟩
  | 31 => ⟨S262144, .i32⟩
  | 32 => ⟨S262144x1, .i32⟩
  | 33 => ⟨S512x128, .f32⟩
  | 34 => ⟨S1x128, .f32⟩
  | 35 => ⟨S512x128, .f32⟩
  | 36 => ⟨S512x128, .f32⟩
  | 37 => ⟨S512x128, .f32⟩
  | 38 => ⟨S_, .f32⟩
  | 39 => ⟨S512, .f32⟩
  | 40 => ⟨S512x1, .f32⟩
  | 41 => ⟨S_, .f32⟩
  | 42 => ⟨S512x1, .f32⟩
  | 43 => ⟨S512x1, .f32⟩
  | 44 => ⟨S_, .i32⟩
  | 45 => ⟨S_, .f32⟩
  | 46 => ⟨S512, .f32⟩
  | 47 => ⟨S512x1, .f32⟩
  | 48 => ⟨S_, .f32⟩
  | 49 => ⟨S512x1, .f32⟩
  | 50 => ⟨S512x1, .f32⟩
  | 51 => ⟨S512x128, .f32⟩
  | 52 => ⟨S512x128, .f32⟩
  | 53 => ⟨S512x128, .f32⟩
  | 54 => ⟨S_, .f32⟩
  | 55 => ⟨S_, .f32⟩
  | 56 => ⟨S_, .f32⟩
  | 57 => ⟨S_, .f32⟩
  | 58 => ⟨S512, .f32⟩
  | 59 => ⟨S512x1, .f32⟩
  | 60 => ⟨S512x1, .f32⟩
  | 61 => ⟨S512x1, .f32⟩
  | 62 => ⟨S_, .f32⟩
  | 63 => ⟨S_, .i1⟩
  | 64 => ⟨S_, .f32⟩
  | 65 => ⟨S_, .f32⟩
  | 66 => ⟨S512x1, .f32⟩
  | 67 => ⟨S512x1, .f32⟩
  | 68 => ⟨S512x128, .f32⟩
  | 69 => ⟨S512x128, .f32⟩
  | 70 => ⟨S_, .f32⟩
  | 71 => ⟨S512x1, .f32⟩
  | 72 => ⟨S512x1, .f32⟩
  | 73 => ⟨S512x1, .f32⟩
  | 74 => ⟨S512x128, .f32⟩
  | 75 => ⟨S512x128, .f32⟩
  | 76 => ⟨S1x128, .f32⟩
  | 77 => ⟨S512x128, .f32⟩
  | 78 => ⟨S512x128, .f32⟩
  | 79 => ⟨S1x128, .f32⟩
  | 80 => ⟨S512x128, .f32⟩
  | 81 => ⟨S512x128, .f32⟩
  | 82 => ⟨S_, .f32⟩
  | 83 => ⟨S512x128, .f32⟩
  | 84 => ⟨S512x128, .f32⟩
  | 85 => ⟨S1x512x128, .f32⟩
  | 86 => ⟨S1x512x128, .f32⟩
  | 87 => ⟨S1x512x128, .f32⟩
  | 88 => ⟨S1x512x128, .f32⟩
  | 89 => ⟨S4x512x128, .f32⟩
  | _ => ⟨S4x512x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S4x512x128, .f32⟩

abbrev bufTy : (tb : Table) → Fin (tcTables nBuf tb) → BufTy
  | .hbm, ⟨i, _⟩ => hbmTy i
  | _, _ => ⟨S4x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_call0_c : Ref sig .tc := ⟨.hbm, 28, rfl⟩
abbrev main_call0_v0 : Ref sig .tc := ⟨.hbm, 29, rfl⟩
abbrev main_call0_v1 : Ref sig .tc := ⟨.hbm, 30, rfl⟩
abbrev main_call0_c_0 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_c_1 : Ref sig .tc := ⟨.hbm, 36, rfl⟩
abbrev main_call0_c_2 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_c_3 : Ref sig .tc := ⟨.hbm, 44, rfl⟩
abbrev main_call0_v12 : Ref sig .tc := ⟨.hbm, 45, rfl⟩
abbrev main_call0_v13 : Ref sig .tc := ⟨.hbm, 46, rfl⟩
abbrev main_call0_v14 : Ref sig .tc := ⟨.hbm, 47, rfl⟩
abbrev main_call0_cst : Ref sig .tc := ⟨.hbm, 48, rfl⟩
abbrev main_call0_v15 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_cst : Ref sig .tc := ⟨.hbm, 53, rfl⟩
abbrev main_v17 : Ref sig .tc := ⟨.hbm, 54, rfl⟩
abbrev main_c : Ref sig .tc := ⟨.hbm, 55, rfl⟩
abbrev main_v18 : Ref sig .tc := ⟨.hbm, 56, rfl⟩
abbrev main_v19 : Ref sig .tc := ⟨.hbm, 57, rfl⟩
abbrev main_c_0 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_cst_1 : Ref sig .tc := ⟨.hbm, 68, rfl⟩
abbrev main_v29 : Ref sig .tc := ⟨.hbm, 69, rfl⟩
abbrev main_v30 : Ref sig .tc := ⟨.hbm, 70, rfl⟩
abbrev main_cst_2 : Ref sig .tc := ⟨.hbm, 71, rfl⟩
abbrev main_v31 : Ref sig .tc := ⟨.hbm, 72, rfl⟩
abbrev main_v32 : Ref sig .tc := ⟨.hbm, 73, rfl⟩
abbrev main_c_3 : Ref sig .tc := ⟨.hbm, 74, rfl⟩
abbrev main_call1_cst : Ref sig .tc := ⟨.hbm, 75, rfl⟩
abbrev main_call1_v0 : Ref sig .tc := ⟨.hbm, 76, rfl⟩
abbrev main_call1_v1 : Ref sig .tc := ⟨.hbm, 77, rfl⟩
abbrev main_call1_cst_0 : Ref sig .tc := ⟨.hbm, 78, rfl⟩
abbrev main_call1_v2 : Ref sig .tc := ⟨.hbm, 79, rfl⟩
abbrev main_call1_v3 : Ref sig .tc := ⟨.hbm, 80, rfl⟩
abbrev main_call1_v4 : Ref sig .tc := ⟨.hbm, 81, rfl⟩
abbrev main_call1_v5 : Ref sig .tc := ⟨.hbm, 82, rfl⟩
abbrev main_call1_v6 : Ref sig .tc := ⟨.hbm, 83, rfl⟩
abbrev main_call1_v7 : Ref sig .tc := ⟨.hbm, 84, rfl⟩
abbrev main_call1_cst_1 : Ref sig .tc := ⟨.hbm, 85, rfl⟩
abbrev main_call1_v8 : Ref sig .tc := ⟨.hbm, 86, rfl⟩
abbrev main_call1_cst_2 : Ref sig .tc := ⟨.hbm, 87, rfl⟩
abbrev main_call1_v9 : Ref sig .tc := ⟨.hbm, 88, rfl⟩
abbrev main_call1_v10 : Ref sig .tc := ⟨.hbm, 89, rfl⟩
abbrev main_call1_v11 : Ref sig .tc := ⟨.hbm, 90, rfl⟩
abbrev main_call1_v12 : Ref sig .tc := ⟨.hbm, 91, rfl⟩
abbrev main_call1_cst_3 : Ref sig .tc := ⟨.hbm, 92, rfl⟩
abbrev main_call1_v13 : Ref sig .tc := ⟨.hbm, 93, rfl⟩
abbrev main_call1_cst_4 : Ref sig .tc := ⟨.hbm, 94, rfl⟩
abbrev main_call1_call0_v0 : Ref sig .tc := ⟨.hbm, 95, rfl⟩
abbrev main_call1_call0_v1 : Ref sig .tc := ⟨.hbm, 96, rfl⟩
abbrev main_v33 : Ref sig .tc := ⟨.hbm, 97, rfl⟩
abbrev main_v34 : Ref sig .tc := ⟨.hbm, 98, rfl⟩
abbrev main_v35 : Ref sig .tc := ⟨.hbm, 99, rfl⟩
abbrev main_cst_4 : Ref sig .tc := ⟨.hbm, 100, rfl⟩
abbrev main_v36 : Ref sig .tc := ⟨.hbm, 101, rfl⟩
abbrev main_v37 : Ref sig .tc := ⟨.hbm, 102, rfl⟩
abbrev main_v38 : Ref sig .tc := ⟨.hbm, 103, rfl⟩
abbrev main_v39 : Ref sig .tc := ⟨.hbm, 104, rfl⟩
abbrev main_v40 : Ref sig .tc := ⟨.hbm, 105, rfl⟩
abbrev main_v41 : Ref sig .tc := ⟨.hbm, 106, rfl⟩
abbrev main_v42 : Ref sig .tc := ⟨.hbm, 107, rfl⟩
abbrev main_v43 : Ref sig .tc := ⟨.hbm, 108, rfl⟩
abbrev main_v44 : Ref sig .tc := ⟨.hbm, 109, rfl⟩
abbrev main_v45 : Ref sig .tc := ⟨.hbm, 110, rfl⟩
abbrev main_v46 : Ref sig .tc := ⟨.hbm, 111, rfl⟩
abbrev main_call2_cst : Ref sig .tc := ⟨.hbm, 112, rfl⟩
abbrev main_call2_v0 : Ref sig .tc := ⟨.hbm, 113, rfl⟩
abbrev main_v47 : Ref sig .tc := ⟨.hbm, 114, rfl⟩
abbrev main_v48 : Ref sig .tc := ⟨.hbm, 115, rfl⟩
abbrev main_v49 : Ref sig .tc := ⟨.hbm, 116, rfl⟩
abbrev main_call3_c : Ref sig .tc := ⟨.hbm, 117, rfl⟩
abbrev main_call3_v0 : Ref sig .tc := ⟨.hbm, 118, rfl⟩
abbrev main_call3_v1 : Ref sig .tc := ⟨.hbm, 119, rfl⟩
abbrev main_call3_c_0 : Ref sig .tc := ⟨.hbm, 120, rfl⟩
abbrev main_call3_v2 : Ref sig .tc := ⟨.hbm, 121, rfl⟩
abbrev main_call3_v3 : Ref sig .tc := ⟨.hbm, 122, rfl⟩
abbrev main_call3_v4 : Ref sig .tc := ⟨.hbm, 123, rfl⟩
abbrev main_call3_v5 : Ref sig .tc := ⟨.hbm, 124, rfl⟩
abbrev main_call3_c_1 : Ref sig .tc := ⟨.hbm, 125, rfl⟩
abbrev main_call3_c_2 : Ref sig .tc := ⟨.hbm, 126, rfl⟩
abbrev main_call3_v6 : Ref sig .tc := ⟨.hbm, 127, rfl⟩
abbrev main_call3_v7 : Ref sig .tc := ⟨.hbm, 128, rfl⟩
abbrev main_call3_v8 : Ref sig .tc := ⟨.hbm, 129, rfl⟩
abbrev main_call3_v9 : Ref sig .tc := ⟨.hbm, 130, rfl⟩
abbrev main_call3_v10 : Ref sig .tc := ⟨.hbm, 131, rfl⟩
abbrev main_call3_v11 : Ref sig .tc := ⟨.hbm, 132, rfl⟩
abbrev main_call3_c_3 : Ref sig .tc := ⟨.hbm, 133, rfl⟩
abbrev main_call3_v12 : Ref sig .tc := ⟨.hbm, 134, rfl⟩
abbrev main_call3_v13 : Ref sig .tc := ⟨.hbm, 135, rfl⟩
abbrev main_call3_v14 : Ref sig .tc := ⟨.hbm, 136, rfl⟩
abbrev main_call3_cst : Ref sig .tc := ⟨.hbm, 137, rfl⟩
abbrev main_call3_v15 : Ref sig .tc := ⟨.hbm, 138, rfl⟩
abbrev main_v50 : Ref sig .tc := ⟨.hbm, 139, rfl⟩
abbrev main_v51 : Ref sig .tc := ⟨.hbm, 140, rfl⟩
abbrev main_v52 : Ref sig .tc := ⟨.hbm, 141, rfl⟩
abbrev main_cst_5 : Ref sig .tc := ⟨.hbm, 142, rfl⟩
abbrev main_v53 : Ref sig .tc := ⟨.hbm, 143, rfl⟩
abbrev main_c_6 : Ref sig .tc := ⟨.hbm, 144, rfl⟩
abbrev main_v54 : Ref sig .tc := ⟨.hbm, 145, rfl⟩
abbrev main_v55 : Ref sig .tc := ⟨.hbm, 146, rfl⟩
abbrev main_c_7 : Ref sig .tc := ⟨.hbm, 147, rfl⟩
abbrev main_v56 : Ref sig .tc := ⟨.hbm, 148, rfl⟩
abbrev main_v57 : Ref sig .tc := ⟨.hbm, 149, rfl⟩
abbrev main_v58 : Ref sig .tc := ⟨.hbm, 150, rfl⟩
abbrev main_v59 : Ref sig .tc := ⟨.hbm, 151, rfl⟩
abbrev main_v60 : Ref sig .tc := ⟨.hbm, 152, rfl⟩
abbrev main_v61 : Ref sig .tc := ⟨.hbm, 153, rfl⟩
abbrev main_v62 : Ref sig .tc := ⟨.hbm, 154, rfl⟩
abbrev main_v63 : Ref sig .tc := ⟨.hbm, 155, rfl⟩
abbrev main_v64 : Ref sig .tc := ⟨.hbm, 156, rfl⟩
abbrev main_cst_8 : Ref sig .tc := ⟨.hbm, 157, rfl⟩
abbrev main_v65 : Ref sig .tc := ⟨.hbm, 158, rfl⟩
abbrev main_v66 : Ref sig .tc := ⟨.hbm, 159, rfl⟩
abbrev main_cst_9 : Ref sig .tc := ⟨.hbm, 160, rfl⟩
abbrev main_v67 : Ref sig .tc := ⟨.hbm, 161, rfl⟩
abbrev main_v68 : Ref sig .tc := ⟨.hbm, 162, rfl⟩
abbrev main_c_10 : Ref sig .tc := ⟨.hbm, 163, rfl⟩
abbrev main_call4_cst : Ref sig .tc := ⟨.hbm, 164, rfl⟩
abbrev main_call4_v0 : Ref sig .tc := ⟨.hbm, 165, rfl⟩
abbrev main_call4_v1 : Ref sig .tc := ⟨.hbm, 166, rfl⟩
abbrev main_call4_cst_0 : Ref sig .tc := ⟨.hbm, 167, rfl⟩
abbrev main_call4_v2 : Ref sig .tc := ⟨.hbm, 168, rfl⟩
abbrev main_call4_v3 : Ref sig .tc := ⟨.hbm, 169, rfl⟩
abbrev main_call4_v4 : Ref sig .tc := ⟨.hbm, 170, rfl⟩
abbrev main_call4_v5 : Ref sig .tc := ⟨.hbm, 171, rfl⟩
abbrev main_call4_v6 : Ref sig .tc := ⟨.hbm, 172, rfl⟩
abbrev main_call4_v7 : Ref sig .tc := ⟨.hbm, 173, rfl⟩
abbrev main_call4_cst_1 : Ref sig .tc := ⟨.hbm, 174, rfl⟩
abbrev main_call4_v8 : Ref sig .tc := ⟨.hbm, 175, rfl⟩
abbrev main_call4_cst_2 : Ref sig .tc := ⟨.hbm, 176, rfl⟩
abbrev main_call4_v9 : Ref sig .tc := ⟨.hbm, 177, rfl⟩
abbrev main_call4_v10 : Ref sig .tc := ⟨.hbm, 178, rfl⟩
abbrev main_call4_v11 : Ref sig .tc := ⟨.hbm, 179, rfl⟩
abbrev main_call4_v12 : Ref sig .tc := ⟨.hbm, 180, rfl⟩
abbrev main_call4_cst_3 : Ref sig .tc := ⟨.hbm, 181, rfl⟩
abbrev main_call4_v13 : Ref sig .tc := ⟨.hbm, 182, rfl⟩
abbrev main_call4_cst_4 : Ref sig .tc := ⟨.hbm, 183, rfl⟩
abbrev main_call4_call0_v0 : Ref sig .tc := ⟨.hbm, 184, rfl⟩
abbrev main_call4_call0_v1 : Ref sig .tc := ⟨.hbm, 185, rfl⟩
abbrev main_v69 : Ref sig .tc := ⟨.hbm, 186, rfl⟩
abbrev main_v70 : Ref sig .tc := ⟨.hbm, 187, rfl⟩
abbrev main_v71 : Ref sig .tc := ⟨.hbm, 188, rfl⟩
abbrev main_cst_11 : Ref sig .tc := ⟨.hbm, 189, rfl⟩
abbrev main_v72 : Ref sig .tc := ⟨.hbm, 190, rfl⟩
abbrev main_v73 : Ref sig .tc := ⟨.hbm, 191, rfl⟩
abbrev main_v74 : Ref sig .tc := ⟨.hbm, 192, rfl⟩
abbrev main_v75 : Ref sig .tc := ⟨.hbm, 193, rfl⟩
abbrev main_v76 : Ref sig .tc := ⟨.hbm, 194, rfl⟩
abbrev main_v77 : Ref sig .tc := ⟨.hbm, 195, rfl⟩
abbrev main_v78 : Ref sig .tc := ⟨.hbm, 196, rfl⟩
abbrev main_v79 : Ref sig .tc := ⟨.hbm, 197, rfl⟩
abbrev main_v80 : Ref sig .tc := ⟨.hbm, 198, rfl⟩
abbrev main_v81 : Ref sig .tc := ⟨.hbm, 199, rfl⟩
abbrev main_v82 : Ref sig .tc := ⟨.hbm, 200, rfl⟩
abbrev main_call5_cst : Ref sig .tc := ⟨.hbm, 201, rfl⟩
abbrev main_call5_v0 : Ref sig .tc := ⟨.hbm, 202, rfl⟩
abbrev main_v83 : Ref sig .tc := ⟨.hbm, 203, rfl⟩
abbrev main_v84 : Ref sig .tc := ⟨.hbm, 204, rfl⟩
abbrev main_v85 : Ref sig .tc := ⟨.hbm, 205, rfl⟩
abbrev main_call6_c : Ref sig .tc := ⟨.hbm, 206, rfl⟩
abbrev main_call6_v0 : Ref sig .tc := ⟨.hbm, 207, rfl⟩
abbrev main_call6_v1 : Ref sig .tc := ⟨.hbm, 208, rfl⟩
abbrev main_call6_c_0 : Ref sig .tc := ⟨.hbm, 209, rfl⟩
abbrev main_call6_v2 : Ref sig .tc := ⟨.hbm, 210, rfl⟩
abbrev main_call6_v3 : Ref sig .tc := ⟨.hbm, 211, rfl⟩
abbrev main_call6_v4 : Ref sig .tc := ⟨.hbm, 212, rfl⟩
abbrev main_call6_v5 : Ref sig .tc := ⟨.hbm, 213, rfl⟩
abbrev main_call6_c_1 : Ref sig .tc := ⟨.hbm, 214, rfl⟩
abbrev main_call6_c_2 : Ref sig .tc := ⟨.hbm, 215, rfl⟩
abbrev main_call6_v6 : Ref sig .tc := ⟨.hbm, 216, rfl⟩
abbrev main_call6_v7 : Ref sig .tc := ⟨.hbm, 217, rfl⟩
abbrev main_call6_v8 : Ref sig .tc := ⟨.hbm, 218, rfl⟩
abbrev main_call6_v9 : Ref sig .tc := ⟨.hbm, 219, rfl⟩
abbrev main_call6_v10 : Ref sig .tc := ⟨.hbm, 220, rfl⟩
abbrev main_call6_v11 : Ref sig .tc := ⟨.hbm, 221, rfl⟩
abbrev main_call6_c_3 : Ref sig .tc := ⟨.hbm, 222, rfl⟩
abbrev main_call6_v12 : Ref sig .tc := ⟨.hbm, 223, rfl⟩
abbrev main_call6_v13 : Ref sig .tc := ⟨.hbm, 224, rfl⟩
abbrev main_call6_v14 : Ref sig .tc := ⟨.hbm, 225, rfl⟩
abbrev main_call6_cst : Ref sig .tc := ⟨.hbm, 226, rfl⟩
abbrev main_call6_v15 : Ref sig .tc := ⟨.hbm, 227, rfl⟩
abbrev main_v86 : Ref sig .tc := ⟨.hbm, 228, rfl⟩
abbrev main_v87 : Ref sig .tc := ⟨.hbm, 229, rfl⟩
abbrev main_v88 : Ref sig .tc := ⟨.hbm, 230, rfl⟩
abbrev main_cst_12 : Ref sig .tc := ⟨.hbm, 231, rfl⟩
abbrev main_v89 : Ref sig .tc := ⟨.hbm, 232, rfl⟩
abbrev main_c_13 : Ref sig .tc := ⟨.hbm, 233, rfl⟩
abbrev main_v90 : Ref sig .tc := ⟨.hbm, 234, rfl⟩
abbrev main_v91 : Ref sig .tc := ⟨.hbm, 235, rfl⟩
abbrev main_c_14 : Ref sig .tc := ⟨.hbm, 236, rfl⟩
abbrev main_v92 : Ref sig .tc := ⟨.hbm, 237, rfl⟩
abbrev main_v93 : Ref sig .tc := ⟨.hbm, 238, rfl⟩
abbrev main_v94 : Ref sig .tc := ⟨.hbm, 239, rfl⟩
abbrev main_v95 : Ref sig .tc := ⟨.hbm, 240, rfl⟩
abbrev main_v96 : Ref sig .tc := ⟨.hbm, 241, rfl⟩
abbrev main_v97 : Ref sig .tc := ⟨.hbm, 242, rfl⟩
abbrev main_v98 : Ref sig .tc := ⟨.hbm, 243, rfl⟩
abbrev main_v99 : Ref sig .tc := ⟨.hbm, 244, rfl⟩
abbrev main_v100 : Ref sig .tc := ⟨.hbm, 245, rfl⟩
abbrev main_cst_15 : Ref sig .tc := ⟨.hbm, 246, rfl⟩
abbrev main_v101 : Ref sig .tc := ⟨.hbm, 247, rfl⟩
abbrev main_v102 : Ref sig .tc := ⟨.hbm, 248, rfl⟩
abbrev main_cst_16 : Ref sig .tc := ⟨.hbm, 249, rfl⟩
abbrev main_v103 : Ref sig .tc := ⟨.hbm, 250, rfl⟩
abbrev main_v104 : Ref sig .tc := ⟨.hbm, 251, rfl⟩
abbrev main_c_17 : Ref sig .tc := ⟨.hbm, 252, rfl⟩
abbrev main_call7_cst : Ref sig .tc := ⟨.hbm, 253, rfl⟩
abbrev main_call7_v0 : Ref sig .tc := ⟨.hbm, 254, rfl⟩
abbrev main_call7_v1 : Ref sig .tc := ⟨.hbm, 255, rfl⟩
abbrev main_call7_cst_0 : Ref sig .tc := ⟨.hbm, 256, rfl⟩
abbrev main_call7_v2 : Ref sig .tc := ⟨.hbm, 257, rfl⟩
abbrev main_call7_v3 : Ref sig .tc := ⟨.hbm, 258, rfl⟩
abbrev main_call7_v4 : Ref sig .tc := ⟨.hbm, 259, rfl⟩
abbrev main_call7_v5 : Ref sig .tc := ⟨.hbm, 260, rfl⟩
abbrev main_call7_v6 : Ref sig .tc := ⟨.hbm, 261, rfl⟩
abbrev main_call7_v7 : Ref sig .tc := ⟨.hbm, 262, rfl⟩
abbrev main_call7_cst_1 : Ref sig .tc := ⟨.hbm, 263, rfl⟩
abbrev main_call7_v8 : Ref sig .tc := ⟨.hbm, 264, rfl⟩
abbrev main_call7_cst_2 : Ref sig .tc := ⟨.hbm, 265, rfl⟩
abbrev main_call7_v9 : Ref sig .tc := ⟨.hbm, 266, rfl⟩
abbrev main_call7_v10 : Ref sig .tc := ⟨.hbm, 267, rfl⟩
abbrev main_call7_v11 : Ref sig .tc := ⟨.hbm, 268, rfl⟩
abbrev main_call7_v12 : Ref sig .tc := ⟨.hbm, 269, rfl⟩
abbrev main_call7_cst_3 : Ref sig .tc := ⟨.hbm, 270, rfl⟩
abbrev main_call7_v13 : Ref sig .tc := ⟨.hbm, 271, rfl⟩
abbrev main_call7_cst_4 : Ref sig .tc := ⟨.hbm, 272, rfl⟩
abbrev main_call7_call0_v0 : Ref sig .tc := ⟨.hbm, 273, rfl⟩
abbrev main_call7_call0_v1 : Ref sig .tc := ⟨.hbm, 274, rfl⟩
abbrev main_v105 : Ref sig .tc := ⟨.hbm, 275, rfl⟩
abbrev main_v106 : Ref sig .tc := ⟨.hbm, 276, rfl⟩
abbrev main_v107 : Ref sig .tc := ⟨.hbm, 277, rfl⟩
abbrev main_cst_18 : Ref sig .tc := ⟨.hbm, 278, rfl⟩
abbrev main_v108 : Ref sig .tc := ⟨.hbm, 279, rfl⟩
abbrev main_v109 : Ref sig .tc := ⟨.hbm, 280, rfl⟩
abbrev main_v110 : Ref sig .tc := ⟨.hbm, 281, rfl⟩
abbrev main_v111 : Ref sig .tc := ⟨.hbm, 282, rfl⟩
abbrev main_v112 : Ref sig .tc := ⟨.hbm, 283, rfl⟩
abbrev main_v113 : Ref sig .tc := ⟨.hbm, 284, rfl⟩
abbrev main_v114 : Ref sig .tc := ⟨.hbm, 285, rfl⟩
abbrev main_v115 : Ref sig .tc := ⟨.hbm, 286, rfl⟩
abbrev main_v116 : Ref sig .tc := ⟨.hbm, 287, rfl⟩
abbrev main_v117 : Ref sig .tc := ⟨.hbm, 288, rfl⟩
abbrev main_v118 : Ref sig .tc := ⟨.hbm, 289, rfl⟩
abbrev main_call8_cst : Ref sig .tc := ⟨.hbm, 290, rfl⟩
abbrev main_call8_v0 : Ref sig .tc := ⟨.hbm, 291, rfl⟩
abbrev main_v119 : Ref sig .tc := ⟨.hbm, 292, rfl⟩
abbrev main_v120 : Ref sig .tc := ⟨.hbm, 293, rfl⟩
abbrev main_v121 : Ref sig .tc := ⟨.hbm, 294, rfl⟩
abbrev main_v122 : Ref sig .tc := ⟨.hbm, 295, rfl⟩
abbrev main_v123 : Ref sig .tc := ⟨.hbm, 296, rfl⟩
abbrev main_v124 : Ref sig .tc := ⟨.hbm, 297, rfl⟩
abbrev main_v125 : Ref sig .tc := ⟨.hbm, 298, rfl⟩
abbrev main_v126 : Ref sig .tc := ⟨.hbm, 299, rfl⟩
abbrev main_call9_c : Ref sig .tc := ⟨.hbm, 300, rfl⟩
abbrev main_call9_v0 : Ref sig .tc := ⟨.hbm, 301, rfl⟩
abbrev main_call9_v1 : Ref sig .tc := ⟨.hbm, 302, rfl⟩
abbrev main_call9_c_0 : Ref sig .tc := ⟨.hbm, 303, rfl⟩
abbrev main_call9_v2 : Ref sig .tc := ⟨.hbm, 304, rfl⟩
abbrev main_call9_v3 : Ref sig .tc := ⟨.hbm, 305, rfl⟩
abbrev main_call9_v4 : Ref sig .tc := ⟨.hbm, 306, rfl⟩
abbrev main_call9_v5 : Ref sig .tc := ⟨.hbm, 307, rfl⟩
abbrev main_call9_c_1 : Ref sig .tc := ⟨.hbm, 308, rfl⟩
abbrev main_call9_c_2 : Ref sig .tc := ⟨.hbm, 309, rfl⟩
abbrev main_call9_v6 : Ref sig .tc := ⟨.hbm, 310, rfl⟩
abbrev main_call9_v7 : Ref sig .tc := ⟨.hbm, 311, rfl⟩
abbrev main_call9_v8 : Ref sig .tc := ⟨.hbm, 312, rfl⟩
abbrev main_call9_v9 : Ref sig .tc := ⟨.hbm, 313, rfl⟩
abbrev main_call9_v10 : Ref sig .tc := ⟨.hbm, 314, rfl⟩
abbrev main_call9_v11 : Ref sig .tc := ⟨.hbm, 315, rfl⟩
abbrev main_call9_c_3 : Ref sig .tc := ⟨.hbm, 316, rfl⟩
abbrev main_call9_v12 : Ref sig .tc := ⟨.hbm, 317, rfl⟩
abbrev main_call9_v13 : Ref sig .tc := ⟨.hbm, 318, rfl⟩
abbrev main_call9_v14 : Ref sig .tc := ⟨.hbm, 319, rfl⟩
abbrev main_call9_cst : Ref sig .tc := ⟨.hbm, 320, rfl⟩
abbrev main_call9_v15 : Ref sig .tc := ⟨.hbm, 321, rfl⟩
abbrev main_v127 : Ref sig .tc := ⟨.hbm, 322, rfl⟩
abbrev main_v128 : Ref sig .tc := ⟨.hbm, 323, rfl⟩
abbrev main_v129 : Ref sig .tc := ⟨.hbm, 324, rfl⟩
abbrev main_cst_19 : Ref sig .tc := ⟨.hbm, 325, rfl⟩
abbrev main_v130 : Ref sig .tc := ⟨.hbm, 326, rfl⟩
abbrev main_c_20 : Ref sig .tc := ⟨.hbm, 327, rfl⟩
abbrev main_v131 : Ref sig .tc := ⟨.hbm, 328, rfl⟩
abbrev main_v132 : Ref sig .tc := ⟨.hbm, 329, rfl⟩
abbrev main_c_21 : Ref sig .tc := ⟨.hbm, 330, rfl⟩
abbrev main_v133 : Ref sig .tc := ⟨.hbm, 331, rfl⟩
abbrev main_v134 : Ref sig .tc := ⟨.hbm, 332, rfl⟩
abbrev main_v135 : Ref sig .tc := ⟨.hbm, 333, rfl⟩
abbrev main_v136 : Ref sig .tc := ⟨.hbm, 334, rfl⟩
abbrev main_v137 : Ref sig .tc := ⟨.hbm, 335, rfl⟩
abbrev main_v138 : Ref sig .tc := ⟨.hbm, 336, rfl⟩
abbrev main_v139 : Ref sig .tc := ⟨.hbm, 337, rfl⟩
abbrev main_v140 : Ref sig .tc := ⟨.hbm, 338, rfl⟩
abbrev main_v141 : Ref sig .tc := ⟨.hbm, 339, rfl⟩
abbrev main_cst_22 : Ref sig .tc := ⟨.hbm, 340, rfl⟩
abbrev main_v142 : Ref sig .tc := ⟨.hbm, 341, rfl⟩
abbrev main_v143 : Ref sig .tc := ⟨.hbm, 342, rfl⟩
abbrev main_cst_23 : Ref sig .tc := ⟨.hbm, 343, rfl⟩
abbrev main_v144 : Ref sig .tc := ⟨.hbm, 344, rfl⟩
abbrev main_v145 : Ref sig .tc := ⟨.hbm, 345, rfl⟩
abbrev main_c_24 : Ref sig .tc := ⟨.hbm, 346, rfl⟩
abbrev main_call10_cst : Ref sig .tc := ⟨.hbm, 347, rfl⟩
abbrev main_call10_v0 : Ref sig .tc := ⟨.hbm, 348, rfl⟩
abbrev main_call10_v1 : Ref sig .tc := ⟨.hbm, 349, rfl⟩
abbrev main_call10_cst_0 : Ref sig .tc := ⟨.hbm, 350, rfl⟩
abbrev main_call10_v2 : Ref sig .tc := ⟨.hbm, 351, rfl⟩
abbrev main_call10_v3 : Ref sig .tc := ⟨.hbm, 352, rfl⟩
abbrev main_call10_v4 : Ref sig .tc := ⟨.hbm, 353, rfl⟩
abbrev main_call10_v5 : Ref sig .tc := ⟨.hbm, 354, rfl⟩
abbrev main_call10_v6 : Ref sig .tc := ⟨.hbm, 355, rfl⟩
abbrev main_call10_v7 : Ref sig .tc := ⟨.hbm, 356, rfl⟩
abbrev main_call10_cst_1 : Ref sig .tc := ⟨.hbm, 357, rfl⟩
abbrev main_call10_v8 : Ref sig .tc := ⟨.hbm, 358, rfl⟩
abbrev main_call10_cst_2 : Ref sig .tc := ⟨.hbm, 359, rfl⟩
abbrev main_call10_v9 : Ref sig .tc := ⟨.hbm, 360, rfl⟩
abbrev main_call10_v10 : Ref sig .tc := ⟨.hbm, 361, rfl⟩
abbrev main_call10_v11 : Ref sig .tc := ⟨.hbm, 362, rfl⟩
abbrev main_call10_v12 : Ref sig .tc := ⟨.hbm, 363, rfl⟩
abbrev main_call10_cst_3 : Ref sig .tc := ⟨.hbm, 364, rfl⟩
abbrev main_call10_v13 : Ref sig .tc := ⟨.hbm, 365, rfl⟩
abbrev main_call10_cst_4 : Ref sig .tc := ⟨.hbm, 366, rfl⟩
abbrev main_call10_call0_v0 : Ref sig .tc := ⟨.hbm, 367, rfl⟩
abbrev main_call10_call0_v1 : Ref sig .tc := ⟨.hbm, 368, rfl⟩
abbrev main_v146 : Ref sig .tc := ⟨.hbm, 369, rfl⟩
abbrev main_v147 : Ref sig .tc := ⟨.hbm, 370, rfl⟩
abbrev main_v148 : Ref sig .tc := ⟨.hbm, 371, rfl⟩
abbrev main_cst_25 : Ref sig .tc := ⟨.hbm, 372, rfl⟩
abbrev main_v149 : Ref sig .tc := ⟨.hbm, 373, rfl⟩
abbrev main_v150 : Ref sig .tc := ⟨.hbm, 374, rfl⟩
abbrev main_v151 : Ref sig .tc := ⟨.hbm, 375, rfl⟩
abbrev main_v152 : Ref sig .tc := ⟨.hbm, 376, rfl⟩
abbrev main_v153 : Ref sig .tc := ⟨.hbm, 377, rfl⟩
abbrev main_v154 : Ref sig .tc := ⟨.hbm, 378, rfl⟩
abbrev main_v155 : Ref sig .tc := ⟨.hbm, 379, rfl⟩
abbrev main_v156 : Ref sig .tc := ⟨.hbm, 380, rfl⟩
abbrev main_v157 : Ref sig .tc := ⟨.hbm, 381, rfl⟩
abbrev main_v158 : Ref sig .tc := ⟨.hbm, 382, rfl⟩
abbrev main_v159 : Ref sig .tc := ⟨.hbm, 383, rfl⟩
abbrev main_call11_cst : Ref sig .tc := ⟨.hbm, 384, rfl⟩
abbrev main_call11_v0 : Ref sig .tc := ⟨.hbm, 385, rfl⟩
abbrev main_v160 : Ref sig .tc := ⟨.hbm, 386, rfl⟩
abbrev main_v161 : Ref sig .tc := ⟨.hbm, 387, rfl⟩
abbrev main_v162 : Ref sig .tc := ⟨.hbm, 388, rfl⟩
abbrev main_call12_c : Ref sig .tc := ⟨.hbm, 389, rfl⟩
abbrev main_call12_v0 : Ref sig .tc := ⟨.hbm, 390, rfl⟩
abbrev main_call12_v1 : Ref sig .tc := ⟨.hbm, 391, rfl⟩
abbrev main_call12_c_0 : Ref sig .tc := ⟨.hbm, 392, rfl⟩
abbrev main_call12_v2 : Ref sig .tc := ⟨.hbm, 393, rfl⟩
abbrev main_call12_v3 : Ref sig .tc := ⟨.hbm, 394, rfl⟩
abbrev main_call12_v4 : Ref sig .tc := ⟨.hbm, 395, rfl⟩
abbrev main_call12_v5 : Ref sig .tc := ⟨.hbm, 396, rfl⟩
abbrev main_call12_c_1 : Ref sig .tc := ⟨.hbm, 397, rfl⟩
abbrev main_call12_c_2 : Ref sig .tc := ⟨.hbm, 398, rfl⟩
abbrev main_call12_v6 : Ref sig .tc := ⟨.hbm, 399, rfl⟩
abbrev main_call12_v7 : Ref sig .tc := ⟨.hbm, 400, rfl⟩
abbrev main_call12_v8 : Ref sig .tc := ⟨.hbm, 401, rfl⟩
abbrev main_call12_v9 : Ref sig .tc := ⟨.hbm, 402, rfl⟩
abbrev main_call12_v10 : Ref sig .tc := ⟨.hbm, 403, rfl⟩
abbrev main_call12_v11 : Ref sig .tc := ⟨.hbm, 404, rfl⟩
abbrev main_call12_c_3 : Ref sig .tc := ⟨.hbm, 405, rfl⟩
abbrev main_call12_v12 : Ref sig .tc := ⟨.hbm, 406, rfl⟩
abbrev main_call12_v13 : Ref sig .tc := ⟨.hbm, 407, rfl⟩
abbrev main_call12_v14 : Ref sig .tc := ⟨.hbm, 408, rfl⟩
abbrev main_call12_cst : Ref sig .tc := ⟨.hbm, 409, rfl⟩
abbrev main_call12_v15 : Ref sig .tc := ⟨.hbm, 410, rfl⟩
abbrev main_v163 : Ref sig .tc := ⟨.hbm, 411, rfl⟩
abbrev main_v164 : Ref sig .tc := ⟨.hbm, 412, rfl⟩
abbrev main_v165 : Ref sig .tc := ⟨.hbm, 413, rfl⟩
abbrev main_cst_26 : Ref sig .tc := ⟨.hbm, 414, rfl⟩
abbrev main_v166 : Ref sig .tc := ⟨.hbm, 415, rfl⟩
abbrev main_c_27 : Ref sig .tc := ⟨.hbm, 416, rfl⟩
abbrev main_v167 : Ref sig .tc := ⟨.hbm, 417, rfl⟩
abbrev main_v168 : Ref sig .tc := ⟨.hbm, 418, rfl⟩
abbrev main_c_28 : Ref sig .tc := ⟨.hbm, 419, rfl⟩
abbrev main_v169 : Ref sig .tc := ⟨.hbm, 420, rfl⟩
abbrev main_v170 : Ref sig .tc := ⟨.hbm, 421, rfl⟩
abbrev main_v171 : Ref sig .tc := ⟨.hbm, 422, rfl⟩
abbrev main_v172 : Ref sig .tc := ⟨.hbm, 423, rfl⟩
abbrev main_v173 : Ref sig .tc := ⟨.hbm, 424, rfl⟩
abbrev main_v174 : Ref sig .tc := ⟨.hbm, 425, rfl⟩
abbrev main_v175 : Ref sig .tc := ⟨.hbm, 426, rfl⟩
abbrev main_v176 : Ref sig .tc := ⟨.hbm, 427, rfl⟩
abbrev main_v177 : Ref sig .tc := ⟨.hbm, 428, rfl⟩
abbrev main_cst_29 : Ref sig .tc := ⟨.hbm, 429, rfl⟩
abbrev main_v178 : Ref sig .tc := ⟨.hbm, 430, rfl⟩
abbrev main_v179 : Ref sig .tc := ⟨.hbm, 431, rfl⟩
abbrev main_cst_30 : Ref sig .tc := ⟨.hbm, 432, rfl⟩
abbrev main_v180 : Ref sig .tc := ⟨.hbm, 433, rfl⟩
abbrev main_v181 : Ref sig .tc := ⟨.hbm, 434, rfl⟩
abbrev main_c_31 : Ref sig .tc := ⟨.hbm, 435, rfl⟩
abbrev main_call13_cst : Ref sig .tc := ⟨.hbm, 436, rfl⟩
abbrev main_call13_v0 : Ref sig .tc := ⟨.hbm, 437, rfl⟩
abbrev main_call13_v1 : Ref sig .tc := ⟨.hbm, 438, rfl⟩
abbrev main_call13_cst_0 : Ref sig .tc := ⟨.hbm, 439, rfl⟩
abbrev main_call13_v2 : Ref sig .tc := ⟨.hbm, 440, rfl⟩
abbrev main_call13_v3 : Ref sig .tc := ⟨.hbm, 441, rfl⟩
abbrev main_call13_v4 : Ref sig .tc := ⟨.hbm, 442, rfl⟩
abbrev main_call13_v5 : Ref sig .tc := ⟨.hbm, 443, rfl⟩
abbrev main_call13_v6 : Ref sig .tc := ⟨.hbm, 444, rfl⟩
abbrev main_call13_v7 : Ref sig .tc := ⟨.hbm, 445, rfl⟩
abbrev main_call13_cst_1 : Ref sig .tc := ⟨.hbm, 446, rfl⟩
abbrev main_call13_v8 : Ref sig .tc := ⟨.hbm, 447, rfl⟩
abbrev main_call13_cst_2 : Ref sig .tc := ⟨.hbm, 448, rfl⟩
abbrev main_call13_v9 : Ref sig .tc := ⟨.hbm, 449, rfl⟩
abbrev main_call13_v10 : Ref sig .tc := ⟨.hbm, 450, rfl⟩
abbrev main_call13_v11 : Ref sig .tc := ⟨.hbm, 451, rfl⟩
abbrev main_call13_v12 : Ref sig .tc := ⟨.hbm, 452, rfl⟩
abbrev main_call13_cst_3 : Ref sig .tc := ⟨.hbm, 453, rfl⟩
abbrev main_call13_v13 : Ref sig .tc := ⟨.hbm, 454, rfl⟩
abbrev main_call13_cst_4 : Ref sig .tc := ⟨.hbm, 455, rfl⟩
abbrev main_call13_call0_v0 : Ref sig .tc := ⟨.hbm, 456, rfl⟩
abbrev main_call13_call0_v1 : Ref sig .tc := ⟨.hbm, 457, rfl⟩
abbrev main_v182 : Ref sig .tc := ⟨.hbm, 458, rfl⟩
abbrev main_v183 : Ref sig .tc := ⟨.hbm, 459, rfl⟩
abbrev main_v184 : Ref sig .tc := ⟨.hbm, 460, rfl⟩
abbrev main_cst_32 : Ref sig .tc := ⟨.hbm, 461, rfl⟩
abbrev main_v185 : Ref sig .tc := ⟨.hbm, 462, rfl⟩
abbrev main_v186 : Ref sig .tc := ⟨.hbm, 463, rfl⟩
abbrev main_v187 : Ref sig .tc := ⟨.hbm, 464, rfl⟩
abbrev main_v188 : Ref sig .tc := ⟨.hbm, 465, rfl⟩
abbrev main_v189 : Ref sig .tc := ⟨.hbm, 466, rfl⟩
abbrev main_v190 : Ref sig .tc := ⟨.hbm, 467, rfl⟩
abbrev main_v191 : Ref sig .tc := ⟨.hbm, 468, rfl⟩
abbrev main_v192 : Ref sig .tc := ⟨.hbm, 469, rfl⟩
abbrev main_v193 : Ref sig .tc := ⟨.hbm, 470, rfl⟩
abbrev main_v194 : Ref sig .tc := ⟨.hbm, 471, rfl⟩
abbrev main_v195 : Ref sig .tc := ⟨.hbm, 472, rfl⟩
abbrev main_call14_cst : Ref sig .tc := ⟨.hbm, 473, rfl⟩
abbrev main_call14_v0 : Ref sig .tc := ⟨.hbm, 474, rfl⟩
abbrev main_v196 : Ref sig .tc := ⟨.hbm, 475, rfl⟩
abbrev main_v197 : Ref sig .tc := ⟨.hbm, 476, rfl⟩
abbrev main_v198 : Ref sig .tc := ⟨.hbm, 477, rfl⟩
abbrev main_call15_c : Ref sig .tc := ⟨.hbm, 478, rfl⟩
abbrev main_call15_v0 : Ref sig .tc := ⟨.hbm, 479, rfl⟩
abbrev main_call15_v1 : Ref sig .tc := ⟨.hbm, 480, rfl⟩
abbrev main_call15_c_0 : Ref sig .tc := ⟨.hbm, 481, rfl⟩
abbrev main_call15_v2 : Ref sig .tc := ⟨.hbm, 482, rfl⟩
abbrev main_call15_v3 : Ref sig .tc := ⟨.hbm, 483, rfl⟩
abbrev main_call15_v4 : Ref sig .tc := ⟨.hbm, 484, rfl⟩
abbrev main_call15_v5 : Ref sig .tc := ⟨.hbm, 485, rfl⟩
abbrev main_call15_c_1 : Ref sig .tc := ⟨.hbm, 486, rfl⟩
abbrev main_call15_c_2 : Ref sig .tc := ⟨.hbm, 487, rfl⟩
abbrev main_call15_v6 : Ref sig .tc := ⟨.hbm, 488, rfl⟩
abbrev main_call15_v7 : Ref sig .tc := ⟨.hbm, 489, rfl⟩
abbrev main_call15_v8 : Ref sig .tc := ⟨.hbm, 490, rfl⟩
abbrev main_call15_v9 : Ref sig .tc := ⟨.hbm, 491, rfl⟩
abbrev main_call15_v10 : Ref sig .tc := ⟨.hbm, 492, rfl⟩
abbrev main_call15_v11 : Ref sig .tc := ⟨.hbm, 493, rfl⟩
abbrev main_call15_c_3 : Ref sig .tc := ⟨.hbm, 494, rfl⟩
abbrev main_call15_v12 : Ref sig .tc := ⟨.hbm, 495, rfl⟩
abbrev main_call15_v13 : Ref sig .tc := ⟨.hbm, 496, rfl⟩
abbrev main_call15_v14 : Ref sig .tc := ⟨.hbm, 497, rfl⟩
abbrev main_call15_cst : Ref sig .tc := ⟨.hbm, 498, rfl⟩
abbrev main_call15_v15 : Ref sig .tc := ⟨.hbm, 499, rfl⟩
abbrev main_v199 : Ref sig .tc := ⟨.hbm, 500, rfl⟩
abbrev main_v200 : Ref sig .tc := ⟨.hbm, 501, rfl⟩
abbrev main_v201 : Ref sig .tc := ⟨.hbm, 502, rfl⟩
abbrev main_cst_33 : Ref sig .tc := ⟨.hbm, 503, rfl⟩
abbrev main_v202 : Ref sig .tc := ⟨.hbm, 504, rfl⟩
abbrev main_c_34 : Ref sig .tc := ⟨.hbm, 505, rfl⟩
abbrev main_v203 : Ref sig .tc := ⟨.hbm, 506, rfl⟩
abbrev main_v204 : Ref sig .tc := ⟨.hbm, 507, rfl⟩
abbrev main_c_35 : Ref sig .tc := ⟨.hbm, 508, rfl⟩
abbrev main_v205 : Ref sig .tc := ⟨.hbm, 509, rfl⟩
abbrev main_v206 : Ref sig .tc := ⟨.hbm, 510, rfl⟩
abbrev main_v207 : Ref sig .tc := ⟨.hbm, 511, rfl⟩
abbrev main_v208 : Ref sig .tc := ⟨.hbm, 512, rfl⟩
abbrev main_v209 : Ref sig .tc := ⟨.hbm, 513, rfl⟩
abbrev main_v210 : Ref sig .tc := ⟨.hbm, 514, rfl⟩
abbrev main_v211 : Ref sig .tc := ⟨.hbm, 515, rfl⟩
abbrev main_v212 : Ref sig .tc := ⟨.hbm, 516, rfl⟩
abbrev main_v213 : Ref sig .tc := ⟨.hbm, 517, rfl⟩
abbrev main_cst_36 : Ref sig .tc := ⟨.hbm, 518, rfl⟩
abbrev main_v214 : Ref sig .tc := ⟨.hbm, 519, rfl⟩
abbrev main_v215 : Ref sig .tc := ⟨.hbm, 520, rfl⟩
abbrev main_cst_37 : Ref sig .tc := ⟨.hbm, 521, rfl⟩
abbrev main_v216 : Ref sig .tc := ⟨.hbm, 522, rfl⟩
abbrev main_v217 : Ref sig .tc := ⟨.hbm, 523, rfl⟩
abbrev main_c_38 : Ref sig .tc := ⟨.hbm, 524, rfl⟩
abbrev main_call16_cst : Ref sig .tc := ⟨.hbm, 525, rfl⟩
abbrev main_call16_v0 : Ref sig .tc := ⟨.hbm, 526, rfl⟩
abbrev main_call16_v1 : Ref sig .tc := ⟨.hbm, 527, rfl⟩
abbrev main_call16_cst_0 : Ref sig .tc := ⟨.hbm, 528, rfl⟩
abbrev main_call16_v2 : Ref sig .tc := ⟨.hbm, 529, rfl⟩
abbrev main_call16_v3 : Ref sig .tc := ⟨.hbm, 530, rfl⟩
abbrev main_call16_v4 : Ref sig .tc := ⟨.hbm, 531, rfl⟩
abbrev main_call16_v5 : Ref sig .tc := ⟨.hbm, 532, rfl⟩
abbrev main_call16_v6 : Ref sig .tc := ⟨.hbm, 533, rfl⟩
abbrev main_call16_v7 : Ref sig .tc := ⟨.hbm, 534, rfl⟩
abbrev main_call16_cst_1 : Ref sig .tc := ⟨.hbm, 535, rfl⟩
abbrev main_call16_v8 : Ref sig .tc := ⟨.hbm, 536, rfl⟩
abbrev main_call16_cst_2 : Ref sig .tc := ⟨.hbm, 537, rfl⟩
abbrev main_call16_v9 : Ref sig .tc := ⟨.hbm, 538, rfl⟩
abbrev main_call16_v10 : Ref sig .tc := ⟨.hbm, 539, rfl⟩
abbrev main_call16_v11 : Ref sig .tc := ⟨.hbm, 540, rfl⟩
abbrev main_call16_v12 : Ref sig .tc := ⟨.hbm, 541, rfl⟩
abbrev main_call16_cst_3 : Ref sig .tc := ⟨.hbm, 542, rfl⟩
abbrev main_call16_v13 : Ref sig .tc := ⟨.hbm, 543, rfl⟩
abbrev main_call16_cst_4 : Ref sig .tc := ⟨.hbm, 544, rfl⟩
abbrev main_call16_call0_v0 : Ref sig .tc := ⟨.hbm, 545, rfl⟩
abbrev main_call16_call0_v1 : Ref sig .tc := ⟨.hbm, 546, rfl⟩
abbrev main_v218 : Ref sig .tc := ⟨.hbm, 547, rfl⟩
abbrev main_v219 : Ref sig .tc := ⟨.hbm, 548, rfl⟩
abbrev main_v220 : Ref sig .tc := ⟨.hbm, 549, rfl⟩
abbrev main_cst_39 : Ref sig .tc := ⟨.hbm, 550, rfl⟩
abbrev main_v221 : Ref sig .tc := ⟨.hbm, 551, rfl⟩
abbrev main_v222 : Ref sig .tc := ⟨.hbm, 552, rfl⟩
abbrev main_v223 : Ref sig .tc := ⟨.hbm, 553, rfl⟩
abbrev main_v224 : Ref sig .tc := ⟨.hbm, 554, rfl⟩
abbrev main_v225 : Ref sig .tc := ⟨.hbm, 555, rfl⟩
abbrev main_v226 : Ref sig .tc := ⟨.hbm, 556, rfl⟩
abbrev main_v227 : Ref sig .tc := ⟨.hbm, 557, rfl⟩
abbrev main_v228 : Ref sig .tc := ⟨.hbm, 558, rfl⟩
abbrev main_v229 : Ref sig .tc := ⟨.hbm, 559, rfl⟩
abbrev main_v230 : Ref sig .tc := ⟨.hbm, 560, rfl⟩
abbrev main_v231 : Ref sig .tc := ⟨.hbm, 561, rfl⟩
abbrev main_call17_cst : Ref sig .tc := ⟨.hbm, 562, rfl⟩
abbrev main_call17_v0 : Ref sig .tc := ⟨.hbm, 563, rfl⟩
abbrev main_v232 : Ref sig .tc := ⟨.hbm, 564, rfl⟩
abbrev main_v233 : Ref sig .tc := ⟨.hbm, 565, rfl⟩
abbrev main_v234 : Ref sig .tc := ⟨.hbm, 566, rfl⟩
abbrev main_v235 : Ref sig .tc := ⟨.hbm, 567, rfl⟩
abbrev main_v236 : Ref sig .tc := ⟨.hbm, 568, rfl⟩
abbrev main_v237 : Ref sig .tc := ⟨.hbm, 569, rfl⟩
abbrev main_v238 : Ref sig .tc := ⟨.hbm, 570, rfl⟩
abbrev main_v239 : Ref sig .tc := ⟨.hbm, 571, rfl⟩
abbrev main_call18_c : Ref sig .tc := ⟨.hbm, 572, rfl⟩
abbrev main_call18_v0 : Ref sig .tc := ⟨.hbm, 573, rfl⟩
abbrev main_call18_v1 : Ref sig .tc := ⟨.hbm, 574, rfl⟩
abbrev main_call18_c_0 : Ref sig .tc := ⟨.hbm, 575, rfl⟩
abbrev main_call18_v2 : Ref sig .tc := ⟨.hbm, 576, rfl⟩
abbrev main_call18_v3 : Ref sig .tc := ⟨.hbm, 577, rfl⟩
abbrev main_call18_v4 : Ref sig .tc := ⟨.hbm, 578, rfl⟩
abbrev main_call18_v5 : Ref sig .tc := ⟨.hbm, 579, rfl⟩
abbrev main_call18_c_1 : Ref sig .tc := ⟨.hbm, 580, rfl⟩
abbrev main_call18_c_2 : Ref sig .tc := ⟨.hbm, 581, rfl⟩
abbrev main_call18_v6 : Ref sig .tc := ⟨.hbm, 582, rfl⟩
abbrev main_call18_v7 : Ref sig .tc := ⟨.hbm, 583, rfl⟩
abbrev main_call18_v8 : Ref sig .tc := ⟨.hbm, 584, rfl⟩
abbrev main_call18_v9 : Ref sig .tc := ⟨.hbm, 585, rfl⟩
abbrev main_call18_v10 : Ref sig .tc := ⟨.hbm, 586, rfl⟩
abbrev main_call18_v11 : Ref sig .tc := ⟨.hbm, 587, rfl⟩
abbrev main_call18_c_3 : Ref sig .tc := ⟨.hbm, 588, rfl⟩
abbrev main_call18_v12 : Ref sig .tc := ⟨.hbm, 589, rfl⟩
abbrev main_call18_v13 : Ref sig .tc := ⟨.hbm, 590, rfl⟩
abbrev main_call18_v14 : Ref sig .tc := ⟨.hbm, 591, rfl⟩
abbrev main_call18_cst : Ref sig .tc := ⟨.hbm, 592, rfl⟩
abbrev main_call18_v15 : Ref sig .tc := ⟨.hbm, 593, rfl⟩
abbrev main_v240 : Ref sig .tc := ⟨.hbm, 594, rfl⟩
abbrev main_v241 : Ref sig .tc := ⟨.hbm, 595, rfl⟩
abbrev main_v242 : Ref sig .tc := ⟨.hbm, 596, rfl⟩
abbrev main_cst_40 : Ref sig .tc := ⟨.hbm, 597, rfl⟩
abbrev main_v243 : Ref sig .tc := ⟨.hbm, 598, rfl⟩
abbrev main_c_41 : Ref sig .tc := ⟨.hbm, 599, rfl⟩
abbrev main_v244 : Ref sig .tc := ⟨.hbm, 600, rfl⟩
abbrev main_v245 : Ref sig .tc := ⟨.hbm, 601, rfl⟩
abbrev main_c_42 : Ref sig .tc := ⟨.hbm, 602, rfl⟩
abbrev main_v246 : Ref sig .tc := ⟨.hbm, 603, rfl⟩
abbrev main_v247 : Ref sig .tc := ⟨.hbm, 604, rfl⟩
abbrev main_v248 : Ref sig .tc := ⟨.hbm, 605, rfl⟩
abbrev main_v249 : Ref sig .tc := ⟨.hbm, 606, rfl⟩
abbrev main_v250 : Ref sig .tc := ⟨.hbm, 607, rfl⟩
abbrev main_v251 : Ref sig .tc := ⟨.hbm, 608, rfl⟩
abbrev main_v252 : Ref sig .tc := ⟨.hbm, 609, rfl⟩
abbrev main_v253 : Ref sig .tc := ⟨.hbm, 610, rfl⟩
abbrev main_v254 : Ref sig .tc := ⟨.hbm, 611, rfl⟩
abbrev main_cst_43 : Ref sig .tc := ⟨.hbm, 612, rfl⟩
abbrev main_v255 : Ref sig .tc := ⟨.hbm, 613, rfl⟩
abbrev main_v256 : Ref sig .tc := ⟨.hbm, 614, rfl⟩
abbrev main_cst_44 : Ref sig .tc := ⟨.hbm, 615, rfl⟩
abbrev main_v257 : Ref sig .tc := ⟨.hbm, 616, rfl⟩
abbrev main_v258 : Ref sig .tc := ⟨.hbm, 617, rfl⟩
abbrev main_c_45 : Ref sig .tc := ⟨.hbm, 618, rfl⟩
abbrev main_call19_cst : Ref sig .tc := ⟨.hbm, 619, rfl⟩
abbrev main_call19_v0 : Ref sig .tc := ⟨.hbm, 620, rfl⟩
abbrev main_call19_v1 : Ref sig .tc := ⟨.hbm, 621, rfl⟩
abbrev main_call19_cst_0 : Ref sig .tc := ⟨.hbm, 622, rfl⟩
abbrev main_call19_v2 : Ref sig .tc := ⟨.hbm, 623, rfl⟩
abbrev main_call19_v3 : Ref sig .tc := ⟨.hbm, 624, rfl⟩
abbrev main_call19_v4 : Ref sig .tc := ⟨.hbm, 625, rfl⟩
abbrev main_call19_v5 : Ref sig .tc := ⟨.hbm, 626, rfl⟩
abbrev main_call19_v6 : Ref sig .tc := ⟨.hbm, 627, rfl⟩
abbrev main_call19_v7 : Ref sig .tc := ⟨.hbm, 628, rfl⟩
abbrev main_call19_cst_1 : Ref sig .tc := ⟨.hbm, 629, rfl⟩
abbrev main_call19_v8 : Ref sig .tc := ⟨.hbm, 630, rfl⟩
abbrev main_call19_cst_2 : Ref sig .tc := ⟨.hbm, 631, rfl⟩
abbrev main_call19_v9 : Ref sig .tc := ⟨.hbm, 632, rfl⟩
abbrev main_call19_v10 : Ref sig .tc := ⟨.hbm, 633, rfl⟩
abbrev main_call19_v11 : Ref sig .tc := ⟨.hbm, 634, rfl⟩
abbrev main_call19_v12 : Ref sig .tc := ⟨.hbm, 635, rfl⟩
abbrev main_call19_cst_3 : Ref sig .tc := ⟨.hbm, 636, rfl⟩
abbrev main_call19_v13 : Ref sig .tc := ⟨.hbm, 637, rfl⟩
abbrev main_call19_cst_4 : Ref sig .tc := ⟨.hbm, 638, rfl⟩
abbrev main_call19_call0_v0 : Ref sig .tc := ⟨.hbm, 639, rfl⟩
abbrev main_call19_call0_v1 : Ref sig .tc := ⟨.hbm, 640, rfl⟩
abbrev main_v259 : Ref sig .tc := ⟨.hbm, 641, rfl⟩
abbrev main_v260 : Ref sig .tc := ⟨.hbm, 642, rfl⟩
abbrev main_v261 : Ref sig .tc := ⟨.hbm, 643, rfl⟩
abbrev main_cst_46 : Ref sig .tc := ⟨.hbm, 644, rfl⟩
abbrev main_v262 : Ref sig .tc := ⟨.hbm, 645, rfl⟩
abbrev main_v263 : Ref sig .tc := ⟨.hbm, 646, rfl⟩
abbrev main_v264 : Ref sig .tc := ⟨.hbm, 647, rfl⟩
abbrev main_v265 : Ref sig .tc := ⟨.hbm, 648, rfl⟩
abbrev main_v266 : Ref sig .tc := ⟨.hbm, 649, rfl⟩
abbrev main_v267 : Ref sig .tc := ⟨.hbm, 650, rfl⟩
abbrev main_v268 : Ref sig .tc := ⟨.hbm, 651, rfl⟩
abbrev main_v269 : Ref sig .tc := ⟨.hbm, 652, rfl⟩
abbrev main_v270 : Ref sig .tc := ⟨.hbm, 653, rfl⟩
abbrev main_v271 : Ref sig .tc := ⟨.hbm, 654, rfl⟩
abbrev main_v272 : Ref sig .tc := ⟨.hbm, 655, rfl⟩
abbrev main_call20_cst : Ref sig .tc := ⟨.hbm, 656, rfl⟩
abbrev main_call20_v0 : Ref sig .tc := ⟨.hbm, 657, rfl⟩
abbrev main_v273 : Ref sig .tc := ⟨.hbm, 658, rfl⟩
abbrev main_v274 : Ref sig .tc := ⟨.hbm, 659, rfl⟩
abbrev main_v275 : Ref sig .tc := ⟨.hbm, 660, rfl⟩
abbrev main_call21_c : Ref sig .tc := ⟨.hbm, 661, rfl⟩
abbrev main_call21_v0 : Ref sig .tc := ⟨.hbm, 662, rfl⟩
abbrev main_call21_v1 : Ref sig .tc := ⟨.hbm, 663, rfl⟩
abbrev main_call21_c_0 : Ref sig .tc := ⟨.hbm, 664, rfl⟩
abbrev main_call21_v2 : Ref sig .tc := ⟨.hbm, 665, rfl⟩
abbrev main_call21_v3 : Ref sig .tc := ⟨.hbm, 666, rfl⟩
abbrev main_call21_v4 : Ref sig .tc := ⟨.hbm, 667, rfl⟩
abbrev main_call21_v5 : Ref sig .tc := ⟨.hbm, 668, rfl⟩
abbrev main_call21_c_1 : Ref sig .tc := ⟨.hbm, 669, rfl⟩
abbrev main_call21_c_2 : Ref sig .tc := ⟨.hbm, 670, rfl⟩
abbrev main_call21_v6 : Ref sig .tc := ⟨.hbm, 671, rfl⟩
abbrev main_call21_v7 : Ref sig .tc := ⟨.hbm, 672, rfl⟩
abbrev main_call21_v8 : Ref sig .tc := ⟨.hbm, 673, rfl⟩
abbrev main_call21_v9 : Ref sig .tc := ⟨.hbm, 674, rfl⟩
abbrev main_call21_v10 : Ref sig .tc := ⟨.hbm, 675, rfl⟩
abbrev main_call21_v11 : Ref sig .tc := ⟨.hbm, 676, rfl⟩
abbrev main_call21_c_3 : Ref sig .tc := ⟨.hbm, 677, rfl⟩
abbrev main_call21_v12 : Ref sig .tc := ⟨.hbm, 678, rfl⟩
abbrev main_call21_v13 : Ref sig .tc := ⟨.hbm, 679, rfl⟩
abbrev main_call21_v14 : Ref sig .tc := ⟨.hbm, 680, rfl⟩
abbrev main_call21_cst : Ref sig .tc := ⟨.hbm, 681, rfl⟩
abbrev main_call21_v15 : Ref sig .tc := ⟨.hbm, 682, rfl⟩
abbrev main_v276 : Ref sig .tc := ⟨.hbm, 683, rfl⟩
abbrev main_v277 : Ref sig .tc := ⟨.hbm, 684, rfl⟩
abbrev main_v278 : Ref sig .tc := ⟨.hbm, 685, rfl⟩
abbrev main_cst_47 : Ref sig .tc := ⟨.hbm, 686, rfl⟩
abbrev main_v279 : Ref sig .tc := ⟨.hbm, 687, rfl⟩
abbrev main_c_48 : Ref sig .tc := ⟨.hbm, 688, rfl⟩
abbrev main_v280 : Ref sig .tc := ⟨.hbm, 689, rfl⟩
abbrev main_v281 : Ref sig .tc := ⟨.hbm, 690, rfl⟩
abbrev main_c_49 : Ref sig .tc := ⟨.hbm, 691, rfl⟩
abbrev main_v282 : Ref sig .tc := ⟨.hbm, 692, rfl⟩
abbrev main_v283 : Ref sig .tc := ⟨.hbm, 693, rfl⟩
abbrev main_v284 : Ref sig .tc := ⟨.hbm, 694, rfl⟩
abbrev main_v285 : Ref sig .tc := ⟨.hbm, 695, rfl⟩
abbrev main_v286 : Ref sig .tc := ⟨.hbm, 696, rfl⟩
abbrev main_v287 : Ref sig .tc := ⟨.hbm, 697, rfl⟩
abbrev main_v288 : Ref sig .tc := ⟨.hbm, 698, rfl⟩
abbrev main_v289 : Ref sig .tc := ⟨.hbm, 699, rfl⟩
abbrev main_v290 : Ref sig .tc := ⟨.hbm, 700, rfl⟩
abbrev main_cst_50 : Ref sig .tc := ⟨.hbm, 701, rfl⟩
abbrev main_v291 : Ref sig .tc := ⟨.hbm, 702, rfl⟩
abbrev main_v292 : Ref sig .tc := ⟨.hbm, 703, rfl⟩
abbrev main_cst_51 : Ref sig .tc := ⟨.hbm, 704, rfl⟩
abbrev main_v293 : Ref sig .tc := ⟨.hbm, 705, rfl⟩
abbrev main_v294 : Ref sig .tc := ⟨.hbm, 706, rfl⟩
abbrev main_c_52 : Ref sig .tc := ⟨.hbm, 707, rfl⟩
abbrev main_call22_cst : Ref sig .tc := ⟨.hbm, 708, rfl⟩
abbrev main_call22_v0 : Ref sig .tc := ⟨.hbm, 709, rfl⟩
abbrev main_call22_v1 : Ref sig .tc := ⟨.hbm, 710, rfl⟩
abbrev main_call22_cst_0 : Ref sig .tc := ⟨.hbm, 711, rfl⟩
abbrev main_call22_v2 : Ref sig .tc := ⟨.hbm, 712, rfl⟩
abbrev main_call22_v3 : Ref sig .tc := ⟨.hbm, 713, rfl⟩
abbrev main_call22_v4 : Ref sig .tc := ⟨.hbm, 714, rfl⟩
abbrev main_call22_v5 : Ref sig .tc := ⟨.hbm, 715, rfl⟩
abbrev main_call22_v6 : Ref sig .tc := ⟨.hbm, 716, rfl⟩
abbrev main_call22_v7 : Ref sig .tc := ⟨.hbm, 717, rfl⟩
abbrev main_call22_cst_1 : Ref sig .tc := ⟨.hbm, 718, rfl⟩
abbrev main_call22_v8 : Ref sig .tc := ⟨.hbm, 719, rfl⟩
abbrev main_call22_cst_2 : Ref sig .tc := ⟨.hbm, 720, rfl⟩
abbrev main_call22_v9 : Ref sig .tc := ⟨.hbm, 721, rfl⟩
abbrev main_call22_v10 : Ref sig .tc := ⟨.hbm, 722, rfl⟩
abbrev main_call22_v11 : Ref sig .tc := ⟨.hbm, 723, rfl⟩
abbrev main_call22_v12 : Ref sig .tc := ⟨.hbm, 724, rfl⟩
abbrev main_call22_cst_3 : Ref sig .tc := ⟨.hbm, 725, rfl⟩
abbrev main_call22_v13 : Ref sig .tc := ⟨.hbm, 726, rfl⟩
abbrev main_call22_cst_4 : Ref sig .tc := ⟨.hbm, 727, rfl⟩
abbrev main_call22_call0_v0 : Ref sig .tc := ⟨.hbm, 728, rfl⟩
abbrev main_call22_call0_v1 : Ref sig .tc := ⟨.hbm, 729, rfl⟩
abbrev main_v295 : Ref sig .tc := ⟨.hbm, 730, rfl⟩
abbrev main_v296 : Ref sig .tc := ⟨.hbm, 731, rfl⟩
abbrev main_v297 : Ref sig .tc := ⟨.hbm, 732, rfl⟩
abbrev main_cst_53 : Ref sig .tc := ⟨.hbm, 733, rfl⟩
abbrev main_v298 : Ref sig .tc := ⟨.hbm, 734, rfl⟩
abbrev main_v299 : Ref sig .tc := ⟨.hbm, 735, rfl⟩
abbrev main_v300 : Ref sig .tc := ⟨.hbm, 736, rfl⟩
abbrev main_v301 : Ref sig .tc := ⟨.hbm, 737, rfl⟩
abbrev main_v302 : Ref sig .tc := ⟨.hbm, 738, rfl⟩
abbrev main_v303 : Ref sig .tc := ⟨.hbm, 739, rfl⟩
abbrev main_v304 : Ref sig .tc := ⟨.hbm, 740, rfl⟩
abbrev main_v305 : Ref sig .tc := ⟨.hbm, 741, rfl⟩
abbrev main_v306 : Ref sig .tc := ⟨.hbm, 742, rfl⟩
abbrev main_v307 : Ref sig .tc := ⟨.hbm, 743, rfl⟩
abbrev main_v308 : Ref sig .tc := ⟨.hbm, 744, rfl⟩
abbrev main_call23_cst : Ref sig .tc := ⟨.hbm, 745, rfl⟩
abbrev main_call23_v0 : Ref sig .tc := ⟨.hbm, 746, rfl⟩
abbrev main_v309 : Ref sig .tc := ⟨.hbm, 747, rfl⟩
abbrev main_v310 : Ref sig .tc := ⟨.hbm, 748, rfl⟩
abbrev main_v311 : Ref sig .tc := ⟨.hbm, 749, rfl⟩
abbrev main_call24_c : Ref sig .tc := ⟨.hbm, 750, rfl⟩
abbrev main_call24_v0 : Ref sig .tc := ⟨.hbm, 751, rfl⟩
abbrev main_call24_v1 : Ref sig .tc := ⟨.hbm, 752, rfl⟩
abbrev main_call24_c_0 : Ref sig .tc := ⟨.hbm, 753, rfl⟩
abbrev main_call24_v2 : Ref sig .tc := ⟨.hbm, 754, rfl⟩
abbrev main_call24_v3 : Ref sig .tc := ⟨.hbm, 755, rfl⟩
abbrev main_call24_v4 : Ref sig .tc := ⟨.hbm, 756, rfl⟩
abbrev main_call24_v5 : Ref sig .tc := ⟨.hbm, 757, rfl⟩
abbrev main_call24_c_1 : Ref sig .tc := ⟨.hbm, 758, rfl⟩
abbrev main_call24_c_2 : Ref sig .tc := ⟨.hbm, 759, rfl⟩
abbrev main_call24_v6 : Ref sig .tc := ⟨.hbm, 760, rfl⟩
abbrev main_call24_v7 : Ref sig .tc := ⟨.hbm, 761, rfl⟩
abbrev main_call24_v8 : Ref sig .tc := ⟨.hbm, 762, rfl⟩
abbrev main_call24_v9 : Ref sig .tc := ⟨.hbm, 763, rfl⟩
abbrev main_call24_v10 : Ref sig .tc := ⟨.hbm, 764, rfl⟩
abbrev main_call24_v11 : Ref sig .tc := ⟨.hbm, 765, rfl⟩
abbrev main_call24_c_3 : Ref sig .tc := ⟨.hbm, 766, rfl⟩
abbrev main_call24_v12 : Ref sig .tc := ⟨.hbm, 767, rfl⟩
abbrev main_call24_v13 : Ref sig .tc := ⟨.hbm, 768, rfl⟩
abbrev main_call24_v14 : Ref sig .tc := ⟨.hbm, 769, rfl⟩
abbrev main_call24_cst : Ref sig .tc := ⟨.hbm, 770, rfl⟩
abbrev main_call24_v15 : Ref sig .tc := ⟨.hbm, 771, rfl⟩
abbrev main_v312 : Ref sig .tc := ⟨.hbm, 772, rfl⟩
abbrev main_v313 : Ref sig .tc := ⟨.hbm, 773, rfl⟩
abbrev main_v314 : Ref sig .tc := ⟨.hbm, 774, rfl⟩
abbrev main_cst_54 : Ref sig .tc := ⟨.hbm, 775, rfl⟩
abbrev main_v315 : Ref sig .tc := ⟨.hbm, 776, rfl⟩
abbrev main_c_55 : Ref sig .tc := ⟨.hbm, 777, rfl⟩
abbrev main_v316 : Ref sig .tc := ⟨.hbm, 778, rfl⟩
abbrev main_v317 : Ref sig .tc := ⟨.hbm, 779, rfl⟩
abbrev main_c_56 : Ref sig .tc := ⟨.hbm, 780, rfl⟩
abbrev main_v318 : Ref sig .tc := ⟨.hbm, 781, rfl⟩
abbrev main_v319 : Ref sig .tc := ⟨.hbm, 782, rfl⟩
abbrev main_v320 : Ref sig .tc := ⟨.hbm, 783, rfl⟩
abbrev main_v321 : Ref sig .tc := ⟨.hbm, 784, rfl⟩
abbrev main_v322 : Ref sig .tc := ⟨.hbm, 785, rfl⟩
abbrev main_v323 : Ref sig .tc := ⟨.hbm, 786, rfl⟩
abbrev main_v324 : Ref sig .tc := ⟨.hbm, 787, rfl⟩
abbrev main_v325 : Ref sig .tc := ⟨.hbm, 788, rfl⟩
abbrev main_v326 : Ref sig .tc := ⟨.hbm, 789, rfl⟩
abbrev main_cst_57 : Ref sig .tc := ⟨.hbm, 790, rfl⟩
abbrev main_v327 : Ref sig .tc := ⟨.hbm, 791, rfl⟩
abbrev main_v328 : Ref sig .tc := ⟨.hbm, 792, rfl⟩
abbrev main_cst_58 : Ref sig .tc := ⟨.hbm, 793, rfl⟩
abbrev main_v329 : Ref sig .tc := ⟨.hbm, 794, rfl⟩
abbrev main_v330 : Ref sig .tc := ⟨.hbm, 795, rfl⟩
abbrev main_c_59 : Ref sig .tc := ⟨.hbm, 796, rfl⟩
abbrev main_call25_cst : Ref sig .tc := ⟨.hbm, 797, rfl⟩
abbrev main_call25_v0 : Ref sig .tc := ⟨.hbm, 798, rfl⟩
abbrev main_call25_v1 : Ref sig .tc := ⟨.hbm, 799, rfl⟩
abbrev main_call25_cst_0 : Ref sig .tc := ⟨.hbm, 800, rfl⟩
abbrev main_call25_v2 : Ref sig .tc := ⟨.hbm, 801, rfl⟩
abbrev main_call25_v3 : Ref sig .tc := ⟨.hbm, 802, rfl⟩
abbrev main_call25_v4 : Ref sig .tc := ⟨.hbm, 803, rfl⟩
abbrev main_call25_v5 : Ref sig .tc := ⟨.hbm, 804, rfl⟩
abbrev main_call25_v6 : Ref sig .tc := ⟨.hbm, 805, rfl⟩
abbrev main_call25_v7 : Ref sig .tc := ⟨.hbm, 806, rfl⟩
abbrev main_call25_cst_1 : Ref sig .tc := ⟨.hbm, 807, rfl⟩
abbrev main_call25_v8 : Ref sig .tc := ⟨.hbm, 808, rfl⟩
abbrev main_call25_cst_2 : Ref sig .tc := ⟨.hbm, 809, rfl⟩
abbrev main_call25_v9 : Ref sig .tc := ⟨.hbm, 810, rfl⟩
abbrev main_call25_v10 : Ref sig .tc := ⟨.hbm, 811, rfl⟩
abbrev main_call25_v11 : Ref sig .tc := ⟨.hbm, 812, rfl⟩
abbrev main_call25_v12 : Ref sig .tc := ⟨.hbm, 813, rfl⟩
abbrev main_call25_cst_3 : Ref sig .tc := ⟨.hbm, 814, rfl⟩
abbrev main_call25_v13 : Ref sig .tc := ⟨.hbm, 815, rfl⟩
abbrev main_call25_cst_4 : Ref sig .tc := ⟨.hbm, 816, rfl⟩
abbrev main_call25_call0_v0 : Ref sig .tc := ⟨.hbm, 817, rfl⟩
abbrev main_call25_call0_v1 : Ref sig .tc := ⟨.hbm, 818, rfl⟩
abbrev main_v331 : Ref sig .tc := ⟨.hbm, 819, rfl⟩
abbrev main_v332 : Ref sig .tc := ⟨.hbm, 820, rfl⟩
abbrev main_v333 : Ref sig .tc := ⟨.hbm, 821, rfl⟩
abbrev main_cst_60 : Ref sig .tc := ⟨.hbm, 822, rfl⟩
abbrev main_v334 : Ref sig .tc := ⟨.hbm, 823, rfl⟩
abbrev main_v335 : Ref sig .tc := ⟨.hbm, 824, rfl⟩
abbrev main_v336 : Ref sig .tc := ⟨.hbm, 825, rfl⟩
abbrev main_v337 : Ref sig .tc := ⟨.hbm, 826, rfl⟩
abbrev main_v338 : Ref sig .tc := ⟨.hbm, 827, rfl⟩
abbrev main_v339 : Ref sig .tc := ⟨.hbm, 828, rfl⟩
abbrev main_v340 : Ref sig .tc := ⟨.hbm, 829, rfl⟩
abbrev main_v341 : Ref sig .tc := ⟨.hbm, 830, rfl⟩
abbrev main_v342 : Ref sig .tc := ⟨.hbm, 831, rfl⟩
abbrev main_v343 : Ref sig .tc := ⟨.hbm, 832, rfl⟩
abbrev main_v344 : Ref sig .tc := ⟨.hbm, 833, rfl⟩
abbrev main_call26_cst : Ref sig .tc := ⟨.hbm, 834, rfl⟩
abbrev main_call26_v0 : Ref sig .tc := ⟨.hbm, 835, rfl⟩
abbrev main_v345 : Ref sig .tc := ⟨.hbm, 836, rfl⟩
abbrev main_v346 : Ref sig .tc := ⟨.hbm, 837, rfl⟩
abbrev main_v347 : Ref sig .tc := ⟨.hbm, 838, rfl⟩
abbrev main_v348 : Ref sig .tc := ⟨.hbm, 839, rfl⟩
abbrev main_v349 : Ref sig .tc := ⟨.hbm, 840, rfl⟩
abbrev main_v350 : Ref sig .tc := ⟨.hbm, 841, rfl⟩
abbrev main_v351 : Ref sig .tc := ⟨.hbm, 842, rfl⟩
abbrev main_v352 : Ref sig .tc := ⟨.hbm, 843, rfl⟩
abbrev main_call27_c : Ref sig .tc := ⟨.hbm, 844, rfl⟩
abbrev main_call27_v0 : Ref sig .tc := ⟨.hbm, 845, rfl⟩
abbrev main_call27_v1 : Ref sig .tc := ⟨.hbm, 846, rfl⟩
abbrev main_call27_c_0 : Ref sig .tc := ⟨.hbm, 847, rfl⟩
abbrev main_call27_v2 : Ref sig .tc := ⟨.hbm, 848, rfl⟩
abbrev main_call27_v3 : Ref sig .tc := ⟨.hbm, 849, rfl⟩
abbrev main_call27_v4 : Ref sig .tc := ⟨.hbm, 850, rfl⟩
abbrev main_call27_v5 : Ref sig .tc := ⟨.hbm, 851, rfl⟩
abbrev main_call27_c_1 : Ref sig .tc := ⟨.hbm, 852, rfl⟩
abbrev main_call27_c_2 : Ref sig .tc := ⟨.hbm, 853, rfl⟩
abbrev main_call27_v6 : Ref sig .tc := ⟨.hbm, 854, rfl⟩
abbrev main_call27_v7 : Ref sig .tc := ⟨.hbm, 855, rfl⟩
abbrev main_call27_v8 : Ref sig .tc := ⟨.hbm, 856, rfl⟩
abbrev main_call27_v9 : Ref sig .tc := ⟨.hbm, 857, rfl⟩
abbrev main_call27_v10 : Ref sig .tc := ⟨.hbm, 858, rfl⟩
abbrev main_call27_v11 : Ref sig .tc := ⟨.hbm, 859, rfl⟩
abbrev main_call27_c_3 : Ref sig .tc := ⟨.hbm, 860, rfl⟩
abbrev main_call27_v12 : Ref sig .tc := ⟨.hbm, 861, rfl⟩
abbrev main_call27_v13 : Ref sig .tc := ⟨.hbm, 862, rfl⟩
abbrev main_call27_v14 : Ref sig .tc := ⟨.hbm, 863, rfl⟩
abbrev main_call27_cst : Ref sig .tc := ⟨.hbm, 864, rfl⟩
abbrev main_call27_v15 : Ref sig .tc := ⟨.hbm, 865, rfl⟩
abbrev main_v353 : Ref sig .tc := ⟨.hbm, 866, rfl⟩
abbrev main_v354 : Ref sig .tc := ⟨.hbm, 867, rfl⟩
abbrev main_v355 : Ref sig .tc := ⟨.hbm, 868, rfl⟩
abbrev main_cst_61 : Ref sig .tc := ⟨.hbm, 869, rfl⟩
abbrev main_v356 : Ref sig .tc := ⟨.hbm, 870, rfl⟩
abbrev main_c_62 : Ref sig .tc := ⟨.hbm, 871, rfl⟩
abbrev main_v357 : Ref sig .tc := ⟨.hbm, 872, rfl⟩
abbrev main_v358 : Ref sig .tc := ⟨.hbm, 873, rfl⟩
abbrev main_c_63 : Ref sig .tc := ⟨.hbm, 874, rfl⟩
abbrev main_v359 : Ref sig .tc := ⟨.hbm, 875, rfl⟩
abbrev main_v360 : Ref sig .tc := ⟨.hbm, 876, rfl⟩
abbrev main_v361 : Ref sig .tc := ⟨.hbm, 877, rfl⟩
abbrev main_v362 : Ref sig .tc := ⟨.hbm, 878, rfl⟩
abbrev main_v363 : Ref sig .tc := ⟨.hbm, 879, rfl⟩
abbrev main_v364 : Ref sig .tc := ⟨.hbm, 880, rfl⟩
abbrev main_v365 : Ref sig .tc := ⟨.hbm, 881, rfl⟩
abbrev main_v366 : Ref sig .tc := ⟨.hbm, 882, rfl⟩
abbrev main_v367 : Ref sig .tc := ⟨.hbm, 883, rfl⟩
abbrev main_cst_64 : Ref sig .tc := ⟨.hbm, 884, rfl⟩
abbrev main_v368 : Ref sig .tc := ⟨.hbm, 885, rfl⟩
abbrev main_v369 : Ref sig .tc := ⟨.hbm, 886, rfl⟩
abbrev main_cst_65 : Ref sig .tc := ⟨.hbm, 887, rfl⟩
abbrev main_v370 : Ref sig .tc := ⟨.hbm, 888, rfl⟩
abbrev main_v371 : Ref sig .tc := ⟨.hbm, 889, rfl⟩
abbrev main_c_66 : Ref sig .tc := ⟨.hbm, 890, rfl⟩
abbrev main_call28_cst : Ref sig .tc := ⟨.hbm, 891, rfl⟩
abbrev main_call28_v0 : Ref sig .tc := ⟨.hbm, 892, rfl⟩
abbrev main_call28_v1 : Ref sig .tc := ⟨.hbm, 893, rfl⟩
abbrev main_call28_cst_0 : Ref sig .tc := ⟨.hbm, 894, rfl⟩
abbrev main_call28_v2 : Ref sig .tc := ⟨.hbm, 895, rfl⟩
abbrev main_call28_v3 : Ref sig .tc := ⟨.hbm, 896, rfl⟩
abbrev main_call28_v4 : Ref sig .tc := ⟨.hbm, 897, rfl⟩
abbrev main_call28_v5 : Ref sig .tc := ⟨.hbm, 898, rfl⟩
abbrev main_call28_v6 : Ref sig .tc := ⟨.hbm, 899, rfl⟩
abbrev main_call28_v7 : Ref sig .tc := ⟨.hbm, 900, rfl⟩
abbrev main_call28_cst_1 : Ref sig .tc := ⟨.hbm, 901, rfl⟩
abbrev main_call28_v8 : Ref sig .tc := ⟨.hbm, 902, rfl⟩
abbrev main_call28_cst_2 : Ref sig .tc := ⟨.hbm, 903, rfl⟩
abbrev main_call28_v9 : Ref sig .tc := ⟨.hbm, 904, rfl⟩
abbrev main_call28_v10 : Ref sig .tc := ⟨.hbm, 905, rfl⟩
abbrev main_call28_v11 : Ref sig .tc := ⟨.hbm, 906, rfl⟩
abbrev main_call28_v12 : Ref sig .tc := ⟨.hbm, 907, rfl⟩
abbrev main_call28_cst_3 : Ref sig .tc := ⟨.hbm, 908, rfl⟩
abbrev main_call28_v13 : Ref sig .tc := ⟨.hbm, 909, rfl⟩
abbrev main_call28_cst_4 : Ref sig .tc := ⟨.hbm, 910, rfl⟩
abbrev main_call28_call0_v0 : Ref sig .tc := ⟨.hbm, 911, rfl⟩
abbrev main_call28_call0_v1 : Ref sig .tc := ⟨.hbm, 912, rfl⟩
abbrev main_v372 : Ref sig .tc := ⟨.hbm, 913, rfl⟩
abbrev main_v373 : Ref sig .tc := ⟨.hbm, 914, rfl⟩
abbrev main_v374 : Ref sig .tc := ⟨.hbm, 915, rfl⟩
abbrev main_cst_67 : Ref sig .tc := ⟨.hbm, 916, rfl⟩
abbrev main_v375 : Ref sig .tc := ⟨.hbm, 917, rfl⟩
abbrev main_v376 : Ref sig .tc := ⟨.hbm, 918, rfl⟩
abbrev main_v377 : Ref sig .tc := ⟨.hbm, 919, rfl⟩
abbrev main_v378 : Ref sig .tc := ⟨.hbm, 920, rfl⟩
abbrev main_v379 : Ref sig .tc := ⟨.hbm, 921, rfl⟩
abbrev main_v380 : Ref sig .tc := ⟨.hbm, 922, rfl⟩
abbrev main_v381 : Ref sig .tc := ⟨.hbm, 923, rfl⟩
abbrev main_v382 : Ref sig .tc := ⟨.hbm, 924, rfl⟩
abbrev main_v383 : Ref sig .tc := ⟨.hbm, 925, rfl⟩
abbrev main_v384 : Ref sig .tc := ⟨.hbm, 926, rfl⟩
abbrev main_v385 : Ref sig .tc := ⟨.hbm, 927, rfl⟩
abbrev main_call29_cst : Ref sig .tc := ⟨.hbm, 928, rfl⟩
abbrev main_call29_v0 : Ref sig .tc := ⟨.hbm, 929, rfl⟩
abbrev main_v386 : Ref sig .tc := ⟨.hbm, 930, rfl⟩
abbrev main_v387 : Ref sig .tc := ⟨.hbm, 931, rfl⟩
abbrev main_v388 : Ref sig .tc := ⟨.hbm, 932, rfl⟩
abbrev main_call30_c : Ref sig .tc := ⟨.hbm, 933, rfl⟩
abbrev main_call30_v0 : Ref sig .tc := ⟨.hbm, 934, rfl⟩
abbrev main_call30_v1 : Ref sig .tc := ⟨.hbm, 935, rfl⟩
abbrev main_call30_c_0 : Ref sig .tc := ⟨.hbm, 936, rfl⟩
abbrev main_call30_v2 : Ref sig .tc := ⟨.hbm, 937, rfl⟩
abbrev main_call30_v3 : Ref sig .tc := ⟨.hbm, 938, rfl⟩
abbrev main_call30_v4 : Ref sig .tc := ⟨.hbm, 939, rfl⟩
abbrev main_call30_v5 : Ref sig .tc := ⟨.hbm, 940, rfl⟩
abbrev main_call30_c_1 : Ref sig .tc := ⟨.hbm, 941, rfl⟩
abbrev main_call30_c_2 : Ref sig .tc := ⟨.hbm, 942, rfl⟩
abbrev main_call30_v6 : Ref sig .tc := ⟨.hbm, 943, rfl⟩
abbrev main_call30_v7 : Ref sig .tc := ⟨.hbm, 944, rfl⟩
abbrev main_call30_v8 : Ref sig .tc := ⟨.hbm, 945, rfl⟩
abbrev main_call30_v9 : Ref sig .tc := ⟨.hbm, 946, rfl⟩
abbrev main_call30_v10 : Ref sig .tc := ⟨.hbm, 947, rfl⟩
abbrev main_call30_v11 : Ref sig .tc := ⟨.hbm, 948, rfl⟩
abbrev main_call30_c_3 : Ref sig .tc := ⟨.hbm, 949, rfl⟩
abbrev main_call30_v12 : Ref sig .tc := ⟨.hbm, 950, rfl⟩
abbrev main_call30_v13 : Ref sig .tc := ⟨.hbm, 951, rfl⟩
abbrev main_call30_v14 : Ref sig .tc := ⟨.hbm, 952, rfl⟩
abbrev main_call30_cst : Ref sig .tc := ⟨.hbm, 953, rfl⟩
abbrev main_call30_v15 : Ref sig .tc := ⟨.hbm, 954, rfl⟩
abbrev main_v389 : Ref sig .tc := ⟨.hbm, 955, rfl⟩
abbrev main_v390 : Ref sig .tc := ⟨.hbm, 956, rfl⟩
abbrev main_v391 : Ref sig .tc := ⟨.hbm, 957, rfl⟩
abbrev main_cst_68 : Ref sig .tc := ⟨.hbm, 958, rfl⟩
abbrev main_v392 : Ref sig .tc := ⟨.hbm, 959, rfl⟩
abbrev main_c_69 : Ref sig .tc := ⟨.hbm, 960, rfl⟩
abbrev main_v393 : Ref sig .tc := ⟨.hbm, 961, rfl⟩
abbrev main_v394 : Ref sig .tc := ⟨.hbm, 962, rfl⟩
abbrev main_c_70 : Ref sig .tc := ⟨.hbm, 963, rfl⟩
abbrev main_v395 : Ref sig .tc := ⟨.hbm, 964, rfl⟩
abbrev main_v396 : Ref sig .tc := ⟨.hbm, 965, rfl⟩
abbrev main_v397 : Ref sig .tc := ⟨.hbm, 966, rfl⟩
abbrev main_v398 : Ref sig .tc := ⟨.hbm, 967, rfl⟩
abbrev main_v399 : Ref sig .tc := ⟨.hbm, 968, rfl⟩
abbrev main_v400 : Ref sig .tc := ⟨.hbm, 969, rfl⟩
abbrev main_v401 : Ref sig .tc := ⟨.hbm, 970, rfl⟩
abbrev main_v402 : Ref sig .tc := ⟨.hbm, 971, rfl⟩
abbrev main_v403 : Ref sig .tc := ⟨.hbm, 972, rfl⟩
abbrev main_cst_71 : Ref sig .tc := ⟨.hbm, 973, rfl⟩
abbrev main_v404 : Ref sig .tc := ⟨.hbm, 974, rfl⟩
abbrev main_v405 : Ref sig .tc := ⟨.hbm, 975, rfl⟩
abbrev main_cst_72 : Ref sig .tc := ⟨.hbm, 976, rfl⟩
abbrev main_v406 : Ref sig .tc := ⟨.hbm, 977, rfl⟩
abbrev main_v407 : Ref sig .tc := ⟨.hbm, 978, rfl⟩
abbrev main_c_73 : Ref sig .tc := ⟨.hbm, 979, rfl⟩
abbrev main_call31_cst : Ref sig .tc := ⟨.hbm, 980, rfl⟩
abbrev main_call31_v0 : Ref sig .tc := ⟨.hbm, 981, rfl⟩
abbrev main_call31_v1 : Ref sig .tc := ⟨.hbm, 982, rfl⟩
abbrev main_call31_cst_0 : Ref sig .tc := ⟨.hbm, 983, rfl⟩
abbrev main_call31_v2 : Ref sig .tc := ⟨.hbm, 984, rfl⟩
abbrev main_call31_v3 : Ref sig .tc := ⟨.hbm, 985, rfl⟩
abbrev main_call31_v4 : Ref sig .tc := ⟨.hbm, 986, rfl⟩
abbrev main_call31_v5 : Ref sig .tc := ⟨.hbm, 987, rfl⟩
abbrev main_call31_v6 : Ref sig .tc := ⟨.hbm, 988, rfl⟩
abbrev main_call31_v7 : Ref sig .tc := ⟨.hbm, 989, rfl⟩
abbrev main_call31_cst_1 : Ref sig .tc := ⟨.hbm, 990, rfl⟩
abbrev main_call31_v8 : Ref sig .tc := ⟨.hbm, 991, rfl⟩
abbrev main_call31_cst_2 : Ref sig .tc := ⟨.hbm, 992, rfl⟩
abbrev main_call31_v9 : Ref sig .tc := ⟨.hbm, 993, rfl⟩
abbrev main_call31_v10 : Ref sig .tc := ⟨.hbm, 994, rfl⟩
abbrev main_call31_v11 : Ref sig .tc := ⟨.hbm, 995, rfl⟩
abbrev main_call31_v12 : Ref sig .tc := ⟨.hbm, 996, rfl⟩
abbrev main_call31_cst_3 : Ref sig .tc := ⟨.hbm, 997, rfl⟩
abbrev main_call31_v13 : Ref sig .tc := ⟨.hbm, 998, rfl⟩
abbrev main_call31_cst_4 : Ref sig .tc := ⟨.hbm, 999, rfl⟩
abbrev main_call31_call0_v0 : Ref sig .tc := ⟨.hbm, 1000, rfl⟩
abbrev main_call31_call0_v1 : Ref sig .tc := ⟨.hbm, 1001, rfl⟩
abbrev main_v408 : Ref sig .tc := ⟨.hbm, 1002, rfl⟩
abbrev main_v409 : Ref sig .tc := ⟨.hbm, 1003, rfl⟩
abbrev main_v410 : Ref sig .tc := ⟨.hbm, 1004, rfl⟩
abbrev main_cst_74 : Ref sig .tc := ⟨.hbm, 1005, rfl⟩
abbrev main_v411 : Ref sig .tc := ⟨.hbm, 1006, rfl⟩
abbrev main_v412 : Ref sig .tc := ⟨.hbm, 1007, rfl⟩
abbrev main_v413 : Ref sig .tc := ⟨.hbm, 1008, rfl⟩
abbrev main_v414 : Ref sig .tc := ⟨.hbm, 1009, rfl⟩
abbrev main_v415 : Ref sig .tc := ⟨.hbm, 1010, rfl⟩
abbrev main_v416 : Ref sig .tc := ⟨.hbm, 1011, rfl⟩
abbrev main_v417 : Ref sig .tc := ⟨.hbm, 1012, rfl⟩
abbrev main_v418 : Ref sig .tc := ⟨.hbm, 1013, rfl⟩
abbrev main_v419 : Ref sig .tc := ⟨.hbm, 1014, rfl⟩
abbrev main_v420 : Ref sig .tc := ⟨.hbm, 1015, rfl⟩
abbrev main_v421 : Ref sig .tc := ⟨.hbm, 1016, rfl⟩
abbrev main_call32_cst : Ref sig .tc := ⟨.hbm, 1017, rfl⟩
abbrev main_call32_v0 : Ref sig .tc := ⟨.hbm, 1018, rfl⟩
abbrev main_v422 : Ref sig .tc := ⟨.hbm, 1019, rfl⟩
abbrev main_v423 : Ref sig .tc := ⟨.hbm, 1020, rfl⟩
abbrev main_v424 : Ref sig .tc := ⟨.hbm, 1021, rfl⟩
abbrev main_call33_c : Ref sig .tc := ⟨.hbm, 1022, rfl⟩
abbrev main_call33_v0 : Ref sig .tc := ⟨.hbm, 1023, rfl⟩
abbrev main_call33_v1 : Ref sig .tc := ⟨.hbm, 1024, rfl⟩
abbrev main_call33_c_0 : Ref sig .tc := ⟨.hbm, 1025, rfl⟩
abbrev main_call33_v2 : Ref sig .tc := ⟨.hbm, 1026, rfl⟩
abbrev main_call33_v3 : Ref sig .tc := ⟨.hbm, 1027, rfl⟩
abbrev main_call33_v4 : Ref sig .tc := ⟨.hbm, 1028, rfl⟩
abbrev main_call33_v5 : Ref sig .tc := ⟨.hbm, 1029, rfl⟩
abbrev main_call33_c_1 : Ref sig .tc := ⟨.hbm, 1030, rfl⟩
abbrev main_call33_c_2 : Ref sig .tc := ⟨.hbm, 1031, rfl⟩
abbrev main_call33_v6 : Ref sig .tc := ⟨.hbm, 1032, rfl⟩
abbrev main_call33_v7 : Ref sig .tc := ⟨.hbm, 1033, rfl⟩
abbrev main_call33_v8 : Ref sig .tc := ⟨.hbm, 1034, rfl⟩
abbrev main_call33_v9 : Ref sig .tc := ⟨.hbm, 1035, rfl⟩
abbrev main_call33_v10 : Ref sig .tc := ⟨.hbm, 1036, rfl⟩
abbrev main_call33_v11 : Ref sig .tc := ⟨.hbm, 1037, rfl⟩
abbrev main_call33_c_3 : Ref sig .tc := ⟨.hbm, 1038, rfl⟩
abbrev main_call33_v12 : Ref sig .tc := ⟨.hbm, 1039, rfl⟩
abbrev main_call33_v13 : Ref sig .tc := ⟨.hbm, 1040, rfl⟩
abbrev main_call33_v14 : Ref sig .tc := ⟨.hbm, 1041, rfl⟩
abbrev main_call33_cst : Ref sig .tc := ⟨.hbm, 1042, rfl⟩
abbrev main_call33_v15 : Ref sig .tc := ⟨.hbm, 1043, rfl⟩
abbrev main_v425 : Ref sig .tc := ⟨.hbm, 1044, rfl⟩
abbrev main_v426 : Ref sig .tc := ⟨.hbm, 1045, rfl⟩
abbrev main_v427 : Ref sig .tc := ⟨.hbm, 1046, rfl⟩
abbrev main_cst_75 : Ref sig .tc := ⟨.hbm, 1047, rfl⟩
abbrev main_v428 : Ref sig .tc := ⟨.hbm, 1048, rfl⟩
abbrev main_c_76 : Ref sig .tc := ⟨.hbm, 1049, rfl⟩
abbrev main_v429 : Ref sig .tc := ⟨.hbm, 1050, rfl⟩
abbrev main_v430 : Ref sig .tc := ⟨.hbm, 1051, rfl⟩
abbrev main_c_77 : Ref sig .tc := ⟨.hbm, 1052, rfl⟩
abbrev main_v431 : Ref sig .tc := ⟨.hbm, 1053, rfl⟩
abbrev main_v432 : Ref sig .tc := ⟨.hbm, 1054, rfl⟩
abbrev main_v433 : Ref sig .tc := ⟨.hbm, 1055, rfl⟩
abbrev main_v434 : Ref sig .tc := ⟨.hbm, 1056, rfl⟩
abbrev main_v435 : Ref sig .tc := ⟨.hbm, 1057, rfl⟩
abbrev main_v436 : Ref sig .tc := ⟨.hbm, 1058, rfl⟩
abbrev main_v437 : Ref sig .tc := ⟨.hbm, 1059, rfl⟩
abbrev main_v438 : Ref sig .tc := ⟨.hbm, 1060, rfl⟩
abbrev main_v439 : Ref sig .tc := ⟨.hbm, 1061, rfl⟩
abbrev main_cst_78 : Ref sig .tc := ⟨.hbm, 1062, rfl⟩
abbrev main_v440 : Ref sig .tc := ⟨.hbm, 1063, rfl⟩
abbrev main_v441 : Ref sig .tc := ⟨.hbm, 1064, rfl⟩
abbrev main_cst_79 : Ref sig .tc := ⟨.hbm, 1065, rfl⟩
abbrev main_v442 : Ref sig .tc := ⟨.hbm, 1066, rfl⟩
abbrev main_v443 : Ref sig .tc := ⟨.hbm, 1067, rfl⟩
abbrev main_c_80 : Ref sig .tc := ⟨.hbm, 1068, rfl⟩
abbrev main_call34_cst : Ref sig .tc := ⟨.hbm, 1069, rfl⟩
abbrev main_call34_v0 : Ref sig .tc := ⟨.hbm, 1070, rfl⟩
abbrev main_call34_v1 : Ref sig .tc := ⟨.hbm, 1071, rfl⟩
abbrev main_call34_cst_0 : Ref sig .tc := ⟨.hbm, 1072, rfl⟩
abbrev main_call34_v2 : Ref sig .tc := ⟨.hbm, 1073, rfl⟩
abbrev main_call34_v3 : Ref sig .tc := ⟨.hbm, 1074, rfl⟩
abbrev main_call34_v4 : Ref sig .tc := ⟨.hbm, 1075, rfl⟩
abbrev main_call34_v5 : Ref sig .tc := ⟨.hbm, 1076, rfl⟩
abbrev main_call34_v6 : Ref sig .tc := ⟨.hbm, 1077, rfl⟩
abbrev main_call34_v7 : Ref sig .tc := ⟨.hbm, 1078, rfl⟩
abbrev main_call34_cst_1 : Ref sig .tc := ⟨.hbm, 1079, rfl⟩
abbrev main_call34_v8 : Ref sig .tc := ⟨.hbm, 1080, rfl⟩
abbrev main_call34_cst_2 : Ref sig .tc := ⟨.hbm, 1081, rfl⟩
abbrev main_call34_v9 : Ref sig .tc := ⟨.hbm, 1082, rfl⟩
abbrev main_call34_v10 : Ref sig .tc := ⟨.hbm, 1083, rfl⟩
abbrev main_call34_v11 : Ref sig .tc := ⟨.hbm, 1084, rfl⟩
abbrev main_call34_v12 : Ref sig .tc := ⟨.hbm, 1085, rfl⟩
abbrev main_call34_cst_3 : Ref sig .tc := ⟨.hbm, 1086, rfl⟩
abbrev main_call34_v13 : Ref sig .tc := ⟨.hbm, 1087, rfl⟩
abbrev main_call34_cst_4 : Ref sig .tc := ⟨.hbm, 1088, rfl⟩
abbrev main_call34_call0_v0 : Ref sig .tc := ⟨.hbm, 1089, rfl⟩
abbrev main_call34_call0_v1 : Ref sig .tc := ⟨.hbm, 1090, rfl⟩
abbrev main_v444 : Ref sig .tc := ⟨.hbm, 1091, rfl⟩
abbrev main_v445 : Ref sig .tc := ⟨.hbm, 1092, rfl⟩
abbrev main_v446 : Ref sig .tc := ⟨.hbm, 1093, rfl⟩
abbrev main_cst_81 : Ref sig .tc := ⟨.hbm, 1094, rfl⟩
abbrev main_v447 : Ref sig .tc := ⟨.hbm, 1095, rfl⟩
abbrev main_v448 : Ref sig .tc := ⟨.hbm, 1096, rfl⟩
abbrev main_v449 : Ref sig .tc := ⟨.hbm, 1097, rfl⟩
abbrev main_v450 : Ref sig .tc := ⟨.hbm, 1098, rfl⟩
abbrev main_v451 : Ref sig .tc := ⟨.hbm, 1099, rfl⟩
abbrev main_v452 : Ref sig .tc := ⟨.hbm, 1100, rfl⟩
abbrev main_v453 : Ref sig .tc := ⟨.hbm, 1101, rfl⟩
abbrev main_v454 : Ref sig .tc := ⟨.hbm, 1102, rfl⟩
abbrev main_v455 : Ref sig .tc := ⟨.hbm, 1103, rfl⟩
abbrev main_v456 : Ref sig .tc := ⟨.hbm, 1104, rfl⟩
abbrev main_v457 : Ref sig .tc := ⟨.hbm, 1105, rfl⟩
abbrev main_call35_cst : Ref sig .tc := ⟨.hbm, 1106, rfl⟩
abbrev main_call35_v0 : Ref sig .tc := ⟨.hbm, 1107, rfl⟩
abbrev main_v458 : Ref sig .tc := ⟨.hbm, 1108, rfl⟩
abbrev main_v459 : Ref sig .tc := ⟨.hbm, 1109, rfl⟩
abbrev main_v460 : Ref sig .tc := ⟨.hbm, 1110, rfl⟩
abbrev main_v461 : Ref sig .tc := ⟨.hbm, 1111, rfl⟩
abbrev main_v462 : Ref sig .tc := ⟨.hbm, 1112, rfl⟩
abbrev main_v463 : Ref sig .tc := ⟨.hbm, 1113, rfl⟩

abbrev nD : Nat := 1
abbrev τ : Topo := Topo.v7x

variable {F : FTy → Type} [FloatOps F]

class Facts₀ : Prop where
  bcast_S512_S512x512_0 : S512.BroadcastsInDim S512x512 (![0] : Fin 1 → Fin S512x512.rank)
  shapeCasts_S512x512_S262144 : S512x512.ShapeCasts S262144
  shapeCasts_S512_S1x512 : S512.ShapeCasts S1x512
  bcast_S1x512_S512x512_0_1 : S1x512.BroadcastsInDim S512x512 (![0, 1] : Fin 2 → Fin S512x512.rank)
  slices_S4x512x512_S1x512x512_0_0_0 : S4x512x512.Slices ![0, 0, 0] S1x512x512
  shapeCasts_S1x512x512_S512x512 : S1x512x512.ShapeCasts S512x512
  slices_S4x512x128_S1x512x128_0_0_0 : S4x512x128.Slices ![0, 0, 0] S1x512x128
  shapeCasts_S1x512x128_S512x128 : S1x512x128.ShapeCasts S512x128
  bcast_S262144_S262144x1_0 : S262144.BroadcastsInDim S262144x1 (![0] : Fin 1 → Fin S262144x1.rank)
  bcast_S_S262144 : S_.BroadcastsInDim S262144 (![] : Fin 0 → Fin S262144.rank)
  bcast_S_S262144x1 : S_.BroadcastsInDim S262144x1 (![] : Fin 0 → Fin S262144x1.rank)
  bcast_S1_S1x1_1 : S1.BroadcastsInDim S1x1 (![1] : Fin 1 → Fin S1x1.rank)
  bcast_S1x1_S262144x1_0_1 : S1x1.BroadcastsInDim S262144x1 (![0, 1] : Fin 2 → Fin S262144x1.rank)
  reducesTo_S262144x1_S262144_d1 : S262144x1.ReducesTo [1] S262144
  h_S_ : 0 < S_.numel
  bcast_S262144_S262144x128_0 : S262144.BroadcastsInDim S262144x128 (![0] : Fin 1 → Fin S262144x128.rank)
  bcast_S_S262144x128 : S_.BroadcastsInDim S262144x128 (![] : Fin 0 → Fin S262144x128.rank)
  bcast_S262144x1_S262144x128_0_1 : S262144x1.BroadcastsInDim S262144x128 (![0, 1] : Fin 2 → Fin S262144x128.rank)
  bcast_S_S512x128 : S_.BroadcastsInDim S512x128 (![] : Fin 0 → Fin S512x128.rank)
  bcast_S128_S1x128_1 : S128.BroadcastsInDim S1x128 (![1] : Fin 1 → Fin S1x128.rank)
  bcast_S1x128_S512x128_0_1 : S1x128.BroadcastsInDim S512x128 (![0, 1] : Fin 2 → Fin S512x128.rank)
  reducesTo_S512x128_S512_d1 : S512x128.ReducesTo [1] S512
  bcast_S512_S512x1_0 : S512.BroadcastsInDim S512x1 (![0] : Fin 1 → Fin S512x1.rank)
  bcast_S_S512x1 : S_.BroadcastsInDim S512x1 (![] : Fin 0 → Fin S512x1.rank)
  bcast_S512x1_S512x128_0_1 : S512x1.BroadcastsInDim S512x128 (![0, 1] : Fin 2 → Fin S512x128.rank)
  slices_S4x512x512_S1x512x512_1_0_0 : S4x512x512.Slices ![1, 0, 0] S1x512x512
  slices_S4x512x128_S1x512x128_1_0_0 : S4x512x128.Slices ![1, 0, 0] S1x512x128
  slices_S4x512x512_S1x512x512_2_0_0 : S4x512x512.Slices ![2, 0, 0] S1x512x512
  slices_S4x512x128_S1x512x128_2_0_0 : S4x512x128.Slices ![2, 0, 0] S1x512x128
  slices_S4x512x512_S1x512x512_3_0_0 : S4x512x512.Slices ![3, 0, 0] S1x512x512
  slices_S4x512x128_S1x512x128_3_0_0 : S4x512x128.Slices ![3, 0, 0] S1x512x128
  bcast_S512x128_S1x512x128_1_2 : S512x128.BroadcastsInDim S1x512x128 (![1, 2] : Fin 2 → Fin S1x512x128.rank)
  concatenates_S1x512x128_S1x512x128_S1x512x128_S1x512x128_S4x512x128_d0 : Shape.Concatenates [S1x512x128, S1x512x128, S1x512x128, S1x512x128] S4x512x128 0
  dot_S512x128_S128x128_S512x128_1_0_0_1_n_n_wf : DotDims.WF S512x128 S128x128 S512x128 [1] [0] [0] [1] [] []
  gather_S512x128_S262144x1_S262144x128_1_0_n_n_0_1_1128_wf : GatherDims.WF S512x128 S262144x1 S262144x128 [1] [0] [] [0] [] 1 ![1, 128]
  scatter_S512x128_S262144x1_S262144x128_1_0_0_1_wf : ScatterDims.WF S512x128 S262144x1 S262144x128 [1] [0] [0] 1

variable [Facts₀]

def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def gather_S512x128_S262144x1_S262144x128_1_0_n_n_0_1_1128 : GatherDims S512x128 S262144x1 S262144x128 where
  offsetDims := [1]
  collapsedSliceDims := [0]
  operandBatchingDims := []
  startIndicesBatchingDims := []
  startIndexMap := [0]
  indexVectorDim := 1
  sliceSizes := ![1, 128]
  wf := gather_S512x128_S262144x1_S262144x128_1_0_n_n_0_1_1128_wf
def scatter_S512x128_S262144x1_S262144x128_1_0_0_1 : ScatterDims S512x128 S262144x1 S262144x128 where
  updateWindowDims := [1]
  insertedWindowDims := [0]
  scatterDimsToOperandDims := [0]
  indexVectorDim := 1
  wf := scatter_S512x128_S262144x1_S262144x128_1_0_0_1_wf

class Facts : Prop extends Facts₀ where

variable [Facts]
-- ==== Proof.KLayer.lean ====
/-
  ONE GRAPH-CONVOLUTION LAYER IN THE KERNEL'S OWN SPELLING, over extended reals.  The body computes three layers
  in a row; each is: the feature product x·W, the aggregation along the source node (the adjacency contracted on its
  first axis, so node n collects a s n times row s), then bias and residual, the row mean and the row variance as lane
  sums divided by 128, the reciprocal square root of variance plus eps, scale, shift and the floor at zero.  The
  definitions below name these stages with exactly the vector operations the body uses, and the last theorem says
  that what the body stores is the three-layer composition, re-laid as a block with a leading unit axis.
-/
import proofs.«175100_g37074157699472_cont_sun_c4_777_8_alg».proof.Proof.Gen.KernelIdeal.Skeleton
import Idealize.ShloMosaic.PureOps.Ideal

noncomputable section

namespace Cert.KernelIdeal.GnnValue

open Cert.KernelIdeal Cert.KernelIdeal.Gen Idealize.ShloMosaic

/-- The message stage: x·W, then the adjacency contracted with it along the source node. -/
def aggK (x : FVec Ideal S512x128 .f32) (a : FVec Ideal S512x512 .f32) (W : FVec Ideal S128x128 .f32) : FVec Ideal S512x128 .f32 :=
  matmul dot_S512x512_S512x128_S512x128_0_0_1_1_n_n none a
    (matmul dot_S512x128_S128x128_S512x128_1_0_0_1_n_n none x W (constant S512x128 .f32 0x00000000#32))
    (constant S512x128 .f32 0x00000000#32)

/-- A row vector [1,128] laid over the 512 rows. -/
def rowsK (b : FVec Ideal S1x128 .f32) : FVec Ideal S512x128 .f32 :=
  broadcastTo S512x128 (shapeCast S1x128 b shapeCasts_S1x128_S1x128) broadcasts_S1x128_S512x128

/-- Messages plus bias plus the residual. -/
def zK (x agg : FVec Ideal S512x128 .f32) (b : FVec Ideal S1x128 .f32) : FVec Ideal S512x128 .f32 :=
  addf (addf agg (rowsK b)) x

/-- The lane sum of each row divided by 128, kept as a column [512,1]. -/
def meanColK (z : FVec Ideal S512x128 .f32) : FVec Ideal S512x1 .f32 :=
  divf (shapeCast S512x1 (multiReduction .add [1] S512 z 0x00000000#32 reduces_S512x128_S512 (.inl rfl) rfl) shapeCasts_S512_S512x1)
    (broadcast S512x1 (Scalar.ofBits .f32 0x43000000#32))

/-- The row mean laid over the 128 lanes. -/
def muK (z : FVec Ideal S512x128 .f32) : FVec Ideal S512x128 .f32 :=
  broadcastTo S512x128 (meanColK z) broadcasts_S512x1_S512x128

/-- The centred rows. -/
def zcK (z : FVec Ideal S512x128 .f32) : FVec Ideal S512x128 .f32 := subf z (muK z)

/-- The reciprocal square root of the row variance plus eps, laid over the lanes. -/
def rstdK (zc : FVec Ideal S512x128 .f32) : FVec Ideal S512x128 .f32 :=
  broadcastTo S512x128 (rsqrt (addf (meanColK (mulf zc zc)) (broadcast S512x1 (Scalar.ofBits .f32 0x3727C5AC#32)))) broadcasts_S512x1_S512x128

/-- Normalise, scale, shift: the layer before its floor at zero. -/
def tailK (x agg : FVec Ideal S512x128 .f32) (b g t : FVec Ideal S1x128 .f32) : FVec Ideal S512x128 .f32 :=
  addf (mulf (mulf (zcK (zK x agg b)) (rstdK (zcK (zK x agg b)))) (rowsK g)) (rowsK t)

/-- The floor at zero. -/
def reluK (y : FVec Ideal S512x128 .f32) : FVec Ideal S512x128 .f32 :=
  maximumf y (broadcast S512x128 (Scalar.ofBits .f32 0x00000000#32))

/-- One layer. -/
def layerK (x : FVec Ideal S512x128 .f32) (a : FVec Ideal S512x512 .f32) (W : FVec Ideal S128x128 .f32) (b g t : FVec Ideal S1x128 .f32) :
    FVec Ideal S512x128 .f32 :=
  reluK (tailK x (aggK x a W) b g t)

/-- Three layers over one block of nodes and one block of the adjacency, re-laid as a [1,512,128] block. -/
def bodyK (x0 : Vec Ideal S1x512x128 .f32) (x1 : Vec Ideal S1x512x512 .f32) (x2 x3 x4 : Vec Ideal S128x128 .f32)
    (x5 x6 x7 x8 x9 x10 x11 x12 x13 : Vec Ideal S1x128 .f32) : FVec Ideal S1x512x128 .f32 :=
  shapeCast S1x512x128
    (layerK (layerK (layerK (shapeCast S512x128 x0 shapeCasts_S1x512x128_S512x128) (shapeCast S512x512 x1 shapeCasts_S1x512x512_S512x512) x2 x5 x8 x11)
      (shapeCast S512x512 x1 shapeCasts_S1x512x512_S512x512) x3 x6 x9 x12)
      (shapeCast S512x512 x1 shapeCasts_S1x512x512_S512x512) x4 x7 x10 x13)
    shapeCasts_S512x128_S1x512x128

/-- What the body stores, as the generated payload terms compose it, is `bodyK` of the loaded blocks: the payloads
    are cut at other places than the layers (the first stops before its floor, the second floors and runs the whole
    second layer, the third is the last layer's two products, the fourth the rest), and unfold to the same term. -/
theorem pay_eq (x0 : Vec Ideal S1x512x128 .f32) (x1 : Vec Ideal S1x512x512 .f32) (x2 x3 x4 : Vec Ideal S128x128 .f32)
    (x5 x6 x7 x8 x9 x10 x11 x12 x13 : Vec Ideal S1x128 .f32) :
    k0_pay1 (k0_pay5 (k0_pay2 x1) (k0_pay3 x0 x1 x2 x5 x8 x11) (k0_pay4 (F := Ideal)) x3 x6 x9 x12)
        (k0_pay6 (k0_pay2 x1) (k0_pay3 x0 x1 x2 x5 x8 x11) (k0_pay4 (F := Ideal)) x3 x6 x9 x12 x4) x7 x10 x13
      = bodyK x0 x1 x2 x3 x4 x5 x6 x7 x8 x9 x10 x11 x12 x13 := by
  unfold k0_pay1 k0_pay5 k0_pay6 k0_pay3 k0_pay4 k0_pay2 bodyK layerK reluK tailK zcK rstdK muK meanColK zK rowsK aggK
  rfl

end Cert.KernelIdeal.GnnValue

end
-- ==== Proof.KOut.lean ====
/-
  THE WHOLE OUTPUT ARRAY as one function of the fourteen argument arrays.  The grid has one point per batch element;
  point bi reads block bi of the node features and block bi of the adjacency, the three weight matrices whole, and
  the nine vectors as [1,128] rows; it writes block bi of the output.  So entry (bi, n, d) of the output is the
  three-layer function of those blocks at (n, d).
-/
import proofs.«175100_g37074157699472_cont_sun_c4_777_8_alg».proof.Proof.KLayer
import Idealize.ShloMosaic.Lib.ValueIdx

noncomputable section

namespace Cert.KernelIdeal.GnnValue

open Cert.KernelIdeal Cert.KernelIdeal.Gen Idealize.ShloMosaic Idealize.ShloMosaic.ValueIdx

/-- Batch element bi of the node features, as a [1,512,128] block. -/
def blkX (X : FVec Ideal S4x512x128 .f32) (bi : Fin 4) : Vec Ideal S1x512x128 .f32 :=
  fun y => X (ix3 bi (⟨(y 1).val, (y 1).isLt⟩ : Fin 512) (⟨(y 2).val, (y 2).isLt⟩ : Fin 128))

/-- Batch element bi of the adjacency, as a [1,512,512] block. -/
def blkA (A : FVec Ideal S4x512x512 .f32) (bi : Fin 4) : Vec Ideal S1x512x512 .f32 :=
  fun y => A (ix3 bi (⟨(y 1).val, (y 1).isLt⟩ : Fin 512) (⟨(y 2).val, (y 2).isLt⟩ : Fin 512))

/-- A [128] vector as the [1,128] row the host reshapes it to before the call. -/
def rowV (v : FVec Ideal S128 .f32) : Vec Ideal S1x128 .f32 := shapeCast S1x128 v shapeCasts_S128_S1x128

/-- The output array: at (bi, n, d) the three layers over batch element bi, at (n, d). -/
def kernelOut (X : FVec Ideal S4x512x128 .f32) (A : FVec Ideal S4x512x512 .f32) (W0 W1 W2 : FVec Ideal S128x128 .f32)
    (b0 b1 b2 g0 g1 g2 t0 t1 t2 : FVec Ideal S128 .f32) : FVec Ideal S4x512x128 .f32 :=
  fun i => bodyK (blkX X ⟨(i 0).val, (i 0).isLt⟩) (blkA A ⟨(i 0).val, (i 0).isLt⟩) W0 W1 W2
    (rowV b0) (rowV b1) (rowV b2) (rowV g0) (rowV g1) (rowV g2) (rowV t0) (rowV t1) (rowV t2)
    (ix3 (0 : Fin 1) (⟨(i 1).val, (i 1).isLt⟩ : Fin 512) (⟨(i 2).val, (i 2).isLt⟩ : Fin 128))

end Cert.KernelIdeal.GnnValue

end
-- ==== Proof.KBlocks.lean ====
/-
  FROM THE BLOCKS TO THE ARRAY.  Grid point t handles batch element t: its node block and adjacency block are rows
  (t, ·, ·) of their arrays, every other window holds its whole array (the nine vectors as the [1,128] rows the host
  reshaped them to), and the block it writes back is rows (t, ·, ·) of the output.  So what point t writes back is
  block t of the whole-array function, the four blocks cover the output, and the output array after the run is that
  function of the fourteen arguments.
-/
import proofs.«175100_g37074157699472_cont_sun_c4_777_8_alg».proof.Proof.KOut
import proofs.«175100_g37074157699472_cont_sun_c4_777_8_alg».proof.Proof.Gen.KernelIdeal.Value
import Idealize.ShloMosaic.Lib.Pipeline.Value

noncomputable section

namespace Cert.KernelIdeal.GnnValue

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-! ## The index maps, decided over the four grid points -/

/-- The three batched windows sit at batch element t and at the origin of the other two axes. -/
theorem idx3 : ∀ t : Fin cfg0.N,
    win0_14.index t (0 : Fin 3) = t.val ∧ win0_14.index t (1 : Fin 3) = 0 ∧ win0_14.index t (2 : Fin 3) = 0
    ∧ win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

theorem idxW2 : ∀ t : Fin cfg0.N, win0_2.index t (0 : Fin 2) = 0 ∧ win0_2.index t (1 : Fin 2) = 0 :=
  (by decide +kernel : ∀ t : Fin grid0.N, _)
theorem idxW3 : ∀ t : Fin cfg0.N, win0_3.index t (0 : Fin 2) = 0 ∧ win0_3.index t (1 : Fin 2) = 0 :=
  (by decide +kernel : ∀ t : Fin grid0.N, _)
theorem idxW4 : ∀ t : Fin cfg0.N, win0_4.index t (0 : Fin 2) = 0 ∧ win0_4.index t (1 : Fin 2) = 0 :=
  (by decide +kernel : ∀ t : Fin grid0.N, _)
theorem idxW5 : ∀ t : Fin cfg0.N, win0_5.index t (0 : Fin 2) = 0 ∧ win0_5.index t (1 : Fin 2) = 0 :=
  (by decide +kernel : ∀ t : Fin grid0.N, _)
theorem idxW6 : ∀ t : Fin cfg0.N, win0_6.index t (0 : Fin 2) = 0 ∧ win0_6.index t (1 : Fin 2) = 0 :=
  (by decide +kernel : ∀ t : Fin grid0.N, _)
theorem idxW7 : ∀ t : Fin cfg0.N, win0_7.index t (0 : Fin 2) = 0 ∧ win0_7.index t (1 : Fin 2) = 0 :=
  (by decide +kernel : ∀ t : Fin grid0.N, _)
theorem idxW8 : ∀ t : Fin cfg0.N, win0_8.index t (0 : Fin 2) = 0 ∧ win0_8.index t (1 : Fin 2) = 0 :=
  (by decide +kernel : ∀ t : Fin grid0.N, _)
theorem idxW9 : ∀ t : Fin cfg0.N, win0_9.index t (0 : Fin 2) = 0 ∧ win0_9.index t (1 : Fin 2) = 0 :=
  (by decide +kernel : ∀ t : Fin grid0.N, _)
theorem idxW10 : ∀ t : Fin cfg0.N, win0_10.index t (0 : Fin 2) = 0 ∧ win0_10.index t (1 : Fin 2) = 0 :=
  (by decide +kernel : ∀ t : Fin grid0.N, _)
theorem idxW11 : ∀ t : Fin cfg0.N, win0_11.index t (0 : Fin 2) = 0 ∧ win0_11.index t (1 : Fin 2) = 0 :=
  (by decide +kernel : ∀ t : Fin grid0.N, _)
theorem idxW12 : ∀ t : Fin cfg0.N, win0_12.index t (0 : Fin 2) = 0 ∧ win0_12.index t (1 : Fin 2) = 0 :=
  (by decide +kernel : ∀ t : Fin grid0.N, _)
theorem idxW13 : ∀ t : Fin cfg0.N, win0_13.index t (0 : Fin 2) = 0 ∧ win0_13.index t (1 : Fin 2) = 0 :=
  (by decide +kernel : ∀ t : Fin grid0.N, _)

/-- The batch element of a grid point. -/
def bOf (t : Fin cfg0.N) : Fin 4 := ⟨t.val, by have h := t.isLt; have hN : cfg0.N = 4 := N_0; omega⟩

/-! ## Each window's block, read off its argument -/

/-- The node block at point t is batch element t of the node features. -/
theorem iblk0 (c : Dev nD) (t : Fin cfg0.N) : (iblk m c 0 t : Vec Ideal S1x512x128 .f32) = blkX (m ((c : Thread nD τ).loc main_arg0)) (bOf t) := by
  obtain ⟨-, -, -, e0, e1, e2, -⟩ := idx3 t
  funext y
  have hy0 : (y 0).val < 1 := (y 0).isLt
  have hy1 : (y 1).val < 512 := (y 1).isLt
  have hy2 : (y 2).val < 128 := (y 2).isLt
  unfold iblk
  rw [View.read_apply]
  show V m c main_arg0 _ = _
  rw [V_main_arg0]
  unfold blkX
  refine congrArg ((m ((c : Thread nD τ).loc main_arg0)) : S4x512x128.Idx → EReal) (funext fun a => Fin.ext ?_)
  match a with
  | ⟨0, _⟩ => show win0_0.index t (0 : Fin 3) * 1 + 1 * (y 0).val = t.val; omega
  | ⟨1, _⟩ => show win0_0.index t (1 : Fin 3) * 512 + 1 * (y 1).val = (y 1).val; omega
  | ⟨2, _⟩ => show win0_0.index t (2 : Fin 3) * 128 + 1 * (y 2).val = (y 2).val; omega

/-- The adjacency block at point t is batch element t of the adjacency. -/
theorem iblk1 (c : Dev nD) (t : Fin cfg0.N) : (iblk m c 1 t : Vec Ideal S1x512x512 .f32) = blkA (m ((c : Thread nD τ).loc main_arg1)) (bOf t) := by
  obtain ⟨-, -, -, -, -, -, e0, e1, e2⟩ := idx3 t
  funext y
  have hy0 : (y 0).val < 1 := (y 0).isLt
  have hy1 : (y 1).val < 512 := (y 1).isLt
  have hy2 : (y 2).val < 512 := (y 2).isLt
  unfold iblk
  rw [View.read_apply]
  show V m c main_arg1 _ = _
  rw [V_main_arg1]
  unfold blkA
  refine congrArg ((m ((c : Thread nD τ).loc main_arg1)) : S4x512x512.Idx → EReal) (funext fun a => Fin.ext ?_)
  match a with
  | ⟨0, _⟩ => show win0_1.index t (0 : Fin 3) * 1 + 1 * (y 0).val = t.val; omega
  | ⟨1, _⟩ => show win0_1.index t (1 : Fin 3) * 512 + 1 * (y 1).val = (y 1).val; omega
  | ⟨2, _⟩ => show win0_1.index t (2 : Fin 3) * 512 + 1 * (y 2).val = (y 2).val; omega

/-- Window 2 stages a whole weight matrix: its block at every point is the argument. -/
theorem iblk2 (c : Dev nD) (t : Fin cfg0.N) : (iblk m c 2 t : Vec Ideal S128x128 .f32) = (m ((c : Thread nD τ).loc main_arg2)) := by
  obtain ⟨h0, h1⟩ := idxW2 t
  funext y
  have hy0 : (y 0).val < 128 := (y 0).isLt
  have hy1 : (y 1).val < 128 := (y 1).isLt
  unfold iblk
  rw [View.read_apply]
  show V m c main_arg2 _ = _
  rw [V_main_arg2]
  refine congrArg ((m ((c : Thread nD τ).loc main_arg2)) : S128x128.Idx → EReal) (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- Window 3 stages a whole weight matrix: its block at every point is the argument. -/
theorem iblk3 (c : Dev nD) (t : Fin cfg0.N) : (iblk m c 3 t : Vec Ideal S128x128 .f32) = (m ((c : Thread nD τ).loc main_arg3)) := by
  obtain ⟨h0, h1⟩ := idxW3 t
  funext y
  have hy0 : (y 0).val < 128 := (y 0).isLt
  have hy1 : (y 1).val < 128 := (y 1).isLt
  unfold iblk
  rw [View.read_apply]
  show V m c main_arg3 _ = _
  rw [V_main_arg3]
  refine congrArg ((m ((c : Thread nD τ).loc main_arg3)) : S128x128.Idx → EReal) (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- Window 4 stages a whole weight matrix: its block at every point is the argument. -/
theorem iblk4 (c : Dev nD) (t : Fin cfg0.N) : (iblk m c 4 t : Vec Ideal S128x128 .f32) = (m ((c : Thread nD τ).loc main_arg4)) := by
  obtain ⟨h0, h1⟩ := idxW4 t
  funext y
  have hy0 : (y 0).val < 128 := (y 0).isLt
  have hy1 : (y 1).val < 128 := (y 1).isLt
  unfold iblk
  rw [View.read_apply]
  show V m c main_arg4 _ = _
  rw [V_main_arg4]
  refine congrArg ((m ((c : Thread nD τ).loc main_arg4)) : S128x128.Idx → EReal) (funext fun a => Fin.ext ?_)
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- The host reshapes argument 5 to a [1,128] row before the call. -/
theorem V_main_v0 (c : Dev nD) : (V m c main_v0 : S1x128.Idx → EReal) = rowV (m ((c : Thread nD τ).loc main_arg5)) := by
  dsimp only [V, hostOps0]; after_results; rfl

/-- Window 5 stages that whole row: its block at every point is the row. -/
theorem iblk5 (c : Dev nD) (t : Fin cfg0.N) : (iblk m c 5 t : Vec Ideal S1x128 .f32) = rowV (m ((c : Thread nD τ).loc main_arg5)) := by
  obtain ⟨h0, h1⟩ := idxW5 t
  funext y
  have hy0 : (y 0).val < 1 := (y 0).isLt
  have hy1 : (y 1).val < 128 := (y 1).isLt
  unfold iblk
  rw [View.read_apply]
  show V m c main_v0 _ = _
  refine (congrFun (V_main_v0 m c) _).trans ?_
  refine congrArg (rowV (m ((c : Thread nD τ).loc main_arg5))) (funext fun a => Fin.ext ?_)
  match a with
  | ⟨0, _⟩ => show win0_5.index t (0 : Fin 2) * 1 + 1 * (y 0).val = (y 0).val; omega
  | ⟨1, _⟩ => show win0_5.index t (1 : Fin 2) * 128 + 1 * (y 1).val = (y 1).val; omega

/-- The host reshapes argument 6 to a [1,128] row before the call. -/
theorem V_main_v1 (c : Dev nD) : (V m c main_v1 : S1x128.Idx → EReal) = rowV (m ((c : Thread nD τ).loc main_arg6)) := by
  dsimp only [V, hostOps0]; after_results; rfl

/-- Window 6 stages that whole row: its block at every point is the row. -/
theorem iblk6 (c : Dev nD) (t : Fin cfg0.N) : (iblk m c 6 t : Vec Ideal S1x128 .f32) = rowV (m ((c : Thread nD τ).loc main_arg6)) := by
  obtain ⟨h0, h1⟩ := idxW6 t
  funext y
  have hy0 : (y 0).val < 1 := (y 0).isLt
  have hy1 : (y 1).val < 128 := (y 1).isLt
  unfold iblk
  rw [View.read_apply]
  show V m c main_v1 _ = _
  refine (congrFun (V_main_v1 m c) _).trans ?_
  refine congrArg (rowV (m ((c : Thread nD τ).loc main_arg6))) (funext fun a => Fin.ext ?_)
  match a with
  | ⟨0, _⟩ => show win0_6.index t (0 : Fin 2) * 1 + 1 * (y 0).val = (y 0).val; omega
  | ⟨1, _⟩ => show win0_6.index t (1 : Fin 2) * 128 + 1 * (y 1).val = (y 1).val; omega

/-- The host reshapes argument 7 to a [1,128] row before the call. -/
theorem V_main_v2 (c : Dev nD) : (V m c main_v2 : S1x128.Idx → EReal) = rowV (m ((c : Thread nD τ).loc main_arg7)) := by
  dsimp only [V, hostOps0]; after_results; rfl

/-- Window 7 stages that whole row: its block at every point is the row. -/
theorem iblk7 (c : Dev nD) (t : Fin cfg0.N) : (iblk m c 7 t : Vec Ideal S1x128 .f32) = rowV (m ((c : Thread nD τ).loc main_arg7)) := by
  obtain ⟨h0, h1⟩ := idxW7 t
  funext y
  have hy0 : (y 0).val < 1 := (y 0).isLt
  have hy1 : (y 1).val < 128 := (y 1).isLt
  unfold iblk
  rw [View.read_apply]
  show V m c main_v2 _ = _
  refine (congrFun (V_main_v2 m c) _).trans ?_
  refine congrArg (rowV (m ((c : Thread nD τ).loc main_arg7))) (funext fun a => Fin.ext ?_)
  match a with
  | ⟨0, _⟩ => show win0_7.index t (0 : Fin 2) * 1 + 1 * (y 0).val = (y 0).val; omega
  | ⟨1, _⟩ => show win0_7.index t (1 : Fin 2) * 128 + 1 * (y 1).val = (y 1).val; omega

/-- The host reshapes argument 8 to a [1,128] row before the call. -/
theorem V_main_v3 (c : Dev nD) : (V m c main_v3 : S1x128.Idx → EReal) = rowV (m ((c : Thread nD τ).loc main_arg8)) := by
  dsimp only [V, hostOps0]; after_results; rfl

/-- Window 8 stages that whole row: its block at every point is the row. -/
theorem iblk8 (c : Dev nD) (t : Fin cfg0.N) : (iblk m c 8 t : Vec Ideal S1x128 .f32) = rowV (m ((c : Thread nD τ).loc main_arg8)) := by
  obtain ⟨h0, h1⟩ := idxW8 t
  funext y
  have hy0 : (y 0).val < 1 := (y 0).isLt
  have hy1 : (y 1).val < 128 := (y 1).isLt
  unfold iblk
  rw [View.read_apply]
  show V m c main_v3 _ = _
  refine (congrFun (V_main_v3 m c) _).trans ?_
  refine congrArg (rowV (m ((c : Thread nD τ).loc main_arg8))) (funext fun a => Fin.ext ?_)
  match a with
  | ⟨0, _⟩ => show win0_8.index t (0 : Fin 2) * 1 + 1 * (y 0).val = (y 0).val; omega
  | ⟨1, _⟩ => show win0_8.index t (1 : Fin 2) * 128 + 1 * (y 1).val = (y 1).val; omega

/-- The host reshapes argument 9 to a [1,128] row before the call. -/
theorem V_main_v4 (c : Dev nD) : (V m c main_v4 : S1x128.Idx → EReal) = rowV (m ((c : Thread nD τ).loc main_arg9)) := by
  dsimp only [V, hostOps0]; after_results; rfl

/-- Window 9 stages that whole row: its block at every point is the row. -/
theorem iblk9 (c : Dev nD) (t : Fin cfg0.N) : (iblk m c 9 t : Vec Ideal S1x128 .f32) = rowV (m ((c : Thread nD τ).loc main_arg9)) := by
  obtain ⟨h0, h1⟩ := idxW9 t
  funext y
  have hy0 : (y 0).val < 1 := (y 0).isLt
  have hy1 : (y 1).val < 128 := (y 1).isLt
  unfold iblk
  rw [View.read_apply]
  show V m c main_v4 _ = _
  refine (congrFun (V_main_v4 m c) _).trans ?_
  refine congrArg (rowV (m ((c : Thread nD τ).loc main_arg9))) (funext fun a => Fin.ext ?_)
  match a with
  | ⟨0, _⟩ => show win0_9.index t (0 : Fin 2) * 1 + 1 * (y 0).val = (y 0).val; omega
  | ⟨1, _⟩ => show win0_9.index t (1 : Fin 2) * 128 + 1 * (y 1).val = (y 1).val; omega

/-- The host reshapes argument 10 to a [1,128] row before the call. -/
theorem V_main_v5 (c : Dev nD) : (V m c main_v5 : S1x128.Idx → EReal) = rowV (m ((c : Thread nD τ).loc main_arg10)) := by
  dsimp only [V, hostOps0]; after_results; rfl

/-- Window 10 stages that whole row: its block at every point is the row. -/
theorem iblk10 (c : Dev nD) (t : Fin cfg0.N) : (iblk m c 10 t : Vec Ideal S1x128 .f32) = rowV (m ((c : Thread nD τ).loc main_arg10)) := by
  obtain ⟨h0, h1⟩ := idxW10 t
  funext y
  have hy0 : (y 0).val < 1 := (y 0).isLt
  have hy1 : (y 1).val < 128 := (y 1).isLt
  unfold iblk
  rw [View.read_apply]
  show V m c main_v5 _ = _
  refine (congrFun (V_main_v5 m c) _).trans ?_
  refine congrArg (rowV (m ((c : Thread nD τ).loc main_arg10))) (funext fun a => Fin.ext ?_)
  match a with
  | ⟨0, _⟩ => show win0_10.index t (0 : Fin 2) * 1 + 1 * (y 0).val = (y 0).val; omega
  | ⟨1, _⟩ => show win0_10.index t (1 : Fin 2) * 128 + 1 * (y 1).val = (y 1).val; omega

/-- The host reshapes argument 11 to a [1,128] row before the call. -/
theorem V_main_v6 (c : Dev nD) : (V m c main_v6 : S1x128.Idx → EReal) = rowV (m ((c : Thread nD τ).loc main_arg11)) := by
  dsimp only [V, hostOps0]; after_results; rfl

/-- Window 11 stages that whole row: its block at every point is the row. -/
theorem iblk11 (c : Dev nD) (t : Fin cfg0.N) : (iblk m c 11 t : Vec Ideal S1x128 .f32) = rowV (m ((c : Thread nD τ).loc main_arg11)) := by
  obtain ⟨h0, h1⟩ := idxW11 t
  funext y
  have hy0 : (y 0).val < 1 := (y 0).isLt
  have hy1 : (y 1).val < 128 := (y 1).isLt
  unfold iblk
  rw [View.read_apply]
  show V m c main_v6 _ = _
  refine (congrFun (V_main_v6 m c) _).trans ?_
  refine congrArg (rowV (m ((c : Thread nD τ).loc main_arg11))) (funext fun a => Fin.ext ?_)
  match a with
  | ⟨0, _⟩ => show win0_11.index t (0 : Fin 2) * 1 + 1 * (y 0).val = (y 0).val; omega
  | ⟨1, _⟩ => show win0_11.index t (1 : Fin 2) * 128 + 1 * (y 1).val = (y 1).val; omega

/-- The host reshapes argument 12 to a [1,128] row before the call. -/
theorem V_main_v7 (c : Dev nD) : (V m c main_v7 : S1x128.Idx → EReal) = rowV (m ((c : Thread nD τ).loc main_arg12)) := by
  dsimp only [V, hostOps0]; after_results; rfl

/-- Window 12 stages that whole row: its block at every point is the row. -/
theorem iblk12 (c : Dev nD) (t : Fin cfg0.N) : (iblk m c 12 t : Vec Ideal S1x128 .f32) = rowV (m ((c : Thread nD τ).loc main_arg12)) := by
  obtain ⟨h0, h1⟩ := idxW12 t
  funext y
  have hy0 : (y 0).val < 1 := (y 0).isLt
  have hy1 : (y 1).val < 128 := (y 1).isLt
  unfold iblk
  rw [View.read_apply]
  show V m c main_v7 _ = _
  refine (congrFun (V_main_v7 m c) _).trans ?_
  refine congrArg (rowV (m ((c : Thread nD τ).loc main_arg12))) (funext fun a => Fin.ext ?_)
  match a with
  | ⟨0, _⟩ => show win0_12.index t (0 : Fin 2) * 1 + 1 * (y 0).val = (y 0).val; omega
  | ⟨1, _⟩ => show win0_12.index t (1 : Fin 2) * 128 + 1 * (y 1).val = (y 1).val; omega

/-- The host reshapes argument 13 to a [1,128] row before the call. -/
theorem V_main_v8 (c : Dev nD) : (V m c main_v8 : S1x128.Idx → EReal) = rowV (m ((c : Thread nD τ).loc main_arg13)) := by
  dsimp only [V, hostOps0]; after_results; rfl

/-- Window 13 stages that whole row: its block at every point is the row. -/
theorem iblk13 (c : Dev nD) (t : Fin cfg0.N) : (iblk m c 13 t : Vec Ideal S1x128 .f32) = rowV (m ((c : Thread nD τ).loc main_arg13)) := by
  obtain ⟨h0, h1⟩ := idxW13 t
  funext y
  have hy0 : (y 0).val < 1 := (y 0).isLt
  have hy1 : (y 1).val < 128 := (y 1).isLt
  unfold iblk
  rw [View.read_apply]
  show V m c main_v8 _ = _
  refine (congrFun (V_main_v8 m c) _).trans ?_
  refine congrArg (rowV (m ((c : Thread nD τ).loc main_arg13))) (funext fun a => Fin.ext ?_)
  match a with
  | ⟨0, _⟩ => show win0_13.index t (0 : Fin 2) * 1 + 1 * (y 0).val = (y 0).val; omega
  | ⟨1, _⟩ => show win0_13.index t (1 : Fin 2) * 128 + 1 * (y 1).val = (y 1).val; omega

/-- The output function at an array index whose coordinates are batch element b and a block index's rows and lanes. -/
theorem kernelOut_at (X : FVec Ideal S4x512x128 .f32) (A : FVec Ideal S4x512x512 .f32) (W0 W1 W2 : FVec Ideal S128x128 .f32)
    (b0 b1 b2 g0 g1 g2 t0 t1 t2 : FVec Ideal S128 .f32) (i : S4x512x128.Idx) (b : Fin 4) (j : S1x512x128.Idx)
    (h0 : (i 0).val = b.val) (h1 : (i 1).val = (j 1).val) (h2 : (i 2).val = (j 2).val) :
    kernelOut X A W0 W1 W2 b0 b1 b2 g0 g1 g2 t0 t1 t2 i
      = bodyK (blkX X b) (blkA A b) W0 W1 W2 (rowV b0) (rowV b1) (rowV b2) (rowV g0) (rowV g1) (rowV g2) (rowV t0) (rowV t1) (rowV t2) j := by
  have hb : (⟨(i 0).val, (i 0).isLt⟩ : Fin 4) = b := Fin.ext h0
  have hj : ix3 (0 : Fin 1) (⟨(i 1).val, (i 1).isLt⟩ : Fin 512) (⟨(i 2).val, (i 2).isLt⟩ : Fin 128) = j := funext fun a => Fin.ext (by
    match a with
    | ⟨0, _⟩ => have hj0 : (j 0).val < 1 := (j 0).isLt; show 0 = (j 0).val; omega
    | ⟨1, _⟩ => exact h1
    | ⟨2, _⟩ => exact h2)
  show bodyK (blkX X ⟨(i 0).val, (i 0).isLt⟩) (blkA A ⟨(i 0).val, (i 0).isLt⟩) W0 W1 W2 (rowV b0) (rowV b1) (rowV b2) (rowV g0) (rowV g1) (rowV g2) (rowV t0) (rowV t1) (rowV t2)
    (ix3 (0 : Fin 1) (⟨(i 1).val, (i 1).isLt⟩ : Fin 512) (⟨(i 2).val, (i 2).isLt⟩ : Fin 128)) = _
  rw [hb, hj]

/-! ## What a point writes back, the cover, the array -/

/-- The output array as the function of the fourteen arguments as launched. -/
abbrev outArr (c : Dev nD) : FVec Ideal S4x512x128 .f32 :=
  kernelOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))

/-- WHAT POINT t WRITES BACK is block t of the output function. -/
theorem flushed_eq (c : Dev nD) (t : Fin cfg0.N) :
    (dats m 0 c).flushed 14 t = ((cfg0.win 14).blk t).view.read (Elt Ideal) (outArr m c) := by
  rw [Value.flushed14]
  unfold out0_14
  rw [View.canon_unit_zero hz3]
  simp only [View.ld_unit_zero (S := S1x512x128) hz3, View.ld_unit_zero (S := S1x512x512) hz3, View.ld_unit_zero (S := S128x128) hz2, View.ld_unit_zero (S := S1x128) hz2]
  rw [pay_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)]
  rw [iblk0 m c t, iblk1 m c t, iblk2 m c t, iblk3 m c t, iblk4 m c t, iblk5 m c t, iblk6 m c t, iblk7 m c t, iblk8 m c t, iblk9 m c t, iblk10 m c t, iblk11 m c t, iblk12 m c t, iblk13 m c t]
  obtain ⟨e0, e1, e2, -⟩ := idx3 t
  funext j
  have hj0 : (j 0).val < 1 := (j 0).isLt
  have hj1 : (j 1).val < 512 := (j 1).isLt
  have hj2 : (j 2).val < 128 := (j 2).isLt
  show bodyK (blkX (m ((c : Thread nD τ).loc main_arg0)) (bOf t)) (blkA (m ((c : Thread nD τ).loc main_arg1)) (bOf t)) (m ((c : Thread nD τ).loc main_arg2)) (m ((c : Thread nD τ).loc main_arg3)) (m ((c : Thread nD τ).loc main_arg4))
      (rowV (m ((c : Thread nD τ).loc main_arg5))) (rowV (m ((c : Thread nD τ).loc main_arg6))) (rowV (m ((c : Thread nD τ).loc main_arg7))) (rowV (m ((c : Thread nD τ).loc main_arg8))) (rowV (m ((c : Thread nD τ).loc main_arg9))) (rowV (m ((c : Thread nD τ).loc main_arg10))) (rowV (m ((c : Thread nD τ).loc main_arg11))) (rowV (m ((c : Thread nD τ).loc main_arg12))) (rowV (m ((c : Thread nD τ).loc main_arg13))) j
    = outArr m c (((cfg0.win 14).blk t).view.emb j)
  exact (kernelOut_at _ _ _ _ _ _ _ _ _ _ _ _ _ _ (((cfg0.win 14).blk t).view.emb j) (bOf t) j
    (show win0_14.index t (0 : Fin 3) * 1 + 1 * (j 0).val = t.val by omega)
    (show win0_14.index t (1 : Fin 3) * 512 + 1 * (j 1).val = (j 1).val by omega)
    (show win0_14.index t (2 : Fin 3) * 128 + 1 * (j 2).val = (j 2).val by omega)).symm

/-- An index of the output is in point t's block iff each coordinate is in the block's range on its axis. -/
theorem mem_blk (t : Fin cfg0.N) (i : S4x512x128.Idx) :
    i ∈ ((cfg0.win 14).blk t).view.set ↔ ∀ a : Fin 3, win0_14.index t a * S1x512x128.size a ≤ (i a).val ∧ (i a).val < win0_14.index t a * S1x512x128.size a + S1x512x128.size a := by
  show i ∈ ((View.whole main_v9).slice (win0_14.rect t)).set ↔ _
  rw [View.set_slice_whole, Rect.mem_set_unit]
  exact Iff.rfl

/-- THE COVER: index (bi, n, d) is in the block of the point that handles batch element bi. -/
theorem cover (i : S4x512x128.Idx) : ∃ t : Fin cfg0.N, (cfg0.win 14).flush t = true ∧ i ∈ ((cfg0.win 14).blk t).view.set := by
  have hi0 : (i 0).val < 4 := (i 0).isLt
  have hi1 : (i 1).val < 512 := (i 1).isLt
  have hi2 : (i 2).val < 128 := (i 2).isLt
  have hN : cfg0.N = 4 := N_0
  obtain ⟨t, ht⟩ : ∃ t : Fin cfg0.N, t.val = (i 0).val := ⟨⟨(i 0).val, by omega⟩, rfl⟩
  obtain ⟨e0, e1, e2, -⟩ := idx3 t
  refine ⟨t, flush0_14 t, ?_⟩
  rw [mem_blk]
  intro a
  match a with
  | ⟨0, _⟩ => show win0_14.index t (0 : Fin 3) * 1 ≤ (i 0).val ∧ (i 0).val < win0_14.index t (0 : Fin 3) * 1 + 1; omega
  | ⟨1, _⟩ => show win0_14.index t (1 : Fin 3) * 512 ≤ (i 1).val ∧ (i 1).val < win0_14.index t (1 : Fin 3) * 512 + 512; omega
  | ⟨2, _⟩ => show win0_14.index t (2 : Fin 3) * 128 ≤ (i 2).val ∧ (i 2).val < win0_14.index t (2 : Fin 3) * 128 + 128; omega

/-- THE ARRAY after the run is the output function of the fourteen arguments. -/
theorem final (c : Dev nD) : (dats m 0 c).arrAt 14 cfg0.N = outArr m c :=
  (dats m 0 c).arrAt_eq_of_cover 14 (outArr m c) (fun t _ => flushed_eq m c t) cover

end Cert.KernelIdeal.GnnValue

end
-- ==== Proof.KRead.lean ====
/-
  THE BODY'S NON-POINTWISE OPERATIONS READ AT ONE ENTRY (n, d).  The feature product at (s, d) is the sum over the
  128 features k of x s k times W k d; the aggregation at (n, d) is the sum over the 512 source nodes s of a s n times
  the aggregated operand at (s, d) (both operands are contracted on their FIRST axis: the adjacency enters transposed);
  a lane sum at row n is the sum over the 128 lanes; a [1,128] row laid over 512 rows reads its lane; a [512] vector
  recast as a [512,1] column reads its row, and that column laid over 128 lanes reads its row again.
-/
import proofs.«175100_g37074157699472_cont_sun_c4_777_8_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.GnnValue

open Cert.KernelIdeal Cert.KernelIdeal.Gen Idealize.ShloMosaic Idealize.ShloMosaic.ValueIdx

/-! ## The feature product: contraction of x's second axis with W's first -/

theorem xw_lhs0 (i : S512x128.Idx) (q : dot_S512x128_S128x128_S512x128_1_0_0_1_n_n.contr.Idx) :
    (dot_S512x128_S128x128_S512x128_1_0_0_1_n_n.lhsIdx i q 0).val = (i 0).val := by
  unfold DotDims.lhsIdx
  rw [dif_neg (show ¬(0 : Fin S512x128.rank) ∈ dot_S512x128_S128x128_S512x128_1_0_0_1_n_n.lhsBatch by decide), dif_pos (show (0 : Fin S512x128.rank) ∈ dot_S512x128_S128x128_S512x128_1_0_0_1_n_n.lhsNonContracting by decide)]
  rfl
theorem xw_lhs1 (i : S512x128.Idx) (q : dot_S512x128_S128x128_S512x128_1_0_0_1_n_n.contr.Idx) :
    (dot_S512x128_S128x128_S512x128_1_0_0_1_n_n.lhsIdx i q 1).val = (q ⟨0, by decide⟩).val :=
  dot_S512x128_S128x128_S512x128_1_0_0_1_n_n.lhsIdx_val_of_single rfl i q
theorem xw_rhs0 (i : S512x128.Idx) (q : dot_S512x128_S128x128_S512x128_1_0_0_1_n_n.contr.Idx) :
    (dot_S512x128_S128x128_S512x128_1_0_0_1_n_n.rhsIdx i q 0).val = (q ⟨0, by decide⟩).val :=
  dot_S512x128_S128x128_S512x128_1_0_0_1_n_n.rhsIdx_val_of_single rfl i q
theorem xw_rhs1 (i : S512x128.Idx) (q : dot_S512x128_S128x128_S512x128_1_0_0_1_n_n.contr.Idx) :
    (dot_S512x128_S128x128_S512x128_1_0_0_1_n_n.rhsIdx i q 1).val = (i 1).val := by
  unfold DotDims.rhsIdx
  rw [dif_neg (show ¬(1 : Fin S128x128.rank) ∈ dot_S512x128_S128x128_S512x128_1_0_0_1_n_n.rhsBatch by decide), dif_pos (show (1 : Fin S128x128.rank) ∈ dot_S512x128_S128x128_S512x128_1_0_0_1_n_n.rhsNonContracting by decide)]
  rfl

/-- The feature product at (s, d). -/
theorem xw_apply (x : FVec Ideal S512x128 .f32) (W : FVec Ideal S128x128 .f32) (s : Fin 512) (d : Fin 128) :
    matmul dot_S512x128_S128x128_S512x128_1_0_0_1_n_n none x W (constant S512x128 .f32 0x00000000#32) (ix2 s d)
      = ∑ k : Fin 128, x (ix2 s k) * W (ix2 k d) := by
  simp only [matmul]
  rw [Ideal.matmul_constant_zero_apply, ← Equiv.sum_comp (contrEquiv1 dot_S512x128_S128x128_S512x128_1_0_0_1_n_n 128 rfl rfl).symm]
  refine Finset.sum_congr rfl fun k _ => ?_
  have hk := contrEquiv1_symm_val dot_S512x128_S128x128_S512x128_1_0_0_1_n_n 128 rfl rfl k
  have el : dot_S512x128_S128x128_S512x128_1_0_0_1_n_n.lhsIdx (ix2 s d) ((contrEquiv1 dot_S512x128_S128x128_S512x128_1_0_0_1_n_n 128 rfl rfl).symm k) = ix2 s k := funext fun a => Fin.ext (by
    match a with
    | ⟨0, _⟩ => exact xw_lhs0 _ _
    | ⟨1, _⟩ => exact (xw_lhs1 _ _).trans hk)
  have er : dot_S512x128_S128x128_S512x128_1_0_0_1_n_n.rhsIdx (ix2 s d) ((contrEquiv1 dot_S512x128_S128x128_S512x128_1_0_0_1_n_n 128 rfl rfl).symm k) = ix2 k d := funext fun a => Fin.ext (by
    match a with
    | ⟨0, _⟩ => exact (xw_rhs0 _ _).trans hk
    | ⟨1, _⟩ => exact xw_rhs1 _ _)
  rw [el, er]

/-! ## The aggregation: the adjacency's FIRST axis contracted with the operand's first -/

theorem agg_lhs0 (i : S512x128.Idx) (q : dot_S512x512_S512x128_S512x128_0_0_1_1_n_n.contr.Idx) :
    (dot_S512x512_S512x128_S512x128_0_0_1_1_n_n.lhsIdx i q 0).val = (q ⟨0, by decide⟩).val :=
  dot_S512x512_S512x128_S512x128_0_0_1_1_n_n.lhsIdx_val_of_single rfl i q
theorem agg_lhs1 (i : S512x128.Idx) (q : dot_S512x512_S512x128_S512x128_0_0_1_1_n_n.contr.Idx) :
    (dot_S512x512_S512x128_S512x128_0_0_1_1_n_n.lhsIdx i q 1).val = (i 0).val := by
  unfold DotDims.lhsIdx
  rw [dif_neg (show ¬(1 : Fin S512x512.rank) ∈ dot_S512x512_S512x128_S512x128_0_0_1_1_n_n.lhsBatch by decide), dif_pos (show (1 : Fin S512x512.rank) ∈ dot_S512x512_S512x128_S512x128_0_0_1_1_n_n.lhsNonContracting by decide)]
  rfl
theorem agg_rhs0 (i : S512x128.Idx) (q : dot_S512x512_S512x128_S512x128_0_0_1_1_n_n.contr.Idx) :
    (dot_S512x512_S512x128_S512x128_0_0_1_1_n_n.rhsIdx i q 0).val = (q ⟨0, by decide⟩).val :=
  dot_S512x512_S512x128_S512x128_0_0_1_1_n_n.rhsIdx_val_of_single rfl i q
theorem agg_rhs1 (i : S512x128.Idx) (q : dot_S512x512_S512x128_S512x128_0_0_1_1_n_n.contr.Idx) :
    (dot_S512x512_S512x128_S512x128_0_0_1_1_n_n.rhsIdx i q 1).val = (i 1).val := by
  unfold DotDims.rhsIdx
  rw [dif_neg (show ¬(1 : Fin S512x128.rank) ∈ dot_S512x512_S512x128_S512x128_0_0_1_1_n_n.rhsBatch by decide), dif_pos (show (1 : Fin S512x128.rank) ∈ dot_S512x512_S512x128_S512x128_0_0_1_1_n_n.rhsNonContracting by decide)]
  rfl

/-- The aggregation at (n, d): node n collects a s n times row s of the operand. -/
theorem agg_apply (a : FVec Ideal S512x512 .f32) (y : FVec Ideal S512x128 .f32) (n : Fin 512) (d : Fin 128) :
    matmul dot_S512x512_S512x128_S512x128_0_0_1_1_n_n none a y (constant S512x128 .f32 0x00000000#32) (ix2 n d)
      = ∑ s : Fin 512, a (ix2 s n) * y (ix2 s d) := by
  simp only [matmul]
  rw [Ideal.matmul_constant_zero_apply, ← Equiv.sum_comp (contrEquiv1 dot_S512x512_S512x128_S512x128_0_0_1_1_n_n 512 rfl rfl).symm]
  refine Finset.sum_congr rfl fun k _ => ?_
  have hk := contrEquiv1_symm_val dot_S512x512_S512x128_S512x128_0_0_1_1_n_n 512 rfl rfl k
  have el : dot_S512x512_S512x128_S512x128_0_0_1_1_n_n.lhsIdx (ix2 n d) ((contrEquiv1 dot_S512x512_S512x128_S512x128_0_0_1_1_n_n 512 rfl rfl).symm k) = ix2 k n := funext fun a => Fin.ext (by
    match a with
    | ⟨0, _⟩ => exact (agg_lhs0 _ _).trans hk
    | ⟨1, _⟩ => exact agg_lhs1 _ _)
  have er : dot_S512x512_S512x128_S512x128_0_0_1_1_n_n.rhsIdx (ix2 n d) ((contrEquiv1 dot_S512x512_S512x128_S512x128_0_0_1_1_n_n 512 rfl rfl).symm k) = ix2 k d := funext fun a => Fin.ext (by
    match a with
    | ⟨0, _⟩ => exact (agg_rhs0 _ _).trans hk
    | ⟨1, _⟩ => exact agg_rhs1 _ _)
  rw [el, er]

/-! ## The lane sum -/

/-- The sum over the lanes of row n. -/
theorem laneSum_apply (v : FVec Ideal S512x128 .f32) (hφ : FKind.Formats .f32) (hacc : (0x00000000#32 : BitVec 32) = 0x00000000#32)
    (n : Fin 512) :
    multiReduction .add [1] S512 v 0x00000000#32 reduces_S512x128_S512 hφ hacc (ix1 n) = ∑ d : Fin 128, v (ix2 n d) := by
  refine (Ideal.multiReduction_add_single v 0x00000000#32 reduces_S512x128_S512 hφ hacc (ix1 n)).trans ?_
  refine Finset.sum_congr rfl fun d _ => ?_
  refine congrArg v (funext fun a => Fin.ext ?_)
  match a with
  | ⟨0, _⟩ => rfl
  | ⟨1, _⟩ => rfl

/-! ## Rows and columns -/

/-- A [1,128] row laid over the 512 rows reads its lane. -/
theorem rows_apply (b : Vec Ideal S1x128 .f32) (n : Fin 512) (d : Fin 128) :
    broadcastTo S512x128 (shapeCast S1x128 b shapeCasts_S1x128_S1x128) broadcasts_S1x128_S512x128 (ix2 n d) = b (ix2 (0 : Fin 1) d) := by
  rw [shapeCast_self]
  exact broadcastTo_1b_ab_apply b broadcasts_S1x128_S512x128 n d

/-- A [512] vector recast as a [512,1] column reads its row. -/
theorem col_apply (v : FVec Ideal S512 .f32) (n : Fin 512) (u : Fin 1) :
    shapeCast S512x1 v shapeCasts_S512_S512x1 (ix2 n u) = v (ix1 n) :=
  shapeCast_apply v shapeCasts_S512_S512x1 _ _ (by
    have hu : u.val = 0 := by omega
    rw [Shape.rowMajor_val_one, Shape.rowMajor_val_two]
    show n.val = n.val * 1 + u.val
    omega)

/-- A [512,1] column laid over the 128 lanes reads its row. -/
theorem lanes_apply (c : FVec Ideal S512x1 .f32) (n : Fin 512) (d : Fin 128) :
    broadcastTo S512x128 c broadcasts_S512x1_S512x128 (ix2 n d) = c (ix2 n (0 : Fin 1)) := by
  refine broadcastTo_apply c broadcasts_S512x1_S512x128 (ix2 n d) (ix2 n (0 : Fin 1)) fun ax => ?_
  match ax with
  | ⟨0, _⟩ =>
    show n.val = if (512 : Nat) = 1 then 0 else n.val
    rw [if_neg (by decide)]
  | ⟨1, _⟩ => rfl

end Cert.KernelIdeal.GnnValue

end
-- ==== Proof.Spec.lean ====
/-
  THE NETWORK OVER THE REALS.  One graph-convolution layer on a graph of 512 nodes with 128 features, for a dense
  adjacency matrix a (a s n is the weight of the edge from node s to node n):
    z n d   = (sum over s of a s n * (sum over k of x s k * W k d)) + b d + x n d      (messages, bias, residual)
    mu n    = (sum over d of z n d) / 128                                              (the row mean)
    var n   = (sum over d of (z n d - mu n)^2) / 128                                   (the row variance)
    out n d = max ((z n d - mu n) * (sqrt (var n + eps))⁻¹ * g d + t d) 0              (normalise, scale, shift, floor)
  and three such layers in a row with the same adjacency.  eps is the real number the single-precision pattern
  0x3727C5AC denotes, 10995116 / 2^40; it is positive.  Beside the definitions: the facts that move a real number's coercion into the
  extended reals through the operations a layer uses (a finite sum, a quotient by 128, a square root and a reciprocal
  square root of a positive number, a maximum).
-/
import Idealize.ShloMosaic.PureOps.Ideal
import Idealize.ShloMosaic.Lib.ValueIdx

noncomputable section

open scoped BigOperators

namespace Cert.Gnn

open Idealize.ShloMosaic

/-- The real number the pattern 0x3727C5AC denotes (about 1e-5): mantissa 10995116, exponent -40. -/
def epsR : ℝ := 10995116 / 1099511627776

/-- Messages, bias and residual. -/
def zR (x : Fin 512 → Fin 128 → ℝ) (a : Fin 512 → Fin 512 → ℝ) (W : Fin 128 → Fin 128 → ℝ) (b : Fin 128 → ℝ)
    (n : Fin 512) (d : Fin 128) : ℝ :=
  (∑ s : Fin 512, a s n * ∑ k : Fin 128, x s k * W k d) + b d + x n d

/-- The row mean. -/
def muR (z : Fin 512 → Fin 128 → ℝ) (n : Fin 512) : ℝ := (∑ d : Fin 128, z n d) / 128

/-- The row variance. -/
def varR (z : Fin 512 → Fin 128 → ℝ) (n : Fin 512) : ℝ :=
  (∑ d : Fin 128, (z n d - muR z n) * (z n d - muR z n)) / 128

/-- Normalise, scale, shift, floor at zero. -/
def normR (z : Fin 512 → Fin 128 → ℝ) (g t : Fin 128 → ℝ) (n : Fin 512) (d : Fin 128) : ℝ :=
  max ((z n d - muR z n) * (Real.sqrt (varR z n + epsR))⁻¹ * g d + t d) 0

/-- One layer. -/
def layerR (x : Fin 512 → Fin 128 → ℝ) (a : Fin 512 → Fin 512 → ℝ) (W : Fin 128 → Fin 128 → ℝ) (b g t : Fin 128 → ℝ) :
    Fin 512 → Fin 128 → ℝ :=
  normR (zR x a W b) g t

/-- Three layers with the same adjacency. -/
def gnnR (x : Fin 512 → Fin 128 → ℝ) (a : Fin 512 → Fin 512 → ℝ) (W0 W1 W2 : Fin 128 → Fin 128 → ℝ)
    (b0 b1 b2 g0 g1 g2 t0 t1 t2 : Fin 128 → ℝ) : Fin 512 → Fin 128 → ℝ :=
  layerR (layerR (layerR x a W0 b0 g0 t0) a W1 b1 g1 t1) a W2 b2 g2 t2

/-! ## The constants -/

theorem ofBits_zero : Ideal.ofBits .f32 0x00000000#32 = ((0 : ℝ) : EReal) := by
  simp [Ideal.ofBits, Ideal.ieee]

theorem ofBits_128 : Ideal.ofBits .f32 0x43000000#32 = ((128 : ℝ) : EReal) := by
  simp [Ideal.ofBits, Ideal.ieee]
  rw [← EReal.coe_mul]
  congr 1
  norm_num

theorem ofBits_eps : Ideal.ofBits .f32 0x3727C5AC#32 = ((epsR : ℝ) : EReal) := by
  simp [Ideal.ofBits, Ideal.ieee]
  rw [← EReal.coe_mul]
  congr 1
  unfold epsR
  norm_num

theorem epsR_pos : 0 < epsR := by
  unfold epsR
  norm_num

/-! ## Coercions through the operations -/

/-- A finite sum of real numbers, each read as an extended real, is the real sum read as one. -/
theorem coe_sum {ι : Type} (s : Finset ι) (f : ι → ℝ) : ∑ i ∈ s, ((f i : ℝ) : EReal) = ((∑ i ∈ s, f i : ℝ) : EReal) := by
  classical
  refine Finset.induction_on s (by simp) ?_
  intro a s ha ih
  rw [Finset.sum_insert ha, Finset.sum_insert ha, ih, EReal.coe_add]

/-- The quotient of a real by 128. -/
theorem div_128 (x : ℝ) : Ideal.div (x : EReal) ((128 : ℝ) : EReal) = ((x / 128 : ℝ) : EReal) := by
  rw [Ideal.div_coe (by norm_num : (128 : ℝ) ≠ 0), ← EReal.coe_mul]
  congr 1
  ring

/-- The variance is not negative, so adding eps gives a positive number. -/
theorem var_eps_pos (z : Fin 512 → Fin 128 → ℝ) (n : Fin 512) : 0 < varR z n + epsR := by
  have h : 0 ≤ varR z n := by
    unfold varR
    exact div_nonneg (Finset.sum_nonneg fun d _ => mul_self_nonneg _) (by norm_num)
  linarith [epsR_pos]

/-- The reciprocal square root of a positive real. -/
theorem rsqrt_pos {v : ℝ} (h : 0 < v) : Ideal.rsqrt (v : EReal) = (((Real.sqrt v)⁻¹ : ℝ) : EReal) := by
  show (if v < 0 then ⊥ else if v = 0 then ⊤ else (((Real.sqrt v)⁻¹ : ℝ) : EReal)) = _
  rw [if_neg (not_lt.2 h.le), if_neg h.ne']

/-- The square root of a positive real. -/
theorem sqrt_pos {v : ℝ} (h : 0 < v) : Ideal.sqrt (v : EReal) = ((Real.sqrt v : ℝ) : EReal) := by
  show (if v < 0 then ⊥ else ((Real.sqrt v : ℝ) : EReal)) = _
  rw [if_neg (not_lt.2 h.le)]

/-- A real divided by the square root of a positive real is the real times the reciprocal square root. -/
theorem div_sqrt_pos (x : ℝ) {v : ℝ} (h : 0 < v) :
    Ideal.div (x : EReal) (Ideal.sqrt (v : EReal)) = ((x * (Real.sqrt v)⁻¹ : ℝ) : EReal) := by
  rw [sqrt_pos h, Ideal.div_coe (Real.sqrt_pos.2 h).ne', ← EReal.coe_mul, one_div]

/-- The maximum with zero. -/
theorem max_zero (x : ℝ) : max (x : EReal) ((0 : ℝ) : EReal) = ((max x 0 : ℝ) : EReal) := by
  rcases le_total x 0 with h | h
  · rw [max_eq_right h, max_eq_right (EReal.coe_le_coe_iff.2 h)]
  · rw [max_eq_left h, max_eq_left (EReal.coe_le_coe_iff.2 h)]

end Cert.Gnn

end
-- ==== Proof.KReal.lean ====
/-
  ONE LAYER ON REAL INPUTS IS THE REAL LAYER.  When every entry of the node block, the adjacency block, the weights
  and the three row vectors is a real number read as an extended real, every stage of the kernel's layer at entry
  (n, d) is the corresponding real stage read as an extended real: the two products and every sum stay finite, the
  divisor 128 is not zero, and variance plus eps is positive, so the reciprocal square root is the real one.  No
  reordering is needed: the real messages are written as the sum over source nodes of a s n times the sum over
  features, which is the order the kernel's two products compute.
-/
import proofs.«175100_g37074157699472_cont_sun_c4_777_8_alg».proof.Proof.KLayer
import proofs.«175100_g37074157699472_cont_sun_c4_777_8_alg».proof.Proof.KRead
import proofs.«175100_g37074157699472_cont_sun_c4_777_8_alg».proof.Proof.Spec

noncomputable section

open scoped BigOperators

namespace Cert.KernelIdeal.GnnValue

open Cert.KernelIdeal Cert.KernelIdeal.Gen Idealize.ShloMosaic Idealize.ShloMosaic.ValueIdx Cert.Gnn

/-- The messages at (n, d). -/
theorem aggK_real (x : FVec Ideal S512x128 .f32) (a : FVec Ideal S512x512 .f32) (W : FVec Ideal S128x128 .f32)
    (xr : Fin 512 → Fin 128 → ℝ) (ar : Fin 512 → Fin 512 → ℝ) (Wr : Fin 128 → Fin 128 → ℝ)
    (hx : ∀ (n : Fin 512) (d : Fin 128), x (ix2 n d) = ((xr n d : ℝ) : EReal))
    (ha : ∀ (s n : Fin 512), a (ix2 s n) = ((ar s n : ℝ) : EReal))
    (hW : ∀ (k d : Fin 128), W (ix2 k d) = ((Wr k d : ℝ) : EReal)) (n : Fin 512) (d : Fin 128) :
    aggK x a W (ix2 n d) = ((∑ s : Fin 512, ar s n * ∑ k : Fin 128, xr s k * Wr k d : ℝ) : EReal) := by
  unfold aggK
  rw [agg_apply, ← coe_sum]
  refine Finset.sum_congr rfl fun s _ => ?_
  rw [ha, xw_apply, EReal.coe_mul, ← coe_sum]
  refine congrArg _ (Finset.sum_congr rfl fun k _ => ?_)
  rw [hx, hW, EReal.coe_mul]

/-- The mean column at row n, before any reading of the entries. -/
theorem meanColK_apply (z : FVec Ideal S512x128 .f32) (n : Fin 512) (u : Fin 1) :
    meanColK z (ix2 n u) = Ideal.div (∑ d : Fin 128, z (ix2 n d)) (Ideal.ofBits .f32 0x43000000#32) := by
  unfold meanColK
  show Ideal.div (shapeCast S512x1 (multiReduction .add [1] S512 z 0x00000000#32 reduces_S512x128_S512 (.inl rfl) rfl) shapeCasts_S512_S512x1 (ix2 n u))
    (Ideal.ofBits .f32 0x43000000#32) = _
  exact congrArg (fun s => Ideal.div s (Ideal.ofBits .f32 0x43000000#32)) ((col_apply _ n u).trans (laneSum_apply z _ _ n))

/-- The mean column of real rows. -/
theorem meanColK_real (z : FVec Ideal S512x128 .f32) (zr : Fin 512 → Fin 128 → ℝ)
    (hz : ∀ (n : Fin 512) (d : Fin 128), z (ix2 n d) = ((zr n d : ℝ) : EReal)) (n : Fin 512) (u : Fin 1) :
    meanColK z (ix2 n u) = (((∑ d : Fin 128, zr n d) / 128 : ℝ) : EReal) := by
  have hs : ∑ d : Fin 128, z (ix2 n d) = ((∑ d : Fin 128, zr n d : ℝ) : EReal) := by
    rw [← coe_sum]; exact Finset.sum_congr rfl fun d _ => hz n d
  rw [meanColK_apply, ofBits_128, hs, div_128]

/-- The row mean. -/
theorem muK_real (z : FVec Ideal S512x128 .f32) (zr : Fin 512 → Fin 128 → ℝ)
    (hz : ∀ (n : Fin 512) (d : Fin 128), z (ix2 n d) = ((zr n d : ℝ) : EReal)) (n : Fin 512) (d : Fin 128) :
    muK z (ix2 n d) = ((muR zr n : ℝ) : EReal) := by
  unfold muK
  rw [lanes_apply]
  exact meanColK_real z zr hz n 0

/-- The centred entry. -/
theorem zcK_real (z : FVec Ideal S512x128 .f32) (zr : Fin 512 → Fin 128 → ℝ)
    (hz : ∀ (n : Fin 512) (d : Fin 128), z (ix2 n d) = ((zr n d : ℝ) : EReal)) (n : Fin 512) (d : Fin 128) :
    zcK z (ix2 n d) = ((zr n d - muR zr n : ℝ) : EReal) := by
  show z (ix2 n d) - muK z (ix2 n d) = _
  rw [hz, muK_real z zr hz, ← EReal.coe_sub]

/-- The reciprocal square root of variance plus eps: the argument is positive, so it is the real one. -/
theorem rstdK_real (z : FVec Ideal S512x128 .f32) (zr : Fin 512 → Fin 128 → ℝ)
    (hz : ∀ (n : Fin 512) (d : Fin 128), z (ix2 n d) = ((zr n d : ℝ) : EReal)) (n : Fin 512) (d : Fin 128) :
    rstdK (zcK z) (ix2 n d) = (((Real.sqrt (varR zr n + epsR))⁻¹ : ℝ) : EReal) := by
  unfold rstdK
  rw [lanes_apply]
  show Ideal.rsqrt (meanColK (mulf (zcK z) (zcK z)) (ix2 n (0 : Fin 1)) + Ideal.ofBits .f32 0x3727C5AC#32) = _
  rw [meanColK_real (mulf (zcK z) (zcK z)) (fun n d => (zr n d - muR zr n) * (zr n d - muR zr n)) (fun n d => by
      show zcK z (ix2 n d) * zcK z (ix2 n d) = _
      rw [zcK_real z zr hz, ← EReal.coe_mul]) n 0, ofBits_eps, ← EReal.coe_add]
  exact rsqrt_pos (var_eps_pos zr n)

/-- Normalise, scale, shift. -/
theorem tailK_real (x agg : FVec Ideal S512x128 .f32) (b g t : FVec Ideal S1x128 .f32)
    (zr : Fin 512 → Fin 128 → ℝ) (gr tr : Fin 128 → ℝ)
    (hz : ∀ (n : Fin 512) (d : Fin 128), zK x agg b (ix2 n d) = ((zr n d : ℝ) : EReal))
    (hg : ∀ d : Fin 128, g (ix2 (0 : Fin 1) d) = ((gr d : ℝ) : EReal))
    (ht : ∀ d : Fin 128, t (ix2 (0 : Fin 1) d) = ((tr d : ℝ) : EReal)) (n : Fin 512) (d : Fin 128) :
    tailK x agg b g t (ix2 n d)
      = (((zr n d - muR zr n) * (Real.sqrt (varR zr n + epsR))⁻¹ * gr d + tr d : ℝ) : EReal) := by
  show zcK (zK x agg b) (ix2 n d) * rstdK (zcK (zK x agg b)) (ix2 n d) * rowsK g (ix2 n d) + rowsK t (ix2 n d) = _
  rw [zcK_real _ zr hz, rstdK_real _ zr hz]
  unfold rowsK
  rw [rows_apply, rows_apply, hg, ht, ← EReal.coe_mul, ← EReal.coe_mul, ← EReal.coe_add]

/-- ONE LAYER: on real inputs the kernel's layer at (n, d) is the real layer there. -/
theorem layerK_real (x : FVec Ideal S512x128 .f32) (a : FVec Ideal S512x512 .f32) (W : FVec Ideal S128x128 .f32)
    (b g t : FVec Ideal S1x128 .f32)
    (xr : Fin 512 → Fin 128 → ℝ) (ar : Fin 512 → Fin 512 → ℝ) (Wr : Fin 128 → Fin 128 → ℝ) (br gr tr : Fin 128 → ℝ)
    (hx : ∀ (n : Fin 512) (d : Fin 128), x (ix2 n d) = ((xr n d : ℝ) : EReal))
    (ha : ∀ (s n : Fin 512), a (ix2 s n) = ((ar s n : ℝ) : EReal))
    (hW : ∀ (k d : Fin 128), W (ix2 k d) = ((Wr k d : ℝ) : EReal))
    (hb : ∀ d : Fin 128, b (ix2 (0 : Fin 1) d) = ((br d : ℝ) : EReal))
    (hg : ∀ d : Fin 128, g (ix2 (0 : Fin 1) d) = ((gr d : ℝ) : EReal))
    (ht : ∀ d : Fin 128, t (ix2 (0 : Fin 1) d) = ((tr d : ℝ) : EReal)) (n : Fin 512) (d : Fin 128) :
    layerK x a W b g t (ix2 n d) = ((layerR xr ar Wr br gr tr n d : ℝ) : EReal) := by
  have hz : ∀ (n : Fin 512) (d : Fin 128), zK x (aggK x a W) b (ix2 n d) = ((zR xr ar Wr br n d : ℝ) : EReal) := fun n d => by
    show aggK x a W (ix2 n d) + rowsK b (ix2 n d) + x (ix2 n d) = _
    unfold rowsK
    rw [aggK_real x a W xr ar Wr hx ha hW, rows_apply, hb, hx, ← EReal.coe_add, ← EReal.coe_add]
    rfl
  show max (tailK x (aggK x a W) b g t (ix2 n d)) (Ideal.ofBits .f32 0x00000000#32) = _
  rw [tailK_real x (aggK x a W) b g t (zR xr ar Wr br) gr tr hz hg ht, ofBits_zero, max_zero]
  rfl

end Cert.KernelIdeal.GnnValue

end
-- ==== Proof.KOutReal.lean ====
/-
  THE OUTPUT ON REAL INPUTS IS THE REAL NETWORK.  Entry (bi, n, d) of the output is three kernel layers over batch
  element bi; each block recast to two axes reads the array's entry, each [1,128] row reads its vector's lane, and
  one layer on real inputs is the real layer: so three times over, the entry is the real network of batch element bi.
-/
import proofs.«175100_g37074157699472_cont_sun_c4_777_8_alg».proof.Proof.KOut
import proofs.«175100_g37074157699472_cont_sun_c4_777_8_alg».proof.Proof.KReal
import Idealize.ShloMosaic.Lib.ValueLayout

noncomputable section

namespace Cert.KernelIdeal.GnnValue

open Cert.KernelIdeal Cert.KernelIdeal.Gen Idealize.ShloMosaic Idealize.ShloMosaic.ValueIdx Cert.Gnn

/-- A vector's row form reads its lane. -/
theorem rowV_real (v : FVec Ideal S128 .f32) (vr : Fin 128 → ℝ) (h : ∀ d : Fin 128, v (ix1 d) = ((vr d : ℝ) : EReal)) (d : Fin 128) :
    (rowV v : FVec Ideal S1x128 .f32) (ix2 (0 : Fin 1) d) = ((vr d : ℝ) : EReal) := by
  unfold rowV
  rw [shapeCast_a_1a_apply]
  exact h d

theorem kernelOut_real (X : FVec Ideal S4x512x128 .f32) (A : FVec Ideal S4x512x512 .f32) (W0 W1 W2 : FVec Ideal S128x128 .f32)
    (b0 b1 b2 g0 g1 g2 t0 t1 t2 : FVec Ideal S128 .f32)
    (Xr : Fin 4 → Fin 512 → Fin 128 → ℝ) (Ar : Fin 4 → Fin 512 → Fin 512 → ℝ) (W0r W1r W2r : Fin 128 → Fin 128 → ℝ)
    (b0r b1r b2r g0r g1r g2r t0r t1r t2r : Fin 128 → ℝ)
    (hX : ∀ (bi : Fin 4) (n : Fin 512) (d : Fin 128), X (ix3 bi n d) = ((Xr bi n d : ℝ) : EReal))
    (hA : ∀ (bi : Fin 4) (s n : Fin 512), A (ix3 bi s n) = ((Ar bi s n : ℝ) : EReal))
    (hW0 : ∀ (k d : Fin 128), W0 (ix2 k d) = ((W0r k d : ℝ) : EReal))
    (hW1 : ∀ (k d : Fin 128), W1 (ix2 k d) = ((W1r k d : ℝ) : EReal))
    (hW2 : ∀ (k d : Fin 128), W2 (ix2 k d) = ((W2r k d : ℝ) : EReal))
    (hb0 : ∀ d : Fin 128, b0 (ix1 d) = ((b0r d : ℝ) : EReal)) (hb1 : ∀ d : Fin 128, b1 (ix1 d) = ((b1r d : ℝ) : EReal)) (hb2 : ∀ d : Fin 128, b2 (ix1 d) = ((b2r d : ℝ) : EReal)) (hg0 : ∀ d : Fin 128, g0 (ix1 d) = ((g0r d : ℝ) : EReal)) (hg1 : ∀ d : Fin 128, g1 (ix1 d) = ((g1r d : ℝ) : EReal)) (hg2 : ∀ d : Fin 128, g2 (ix1 d) = ((g2r d : ℝ) : EReal)) (ht0 : ∀ d : Fin 128, t0 (ix1 d) = ((t0r d : ℝ) : EReal)) (ht1 : ∀ d : Fin 128, t1 (ix1 d) = ((t1r d : ℝ) : EReal)) (ht2 : ∀ d : Fin 128, t2 (ix1 d) = ((t2r d : ℝ) : EReal)) :
    ∀ (bi : Fin 4) (n : Fin 512) (d : Fin 128),
      kernelOut X A W0 W1 W2 b0 b1 b2 g0 g1 g2 t0 t1 t2 (ix3 bi n d)
        = ((Cert.Gnn.gnnR (Xr bi) (Ar bi) W0r W1r W2r b0r b1r b2r g0r g1r g2r t0r t1r t2r n d : ℝ) : EReal) := by
  intro bi n d
  have hx : ∀ (n : Fin 512) (d : Fin 128), shapeCast S512x128 (blkX X bi) shapeCasts_S1x512x128_S512x128 (ix2 n d) = ((Xr bi n d : ℝ) : EReal) := fun n d => by
    rw [shapeCast_1ab_ab_apply]; exact hX bi n d
  have ha : ∀ (s n : Fin 512), shapeCast S512x512 (blkA A bi) shapeCasts_S1x512x512_S512x512 (ix2 s n) = ((Ar bi s n : ℝ) : EReal) := fun s n => by
    rw [shapeCast_1ab_ab_apply]; exact hA bi s n
  show bodyK (blkX X bi) (blkA A bi) W0 W1 W2 (rowV b0) (rowV b1) (rowV b2) (rowV g0) (rowV g1) (rowV g2) (rowV t0) (rowV t1) (rowV t2) (ix3 (0 : Fin 1) n d) = _
  unfold bodyK
  rw [shapeCast_ab_1ab_apply]
  unfold gnnR
  exact layerK_real _ _ _ _ _ _ _ _ _ _ _ _
    (fun n d => layerK_real _ _ _ _ _ _ _ _ _ _ _ _
      (fun n d => layerK_real _ _ _ _ _ _ (Xr bi) (Ar bi) W0r b0r g0r t0r hx ha hW0 (rowV_real b0 b0r hb0) (rowV_real g0 g0r hg0) (rowV_real t0 t0r ht0) n d)
      ha hW1 (rowV_real b1 b1r hb1) (rowV_real g1 g1r hg1) (rowV_real t1 t1r ht1) n d)
    ha hW2 (rowV_real b2 b2r hb2) (rowV_real g2 g2r hg2) (rowV_real t2 t2r ht2) n d

end Cert.KernelIdeal.GnnValue

end
-- ==== Proof.KernelValue.lean ====
/-
  THE KERNEL'S RUN, READ.  Every fair execution of the program on the TensorCores ends, and ends with the output
  array holding, at (bi, n, d), the three graph-convolution layers over batch element bi of the launched node
  features and adjacency, with the launched weights and vectors, and with every argument array as launched.
  (The output function and its reading over the reals are in the modules this one imports.)
-/
import proofs.«175100_g37074157699472_cont_sun_c4_777_8_alg».proof.Proof.KBlocks
import proofs.«175100_g37074157699472_cont_sun_c4_777_8_alg».proof.Proof.KOutReal

noncomputable section

namespace Cert.KernelIdeal.GnnValue

open Cert.KernelIdeal Cert.KernelIdeal.Gen Idealize.ShloMosaic Idealize.ShloMosaic.TcCoe Idealize.ShloMosaic.ValueIdx Idealize.SL.Sem

theorem run (m : (ℓ : Loc nD τ sig) → Buf (Elt Ideal) ℓ) (ρ : Dev nD → PrngReg) :
    θ_run (Cert.KernelIdeal.defs (F := Ideal)) (onTc (τ := τ) (main (F := Ideal))) ⟨m, fun _ => 0, ρ⟩ fun r => ∀ c : Dev nD,
      r.2.mem ((c.tc : Thread nD τ).loc main_v9)
        = kernelOut (m ((c.tc : Thread nD τ).loc main_arg0))
            (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
            (m ((c.tc : Thread nD τ).loc main_arg8))
            (m ((c.tc : Thread nD τ).loc main_arg9))
            (m ((c.tc : Thread nD τ).loc main_arg10))
            (m ((c.tc : Thread nD τ).loc main_arg11))
            (m ((c.tc : Thread nD τ).loc main_arg12))
            (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun r h c => ⟨(h c).1.trans (final m c), (h c).2⟩) (Cert.KernelIdeal.Value.run_blocks m ρ)

end Cert.KernelIdeal.GnnValue

end
-- ==== Proof.RefOps.P0.lean ====
import proofs.«175100_g37074157699472_cont_sun_c4_777_8_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-- @main's statements 1 to 60, the called functions' operations written out at the calls: 128 operations. -/
abbrev opsP0 : List (HloOp τ sig (Elt F)) :=
  [ nullary main_v0 (iotaInDim S512 32 0),
    unary main_v0 main_v1 (broadcastInDim S512x512 ![0] bcast_S512_S512x512_0 : (⟨S512, .i32⟩ : BufTy).Contents (Elt F) → (⟨S512x512, .i32⟩ : BufTy).Contents (Elt F)),
    reshape main_v1 main_v2 rfl shapeCasts_S512x512_S262144,
    nullary main_v3 (iotaInDim S512 32 0),
    reshape main_v3 main_v4 rfl shapeCasts_S512_S1x512,
    unary main_v4 main_v5 (broadcastInDim S512x512 ![0, 1] bcast_S1x512_S512x512_0_1 : (⟨S1x512, .i32⟩ : BufTy).Contents (Elt F) → (⟨S512x512, .i32⟩ : BufTy).Contents (Elt F)),
    reshape main_v5 main_v6 rfl shapeCasts_S512x512_S262144,
    unary main_arg1 main_v7 ((extractStridedSlice S1x512x512 ![0, 0, 0] · slices_S4x512x512_S1x512x512_0_0_0) : (⟨S4x512x512, .f32⟩ : BufTy).Contents (Elt F) → (⟨S1x512x512, .f32⟩ : BufTy).Contents (Elt F)),
    reshape main_v7 main_v8 rfl shapeCasts_S1x512x512_S512x512,
    reshape main_v8 main_v9 rfl shapeCasts_S512x512_S262144,
    unary main_arg0 main_v10 ((extractStridedSlice S1x512x128 ![0, 0, 0] · slices_S4x512x128_S1x512x128_0_0_0) : (⟨S4x512x128, .f32⟩ : BufTy).Contents (Elt F) → (⟨S1x512x128, .f32⟩ : BufTy).Contents (Elt F)),
    reshape main_v10 main_v11 rfl shapeCasts_S1x512x128_S512x128,
    binary main_v11 main_arg2 main_v12 ((fun l r => Host.dotGeneral dot_S512x128_S128x128_S512x128_1_0_0_1_n_n none l r) : (⟨S512x128, .f32⟩ : BufTy).Contents (Elt F) → (⟨S128x128, .f32⟩ : BufTy).Contents (Elt F) → (⟨S512x128, .f32⟩ : BufTy).Contents (Elt F)),
    unary main_v9 main_v13 (broadcastInDim S262144x1 ![0] bcast_S262144_S262144x1_0 : (⟨S262144, .f32⟩ : BufTy).Contents (Elt F) → (⟨S262144x1, .f32⟩ : BufTy).Contents (Elt F)),
    TRef.nullary main_call0.c (constantI S_ 32 0#32),
    TRef.unary main_call0.c main_call0.v0 (broadcastInDim S262144 ![] bcast_S_S262144),
    TRef.binary (.of main_v2) main_call0.v0 main_call0.v1 (cmpi .slt),
    TRef.nullary main_call0.c_0 (constantI S_ 32 512#32),
    TRef.unary main_call0.c_0 main_call0.v2 (broadcastInDim S262144 ![] bcast_S_S262144),
    TRef.binary (.of main_v2) main_call0.v2 main_call0.v3 addi,
    TRef.ternary main_call0.v1 main_call0.v3 (.of main_v2) main_call0.call0.v0 select,
    TRef.unary main_call0.call0.v0 main_call0.v5 (broadcastInDim S262144x1 ![0] bcast_S262144_S262144x1_0),
    TRef.nullary main_call0.c_1 (constantI S1 32 511#32),
    TRef.nullary main_call0.c_2 (constantI S_ 32 0#32),
    TRef.unary main_call0.c_2 main_call0.v6 (broadcastInDim S262144x1 ![] bcast_S_S262144x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S262144x1 ![0, 1] bcast_S1x1_S262144x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S262144x1_S262144_d1 h_S_),
    TRef.binary (.of main_v12) main_call0.v5 main_call0.v13 (fun x i => Host.gather gather_S512x128_S262144x1_S262144x128_1_0_n_n_0_1_1128 x i),
    TRef.unary main_call0.v12 main_call0.v14 (broadcastInDim S262144x128 ![0] bcast_S262144_S262144x128_0),
    TRef.nullary main_call0.cst (constant S_ .f32 0x7FC00000#32),
    TRef.unary main_call0.cst main_call0.v15 (broadcastInDim S262144x128 ![] bcast_S_S262144x128),
    TRef.ternary main_call0.v14 main_call0.v13 main_call0.v15 main_call0.v16 select,
    unary main_v13 main_v15 (broadcastInDim S262144x128 ![0, 1] bcast_S262144x1_S262144x128_0_1 : (⟨S262144x1, .f32⟩ : BufTy).Contents (Elt F) → (⟨S262144x128, .f32⟩ : BufTy).Contents (Elt F)),
    binary main_v15 main_v14 main_v16 (mulf : (⟨S262144x128, .f32⟩ : BufTy).Contents (Elt F) → (⟨S262144x128, .f32⟩ : BufTy).Contents (Elt F) → (⟨S262144x128, .f32⟩ : BufTy).Contents (Elt F)),
    nullary main_cst (constant S_ .f32 0x00000000#32),
    unary main_cst main_v17 (broadcastInDim S512x128 ![] bcast_S_S512x128 : (⟨S_, .f32⟩ : BufTy).Contents (Elt F) → (⟨S512x128, .f32⟩ : BufTy).Contents (Elt F)),
    nullary main_c (constantI S_ 32 0#32),
    unary main_c main_v18 (broadcastInDim S262144 ![] bcast_S_S262144 : (⟨S_, .i32⟩ : BufTy).Contents (Elt F) → (⟨S262144, .i32⟩ : BufTy).Contents (Elt F)),
    binary main_v6 main_v18 main_v19 (cmpi .slt : (⟨S262144, .i32⟩ : BufTy).Contents (Elt F) → (⟨S262144, .i32⟩ : BufTy).Contents (Elt F) → (⟨S262144, .i1⟩ : BufTy).Contents (Elt F)),
    nullary main_c_0 (constantI S_ 32 512#32),
    unary main_c_0 main_v20 (broadcastInDim S262144 ![] bcast_S_S262144 : (⟨S_, .i32⟩ : BufTy).Contents (Elt F) → (⟨S262144, .i32⟩ : BufTy).Contents (Elt F)),
    binary main_v6 main_v20 main_v21 (addi : (⟨S262144, .i32⟩ : BufTy).Contents (Elt F) → (⟨S262144, .i32⟩ : BufTy).Contents (Elt F) → (⟨S262144, .i32⟩ : BufTy).Contents (Elt F)),
    ternary main_v19 main_v21 main_v6 main_v22 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v22 main_v23 (broadcastInDim S262144x1 ![0] bcast_S262144_S262144x1_0 : (⟨S262144, .i32⟩ : BufTy).Contents (Elt F) → (⟨S262144x1, .i32⟩ : BufTy).Contents (Elt F)),
    ternary main_v17 main_v23 main_v16 main_v24 ((fun x i u => Host.scatterAdd scatter_S512x128_S262144x1_S262144x128_1_0_0_1 x i u) : (⟨S512x128, .f32⟩ : BufTy).Contents (Elt F) → (⟨S262144x1, .i32⟩ : BufTy).Contents (Elt F) → (⟨S262144x128, .f32⟩ : BufTy).Contents (Elt F) → (⟨S512x128, .f32⟩ : BufTy).Contents (Elt F)),
    unary main_arg5 main_v25 (broadcastInDim S1x128 ![1] bcast_S128_S1x128_1 : (⟨S128, .f32⟩ : BufTy).Contents (Elt F) → (⟨S1x128, .f32⟩ : BufTy).Contents (Elt F)),
    unary main_v25 main_v26 (broadcastInDim S512x128 ![0, 1] bcast_S1x128_S512x128_0_1 : (⟨S1x128, .f32⟩ : BufTy).Contents (Elt F) → (⟨S512x128, .f32⟩ : BufTy).Contents (Elt F)),
    binary main_v24 main_v26 main_v27 (addf : (⟨S512x128, .f32⟩ : BufTy).Contents (Elt F) → (⟨S512x128, .f32⟩ : BufTy).Contents (Elt F) → (⟨S512x128, .f32⟩ : BufTy).Contents (Elt F)),
    binary main_v27 main_v11 main_v28 (addf : (⟨S512x128, .f32⟩ : BufTy).Contents (Elt F) → (⟨S512x128, .f32⟩ : BufTy).Contents (Elt F) → (⟨S512x128, .f32⟩ : BufTy).Contents (Elt F)),
    nullary main_cst_1 (constant S_ .f32 0x00000000#32),
    binary main_v28 main_cst_1 main_v29 ((fun x v => Host.reduceAdd x v reducesTo_S512x128_S512_d1 h_S_) : (⟨S512x128, .f32⟩ : BufTy).Contents (Elt F) → (⟨S_, .f32⟩ : BufTy).Contents (Elt F) → (⟨S512, .f32⟩ : BufTy).Contents (Elt F)),
    unary main_v29 main_v30 (broadcastInDim S512x1 ![0] bcast_S512_S512x1_0 : (⟨S512, .f32⟩ : BufTy).Contents (Elt F) → (⟨S512x1, .f32⟩ : BufTy).Contents (Elt F)),
    nullary main_cst_2 (constant S_ .f32 0x43000000#32),
    unary main_cst_2 main_v31 (broadcastInDim S512x1 ![] bcast_S_S512x1 : (⟨S_, .f32⟩ : BufTy).Contents (Elt F) → (⟨S512x1, .f32⟩ : BufTy).Contents (Elt F)),
    binary main_v30 main_v31 main_v32 (Host.divf : (⟨S512x1, .f32⟩ : BufTy).Contents (Elt F) → (⟨S512x1, .f32⟩ : BufTy).Contents (Elt F) → (⟨S512x1, .f32⟩ : BufTy).Contents (Elt F)),
    nullary main_c_3 (constantI S_ 32 0#32),
    TRef.nullary main_call1.cst (constant S_ .f32 0x00000000#32),
    TRef.binary (.of main_v28) main_call1.cst main_call1.v0 (fun x v => Host.reduceAdd x v reducesTo_S512x128_S512_d1 h_S_),
    TRef.unary main_call1.v0 main_call1.v1 (broadcastInDim S512x1 ![0] bcast_S512_S512x1_0),
    TRef.nullary main_call1.cst_0 (constant S_ .f32 0x43000000#32),
    TRef.unary main_call1.cst_0 main_call1.v2 (broadcastInDim S512x1 ![] bcast_S_S512x1),
    TRef.binary main_call1.v1 main_call1.v2 main_call1.v3 Host.divf,
    TRef.unary main_call1.v3 main_call1.v4 (broadcastInDim S512x128 ![0, 1] bcast_S512x1_S512x128_0_1),
    TRef.binary (.of main_v28) main_call1.v4 main_call1.v5 subf,
    TRef.binary main_call1.v5 main_call1.v5 main_call1.v6 mulf,
    TRef.unary (.of main_c_3) main_call1.v7 (sitofp .f32),
    TRef.nullary main_call1.cst_1 (constant S_ .f32 0x43000000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S512x128_S512_d1 h_S_),
    TRef.unary main_call1.v9 main_call1.v10 (broadcastInDim S512x1 ![0] bcast_S512_S512x1_0),
    TRef.unary main_call1.v8 main_call1.v11 (broadcastInDim S512x1 ![] bcast_S_S512x1),
    TRef.binary main_call1.v10 main_call1.v11 main_call1.v12 Host.divf,
    TRef.nullary main_call1.cst_3 (constant S_ .f32 0x00000000#32),
    TRef.binary main_call1.v8 main_call1.cst_3 main_call1.v13 (cmpf .ogt),
    TRef.nullary main_call1.cst_4 (constant S_ .f32 0x7FC00000#32),
    TRef.unary main_call1.cst_4 main_call1.call0.v0 id,
    TRef.unary main_call1.call0.v0 main_call1.call0.v1 (broadcastInDim S512x1 ![] bcast_S_S512x1),
    TRef.ternary main_call1.v13 main_call1.v12 main_call1.call0.v1 main_call1.call0.v2 (fun p a b => select (broadcastInDim S512x1 ![] bcast_S_S512x1 p) a b),
    unary main_v32 main_v34 (broadcastInDim S512x128 ![0, 1] bcast_S512x1_S512x128_0_1 : (⟨S512x1, .f32⟩ : BufTy).Contents (Elt F) → (⟨S512x128, .f32⟩ : BufTy).Contents (Elt F)),
    binary main_v28 main_v34 main_v35 (subf : (⟨S512x128, .f32⟩ : BufTy).Contents (Elt F) → (⟨S512x128, .f32⟩ : BufTy).Contents (Elt F) → (⟨S512x128, .f32⟩ : BufTy).Contents (Elt F)),
    nullary main_cst_4 (constant S_ .f32 0x3727C5AC#32),
    unary main_cst_4 main_v36 (broadcastInDim S512x1 ![] bcast_S_S512x1 : (⟨S_, .f32⟩ : BufTy).Contents (Elt F) → (⟨S512x1, .f32⟩ : BufTy).Contents (Elt F)),
    binary main_v33 main_v36 main_v37 (addf : (⟨S512x1, .f32⟩ : BufTy).Contents (Elt F) → (⟨S512x1, .f32⟩ : BufTy).Contents (Elt F) → (⟨S512x1, .f32⟩ : BufTy).Contents (Elt F)),
    unary main_v37 main_v38 (Host.sqrt : (⟨S512x1, .f32⟩ : BufTy).Contents (Elt F) → (⟨S512x1, .f32⟩ : BufTy).Contents (Elt F)),
    unary main_v38 main_v39 (broadcastInDim S512x128 ![0, 1] bcast_S512x1_S512x128_0_1 : (⟨S512x1, .f32⟩ : BufTy).Contents (Elt F) → (⟨S512x128, .f32⟩ : BufTy).Contents (Elt F)),
    binary main_v35 main_v39 main_v40 (Host.divf : (⟨S512x128, .f32⟩ : BufTy).Contents (Elt F) → (⟨S512x128, .f32⟩ : BufTy).Contents (Elt F) → (⟨S512x128, .f32⟩ : BufTy).Contents (Elt F)),
    unary main_arg8 main_v41 (broadcastInDim S1x128 ![1] bcast_S128_S1x128_1 : (⟨S128, .f32⟩ : BufTy).Contents (Elt F) → (⟨S1x128, .f32⟩ : BufTy).Contents (Elt F)),
    unary main_v41 main_v42 (broadcastInDim S512x128 ![0, 1] bcast_S1x128_S512x128_0_1 : (⟨S1x128, .f32⟩ : BufTy).Contents (Elt F) → (⟨S512x128, .f32⟩ : BufTy).Contents (Elt F)),
    binary main_v40 main_v42 main_v43 (mulf : (⟨S512x128, .f32⟩ : BufTy).Contents (Elt F) → (⟨S512x128, .f32⟩ : BufTy).Contents (Elt F) → (⟨S512x128, .f32⟩ : BufTy).Contents (Elt F)),
    unary main_arg11 main_v44 (broadcastInDim S1x128 ![1] bcast_S128_S1x128_1 : (⟨S128, .f32⟩ : BufTy).Contents (Elt F) → (⟨S1x128, .f32⟩ : BufTy).Contents (Elt F)),
    unary main_v44 main_v45 (broadcastInDim S512x128 ![0, 1] bcast_S1x128_S512x128_0_1 : (⟨S1x128, .f32⟩ : BufTy).Contents (Elt F) → (⟨S512x128, .f32⟩ : BufTy).Contents (Elt F)),
    binary main_v43 main_v45 main_v46 (addf : (⟨S512x128, .f32⟩ : BufTy).Contents (Elt F) → (⟨S512x128, .f32⟩ : BufTy).Contents (Elt F) → (⟨S512x128, .f32⟩ : BufTy).Contents (Elt F)),
    TRef.nullary main_call2.cst (constant S_ .f32 0x00000000#32),
    TRef.unary main_call2.cst main_call2.v0 (broadcastInDim S512x128 ![] bcast_S_S512x128),
    TRef.binary (.of main_v46) main_call2.v0 main_call2.v1 maximumf,
    binary main_v47 main_arg3 main_v48 ((fun l r => Host.dotGeneral dot_S512x128_S128x128_S512x128_1_0_0_1_n_n none l r) : (⟨S512x128, .f32⟩ : BufTy).Contents (Elt F) → (⟨S128x128, .f32⟩ : BufTy).Contents (Elt F) → (⟨S512x128, .f32⟩ : BufTy).Contents (Elt F)),
    unary main_v9 main_v49 (broadcastInDim S262144x1 ![0] bcast_S262144_S262144x1_0 : (⟨S262144, .f32⟩ : BufTy).Contents (Elt F) → (⟨S262144x1, .f32⟩ : BufTy).Contents (Elt F)),
    TRef.nullary main_call3.c (constantI S_ 32 0#32),
    TRef.unary main_call3.c main_call3.v0 (broadcastInDim S262144 ![] bcast_S_S262144),
    TRef.binary (.of main_v2) main_call3.v0 main_call3.v1 (cmpi .slt),
    TRef.nullary main_call3.c_0 (constantI S_ 32 512#32),
    TRef.unary main_call3.c_0 main_call3.v2 (broadcastInDim S262144 ![] bcast_S_S262144),
    TRef.binary (.of main_v2) main_call3.v2 main_call3.v3 addi,
    TRef.ternary main_call3.v1 main_call3.v3 (.of main_v2) main_call3.call0.v0 select,
    TRef.unary main_call3.call0.v0 main_call3.v5 (broadcastInDim S262144x1 ![0] bcast_S262144_S262144x1_0),
    TRef.nullary main_call3.c_1 (constantI S1 32 511#32),
    TRef.nullary main_call3.c_2 (constantI S_ 32 0#32),
    TRef.unary main_call3.c_2 main_call3.v6 (broadcastInDim S262144x1 ![] bcast_S_S262144x1),
    TRef.binary main_call3.v5 main_call3.v6 main_call3.v7 (cmpi .sge),
    TRef.unary main_call3.c_1 main_call3.v8 (broadcastInDim S1x1 ![1] bcast_S1_S1x1_1),
    TRef.unary main_call3.v8 main_call3.v9 (broadcastInDim S262144x1 ![0, 1] bcast_S1x1_S262144x1_0_1),
    TRef.binary main_call3.v5 main_call3.v9 main_call3.v10 (cmpi .sle),
    TRef.binary main_call3.v7 main_call3.v10 main_call3.v11 andi,
    TRef.nullary main_call3.c_3 (constantI S_ 1 1#1),
    TRef.binary main_call3.v11 main_call3.c_3 main_call3.v12 (fun x v => Host.reduce IntOp.andi x v reducesTo_S262144x1_S262144_d1 h_S_),
    TRef.binary (.of main_v48) main_call3.v5 main_call3.v13 (fun x i => Host.gather gather_S512x128_S262144x1_S262144x128_1_0_n_n_0_1_1128 x i),
    TRef.unary main_call3.v12 main_call3.v14 (broadcastInDim S262144x128 ![0] bcast_S262144_S262144x128_0),
    TRef.nullary main_call3.cst (constant S_ .f32 0x7FC00000#32),
    TRef.unary main_call3.cst main_call3.v15 (broadcastInDim S262144x128 ![] bcast_S_S262144x128),
    TRef.ternary main_call3.v14 main_call3.v13 main_call3.v15 main_call3.v16 select,
    unary main_v49 main_v51 (broadcastInDim S262144x128 ![0, 1] bcast_S262144x1_S262144x128_0_1 : (⟨S262144x1, .f32⟩ : BufTy).Contents (Elt F) → (⟨S262144x128, .f32⟩ : BufTy).Contents (Elt F)),
    binary main_v51 main_v50 main_v52 (mulf : (⟨S262144x128, .f32⟩ : BufTy).Contents (Elt F) → (⟨S262144x128, .f32⟩ : BufTy).Contents (Elt F) → (⟨S262144x128, .f32⟩ : BufTy).Contents (Elt F)) ]

set_option maxRecDepth 16384 in
/-- The printed window is that straight line. -/
theorem part0_eq (d : Dev nD) : main_part0 (F := F) d = seq opsP0 := by
  simp only [main_part0, fn_take.body, fn_where.body, fn_var.body, fn_where_0.body, fn_relu.body, seq, bind_assoc, pure_bind]
  rfl

theorem opsP0_sub : (opsP0 : List (HloOp τ sig (Elt F))).Forall fun op => op.bufs ⊆ tcRefs τ sig :=
  ⟨nullary_bufs_sub .., unary_bufs_sub .., reshape_bufs_sub .., nullary_bufs_sub .., reshape_bufs_sub .., unary_bufs_sub .., reshape_bufs_sub .., unary_bufs_sub .., reshape_bufs_sub .., reshape_bufs_sub .., unary_bufs_sub .., reshape_bufs_sub .., binary_bufs_sub .., unary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., unary_bufs_sub .., unary_bufs_sub .., binary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., binary_bufs_sub ..⟩

theorem opsP0_fresh : (opsP0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

end Cert.ReferenceIdeal.Ops

end
-- ==== Proof.RefOps.P1.lean ====
import proofs.«175100_g37074157699472_cont_sun_c4_777_8_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-- @main's statements 61 to 120, the called functions' operations written out at the calls: 106 operations. -/
abbrev opsP1 : List (HloOp τ sig (Elt F)) :=
  [ nullary main_cst_5 (constant S_ .f32 0x00000000#32),
    unary main_cst_5 main_v53 (broadcastInDim S512x128 ![] bcast_S_S512x128 : (⟨S_, .f32⟩ : BufTy).Contents (Elt F) → (⟨S512x128, .f32⟩ : BufTy).Contents (Elt F)),
    nullary main_c_6 (constantI S_ 32 0#32),
    unary main_c_6 main_v54 (broadcastInDim S262144 ![] bcast_S_S262144 : (⟨S_, .i32⟩ : BufTy).Contents (Elt F) → (⟨S262144, .i32⟩ : BufTy).Contents (Elt F)),
    binary main_v6 main_v54 main_v55 (cmpi .slt : (⟨S262144, .i32⟩ : BufTy).Contents (Elt F) → (⟨S262144, .i32⟩ : BufTy).Contents (Elt F) → (⟨S262144, .i1⟩ : BufTy).Contents (Elt F)),
    nullary main_c_7 (constantI S_ 32 512#32),
    unary main_c_7 main_v56 (broadcastInDim S262144 ![] bcast_S_S262144 : (⟨S_, .i32⟩ : BufTy).Contents (Elt F) → (⟨S262144, .i32⟩ : BufTy).Contents (Elt F)),
    binary main_v6 main_v56 main_v57 (addi : (⟨S262144, .i32⟩ : BufTy).Contents (Elt F) → (⟨S262144, .i32⟩ : BufTy).Contents (Elt F) → (⟨S262144, .i32⟩ : BufTy).Contents (Elt F)),
    ternary main_v55 main_v57 main_v6 main_v58 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v58 main_v59 (broadcastInDim S262144x1 ![0] bcast_S262144_S262144x1_0 : (⟨S262144, .i32⟩ : BufTy).Contents (Elt F) → (⟨S262144x1, .i32⟩ : BufTy).Contents (Elt F)),
    ternary main_v53 main_v59 main_v52 main_v60 ((fun x i u => Host.scatterAdd scatter_S512x128_S262144x1_S262144x128_1_0_0_1 x i u) : (⟨S512x128, .f32⟩ : BufTy).Contents (Elt F) → (⟨S262144x1, .i32⟩ : BufTy).Contents (Elt F) → (⟨S262144x128, .f32⟩ : BufTy).Contents (Elt F) → (⟨S512x128, .f32⟩ : BufTy).Contents (Elt F)),
    unary main_arg6 main_v61 (broadcastInDim S1x128 ![1] bcast_S128_S1x128_1 : (⟨S128, .f32⟩ : BufTy).Contents (Elt F) → (⟨S1x128, .f32⟩ : BufTy).Contents (Elt F)),
    unary main_v61 main_v62 (broadcastInDim S512x128 ![0, 1] bcast_S1x128_S512x128_0_1 : (⟨S1x128, .f32⟩ : BufTy).Contents (Elt F) → (⟨S512x128, .f32⟩ : BufTy).Contents (Elt F)),
    binary main_v60 main_v62 main_v63 (addf : (⟨S512x128, .f32⟩ : BufTy).Contents (Elt F) → (⟨S512x128, .f32⟩ : BufTy).Contents (Elt F) → (⟨S512x128, .f32⟩ : BufTy).Contents (Elt F)),
    binary main_v63 main_v47 main_v64 (addf : (⟨S512x128, .f32⟩ : BufTy).Contents (Elt F) → (⟨S512x128, .f32⟩ : BufTy).Contents (Elt F) → (⟨S512x128, .f32⟩ : BufTy).Contents (Elt F)),
    nullary main_cst_8 (constant S_ .f32 0x00000000#32),
    binary main_v64 main_cst_8 main_v65 ((fun x v => Host.reduceAdd x v reducesTo_S512x128_S512_d1 h_S_) : (⟨S512x128, .f32⟩ : BufTy).Contents (Elt F) → (⟨S_, .f32⟩ : BufTy).Contents (Elt F) → (⟨S512, .f32⟩ : BufTy).Contents (Elt F)),
    unary main_v65 main_v66 (broadcastInDim S512x1 ![0] bcast_S512_S512x1_0 : (⟨S512, .f32⟩ : BufTy).Contents (Elt F) → (⟨S512x1, .f32⟩ : BufTy).Contents (Elt F)),
    nullary main_cst_9 (constant S_ .f32 0x43000000#32),
    unary main_cst_9 main_v67 (broadcastInDim S512x1 ![] bcast_S_S512x1 : (⟨S_, .f32⟩ : BufTy).Contents (Elt F) → (⟨S512x1, .f32⟩ : BufTy).Contents (Elt F)),
    binary main_v66 main_v67 main_v68 (Host.divf : (⟨S512x1, .f32⟩ : BufTy).Contents (Elt F) → (⟨S512x1, .f32⟩ : BufTy).Contents (Elt F) → (⟨S512x1, .f32⟩ : BufTy).Contents (Elt F)),
    nullary main_c_10 (constantI S_ 32 0#32),
    TRef.nullary main_call4.cst (constant S_ .f32 0x00000000#32),
    TRef.binary (.of main_v64) main_call4.cst main_call4.v0 (fun x v => Host.reduceAdd x v reducesTo_S512x128_S512_d1 h_S_),
    TRef.unary main_call4.v0 main_call4.v1 (broadcastInDim S512x1 ![0] bcast_S512_S512x1_0),
    TRef.nullary main_call4.cst_0 (constant S_ .f32 0x43000000#32),
    TRef.unary main_call4.cst_0 main_call4.v2 (broadcastInDim S512x1 ![] bcast_S_S512x1),
    TRef.binary main_call4.v1 main_call4.v2 main_call4.v3 Host.divf,
    TRef.unary main_call4.v3 main_call4.v4 (broadcastInDim S512x128 ![0, 1] bcast_S512x1_S512x128_0_1),
    TRef.binary (.of main_v64) main_call4.v4 main_call4.v5 subf,
    TRef.binary main_call4.v5 main_call4.v5 main_call4.v6 mulf,
    TRef.unary (.of main_c_10) main_call4.v7 (sitofp .f32),
    TRef.nullary main_call4.cst_1 (constant S_ .f32 0x43000000#32),
    TRef.binary main_call4.cst_1 main_call4.v7 main_call4.v8 subf,
    TRef.nullary main_call4.cst_2 (constant S_ .f32 0x00000000#32),
    TRef.binary main_call4.v6 main_call4.cst_2 main_call4.v9 (fun x v => Host.reduceAdd x v reducesTo_S512x128_S512_d1 h_S_),
    TRef.unary main_call4.v9 main_call4.v10 (broadcastInDim S512x1 ![0] bcast_S512_S512x1_0),
    TRef.unary main_call4.v8 main_call4.v11 (broadcastInDim S512x1 ![] bcast_S_S512x1),
    TRef.binary main_call4.v10 main_call4.v11 main_call4.v12 Host.divf,
    TRef.nullary main_call4.cst_3 (constant S_ .f32 0x00000000#32),
    TRef.binary main_call4.v8 main_call4.cst_3 main_call4.v13 (cmpf .ogt),
    TRef.nullary main_call4.cst_4 (constant S_ .f32 0x7FC00000#32),
    TRef.unary main_call4.cst_4 main_call4.call0.v0 id,
    TRef.unary main_call4.call0.v0 main_call4.call0.v1 (broadcastInDim S512x1 ![] bcast_S_S512x1),
    TRef.ternary main_call4.v13 main_call4.v12 main_call4.call0.v1 main_call4.call0.v2 (fun p a b => select (broadcastInDim S512x1 ![] bcast_S_S512x1 p) a b),
    unary main_v68 main_v70 (broadcastInDim S512x128 ![0, 1] bcast_S512x1_S512x128_0_1 : (⟨S512x1, .f32⟩ : BufTy).Contents (Elt F) → (⟨S512x128, .f32⟩ : BufTy).Contents (Elt F)),
    binary main_v64 main_v70 main_v71 (subf : (⟨S512x128, .f32⟩ : BufTy).Contents (Elt F) → (⟨S512x128, .f32⟩ : BufTy).Contents (Elt F) → (⟨S512x128, .f32⟩ : BufTy).Contents (Elt F)),
    nullary main_cst_11 (constant S_ .f32 0x3727C5AC#32),
    unary main_cst_11 main_v72 (broadcastInDim S512x1 ![] bcast_S_S512x1 : (⟨S_, .f32⟩ : BufTy).Contents (Elt F) → (⟨S512x1, .f32⟩ : BufTy).Contents (Elt F)),
    binary main_v69 main_v72 main_v73 (addf : (⟨S512x1, .f32⟩ : BufTy).Contents (Elt F) → (⟨S512x1, .f32⟩ : BufTy).Contents (Elt F) → (⟨S512x1, .f32⟩ : BufTy).Contents (Elt F)),
    unary main_v73 main_v74 (Host.sqrt : (⟨S512x1, .f32⟩ : BufTy).Contents (Elt F) → (⟨S512x1, .f32⟩ : BufTy).Contents (Elt F)),
    unary main_v74 main_v75 (broadcastInDim S512x128 ![0, 1] bcast_S512x1_S512x128_0_1 : (⟨S512x1, .f32⟩ : BufTy).Contents (Elt F) → (⟨S512x128, .f32⟩ : BufTy).Contents (Elt F)),
    binary main_v71 main_v75 main_v76 (Host.divf : (⟨S512x128, .f32⟩ : BufTy).Contents (Elt F) → (⟨S512x128, .f32⟩ : BufTy).Contents (Elt F) → (⟨S512x128, .f32⟩ : BufTy).Contents (Elt F)),
    unary main_arg9 main_v77 (broadcastInDim S1x128 ![1] bcast_S128_S1x128_1 : (⟨S128, .f32⟩ : BufTy).Contents (Elt F) → (⟨S1x128, .f32⟩ : BufTy).Contents (Elt F)),
    unary main_v77 main_v78 (broadcastInDim S512x128 ![0, 1] bcast_S1x128_S512x128_0_1 : (⟨S1x128, .f32⟩ : BufTy).Contents (Elt F) → (⟨S512x128, .f32⟩ : BufTy).Contents (Elt F)),
    binary main_v76 main_v78 main_v79 (mulf : (⟨S512x128, .f32⟩ : BufTy).Contents (Elt F) → (⟨S512x128, .f32⟩ : BufTy).Contents (Elt F) → (⟨S512x128, .f32⟩ : BufTy).Contents (Elt F)),
    unary main_arg12 main_v80 (broadcastInDim S1x128 ![1] bcast_S128_S1x128_1 : (⟨S128, .f32⟩ : BufTy).Contents (Elt F) → (⟨S1x128, .f32⟩ : BufTy).Contents (Elt F)),
    unary main_v80 main_v81 (broadcastInDim S512x128 ![0, 1] bcast_S1x128_S512x128_0_1 : (⟨S1x128, .f32⟩ : BufTy).Contents (Elt F) → (⟨S512x128, .f32⟩ : BufTy).Contents (Elt F)),
    binary main_v79 main_v81 main_v82 (addf : (⟨S512x128, .f32⟩ : BufTy).Contents (Elt F) → (⟨S512x128, .f32⟩ : BufTy).Contents (Elt F) → (⟨S512x128, .f32⟩ : BufTy).Contents (Elt F)),
    TRef.nullary main_call5.cst (constant S_ .f32 0x00000000#32),
    TRef.unary main_call5.cst main_call5.v0 (broadcastInDim S512x128 ![] bcast_S_S512x128),
    TRef.binary (.of main_v82) main_call5.v0 main_call5.v1 maximumf,
    binary main_v83 main_arg4 main_v84 ((fun l r => Host.dotGeneral dot_S512x128_S128x128_S512x128_1_0_0_1_n_n none l r) : (⟨S512x128, .f32⟩ : BufTy).Contents (Elt F) → (⟨S128x128, .f32⟩ : BufTy).Contents (Elt F) → (⟨S512x128, .f32⟩ : BufTy).Contents (Elt F)),
    unary main_v9 main_v85 (broadcastInDim S262144x1 ![0] bcast_S262144_S262144x1_0 : (⟨S262144, .f32⟩ : BufTy).Contents (Elt F) → (⟨S262144x1, .f32⟩ : BufTy).Contents (Elt F)),
    TRef.nullary main_call6.c (constantI S_ 32 0#32),
    TRef.unary main_call6.c main_call6.v0 (broadcastInDim S262144 ![] bcast_S_S262144),
    TRef.binary (.of main_v2) main_call6.v0 main_call6.v1 (cmpi .slt),
    TRef.nullary main_call6.c_0 (constantI S_ 32 512#32),
    TRef.unary main_call6.c_0 main_call6.v2 (broadcastInDim S262144 ![] bcast_S_S262144),
    TRef.binary (.of main_v2) main_call6.v2 main_call6.v3 addi,
    TRef.ternary main_call6.v1 main_call6.v3 (.of main_v2) main_call6.call0.v0 select,
    TRef.unary main_call6.call0.v0 main_call6.v5 (broadcastInDim S262144x1 ![0] bcast_S262144_S262144x1_0),
    TRef.nullary main_call6.c_1 (constantI S1 32 511#32),
    TRef.nullary main_call6.c_2 (constantI S_ 32 0#32),
    TRef.unary main_call6.c_2 main_call6.v6 (broadcastInDim S262144x1 ![] bcast_S_S262144x1),
    TRef.binary main_call6.v5 main_call6.v6 main_call6.v7 (cmpi .sge),
    TRef.unary main_call6.c_1 main_call6.v8 (broadcastInDim S1x1 ![1] bcast_S1_S1x1_1),
    TRef.unary main_call6.v8 main_call6.v9 (broadcastInDim S262144x1 ![0, 1] bcast_S1x1_S262144x1_0_1),
    TRef.binary main_call6.v5 main_call6.v9 main_call6.v10 (cmpi .sle),
    TRef.binary main_call6.v7 main_call6.v10 main_call6.v11 andi,
    TRef.nullary main_call6.c_3 (constantI S_ 1 1#1),
    TRef.binary main_call6.v11 main_call6.c_3 main_call6.v12 (fun x v => Host.reduce IntOp.andi x v reducesTo_S262144x1_S262144_d1 h_S_),
    TRef.binary (.of main_v84) main_call6.v5 main_call6.v13 (fun x i => Host.gather gather_S512x128_S262144x1_S262144x128_1_0_n_n_0_1_1128 x i),
    TRef.unary main_call6.v12 main_call6.v14 (broadcastInDim S262144x128 ![0] bcast_S262144_S262144x128_0),
    TRef.nullary main_call6.cst (constant S_ .f32 0x7FC00000#32),
    TRef.unary main_call6.cst main_call6.v15 (broadcastInDim S262144x128 ![] bcast_S_S262144x128),
    TRef.ternary main_call6.v14 main_call6.v13 main_call6.v15 main_call6.v16 select,
    unary main_v85 main_v87 (broadcastInDim S262144x128 ![0, 1] bcast_S262144x1_S262144x128_0_1 : (⟨S262144x1, .f32⟩ : BufTy).Contents (Elt F) → (⟨S262144x128, .f32⟩ : BufTy).Contents (Elt F)),
    binary main_v87 main_v86 main_v88 (mulf : (⟨S262144x128, .f32⟩ : BufTy).Contents (Elt F) → (⟨S262144x128, .f32⟩ : BufTy).Contents (Elt F) → (⟨S262144x128, .f32⟩ : BufTy).Contents (Elt F)),
    nullary main_cst_12 (constant S_ .f32 0x00000000#32),
    unary main_cst_12 main_v89 (broadcastInDim S512x128 ![] bcast_S_S512x128 : (⟨S_, .f32⟩ : BufTy).Contents (Elt F) → (⟨S512x128, .f32⟩ : BufTy).Contents (Elt F)),
    nullary main_c_13 (constantI S_ 32 0#32),
    unary main_c_13 main_v90 (broadcastInDim S262144 ![] bcast_S_S262144 : (⟨S_, .i32⟩ : BufTy).Contents (Elt F) → (⟨S262144, .i32⟩ : BufTy).Contents (Elt F)),
    binary main_v6 main_v90 main_v91 (cmpi .slt : (⟨S262144, .i32⟩ : BufTy).Contents (Elt F) → (⟨S262144, .i32⟩ : BufTy).Contents (Elt F) → (⟨S262144, .i1⟩ : BufTy).Contents (Elt F)),
    nullary main_c_14 (constantI S_ 32 512#32),
    unary main_c_14 main_v92 (broadcastInDim S262144 ![] bcast_S_S262144 : (⟨S_, .i32⟩ : BufTy).Contents (Elt F) → (⟨S262144, .i32⟩ : BufTy).Contents (Elt F)),
    binary main_v6 main_v92 main_v93 (addi : (⟨S262144, .i32⟩ : BufTy).Contents (Elt F) → (⟨S262144, .i32⟩ : BufTy).Contents (Elt F) → (⟨S262144, .i32⟩ : BufTy).Contents (Elt F)),
    ternary main_v91 main_v93 main_v6 main_v94 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v94 main_v95 (broadcastInDim S262144x1 ![0] bcast_S262144_S262144x1_0 : (⟨S262144, .i32⟩ : BufTy).Contents (Elt F) → (⟨S262144x1, .i32⟩ : BufTy).Contents (Elt F)),
    ternary main_v89 main_v95 main_v88 main_v96 ((fun x i u => Host.scatterAdd scatter_S512x128_S262144x1_S262144x128_1_0_0_1 x i u) : (⟨S512x128, .f32⟩ : BufTy).Contents (Elt F) → (⟨S262144x1, .i32⟩ : BufTy).Contents (Elt F) → (⟨S262144x128, .f32⟩ : BufTy).Contents (Elt F) → (⟨S512x128, .f32⟩ : BufTy).Contents (Elt F)),
    unary main_arg7 main_v97 (broadcastInDim S1x128 ![1] bcast_S128_S1x128_1 : (⟨S128, .f32⟩ : BufTy).Contents (Elt F) → (⟨S1x128, .f32⟩ : BufTy).Contents (Elt F)),
    unary main_v97 main_v98 (broadcastInDim S512x128 ![0, 1] bcast_S1x128_S512x128_0_1 : (⟨S1x128, .f32⟩ : BufTy).Contents (Elt F) → (⟨S512x128, .f32⟩ : BufTy).Contents (Elt F)),
    binary main_v96 main_v98 main_v99 (addf : (⟨S512x128, .f32⟩ : BufTy).Contents (Elt F) → (⟨S512x128, .f32⟩ : BufTy).Contents (Elt F) → (⟨S512x128, .f32⟩ : BufTy).Contents (Elt F)),
    binary main_v99 main_v83 main_v100 (addf : (⟨S512x128, .f32⟩ : BufTy).Contents (Elt F) → (⟨S512x128, .f32⟩ : BufTy).Contents (Elt F) → (⟨S512x128, .f32⟩ : BufTy).Contents (Elt F)),
    nullary main_cst_15 (constant S_ .f32 0x00000000#32),
    binary main_v100 main_cst_15 main_v101 ((fun x v => Host.reduceAdd x v reducesTo_S512x128_S512_d1 h_S_) : (⟨S512x128, .f32⟩ : BufTy).Contents (Elt F) → (⟨S_, .f32⟩ : BufTy).Contents (Elt F) → (⟨S512, .f32⟩ : BufTy).Contents (Elt F)) ]

set_option maxRecDepth 16384 in
/-- The printed window is that straight line. -/
theorem part1_eq (d : Dev nD) : main_part1 (F := F) d = seq opsP1 := by
  simp only [main_part1, fn_take.body, fn_where.body, fn_var.body, fn_where_0.body, fn_relu.body, seq, bind_assoc, pure_bind]
  rfl

theorem opsP1_sub : (opsP1 : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., unary_bufs_sub .., unary_bufs_sub .., binary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., unary_bufs_sub .., unary_bufs_sub .., binary_bufs_sub .., binary_bufs_sub .., nullary_bufs_sub .., binary_bufs_sub ..⟩

theorem opsP1_fresh : (opsP1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

end Cert.ReferenceIdeal.Ops

end
-- ==== Proof.RefOps.P2.lean ====
import proofs.«175100_g37074157699472_cont_sun_c4_777_8_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-- @main's statements 121 to 180, the called functions' operations written out at the calls: 128 operations. -/
abbrev opsP2 : List (HloOp τ sig (Elt F)) :=
  [ unary main_v101 main_v102 (broadcastInDim S512x1 ![0] bcast_S512_S512x1_0 : (⟨S512, .f32⟩ : BufTy).Contents (Elt F) → (⟨S512x1, .f32⟩ : BufTy).Contents (Elt F)),
    nullary main_cst_16 (constant S_ .f32 0x43000000#32),
    unary main_cst_16 main_v103 (broadcastInDim S512x1 ![] bcast_S_S512x1 : (⟨S_, .f32⟩ : BufTy).Contents (Elt F) → (⟨S512x1, .f32⟩ : BufTy).Contents (Elt F)),
    binary main_v102 main_v103 main_v104 (Host.divf : (⟨S512x1, .f32⟩ : BufTy).Contents (Elt F) → (⟨S512x1, .f32⟩ : BufTy).Contents (Elt F) → (⟨S512x1, .f32⟩ : BufTy).Contents (Elt F)),
    nullary main_c_17 (constantI S_ 32 0#32),
    TRef.nullary main_call7.cst (constant S_ .f32 0x00000000#32),
    TRef.binary (.of main_v100) main_call7.cst main_call7.v0 (fun x v => Host.reduceAdd x v reducesTo_S512x128_S512_d1 h_S_),
    TRef.unary main_call7.v0 main_call7.v1 (broadcastInDim S512x1 ![0] bcast_S512_S512x1_0),
    TRef.nullary main_call7.cst_0 (constant S_ .f32 0x43000000#32),
    TRef.unary main_call7.cst_0 main_call7.v2 (broadcastInDim S512x1 ![] bcast_S_S512x1),
    TRef.binary main_call7.v1 main_call7.v2 main_call7.v3 Host.divf,
    TRef.unary main_call7.v3 main_call7.v4 (broadcastInDim S512x128 ![0, 1] bcast_S512x1_S512x128_0_1),
    TRef.binary (.of main_v100) main_call7.v4 main_call7.v5 subf,
    TRef.binary main_call7.v5 main_call7.v5 main_call7.v6 mulf,
    TRef.unary (.of main_c_17) main_call7.v7 (sitofp .f32),
    TRef.nullary main_call7.cst_1 (constant S_ .f32 0x43000000#32),
    TRef.binary main_call7.cst_1 main_call7.v7 main_call7.v8 subf,
    TRef.nullary main_call7.cst_2 (constant S_ .f32 0x00000000#32),
    TRef.binary main_call7.v6 main_call7.cst_2 main_call7.v9 (fun x v => Host.reduceAdd x v reducesTo_S512x128_S512_d1 h_S_),
    TRef.unary main_call7.v9 main_call7.v10 (broadcastInDim S512x1 ![0] bcast_S512_S512x1_0),
    TRef.unary main_call7.v8 main_call7.v11 (broadcastInDim S512x1 ![] bcast_S_S512x1),
    TRef.binary main_call7.v10 main_call7.v11 main_call7.v12 Host.divf,
    TRef.nullary main_call7.cst_3 (constant S_ .f32 0x00000000#32),
    TRef.binary main_call7.v8 main_call7.cst_3 main_call7.v13 (cmpf .ogt),
    TRef.nullary main_call7.cst_4 (constant S_ .f32 0x7FC00000#32),
    TRef.unary main_call7.cst_4 main_call7.call0.v0 id,
    TRef.unary main_call7.call0.v0 main_call7.call0.v1 (broadcastInDim S512x1 ![] bcast_S_S512x1),
    TRef.ternary main_call7.v13 main_call7.v12 main_call7.call0.v1 main_call7.call0.v2 (fun p a b => select (broadcastInDim S512x1 ![] bcast_S_S512x1 p) a b),
    unary main_v104 main_v106 (broadcastInDim S512x128 ![0, 1] bcast_S512x1_S512x128_0_1 : (⟨S512x1, .f32⟩ : BufTy).Contents (Elt F) → (⟨S512x128, .f32⟩ : BufTy).Contents (Elt F)),
    binary main_v100 main_v106 main_v107 (subf : (⟨S512x128, .f32⟩ : BufTy).Contents (Elt F) → (⟨S512x128, .f32⟩ : BufTy).Contents (Elt F) → (⟨S512x128, .f32⟩ : BufTy).Contents (Elt F)),
    nullary main_cst_18 (constant S_ .f32 0x3727C5AC#32),
    unary main_cst_18 main_v108 (broadcastInDim S512x1 ![] bcast_S_S512x1 : (⟨S_, .f32⟩ : BufTy).Contents (Elt F) → (⟨S512x1, .f32⟩ : BufTy).Contents (Elt F)),
    binary main_v105 main_v108 main_v109 (addf : (⟨S512x1, .f32⟩ : BufTy).Contents (Elt F) → (⟨S512x1, .f32⟩ : BufTy).Contents (Elt F) → (⟨S512x1, .f32⟩ : BufTy).Contents (Elt F)),
    unary main_v109 main_v110 (Host.sqrt : (⟨S512x1, .f32⟩ : BufTy).Contents (Elt F) → (⟨S512x1, .f32⟩ : BufTy).Contents (Elt F)),
    unary main_v110 main_v111 (broadcastInDim S512x128 ![0, 1] bcast_S512x1_S512x128_0_1 : (⟨S512x1, .f32⟩ : BufTy).Contents (Elt F) → (⟨S512x128, .f32⟩ : BufTy).Contents (Elt F)),
    binary main_v107 main_v111 main_v112 (Host.divf : (⟨S512x128, .f32⟩ : BufTy).Contents (Elt F) → (⟨S512x128, .f32⟩ : BufTy).Contents (Elt F) → (⟨S512x128, .f32⟩ : BufTy).Contents (Elt F)),
    unary main_arg10 main_v113 (broadcastInDim S1x128 ![1] bcast_S128_S1x128_1 : (⟨S128, .f32⟩ : BufTy).Contents (Elt F) → (⟨S1x128, .f32⟩ : BufTy).Contents (Elt F)),
    unary main_v113 main_v114 (broadcastInDim S512x128 ![0, 1] bcast_S1x128_S512x128_0_1 : (⟨S1x128, .f32⟩ : BufTy).Contents (Elt F) → (⟨S512x128, .f32⟩ : BufTy).Contents (Elt F)),
    binary main_v112 main_v114 main_v115 (mulf : (⟨S512x128, .f32⟩ : BufTy).Contents (Elt F) → (⟨S512x128, .f32⟩ : BufTy).Contents (Elt F) → (⟨S512x128, .f32⟩ : BufTy).Contents (Elt F)),
    unary main_arg13 main_v116 (broadcastInDim S1x128 ![1] bcast_S128_S1x128_1 : (⟨S128, .f32⟩ : BufTy).Contents (Elt F) → (⟨S1x128, .f32⟩ : BufTy).Contents (Elt F)),
    unary main_v116 main_v117 (broadcastInDim S512x128 ![0, 1] bcast_S1x128_S512x128_0_1 : (⟨S1x128, .f32⟩ : BufTy).Contents (Elt F) → (⟨S512x128, .f32⟩ : BufTy).Contents (Elt F)),
    binary main_v115 main_v117 main_v118 (addf : (⟨S512x128, .f32⟩ : BufTy).Contents (Elt F) → (⟨S512x128, .f32⟩ : BufTy).Contents (Elt F) → (⟨S512x128, .f32⟩ : BufTy).Contents (Elt F)),
    TRef.nullary main_call8.cst (constant S_ .f32 0x00000000#32),
    TRef.unary main_call8.cst main_call8.v0 (broadcastInDim S512x128 ![] bcast_S_S512x128),
    TRef.binary (.of main_v118) main_call8.v0 main_call8.v1 maximumf,
    unary main_arg1 main_v120 ((extractStridedSlice S1x512x512 ![1, 0, 0] · slices_S4x512x512_S1x512x512_1_0_0) : (⟨S4x512x512, .f32⟩ : BufTy).Contents (Elt F) → (⟨S1x512x512, .f32⟩ : BufTy).Contents (Elt F)),
    reshape main_v120 main_v121 rfl shapeCasts_S1x512x512_S512x512,
    reshape main_v121 main_v122 rfl shapeCasts_S512x512_S262144,
    unary main_arg0 main_v123 ((extractStridedSlice S1x512x128 ![1, 0, 0] · slices_S4x512x128_S1x512x128_1_0_0) : (⟨S4x512x128, .f32⟩ : BufTy).Contents (Elt F) → (⟨S1x512x128, .f32⟩ : BufTy).Contents (Elt F)),
    reshape main_v123 main_v124 rfl shapeCasts_S1x512x128_S512x128,
    binary main_v124 main_arg2 main_v125 ((fun l r => Host.dotGeneral dot_S512x128_S128x128_S512x128_1_0_0_1_n_n none l r) : (⟨S512x128, .f32⟩ : BufTy).Contents (Elt F) → (⟨S128x128, .f32⟩ : BufTy).Contents (Elt F) → (⟨S512x128, .f32⟩ : BufTy).Contents (Elt F)),
    unary main_v122 main_v126 (broadcastInDim S262144x1 ![0] bcast_S262144_S262144x1_0 : (⟨S262144, .f32⟩ : BufTy).Contents (Elt F) → (⟨S262144x1, .f32⟩ : BufTy).Contents (Elt F)),
    TRef.nullary main_call9.c (constantI S_ 32 0#32),
    TRef.unary main_call9.c main_call9.v0 (broadcastInDim S262144 ![] bcast_S_S262144),
    TRef.binary (.of main_v2) main_call9.v0 main_call9.v1 (cmpi .slt),
    TRef.nullary main_call9.c_0 (constantI S_ 32 512#32),
    TRef.unary main_call9.c_0 main_call9.v2 (broadcastInDim S262144 ![] bcast_S_S262144),
    TRef.binary (.of main_v2) main_call9.v2 main_call9.v3 addi,
    TRef.ternary main_call9.v1 main_call9.v3 (.of main_v2) main_call9.call0.v0 select,
    TRef.unary main_call9.call0.v0 main_call9.v5 (broadcastInDim S262144x1 ![0] bcast_S262144_S262144x1_0),
    TRef.nullary main_call9.c_1 (constantI S1 32 511#32),
    TRef.nullary main_call9.c_2 (constantI S_ 32 0#32),
    TRef.unary main_call9.c_2 main_call9.v6 (broadcastInDim S262144x1 ![] bcast_S_S262144x1),
    TRef.binary main_call9.v5 main_call9.v6 main_call9.v7 (cmpi .sge),
    TRef.unary main_call9.c_1 main_call9.v8 (broadcastInDim S1x1 ![1] bcast_S1_S1x1_1),
    TRef.unary main_call9.v8 main_call9.v9 (broadcastInDim S262144x1 ![0, 1] bcast_S1x1_S262144x1_0_1),
    TRef.binary main_call9.v5 main_call9.v9 main_call9.v10 (cmpi .sle),
    TRef.binary main_call9.v7 main_call9.v10 main_call9.v11 andi,
    TRef.nullary main_call9.c_3 (constantI S_ 1 1#1),
    TRef.binary main_call9.v11 main_call9.c_3 main_call9.v12 (fun x v => Host.reduce IntOp.andi x v reducesTo_S262144x1_S262144_d1 h_S_),
    TRef.binary (.of main_v125) main_call9.v5 main_call9.v13 (fun x i => Host.gather gather_S512x128_S262144x1_S262144x128_1_0_n_n_0_1_1128 x i),
    TRef.unary main_call9.v12 main_call9.v14 (broadcastInDim S262144x128 ![0] bcast_S262144_S262144x128_0),
    TRef.nullary main_call9.cst (constant S_ .f32 0x7FC00000#32),
    TRef.unary main_call9.cst main_call9.v15 (broadcastInDim S262144x128 ![] bcast_S_S262144x128),
    TRef.ternary main_call9.v14 main_call9.v13 main_call9.v15 main_call9.v16 select,
    unary main_v126 main_v128 (broadcastInDim S262144x128 ![0, 1] bcast_S262144x1_S262144x128_0_1 : (⟨S262144x1, .f32⟩ : BufTy).Contents (Elt F) → (⟨S262144x128, .f32⟩ : BufTy).Contents (Elt F)),
    binary main_v128 main_v127 main_v129 (mulf : (⟨S262144x128, .f32⟩ : BufTy).Contents (Elt F) → (⟨S262144x128, .f32⟩ : BufTy).Contents (Elt F) → (⟨S262144x128, .f32⟩ : BufTy).Contents (Elt F)),
    nullary main_cst_19 (constant S_ .f32 0x00000000#32),
    unary main_cst_19 main_v130 (broadcastInDim S512x128 ![] bcast_S_S512x128 : (⟨S_, .f32⟩ : BufTy).Contents (Elt F) → (⟨S512x128, .f32⟩ : BufTy).Contents (Elt F)),
    nullary main_c_20 (constantI S_ 32 0#32),
    unary main_c_20 main_v131 (broadcastInDim S262144 ![] bcast_S_S262144 : (⟨S_, .i32⟩ : BufTy).Contents (Elt F) → (⟨S262144, .i32⟩ : BufTy).Contents (Elt F)),
    binary main_v6 main_v131 main_v132 (cmpi .slt : (⟨S262144, .i32⟩ : BufTy).Contents (Elt F) → (⟨S262144, .i32⟩ : BufTy).Contents (Elt F) → (⟨S262144, .i1⟩ : BufTy).Contents (Elt F)),
    nullary main_c_21 (constantI S_ 32 512#32),
    unary main_c_21 main_v133 (broadcastInDim S262144 ![] bcast_S_S262144 : (⟨S_, .i32⟩ : BufTy).Contents (Elt F) → (⟨S262144, .i32⟩ : BufTy).Contents (Elt F)),
    binary main_v6 main_v133 main_v134 (addi : (⟨S262144, .i32⟩ : BufTy).Contents (Elt F) → (⟨S262144, .i32⟩ : BufTy).Contents (Elt F) → (⟨S262144, .i32⟩ : BufTy).Contents (Elt F)),
    ternary main_v132 main_v134 main_v6 main_v135 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v135 main_v136 (broadcastInDim S262144x1 ![0] bcast_S262144_S262144x1_0 : (⟨S262144, .i32⟩ : BufTy).Contents (Elt F) → (⟨S262144x1, .i32⟩ : BufTy).Contents (Elt F)),
    ternary main_v130 main_v136 main_v129 main_v137 ((fun x i u => Host.scatterAdd scatter_S512x128_S262144x1_S262144x128_1_0_0_1 x i u) : (⟨S512x128, .f32⟩ : BufTy).Contents (Elt F) → (⟨S262144x1, .i32⟩ : BufTy).Contents (Elt F) → (⟨S262144x128, .f32⟩ : BufTy).Contents (Elt F) → (⟨S512x128, .f32⟩ : BufTy).Contents (Elt F)),
    unary main_arg5 main_v138 (broadcastInDim S1x128 ![1] bcast_S128_S1x128_1 : (⟨S128, .f32⟩ : BufTy).Contents (Elt F) → (⟨S1x128, .f32⟩ : BufTy).Contents (Elt F)),
    unary main_v138 main_v139 (broadcastInDim S512x128 ![0, 1] bcast_S1x128_S512x128_0_1 : (⟨S1x128, .f32⟩ : BufTy).Contents (Elt F) → (⟨S512x128, .f32⟩ : BufTy).Contents (Elt F)),
    binary main_v137 main_v139 main_v140 (addf : (⟨S512x128, .f32⟩ : BufTy).Contents (Elt F) → (⟨S512x128, .f32⟩ : BufTy).Contents (Elt F) → (⟨S512x128, .f32⟩ : BufTy).Contents (Elt F)),
    binary main_v140 main_v124 main_v141 (addf : (⟨S512x128, .f32⟩ : BufTy).Contents (Elt F) → (⟨S512x128, .f32⟩ : BufTy).Contents (Elt F) → (⟨S512x128, .f32⟩ : BufTy).Contents (Elt F)),
    nullary main_cst_22 (constant S_ .f32 0x00000000#32),
    binary main_v141 main_cst_22 main_v142 ((fun x v => Host.reduceAdd x v reducesTo_S512x128_S512_d1 h_S_) : (⟨S512x128, .f32⟩ : BufTy).Contents (Elt F) → (⟨S_, .f32⟩ : BufTy).Contents (Elt F) → (⟨S512, .f32⟩ : BufTy).Contents (Elt F)),
    unary main_v142 main_v143 (broadcastInDim S512x1 ![0] bcast_S512_S512x1_0 : (⟨S512, .f32⟩ : BufTy).Contents (Elt F) → (⟨S512x1, .f32⟩ : BufTy).Contents (Elt F)),
    nullary main_cst_23 (constant S_ .f32 0x43000000#32),
    unary main_cst_23 main_v144 (broadcastInDim S512x1 ![] bcast_S_S512x1 : (⟨S_, .f32⟩ : BufTy).Contents (Elt F) → (⟨S512x1, .f32⟩ : BufTy).Contents (Elt F)),
    binary main_v143 main_v144 main_v145 (Host.divf : (⟨S512x1, .f32⟩ : BufTy).Contents (Elt F) → (⟨S512x1, .f32⟩ : BufTy).Contents (Elt F) → (⟨S512x1, .f32⟩ : BufTy).Contents (Elt F)),
    nullary main_c_24 (constantI S_ 32 0#32),
    TRef.nullary main_call10.cst (constant S_ .f32 0x00000000#32),
    TRef.binary (.of main_v141) main_call10.cst main_call10.v0 (fun x v => Host.reduceAdd x v reducesTo_S512x128_S512_d1 h_S_),
    TRef.unary main_call10.v0 main_call10.v1 (broadcastInDim S512x1 ![0] bcast_S512_S512x1_0),
    TRef.nullary main_call10.cst_0 (constant S_ .f32 0x43000000#32),
    TRef.unary main_call10.cst_0 main_call10.v2 (broadcastInDim S512x1 ![] bcast_S_S512x1),
    TRef.binary main_call10.v1 main_call10.v2 main_call10.v3 Host.divf,
    TRef.unary main_call10.v3 main_call10.v4 (broadcastInDim S512x128 ![0, 1] bcast_S512x1_S512x128_0_1),
    TRef.binary (.of main_v141) main_call10.v4 main_call10.v5 subf,
    TRef.binary main_call10.v5 main_call10.v5 main_call10.v6 mulf,
    TRef.unary (.of main_c_24) main_call10.v7 (sitofp .f32),
    TRef.nullary main_call10.cst_1 (constant S_ .f32 0x43000000#32),
    TRef.binary main_call10.cst_1 main_call10.v7 main_call10.v8 subf,
    TRef.nullary main_call10.cst_2 (constant S_ .f32 0x00000000#32),
    TRef.binary main_call10.v6 main_call10.cst_2 main_call10.v9 (fun x v => Host.reduceAdd x v reducesTo_S512x128_S512_d1 h_S_),
    TRef.unary main_call10.v9 main_call10.v10 (broadcastInDim S512x1 ![0] bcast_S512_S512x1_0),
    TRef.unary main_call10.v8 main_call10.v11 (broadcastInDim S512x1 ![] bcast_S_S512x1),
    TRef.binary main_call10.v10 main_call10.v11 main_call10.v12 Host.divf,
    TRef.nullary main_call10.cst_3 (constant S_ .f32 0x00000000#32),
    TRef.binary main_call10.v8 main_call10.cst_3 main_call10.v13 (cmpf .ogt),
    TRef.nullary main_call10.cst_4 (constant S_ .f32 0x7FC00000#32),
    TRef.unary main_call10.cst_4 main_call10.call0.v0 id,
    TRef.unary main_call10.call0.v0 main_call10.call0.v1 (broadcastInDim S512x1 ![] bcast_S_S512x1),
    TRef.ternary main_call10.v13 main_call10.v12 main_call10.call0.v1 main_call10.call0.v2 (fun p a b => select (broadcastInDim S512x1 ![] bcast_S_S512x1 p) a b),
    unary main_v145 main_v147 (broadcastInDim S512x128 ![0, 1] bcast_S512x1_S512x128_0_1 : (⟨S512x1, .f32⟩ : BufTy).Contents (Elt F) → (⟨S512x128, .f32⟩ : BufTy).Contents (Elt F)),
    binary main_v141 main_v147 main_v148 (subf : (⟨S512x128, .f32⟩ : BufTy).Contents (Elt F) → (⟨S512x128, .f32⟩ : BufTy).Contents (Elt F) → (⟨S512x128, .f32⟩ : BufTy).Contents (Elt F)),
    nullary main_cst_25 (constant S_ .f32 0x3727C5AC#32),
    unary main_cst_25 main_v149 (broadcastInDim S512x1 ![] bcast_S_S512x1 : (⟨S_, .f32⟩ : BufTy).Contents (Elt F) → (⟨S512x1, .f32⟩ : BufTy).Contents (Elt F)),
    binary main_v146 main_v149 main_v150 (addf : (⟨S512x1, .f32⟩ : BufTy).Contents (Elt F) → (⟨S512x1, .f32⟩ : BufTy).Contents (Elt F) → (⟨S512x1, .f32⟩ : BufTy).Contents (Elt F)),
    unary main_v150 main_v151 (Host.sqrt : (⟨S512x1, .f32⟩ : BufTy).Contents (Elt F) → (⟨S512x1, .f32⟩ : BufTy).Contents (Elt F)) ]

set_option maxRecDepth 16384 in
/-- The printed window is that straight line. -/
theorem part2_eq (d : Dev nD) : main_part2 (F := F) d = seq opsP2 := by
  simp only [main_part2, fn_take.body, fn_where.body, fn_var.body, fn_where_0.body, fn_relu.body, seq, bind_assoc, pure_bind]
  rfl

theorem opsP2_sub : (opsP2 : List (HloOp τ sig (Elt F))).Forall fun op => op.bufs ⊆ tcRefs τ sig :=
  ⟨unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., reshape_bufs_sub .., unary_bufs_sub .., reshape_bufs_sub .., binary_bufs_sub .., unary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., unary_bufs_sub .., unary_bufs_sub .., binary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub ..⟩

theorem opsP2_fresh : (opsP2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

end Cert.ReferenceIdeal.Ops

end
-- ==== Proof.RefOps.P3.lean ====
import proofs.«175100_g37074157699472_cont_sun_c4_777_8_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-- @main's statements 181 to 240, the called functions' operations written out at the calls: 130 operations. -/
abbrev opsP3 : List (HloOp τ sig (Elt F)) :=
  [ unary main_v151 main_v152 (broadcastInDim S512x128 ![0, 1] bcast_S512x1_S512x128_0_1 : (⟨S512x1, .f32⟩ : BufTy).Contents (Elt F) → (⟨S512x128, .f32⟩ : BufTy).Contents (Elt F)),
    binary main_v148 main_v152 main_v153 (Host.divf : (⟨S512x128, .f32⟩ : BufTy).Contents (Elt F) → (⟨S512x128, .f32⟩ : BufTy).Contents (Elt F) → (⟨S512x128, .f32⟩ : BufTy).Contents (Elt F)),
    unary main_arg8 main_v154 (broadcastInDim S1x128 ![1] bcast_S128_S1x128_1 : (⟨S128, .f32⟩ : BufTy).Contents (Elt F) → (⟨S1x128, .f32⟩ : BufTy).Contents (Elt F)),
    unary main_v154 main_v155 (broadcastInDim S512x128 ![0, 1] bcast_S1x128_S512x128_0_1 : (⟨S1x128, .f32⟩ : BufTy).Contents (Elt F) → (⟨S512x128, .f32⟩ : BufTy).Contents (Elt F)),
    binary main_v153 main_v155 main_v156 (mulf : (⟨S512x128, .f32⟩ : BufTy).Contents (Elt F) → (⟨S512x128, .f32⟩ : BufTy).Contents (Elt F) → (⟨S512x128, .f32⟩ : BufTy).Contents (Elt F)),
    unary main_arg11 main_v157 (broadcastInDim S1x128 ![1] bcast_S128_S1x128_1 : (⟨S128, .f32⟩ : BufTy).Contents (Elt F) → (⟨S1x128, .f32⟩ : BufTy).Contents (Elt F)),
    unary main_v157 main_v158 (broadcastInDim S512x128 ![0, 1] bcast_S1x128_S512x128_0_1 : (⟨S1x128, .f32⟩ : BufTy).Contents (Elt F) → (⟨S512x128, .f32⟩ : BufTy).Contents (Elt F)),
    binary main_v156 main_v158 main_v159 (addf : (⟨S512x128, .f32⟩ : BufTy).Contents (Elt F) → (⟨S512x128, .f32⟩ : BufTy).Contents (Elt F) → (⟨S512x128, .f32⟩ : BufTy).Contents (Elt F)),
    TRef.nullary main_call11.cst (constant S_ .f32 0x00000000#32),
    TRef.unary main_call11.cst main_call11.v0 (broadcastInDim S512x128 ![] bcast_S_S512x128),
    TRef.binary (.of main_v159) main_call11.v0 main_call11.v1 maximumf,
    binary main_v160 main_arg3 main_v161 ((fun l r => Host.dotGeneral dot_S512x128_S128x128_S512x128_1_0_0_1_n_n none l r) : (⟨S512x128, .f32⟩ : BufTy).Contents (Elt F) → (⟨S128x128, .f32⟩ : BufTy).Contents (Elt F) → (⟨S512x128, .f32⟩ : BufTy).Contents (Elt F)),
    unary main_v122 main_v162 (broadcastInDim S262144x1 ![0] bcast_S262144_S262144x1_0 : (⟨S262144, .f32⟩ : BufTy).Contents (Elt F) → (⟨S262144x1, .f32⟩ : BufTy).Contents (Elt F)),
    TRef.nullary main_call12.c (constantI S_ 32 0#32),
    TRef.unary main_call12.c main_call12.v0 (broadcastInDim S262144 ![] bcast_S_S262144),
    TRef.binary (.of main_v2) main_call12.v0 main_call12.v1 (cmpi .slt),
    TRef.nullary main_call12.c_0 (constantI S_ 32 512#32),
    TRef.unary main_call12.c_0 main_call12.v2 (broadcastInDim S262144 ![] bcast_S_S262144),
    TRef.binary (.of main_v2) main_call12.v2 main_call12.v3 addi,
    TRef.ternary main_call12.v1 main_call12.v3 (.of main_v2) main_call12.call0.v0 select,
    TRef.unary main_call12.call0.v0 main_call12.v5 (broadcastInDim S262144x1 ![0] bcast_S262144_S262144x1_0),
    TRef.nullary main_call12.c_1 (constantI S1 32 511#32),
    TRef.nullary main_call12.c_2 (constantI S_ 32 0#32),
    TRef.unary main_call12.c_2 main_call12.v6 (broadcastInDim S262144x1 ![] bcast_S_S262144x1),
    TRef.binary main_call12.v5 main_call12.v6 main_call12.v7 (cmpi .sge),
    TRef.unary main_call12.c_1 main_call12.v8 (broadcastInDim S1x1 ![1] bcast_S1_S1x1_1),
    TRef.unary main_call12.v8 main_call12.v9 (broadcastInDim S262144x1 ![0, 1] bcast_S1x1_S262144x1_0_1),
    TRef.binary main_call12.v5 main_call12.v9 main_call12.v10 (cmpi .sle),
    TRef.binary main_call12.v7 main_call12.v10 main_call12.v11 andi,
    TRef.nullary main_call12.c_3 (constantI S_ 1 1#1),
    TRef.binary main_call12.v11 main_call12.c_3 main_call12.v12 (fun x v => Host.reduce IntOp.andi x v reducesTo_S262144x1_S262144_d1 h_S_),
    TRef.binary (.of main_v161) main_call12.v5 main_call12.v13 (fun x i => Host.gather gather_S512x128_S262144x1_S262144x128_1_0_n_n_0_1_1128 x i),
    TRef.unary main_call12.v12 main_call12.v14 (broadcastInDim S262144x128 ![0] bcast_S262144_S262144x128_0),
    TRef.nullary main_call12.cst (constant S_ .f32 0x7FC00000#32),
    TRef.unary main_call12.cst main_call12.v15 (broadcastInDim S262144x128 ![] bcast_S_S262144x128),
    TRef.ternary main_call12.v14 main_call12.v13 main_call12.v15 main_call12.v16 select,
    unary main_v162 main_v164 (broadcastInDim S262144x128 ![0, 1] bcast_S262144x1_S262144x128_0_1 : (⟨S262144x1, .f32⟩ : BufTy).Contents (Elt F) → (⟨S262144x128, .f32⟩ : BufTy).Contents (Elt F)),
    binary main_v164 main_v163 main_v165 (mulf : (⟨S262144x128, .f32⟩ : BufTy).Contents (Elt F) → (⟨S262144x128, .f32⟩ : BufTy).Contents (Elt F) → (⟨S262144x128, .f32⟩ : BufTy).Contents (Elt F)),
    nullary main_cst_26 (constant S_ .f32 0x00000000#32),
    unary main_cst_26 main_v166 (broadcastInDim S512x128 ![] bcast_S_S512x128 : (⟨S_, .f32⟩ : BufTy).Contents (Elt F) → (⟨S512x128, .f32⟩ : BufTy).Contents (Elt F)),
    nullary main_c_27 (constantI S_ 32 0#32),
    unary main_c_27 main_v167 (broadcastInDim S262144 ![] bcast_S_S262144 : (⟨S_, .i32⟩ : BufTy).Contents (Elt F) → (⟨S262144, .i32⟩ : BufTy).Contents (Elt F)),
    binary main_v6 main_v167 main_v168 (cmpi .slt : (⟨S262144, .i32⟩ : BufTy).Contents (Elt F) → (⟨S262144, .i32⟩ : BufTy).Contents (Elt F) → (⟨S262144, .i1⟩ : BufTy).Contents (Elt F)),
    nullary main_c_28 (constantI S_ 32 512#32),
    unary main_c_28 main_v169 (broadcastInDim S262144 ![] bcast_S_S262144 : (⟨S_, .i32⟩ : BufTy).Contents (Elt F) → (⟨S262144, .i32⟩ : BufTy).Contents (Elt F)),
    binary main_v6 main_v169 main_v170 (addi : (⟨S262144, .i32⟩ : BufTy).Contents (Elt F) → (⟨S262144, .i32⟩ : BufTy).Contents (Elt F) → (⟨S262144, .i32⟩ : BufTy).Contents (Elt F)),
    ternary main_v168 main_v170 main_v6 main_v171 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v171 main_v172 (broadcastInDim S262144x1 ![0] bcast_S262144_S262144x1_0 : (⟨S262144, .i32⟩ : BufTy).Contents (Elt F) → (⟨S262144x1, .i32⟩ : BufTy).Contents (Elt F)),
    ternary main_v166 main_v172 main_v165 main_v173 ((fun x i u => Host.scatterAdd scatter_S512x128_S262144x1_S262144x128_1_0_0_1 x i u) : (⟨S512x128, .f32⟩ : BufTy).Contents (Elt F) → (⟨S262144x1, .i32⟩ : BufTy).Contents (Elt F) → (⟨S262144x128, .f32⟩ : BufTy).Contents (Elt F) → (⟨S512x128, .f32⟩ : BufTy).Contents (Elt F)),
    unary main_arg6 main_v174 (broadcastInDim S1x128 ![1] bcast_S128_S1x128_1 : (⟨S128, .f32⟩ : BufTy).Contents (Elt F) → (⟨S1x128, .f32⟩ : BufTy).Contents (Elt F)),
    unary main_v174 main_v175 (broadcastInDim S512x128 ![0, 1] bcast_S1x128_S512x128_0_1 : (⟨S1x128, .f32⟩ : BufTy).Contents (Elt F) → (⟨S512x128, .f32⟩ : BufTy).Contents (Elt F)),
    binary main_v173 main_v175 main_v176 (addf : (⟨S512x128, .f32⟩ : BufTy).Contents (Elt F) → (⟨S512x128, .f32⟩ : BufTy).Contents (Elt F) → (⟨S512x128, .f32⟩ : BufTy).Contents (Elt F)),
    binary main_v176 main_v160 main_v177 (addf : (⟨S512x128, .f32⟩ : BufTy).Contents (Elt F) → (⟨S512x128, .f32⟩ : BufTy).Contents (Elt F) → (⟨S512x128, .f32⟩ : BufTy).Contents (Elt F)),
    nullary main_cst_29 (constant S_ .f32 0x00000000#32),
    binary main_v177 main_cst_29 main_v178 ((fun x v => Host.reduceAdd x v reducesTo_S512x128_S512_d1 h_S_) : (⟨S512x128, .f32⟩ : BufTy).Contents (Elt F) → (⟨S_, .f32⟩ : BufTy).Contents (Elt F) → (⟨S512, .f32⟩ : BufTy).Contents (Elt F)),
    unary main_v178 main_v179 (broadcastInDim S512x1 ![0] bcast_S512_S512x1_0 : (⟨S512, .f32⟩ : BufTy).Contents (Elt F) → (⟨S512x1, .f32⟩ : BufTy).Contents (Elt F)),
    nullary main_cst_30 (constant S_ .f32 0x43000000#32),
    unary main_cst_30 main_v180 (broadcastInDim S512x1 ![] bcast_S_S512x1 : (⟨S_, .f32⟩ : BufTy).Contents (Elt F) → (⟨S512x1, .f32⟩ : BufTy).Contents (Elt F)),
    binary main_v179 main_v180 main_v181 (Host.divf : (⟨S512x1, .f32⟩ : BufTy).Contents (Elt F) → (⟨S512x1, .f32⟩ : BufTy).Contents (Elt F) → (⟨S512x1, .f32⟩ : BufTy).Contents (Elt F)),
    nullary main_c_31 (constantI S_ 32 0#32),
    TRef.nullary main_call13.cst (constant S_ .f32 0x00000000#32),
    TRef.binary (.of main_v177) main_call13.cst main_call13.v0 (fun x v => Host.reduceAdd x v reducesTo_S512x128_S512_d1 h_S_),
    TRef.unary main_call13.v0 main_call13.v1 (broadcastInDim S512x1 ![0] bcast_S512_S512x1_0),
    TRef.nullary main_call13.cst_0 (constant S_ .f32 0x43000000#32),
    TRef.unary main_call13.cst_0 main_call13.v2 (broadcastInDim S512x1 ![] bcast_S_S512x1),
    TRef.binary main_call13.v1 main_call13.v2 main_call13.v3 Host.divf,
    TRef.unary main_call13.v3 main_call13.v4 (broadcastInDim S512x128 ![0, 1] bcast_S512x1_S512x128_0_1),
    TRef.binary (.of main_v177) main_call13.v4 main_call13.v5 subf,
    TRef.binary main_call13.v5 main_call13.v5 main_call13.v6 mulf,
    TRef.unary (.of main_c_31) main_call13.v7 (sitofp .f32),
    TRef.nullary main_call13.cst_1 (constant S_ .f32 0x43000000#32),
    TRef.binary main_call13.cst_1 main_call13.v7 main_call13.v8 subf,
    TRef.nullary main_call13.cst_2 (constant S_ .f32 0x00000000#32),
    TRef.binary main_call13.v6 main_call13.cst_2 main_call13.v9 (fun x v => Host.reduceAdd x v reducesTo_S512x128_S512_d1 h_S_),
    TRef.unary main_call13.v9 main_call13.v10 (broadcastInDim S512x1 ![0] bcast_S512_S512x1_0),
    TRef.unary main_call13.v8 main_call13.v11 (broadcastInDim S512x1 ![] bcast_S_S512x1),
    TRef.binary main_call13.v10 main_call13.v11 main_call13.v12 Host.divf,
    TRef.nullary main_call13.cst_3 (constant S_ .f32 0x00000000#32),
    TRef.binary main_call13.v8 main_call13.cst_3 main_call13.v13 (cmpf .ogt),
    TRef.nullary main_call13.cst_4 (constant S_ .f32 0x7FC00000#32),
    TRef.unary main_call13.cst_4 main_call13.call0.v0 id,
    TRef.unary main_call13.call0.v0 main_call13.call0.v1 (broadcastInDim S512x1 ![] bcast_S_S512x1),
    TRef.ternary main_call13.v13 main_call13.v12 main_call13.call0.v1 main_call13.call0.v2 (fun p a b => select (broadcastInDim S512x1 ![] bcast_S_S512x1 p) a b),
    unary main_v181 main_v183 (broadcastInDim S512x128 ![0, 1] bcast_S512x1_S512x128_0_1 : (⟨S512x1, .f32⟩ : BufTy).Contents (Elt F) → (⟨S512x128, .f32⟩ : BufTy).Contents (Elt F)),
    binary main_v177 main_v183 main_v184 (subf : (⟨S512x128, .f32⟩ : BufTy).Contents (Elt F) → (⟨S512x128, .f32⟩ : BufTy).Contents (Elt F) → (⟨S512x128, .f32⟩ : BufTy).Contents (Elt F)),
    nullary main_cst_32 (constant S_ .f32 0x3727C5AC#32),
    unary main_cst_32 main_v185 (broadcastInDim S512x1 ![] bcast_S_S512x1 : (⟨S_, .f32⟩ : BufTy).Contents (Elt F) → (⟨S512x1, .f32⟩ : BufTy).Contents (Elt F)),
    binary main_v182 main_v185 main_v186 (addf : (⟨S512x1, .f32⟩ : BufTy).Contents (Elt F) → (⟨S512x1, .f32⟩ : BufTy).Contents (Elt F) → (⟨S512x1, .f32⟩ : BufTy).Contents (Elt F)),
    unary main_v186 main_v187 (Host.sqrt : (⟨S512x1, .f32⟩ : BufTy).Contents (Elt F) → (⟨S512x1, .f32⟩ : BufTy).Contents (Elt F)),
    unary main_v187 main_v188 (broadcastInDim S512x128 ![0, 1] bcast_S512x1_S512x128_0_1 : (⟨S512x1, .f32⟩ : BufTy).Contents (Elt F) → (⟨S512x128, .f32⟩ : BufTy).Contents (Elt F)),
    binary main_v184 main_v188 main_v189 (Host.divf : (⟨S512x128, .f32⟩ : BufTy).Contents (Elt F) → (⟨S512x128, .f32⟩ : BufTy).Contents (Elt F) → (⟨S512x128, .f32⟩ : BufTy).Contents (Elt F)),
    unary main_arg9 main_v190 (broadcastInDim S1x128 ![1] bcast_S128_S1x128_1 : (⟨S128, .f32⟩ : BufTy).Contents (Elt F) → (⟨S1x128, .f32⟩ : BufTy).Contents (Elt F)),
    unary main_v190 main_v191 (broadcastInDim S512x128 ![0, 1] bcast_S1x128_S512x128_0_1 : (⟨S1x128, .f32⟩ : BufTy).Contents (Elt F) → (⟨S512x128, .f32⟩ : BufTy).Contents (Elt F)),
    binary main_v189 main_v191 main_v192 (mulf : (⟨S512x128, .f32⟩ : BufTy).Contents (Elt F) → (⟨S512x128, .f32⟩ : BufTy).Contents (Elt F) → (⟨S512x128, .f32⟩ : BufTy).Contents (Elt F)),
    unary main_arg12 main_v193 (broadcastInDim S1x128 ![1] bcast_S128_S1x128_1 : (⟨S128, .f32⟩ : BufTy).Contents (Elt F) → (⟨S1x128, .f32⟩ : BufTy).Contents (Elt F)),
    unary main_v193 main_v194 (broadcastInDim S512x128 ![0, 1] bcast_S1x128_S512x128_0_1 : (⟨S1x128, .f32⟩ : BufTy).Contents (Elt F) → (⟨S512x128, .f32⟩ : BufTy).Contents (Elt F)),
    binary main_v192 main_v194 main_v195 (addf : (⟨S512x128, .f32⟩ : BufTy).Contents (Elt F) → (⟨S512x128, .f32⟩ : BufTy).Contents (Elt F) → (⟨S512x128, .f32⟩ : BufTy).Contents (Elt F)),
    TRef.nullary main_call14.cst (constant S_ .f32 0x00000000#32),
    TRef.unary main_call14.cst main_call14.v0 (broadcastInDim S512x128 ![] bcast_S_S512x128),
    TRef.binary (.of main_v195) main_call14.v0 main_call14.v1 maximumf,
    binary main_v196 main_arg4 main_v197 ((fun l r => Host.dotGeneral dot_S512x128_S128x128_S512x128_1_0_0_1_n_n none l r) : (⟨S512x128, .f32⟩ : BufTy).Contents (Elt F) → (⟨S128x128, .f32⟩ : BufTy).Contents (Elt F) → (⟨S512x128, .f32⟩ : BufTy).Contents (Elt F)),
    unary main_v122 main_v198 (broadcastInDim S262144x1 ![0] bcast_S262144_S262144x1_0 : (⟨S262144, .f32⟩ : BufTy).Contents (Elt F) → (⟨S262144x1, .f32⟩ : BufTy).Contents (Elt F)),
    TRef.nullary main_call15.c (constantI S_ 32 0#32),
    TRef.unary main_call15.c main_call15.v0 (broadcastInDim S262144 ![] bcast_S_S262144),
    TRef.binary (.of main_v2) main_call15.v0 main_call15.v1 (cmpi .slt),
    TRef.nullary main_call15.c_0 (constantI S_ 32 512#32),
    TRef.unary main_call15.c_0 main_call15.v2 (broadcastInDim S262144 ![] bcast_S_S262144),
    TRef.binary (.of main_v2) main_call15.v2 main_call15.v3 addi,
    TRef.ternary main_call15.v1 main_call15.v3 (.of main_v2) main_call15.call0.v0 select,
    TRef.unary main_call15.call0.v0 main_call15.v5 (broadcastInDim S262144x1 ![0] bcast_S262144_S262144x1_0),
    TRef.nullary main_call15.c_1 (constantI S1 32 511#32),
    TRef.nullary main_call15.c_2 (constantI S_ 32 0#32),
    TRef.unary main_call15.c_2 main_call15.v6 (broadcastInDim S262144x1 ![] bcast_S_S262144x1),
    TRef.binary main_call15.v5 main_call15.v6 main_call15.v7 (cmpi .sge),
    TRef.unary main_call15.c_1 main_call15.v8 (broadcastInDim S1x1 ![1] bcast_S1_S1x1_1),
    TRef.unary main_call15.v8 main_call15.v9 (broadcastInDim S262144x1 ![0, 1] bcast_S1x1_S262144x1_0_1),
    TRef.binary main_call15.v5 main_call15.v9 main_call15.v10 (cmpi .sle),
    TRef.binary main_call15.v7 main_call15.v10 main_call15.v11 andi,
    TRef.nullary main_call15.c_3 (constantI S_ 1 1#1),
    TRef.binary main_call15.v11 main_call15.c_3 main_call15.v12 (fun x v => Host.reduce IntOp.andi x v reducesTo_S262144x1_S262144_d1 h_S_),
    TRef.binary (.of main_v197) main_call15.v5 main_call15.v13 (fun x i => Host.gather gather_S512x128_S262144x1_S262144x128_1_0_n_n_0_1_1128 x i),
    TRef.unary main_call15.v12 main_call15.v14 (broadcastInDim S262144x128 ![0] bcast_S262144_S262144x128_0),
    TRef.nullary main_call15.cst (constant S_ .f32 0x7FC00000#32),
    TRef.unary main_call15.cst main_call15.v15 (broadcastInDim S262144x128 ![] bcast_S_S262144x128),
    TRef.ternary main_call15.v14 main_call15.v13 main_call15.v15 main_call15.v16 select,
    unary main_v198 main_v200 (broadcastInDim S262144x128 ![0, 1] bcast_S262144x1_S262144x128_0_1 : (⟨S262144x1, .f32⟩ : BufTy).Contents (Elt F) → (⟨S262144x128, .f32⟩ : BufTy).Contents (Elt F)),
    binary main_v200 main_v199 main_v201 (mulf : (⟨S262144x128, .f32⟩ : BufTy).Contents (Elt F) → (⟨S262144x128, .f32⟩ : BufTy).Contents (Elt F) → (⟨S262144x128, .f32⟩ : BufTy).Contents (Elt F)),
    nullary main_cst_33 (constant S_ .f32 0x00000000#32),
    unary main_cst_33 main_v202 (broadcastInDim S512x128 ![] bcast_S_S512x128 : (⟨S_, .f32⟩ : BufTy).Contents (Elt F) → (⟨S512x128, .f32⟩ : BufTy).Contents (Elt F)),
    nullary main_c_34 (constantI S_ 32 0#32) ]

set_option maxRecDepth 16384 in
/-- The printed window is that straight line. -/
theorem part3_eq (d : Dev nD) : main_part3 (F := F) d = seq opsP3 := by
  simp only [main_part3, fn_take.body, fn_where.body, fn_var.body, fn_where_0.body, fn_relu.body, seq, bind_assoc, pure_bind]
  rfl

theorem opsP3_sub : (opsP3 : List (HloOp τ sig (Elt F))).Forall fun op => op.bufs ⊆ tcRefs τ sig :=
  ⟨unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., unary_bufs_sub .., unary_bufs_sub .., binary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., binary_bufs_sub .., nullary_bufs_sub .., unary_bufs_sub .., nullary_bufs_sub ..⟩

theorem opsP3_fresh : (opsP3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

end Cert.ReferenceIdeal.Ops

end
-- ==== Proof.RefOps.P4.lean ====
import proofs.«175100_g37074157699472_cont_sun_c4_777_8_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-- @main's statements 241 to 300, the called functions' operations written out at the calls: 106 operations. -/
abbrev opsP4 : List (HloOp τ sig (Elt F)) :=
  [ unary main_c_34 main_v203 (broadcastInDim S262144 ![] bcast_S_S262144 : (⟨S_, .i32⟩ : BufTy).Contents (Elt F) → (⟨S262144, .i32⟩ : BufTy).Contents (Elt F)),
    binary main_v6 main_v203 main_v204 (cmpi .slt : (⟨S262144, .i32⟩ : BufTy).Contents (Elt F) → (⟨S262144, .i32⟩ : BufTy).Contents (Elt F) → (⟨S262144, .i1⟩ : BufTy).Contents (Elt F)),
    nullary main_c_35 (constantI S_ 32 512#32),
    unary main_c_35 main_v205 (broadcastInDim S262144 ![] bcast_S_S262144 : (⟨S_, .i32⟩ : BufTy).Contents (Elt F) → (⟨S262144, .i32⟩ : BufTy).Contents (Elt F)),
    binary main_v6 main_v205 main_v206 (addi : (⟨S262144, .i32⟩ : BufTy).Contents (Elt F) → (⟨S262144, .i32⟩ : BufTy).Contents (Elt F) → (⟨S262144, .i32⟩ : BufTy).Contents (Elt F)),
    ternary main_v204 main_v206 main_v6 main_v207 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v207 main_v208 (broadcastInDim S262144x1 ![0] bcast_S262144_S262144x1_0 : (⟨S262144, .i32⟩ : BufTy).Contents (Elt F) → (⟨S262144x1, .i32⟩ : BufTy).Contents (Elt F)),
    ternary main_v202 main_v208 main_v201 main_v209 ((fun x i u => Host.scatterAdd scatter_S512x128_S262144x1_S262144x128_1_0_0_1 x i u) : (⟨S512x128, .f32⟩ : BufTy).Contents (Elt F) → (⟨S262144x1, .i32⟩ : BufTy).Contents (Elt F) → (⟨S262144x128, .f32⟩ : BufTy).Contents (Elt F) → (⟨S512x128, .f32⟩ : BufTy).Contents (Elt F)),
    unary main_arg7 main_v210 (broadcastInDim S1x128 ![1] bcast_S128_S1x128_1 : (⟨S128, .f32⟩ : BufTy).Contents (Elt F) → (⟨S1x128, .f32⟩ : BufTy).Contents (Elt F)),
    unary main_v210 main_v211 (broadcastInDim S512x128 ![0, 1] bcast_S1x128_S512x128_0_1 : (⟨S1x128, .f32⟩ : BufTy).Contents (Elt F) → (⟨S512x128, .f32⟩ : BufTy).Contents (Elt F)),
    binary main_v209 main_v211 main_v212 (addf : (⟨S512x128, .f32⟩ : BufTy).Contents (Elt F) → (⟨S512x128, .f32⟩ : BufTy).Contents (Elt F) → (⟨S512x128, .f32⟩ : BufTy).Contents (Elt F)),
    binary main_v212 main_v196 main_v213 (addf : (⟨S512x128, .f32⟩ : BufTy).Contents (Elt F) → (⟨S512x128, .f32⟩ : BufTy).Contents (Elt F) → (⟨S512x128, .f32⟩ : BufTy).Contents (Elt F)),
    nullary main_cst_36 (constant S_ .f32 0x00000000#32),
    binary main_v213 main_cst_36 main_v214 ((fun x v => Host.reduceAdd x v reducesTo_S512x128_S512_d1 h_S_) : (⟨S512x128, .f32⟩ : BufTy).Contents (Elt F) → (⟨S_, .f32⟩ : BufTy).Contents (Elt F) → (⟨S512, .f32⟩ : BufTy).Contents (Elt F)),
    unary main_v214 main_v215 (broadcastInDim S512x1 ![0] bcast_S512_S512x1_0 : (⟨S512, .f32⟩ : BufTy).Contents (Elt F) → (⟨S512x1, .f32⟩ : BufTy).Contents (Elt F)),
    nullary main_cst_37 (constant S_ .f32 0x43000000#32),
    unary main_cst_37 main_v216 (broadcastInDim S512x1 ![] bcast_S_S512x1 : (⟨S_, .f32⟩ : BufTy).Contents (Elt F) → (⟨S512x1, .f32⟩ : BufTy).Contents (Elt F)),
    binary main_v215 main_v216 main_v217 (Host.divf : (⟨S512x1, .f32⟩ : BufTy).Contents (Elt F) → (⟨S512x1, .f32⟩ : BufTy).Contents (Elt F) → (⟨S512x1, .f32⟩ : BufTy).Contents (Elt F)),
    nullary main_c_38 (constantI S_ 32 0#32),
    TRef.nullary main_call16.cst (constant S_ .f32 0x00000000#32),
    TRef.binary (.of main_v213) main_call16.cst main_call16.v0 (fun x v => Host.reduceAdd x v reducesTo_S512x128_S512_d1 h_S_),
    TRef.unary main_call16.v0 main_call16.v1 (broadcastInDim S512x1 ![0] bcast_S512_S512x1_0),
    TRef.nullary main_call16.cst_0 (constant S_ .f32 0x43000000#32),
    TRef.unary main_call16.cst_0 main_call16.v2 (broadcastInDim S512x1 ![] bcast_S_S512x1),
    TRef.binary main_call16.v1 main_call16.v2 main_call16.v3 Host.divf,
    TRef.unary main_call16.v3 main_call16.v4 (broadcastInDim S512x128 ![0, 1] bcast_S512x1_S512x128_0_1),
    TRef.binary (.of main_v213) main_call16.v4 main_call16.v5 subf,
    TRef.binary main_call16.v5 main_call16.v5 main_call16.v6 mulf,
    TRef.unary (.of main_c_38) main_call16.v7 (sitofp .f32),
    TRef.nullary main_call16.cst_1 (constant S_ .f32 0x43000000#32),
    TRef.binary main_call16.cst_1 main_call16.v7 main_call16.v8 subf,
    TRef.nullary main_call16.cst_2 (constant S_ .f32 0x00000000#32),
    TRef.binary main_call16.v6 main_call16.cst_2 main_call16.v9 (fun x v => Host.reduceAdd x v reducesTo_S512x128_S512_d1 h_S_),
    TRef.unary main_call16.v9 main_call16.v10 (broadcastInDim S512x1 ![0] bcast_S512_S512x1_0),
    TRef.unary main_call16.v8 main_call16.v11 (broadcastInDim S512x1 ![] bcast_S_S512x1),
    TRef.binary main_call16.v10 main_call16.v11 main_call16.v12 Host.divf,
    TRef.nullary main_call16.cst_3 (constant S_ .f32 0x00000000#32),
    TRef.binary main_call16.v8 main_call16.cst_3 main_call16.v13 (cmpf .ogt),
    TRef.nullary main_call16.cst_4 (constant S_ .f32 0x7FC00000#32),
    TRef.unary main_call16.cst_4 main_call16.call0.v0 id,
    TRef.unary main_call16.call0.v0 main_call16.call0.v1 (broadcastInDim S512x1 ![] bcast_S_S512x1),
    TRef.ternary main_call16.v13 main_call16.v12 main_call16.call0.v1 main_call16.call0.v2 (fun p a b => select (broadcastInDim S512x1 ![] bcast_S_S512x1 p) a b),
    unary main_v217 main_v219 (broadcastInDim S512x128 ![0, 1] bcast_S512x1_S512x128_0_1 : (⟨S512x1, .f32⟩ : BufTy).Contents (Elt F) → (⟨S512x128, .f32⟩ : BufTy).Contents (Elt F)),
    binary main_v213 main_v219 main_v220 (subf : (⟨S512x128, .f32⟩ : BufTy).Contents (Elt F) → (⟨S512x128, .f32⟩ : BufTy).Contents (Elt F) → (⟨S512x128, .f32⟩ : BufTy).Contents (Elt F)),
    nullary main_cst_39 (constant S_ .f32 0x3727C5AC#32),
    unary main_cst_39 main_v221 (broadcastInDim S512x1 ![] bcast_S_S512x1 : (⟨S_, .f32⟩ : BufTy).Contents (Elt F) → (⟨S512x1, .f32⟩ : BufTy).Contents (Elt F)),
    binary main_v218 main_v221 main_v222 (addf : (⟨S512x1, .f32⟩ : BufTy).Contents (Elt F) → (⟨S512x1, .f32⟩ : BufTy).Contents (Elt F) → (⟨S512x1, .f32⟩ : BufTy).Contents (Elt F)),
    unary main_v222 main_v223 (Host.sqrt : (⟨S512x1, .f32⟩ : BufTy).Contents (Elt F) → (⟨S512x1, .f32⟩ : BufTy).Contents (Elt F)),
    unary main_v223 main_v224 (broadcastInDim S512x128 ![0, 1] bcast_S512x1_S512x128_0_1 : (⟨S512x1, .f32⟩ : BufTy).Contents (Elt F) → (⟨S512x128, .f32⟩ : BufTy).Contents (Elt F)),
    binary main_v220 main_v224 main_v225 (Host.divf : (⟨S512x128, .f32⟩ : BufTy).Contents (Elt F) → (⟨S512x128, .f32⟩ : BufTy).Contents (Elt F) → (⟨S512x128, .f32⟩ : BufTy).Contents (Elt F)),
    unary main_arg10 main_v226 (broadcastInDim S1x128 ![1] bcast_S128_S1x128_1 : (⟨S128, .f32⟩ : BufTy).Contents (Elt F) → (⟨S1x128, .f32⟩ : BufTy).Contents (Elt F)),
    unary main_v226 main_v227 (broadcastInDim S512x128 ![0, 1] bcast_S1x128_S512x128_0_1 : (⟨S1x128, .f32⟩ : BufTy).Contents (Elt F) → (⟨S512x128, .f32⟩ : BufTy).Contents (Elt F)),
    binary main_v225 main_v227 main_v228 (mulf : (⟨S512x128, .f32⟩ : BufTy).Contents (Elt F) → (⟨S512x128, .f32⟩ : BufTy).Contents (Elt F) → (⟨S512x128, .f32⟩ : BufTy).Contents (Elt F)),
    unary main_arg13 main_v229 (broadcastInDim S1x128 ![1] bcast_S128_S1x128_1 : (⟨S128, .f32⟩ : BufTy).Contents (Elt F) → (⟨S1x128, .f32⟩ : BufTy).Contents (Elt F)),
    unary main_v229 main_v230 (broadcastInDim S512x128 ![0, 1] bcast_S1x128_S512x128_0_1 : (⟨S1x128, .f32⟩ : BufTy).Contents (Elt F) → (⟨S512x128, .f32⟩ : BufTy).Contents (Elt F)),
    binary main_v228 main_v230 main_v231 (addf : (⟨S512x128, .f32⟩ : BufTy).Contents (Elt F) → (⟨S512x128, .f32⟩ : BufTy).Contents (Elt F) → (⟨S512x128, .f32⟩ : BufTy).Contents (Elt F)),
    TRef.nullary main_call17.cst (constant S_ .f32 0x00000000#32),
    TRef.unary main_call17.cst main_call17.v0 (broadcastInDim S512x128 ![] bcast_S_S512x128),
    TRef.binary (.of main_v231) main_call17.v0 main_call17.v1 maximumf,
    unary main_arg1 main_v233 ((extractStridedSlice S1x512x512 ![2, 0, 0] · slices_S4x512x512_S1x512x512_2_0_0) : (⟨S4x512x512, .f32⟩ : BufTy).Contents (Elt F) → (⟨S1x512x512, .f32⟩ : BufTy).Contents (Elt F)),
    reshape main_v233 main_v234 rfl shapeCasts_S1x512x512_S512x512,
    reshape main_v234 main_v235 rfl shapeCasts_S512x512_S262144,
    unary main_arg0 main_v236 ((extractStridedSlice S1x512x128 ![2, 0, 0] · slices_S4x512x128_S1x512x128_2_0_0) : (⟨S4x512x128, .f32⟩ : BufTy).Contents (Elt F) → (⟨S1x512x128, .f32⟩ : BufTy).Contents (Elt F)),
    reshape main_v236 main_v237 rfl shapeCasts_S1x512x128_S512x128,
    binary main_v237 main_arg2 main_v238 ((fun l r => Host.dotGeneral dot_S512x128_S128x128_S512x128_1_0_0_1_n_n none l r) : (⟨S512x128, .f32⟩ : BufTy).Contents (Elt F) → (⟨S128x128, .f32⟩ : BufTy).Contents (Elt F) → (⟨S512x128, .f32⟩ : BufTy).Contents (Elt F)),
    unary main_v235 main_v239 (broadcastInDim S262144x1 ![0] bcast_S262144_S262144x1_0 : (⟨S262144, .f32⟩ : BufTy).Contents (Elt F) → (⟨S262144x1, .f32⟩ : BufTy).Contents (Elt F)),
    TRef.nullary main_call18.c (constantI S_ 32 0#32),
    TRef.unary main_call18.c main_call18.v0 (broadcastInDim S262144 ![] bcast_S_S262144),
    TRef.binary (.of main_v2) main_call18.v0 main_call18.v1 (cmpi .slt),
    TRef.nullary main_call18.c_0 (constantI S_ 32 512#32),
    TRef.unary main_call18.c_0 main_call18.v2 (broadcastInDim S262144 ![] bcast_S_S262144),
    TRef.binary (.of main_v2) main_call18.v2 main_call18.v3 addi,
    TRef.ternary main_call18.v1 main_call18.v3 (.of main_v2) main_call18.call0.v0 select,
    TRef.unary main_call18.call0.v0 main_call18.v5 (broadcastInDim S262144x1 ![0] bcast_S262144_S262144x1_0),
    TRef.nullary main_call18.c_1 (constantI S1 32 511#32),
    TRef.nullary main_call18.c_2 (constantI S_ 32 0#32),
    TRef.unary main_call18.c_2 main_call18.v6 (broadcastInDim S262144x1 ![] bcast_S_S262144x1),
    TRef.binary main_call18.v5 main_call18.v6 main_call18.v7 (cmpi .sge),
    TRef.unary main_call18.c_1 main_call18.v8 (broadcastInDim S1x1 ![1] bcast_S1_S1x1_1),
    TRef.unary main_call18.v8 main_call18.v9 (broadcastInDim S262144x1 ![0, 1] bcast_S1x1_S262144x1_0_1),
    TRef.binary main_call18.v5 main_call18.v9 main_call18.v10 (cmpi .sle),
    TRef.binary main_call18.v7 main_call18.v10 main_call18.v11 andi,
    TRef.nullary main_call18.c_3 (constantI S_ 1 1#1),
    TRef.binary main_call18.v11 main_call18.c_3 main_call18.v12 (fun x v => Host.reduce IntOp.andi x v reducesTo_S262144x1_S262144_d1 h_S_),
    TRef.binary (.of main_v238) main_call18.v5 main_call18.v13 (fun x i => Host.gather gather_S512x128_S262144x1_S262144x128_1_0_n_n_0_1_1128 x i),
    TRef.unary main_call18.v12 main_call18.v14 (broadcastInDim S262144x128 ![0] bcast_S262144_S262144x128_0),
    TRef.nullary main_call18.cst (constant S_ .f32 0x7FC00000#32),
    TRef.unary main_call18.cst main_call18.v15 (broadcastInDim S262144x128 ![] bcast_S_S262144x128),
    TRef.ternary main_call18.v14 main_call18.v13 main_call18.v15 main_call18.v16 select,
    unary main_v239 main_v241 (broadcastInDim S262144x128 ![0, 1] bcast_S262144x1_S262144x128_0_1 : (⟨S262144x1, .f32⟩ : BufTy).Contents (Elt F) → (⟨S262144x128, .f32⟩ : BufTy).Contents (Elt F)),
    binary main_v241 main_v240 main_v242 (mulf : (⟨S262144x128, .f32⟩ : BufTy).Contents (Elt F) → (⟨S262144x128, .f32⟩ : BufTy).Contents (Elt F) → (⟨S262144x128, .f32⟩ : BufTy).Contents (Elt F)),
    nullary main_cst_40 (constant S_ .f32 0x00000000#32),
    unary main_cst_40 main_v243 (broadcastInDim S512x128 ![] bcast_S_S512x128 : (⟨S_, .f32⟩ : BufTy).Contents (Elt F) → (⟨S512x128, .f32⟩ : BufTy).Contents (Elt F)),
    nullary main_c_41 (constantI S_ 32 0#32),
    unary main_c_41 main_v244 (broadcastInDim S262144 ![] bcast_S_S262144 : (⟨S_, .i32⟩ : BufTy).Contents (Elt F) → (⟨S262144, .i32⟩ : BufTy).Contents (Elt F)),
    binary main_v6 main_v244 main_v245 (cmpi .slt : (⟨S262144, .i32⟩ : BufTy).Contents (Elt F) → (⟨S262144, .i32⟩ : BufTy).Contents (Elt F) → (⟨S262144, .i1⟩ : BufTy).Contents (Elt F)),
    nullary main_c_42 (constantI S_ 32 512#32),
    unary main_c_42 main_v246 (broadcastInDim S262144 ![] bcast_S_S262144 : (⟨S_, .i32⟩ : BufTy).Contents (Elt F) → (⟨S262144, .i32⟩ : BufTy).Contents (Elt F)),
    binary main_v6 main_v246 main_v247 (addi : (⟨S262144, .i32⟩ : BufTy).Contents (Elt F) → (⟨S262144, .i32⟩ : BufTy).Contents (Elt F) → (⟨S262144, .i32⟩ : BufTy).Contents (Elt F)),
    ternary main_v245 main_v247 main_v6 main_v248 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v248 main_v249 (broadcastInDim S262144x1 ![0] bcast_S262144_S262144x1_0 : (⟨S262144, .i32⟩ : BufTy).Contents (Elt F) → (⟨S262144x1, .i32⟩ : BufTy).Contents (Elt F)),
    ternary main_v243 main_v249 main_v242 main_v250 ((fun x i u => Host.scatterAdd scatter_S512x128_S262144x1_S262144x128_1_0_0_1 x i u) : (⟨S512x128, .f32⟩ : BufTy).Contents (Elt F) → (⟨S262144x1, .i32⟩ : BufTy).Contents (Elt F) → (⟨S262144x128, .f32⟩ : BufTy).Contents (Elt F) → (⟨S512x128, .f32⟩ : BufTy).Contents (Elt F)),
    unary main_arg5 main_v251 (broadcastInDim S1x128 ![1] bcast_S128_S1x128_1 : (⟨S128, .f32⟩ : BufTy).Contents (Elt F) → (⟨S1x128, .f32⟩ : BufTy).Contents (Elt F)),
    unary main_v251 main_v252 (broadcastInDim S512x128 ![0, 1] bcast_S1x128_S512x128_0_1 : (⟨S1x128, .f32⟩ : BufTy).Contents (Elt F) → (⟨S512x128, .f32⟩ : BufTy).Contents (Elt F)),
    binary main_v250 main_v252 main_v253 (addf : (⟨S512x128, .f32⟩ : BufTy).Contents (Elt F) → (⟨S512x128, .f32⟩ : BufTy).Contents (Elt F) → (⟨S512x128, .f32⟩ : BufTy).Contents (Elt F)),
    binary main_v253 main_v237 main_v254 (addf : (⟨S512x128, .f32⟩ : BufTy).Contents (Elt F) → (⟨S512x128, .f32⟩ : BufTy).Contents (Elt F) → (⟨S512x128, .f32⟩ : BufTy).Contents (Elt F)) ]

set_option maxRecDepth 16384 in
/-- The printed window is that straight line. -/
theorem part4_eq (d : Dev nD) : main_part4 (F := F) d = seq opsP4 := by
  simp only [main_part4, fn_take.body, fn_where.body, fn_var.body, fn_where_0.body, fn_relu.body, seq, bind_assoc, pure_bind]
  rfl

theorem opsP4_sub : (opsP4 : List (HloOp τ sig (Elt F))).Forall fun op => op.bufs ⊆ tcRefs τ sig :=
  ⟨unary_bufs_sub .., binary_bufs_sub .., nullary_bufs_sub .., unary_bufs_sub .., binary_bufs_sub .., ternary_bufs_sub .., unary_bufs_sub .., ternary_bufs_sub .., unary_bufs_sub .., unary_bufs_sub .., binary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., reshape_bufs_sub .., unary_bufs_sub .., reshape_bufs_sub .., binary_bufs_sub .., unary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., unary_bufs_sub .., unary_bufs_sub .., binary_bufs_sub .., binary_bufs_sub ..⟩

theorem opsP4_fresh : (opsP4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

end Cert.ReferenceIdeal.Ops

end
-- ==== Proof.RefOps.P5.lean ====
import proofs.«175100_g37074157699472_cont_sun_c4_777_8_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-- @main's statements 301 to 360, the called functions' operations written out at the calls: 128 operations. -/
abbrev opsP5 : List (HloOp τ sig (Elt F)) :=
  [ nullary main_cst_43 (constant S_ .f32 0x00000000#32),
    binary main_v254 main_cst_43 main_v255 ((fun x v => Host.reduceAdd x v reducesTo_S512x128_S512_d1 h_S_) : (⟨S512x128, .f32⟩ : BufTy).Contents (Elt F) → (⟨S_, .f32⟩ : BufTy).Contents (Elt F) → (⟨S512, .f32⟩ : BufTy).Contents (Elt F)),
    unary main_v255 main_v256 (broadcastInDim S512x1 ![0] bcast_S512_S512x1_0 : (⟨S512, .f32⟩ : BufTy).Contents (Elt F) → (⟨S512x1, .f32⟩ : BufTy).Contents (Elt F)),
    nullary main_cst_44 (constant S_ .f32 0x43000000#32),
    unary main_cst_44 main_v257 (broadcastInDim S512x1 ![] bcast_S_S512x1 : (⟨S_, .f32⟩ : BufTy).Contents (Elt F) → (⟨S512x1, .f32⟩ : BufTy).Contents (Elt F)),
    binary main_v256 main_v257 main_v258 (Host.divf : (⟨S512x1, .f32⟩ : BufTy).Contents (Elt F) → (⟨S512x1, .f32⟩ : BufTy).Contents (Elt F) → (⟨S512x1, .f32⟩ : BufTy).Contents (Elt F)),
    nullary main_c_45 (constantI S_ 32 0#32),
    TRef.nullary main_call19.cst (constant S_ .f32 0x00000000#32),
    TRef.binary (.of main_v254) main_call19.cst main_call19.v0 (fun x v => Host.reduceAdd x v reducesTo_S512x128_S512_d1 h_S_),
    TRef.unary main_call19.v0 main_call19.v1 (broadcastInDim S512x1 ![0] bcast_S512_S512x1_0),
    TRef.nullary main_call19.cst_0 (constant S_ .f32 0x43000000#32),
    TRef.unary main_call19.cst_0 main_call19.v2 (broadcastInDim S512x1 ![] bcast_S_S512x1),
    TRef.binary main_call19.v1 main_call19.v2 main_call19.v3 Host.divf,
    TRef.unary main_call19.v3 main_call19.v4 (broadcastInDim S512x128 ![0, 1] bcast_S512x1_S512x128_0_1),
    TRef.binary (.of main_v254) main_call19.v4 main_call19.v5 subf,
    TRef.binary main_call19.v5 main_call19.v5 main_call19.v6 mulf,
    TRef.unary (.of main_c_45) main_call19.v7 (sitofp .f32),
    TRef.nullary main_call19.cst_1 (constant S_ .f32 0x43000000#32),
    TRef.binary main_call19.cst_1 main_call19.v7 main_call19.v8 subf,
    TRef.nullary main_call19.cst_2 (constant S_ .f32 0x00000000#32),
    TRef.binary main_call19.v6 main_call19.cst_2 main_call19.v9 (fun x v => Host.reduceAdd x v reducesTo_S512x128_S512_d1 h_S_),
    TRef.unary main_call19.v9 main_call19.v10 (broadcastInDim S512x1 ![0] bcast_S512_S512x1_0),
    TRef.unary main_call19.v8 main_call19.v11 (broadcastInDim S512x1 ![] bcast_S_S512x1),
    TRef.binary main_call19.v10 main_call19.v11 main_call19.v12 Host.divf,
    TRef.nullary main_call19.cst_3 (constant S_ .f32 0x00000000#32),
    TRef.binary main_call19.v8 main_call19.cst_3 main_call19.v13 (cmpf .ogt),
    TRef.nullary main_call19.cst_4 (constant S_ .f32 0x7FC00000#32),
    TRef.unary main_call19.cst_4 main_call19.call0.v0 id,
    TRef.unary main_call19.call0.v0 main_call19.call0.v1 (broadcastInDim S512x1 ![] bcast_S_S512x1),
    TRef.ternary main_call19.v13 main_call19.v12 main_call19.call0.v1 main_call19.call0.v2 (fun p a b => select (broadcastInDim S512x1 ![] bcast_S_S512x1 p) a b),
    unary main_v258 main_v260 (broadcastInDim S512x128 ![0, 1] bcast_S512x1_S512x128_0_1 : (⟨S512x1, .f32⟩ : BufTy).Contents (Elt F) → (⟨S512x128, .f32⟩ : BufTy).Contents (Elt F)),
    binary main_v254 main_v260 main_v261 (subf : (⟨S512x128, .f32⟩ : BufTy).Contents (Elt F) → (⟨S512x128, .f32⟩ : BufTy).Contents (Elt F) → (⟨S512x128, .f32⟩ : BufTy).Contents (Elt F)),
    nullary main_cst_46 (constant S_ .f32 0x3727C5AC#32),
    unary main_cst_46 main_v262 (broadcastInDim S512x1 ![] bcast_S_S512x1 : (⟨S_, .f32⟩ : BufTy).Contents (Elt F) → (⟨S512x1, .f32⟩ : BufTy).Contents (Elt F)),
    binary main_v259 main_v262 main_v263 (addf : (⟨S512x1, .f32⟩ : BufTy).Contents (Elt F) → (⟨S512x1, .f32⟩ : BufTy).Contents (Elt F) → (⟨S512x1, .f32⟩ : BufTy).Contents (Elt F)),
    unary main_v263 main_v264 (Host.sqrt : (⟨S512x1, .f32⟩ : BufTy).Contents (Elt F) → (⟨S512x1, .f32⟩ : BufTy).Contents (Elt F)),
    unary main_v264 main_v265 (broadcastInDim S512x128 ![0, 1] bcast_S512x1_S512x128_0_1 : (⟨S512x1, .f32⟩ : BufTy).Contents (Elt F) → (⟨S512x128, .f32⟩ : BufTy).Contents (Elt F)),
    binary main_v261 main_v265 main_v266 (Host.divf : (⟨S512x128, .f32⟩ : BufTy).Contents (Elt F) → (⟨S512x128, .f32⟩ : BufTy).Contents (Elt F) → (⟨S512x128, .f32⟩ : BufTy).Contents (Elt F)),
    unary main_arg8 main_v267 (broadcastInDim S1x128 ![1] bcast_S128_S1x128_1 : (⟨S128, .f32⟩ : BufTy).Contents (Elt F) → (⟨S1x128, .f32⟩ : BufTy).Contents (Elt F)),
    unary main_v267 main_v268 (broadcastInDim S512x128 ![0, 1] bcast_S1x128_S512x128_0_1 : (⟨S1x128, .f32⟩ : BufTy).Contents (Elt F) → (⟨S512x128, .f32⟩ : BufTy).Contents (Elt F)),
    binary main_v266 main_v268 main_v269 (mulf : (⟨S512x128, .f32⟩ : BufTy).Contents (Elt F) → (⟨S512x128, .f32⟩ : BufTy).Contents (Elt F) → (⟨S512x128, .f32⟩ : BufTy).Contents (Elt F)),
    unary main_arg11 main_v270 (broadcastInDim S1x128 ![1] bcast_S128_S1x128_1 : (⟨S128, .f32⟩ : BufTy).Contents (Elt F) → (⟨S1x128, .f32⟩ : BufTy).Contents (Elt F)),
    unary main_v270 main_v271 (broadcastInDim S512x128 ![0, 1] bcast_S1x128_S512x128_0_1 : (⟨S1x128, .f32⟩ : BufTy).Contents (Elt F) → (⟨S512x128, .f32⟩ : BufTy).Contents (Elt F)),
    binary main_v269 main_v271 main_v272 (addf : (⟨S512x128, .f32⟩ : BufTy).Contents (Elt F) → (⟨S512x128, .f32⟩ : BufTy).Contents (Elt F) → (⟨S512x128, .f32⟩ : BufTy).Contents (Elt F)),
    TRef.nullary main_call20.cst (constant S_ .f32 0x00000000#32),
    TRef.unary main_call20.cst main_call20.v0 (broadcastInDim S512x128 ![] bcast_S_S512x128),
    TRef.binary (.of main_v272) main_call20.v0 main_call20.v1 maximumf,
    binary main_v273 main_arg3 main_v274 ((fun l r => Host.dotGeneral dot_S512x128_S128x128_S512x128_1_0_0_1_n_n none l r) : (⟨S512x128, .f32⟩ : BufTy).Contents (Elt F) → (⟨S128x128, .f32⟩ : BufTy).Contents (Elt F) → (⟨S512x128, .f32⟩ : BufTy).Contents (Elt F)),
    unary main_v235 main_v275 (broadcastInDim S262144x1 ![0] bcast_S262144_S262144x1_0 : (⟨S262144, .f32⟩ : BufTy).Contents (Elt F) → (⟨S262144x1, .f32⟩ : BufTy).Contents (Elt F)),
    TRef.nullary main_call21.c (constantI S_ 32 0#32),
    TRef.unary main_call21.c main_call21.v0 (broadcastInDim S262144 ![] bcast_S_S262144),
    TRef.binary (.of main_v2) main_call21.v0 main_call21.v1 (cmpi .slt),
    TRef.nullary main_call21.c_0 (constantI S_ 32 512#32),
    TRef.unary main_call21.c_0 main_call21.v2 (broadcastInDim S262144 ![] bcast_S_S262144),
    TRef.binary (.of main_v2) main_call21.v2 main_call21.v3 addi,
    TRef.ternary main_call21.v1 main_call21.v3 (.of main_v2) main_call21.call0.v0 select,
    TRef.unary main_call21.call0.v0 main_call21.v5 (broadcastInDim S262144x1 ![0] bcast_S262144_S262144x1_0),
    TRef.nullary main_call21.c_1 (constantI S1 32 511#32),
    TRef.nullary main_call21.c_2 (constantI S_ 32 0#32),
    TRef.unary main_call21.c_2 main_call21.v6 (broadcastInDim S262144x1 ![] bcast_S_S262144x1),
    TRef.binary main_call21.v5 main_call21.v6 main_call21.v7 (cmpi .sge),
    TRef.unary main_call21.c_1 main_call21.v8 (broadcastInDim S1x1 ![1] bcast_S1_S1x1_1),
    TRef.unary main_call21.v8 main_call21.v9 (broadcastInDim S262144x1 ![0, 1] bcast_S1x1_S262144x1_0_1),
    TRef.binary main_call21.v5 main_call21.v9 main_call21.v10 (cmpi .sle),
    TRef.binary main_call21.v7 main_call21.v10 main_call21.v11 andi,
    TRef.nullary main_call21.c_3 (constantI S_ 1 1#1),
    TRef.binary main_call21.v11 main_call21.c_3 main_call21.v12 (fun x v => Host.reduce IntOp.andi x v reducesTo_S262144x1_S262144_d1 h_S_),
    TRef.binary (.of main_v274) main_call21.v5 main_call21.v13 (fun x i => Host.gather gather_S512x128_S262144x1_S262144x128_1_0_n_n_0_1_1128 x i),
    TRef.unary main_call21.v12 main_call21.v14 (broadcastInDim S262144x128 ![0] bcast_S262144_S262144x128_0),
    TRef.nullary main_call21.cst (constant S_ .f32 0x7FC00000#32),
    TRef.unary main_call21.cst main_call21.v15 (broadcastInDim S262144x128 ![] bcast_S_S262144x128),
    TRef.ternary main_call21.v14 main_call21.v13 main_call21.v15 main_call21.v16 select,
    unary main_v275 main_v277 (broadcastInDim S262144x128 ![0, 1] bcast_S262144x1_S262144x128_0_1 : (⟨S262144x1, .f32⟩ : BufTy).Contents (Elt F) → (⟨S262144x128, .f32⟩ : BufTy).Contents (Elt F)),
    binary main_v277 main_v276 main_v278 (mulf : (⟨S262144x128, .f32⟩ : BufTy).Contents (Elt F) → (⟨S262144x128, .f32⟩ : BufTy).Contents (Elt F) → (⟨S262144x128, .f32⟩ : BufTy).Contents (Elt F)),
    nullary main_cst_47 (constant S_ .f32 0x00000000#32),
    unary main_cst_47 main_v279 (broadcastInDim S512x128 ![] bcast_S_S512x128 : (⟨S_, .f32⟩ : BufTy).Contents (Elt F) → (⟨S512x128, .f32⟩ : BufTy).Contents (Elt F)),
    nullary main_c_48 (constantI S_ 32 0#32),
    unary main_c_48 main_v280 (broadcastInDim S262144 ![] bcast_S_S262144 : (⟨S_, .i32⟩ : BufTy).Contents (Elt F) → (⟨S262144, .i32⟩ : BufTy).Contents (Elt F)),
    binary main_v6 main_v280 main_v281 (cmpi .slt : (⟨S262144, .i32⟩ : BufTy).Contents (Elt F) → (⟨S262144, .i32⟩ : BufTy).Contents (Elt F) → (⟨S262144, .i1⟩ : BufTy).Contents (Elt F)),
    nullary main_c_49 (constantI S_ 32 512#32),
    unary main_c_49 main_v282 (broadcastInDim S262144 ![] bcast_S_S262144 : (⟨S_, .i32⟩ : BufTy).Contents (Elt F) → (⟨S262144, .i32⟩ : BufTy).Contents (Elt F)),
    binary main_v6 main_v282 main_v283 (addi : (⟨S262144, .i32⟩ : BufTy).Contents (Elt F) → (⟨S262144, .i32⟩ : BufTy).Contents (Elt F) → (⟨S262144, .i32⟩ : BufTy).Contents (Elt F)),
    ternary main_v281 main_v283 main_v6 main_v284 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v284 main_v285 (broadcastInDim S262144x1 ![0] bcast_S262144_S262144x1_0 : (⟨S262144, .i32⟩ : BufTy).Contents (Elt F) → (⟨S262144x1, .i32⟩ : BufTy).Contents (Elt F)),
    ternary main_v279 main_v285 main_v278 main_v286 ((fun x i u => Host.scatterAdd scatter_S512x128_S262144x1_S262144x128_1_0_0_1 x i u) : (⟨S512x128, .f32⟩ : BufTy).Contents (Elt F) → (⟨S262144x1, .i32⟩ : BufTy).Contents (Elt F) → (⟨S262144x128, .f32⟩ : BufTy).Contents (Elt F) → (⟨S512x128, .f32⟩ : BufTy).Contents (Elt F)),
    unary main_arg6 main_v287 (broadcastInDim S1x128 ![1] bcast_S128_S1x128_1 : (⟨S128, .f32⟩ : BufTy).Contents (Elt F) → (⟨S1x128, .f32⟩ : BufTy).Contents (Elt F)),
    unary main_v287 main_v288 (broadcastInDim S512x128 ![0, 1] bcast_S1x128_S512x128_0_1 : (⟨S1x128, .f32⟩ : BufTy).Contents (Elt F) → (⟨S512x128, .f32⟩ : BufTy).Contents (Elt F)),
    binary main_v286 main_v288 main_v289 (addf : (⟨S512x128, .f32⟩ : BufTy).Contents (Elt F) → (⟨S512x128, .f32⟩ : BufTy).Contents (Elt F) → (⟨S512x128, .f32⟩ : BufTy).Contents (Elt F)),
    binary main_v289 main_v273 main_v290 (addf : (⟨S512x128, .f32⟩ : BufTy).Contents (Elt F) → (⟨S512x128, .f32⟩ : BufTy).Contents (Elt F) → (⟨S512x128, .f32⟩ : BufTy).Contents (Elt F)),
    nullary main_cst_50 (constant S_ .f32 0x00000000#32),
    binary main_v290 main_cst_50 main_v291 ((fun x v => Host.reduceAdd x v reducesTo_S512x128_S512_d1 h_S_) : (⟨S512x128, .f32⟩ : BufTy).Contents (Elt F) → (⟨S_, .f32⟩ : BufTy).Contents (Elt F) → (⟨S512, .f32⟩ : BufTy).Contents (Elt F)),
    unary main_v291 main_v292 (broadcastInDim S512x1 ![0] bcast_S512_S512x1_0 : (⟨S512, .f32⟩ : BufTy).Contents (Elt F) → (⟨S512x1, .f32⟩ : BufTy).Contents (Elt F)),
    nullary main_cst_51 (constant S_ .f32 0x43000000#32),
    unary main_cst_51 main_v293 (broadcastInDim S512x1 ![] bcast_S_S512x1 : (⟨S_, .f32⟩ : BufTy).Contents (Elt F) → (⟨S512x1, .f32⟩ : BufTy).Contents (Elt F)),
    binary main_v292 main_v293 main_v294 (Host.divf : (⟨S512x1, .f32⟩ : BufTy).Contents (Elt F) → (⟨S512x1, .f32⟩ : BufTy).Contents (Elt F) → (⟨S512x1, .f32⟩ : BufTy).Contents (Elt F)),
    nullary main_c_52 (constantI S_ 32 0#32),
    TRef.nullary main_call22.cst (constant S_ .f32 0x00000000#32),
    TRef.binary (.of main_v290) main_call22.cst main_call22.v0 (fun x v => Host.reduceAdd x v reducesTo_S512x128_S512_d1 h_S_),
    TRef.unary main_call22.v0 main_call22.v1 (broadcastInDim S512x1 ![0] bcast_S512_S512x1_0),
    TRef.nullary main_call22.cst_0 (constant S_ .f32 0x43000000#32),
    TRef.unary main_call22.cst_0 main_call22.v2 (broadcastInDim S512x1 ![] bcast_S_S512x1),
    TRef.binary main_call22.v1 main_call22.v2 main_call22.v3 Host.divf,
    TRef.unary main_call22.v3 main_call22.v4 (broadcastInDim S512x128 ![0, 1] bcast_S512x1_S512x128_0_1),
    TRef.binary (.of main_v290) main_call22.v4 main_call22.v5 subf,
    TRef.binary main_call22.v5 main_call22.v5 main_call22.v6 mulf,
    TRef.unary (.of main_c_52) main_call22.v7 (sitofp .f32),
    TRef.nullary main_call22.cst_1 (constant S_ .f32 0x43000000#32),
    TRef.binary main_call22.cst_1 main_call22.v7 main_call22.v8 subf,
    TRef.nullary main_call22.cst_2 (constant S_ .f32 0x00000000#32),
    TRef.binary main_call22.v6 main_call22.cst_2 main_call22.v9 (fun x v => Host.reduceAdd x v reducesTo_S512x128_S512_d1 h_S_),
    TRef.unary main_call22.v9 main_call22.v10 (broadcastInDim S512x1 ![0] bcast_S512_S512x1_0),
    TRef.unary main_call22.v8 main_call22.v11 (broadcastInDim S512x1 ![] bcast_S_S512x1),
    TRef.binary main_call22.v10 main_call22.v11 main_call22.v12 Host.divf,
    TRef.nullary main_call22.cst_3 (constant S_ .f32 0x00000000#32),
    TRef.binary main_call22.v8 main_call22.cst_3 main_call22.v13 (cmpf .ogt),
    TRef.nullary main_call22.cst_4 (constant S_ .f32 0x7FC00000#32),
    TRef.unary main_call22.cst_4 main_call22.call0.v0 id,
    TRef.unary main_call22.call0.v0 main_call22.call0.v1 (broadcastInDim S512x1 ![] bcast_S_S512x1),
    TRef.ternary main_call22.v13 main_call22.v12 main_call22.call0.v1 main_call22.call0.v2 (fun p a b => select (broadcastInDim S512x1 ![] bcast_S_S512x1 p) a b),
    unary main_v294 main_v296 (broadcastInDim S512x128 ![0, 1] bcast_S512x1_S512x128_0_1 : (⟨S512x1, .f32⟩ : BufTy).Contents (Elt F) → (⟨S512x128, .f32⟩ : BufTy).Contents (Elt F)),
    binary main_v290 main_v296 main_v297 (subf : (⟨S512x128, .f32⟩ : BufTy).Contents (Elt F) → (⟨S512x128, .f32⟩ : BufTy).Contents (Elt F) → (⟨S512x128, .f32⟩ : BufTy).Contents (Elt F)),
    nullary main_cst_53 (constant S_ .f32 0x3727C5AC#32),
    unary main_cst_53 main_v298 (broadcastInDim S512x1 ![] bcast_S_S512x1 : (⟨S_, .f32⟩ : BufTy).Contents (Elt F) → (⟨S512x1, .f32⟩ : BufTy).Contents (Elt F)),
    binary main_v295 main_v298 main_v299 (addf : (⟨S512x1, .f32⟩ : BufTy).Contents (Elt F) → (⟨S512x1, .f32⟩ : BufTy).Contents (Elt F) → (⟨S512x1, .f32⟩ : BufTy).Contents (Elt F)),
    unary main_v299 main_v300 (Host.sqrt : (⟨S512x1, .f32⟩ : BufTy).Contents (Elt F) → (⟨S512x1, .f32⟩ : BufTy).Contents (Elt F)),
    unary main_v300 main_v301 (broadcastInDim S512x128 ![0, 1] bcast_S512x1_S512x128_0_1 : (⟨S512x1, .f32⟩ : BufTy).Contents (Elt F) → (⟨S512x128, .f32⟩ : BufTy).Contents (Elt F)),
    binary main_v297 main_v301 main_v302 (Host.divf : (⟨S512x128, .f32⟩ : BufTy).Contents (Elt F) → (⟨S512x128, .f32⟩ : BufTy).Contents (Elt F) → (⟨S512x128, .f32⟩ : BufTy).Contents (Elt F)),
    unary main_arg9 main_v303 (broadcastInDim S1x128 ![1] bcast_S128_S1x128_1 : (⟨S128, .f32⟩ : BufTy).Contents (Elt F) → (⟨S1x128, .f32⟩ : BufTy).Contents (Elt F)) ]

set_option maxRecDepth 16384 in
/-- The printed window is that straight line. -/
theorem part5_eq (d : Dev nD) : main_part5 (F := F) d = seq opsP5 := by
  simp only [main_part5, fn_take.body, fn_where.body, fn_var.body, fn_where_0.body, fn_relu.body, seq, bind_assoc, pure_bind]
  rfl

theorem opsP5_sub : (opsP5 : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., unary_bufs_sub .., unary_bufs_sub .., binary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub ..⟩

theorem opsP5_fresh : (opsP5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

end Cert.ReferenceIdeal.Ops

end
-- ==== Proof.RefOps.P6.lean ====
import proofs.«175100_g37074157699472_cont_sun_c4_777_8_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-- @main's statements 361 to 420, the called functions' operations written out at the calls: 130 operations. -/
abbrev opsP6 : List (HloOp τ sig (Elt F)) :=
  [ unary main_v303 main_v304 (broadcastInDim S512x128 ![0, 1] bcast_S1x128_S512x128_0_1 : (⟨S1x128, .f32⟩ : BufTy).Contents (Elt F) → (⟨S512x128, .f32⟩ : BufTy).Contents (Elt F)),
    binary main_v302 main_v304 main_v305 (mulf : (⟨S512x128, .f32⟩ : BufTy).Contents (Elt F) → (⟨S512x128, .f32⟩ : BufTy).Contents (Elt F) → (⟨S512x128, .f32⟩ : BufTy).Contents (Elt F)),
    unary main_arg12 main_v306 (broadcastInDim S1x128 ![1] bcast_S128_S1x128_1 : (⟨S128, .f32⟩ : BufTy).Contents (Elt F) → (⟨S1x128, .f32⟩ : BufTy).Contents (Elt F)),
    unary main_v306 main_v307 (broadcastInDim S512x128 ![0, 1] bcast_S1x128_S512x128_0_1 : (⟨S1x128, .f32⟩ : BufTy).Contents (Elt F) → (⟨S512x128, .f32⟩ : BufTy).Contents (Elt F)),
    binary main_v305 main_v307 main_v308 (addf : (⟨S512x128, .f32⟩ : BufTy).Contents (Elt F) → (⟨S512x128, .f32⟩ : BufTy).Contents (Elt F) → (⟨S512x128, .f32⟩ : BufTy).Contents (Elt F)),
    TRef.nullary main_call23.cst (constant S_ .f32 0x00000000#32),
    TRef.unary main_call23.cst main_call23.v0 (broadcastInDim S512x128 ![] bcast_S_S512x128),
    TRef.binary (.of main_v308) main_call23.v0 main_call23.v1 maximumf,
    binary main_v309 main_arg4 main_v310 ((fun l r => Host.dotGeneral dot_S512x128_S128x128_S512x128_1_0_0_1_n_n none l r) : (⟨S512x128, .f32⟩ : BufTy).Contents (Elt F) → (⟨S128x128, .f32⟩ : BufTy).Contents (Elt F) → (⟨S512x128, .f32⟩ : BufTy).Contents (Elt F)),
    unary main_v235 main_v311 (broadcastInDim S262144x1 ![0] bcast_S262144_S262144x1_0 : (⟨S262144, .f32⟩ : BufTy).Contents (Elt F) → (⟨S262144x1, .f32⟩ : BufTy).Contents (Elt F)),
    TRef.nullary main_call24.c (constantI S_ 32 0#32),
    TRef.unary main_call24.c main_call24.v0 (broadcastInDim S262144 ![] bcast_S_S262144),
    TRef.binary (.of main_v2) main_call24.v0 main_call24.v1 (cmpi .slt),
    TRef.nullary main_call24.c_0 (constantI S_ 32 512#32),
    TRef.unary main_call24.c_0 main_call24.v2 (broadcastInDim S262144 ![] bcast_S_S262144),
    TRef.binary (.of main_v2) main_call24.v2 main_call24.v3 addi,
    TRef.ternary main_call24.v1 main_call24.v3 (.of main_v2) main_call24.call0.v0 select,
    TRef.unary main_call24.call0.v0 main_call24.v5 (broadcastInDim S262144x1 ![0] bcast_S262144_S262144x1_0),
    TRef.nullary main_call24.c_1 (constantI S1 32 511#32),
    TRef.nullary main_call24.c_2 (constantI S_ 32 0#32),
    TRef.unary main_call24.c_2 main_call24.v6 (broadcastInDim S262144x1 ![] bcast_S_S262144x1),
    TRef.binary main_call24.v5 main_call24.v6 main_call24.v7 (cmpi .sge),
    TRef.unary main_call24.c_1 main_call24.v8 (broadcastInDim S1x1 ![1] bcast_S1_S1x1_1),
    TRef.unary main_call24.v8 main_call24.v9 (broadcastInDim S262144x1 ![0, 1] bcast_S1x1_S262144x1_0_1),
    TRef.binary main_call24.v5 main_call24.v9 main_call24.v10 (cmpi .sle),
    TRef.binary main_call24.v7 main_call24.v10 main_call24.v11 andi,
    TRef.nullary main_call24.c_3 (constantI S_ 1 1#1),
    TRef.binary main_call24.v11 main_call24.c_3 main_call24.v12 (fun x v => Host.reduce IntOp.andi x v reducesTo_S262144x1_S262144_d1 h_S_),
    TRef.binary (.of main_v310) main_call24.v5 main_call24.v13 (fun x i => Host.gather gather_S512x128_S262144x1_S262144x128_1_0_n_n_0_1_1128 x i),
    TRef.unary main_call24.v12 main_call24.v14 (broadcastInDim S262144x128 ![0] bcast_S262144_S262144x128_0),
    TRef.nullary main_call24.cst (constant S_ .f32 0x7FC00000#32),
    TRef.unary main_call24.cst main_call24.v15 (broadcastInDim S262144x128 ![] bcast_S_S262144x128),
    TRef.ternary main_call24.v14 main_call24.v13 main_call24.v15 main_call24.v16 select,
    unary main_v311 main_v313 (broadcastInDim S262144x128 ![0, 1] bcast_S262144x1_S262144x128_0_1 : (⟨S262144x1, .f32⟩ : BufTy).Contents (Elt F) → (⟨S262144x128, .f32⟩ : BufTy).Contents (Elt F)),
    binary main_v313 main_v312 main_v314 (mulf : (⟨S262144x128, .f32⟩ : BufTy).Contents (Elt F) → (⟨S262144x128, .f32⟩ : BufTy).Contents (Elt F) → (⟨S262144x128, .f32⟩ : BufTy).Contents (Elt F)),
    nullary main_cst_54 (constant S_ .f32 0x00000000#32),
    unary main_cst_54 main_v315 (broadcastInDim S512x128 ![] bcast_S_S512x128 : (⟨S_, .f32⟩ : BufTy).Contents (Elt F) → (⟨S512x128, .f32⟩ : BufTy).Contents (Elt F)),
    nullary main_c_55 (constantI S_ 32 0#32),
    unary main_c_55 main_v316 (broadcastInDim S262144 ![] bcast_S_S262144 : (⟨S_, .i32⟩ : BufTy).Contents (Elt F) → (⟨S262144, .i32⟩ : BufTy).Contents (Elt F)),
    binary main_v6 main_v316 main_v317 (cmpi .slt : (⟨S262144, .i32⟩ : BufTy).Contents (Elt F) → (⟨S262144, .i32⟩ : BufTy).Contents (Elt F) → (⟨S262144, .i1⟩ : BufTy).Contents (Elt F)),
    nullary main_c_56 (constantI S_ 32 512#32),
    unary main_c_56 main_v318 (broadcastInDim S262144 ![] bcast_S_S262144 : (⟨S_, .i32⟩ : BufTy).Contents (Elt F) → (⟨S262144, .i32⟩ : BufTy).Contents (Elt F)),
    binary main_v6 main_v318 main_v319 (addi : (⟨S262144, .i32⟩ : BufTy).Contents (Elt F) → (⟨S262144, .i32⟩ : BufTy).Contents (Elt F) → (⟨S262144, .i32⟩ : BufTy).Contents (Elt F)),
    ternary main_v317 main_v319 main_v6 main_v320 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v320 main_v321 (broadcastInDim S262144x1 ![0] bcast_S262144_S262144x1_0 : (⟨S262144, .i32⟩ : BufTy).Contents (Elt F) → (⟨S262144x1, .i32⟩ : BufTy).Contents (Elt F)),
    ternary main_v315 main_v321 main_v314 main_v322 ((fun x i u => Host.scatterAdd scatter_S512x128_S262144x1_S262144x128_1_0_0_1 x i u) : (⟨S512x128, .f32⟩ : BufTy).Contents (Elt F) → (⟨S262144x1, .i32⟩ : BufTy).Contents (Elt F) → (⟨S262144x128, .f32⟩ : BufTy).Contents (Elt F) → (⟨S512x128, .f32⟩ : BufTy).Contents (Elt F)),
    unary main_arg7 main_v323 (broadcastInDim S1x128 ![1] bcast_S128_S1x128_1 : (⟨S128, .f32⟩ : BufTy).Contents (Elt F) → (⟨S1x128, .f32⟩ : BufTy).Contents (Elt F)),
    unary main_v323 main_v324 (broadcastInDim S512x128 ![0, 1] bcast_S1x128_S512x128_0_1 : (⟨S1x128, .f32⟩ : BufTy).Contents (Elt F) → (⟨S512x128, .f32⟩ : BufTy).Contents (Elt F)),
    binary main_v322 main_v324 main_v325 (addf : (⟨S512x128, .f32⟩ : BufTy).Contents (Elt F) → (⟨S512x128, .f32⟩ : BufTy).Contents (Elt F) → (⟨S512x128, .f32⟩ : BufTy).Contents (Elt F)),
    binary main_v325 main_v309 main_v326 (addf : (⟨S512x128, .f32⟩ : BufTy).Contents (Elt F) → (⟨S512x128, .f32⟩ : BufTy).Contents (Elt F) → (⟨S512x128, .f32⟩ : BufTy).Contents (Elt F)),
    nullary main_cst_57 (constant S_ .f32 0x00000000#32),
    binary main_v326 main_cst_57 main_v327 ((fun x v => Host.reduceAdd x v reducesTo_S512x128_S512_d1 h_S_) : (⟨S512x128, .f32⟩ : BufTy).Contents (Elt F) → (⟨S_, .f32⟩ : BufTy).Contents (Elt F) → (⟨S512, .f32⟩ : BufTy).Contents (Elt F)),
    unary main_v327 main_v328 (broadcastInDim S512x1 ![0] bcast_S512_S512x1_0 : (⟨S512, .f32⟩ : BufTy).Contents (Elt F) → (⟨S512x1, .f32⟩ : BufTy).Contents (Elt F)),
    nullary main_cst_58 (constant S_ .f32 0x43000000#32),
    unary main_cst_58 main_v329 (broadcastInDim S512x1 ![] bcast_S_S512x1 : (⟨S_, .f32⟩ : BufTy).Contents (Elt F) → (⟨S512x1, .f32⟩ : BufTy).Contents (Elt F)),
    binary main_v328 main_v329 main_v330 (Host.divf : (⟨S512x1, .f32⟩ : BufTy).Contents (Elt F) → (⟨S512x1, .f32⟩ : BufTy).Contents (Elt F) → (⟨S512x1, .f32⟩ : BufTy).Contents (Elt F)),
    nullary main_c_59 (constantI S_ 32 0#32),
    TRef.nullary main_call25.cst (constant S_ .f32 0x00000000#32),
    TRef.binary (.of main_v326) main_call25.cst main_call25.v0 (fun x v => Host.reduceAdd x v reducesTo_S512x128_S512_d1 h_S_),
    TRef.unary main_call25.v0 main_call25.v1 (broadcastInDim S512x1 ![0] bcast_S512_S512x1_0),
    TRef.nullary main_call25.cst_0 (constant S_ .f32 0x43000000#32),
    TRef.unary main_call25.cst_0 main_call25.v2 (broadcastInDim S512x1 ![] bcast_S_S512x1),
    TRef.binary main_call25.v1 main_call25.v2 main_call25.v3 Host.divf,
    TRef.unary main_call25.v3 main_call25.v4 (broadcastInDim S512x128 ![0, 1] bcast_S512x1_S512x128_0_1),
    TRef.binary (.of main_v326) main_call25.v4 main_call25.v5 subf,
    TRef.binary main_call25.v5 main_call25.v5 main_call25.v6 mulf,
    TRef.unary (.of main_c_59) main_call25.v7 (sitofp .f32),
    TRef.nullary main_call25.cst_1 (constant S_ .f32 0x43000000#32),
    TRef.binary main_call25.cst_1 main_call25.v7 main_call25.v8 subf,
    TRef.nullary main_call25.cst_2 (constant S_ .f32 0x00000000#32),
    TRef.binary main_call25.v6 main_call25.cst_2 main_call25.v9 (fun x v => Host.reduceAdd x v reducesTo_S512x128_S512_d1 h_S_),
    TRef.unary main_call25.v9 main_call25.v10 (broadcastInDim S512x1 ![0] bcast_S512_S512x1_0),
    TRef.unary main_call25.v8 main_call25.v11 (broadcastInDim S512x1 ![] bcast_S_S512x1),
    TRef.binary main_call25.v10 main_call25.v11 main_call25.v12 Host.divf,
    TRef.nullary main_call25.cst_3 (constant S_ .f32 0x00000000#32),
    TRef.binary main_call25.v8 main_call25.cst_3 main_call25.v13 (cmpf .ogt),
    TRef.nullary main_call25.cst_4 (constant S_ .f32 0x7FC00000#32),
    TRef.unary main_call25.cst_4 main_call25.call0.v0 id,
    TRef.unary main_call25.call0.v0 main_call25.call0.v1 (broadcastInDim S512x1 ![] bcast_S_S512x1),
    TRef.ternary main_call25.v13 main_call25.v12 main_call25.call0.v1 main_call25.call0.v2 (fun p a b => select (broadcastInDim S512x1 ![] bcast_S_S512x1 p) a b),
    unary main_v330 main_v332 (broadcastInDim S512x128 ![0, 1] bcast_S512x1_S512x128_0_1 : (⟨S512x1, .f32⟩ : BufTy).Contents (Elt F) → (⟨S512x128, .f32⟩ : BufTy).Contents (Elt F)),
    binary main_v326 main_v332 main_v333 (subf : (⟨S512x128, .f32⟩ : BufTy).Contents (Elt F) → (⟨S512x128, .f32⟩ : BufTy).Contents (Elt F) → (⟨S512x128, .f32⟩ : BufTy).Contents (Elt F)),
    nullary main_cst_60 (constant S_ .f32 0x3727C5AC#32),
    unary main_cst_60 main_v334 (broadcastInDim S512x1 ![] bcast_S_S512x1 : (⟨S_, .f32⟩ : BufTy).Contents (Elt F) → (⟨S512x1, .f32⟩ : BufTy).Contents (Elt F)),
    binary main_v331 main_v334 main_v335 (addf : (⟨S512x1, .f32⟩ : BufTy).Contents (Elt F) → (⟨S512x1, .f32⟩ : BufTy).Contents (Elt F) → (⟨S512x1, .f32⟩ : BufTy).Contents (Elt F)),
    unary main_v335 main_v336 (Host.sqrt : (⟨S512x1, .f32⟩ : BufTy).Contents (Elt F) → (⟨S512x1, .f32⟩ : BufTy).Contents (Elt F)),
    unary main_v336 main_v337 (broadcastInDim S512x128 ![0, 1] bcast_S512x1_S512x128_0_1 : (⟨S512x1, .f32⟩ : BufTy).Contents (Elt F) → (⟨S512x128, .f32⟩ : BufTy).Contents (Elt F)),
    binary main_v333 main_v337 main_v338 (Host.divf : (⟨S512x128, .f32⟩ : BufTy).Contents (Elt F) → (⟨S512x128, .f32⟩ : BufTy).Contents (Elt F) → (⟨S512x128, .f32⟩ : BufTy).Contents (Elt F)),
    unary main_arg10 main_v339 (broadcastInDim S1x128 ![1] bcast_S128_S1x128_1 : (⟨S128, .f32⟩ : BufTy).Contents (Elt F) → (⟨S1x128, .f32⟩ : BufTy).Contents (Elt F)),
    unary main_v339 main_v340 (broadcastInDim S512x128 ![0, 1] bcast_S1x128_S512x128_0_1 : (⟨S1x128, .f32⟩ : BufTy).Contents (Elt F) → (⟨S512x128, .f32⟩ : BufTy).Contents (Elt F)),
    binary main_v338 main_v340 main_v341 (mulf : (⟨S512x128, .f32⟩ : BufTy).Contents (Elt F) → (⟨S512x128, .f32⟩ : BufTy).Contents (Elt F) → (⟨S512x128, .f32⟩ : BufTy).Contents (Elt F)),
    unary main_arg13 main_v342 (broadcastInDim S1x128 ![1] bcast_S128_S1x128_1 : (⟨S128, .f32⟩ : BufTy).Contents (Elt F) → (⟨S1x128, .f32⟩ : BufTy).Contents (Elt F)),
    unary main_v342 main_v343 (broadcastInDim S512x128 ![0, 1] bcast_S1x128_S512x128_0_1 : (⟨S1x128, .f32⟩ : BufTy).Contents (Elt F) → (⟨S512x128, .f32⟩ : BufTy).Contents (Elt F)),
    binary main_v341 main_v343 main_v344 (addf : (⟨S512x128, .f32⟩ : BufTy).Contents (Elt F) → (⟨S512x128, .f32⟩ : BufTy).Contents (Elt F) → (⟨S512x128, .f32⟩ : BufTy).Contents (Elt F)),
    TRef.nullary main_call26.cst (constant S_ .f32 0x00000000#32),
    TRef.unary main_call26.cst main_call26.v0 (broadcastInDim S512x128 ![] bcast_S_S512x128),
    TRef.binary (.of main_v344) main_call26.v0 main_call26.v1 maximumf,
    unary main_arg1 main_v346 ((extractStridedSlice S1x512x512 ![3, 0, 0] · slices_S4x512x512_S1x512x512_3_0_0) : (⟨S4x512x512, .f32⟩ : BufTy).Contents (Elt F) → (⟨S1x512x512, .f32⟩ : BufTy).Contents (Elt F)),
    reshape main_v346 main_v347 rfl shapeCasts_S1x512x512_S512x512,
    reshape main_v347 main_v348 rfl shapeCasts_S512x512_S262144,
    unary main_arg0 main_v349 ((extractStridedSlice S1x512x128 ![3, 0, 0] · slices_S4x512x128_S1x512x128_3_0_0) : (⟨S4x512x128, .f32⟩ : BufTy).Contents (Elt F) → (⟨S1x512x128, .f32⟩ : BufTy).Contents (Elt F)),
    reshape main_v349 main_v350 rfl shapeCasts_S1x512x128_S512x128,
    binary main_v350 main_arg2 main_v351 ((fun l r => Host.dotGeneral dot_S512x128_S128x128_S512x128_1_0_0_1_n_n none l r) : (⟨S512x128, .f32⟩ : BufTy).Contents (Elt F) → (⟨S128x128, .f32⟩ : BufTy).Contents (Elt F) → (⟨S512x128, .f32⟩ : BufTy).Contents (Elt F)),
    unary main_v348 main_v352 (broadcastInDim S262144x1 ![0] bcast_S262144_S262144x1_0 : (⟨S262144, .f32⟩ : BufTy).Contents (Elt F) → (⟨S262144x1, .f32⟩ : BufTy).Contents (Elt F)),
    TRef.nullary main_call27.c (constantI S_ 32 0#32),
    TRef.unary main_call27.c main_call27.v0 (broadcastInDim S262144 ![] bcast_S_S262144),
    TRef.binary (.of main_v2) main_call27.v0 main_call27.v1 (cmpi .slt),
    TRef.nullary main_call27.c_0 (constantI S_ 32 512#32),
    TRef.unary main_call27.c_0 main_call27.v2 (broadcastInDim S262144 ![] bcast_S_S262144),
    TRef.binary (.of main_v2) main_call27.v2 main_call27.v3 addi,
    TRef.ternary main_call27.v1 main_call27.v3 (.of main_v2) main_call27.call0.v0 select,
    TRef.unary main_call27.call0.v0 main_call27.v5 (broadcastInDim S262144x1 ![0] bcast_S262144_S262144x1_0),
    TRef.nullary main_call27.c_1 (constantI S1 32 511#32),
    TRef.nullary main_call27.c_2 (constantI S_ 32 0#32),
    TRef.unary main_call27.c_2 main_call27.v6 (broadcastInDim S262144x1 ![] bcast_S_S262144x1),
    TRef.binary main_call27.v5 main_call27.v6 main_call27.v7 (cmpi .sge),
    TRef.unary main_call27.c_1 main_call27.v8 (broadcastInDim S1x1 ![1] bcast_S1_S1x1_1),
    TRef.unary main_call27.v8 main_call27.v9 (broadcastInDim S262144x1 ![0, 1] bcast_S1x1_S262144x1_0_1),
    TRef.binary main_call27.v5 main_call27.v9 main_call27.v10 (cmpi .sle),
    TRef.binary main_call27.v7 main_call27.v10 main_call27.v11 andi,
    TRef.nullary main_call27.c_3 (constantI S_ 1 1#1),
    TRef.binary main_call27.v11 main_call27.c_3 main_call27.v12 (fun x v => Host.reduce IntOp.andi x v reducesTo_S262144x1_S262144_d1 h_S_),
    TRef.binary (.of main_v351) main_call27.v5 main_call27.v13 (fun x i => Host.gather gather_S512x128_S262144x1_S262144x128_1_0_n_n_0_1_1128 x i),
    TRef.unary main_call27.v12 main_call27.v14 (broadcastInDim S262144x128 ![0] bcast_S262144_S262144x128_0),
    TRef.nullary main_call27.cst (constant S_ .f32 0x7FC00000#32),
    TRef.unary main_call27.cst main_call27.v15 (broadcastInDim S262144x128 ![] bcast_S_S262144x128),
    TRef.ternary main_call27.v14 main_call27.v13 main_call27.v15 main_call27.v16 select,
    unary main_v352 main_v354 (broadcastInDim S262144x128 ![0, 1] bcast_S262144x1_S262144x128_0_1 : (⟨S262144x1, .f32⟩ : BufTy).Contents (Elt F) → (⟨S262144x128, .f32⟩ : BufTy).Contents (Elt F)),
    binary main_v354 main_v353 main_v355 (mulf : (⟨S262144x128, .f32⟩ : BufTy).Contents (Elt F) → (⟨S262144x128, .f32⟩ : BufTy).Contents (Elt F) → (⟨S262144x128, .f32⟩ : BufTy).Contents (Elt F)),
    nullary main_cst_61 (constant S_ .f32 0x00000000#32) ]

set_option maxRecDepth 16384 in
/-- The printed window is that straight line. -/
theorem part6_eq (d : Dev nD) : main_part6 (F := F) d = seq opsP6 := by
  simp only [main_part6, fn_take.body, fn_where.body, fn_var.body, fn_where_0.body, fn_relu.body, seq, bind_assoc, pure_bind]
  rfl

theorem opsP6_sub : (opsP6 : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., unary_bufs_sub .., unary_bufs_sub .., binary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., reshape_bufs_sub .., unary_bufs_sub .., reshape_bufs_sub .., binary_bufs_sub .., unary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., binary_bufs_sub .., nullary_bufs_sub ..⟩

theorem opsP6_fresh : (opsP6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

end Cert.ReferenceIdeal.Ops

end
-- ==== Proof.RefOps.P7.lean ====
import proofs.«175100_g37074157699472_cont_sun_c4_777_8_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-- @main's statements 421 to 480, the called functions' operations written out at the calls: 106 operations. -/
abbrev opsP7 : List (HloOp τ sig (Elt F)) :=
  [ unary main_cst_61 main_v356 (broadcastInDim S512x128 ![] bcast_S_S512x128 : (⟨S_, .f32⟩ : BufTy).Contents (Elt F) → (⟨S512x128, .f32⟩ : BufTy).Contents (Elt F)),
    nullary main_c_62 (constantI S_ 32 0#32),
    unary main_c_62 main_v357 (broadcastInDim S262144 ![] bcast_S_S262144 : (⟨S_, .i32⟩ : BufTy).Contents (Elt F) → (⟨S262144, .i32⟩ : BufTy).Contents (Elt F)),
    binary main_v6 main_v357 main_v358 (cmpi .slt : (⟨S262144, .i32⟩ : BufTy).Contents (Elt F) → (⟨S262144, .i32⟩ : BufTy).Contents (Elt F) → (⟨S262144, .i1⟩ : BufTy).Contents (Elt F)),
    nullary main_c_63 (constantI S_ 32 512#32),
    unary main_c_63 main_v359 (broadcastInDim S262144 ![] bcast_S_S262144 : (⟨S_, .i32⟩ : BufTy).Contents (Elt F) → (⟨S262144, .i32⟩ : BufTy).Contents (Elt F)),
    binary main_v6 main_v359 main_v360 (addi : (⟨S262144, .i32⟩ : BufTy).Contents (Elt F) → (⟨S262144, .i32⟩ : BufTy).Contents (Elt F) → (⟨S262144, .i32⟩ : BufTy).Contents (Elt F)),
    ternary main_v358 main_v360 main_v6 main_v361 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v361 main_v362 (broadcastInDim S262144x1 ![0] bcast_S262144_S262144x1_0 : (⟨S262144, .i32⟩ : BufTy).Contents (Elt F) → (⟨S262144x1, .i32⟩ : BufTy).Contents (Elt F)),
    ternary main_v356 main_v362 main_v355 main_v363 ((fun x i u => Host.scatterAdd scatter_S512x128_S262144x1_S262144x128_1_0_0_1 x i u) : (⟨S512x128, .f32⟩ : BufTy).Contents (Elt F) → (⟨S262144x1, .i32⟩ : BufTy).Contents (Elt F) → (⟨S262144x128, .f32⟩ : BufTy).Contents (Elt F) → (⟨S512x128, .f32⟩ : BufTy).Contents (Elt F)),
    unary main_arg5 main_v364 (broadcastInDim S1x128 ![1] bcast_S128_S1x128_1 : (⟨S128, .f32⟩ : BufTy).Contents (Elt F) → (⟨S1x128, .f32⟩ : BufTy).Contents (Elt F)),
    unary main_v364 main_v365 (broadcastInDim S512x128 ![0, 1] bcast_S1x128_S512x128_0_1 : (⟨S1x128, .f32⟩ : BufTy).Contents (Elt F) → (⟨S512x128, .f32⟩ : BufTy).Contents (Elt F)),
    binary main_v363 main_v365 main_v366 (addf : (⟨S512x128, .f32⟩ : BufTy).Contents (Elt F) → (⟨S512x128, .f32⟩ : BufTy).Contents (Elt F) → (⟨S512x128, .f32⟩ : BufTy).Contents (Elt F)),
    binary main_v366 main_v350 main_v367 (addf : (⟨S512x128, .f32⟩ : BufTy).Contents (Elt F) → (⟨S512x128, .f32⟩ : BufTy).Contents (Elt F) → (⟨S512x128, .f32⟩ : BufTy).Contents (Elt F)),
    nullary main_cst_64 (constant S_ .f32 0x00000000#32),
    binary main_v367 main_cst_64 main_v368 ((fun x v => Host.reduceAdd x v reducesTo_S512x128_S512_d1 h_S_) : (⟨S512x128, .f32⟩ : BufTy).Contents (Elt F) → (⟨S_, .f32⟩ : BufTy).Contents (Elt F) → (⟨S512, .f32⟩ : BufTy).Contents (Elt F)),
    unary main_v368 main_v369 (broadcastInDim S512x1 ![0] bcast_S512_S512x1_0 : (⟨S512, .f32⟩ : BufTy).Contents (Elt F) → (⟨S512x1, .f32⟩ : BufTy).Contents (Elt F)),
    nullary main_cst_65 (constant S_ .f32 0x43000000#32),
    unary main_cst_65 main_v370 (broadcastInDim S512x1 ![] bcast_S_S512x1 : (⟨S_, .f32⟩ : BufTy).Contents (Elt F) → (⟨S512x1, .f32⟩ : BufTy).Contents (Elt F)),
    binary main_v369 main_v370 main_v371 (Host.divf : (⟨S512x1, .f32⟩ : BufTy).Contents (Elt F) → (⟨S512x1, .f32⟩ : BufTy).Contents (Elt F) → (⟨S512x1, .f32⟩ : BufTy).Contents (Elt F)),
    nullary main_c_66 (constantI S_ 32 0#32),
    TRef.nullary main_call28.cst (constant S_ .f32 0x00000000#32),
    TRef.binary (.of main_v367) main_call28.cst main_call28.v0 (fun x v => Host.reduceAdd x v reducesTo_S512x128_S512_d1 h_S_),
    TRef.unary main_call28.v0 main_call28.v1 (broadcastInDim S512x1 ![0] bcast_S512_S512x1_0),
    TRef.nullary main_call28.cst_0 (constant S_ .f32 0x43000000#32),
    TRef.unary main_call28.cst_0 main_call28.v2 (broadcastInDim S512x1 ![] bcast_S_S512x1),
    TRef.binary main_call28.v1 main_call28.v2 main_call28.v3 Host.divf,
    TRef.unary main_call28.v3 main_call28.v4 (broadcastInDim S512x128 ![0, 1] bcast_S512x1_S512x128_0_1),
    TRef.binary (.of main_v367) main_call28.v4 main_call28.v5 subf,
    TRef.binary main_call28.v5 main_call28.v5 main_call28.v6 mulf,
    TRef.unary (.of main_c_66) main_call28.v7 (sitofp .f32),
    TRef.nullary main_call28.cst_1 (constant S_ .f32 0x43000000#32),
    TRef.binary main_call28.cst_1 main_call28.v7 main_call28.v8 subf,
    TRef.nullary main_call28.cst_2 (constant S_ .f32 0x00000000#32),
    TRef.binary main_call28.v6 main_call28.cst_2 main_call28.v9 (fun x v => Host.reduceAdd x v reducesTo_S512x128_S512_d1 h_S_),
    TRef.unary main_call28.v9 main_call28.v10 (broadcastInDim S512x1 ![0] bcast_S512_S512x1_0),
    TRef.unary main_call28.v8 main_call28.v11 (broadcastInDim S512x1 ![] bcast_S_S512x1),
    TRef.binary main_call28.v10 main_call28.v11 main_call28.v12 Host.divf,
    TRef.nullary main_call28.cst_3 (constant S_ .f32 0x00000000#32),
    TRef.binary main_call28.v8 main_call28.cst_3 main_call28.v13 (cmpf .ogt),
    TRef.nullary main_call28.cst_4 (constant S_ .f32 0x7FC00000#32),
    TRef.unary main_call28.cst_4 main_call28.call0.v0 id,
    TRef.unary main_call28.call0.v0 main_call28.call0.v1 (broadcastInDim S512x1 ![] bcast_S_S512x1),
    TRef.ternary main_call28.v13 main_call28.v12 main_call28.call0.v1 main_call28.call0.v2 (fun p a b => select (broadcastInDim S512x1 ![] bcast_S_S512x1 p) a b),
    unary main_v371 main_v373 (broadcastInDim S512x128 ![0, 1] bcast_S512x1_S512x128_0_1 : (⟨S512x1, .f32⟩ : BufTy).Contents (Elt F) → (⟨S512x128, .f32⟩ : BufTy).Contents (Elt F)),
    binary main_v367 main_v373 main_v374 (subf : (⟨S512x128, .f32⟩ : BufTy).Contents (Elt F) → (⟨S512x128, .f32⟩ : BufTy).Contents (Elt F) → (⟨S512x128, .f32⟩ : BufTy).Contents (Elt F)),
    nullary main_cst_67 (constant S_ .f32 0x3727C5AC#32),
    unary main_cst_67 main_v375 (broadcastInDim S512x1 ![] bcast_S_S512x1 : (⟨S_, .f32⟩ : BufTy).Contents (Elt F) → (⟨S512x1, .f32⟩ : BufTy).Contents (Elt F)),
    binary main_v372 main_v375 main_v376 (addf : (⟨S512x1, .f32⟩ : BufTy).Contents (Elt F) → (⟨S512x1, .f32⟩ : BufTy).Contents (Elt F) → (⟨S512x1, .f32⟩ : BufTy).Contents (Elt F)),
    unary main_v376 main_v377 (Host.sqrt : (⟨S512x1, .f32⟩ : BufTy).Contents (Elt F) → (⟨S512x1, .f32⟩ : BufTy).Contents (Elt F)),
    unary main_v377 main_v378 (broadcastInDim S512x128 ![0, 1] bcast_S512x1_S512x128_0_1 : (⟨S512x1, .f32⟩ : BufTy).Contents (Elt F) → (⟨S512x128, .f32⟩ : BufTy).Contents (Elt F)),
    binary main_v374 main_v378 main_v379 (Host.divf : (⟨S512x128, .f32⟩ : BufTy).Contents (Elt F) → (⟨S512x128, .f32⟩ : BufTy).Contents (Elt F) → (⟨S512x128, .f32⟩ : BufTy).Contents (Elt F)),
    unary main_arg8 main_v380 (broadcastInDim S1x128 ![1] bcast_S128_S1x128_1 : (⟨S128, .f32⟩ : BufTy).Contents (Elt F) → (⟨S1x128, .f32⟩ : BufTy).Contents (Elt F)),
    unary main_v380 main_v381 (broadcastInDim S512x128 ![0, 1] bcast_S1x128_S512x128_0_1 : (⟨S1x128, .f32⟩ : BufTy).Contents (Elt F) → (⟨S512x128, .f32⟩ : BufTy).Contents (Elt F)),
    binary main_v379 main_v381 main_v382 (mulf : (⟨S512x128, .f32⟩ : BufTy).Contents (Elt F) → (⟨S512x128, .f32⟩ : BufTy).Contents (Elt F) → (⟨S512x128, .f32⟩ : BufTy).Contents (Elt F)),
    unary main_arg11 main_v383 (broadcastInDim S1x128 ![1] bcast_S128_S1x128_1 : (⟨S128, .f32⟩ : BufTy).Contents (Elt F) → (⟨S1x128, .f32⟩ : BufTy).Contents (Elt F)),
    unary main_v383 main_v384 (broadcastInDim S512x128 ![0, 1] bcast_S1x128_S512x128_0_1 : (⟨S1x128, .f32⟩ : BufTy).Contents (Elt F) → (⟨S512x128, .f32⟩ : BufTy).Contents (Elt F)),
    binary main_v382 main_v384 main_v385 (addf : (⟨S512x128, .f32⟩ : BufTy).Contents (Elt F) → (⟨S512x128, .f32⟩ : BufTy).Contents (Elt F) → (⟨S512x128, .f32⟩ : BufTy).Contents (Elt F)),
    TRef.nullary main_call29.cst (constant S_ .f32 0x00000000#32),
    TRef.unary main_call29.cst main_call29.v0 (broadcastInDim S512x128 ![] bcast_S_S512x128),
    TRef.binary (.of main_v385) main_call29.v0 main_call29.v1 maximumf,
    binary main_v386 main_arg3 main_v387 ((fun l r => Host.dotGeneral dot_S512x128_S128x128_S512x128_1_0_0_1_n_n none l r) : (⟨S512x128, .f32⟩ : BufTy).Contents (Elt F) → (⟨S128x128, .f32⟩ : BufTy).Contents (Elt F) → (⟨S512x128, .f32⟩ : BufTy).Contents (Elt F)),
    unary main_v348 main_v388 (broadcastInDim S262144x1 ![0] bcast_S262144_S262144x1_0 : (⟨S262144, .f32⟩ : BufTy).Contents (Elt F) → (⟨S262144x1, .f32⟩ : BufTy).Contents (Elt F)),
    TRef.nullary main_call30.c (constantI S_ 32 0#32),
    TRef.unary main_call30.c main_call30.v0 (broadcastInDim S262144 ![] bcast_S_S262144),
    TRef.binary (.of main_v2) main_call30.v0 main_call30.v1 (cmpi .slt),
    TRef.nullary main_call30.c_0 (constantI S_ 32 512#32),
    TRef.unary main_call30.c_0 main_call30.v2 (broadcastInDim S262144 ![] bcast_S_S262144),
    TRef.binary (.of main_v2) main_call30.v2 main_call30.v3 addi,
    TRef.ternary main_call30.v1 main_call30.v3 (.of main_v2) main_call30.call0.v0 select,
    TRef.unary main_call30.call0.v0 main_call30.v5 (broadcastInDim S262144x1 ![0] bcast_S262144_S262144x1_0),
    TRef.nullary main_call30.c_1 (constantI S1 32 511#32),
    TRef.nullary main_call30.c_2 (constantI S_ 32 0#32),
    TRef.unary main_call30.c_2 main_call30.v6 (broadcastInDim S262144x1 ![] bcast_S_S262144x1),
    TRef.binary main_call30.v5 main_call30.v6 main_call30.v7 (cmpi .sge),
    TRef.unary main_call30.c_1 main_call30.v8 (broadcastInDim S1x1 ![1] bcast_S1_S1x1_1),
    TRef.unary main_call30.v8 main_call30.v9 (broadcastInDim S262144x1 ![0, 1] bcast_S1x1_S262144x1_0_1),
    TRef.binary main_call30.v5 main_call30.v9 main_call30.v10 (cmpi .sle),
    TRef.binary main_call30.v7 main_call30.v10 main_call30.v11 andi,
    TRef.nullary main_call30.c_3 (constantI S_ 1 1#1),
    TRef.binary main_call30.v11 main_call30.c_3 main_call30.v12 (fun x v => Host.reduce IntOp.andi x v reducesTo_S262144x1_S262144_d1 h_S_),
    TRef.binary (.of main_v387) main_call30.v5 main_call30.v13 (fun x i => Host.gather gather_S512x128_S262144x1_S262144x128_1_0_n_n_0_1_1128 x i),
    TRef.unary main_call30.v12 main_call30.v14 (broadcastInDim S262144x128 ![0] bcast_S262144_S262144x128_0),
    TRef.nullary main_call30.cst (constant S_ .f32 0x7FC00000#32),
    TRef.unary main_call30.cst main_call30.v15 (broadcastInDim S262144x128 ![] bcast_S_S262144x128),
    TRef.ternary main_call30.v14 main_call30.v13 main_call30.v15 main_call30.v16 select,
    unary main_v388 main_v390 (broadcastInDim S262144x128 ![0, 1] bcast_S262144x1_S262144x128_0_1 : (⟨S262144x1, .f32⟩ : BufTy).Contents (Elt F) → (⟨S262144x128, .f32⟩ : BufTy).Contents (Elt F)),
    binary main_v390 main_v389 main_v391 (mulf : (⟨S262144x128, .f32⟩ : BufTy).Contents (Elt F) → (⟨S262144x128, .f32⟩ : BufTy).Contents (Elt F) → (⟨S262144x128, .f32⟩ : BufTy).Contents (Elt F)),
    nullary main_cst_68 (constant S_ .f32 0x00000000#32),
    unary main_cst_68 main_v392 (broadcastInDim S512x128 ![] bcast_S_S512x128 : (⟨S_, .f32⟩ : BufTy).Contents (Elt F) → (⟨S512x128, .f32⟩ : BufTy).Contents (Elt F)),
    nullary main_c_69 (constantI S_ 32 0#32),
    unary main_c_69 main_v393 (broadcastInDim S262144 ![] bcast_S_S262144 : (⟨S_, .i32⟩ : BufTy).Contents (Elt F) → (⟨S262144, .i32⟩ : BufTy).Contents (Elt F)),
    binary main_v6 main_v393 main_v394 (cmpi .slt : (⟨S262144, .i32⟩ : BufTy).Contents (Elt F) → (⟨S262144, .i32⟩ : BufTy).Contents (Elt F) → (⟨S262144, .i1⟩ : BufTy).Contents (Elt F)),
    nullary main_c_70 (constantI S_ 32 512#32),
    unary main_c_70 main_v395 (broadcastInDim S262144 ![] bcast_S_S262144 : (⟨S_, .i32⟩ : BufTy).Contents (Elt F) → (⟨S262144, .i32⟩ : BufTy).Contents (Elt F)),
    binary main_v6 main_v395 main_v396 (addi : (⟨S262144, .i32⟩ : BufTy).Contents (Elt F) → (⟨S262144, .i32⟩ : BufTy).Contents (Elt F) → (⟨S262144, .i32⟩ : BufTy).Contents (Elt F)),
    ternary main_v394 main_v396 main_v6 main_v397 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v397 main_v398 (broadcastInDim S262144x1 ![0] bcast_S262144_S262144x1_0 : (⟨S262144, .i32⟩ : BufTy).Contents (Elt F) → (⟨S262144x1, .i32⟩ : BufTy).Contents (Elt F)),
    ternary main_v392 main_v398 main_v391 main_v399 ((fun x i u => Host.scatterAdd scatter_S512x128_S262144x1_S262144x128_1_0_0_1 x i u) : (⟨S512x128, .f32⟩ : BufTy).Contents (Elt F) → (⟨S262144x1, .i32⟩ : BufTy).Contents (Elt F) → (⟨S262144x128, .f32⟩ : BufTy).Contents (Elt F) → (⟨S512x128, .f32⟩ : BufTy).Contents (Elt F)),
    unary main_arg6 main_v400 (broadcastInDim S1x128 ![1] bcast_S128_S1x128_1 : (⟨S128, .f32⟩ : BufTy).Contents (Elt F) → (⟨S1x128, .f32⟩ : BufTy).Contents (Elt F)),
    unary main_v400 main_v401 (broadcastInDim S512x128 ![0, 1] bcast_S1x128_S512x128_0_1 : (⟨S1x128, .f32⟩ : BufTy).Contents (Elt F) → (⟨S512x128, .f32⟩ : BufTy).Contents (Elt F)),
    binary main_v399 main_v401 main_v402 (addf : (⟨S512x128, .f32⟩ : BufTy).Contents (Elt F) → (⟨S512x128, .f32⟩ : BufTy).Contents (Elt F) → (⟨S512x128, .f32⟩ : BufTy).Contents (Elt F)),
    binary main_v402 main_v386 main_v403 (addf : (⟨S512x128, .f32⟩ : BufTy).Contents (Elt F) → (⟨S512x128, .f32⟩ : BufTy).Contents (Elt F) → (⟨S512x128, .f32⟩ : BufTy).Contents (Elt F)),
    nullary main_cst_71 (constant S_ .f32 0x00000000#32),
    binary main_v403 main_cst_71 main_v404 ((fun x v => Host.reduceAdd x v reducesTo_S512x128_S512_d1 h_S_) : (⟨S512x128, .f32⟩ : BufTy).Contents (Elt F) → (⟨S_, .f32⟩ : BufTy).Contents (Elt F) → (⟨S512, .f32⟩ : BufTy).Contents (Elt F)),
    unary main_v404 main_v405 (broadcastInDim S512x1 ![0] bcast_S512_S512x1_0 : (⟨S512, .f32⟩ : BufTy).Contents (Elt F) → (⟨S512x1, .f32⟩ : BufTy).Contents (Elt F)) ]

set_option maxRecDepth 16384 in
/-- The printed window is that straight line. -/
theorem part7_eq (d : Dev nD) : main_part7 (F := F) d = seq opsP7 := by
  simp only [main_part7, fn_take.body, fn_where.body, fn_var.body, fn_where_0.body, fn_relu.body, seq, bind_assoc, pure_bind]
  rfl

theorem opsP7_sub : (opsP7 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., ternary_bufs_sub .., unary_bufs_sub .., unary_bufs_sub .., binary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., unary_bufs_sub .., unary_bufs_sub .., binary_bufs_sub .., binary_bufs_sub .., nullary_bufs_sub .., binary_bufs_sub .., unary_bufs_sub ..⟩

theorem opsP7_fresh : (opsP7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

end Cert.ReferenceIdeal.Ops

end
-- ==== Proof.RefOps.P8.lean ====
import proofs.«175100_g37074157699472_cont_sun_c4_777_8_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-- @main's statements 481 to 540, the called functions' operations written out at the calls: 128 operations. -/
abbrev opsP8 : List (HloOp τ sig (Elt F)) :=
  [ nullary main_cst_72 (constant S_ .f32 0x43000000#32),
    unary main_cst_72 main_v406 (broadcastInDim S512x1 ![] bcast_S_S512x1 : (⟨S_, .f32⟩ : BufTy).Contents (Elt F) → (⟨S512x1, .f32⟩ : BufTy).Contents (Elt F)),
    binary main_v405 main_v406 main_v407 (Host.divf : (⟨S512x1, .f32⟩ : BufTy).Contents (Elt F) → (⟨S512x1, .f32⟩ : BufTy).Contents (Elt F) → (⟨S512x1, .f32⟩ : BufTy).Contents (Elt F)),
    nullary main_c_73 (constantI S_ 32 0#32),
    TRef.nullary main_call31.cst (constant S_ .f32 0x00000000#32),
    TRef.binary (.of main_v403) main_call31.cst main_call31.v0 (fun x v => Host.reduceAdd x v reducesTo_S512x128_S512_d1 h_S_),
    TRef.unary main_call31.v0 main_call31.v1 (broadcastInDim S512x1 ![0] bcast_S512_S512x1_0),
    TRef.nullary main_call31.cst_0 (constant S_ .f32 0x43000000#32),
    TRef.unary main_call31.cst_0 main_call31.v2 (broadcastInDim S512x1 ![] bcast_S_S512x1),
    TRef.binary main_call31.v1 main_call31.v2 main_call31.v3 Host.divf,
    TRef.unary main_call31.v3 main_call31.v4 (broadcastInDim S512x128 ![0, 1] bcast_S512x1_S512x128_0_1),
    TRef.binary (.of main_v403) main_call31.v4 main_call31.v5 subf,
    TRef.binary main_call31.v5 main_call31.v5 main_call31.v6 mulf,
    TRef.unary (.of main_c_73) main_call31.v7 (sitofp .f32),
    TRef.nullary main_call31.cst_1 (constant S_ .f32 0x43000000#32),
    TRef.binary main_call31.cst_1 main_call31.v7 main_call31.v8 subf,
    TRef.nullary main_call31.cst_2 (constant S_ .f32 0x00000000#32),
    TRef.binary main_call31.v6 main_call31.cst_2 main_call31.v9 (fun x v => Host.reduceAdd x v reducesTo_S512x128_S512_d1 h_S_),
    TRef.unary main_call31.v9 main_call31.v10 (broadcastInDim S512x1 ![0] bcast_S512_S512x1_0),
    TRef.unary main_call31.v8 main_call31.v11 (broadcastInDim S512x1 ![] bcast_S_S512x1),
    TRef.binary main_call31.v10 main_call31.v11 main_call31.v12 Host.divf,
    TRef.nullary main_call31.cst_3 (constant S_ .f32 0x00000000#32),
    TRef.binary main_call31.v8 main_call31.cst_3 main_call31.v13 (cmpf .ogt),
    TRef.nullary main_call31.cst_4 (constant S_ .f32 0x7FC00000#32),
    TRef.unary main_call31.cst_4 main_call31.call0.v0 id,
    TRef.unary main_call31.call0.v0 main_call31.call0.v1 (broadcastInDim S512x1 ![] bcast_S_S512x1),
    TRef.ternary main_call31.v13 main_call31.v12 main_call31.call0.v1 main_call31.call0.v2 (fun p a b => select (broadcastInDim S512x1 ![] bcast_S_S512x1 p) a b),
    unary main_v407 main_v409 (broadcastInDim S512x128 ![0, 1] bcast_S512x1_S512x128_0_1 : (⟨S512x1, .f32⟩ : BufTy).Contents (Elt F) → (⟨S512x128, .f32⟩ : BufTy).Contents (Elt F)),
    binary main_v403 main_v409 main_v410 (subf : (⟨S512x128, .f32⟩ : BufTy).Contents (Elt F) → (⟨S512x128, .f32⟩ : BufTy).Contents (Elt F) → (⟨S512x128, .f32⟩ : BufTy).Contents (Elt F)),
    nullary main_cst_74 (constant S_ .f32 0x3727C5AC#32),
    unary main_cst_74 main_v411 (broadcastInDim S512x1 ![] bcast_S_S512x1 : (⟨S_, .f32⟩ : BufTy).Contents (Elt F) → (⟨S512x1, .f32⟩ : BufTy).Contents (Elt F)),
    binary main_v408 main_v411 main_v412 (addf : (⟨S512x1, .f32⟩ : BufTy).Contents (Elt F) → (⟨S512x1, .f32⟩ : BufTy).Contents (Elt F) → (⟨S512x1, .f32⟩ : BufTy).Contents (Elt F)),
    unary main_v412 main_v413 (Host.sqrt : (⟨S512x1, .f32⟩ : BufTy).Contents (Elt F) → (⟨S512x1, .f32⟩ : BufTy).Contents (Elt F)),
    unary main_v413 main_v414 (broadcastInDim S512x128 ![0, 1] bcast_S512x1_S512x128_0_1 : (⟨S512x1, .f32⟩ : BufTy).Contents (Elt F) → (⟨S512x128, .f32⟩ : BufTy).Contents (Elt F)),
    binary main_v410 main_v414 main_v415 (Host.divf : (⟨S512x128, .f32⟩ : BufTy).Contents (Elt F) → (⟨S512x128, .f32⟩ : BufTy).Contents (Elt F) → (⟨S512x128, .f32⟩ : BufTy).Contents (Elt F)),
    unary main_arg9 main_v416 (broadcastInDim S1x128 ![1] bcast_S128_S1x128_1 : (⟨S128, .f32⟩ : BufTy).Contents (Elt F) → (⟨S1x128, .f32⟩ : BufTy).Contents (Elt F)),
    unary main_v416 main_v417 (broadcastInDim S512x128 ![0, 1] bcast_S1x128_S512x128_0_1 : (⟨S1x128, .f32⟩ : BufTy).Contents (Elt F) → (⟨S512x128, .f32⟩ : BufTy).Contents (Elt F)),
    binary main_v415 main_v417 main_v418 (mulf : (⟨S512x128, .f32⟩ : BufTy).Contents (Elt F) → (⟨S512x128, .f32⟩ : BufTy).Contents (Elt F) → (⟨S512x128, .f32⟩ : BufTy).Contents (Elt F)),
    unary main_arg12 main_v419 (broadcastInDim S1x128 ![1] bcast_S128_S1x128_1 : (⟨S128, .f32⟩ : BufTy).Contents (Elt F) → (⟨S1x128, .f32⟩ : BufTy).Contents (Elt F)),
    unary main_v419 main_v420 (broadcastInDim S512x128 ![0, 1] bcast_S1x128_S512x128_0_1 : (⟨S1x128, .f32⟩ : BufTy).Contents (Elt F) → (⟨S512x128, .f32⟩ : BufTy).Contents (Elt F)),
    binary main_v418 main_v420 main_v421 (addf : (⟨S512x128, .f32⟩ : BufTy).Contents (Elt F) → (⟨S512x128, .f32⟩ : BufTy).Contents (Elt F) → (⟨S512x128, .f32⟩ : BufTy).Contents (Elt F)),
    TRef.nullary main_call32.cst (constant S_ .f32 0x00000000#32),
    TRef.unary main_call32.cst main_call32.v0 (broadcastInDim S512x128 ![] bcast_S_S512x128),
    TRef.binary (.of main_v421) main_call32.v0 main_call32.v1 maximumf,
    binary main_v422 main_arg4 main_v423 ((fun l r => Host.dotGeneral dot_S512x128_S128x128_S512x128_1_0_0_1_n_n none l r) : (⟨S512x128, .f32⟩ : BufTy).Contents (Elt F) → (⟨S128x128, .f32⟩ : BufTy).Contents (Elt F) → (⟨S512x128, .f32⟩ : BufTy).Contents (Elt F)),
    unary main_v348 main_v424 (broadcastInDim S262144x1 ![0] bcast_S262144_S262144x1_0 : (⟨S262144, .f32⟩ : BufTy).Contents (Elt F) → (⟨S262144x1, .f32⟩ : BufTy).Contents (Elt F)),
    TRef.nullary main_call33.c (constantI S_ 32 0#32),
    TRef.unary main_call33.c main_call33.v0 (broadcastInDim S262144 ![] bcast_S_S262144),
    TRef.binary (.of main_v2) main_call33.v0 main_call33.v1 (cmpi .slt),
    TRef.nullary main_call33.c_0 (constantI S_ 32 512#32),
    TRef.unary main_call33.c_0 main_call33.v2 (broadcastInDim S262144 ![] bcast_S_S262144),
    TRef.binary (.of main_v2) main_call33.v2 main_call33.v3 addi,
    TRef.ternary main_call33.v1 main_call33.v3 (.of main_v2) main_call33.call0.v0 select,
    TRef.unary main_call33.call0.v0 main_call33.v5 (broadcastInDim S262144x1 ![0] bcast_S262144_S262144x1_0),
    TRef.nullary main_call33.c_1 (constantI S1 32 511#32),
    TRef.nullary main_call33.c_2 (constantI S_ 32 0#32),
    TRef.unary main_call33.c_2 main_call33.v6 (broadcastInDim S262144x1 ![] bcast_S_S262144x1),
    TRef.binary main_call33.v5 main_call33.v6 main_call33.v7 (cmpi .sge),
    TRef.unary main_call33.c_1 main_call33.v8 (broadcastInDim S1x1 ![1] bcast_S1_S1x1_1),
    TRef.unary main_call33.v8 main_call33.v9 (broadcastInDim S262144x1 ![0, 1] bcast_S1x1_S262144x1_0_1),
    TRef.binary main_call33.v5 main_call33.v9 main_call33.v10 (cmpi .sle),
    TRef.binary main_call33.v7 main_call33.v10 main_call33.v11 andi,
    TRef.nullary main_call33.c_3 (constantI S_ 1 1#1),
    TRef.binary main_call33.v11 main_call33.c_3 main_call33.v12 (fun x v => Host.reduce IntOp.andi x v reducesTo_S262144x1_S262144_d1 h_S_),
    TRef.binary (.of main_v423) main_call33.v5 main_call33.v13 (fun x i => Host.gather gather_S512x128_S262144x1_S262144x128_1_0_n_n_0_1_1128 x i),
    TRef.unary main_call33.v12 main_call33.v14 (broadcastInDim S262144x128 ![0] bcast_S262144_S262144x128_0),
    TRef.nullary main_call33.cst (constant S_ .f32 0x7FC00000#32),
    TRef.unary main_call33.cst main_call33.v15 (broadcastInDim S262144x128 ![] bcast_S_S262144x128),
    TRef.ternary main_call33.v14 main_call33.v13 main_call33.v15 main_call33.v16 select,
    unary main_v424 main_v426 (broadcastInDim S262144x128 ![0, 1] bcast_S262144x1_S262144x128_0_1 : (⟨S262144x1, .f32⟩ : BufTy).Contents (Elt F) → (⟨S262144x128, .f32⟩ : BufTy).Contents (Elt F)),
    binary main_v426 main_v425 main_v427 (mulf : (⟨S262144x128, .f32⟩ : BufTy).Contents (Elt F) → (⟨S262144x128, .f32⟩ : BufTy).Contents (Elt F) → (⟨S262144x128, .f32⟩ : BufTy).Contents (Elt F)),
    nullary main_cst_75 (constant S_ .f32 0x00000000#32),
    unary main_cst_75 main_v428 (broadcastInDim S512x128 ![] bcast_S_S512x128 : (⟨S_, .f32⟩ : BufTy).Contents (Elt F) → (⟨S512x128, .f32⟩ : BufTy).Contents (Elt F)),
    nullary main_c_76 (constantI S_ 32 0#32),
    unary main_c_76 main_v429 (broadcastInDim S262144 ![] bcast_S_S262144 : (⟨S_, .i32⟩ : BufTy).Contents (Elt F) → (⟨S262144, .i32⟩ : BufTy).Contents (Elt F)),
    binary main_v6 main_v429 main_v430 (cmpi .slt : (⟨S262144, .i32⟩ : BufTy).Contents (Elt F) → (⟨S262144, .i32⟩ : BufTy).Contents (Elt F) → (⟨S262144, .i1⟩ : BufTy).Contents (Elt F)),
    nullary main_c_77 (constantI S_ 32 512#32),
    unary main_c_77 main_v431 (broadcastInDim S262144 ![] bcast_S_S262144 : (⟨S_, .i32⟩ : BufTy).Contents (Elt F) → (⟨S262144, .i32⟩ : BufTy).Contents (Elt F)),
    binary main_v6 main_v431 main_v432 (addi : (⟨S262144, .i32⟩ : BufTy).Contents (Elt F) → (⟨S262144, .i32⟩ : BufTy).Contents (Elt F) → (⟨S262144, .i32⟩ : BufTy).Contents (Elt F)),
    ternary main_v430 main_v432 main_v6 main_v433 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v433 main_v434 (broadcastInDim S262144x1 ![0] bcast_S262144_S262144x1_0 : (⟨S262144, .i32⟩ : BufTy).Contents (Elt F) → (⟨S262144x1, .i32⟩ : BufTy).Contents (Elt F)),
    ternary main_v428 main_v434 main_v427 main_v435 ((fun x i u => Host.scatterAdd scatter_S512x128_S262144x1_S262144x128_1_0_0_1 x i u) : (⟨S512x128, .f32⟩ : BufTy).Contents (Elt F) → (⟨S262144x1, .i32⟩ : BufTy).Contents (Elt F) → (⟨S262144x128, .f32⟩ : BufTy).Contents (Elt F) → (⟨S512x128, .f32⟩ : BufTy).Contents (Elt F)),
    unary main_arg7 main_v436 (broadcastInDim S1x128 ![1] bcast_S128_S1x128_1 : (⟨S128, .f32⟩ : BufTy).Contents (Elt F) → (⟨S1x128, .f32⟩ : BufTy).Contents (Elt F)),
    unary main_v436 main_v437 (broadcastInDim S512x128 ![0, 1] bcast_S1x128_S512x128_0_1 : (⟨S1x128, .f32⟩ : BufTy).Contents (Elt F) → (⟨S512x128, .f32⟩ : BufTy).Contents (Elt F)),
    binary main_v435 main_v437 main_v438 (addf : (⟨S512x128, .f32⟩ : BufTy).Contents (Elt F) → (⟨S512x128, .f32⟩ : BufTy).Contents (Elt F) → (⟨S512x128, .f32⟩ : BufTy).Contents (Elt F)),
    binary main_v438 main_v422 main_v439 (addf : (⟨S512x128, .f32⟩ : BufTy).Contents (Elt F) → (⟨S512x128, .f32⟩ : BufTy).Contents (Elt F) → (⟨S512x128, .f32⟩ : BufTy).Contents (Elt F)),
    nullary main_cst_78 (constant S_ .f32 0x00000000#32),
    binary main_v439 main_cst_78 main_v440 ((fun x v => Host.reduceAdd x v reducesTo_S512x128_S512_d1 h_S_) : (⟨S512x128, .f32⟩ : BufTy).Contents (Elt F) → (⟨S_, .f32⟩ : BufTy).Contents (Elt F) → (⟨S512, .f32⟩ : BufTy).Contents (Elt F)),
    unary main_v440 main_v441 (broadcastInDim S512x1 ![0] bcast_S512_S512x1_0 : (⟨S512, .f32⟩ : BufTy).Contents (Elt F) → (⟨S512x1, .f32⟩ : BufTy).Contents (Elt F)),
    nullary main_cst_79 (constant S_ .f32 0x43000000#32),
    unary main_cst_79 main_v442 (broadcastInDim S512x1 ![] bcast_S_S512x1 : (⟨S_, .f32⟩ : BufTy).Contents (Elt F) → (⟨S512x1, .f32⟩ : BufTy).Contents (Elt F)),
    binary main_v441 main_v442 main_v443 (Host.divf : (⟨S512x1, .f32⟩ : BufTy).Contents (Elt F) → (⟨S512x1, .f32⟩ : BufTy).Contents (Elt F) → (⟨S512x1, .f32⟩ : BufTy).Contents (Elt F)),
    nullary main_c_80 (constantI S_ 32 0#32),
    TRef.nullary main_call34.cst (constant S_ .f32 0x00000000#32),
    TRef.binary (.of main_v439) main_call34.cst main_call34.v0 (fun x v => Host.reduceAdd x v reducesTo_S512x128_S512_d1 h_S_),
    TRef.unary main_call34.v0 main_call34.v1 (broadcastInDim S512x1 ![0] bcast_S512_S512x1_0),
    TRef.nullary main_call34.cst_0 (constant S_ .f32 0x43000000#32),
    TRef.unary main_call34.cst_0 main_call34.v2 (broadcastInDim S512x1 ![] bcast_S_S512x1),
    TRef.binary main_call34.v1 main_call34.v2 main_call34.v3 Host.divf,
    TRef.unary main_call34.v3 main_call34.v4 (broadcastInDim S512x128 ![0, 1] bcast_S512x1_S512x128_0_1),
    TRef.binary (.of main_v439) main_call34.v4 main_call34.v5 subf,
    TRef.binary main_call34.v5 main_call34.v5 main_call34.v6 mulf,
    TRef.unary (.of main_c_80) main_call34.v7 (sitofp .f32),
    TRef.nullary main_call34.cst_1 (constant S_ .f32 0x43000000#32),
    TRef.binary main_call34.cst_1 main_call34.v7 main_call34.v8 subf,
    TRef.nullary main_call34.cst_2 (constant S_ .f32 0x00000000#32),
    TRef.binary main_call34.v6 main_call34.cst_2 main_call34.v9 (fun x v => Host.reduceAdd x v reducesTo_S512x128_S512_d1 h_S_),
    TRef.unary main_call34.v9 main_call34.v10 (broadcastInDim S512x1 ![0] bcast_S512_S512x1_0),
    TRef.unary main_call34.v8 main_call34.v11 (broadcastInDim S512x1 ![] bcast_S_S512x1),
    TRef.binary main_call34.v10 main_call34.v11 main_call34.v12 Host.divf,
    TRef.nullary main_call34.cst_3 (constant S_ .f32 0x00000000#32),
    TRef.binary main_call34.v8 main_call34.cst_3 main_call34.v13 (cmpf .ogt),
    TRef.nullary main_call34.cst_4 (constant S_ .f32 0x7FC00000#32),
    TRef.unary main_call34.cst_4 main_call34.call0.v0 id,
    TRef.unary main_call34.call0.v0 main_call34.call0.v1 (broadcastInDim S512x1 ![] bcast_S_S512x1),
    TRef.ternary main_call34.v13 main_call34.v12 main_call34.call0.v1 main_call34.call0.v2 (fun p a b => select (broadcastInDim S512x1 ![] bcast_S_S512x1 p) a b),
    unary main_v443 main_v445 (broadcastInDim S512x128 ![0, 1] bcast_S512x1_S512x128_0_1 : (⟨S512x1, .f32⟩ : BufTy).Contents (Elt F) → (⟨S512x128, .f32⟩ : BufTy).Contents (Elt F)),
    binary main_v439 main_v445 main_v446 (subf : (⟨S512x128, .f32⟩ : BufTy).Contents (Elt F) → (⟨S512x128, .f32⟩ : BufTy).Contents (Elt F) → (⟨S512x128, .f32⟩ : BufTy).Contents (Elt F)),
    nullary main_cst_81 (constant S_ .f32 0x3727C5AC#32),
    unary main_cst_81 main_v447 (broadcastInDim S512x1 ![] bcast_S_S512x1 : (⟨S_, .f32⟩ : BufTy).Contents (Elt F) → (⟨S512x1, .f32⟩ : BufTy).Contents (Elt F)),
    binary main_v444 main_v447 main_v448 (addf : (⟨S512x1, .f32⟩ : BufTy).Contents (Elt F) → (⟨S512x1, .f32⟩ : BufTy).Contents (Elt F) → (⟨S512x1, .f32⟩ : BufTy).Contents (Elt F)),
    unary main_v448 main_v449 (Host.sqrt : (⟨S512x1, .f32⟩ : BufTy).Contents (Elt F) → (⟨S512x1, .f32⟩ : BufTy).Contents (Elt F)),
    unary main_v449 main_v450 (broadcastInDim S512x128 ![0, 1] bcast_S512x1_S512x128_0_1 : (⟨S512x1, .f32⟩ : BufTy).Contents (Elt F) → (⟨S512x128, .f32⟩ : BufTy).Contents (Elt F)),
    binary main_v446 main_v450 main_v451 (Host.divf : (⟨S512x128, .f32⟩ : BufTy).Contents (Elt F) → (⟨S512x128, .f32⟩ : BufTy).Contents (Elt F) → (⟨S512x128, .f32⟩ : BufTy).Contents (Elt F)),
    unary main_arg10 main_v452 (broadcastInDim S1x128 ![1] bcast_S128_S1x128_1 : (⟨S128, .f32⟩ : BufTy).Contents (Elt F) → (⟨S1x128, .f32⟩ : BufTy).Contents (Elt F)),
    unary main_v452 main_v453 (broadcastInDim S512x128 ![0, 1] bcast_S1x128_S512x128_0_1 : (⟨S1x128, .f32⟩ : BufTy).Contents (Elt F) → (⟨S512x128, .f32⟩ : BufTy).Contents (Elt F)),
    binary main_v451 main_v453 main_v454 (mulf : (⟨S512x128, .f32⟩ : BufTy).Contents (Elt F) → (⟨S512x128, .f32⟩ : BufTy).Contents (Elt F) → (⟨S512x128, .f32⟩ : BufTy).Contents (Elt F)),
    unary main_arg13 main_v455 (broadcastInDim S1x128 ![1] bcast_S128_S1x128_1 : (⟨S128, .f32⟩ : BufTy).Contents (Elt F) → (⟨S1x128, .f32⟩ : BufTy).Contents (Elt F)) ]

set_option maxRecDepth 16384 in
/-- The printed window is that straight line. -/
theorem part8_eq (d : Dev nD) : main_part8 (F := F) d = seq opsP8 := by
  simp only [main_part8, fn_take.body, fn_where.body, fn_var.body, fn_where_0.body, fn_relu.body, seq, bind_assoc, pure_bind]
  rfl

theorem opsP8_sub : (opsP8 : List (HloOp τ sig (Elt F))).Forall fun op => op.bufs ⊆ tcRefs τ sig :=
  ⟨nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., unary_bufs_sub .., unary_bufs_sub .., binary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub ..⟩

theorem opsP8_fresh : (opsP8 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

end Cert.ReferenceIdeal.Ops

end
-- ==== Proof.RefOps.P9.lean ====
import proofs.«175100_g37074157699472_cont_sun_c4_777_8_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-- @main's statements 541 to 548, the called functions' operations written out at the calls: 10 operations. -/
abbrev opsP9 : List (HloOp τ sig (Elt F)) :=
  [ unary main_v455 main_v456 (broadcastInDim S512x128 ![0, 1] bcast_S1x128_S512x128_0_1 : (⟨S1x128, .f32⟩ : BufTy).Contents (Elt F) → (⟨S512x128, .f32⟩ : BufTy).Contents (Elt F)),
    binary main_v454 main_v456 main_v457 (addf : (⟨S512x128, .f32⟩ : BufTy).Contents (Elt F) → (⟨S512x128, .f32⟩ : BufTy).Contents (Elt F) → (⟨S512x128, .f32⟩ : BufTy).Contents (Elt F)),
    TRef.nullary main_call35.cst (constant S_ .f32 0x00000000#32),
    TRef.unary main_call35.cst main_call35.v0 (broadcastInDim S512x128 ![] bcast_S_S512x128),
    TRef.binary (.of main_v457) main_call35.v0 main_call35.v1 maximumf,
    unary main_v119 main_v459 (broadcastInDim S1x512x128 ![1, 2] bcast_S512x128_S1x512x128_1_2 : (⟨S512x128, .f32⟩ : BufTy).Contents (Elt F) → (⟨S1x512x128, .f32⟩ : BufTy).Contents (Elt F)),
    unary main_v232 main_v460 (broadcastInDim S1x512x128 ![1, 2] bcast_S512x128_S1x512x128_1_2 : (⟨S512x128, .f32⟩ : BufTy).Contents (Elt F) → (⟨S1x512x128, .f32⟩ : BufTy).Contents (Elt F)),
    unary main_v345 main_v461 (broadcastInDim S1x512x128 ![1, 2] bcast_S512x128_S1x512x128_1_2 : (⟨S512x128, .f32⟩ : BufTy).Contents (Elt F) → (⟨S1x512x128, .f32⟩ : BufTy).Contents (Elt F)),
    unary main_v458 main_v462 (broadcastInDim S1x512x128 ![1, 2] bcast_S512x128_S1x512x128_1_2 : (⟨S512x128, .f32⟩ : BufTy).Contents (Elt F) → (⟨S1x512x128, .f32⟩ : BufTy).Contents (Elt F)),
    nary ![main_v459, main_v460, main_v461, main_v462] main_v463 (fun u => concatenate S4x512x128 0 [⟨S1x512x128, u 0⟩, ⟨S1x512x128, u 1⟩, ⟨S1x512x128, u 2⟩, ⟨S1x512x128, u 3⟩] concatenates_S1x512x128_S1x512x128_S1x512x128_S1x512x128_S4x512x128_d0) ]

set_option maxRecDepth 16384 in
/-- The printed window is that straight line. -/
theorem part9_eq (d : Dev nD) : main_part9 (F := F) d = seq opsP9 := by
  simp only [main_part9, fn_take.body, fn_where.body, fn_var.body, fn_where_0.body, fn_relu.body, seq, bind_assoc, pure_bind]

theorem opsP9_sub : (opsP9 : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., unary_bufs_sub .., unary_bufs_sub .., nary_bufs_sub ..⟩

theorem opsP9_fresh : (opsP9 : List (HloOp τ sig (Elt F))).Forall fun op => op.fresh = ∅ :=
  ⟨rfl, rfl, rfl, rfl, rfl, rfl, rfl, rfl, rfl, rfl⟩

end Cert.ReferenceIdeal.Ops

end
-- ==== Proof.RefRun.lean ====
/-
  THE REFERENCE'S RUN.  Its @main is one straight line of 1100 host operations (the ten printed windows one after the
  other, the called functions' operations written out at the calls), so every weakly fair execution terminates without
  a fault and leaves in every buffer the fold of the operations' results over the launch contents.
-/
import proofs.«175100_g37074157699472_cont_sun_c4_777_8_alg».proof.Proof.RefOps.P0
import proofs.«175100_g37074157699472_cont_sun_c4_777_8_alg».proof.Proof.RefOps.P1
import proofs.«175100_g37074157699472_cont_sun_c4_777_8_alg».proof.Proof.RefOps.P2
import proofs.«175100_g37074157699472_cont_sun_c4_777_8_alg».proof.Proof.RefOps.P3
import proofs.«175100_g37074157699472_cont_sun_c4_777_8_alg».proof.Proof.RefOps.P4
import proofs.«175100_g37074157699472_cont_sun_c4_777_8_alg».proof.Proof.RefOps.P5
import proofs.«175100_g37074157699472_cont_sun_c4_777_8_alg».proof.Proof.RefOps.P6
import proofs.«175100_g37074157699472_cont_sun_c4_777_8_alg».proof.Proof.RefOps.P7
import proofs.«175100_g37074157699472_cont_sun_c4_777_8_alg».proof.Proof.RefOps.P8
import proofs.«175100_g37074157699472_cont_sun_c4_777_8_alg».proof.Proof.RefOps.P9
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-- @main's operations, window after window. -/
abbrev ops : List (HloOp τ sig (Elt F)) := opsP0 ++ (opsP1 ++ (opsP2 ++ (opsP3 ++ (opsP4 ++ (opsP5 ++ (opsP6 ++ (opsP7 ++ (opsP8 ++ (opsP9)))))))))

/-- @main is that straight line: each window is its own line, and lines run one after the other are their concatenation. -/
theorem main_eq (d : Dev nD) : main (F := F) d = seq ops := by
  unfold main
  rw [part0_eq, part1_eq, part2_eq, part3_eq, part4_eq, part5_eq, part6_eq, part7_eq, part8_eq, part9_eq]
  simp only [ops, seq_append]

theorem scopedRefs_eq : (Finset.univ.filter fun b : Ref sig .tc => b.isScoped) = ∅ := by decide
theorem scopedSems_eq : (Finset.univ.filter fun sm : SemLoc sig => sm.isScoped .tc) = ∅ := by decide

/-- A property of every operation of every window is one of every operation of the line. -/
theorem ops_forall {p : HloOp τ sig (Elt F) → Prop}
    (h0 : (opsP0 : List (HloOp τ sig (Elt F))).Forall p) (h1 : (opsP1 : List (HloOp τ sig (Elt F))).Forall p) (h2 : (opsP2 : List (HloOp τ sig (Elt F))).Forall p) (h3 : (opsP3 : List (HloOp τ sig (Elt F))).Forall p) (h4 : (opsP4 : List (HloOp τ sig (Elt F))).Forall p) (h5 : (opsP5 : List (HloOp τ sig (Elt F))).Forall p) (h6 : (opsP6 : List (HloOp τ sig (Elt F))).Forall p) (h7 : (opsP7 : List (HloOp τ sig (Elt F))).Forall p) (h8 : (opsP8 : List (HloOp τ sig (Elt F))).Forall p) (h9 : (opsP9 : List (HloOp τ sig (Elt F))).Forall p) :
    (ops : List (HloOp τ sig (Elt F))).Forall p := by
  refine List.forall_iff_forall_mem.2 fun op h => ?_
  simp only [ops, List.mem_append] at h
  rcases h with h | h | h | h | h | h | h | h | h | h
  · exact List.forall_iff_forall_mem.1 h0 op h
  · exact List.forall_iff_forall_mem.1 h1 op h
  · exact List.forall_iff_forall_mem.1 h2 op h
  · exact List.forall_iff_forall_mem.1 h3 op h
  · exact List.forall_iff_forall_mem.1 h4 op h
  · exact List.forall_iff_forall_mem.1 h5 op h
  · exact List.forall_iff_forall_mem.1 h6 op h
  · exact List.forall_iff_forall_mem.1 h7 op h
  · exact List.forall_iff_forall_mem.1 h8 op h
  · exact List.forall_iff_forall_mem.1 h9 op h

theorem ops_sub : (ops : List (HloOp τ sig (Elt F))).Forall fun op => op.bufs ⊆ tcRefs τ sig :=
  ops_forall opsP0_sub opsP1_sub opsP2_sub opsP3_sub opsP4_sub opsP5_sub opsP6_sub opsP7_sub opsP8_sub opsP9_sub

theorem ops_fresh : (ops : List (HloOp τ sig (Elt F))).Forall fun op => op.fresh = ∅ :=
  ops_forall opsP0_fresh opsP1_fresh opsP2_fresh opsP3_fresh opsP4_fresh opsP5_fresh opsP6_fresh opsP7_fresh opsP8_fresh opsP9_fresh

/-- From any memory with zero counters: every weakly fair execution of @main terminates, and every final state has
    each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (fun _ op h => List.forall_iff_forall_mem.1 ops_fresh op h)

end Cert.ReferenceIdeal.Ops

end
-- ==== Proof.RefTerm.lean ====
/-
  THE REFERENCE'S OPERATIONS AS NAMED FUNCTIONS OF ARRAYS.  The reference computes each graph-convolution layer edge
  by edge: every ordered pair (s, n) of the 512 nodes is an edge number e = 512·s + n with source s, destination n and
  weight adj[s, n]; the rows of x·W are picked by the edges' sources (with the picking function's usual index
  fix-ups: a negative index wrapped by 512, rows outside [0, 511] filled with a not-a-number pattern), scaled by the
  edge weights and summed into the rows named by the edges' destinations; then bias, residual, and a row
  normalisation whose variance comes from a library function with a degrees-of-freedom argument (zero here) and a
  guard on the divisor's sign.  Here each of those pieces is one definition in the host operations' own spelling,
  for any float values: the row pick, the variance, the floor at zero, one layer, one batch element's three layers,
  the two index vectors, and the whole result (four batch elements stacked).
-/
import proofs.«175100_g37074157699472_cont_sun_c4_777_8_alg».proof.Proof.Gen.ReferenceIdeal

noncomputable section

namespace Cert.ReferenceIdeal.Term

open Cert.ReferenceIdeal Cert.ReferenceIdeal.Gen Idealize.ShloMosaic

variable {F : FTy → Type} [FloatOps F]

/-- Rows of `xw` picked by the index vector `idx`: a negative index is wrapped by 512, and a row whose wrapped index is
    outside [0, 511] is filled with the pattern 0x7FC00000. -/
def takeF (xw : (⟨S512x128, .f32⟩ : BufTy).Contents (Elt F)) (idx : (⟨S262144, .i32⟩ : BufTy).Contents (Elt F)) :
    (⟨S262144x128, .f32⟩ : BufTy).Contents (Elt F) :=
  let neg := cmpi .slt idx (broadcastInDim S262144 ![] bcast_S_S262144 (constantI S_ 32 0#32))
  let wrapped := addi idx (broadcastInDim S262144 ![] bcast_S_S262144 (constantI S_ 32 512#32))
  let col := broadcastInDim S262144x1 ![0] bcast_S262144_S262144x1_0 (select neg wrapped idx)
  let ge := cmpi .sge col (broadcastInDim S262144x1 ![] bcast_S_S262144x1 (constantI S_ 32 0#32))
  let le := cmpi .sle col (broadcastInDim S262144x1 ![0, 1] bcast_S1x1_S262144x1_0_1
    (broadcastInDim S1x1 ![1] bcast_S1_S1x1_1 (constantI S1 32 511#32)))
  let ok := Host.reduce IntOp.andi (andi ge le) (constantI S_ 1 1#1) reducesTo_S262144x1_S262144_d1 h_S_
  select (broadcastInDim S262144x128 ![0] bcast_S262144_S262144x128_0 ok)
    (Host.gather gather_S512x128_S262144x1_S262144x128_1_0_n_n_0_1_1128 xw col)
    (broadcastInDim S262144x128 ![] bcast_S_S262144x128 (constant S_ .f32 0x7FC00000#32))

/-- The row variance with `ddof` degrees of freedom removed from the divisor 128, guarded on the divisor being
    positive (else the pattern 0x7FC00000). -/
def varF (z : (⟨S512x128, .f32⟩ : BufTy).Contents (Elt F)) (ddof : (⟨S_, .i32⟩ : BufTy).Contents (Elt F)) :
    (⟨S512x1, .f32⟩ : BufTy).Contents (Elt F) :=
  let s := Host.reduceAdd z (constant S_ .f32 0x00000000#32) reducesTo_S512x128_S512_d1 h_S_
  let mu := Host.divf (broadcastInDim S512x1 ![0] bcast_S512_S512x1_0 s)
    (broadcastInDim S512x1 ![] bcast_S_S512x1 (constant S_ .f32 0x43000000#32))
  let zc := subf z (broadcastInDim S512x128 ![0, 1] bcast_S512x1_S512x128_0_1 mu)
  let n := subf (constant S_ .f32 0x43000000#32) (sitofp .f32 ddof)
  let ss := Host.reduceAdd (mulf zc zc) (constant S_ .f32 0x00000000#32) reducesTo_S512x128_S512_d1 h_S_
  let q := Host.divf (broadcastInDim S512x1 ![0] bcast_S512_S512x1_0 ss) (broadcastInDim S512x1 ![] bcast_S_S512x1 n)
  let pos := cmpf .ogt n (constant S_ .f32 0x00000000#32)
  select (broadcastInDim S512x1 ![] bcast_S_S512x1 pos) q
    (broadcastInDim S512x1 ![] bcast_S_S512x1 (id (constant S_ .f32 0x7FC00000#32)))

/-- The floor at zero. -/
def reluF (y : (⟨S512x128, .f32⟩ : BufTy).Contents (Elt F)) : (⟨S512x128, .f32⟩ : BufTy).Contents (Elt F) :=
  maximumf y (broadcastInDim S512x128 ![] bcast_S_S512x128 (constant S_ .f32 0x00000000#32))

/-- One layer: `x` the node features, `w` the edge weights, `src` / `dst` the edges' sources and destinations. -/
def refLayer (x : (⟨S512x128, .f32⟩ : BufTy).Contents (Elt F)) (w : (⟨S262144, .f32⟩ : BufTy).Contents (Elt F))
    (src dst : (⟨S262144, .i32⟩ : BufTy).Contents (Elt F)) (W : (⟨S128x128, .f32⟩ : BufTy).Contents (Elt F))
    (b g t : (⟨S128, .f32⟩ : BufTy).Contents (Elt F)) : (⟨S512x128, .f32⟩ : BufTy).Contents (Elt F) :=
  let xw := Host.dotGeneral dot_S512x128_S128x128_S512x128_1_0_0_1_n_n none x W
  let wc := broadcastInDim S262144x1 ![0] bcast_S262144_S262144x1_0 w
  let msg := mulf (broadcastInDim S262144x128 ![0, 1] bcast_S262144x1_S262144x128_0_1 wc) (takeF xw src)
  let zero := broadcastInDim S512x128 ![] bcast_S_S512x128 (constant S_ .f32 0x00000000#32)
  let dneg := cmpi .slt dst (broadcastInDim S262144 ![] bcast_S_S262144 (constantI S_ 32 0#32))
  let dwrap := addi dst (broadcastInDim S262144 ![] bcast_S_S262144 (constantI S_ 32 512#32))
  let dcol := broadcastInDim S262144x1 ![0] bcast_S262144_S262144x1_0 (select dneg dwrap dst)
  let agg := Host.scatterAdd scatter_S512x128_S262144x1_S262144x128_1_0_0_1 zero dcol msg
  let z := addf (addf agg (broadcastInDim S512x128 ![0, 1] bcast_S1x128_S512x128_0_1
    (broadcastInDim S1x128 ![1] bcast_S128_S1x128_1 b))) x
  let s := Host.reduceAdd z (constant S_ .f32 0x00000000#32) reducesTo_S512x128_S512_d1 h_S_
  let mu := Host.divf (broadcastInDim S512x1 ![0] bcast_S512_S512x1_0 s)
    (broadcastInDim S512x1 ![] bcast_S_S512x1 (constant S_ .f32 0x43000000#32))
  let vr := varF z (constantI S_ 32 0#32)
  let zc := subf z (broadcastInDim S512x128 ![0, 1] bcast_S512x1_S512x128_0_1 mu)
  let sd := Host.sqrt (addf vr (broadcastInDim S512x1 ![] bcast_S_S512x1 (constant S_ .f32 0x3727C5AC#32)))
  let q := Host.divf zc (broadcastInDim S512x128 ![0, 1] bcast_S512x1_S512x128_0_1 sd)
  let y := addf (mulf q (broadcastInDim S512x128 ![0, 1] bcast_S1x128_S512x128_0_1
      (broadcastInDim S1x128 ![1] bcast_S128_S1x128_1 g)))
    (broadcastInDim S512x128 ![0, 1] bcast_S1x128_S512x128_0_1 (broadcastInDim S1x128 ![1] bcast_S128_S1x128_1 t))
  reluF y

/-- One batch element's three layers. -/
def refBatch (x : (⟨S512x128, .f32⟩ : BufTy).Contents (Elt F)) (w : (⟨S262144, .f32⟩ : BufTy).Contents (Elt F))
    (src dst : (⟨S262144, .i32⟩ : BufTy).Contents (Elt F)) (W0 W1 W2 : (⟨S128x128, .f32⟩ : BufTy).Contents (Elt F))
    (b0 b1 b2 g0 g1 g2 t0 t1 t2 : (⟨S128, .f32⟩ : BufTy).Contents (Elt F)) : (⟨S512x128, .f32⟩ : BufTy).Contents (Elt F) :=
  refLayer (refLayer (refLayer x w src dst W0 b0 g0 t0) w src dst W1 b1 g1 t1) w src dst W2 b2 g2 t2

/-- The edges' sources: edge 512·s + n has source s. -/
def srcF : (⟨S262144, .i32⟩ : BufTy).Contents (Elt F) :=
  shapeCast S262144 (broadcastInDim S512x512 ![0] bcast_S512_S512x512_0 (iotaInDim S512 32 0)) shapeCasts_S512x512_S262144

/-- The edges' destinations: edge 512·s + n has destination n. -/
def dstF : (⟨S262144, .i32⟩ : BufTy).Contents (Elt F) :=
  shapeCast S262144 (broadcastInDim S512x512 ![0, 1] bcast_S1x512_S512x512_0_1
    (shapeCast S1x512 (iotaInDim S512 32 0) shapeCasts_S512_S1x512)) shapeCasts_S512x512_S262144

end Cert.ReferenceIdeal.Term

end
-- ==== Proof.RefOut.lean ====
/-
  THE REFERENCE'S WHOLE RESULT as a function of the fourteen argument arrays, in the host operations' own spelling, for
  any float values: each batch element's node features and edge weights cut out of the argument arrays, its three
  layers, and the four results stacked along a new leading axis.
-/
import proofs.«175100_g37074157699472_cont_sun_c4_777_8_alg».proof.Proof.RefTerm

noncomputable section

namespace Cert.ReferenceIdeal.Term

open Cert.ReferenceIdeal Cert.ReferenceIdeal.Gen Idealize.ShloMosaic

variable {F : FTy → Type} [FloatOps F]

/-- Batch element 0's edge weights: row 0 of the adjacency array, flattened so that edge 512·s + n holds adj[0, s, n]. -/
def wB0 (A : (⟨S4x512x512, .f32⟩ : BufTy).Contents (Elt F)) : (⟨S262144, .f32⟩ : BufTy).Contents (Elt F) :=
  shapeCast S262144 (shapeCast S512x512 (extractStridedSlice S1x512x512 ![0, 0, 0] A slices_S4x512x512_S1x512x512_0_0_0)
    shapeCasts_S1x512x512_S512x512) shapeCasts_S512x512_S262144

/-- Batch element 0's node features. -/
def xB0 (X : (⟨S4x512x128, .f32⟩ : BufTy).Contents (Elt F)) : (⟨S512x128, .f32⟩ : BufTy).Contents (Elt F) :=
  shapeCast S512x128 (extractStridedSlice S1x512x128 ![0, 0, 0] X slices_S4x512x128_S1x512x128_0_0_0) shapeCasts_S1x512x128_S512x128

/-- Batch element 1's edge weights: row 1 of the adjacency array, flattened so that edge 512·s + n holds adj[1, s, n]. -/
def wB1 (A : (⟨S4x512x512, .f32⟩ : BufTy).Contents (Elt F)) : (⟨S262144, .f32⟩ : BufTy).Contents (Elt F) :=
  shapeCast S262144 (shapeCast S512x512 (extractStridedSlice S1x512x512 ![1, 0, 0] A slices_S4x512x512_S1x512x512_1_0_0)
    shapeCasts_S1x512x512_S512x512) shapeCasts_S512x512_S262144

/-- Batch element 1's node features. -/
def xB1 (X : (⟨S4x512x128, .f32⟩ : BufTy).Contents (Elt F)) : (⟨S512x128, .f32⟩ : BufTy).Contents (Elt F) :=
  shapeCast S512x128 (extractStridedSlice S1x512x128 ![1, 0, 0] X slices_S4x512x128_S1x512x128_1_0_0) shapeCasts_S1x512x128_S512x128

/-- Batch element 2's edge weights: row 2 of the adjacency array, flattened so that edge 512·s + n holds adj[2, s, n]. -/
def wB2 (A : (⟨S4x512x512, .f32⟩ : BufTy).Contents (Elt F)) : (⟨S262144, .f32⟩ : BufTy).Contents (Elt F) :=
  shapeCast S262144 (shapeCast S512x512 (extractStridedSlice S1x512x512 ![2, 0, 0] A slices_S4x512x512_S1x512x512_2_0_0)
    shapeCasts_S1x512x512_S512x512) shapeCasts_S512x512_S262144

/-- Batch element 2's node features. -/
def xB2 (X : (⟨S4x512x128, .f32⟩ : BufTy).Contents (Elt F)) : (⟨S512x128, .f32⟩ : BufTy).Contents (Elt F) :=
  shapeCast S512x128 (extractStridedSlice S1x512x128 ![2, 0, 0] X slices_S4x512x128_S1x512x128_2_0_0) shapeCasts_S1x512x128_S512x128

/-- Batch element 3's edge weights: row 3 of the adjacency array, flattened so that edge 512·s + n holds adj[3, s, n]. -/
def wB3 (A : (⟨S4x512x512, .f32⟩ : BufTy).Contents (Elt F)) : (⟨S262144, .f32⟩ : BufTy).Contents (Elt F) :=
  shapeCast S262144 (shapeCast S512x512 (extractStridedSlice S1x512x512 ![3, 0, 0] A slices_S4x512x512_S1x512x512_3_0_0)
    shapeCasts_S1x512x512_S512x512) shapeCasts_S512x512_S262144

/-- Batch element 3's node features. -/
def xB3 (X : (⟨S4x512x128, .f32⟩ : BufTy).Contents (Elt F)) : (⟨S512x128, .f32⟩ : BufTy).Contents (Elt F) :=
  shapeCast S512x128 (extractStridedSlice S1x512x128 ![3, 0, 0] X slices_S4x512x128_S1x512x128_3_0_0) shapeCasts_S1x512x128_S512x128

/-- Four [512, 128] arrays stacked into one [4, 512, 128] array. -/
def stackF (o0 o1 o2 o3 : (⟨S512x128, .f32⟩ : BufTy).Contents (Elt F)) : (⟨S4x512x128, .f32⟩ : BufTy).Contents (Elt F) :=
  concatenate S4x512x128 0
    [⟨S1x512x128, broadcastInDim S1x512x128 ![1, 2] bcast_S512x128_S1x512x128_1_2 o0⟩,
     ⟨S1x512x128, broadcastInDim S1x512x128 ![1, 2] bcast_S512x128_S1x512x128_1_2 o1⟩,
     ⟨S1x512x128, broadcastInDim S1x512x128 ![1, 2] bcast_S512x128_S1x512x128_1_2 o2⟩,
     ⟨S1x512x128, broadcastInDim S1x512x128 ![1, 2] bcast_S512x128_S1x512x128_1_2 o3⟩]
    concatenates_S1x512x128_S1x512x128_S1x512x128_S1x512x128_S4x512x128_d0

/-- The reference's result. -/
def refOut (X : (⟨S4x512x128, .f32⟩ : BufTy).Contents (Elt F)) (A : (⟨S4x512x512, .f32⟩ : BufTy).Contents (Elt F))
    (W0 W1 W2 : (⟨S128x128, .f32⟩ : BufTy).Contents (Elt F))
    (b0 b1 b2 g0 g1 g2 t0 t1 t2 : (⟨S128, .f32⟩ : BufTy).Contents (Elt F)) : (⟨S4x512x128, .f32⟩ : BufTy).Contents (Elt F) :=
  stackF (refBatch (xB0 X) (wB0 A) srcF dstF W0 W1 W2 b0 b1 b2 g0 g1 g2 t0 t1 t2)
    (refBatch (xB1 X) (wB1 A) srcF dstF W0 W1 W2 b0 b1 b2 g0 g1 g2 t0 t1 t2)
    (refBatch (xB2 X) (wB2 A) srcF dstF W0 W1 W2 b0 b1 b2 g0 g1 g2 t0 t1 t2)
    (refBatch (xB3 X) (wB3 A) srcF dstF W0 W1 W2 b0 b1 b2 g0 g1 g2 t0 t1 t2)

end Cert.ReferenceIdeal.Term

end
-- ==== Proof.Claims.lean ====
/-
  THE CLAIMS, ASSEMBLED.  The two kernels' frames are the generated ones.  The reference's frame and the equality of
  results come from its run as a straight line of host operations: every buffer ends at the operations' fold over the
  launch contents, the fourteen argument buffers are not written, and the result buffer holds the reference's result as
  a function of the arguments.  Under the precondition every argument entry is a real number, and then both results,
  read at (bi, n, d), are the same real number: three graph-convolution layers over batch element bi.
  What this module does not prove it takes as hypotheses, stated in full: the reference's result buffer as that
  function (`HOut`), the arguments kept (`HKept`), that function over arrays of reals (`HRefOut`), and the precondition
  giving real entries (`HReal`).
-/
import proofs.«175100_g37074157699472_cont_sun_c4_777_8_alg».proof.Defs
import proofs.«175100_g37074157699472_cont_sun_c4_777_8_alg».proof.Proof.Gen.Kernel
import proofs.«175100_g37074157699472_cont_sun_c4_777_8_alg».proof.Proof.Gen.Kernel.Frame
import proofs.«175100_g37074157699472_cont_sun_c4_777_8_alg».proof.Proof.Gen.KernelIdeal
import proofs.«175100_g37074157699472_cont_sun_c4_777_8_alg».proof.Proof.Gen.KernelIdeal.Frame
import proofs.«175100_g37074157699472_cont_sun_c4_777_8_alg».proof.Proof.Gen.ReferenceIdeal
import proofs.«175100_g37074157699472_cont_sun_c4_777_8_alg».proof.Proof.Gen.Pre_finite_inputs
import proofs.«175100_g37074157699472_cont_sun_c4_777_8_alg».proof.Proof.KernelValue
import proofs.«175100_g37074157699472_cont_sun_c4_777_8_alg».proof.Proof.RefRun
import proofs.«175100_g37074157699472_cont_sun_c4_777_8_alg».proof.Proof.RefOut
import proofs.«175100_g37074157699472_cont_sun_c4_777_8_alg».proof.Proof.Spec

noncomputable section

namespace Cert.Proof.GnnClaims

open Idealize.ShloMosaic Idealize.SL.Sem Idealize.ShloMosaic.TcCoe Idealize.ShloMosaic.StableHlo Idealize.ShloMosaic.ValueIdx

/-! ## What is taken as given -/

/-- After the reference's operations the result buffer holds the reference's result as a function of the fourteen
    argument buffers. -/
abbrev HOut : Prop :=
  ∀ V : Valuation Cert.ReferenceIdeal.τ Cert.ReferenceIdeal.sig (Elt Ideal),
    after (Cert.ReferenceIdeal.Ops.ops (F := Ideal)) V (Proc.devRef (τ := Cert.ReferenceIdeal.τ) .tc Cert.ReferenceIdeal.main_v463)
      = Cert.ReferenceIdeal.Term.refOut (F := Ideal) (V (Proc.devRef (τ := Cert.ReferenceIdeal.τ) .tc Cert.ReferenceIdeal.main_arg0)) (V (Proc.devRef (τ := Cert.ReferenceIdeal.τ) .tc Cert.ReferenceIdeal.main_arg1)) (V (Proc.devRef (τ := Cert.ReferenceIdeal.τ) .tc Cert.ReferenceIdeal.main_arg2)) (V (Proc.devRef (τ := Cert.ReferenceIdeal.τ) .tc Cert.ReferenceIdeal.main_arg3)) (V (Proc.devRef (τ := Cert.ReferenceIdeal.τ) .tc Cert.ReferenceIdeal.main_arg4)) (V (Proc.devRef (τ := Cert.ReferenceIdeal.τ) .tc Cert.ReferenceIdeal.main_arg5)) (V (Proc.devRef (τ := Cert.ReferenceIdeal.τ) .tc Cert.ReferenceIdeal.main_arg6)) (V (Proc.devRef (τ := Cert.ReferenceIdeal.τ) .tc Cert.ReferenceIdeal.main_arg7)) (V (Proc.devRef (τ := Cert.ReferenceIdeal.τ) .tc Cert.ReferenceIdeal.main_arg8)) (V (Proc.devRef (τ := Cert.ReferenceIdeal.τ) .tc Cert.ReferenceIdeal.main_arg9)) (V (Proc.devRef (τ := Cert.ReferenceIdeal.τ) .tc Cert.ReferenceIdeal.main_arg10)) (V (Proc.devRef (τ := Cert.ReferenceIdeal.τ) .tc Cert.ReferenceIdeal.main_arg11)) (V (Proc.devRef (τ := Cert.ReferenceIdeal.τ) .tc Cert.ReferenceIdeal.main_arg12)) (V (Proc.devRef (τ := Cert.ReferenceIdeal.τ) .tc Cert.ReferenceIdeal.main_arg13))

/-- The reference's operations write none of the fourteen argument buffers. -/
abbrev HKept : Prop :=
  ∀ V : Valuation Cert.ReferenceIdeal.τ Cert.ReferenceIdeal.sig (Elt Ideal),
    after (Cert.ReferenceIdeal.Ops.ops (F := Ideal)) V (Proc.devRef (τ := Cert.ReferenceIdeal.τ) .tc Cert.ReferenceIdeal.main_arg0) = V (Proc.devRef (τ := Cert.ReferenceIdeal.τ) .tc Cert.ReferenceIdeal.main_arg0)
    ∧ after (Cert.ReferenceIdeal.Ops.ops (F := Ideal)) V (Proc.devRef (τ := Cert.ReferenceIdeal.τ) .tc Cert.ReferenceIdeal.main_arg1) = V (Proc.devRef (τ := Cert.ReferenceIdeal.τ) .tc Cert.ReferenceIdeal.main_arg1)
    ∧ after (Cert.ReferenceIdeal.Ops.ops (F := Ideal)) V (Proc.devRef (τ := Cert.ReferenceIdeal.τ) .tc Cert.ReferenceIdeal.main_arg2) = V (Proc.devRef (τ := Cert.ReferenceIdeal.τ) .tc Cert.ReferenceIdeal.main_arg2)
    ∧ after (Cert.ReferenceIdeal.Ops.ops (F := Ideal)) V (Proc.devRef (τ := Cert.ReferenceIdeal.τ) .tc Cert.ReferenceIdeal.main_arg3) = V (Proc.devRef (τ := Cert.ReferenceIdeal.τ) .tc Cert.ReferenceIdeal.main_arg3)
    ∧ after (Cert.ReferenceIdeal.Ops.ops (F := Ideal)) V (Proc.devRef (τ := Cert.ReferenceIdeal.τ) .tc Cert.ReferenceIdeal.main_arg4) = V (Proc.devRef (τ := Cert.ReferenceIdeal.τ) .tc Cert.ReferenceIdeal.main_arg4)
    ∧ after (Cert.ReferenceIdeal.Ops.ops (F := Ideal)) V (Proc.devRef (τ := Cert.ReferenceIdeal.τ) .tc Cert.ReferenceIdeal.main_arg5) = V (Proc.devRef (τ := Cert.ReferenceIdeal.τ) .tc Cert.ReferenceIdeal.main_arg5)
    ∧ after (Cert.ReferenceIdeal.Ops.ops (F := Ideal)) V (Proc.devRef (τ := Cert.ReferenceIdeal.τ) .tc Cert.ReferenceIdeal.main_arg6) = V (Proc.devRef (τ := Cert.ReferenceIdeal.τ) .tc Cert.ReferenceIdeal.main_arg6)
    ∧ after (Cert.ReferenceIdeal.Ops.ops (F := Ideal)) V (Proc.devRef (τ := Cert.ReferenceIdeal.τ) .tc Cert.ReferenceIdeal.main_arg7) = V (Proc.devRef (τ := Cert.ReferenceIdeal.τ) .tc Cert.ReferenceIdeal.main_arg7)
    ∧ after (Cert.ReferenceIdeal.Ops.ops (F := Ideal)) V (Proc.devRef (τ := Cert.ReferenceIdeal.τ) .tc Cert.ReferenceIdeal.main_arg8) = V (Proc.devRef (τ := Cert.ReferenceIdeal.τ) .tc Cert.ReferenceIdeal.main_arg8)
    ∧ after (Cert.ReferenceIdeal.Ops.ops (F := Ideal)) V (Proc.devRef (τ := Cert.ReferenceIdeal.τ) .tc Cert.ReferenceIdeal.main_arg9) = V (Proc.devRef (τ := Cert.ReferenceIdeal.τ) .tc Cert.ReferenceIdeal.main_arg9)
    ∧ after (Cert.ReferenceIdeal.Ops.ops (F := Ideal)) V (Proc.devRef (τ := Cert.ReferenceIdeal.τ) .tc Cert.ReferenceIdeal.main_arg10) = V (Proc.devRef (τ := Cert.ReferenceIdeal.τ) .tc Cert.ReferenceIdeal.main_arg10)
    ∧ after (Cert.ReferenceIdeal.Ops.ops (F := Ideal)) V (Proc.devRef (τ := Cert.ReferenceIdeal.τ) .tc Cert.ReferenceIdeal.main_arg11) = V (Proc.devRef (τ := Cert.ReferenceIdeal.τ) .tc Cert.ReferenceIdeal.main_arg11)
    ∧ after (Cert.ReferenceIdeal.Ops.ops (F := Ideal)) V (Proc.devRef (τ := Cert.ReferenceIdeal.τ) .tc Cert.ReferenceIdeal.main_arg12) = V (Proc.devRef (τ := Cert.ReferenceIdeal.τ) .tc Cert.ReferenceIdeal.main_arg12)
    ∧ after (Cert.ReferenceIdeal.Ops.ops (F := Ideal)) V (Proc.devRef (τ := Cert.ReferenceIdeal.τ) .tc Cert.ReferenceIdeal.main_arg13) = V (Proc.devRef (τ := Cert.ReferenceIdeal.τ) .tc Cert.ReferenceIdeal.main_arg13)

/-- The reference's result over arrays of real numbers, at (bi, n, d): the real network over batch element bi. -/
abbrev HRefOut : Prop :=
  ∀ (X : FVec Ideal Cert.ReferenceIdeal.S4x512x128 .f32) (A : FVec Ideal Cert.ReferenceIdeal.S4x512x512 .f32) (W0 W1 W2 : FVec Ideal Cert.ReferenceIdeal.S128x128 .f32)
    (b0 b1 b2 g0 g1 g2 t0 t1 t2 : FVec Ideal Cert.ReferenceIdeal.S128 .f32)
    (Xr : Fin 4 → Fin 512 → Fin 128 → ℝ) (Ar : Fin 4 → Fin 512 → Fin 512 → ℝ) (W0r W1r W2r : Fin 128 → Fin 128 → ℝ)
    (b0r b1r b2r g0r g1r g2r t0r t1r t2r : Fin 128 → ℝ)
    (_ : ∀ (bi : Fin 4) (n : Fin 512) (d : Fin 128), X (ix3 bi n d) = ((Xr bi n d : ℝ) : EReal))
    (_ : ∀ (bi : Fin 4) (s n : Fin 512), A (ix3 bi s n) = ((Ar bi s n : ℝ) : EReal))
    (_ : ∀ (k d : Fin 128), W0 (ix2 k d) = ((W0r k d : ℝ) : EReal))
    (_ : ∀ (k d : Fin 128), W1 (ix2 k d) = ((W1r k d : ℝ) : EReal))
    (_ : ∀ (k d : Fin 128), W2 (ix2 k d) = ((W2r k d : ℝ) : EReal))
    (_ : ∀ d : Fin 128, b0 (ix1 d) = ((b0r d : ℝ) : EReal)) (_ : ∀ d : Fin 128, b1 (ix1 d) = ((b1r d : ℝ) : EReal))
    (_ : ∀ d : Fin 128, b2 (ix1 d) = ((b2r d : ℝ) : EReal)) (_ : ∀ d : Fin 128, g0 (ix1 d) = ((g0r d : ℝ) : EReal))
    (_ : ∀ d : Fin 128, g1 (ix1 d) = ((g1r d : ℝ) : EReal)) (_ : ∀ d : Fin 128, g2 (ix1 d) = ((g2r d : ℝ) : EReal))
    (_ : ∀ d : Fin 128, t0 (ix1 d) = ((t0r d : ℝ) : EReal)) (_ : ∀ d : Fin 128, t1 (ix1 d) = ((t1r d : ℝ) : EReal))
    (_ : ∀ d : Fin 128, t2 (ix1 d) = ((t2r d : ℝ) : EReal)),
    ∀ (bi : Fin 4) (n : Fin 512) (d : Fin 128),
      Cert.ReferenceIdeal.Term.refOut (F := Ideal) X A W0 W1 W2 b0 b1 b2 g0 g1 g2 t0 t1 t2 (ix3 bi n d)
        = ((Cert.Gnn.gnnR (Xr bi) (Ar bi) W0r W1r W2r b0r b1r b2r g0r g1r g2r t0r t1r t2r n d : ℝ) : EReal)

/-- Under the precondition every entry of every argument is a real number. -/
abbrev HReal [Cert.Pre_finite_inputs.Facts] : Prop :=
  ∀ (X : FVec Ideal Cert.Pre_finite_inputs.S4x512x128 .f32) (A : FVec Ideal Cert.Pre_finite_inputs.S4x512x512 .f32)
    (W0 W1 W2 : FVec Ideal Cert.Pre_finite_inputs.S128x128 .f32)
    (b0 b1 b2 g0 g1 g2 t0 t1 t2 : FVec Ideal Cert.Pre_finite_inputs.S128 .f32),
    Cert.Pre_finite_inputs.fn (F := Ideal) X A W0 W1 W2 b0 b1 b2 g0 g1 g2 t0 t1 t2 = (fun _ => 1#1) →
    ∃ (Xr : Fin 4 → Fin 512 → Fin 128 → ℝ) (Ar : Fin 4 → Fin 512 → Fin 512 → ℝ) (W0r W1r W2r : Fin 128 → Fin 128 → ℝ)
      (b0r b1r b2r g0r g1r g2r t0r t1r t2r : Fin 128 → ℝ),
      (∀ (bi : Fin 4) (n : Fin 512) (d : Fin 128), X (ix3 bi n d) = ((Xr bi n d : ℝ) : EReal))
      ∧ (∀ (bi : Fin 4) (s n : Fin 512), A (ix3 bi s n) = ((Ar bi s n : ℝ) : EReal))
      ∧ (∀ (k d : Fin 128), W0 (ix2 k d) = ((W0r k d : ℝ) : EReal))
      ∧ (∀ (k d : Fin 128), W1 (ix2 k d) = ((W1r k d : ℝ) : EReal))
      ∧ (∀ (k d : Fin 128), W2 (ix2 k d) = ((W2r k d : ℝ) : EReal))
      ∧ (∀ d : Fin 128, b0 (ix1 d) = ((b0r d : ℝ) : EReal))
      ∧ (∀ d : Fin 128, b1 (ix1 d) = ((b1r d : ℝ) : EReal))
      ∧ (∀ d : Fin 128, b2 (ix1 d) = ((b2r d : ℝ) : EReal))
      ∧ (∀ d : Fin 128, g0 (ix1 d) = ((g0r d : ℝ) : EReal))
      ∧ (∀ d : Fin 128, g1 (ix1 d) = ((g1r d : ℝ) : EReal))
      ∧ (∀ d : Fin 128, g2 (ix1 d) = ((g2r d : ℝ) : EReal))
      ∧ (∀ d : Fin 128, t0 (ix1 d) = ((t0r d : ℝ) : EReal))
      ∧ (∀ d : Fin 128, t1 (ix1 d) = ((t1r d : ℝ) : EReal))
      ∧ (∀ d : Fin 128, t2 (ix1 d) = ((t2r d : ℝ) : EReal))

/-! ## The frames -/

theorem frame_k : Cert.frame_Kernel := fun m ρ _ => Cert.Kernel.Gen.frame m ρ

theorem frame_ki : Cert.frame_KernelIdeal := fun m ρ _ => Cert.KernelIdeal.Gen.frame m ρ

/-- The reference runs and its argument buffers end as launched: each ends at the operations' fold over the launch
    contents, which keeps it. -/
theorem frame_ri (hkept : HKept) : Cert.frame_ReferenceIdeal := fun m ρ _ =>
  (θ_run (Cert.ReferenceIdeal.defs (F := Ideal)) _ _).mono (fun r h c => by
    obtain ⟨k0, k1, k2, k3, k4, k5, k6, k7, k8, k9, k10, k11, k12, k13⟩ := hkept (launchContents m c)
    exact ⟨(h c Cert.ReferenceIdeal.main_arg0).trans k0, (h c Cert.ReferenceIdeal.main_arg1).trans k1, (h c Cert.ReferenceIdeal.main_arg2).trans k2,
      (h c Cert.ReferenceIdeal.main_arg3).trans k3, (h c Cert.ReferenceIdeal.main_arg4).trans k4, (h c Cert.ReferenceIdeal.main_arg5).trans k5,
      (h c Cert.ReferenceIdeal.main_arg6).trans k6, (h c Cert.ReferenceIdeal.main_arg7).trans k7, (h c Cert.ReferenceIdeal.main_arg8).trans k8,
      (h c Cert.ReferenceIdeal.main_arg9).trans k9, (h c Cert.ReferenceIdeal.main_arg10).trans k10, (h c Cert.ReferenceIdeal.main_arg11).trans k11,
      (h c Cert.ReferenceIdeal.main_arg12).trans k12, (h c Cert.ReferenceIdeal.main_arg13).trans k13⟩)
    (Cert.ReferenceIdeal.Ops.run_main (F := Ideal) m ρ)

/-- The ideal pass rewrote nothing. -/
theorem preserves : Cert.preserves_Kernel_KernelIdeal := trivial

/-! ## The results agree -/

/-- On arguments that satisfy the precondition the reference's result and the kernel's output are one array: at
    (bi, n, d) both are the real network over batch element bi of the arguments' real entries. -/
theorem out_eq (hrefout : HRefOut) (hreal : HReal)
    (X : FVec Ideal Cert.KernelIdeal.S4x512x128 .f32) (A : FVec Ideal Cert.KernelIdeal.S4x512x512 .f32) (W0 W1 W2 : FVec Ideal Cert.KernelIdeal.S128x128 .f32)
    (b0 b1 b2 g0 g1 g2 t0 t1 t2 : FVec Ideal Cert.KernelIdeal.S128 .f32)
    (hpre : Cert.Pre_finite_inputs.fn (F := Ideal) X A W0 W1 W2 b0 b1 b2 g0 g1 g2 t0 t1 t2 = (fun _ => 1#1)) :
    Cert.ReferenceIdeal.Term.refOut (F := Ideal) X A W0 W1 W2 b0 b1 b2 g0 g1 g2 t0 t1 t2
      = Cert.KernelIdeal.GnnValue.kernelOut X A W0 W1 W2 b0 b1 b2 g0 g1 g2 t0 t1 t2 := by
  obtain ⟨Xr, Ar, W0r, W1r, W2r, b0r, b1r, b2r, g0r, g1r, g2r, t0r, t1r, t2r,
    hX, hA, hW0, hW1, hW2, hb0, hb1, hb2, hg0, hg1, hg2, ht0, ht1, ht2⟩ :=
    hreal X A W0 W1 W2 b0 b1 b2 g0 g1 g2 t0 t1 t2 hpre
  funext i
  obtain ⟨bi, n, d, rfl⟩ : ∃ (bi : Fin 4) (n : Fin 512) (d : Fin 128), i = ix3 bi n d := ⟨i 0, i 1, i 2, eq_ix3 i⟩
  exact (hrefout X A W0 W1 W2 b0 b1 b2 g0 g1 g2 t0 t1 t2 Xr Ar W0r W1r W2r b0r b1r b2r g0r g1r g2r t0r t1r t2r
      hX hA hW0 hW1 hW2 hb0 hb1 hb2 hg0 hg1 hg2 ht0 ht1 ht2 bi n d).trans
    (Cert.KernelIdeal.GnnValue.kernelOut_real X A W0 W1 W2 b0 b1 b2 g0 g1 g2 t0 t1 t2 Xr Ar W0r W1r W2r b0r b1r b2r g0r g1r g2r t0r t1r t2r
      hX hA hW0 hW1 hW2 hb0 hb1 hb2 hg0 hg1 hg2 ht0 ht1 ht2 bi n d).symm

/-- At the ideal instance, from memories that agree on the arguments, the kernel and the reference both run, end with
    equal results and unchanged arguments. -/
theorem algebraic (hout : HOut) (hkept : HKept) (hrefout : HRefOut) (hreal : HReal) :
    Cert.algebraic_KernelIdeal_ReferenceIdeal := by
  intro m ρ m' ρ' hpre hagree
  refine ⟨fun c => Cert.KernelIdeal.GnnValue.kernelOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), Cert.KernelIdeal.GnnValue.run m ρ, ?_⟩
  refine (θ_run (Cert.ReferenceIdeal.defs (F := Ideal)) _ _).mono (fun r h c => ?_) (Cert.ReferenceIdeal.Ops.run_main (F := Ideal) m' ρ')
  obtain ⟨k0, k1, k2, k3, k4, k5, k6, k7, k8, k9, k10, k11, k12, k13⟩ := hkept (launchContents m' c)
  obtain ⟨a0, a1, a2, a3, a4, a5, a6, a7, a8, a9, a10, a11, a12, a13⟩ := hagree c
  refine ⟨?_, (h c Cert.ReferenceIdeal.main_arg0).trans k0, (h c Cert.ReferenceIdeal.main_arg1).trans k1, (h c Cert.ReferenceIdeal.main_arg2).trans k2,
    (h c Cert.ReferenceIdeal.main_arg3).trans k3, (h c Cert.ReferenceIdeal.main_arg4).trans k4, (h c Cert.ReferenceIdeal.main_arg5).trans k5,
    (h c Cert.ReferenceIdeal.main_arg6).trans k6, (h c Cert.ReferenceIdeal.main_arg7).trans k7, (h c Cert.ReferenceIdeal.main_arg8).trans k8,
    (h c Cert.ReferenceIdeal.main_arg9).trans k9, (h c Cert.ReferenceIdeal.main_arg10).trans k10, (h c Cert.ReferenceIdeal.main_arg11).trans k11,
    (h c Cert.ReferenceIdeal.main_arg12).trans k12, (h c Cert.ReferenceIdeal.main_arg13).trans k13⟩
  refine (h c Cert.ReferenceIdeal.main_v463).trans ((hout (launchContents m' c)).trans ?_)
  show Cert.ReferenceIdeal.Term.refOut (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) = _
  rw [a0, a1, a2, a3, a4, a5, a6, a7, a8, a9, a10, a11, a12, a13]
  exact out_eq hrefout hreal _ _ _ _ _ _ _ _ _ _ _ _ _ _ (hpre c)

end Cert.Proof.GnnClaims

end
-- ==== Proof.RefOps.Stretches.lean ====
import proofs.«175100_g37074157699472_cont_sun_c4_777_8_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-- Statements 1 to 7: 7 operations. -/
abbrev opsPro : List (HloOp τ sig (Elt F)) :=
  [ nullary main_v0 (iotaInDim S512 32 0),
    unary main_v0 main_v1 (broadcastInDim S512x512 ![0] bcast_S512_S512x512_0 : (⟨S512, .i32⟩ : BufTy).Contents (Elt F) → (⟨S512x512, .i32⟩ : BufTy).Contents (Elt F)),
    reshape main_v1 main_v2 rfl shapeCasts_S512x512_S262144,
    nullary main_v3 (iotaInDim S512 32 0),
    reshape main_v3 main_v4 rfl shapeCasts_S512_S1x512,
    unary main_v4 main_v5 (broadcastInDim S512x512 ![0, 1] bcast_S1x512_S512x512_0_1 : (⟨S1x512, .i32⟩ : BufTy).Contents (Elt F) → (⟨S512x512, .i32⟩ : BufTy).Contents (Elt F)),
    reshape main_v5 main_v6 rfl shapeCasts_S512x512_S262144 ]

/-- Statements 8 to 12: 5 operations. -/
abbrev opsB0 : List (HloOp τ sig (Elt F)) :=
  [ unary main_arg1 main_v7 ((extractStridedSlice S1x512x512 ![0, 0, 0] · slices_S4x512x512_S1x512x512_0_0_0) : (⟨S4x512x512, .f32⟩ : BufTy).Contents (Elt F) → (⟨S1x512x512, .f32⟩ : BufTy).Contents (Elt F)),
    reshape main_v7 main_v8 rfl shapeCasts_S1x512x512_S512x512,
    reshape main_v8 main_v9 rfl shapeCasts_S512x512_S262144,
    unary main_arg0 main_v10 ((extractStridedSlice S1x512x128 ![0, 0, 0] · slices_S4x512x128_S1x512x128_0_0_0) : (⟨S4x512x128, .f32⟩ : BufTy).Contents (Elt F) → (⟨S1x512x128, .f32⟩ : BufTy).Contents (Elt F)),
    reshape main_v10 main_v11 rfl shapeCasts_S1x512x128_S512x128 ]

/-- Statements 13 to 55: 89 operations. -/
abbrev opsL00 : List (HloOp τ sig (Elt F)) :=
  [ binary main_v11 main_arg2 main_v12 ((fun l r => Host.dotGeneral dot_S512x128_S128x128_S512x128_1_0_0_1_n_n none l r) : (⟨S512x128, .f32⟩ : BufTy).Contents (Elt F) → (⟨S128x128, .f32⟩ : BufTy).Contents (Elt F) → (⟨S512x128, .f32⟩ : BufTy).Contents (Elt F)),
    unary main_v9 main_v13 (broadcastInDim S262144x1 ![0] bcast_S262144_S262144x1_0 : (⟨S262144, .f32⟩ : BufTy).Contents (Elt F) → (⟨S262144x1, .f32⟩ : BufTy).Contents (Elt F)),
    TRef.nullary main_call0.c (constantI S_ 32 0#32),
    TRef.unary main_call0.c main_call0.v0 (broadcastInDim S262144 ![] bcast_S_S262144),
    TRef.binary (.of main_v2) main_call0.v0 main_call0.v1 (cmpi .slt),
    TRef.nullary main_call0.c_0 (constantI S_ 32 512#32),
    TRef.unary main_call0.c_0 main_call0.v2 (broadcastInDim S262144 ![] bcast_S_S262144),
    TRef.binary (.of main_v2) main_call0.v2 main_call0.v3 addi,
    TRef.ternary main_call0.v1 main_call0.v3 (.of main_v2) main_call0.call0.v0 select,
    TRef.unary main_call0.call0.v0 main_call0.v5 (broadcastInDim S262144x1 ![0] bcast_S262144_S262144x1_0),
    TRef.nullary main_call0.c_1 (constantI S1 32 511#32),
    TRef.nullary main_call0.c_2 (constantI S_ 32 0#32),
    TRef.unary main_call0.c_2 main_call0.v6 (broadcastInDim S262144x1 ![] bcast_S_S262144x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S262144x1 ![0, 1] bcast_S1x1_S262144x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S262144x1_S262144_d1 h_S_),
    TRef.binary (.of main_v12) main_call0.v5 main_call0.v13 (fun x i => Host.gather gather_S512x128_S262144x1_S262144x128_1_0_n_n_0_1_1128 x i),
    TRef.unary main_call0.v12 main_call0.v14 (broadcastInDim S262144x128 ![0] bcast_S262144_S262144x128_0),
    TRef.nullary main_call0.cst (constant S_ .f32 0x7FC00000#32),
    TRef.unary main_call0.cst main_call0.v15 (broadcastInDim S262144x128 ![] bcast_S_S262144x128),
    TRef.ternary main_call0.v14 main_call0.v13 main_call0.v15 main_call0.v16 select,
    unary main_v13 main_v15 (broadcastInDim S262144x128 ![0, 1] bcast_S262144x1_S262144x128_0_1 : (⟨S262144x1, .f32⟩ : BufTy).Contents (Elt F) → (⟨S262144x128, .f32⟩ : BufTy).Contents (Elt F)),
    binary main_v15 main_v14 main_v16 (mulf : (⟨S262144x128, .f32⟩ : BufTy).Contents (Elt F) → (⟨S262144x128, .f32⟩ : BufTy).Contents (Elt F) → (⟨S262144x128, .f32⟩ : BufTy).Contents (Elt F)),
    nullary main_cst (constant S_ .f32 0x00000000#32),
    unary main_cst main_v17 (broadcastInDim S512x128 ![] bcast_S_S512x128 : (⟨S_, .f32⟩ : BufTy).Contents (Elt F) → (⟨S512x128, .f32⟩ : BufTy).Contents (Elt F)),
    nullary main_c (constantI S_ 32 0#32),
    unary main_c main_v18 (broadcastInDim S262144 ![] bcast_S_S262144 : (⟨S_, .i32⟩ : BufTy).Contents (Elt F) → (⟨S262144, .i32⟩ : BufTy).Contents (Elt F)),
    binary main_v6 main_v18 main_v19 (cmpi .slt : (⟨S262144, .i32⟩ : BufTy).Contents (Elt F) → (⟨S262144, .i32⟩ : BufTy).Contents (Elt F) → (⟨S262144, .i1⟩ : BufTy).Contents (Elt F)),
    nullary main_c_0 (constantI S_ 32 512#32),
    unary main_c_0 main_v20 (broadcastInDim S262144 ![] bcast_S_S262144 : (⟨S_, .i32⟩ : BufTy).Contents (Elt F) → (⟨S262144, .i32⟩ : BufTy).Contents (Elt F)),
    binary main_v6 main_v20 main_v21 (addi : (⟨S262144, .i32⟩ : BufTy).Contents (Elt F) → (⟨S262144, .i32⟩ : BufTy).Contents (Elt F) → (⟨S262144, .i32⟩ : BufTy).Contents (Elt F)),
    ternary main_v19 main_v21 main_v6 main_v22 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v22 main_v23 (broadcastInDim S262144x1 ![0] bcast_S262144_S262144x1_0 : (⟨S262144, .i32⟩ : BufTy).Contents (Elt F) → (⟨S262144x1, .i32⟩ : BufTy).Contents (Elt F)),
    ternary main_v17 main_v23 main_v16 main_v24 ((fun x i u => Host.scatterAdd scatter_S512x128_S262144x1_S262144x128_1_0_0_1 x i u) : (⟨S512x128, .f32⟩ : BufTy).Contents (Elt F) → (⟨S262144x1, .i32⟩ : BufTy).Contents (Elt F) → (⟨S262144x128, .f32⟩ : BufTy).Contents (Elt F) → (⟨S512x128, .f32⟩ : BufTy).Contents (Elt F)),
    unary main_arg5 main_v25 (broadcastInDim S1x128 ![1] bcast_S128_S1x128_1 : (⟨S128, .f32⟩ : BufTy).Contents (Elt F) → (⟨S1x128, .f32⟩ : BufTy).Contents (Elt F)),
    unary main_v25 main_v26 (broadcastInDim S512x128 ![0, 1] bcast_S1x128_S512x128_0_1 : (⟨S1x128, .f32⟩ : BufTy).Contents (Elt F) → (⟨S512x128, .f32⟩ : BufTy).Contents (Elt F)),
    binary main_v24 main_v26 main_v27 (addf : (⟨S512x128, .f32⟩ : BufTy).Contents (Elt F) → (⟨S512x128, .f32⟩ : BufTy).Contents (Elt F) → (⟨S512x128, .f32⟩ : BufTy).Contents (Elt F)),
    binary main_v27 main_v11 main_v28 (addf : (⟨S512x128, .f32⟩ : BufTy).Contents (Elt F) → (⟨S512x128, .f32⟩ : BufTy).Contents (Elt F) → (⟨S512x128, .f32⟩ : BufTy).Contents (Elt F)),
    nullary main_cst_1 (constant S_ .f32 0x00000000#32),
    binary main_v28 main_cst_1 main_v29 ((fun x v => Host.reduceAdd x v reducesTo_S512x128_S512_d1 h_S_) : (⟨S512x128, .f32⟩ : BufTy).Contents (Elt F) → (⟨S_, .f32⟩ : BufTy).Contents (Elt F) → (⟨S512, .f32⟩ : BufTy).Contents (Elt F)),
    unary main_v29 main_v30 (broadcastInDim S512x1 ![0] bcast_S512_S512x1_0 : (⟨S512, .f32⟩ : BufTy).Contents (Elt F) → (⟨S512x1, .f32⟩ : BufTy).Contents (Elt F)),
    nullary main_cst_2 (constant S_ .f32 0x43000000#32),
    unary main_cst_2 main_v31 (broadcastInDim S512x1 ![] bcast_S_S512x1 : (⟨S_, .f32⟩ : BufTy).Contents (Elt F) → (⟨S512x1, .f32⟩ : BufTy).Contents (Elt F)),
    binary main_v30 main_v31 main_v32 (Host.divf : (⟨S512x1, .f32⟩ : BufTy).Contents (Elt F) → (⟨S512x1, .f32⟩ : BufTy).Contents (Elt F) → (⟨S512x1, .f32⟩ : BufTy).Contents (Elt F)),
    nullary main_c_3 (constantI S_ 32 0#32),
    TRef.nullary main_call1.cst (constant S_ .f32 0x00000000#32),
    TRef.binary (.of main_v28) main_call1.cst main_call1.v0 (fun x v => Host.reduceAdd x v reducesTo_S512x128_S512_d1 h_S_),
    TRef.unary main_call1.v0 main_call1.v1 (broadcastInDim S512x1 ![0] bcast_S512_S512x1_0),
    TRef.nullary main_call1.cst_0 (constant S_ .f32 0x43000000#32),
    TRef.unary main_call1.cst_0 main_call1.v2 (broadcastInDim S512x1 ![] bcast_S_S512x1),
    TRef.binary main_call1.v1 main_call1.v2 main_call1.v3 Host.divf,
    TRef.unary main_call1.v3 main_call1.v4 (broadcastInDim S512x128 ![0, 1] bcast_S512x1_S512x128_0_1),
    TRef.binary (.of main_v28) main_call1.v4 main_call1.v5 subf,
    TRef.binary main_call1.v5 main_call1.v5 main_call1.v6 mulf,
    TRef.unary (.of main_c_3) main_call1.v7 (sitofp .f32),
    TRef.nullary main_call1.cst_1 (constant S_ .f32 0x43000000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S512x128_S512_d1 h_S_),
    TRef.unary main_call1.v9 main_call1.v10 (broadcastInDim S512x1 ![0] bcast_S512_S512x1_0),
    TRef.unary main_call1.v8 main_call1.v11 (broadcastInDim S512x1 ![] bcast_S_S512x1),
    TRef.binary main_call1.v10 main_call1.v11 main_call1.v12 Host.divf,
    TRef.nullary main_call1.cst_3 (constant S_ .f32 0x00000000#32),
    TRef.binary main_call1.v8 main_call1.cst_3 main_call1.v13 (cmpf .ogt),
    TRef.nullary main_call1.cst_4 (constant S_ .f32 0x7FC00000#32),
    TRef.unary main_call1.cst_4 main_call1.call0.v0 id,
    TRef.unary main_call1.call0.v0 main_call1.call0.v1 (broadcastInDim S512x1 ![] bcast_S_S512x1),
    TRef.ternary main_call1.v13 main_call1.v12 main_call1.call0.v1 main_call1.call0.v2 (fun p a b => select (broadcastInDim S512x1 ![] bcast_S_S512x1 p) a b),
    unary main_v32 main_v34 (broadcastInDim S512x128 ![0, 1] bcast_S512x1_S512x128_0_1 : (⟨S512x1, .f32⟩ : BufTy).Contents (Elt F) → (⟨S512x128, .f32⟩ : BufTy).Contents (Elt F)),
    binary main_v28 main_v34 main_v35 (subf : (⟨S512x128, .f32⟩ : BufTy).Contents (Elt F) → (⟨S512x128, .f32⟩ : BufTy).Contents (Elt F) → (⟨S512x128, .f32⟩ : BufTy).Contents (Elt F)),
    nullary main_cst_4 (constant S_ .f32 0x3727C5AC#32),
    unary main_cst_4 main_v36 (broadcastInDim S512x1 ![] bcast_S_S512x1 : (⟨S_, .f32⟩ : BufTy).Contents (Elt F) → (⟨S512x1, .f32⟩ : BufTy).Contents (Elt F)),
    binary main_v33 main_v36 main_v37 (addf : (⟨S512x1, .f32⟩ : BufTy).Contents (Elt F) → (⟨S512x1, .f32⟩ : BufTy).Contents (Elt F) → (⟨S512x1, .f32⟩ : BufTy).Contents (Elt F)),
    unary main_v37 main_v38 (Host.sqrt : (⟨S512x1, .f32⟩ : BufTy).Contents (Elt F) → (⟨S512x1, .f32⟩ : BufTy).Contents (Elt F)),
    unary main_v38 main_v39 (broadcastInDim S512x128 ![0, 1] bcast_S512x1_S512x128_0_1 : (⟨S512x1, .f32⟩ : BufTy).Contents (Elt F) → (⟨S512x128, .f32⟩ : BufTy).Contents (Elt F)),
    binary main_v35 main_v39 main_v40 (Host.divf : (⟨S512x128, .f32⟩ : BufTy).Contents (Elt F) → (⟨S512x128, .f32⟩ : BufTy).Contents (Elt F) → (⟨S512x128, .f32⟩ : BufTy).Contents (Elt F)),
    unary main_arg8 main_v41 (broadcastInDim S1x128 ![1] bcast_S128_S1x128_1 : (⟨S128, .f32⟩ : BufTy).Contents (Elt F) → (⟨S1x128, .f32⟩ : BufTy).Contents (Elt F)),
    unary main_v41 main_v42 (broadcastInDim S512x128 ![0, 1] bcast_S1x128_S512x128_0_1 : (⟨S1x128, .f32⟩ : BufTy).Contents (Elt F) → (⟨S512x128, .f32⟩ : BufTy).Contents (Elt F)),
    binary main_v40 main_v42 main_v43 (mulf : (⟨S512x128, .f32⟩ : BufTy).Contents (Elt F) → (⟨S512x128, .f32⟩ : BufTy).Contents (Elt F) → (⟨S512x128, .f32⟩ : BufTy).Contents (Elt F)),
    unary main_arg11 main_v44 (broadcastInDim S1x128 ![1] bcast_S128_S1x128_1 : (⟨S128, .f32⟩ : BufTy).Contents (Elt F) → (⟨S1x128, .f32⟩ : BufTy).Contents (Elt F)),
    unary main_v44 main_v45 (broadcastInDim S512x128 ![0, 1] bcast_S1x128_S512x128_0_1 : (⟨S1x128, .f32⟩ : BufTy).Contents (Elt F) → (⟨S512x128, .f32⟩ : BufTy).Contents (Elt F)),
    binary main_v43 main_v45 main_v46 (addf : (⟨S512x128, .f32⟩ : BufTy).Contents (Elt F) → (⟨S512x128, .f32⟩ : BufTy).Contents (Elt F) → (⟨S512x128, .f32⟩ : BufTy).Contents (Elt F)),
    TRef.nullary main_call2.cst (constant S_ .f32 0x00000000#32),
    TRef.unary main_call2.cst main_call2.v0 (broadcastInDim S512x128 ![] bcast_S_S512x128),
    TRef.binary (.of main_v46) main_call2.v0 main_call2.v1 maximumf ]

/-- Statements 56 to 98: 89 operations. -/
abbrev opsL01 : List (HloOp τ sig (Elt F)) :=
  [ binary main_v47 main_arg3 main_v48 ((fun l r => Host.dotGeneral dot_S512x128_S128x128_S512x128_1_0_0_1_n_n none l r) : (⟨S512x128, .f32⟩ : BufTy).Contents (Elt F) → (⟨S128x128, .f32⟩ : BufTy).Contents (Elt F) → (⟨S512x128, .f32⟩ : BufTy).Contents (Elt F)),
    unary main_v9 main_v49 (broadcastInDim S262144x1 ![0] bcast_S262144_S262144x1_0 : (⟨S262144, .f32⟩ : BufTy).Contents (Elt F) → (⟨S262144x1, .f32⟩ : BufTy).Contents (Elt F)),
    TRef.nullary main_call3.c (constantI S_ 32 0#32),
    TRef.unary main_call3.c main_call3.v0 (broadcastInDim S262144 ![] bcast_S_S262144),
    TRef.binary (.of main_v2) main_call3.v0 main_call3.v1 (cmpi .slt),
    TRef.nullary main_call3.c_0 (constantI S_ 32 512#32),
    TRef.unary main_call3.c_0 main_call3.v2 (broadcastInDim S262144 ![] bcast_S_S262144),
    TRef.binary (.of main_v2) main_call3.v2 main_call3.v3 addi,
    TRef.ternary main_call3.v1 main_call3.v3 (.of main_v2) main_call3.call0.v0 select,
    TRef.unary main_call3.call0.v0 main_call3.v5 (broadcastInDim S262144x1 ![0] bcast_S262144_S262144x1_0),
    TRef.nullary main_call3.c_1 (constantI S1 32 511#32),
    TRef.nullary main_call3.c_2 (constantI S_ 32 0#32),
    TRef.unary main_call3.c_2 main_call3.v6 (broadcastInDim S262144x1 ![] bcast_S_S262144x1),
    TRef.binary main_call3.v5 main_call3.v6 main_call3.v7 (cmpi .sge),
    TRef.unary main_call3.c_1 main_call3.v8 (broadcastInDim S1x1 ![1] bcast_S1_S1x1_1),
    TRef.unary main_call3.v8 main_call3.v9 (broadcastInDim S262144x1 ![0, 1] bcast_S1x1_S262144x1_0_1),
    TRef.binary main_call3.v5 main_call3.v9 main_call3.v10 (cmpi .sle),
    TRef.binary main_call3.v7 main_call3.v10 main_call3.v11 andi,
    TRef.nullary main_call3.c_3 (constantI S_ 1 1#1),
    TRef.binary main_call3.v11 main_call3.c_3 main_call3.v12 (fun x v => Host.reduce IntOp.andi x v reducesTo_S262144x1_S262144_d1 h_S_),
    TRef.binary (.of main_v48) main_call3.v5 main_call3.v13 (fun x i => Host.gather gather_S512x128_S262144x1_S262144x128_1_0_n_n_0_1_1128 x i),
    TRef.unary main_call3.v12 main_call3.v14 (broadcastInDim S262144x128 ![0] bcast_S262144_S262144x128_0),
    TRef.nullary main_call3.cst (constant S_ .f32 0x7FC00000#32),
    TRef.unary main_call3.cst main_call3.v15 (broadcastInDim S262144x128 ![] bcast_S_S262144x128),
    TRef.ternary main_call3.v14 main_call3.v13 main_call3.v15 main_call3.v16 select,
    unary main_v49 main_v51 (broadcastInDim S262144x128 ![0, 1] bcast_S262144x1_S262144x128_0_1 : (⟨S262144x1, .f32⟩ : BufTy).Contents (Elt F) → (⟨S262144x128, .f32⟩ : BufTy).Contents (Elt F)),
    binary main_v51 main_v50 main_v52 (mulf : (⟨S262144x128, .f32⟩ : BufTy).Contents (Elt F) → (⟨S262144x128, .f32⟩ : BufTy).Contents (Elt F) → (⟨S262144x128, .f32⟩ : BufTy).Contents (Elt F)),
    nullary main_cst_5 (constant S_ .f32 0x00000000#32),
    unary main_cst_5 main_v53 (broadcastInDim S512x128 ![] bcast_S_S512x128 : (⟨S_, .f32⟩ : BufTy).Contents (Elt F) → (⟨S512x128, .f32⟩ : BufTy).Contents (Elt F)),
    nullary main_c_6 (constantI S_ 32 0#32),
    unary main_c_6 main_v54 (broadcastInDim S262144 ![] bcast_S_S262144 : (⟨S_, .i32⟩ : BufTy).Contents (Elt F) → (⟨S262144, .i32⟩ : BufTy).Contents (Elt F)),
    binary main_v6 main_v54 main_v55 (cmpi .slt : (⟨S262144, .i32⟩ : BufTy).Contents (Elt F) → (⟨S262144, .i32⟩ : BufTy).Contents (Elt F) → (⟨S262144, .i1⟩ : BufTy).Contents (Elt F)),
    nullary main_c_7 (constantI S_ 32 512#32),
    unary main_c_7 main_v56 (broadcastInDim S262144 ![] bcast_S_S262144 : (⟨S_, .i32⟩ : BufTy).Contents (Elt F) → (⟨S262144, .i32⟩ : BufTy).Contents (Elt F)),
    binary main_v6 main_v56 main_v57 (addi : (⟨S262144, .i32⟩ : BufTy).Contents (Elt F) → (⟨S262144, .i32⟩ : BufTy).Contents (Elt F) → (⟨S262144, .i32⟩ : BufTy).Contents (Elt F)),
    ternary main_v55 main_v57 main_v6 main_v58 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v58 main_v59 (broadcastInDim S262144x1 ![0] bcast_S262144_S262144x1_0 : (⟨S262144, .i32⟩ : BufTy).Contents (Elt F) → (⟨S262144x1, .i32⟩ : BufTy).Contents (Elt F)),
    ternary main_v53 main_v59 main_v52 main_v60 ((fun x i u => Host.scatterAdd scatter_S512x128_S262144x1_S262144x128_1_0_0_1 x i u) : (⟨S512x128, .f32⟩ : BufTy).Contents (Elt F) → (⟨S262144x1, .i32⟩ : BufTy).Contents (Elt F) → (⟨S262144x128, .f32⟩ : BufTy).Contents (Elt F) → (⟨S512x128, .f32⟩ : BufTy).Contents (Elt F)),
    unary main_arg6 main_v61 (broadcastInDim S1x128 ![1] bcast_S128_S1x128_1 : (⟨S128, .f32⟩ : BufTy).Contents (Elt F) → (⟨S1x128, .f32⟩ : BufTy).Contents (Elt F)),
    unary main_v61 main_v62 (broadcastInDim S512x128 ![0, 1] bcast_S1x128_S512x128_0_1 : (⟨S1x128, .f32⟩ : BufTy).Contents (Elt F) → (⟨S512x128, .f32⟩ : BufTy).Contents (Elt F)),
    binary main_v60 main_v62 main_v63 (addf : (⟨S512x128, .f32⟩ : BufTy).Contents (Elt F) → (⟨S512x128, .f32⟩ : BufTy).Contents (Elt F) → (⟨S512x128, .f32⟩ : BufTy).Contents (Elt F)),
    binary main_v63 main_v47 main_v64 (addf : (⟨S512x128, .f32⟩ : BufTy).Contents (Elt F) → (⟨S512x128, .f32⟩ : BufTy).Contents (Elt F) → (⟨S512x128, .f32⟩ : BufTy).Contents (Elt F)),
    nullary main_cst_8 (constant S_ .f32 0x00000000#32),
    binary main_v64 main_cst_8 main_v65 ((fun x v => Host.reduceAdd x v reducesTo_S512x128_S512_d1 h_S_) : (⟨S512x128, .f32⟩ : BufTy).Contents (Elt F) → (⟨S_, .f32⟩ : BufTy).Contents (Elt F) → (⟨S512, .f32⟩ : BufTy).Contents (Elt F)),
    unary main_v65 main_v66 (broadcastInDim S512x1 ![0] bcast_S512_S512x1_0 : (⟨S512, .f32⟩ : BufTy).Contents (Elt F) → (⟨S512x1, .f32⟩ : BufTy).Contents (Elt F)),
    nullary main_cst_9 (constant S_ .f32 0x43000000#32),
    unary main_cst_9 main_v67 (broadcastInDim S512x1 ![] bcast_S_S512x1 : (⟨S_, .f32⟩ : BufTy).Contents (Elt F) → (⟨S512x1, .f32⟩ : BufTy).Contents (Elt F)),
    binary main_v66 main_v67 main_v68 (Host.divf : (⟨S512x1, .f32⟩ : BufTy).Contents (Elt F) → (⟨S512x1, .f32⟩ : BufTy).Contents (Elt F) → (⟨S512x1, .f32⟩ : BufTy).Contents (Elt F)),
    nullary main_c_10 (constantI S_ 32 0#32),
    TRef.nullary main_call4.cst (constant S_ .f32 0x00000000#32),
    TRef.binary (.of main_v64) main_call4.cst main_call4.v0 (fun x v => Host.reduceAdd x v reducesTo_S512x128_S512_d1 h_S_),
    TRef.unary main_call4.v0 main_call4.v1 (broadcastInDim S512x1 ![0] bcast_S512_S512x1_0),
    TRef.nullary main_call4.cst_0 (constant S_ .f32 0x43000000#32),
    TRef.unary main_call4.cst_0 main_call4.v2 (broadcastInDim S512x1 ![] bcast_S_S512x1),
    TRef.binary main_call4.v1 main_call4.v2 main_call4.v3 Host.divf,
    TRef.unary main_call4.v3 main_call4.v4 (broadcastInDim S512x128 ![0, 1] bcast_S512x1_S512x128_0_1),
    TRef.binary (.of main_v64) main_call4.v4 main_call4.v5 subf,
    TRef.binary main_call4.v5 main_call4.v5 main_call4.v6 mulf,
    TRef.unary (.of main_c_10) main_call4.v7 (sitofp .f32),
    TRef.nullary main_call4.cst_1 (constant S_ .f32 0x43000000#32),
    TRef.binary main_call4.cst_1 main_call4.v7 main_call4.v8 subf,
    TRef.nullary main_call4.cst_2 (constant S_ .f32 0x00000000#32),
    TRef.binary main_call4.v6 main_call4.cst_2 main_call4.v9 (fun x v => Host.reduceAdd x v reducesTo_S512x128_S512_d1 h_S_),
    TRef.unary main_call4.v9 main_call4.v10 (broadcastInDim S512x1 ![0] bcast_S512_S512x1_0),
    TRef.unary main_call4.v8 main_call4.v11 (broadcastInDim S512x1 ![] bcast_S_S512x1),
    TRef.binary main_call4.v10 main_call4.v11 main_call4.v12 Host.divf,
    TRef.nullary main_call4.cst_3 (constant S_ .f32 0x00000000#32),
    TRef.binary main_call4.v8 main_call4.cst_3 main_call4.v13 (cmpf .ogt),
    TRef.nullary main_call4.cst_4 (constant S_ .f32 0x7FC00000#32),
    TRef.unary main_call4.cst_4 main_call4.call0.v0 id,
    TRef.unary main_call4.call0.v0 main_call4.call0.v1 (broadcastInDim S512x1 ![] bcast_S_S512x1),
    TRef.ternary main_call4.v13 main_call4.v12 main_call4.call0.v1 main_call4.call0.v2 (fun p a b => select (broadcastInDim S512x1 ![] bcast_S_S512x1 p) a b),
    unary main_v68 main_v70 (broadcastInDim S512x128 ![0, 1] bcast_S512x1_S512x128_0_1 : (⟨S512x1, .f32⟩ : BufTy).Contents (Elt F) → (⟨S512x128, .f32⟩ : BufTy).Contents (Elt F)),
    binary main_v64 main_v70 main_v71 (subf : (⟨S512x128, .f32⟩ : BufTy).Contents (Elt F) → (⟨S512x128, .f32⟩ : BufTy).Contents (Elt F) → (⟨S512x128, .f32⟩ : BufTy).Contents (Elt F)),
    nullary main_cst_11 (constant S_ .f32 0x3727C5AC#32),
    unary main_cst_11 main_v72 (broadcastInDim S512x1 ![] bcast_S_S512x1 : (⟨S_, .f32⟩ : BufTy).Contents (Elt F) → (⟨S512x1, .f32⟩ : BufTy).Contents (Elt F)),
    binary main_v69 main_v72 main_v73 (addf : (⟨S512x1, .f32⟩ : BufTy).Contents (Elt F) → (⟨S512x1, .f32⟩ : BufTy).Contents (Elt F) → (⟨S512x1, .f32⟩ : BufTy).Contents (Elt F)),
    unary main_v73 main_v74 (Host.sqrt : (⟨S512x1, .f32⟩ : BufTy).Contents (Elt F) → (⟨S512x1, .f32⟩ : BufTy).Contents (Elt F)),
    unary main_v74 main_v75 (broadcastInDim S512x128 ![0, 1] bcast_S512x1_S512x128_0_1 : (⟨S512x1, .f32⟩ : BufTy).Contents (Elt F) → (⟨S512x128, .f32⟩ : BufTy).Contents (Elt F)),
    binary main_v71 main_v75 main_v76 (Host.divf : (⟨S512x128, .f32⟩ : BufTy).Contents (Elt F) → (⟨S512x128, .f32⟩ : BufTy).Contents (Elt F) → (⟨S512x128, .f32⟩ : BufTy).Contents (Elt F)),
    unary main_arg9 main_v77 (broadcastInDim S1x128 ![1] bcast_S128_S1x128_1 : (⟨S128, .f32⟩ : BufTy).Contents (Elt F) → (⟨S1x128, .f32⟩ : BufTy).Contents (Elt F)),
    unary main_v77 main_v78 (broadcastInDim S512x128 ![0, 1] bcast_S1x128_S512x128_0_1 : (⟨S1x128, .f32⟩ : BufTy).Contents (Elt F) → (⟨S512x128, .f32⟩ : BufTy).Contents (Elt F)),
    binary main_v76 main_v78 main_v79 (mulf : (⟨S512x128, .f32⟩ : BufTy).Contents (Elt F) → (⟨S512x128, .f32⟩ : BufTy).Contents (Elt F) → (⟨S512x128, .f32⟩ : BufTy).Contents (Elt F)),
    unary main_arg12 main_v80 (broadcastInDim S1x128 ![1] bcast_S128_S1x128_1 : (⟨S128, .f32⟩ : BufTy).Contents (Elt F) → (⟨S1x128, .f32⟩ : BufTy).Contents (Elt F)),
    unary main_v80 main_v81 (broadcastInDim S512x128 ![0, 1] bcast_S1x128_S512x128_0_1 : (⟨S1x128, .f32⟩ : BufTy).Contents (Elt F) → (⟨S512x128, .f32⟩ : BufTy).Contents (Elt F)),
    binary main_v79 main_v81 main_v82 (addf : (⟨S512x128, .f32⟩ : BufTy).Contents (Elt F) → (⟨S512x128, .f32⟩ : BufTy).Contents (Elt F) → (⟨S512x128, .f32⟩ : BufTy).Contents (Elt F)),
    TRef.nullary main_call5.cst (constant S_ .f32 0x00000000#32),
    TRef.unary main_call5.cst main_call5.v0 (broadcastInDim S512x128 ![] bcast_S_S512x128),
    TRef.binary (.of main_v82) main_call5.v0 main_call5.v1 maximumf ]

/-- Statements 99 to 141: 89 operations. -/
abbrev opsL02 : List (HloOp τ sig (Elt F)) :=
  [ binary main_v83 main_arg4 main_v84 ((fun l r => Host.dotGeneral dot_S512x128_S128x128_S512x128_1_0_0_1_n_n none l r) : (⟨S512x128, .f32⟩ : BufTy).Contents (Elt F) → (⟨S128x128, .f32⟩ : BufTy).Contents (Elt F) → (⟨S512x128, .f32⟩ : BufTy).Contents (Elt F)),
    unary main_v9 main_v85 (broadcastInDim S262144x1 ![0] bcast_S262144_S262144x1_0 : (⟨S262144, .f32⟩ : BufTy).Contents (Elt F) → (⟨S262144x1, .f32⟩ : BufTy).Contents (Elt F)),
    TRef.nullary main_call6.c (constantI S_ 32 0#32),
    TRef.unary main_call6.c main_call6.v0 (broadcastInDim S262144 ![] bcast_S_S262144),
    TRef.binary (.of main_v2) main_call6.v0 main_call6.v1 (cmpi .slt),
    TRef.nullary main_call6.c_0 (constantI S_ 32 512#32),
    TRef.unary main_call6.c_0 main_call6.v2 (broadcastInDim S262144 ![] bcast_S_S262144),
    TRef.binary (.of main_v2) main_call6.v2 main_call6.v3 addi,
    TRef.ternary main_call6.v1 main_call6.v3 (.of main_v2) main_call6.call0.v0 select,
    TRef.unary main_call6.call0.v0 main_call6.v5 (broadcastInDim S262144x1 ![0] bcast_S262144_S262144x1_0),
    TRef.nullary main_call6.c_1 (constantI S1 32 511#32),
    TRef.nullary main_call6.c_2 (constantI S_ 32 0#32),
    TRef.unary main_call6.c_2 main_call6.v6 (broadcastInDim S262144x1 ![] bcast_S_S262144x1),
    TRef.binary main_call6.v5 main_call6.v6 main_call6.v7 (cmpi .sge),
    TRef.unary main_call6.c_1 main_call6.v8 (broadcastInDim S1x1 ![1] bcast_S1_S1x1_1),
    TRef.unary main_call6.v8 main_call6.v9 (broadcastInDim S262144x1 ![0, 1] bcast_S1x1_S262144x1_0_1),
    TRef.binary main_call6.v5 main_call6.v9 main_call6.v10 (cmpi .sle),
    TRef.binary main_call6.v7 main_call6.v10 main_call6.v11 andi,
    TRef.nullary main_call6.c_3 (constantI S_ 1 1#1),
    TRef.binary main_call6.v11 main_call6.c_3 main_call6.v12 (fun x v => Host.reduce IntOp.andi x v reducesTo_S262144x1_S262144_d1 h_S_),
    TRef.binary (.of main_v84) main_call6.v5 main_call6.v13 (fun x i => Host.gather gather_S512x128_S262144x1_S262144x128_1_0_n_n_0_1_1128 x i),
    TRef.unary main_call6.v12 main_call6.v14 (broadcastInDim S262144x128 ![0] bcast_S262144_S262144x128_0),
    TRef.nullary main_call6.cst (constant S_ .f32 0x7FC00000#32),
    TRef.unary main_call6.cst main_call6.v15 (broadcastInDim S262144x128 ![] bcast_S_S262144x128),
    TRef.ternary main_call6.v14 main_call6.v13 main_call6.v15 main_call6.v16 select,
    unary main_v85 main_v87 (broadcastInDim S262144x128 ![0, 1] bcast_S262144x1_S262144x128_0_1 : (⟨S262144x1, .f32⟩ : BufTy).Contents (Elt F) → (⟨S262144x128, .f32⟩ : BufTy).Contents (Elt F)),
    binary main_v87 main_v86 main_v88 (mulf : (⟨S262144x128, .f32⟩ : BufTy).Contents (Elt F) → (⟨S262144x128, .f32⟩ : BufTy).Contents (Elt F) → (⟨S262144x128, .f32⟩ : BufTy).Contents (Elt F)),
    nullary main_cst_12 (constant S_ .f32 0x00000000#32),
    unary main_cst_12 main_v89 (broadcastInDim S512x128 ![] bcast_S_S512x128 : (⟨S_, .f32⟩ : BufTy).Contents (Elt F) → (⟨S512x128, .f32⟩ : BufTy).Contents (Elt F)),
    nullary main_c_13 (constantI S_ 32 0#32),
    unary main_c_13 main_v90 (broadcastInDim S262144 ![] bcast_S_S262144 : (⟨S_, .i32⟩ : BufTy).Contents (Elt F) → (⟨S262144, .i32⟩ : BufTy).Contents (Elt F)),
    binary main_v6 main_v90 main_v91 (cmpi .slt : (⟨S262144, .i32⟩ : BufTy).Contents (Elt F) → (⟨S262144, .i32⟩ : BufTy).Contents (Elt F) → (⟨S262144, .i1⟩ : BufTy).Contents (Elt F)),
    nullary main_c_14 (constantI S_ 32 512#32),
    unary main_c_14 main_v92 (broadcastInDim S262144 ![] bcast_S_S262144 : (⟨S_, .i32⟩ : BufTy).Contents (Elt F) → (⟨S262144, .i32⟩ : BufTy).Contents (Elt F)),
    binary main_v6 main_v92 main_v93 (addi : (⟨S262144, .i32⟩ : BufTy).Contents (Elt F) → (⟨S262144, .i32⟩ : BufTy).Contents (Elt F) → (⟨S262144, .i32⟩ : BufTy).Contents (Elt F)),
    ternary main_v91 main_v93 main_v6 main_v94 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v94 main_v95 (broadcastInDim S262144x1 ![0] bcast_S262144_S262144x1_0 : (⟨S262144, .i32⟩ : BufTy).Contents (Elt F) → (⟨S262144x1, .i32⟩ : BufTy).Contents (Elt F)),
    ternary main_v89 main_v95 main_v88 main_v96 ((fun x i u => Host.scatterAdd scatter_S512x128_S262144x1_S262144x128_1_0_0_1 x i u) : (⟨S512x128, .f32⟩ : BufTy).Contents (Elt F) → (⟨S262144x1, .i32⟩ : BufTy).Contents (Elt F) → (⟨S262144x128, .f32⟩ : BufTy).Contents (Elt F) → (⟨S512x128, .f32⟩ : BufTy).Contents (Elt F)),
    unary main_arg7 main_v97 (broadcastInDim S1x128 ![1] bcast_S128_S1x128_1 : (⟨S128, .f32⟩ : BufTy).Contents (Elt F) → (⟨S1x128, .f32⟩ : BufTy).Contents (Elt F)),
    unary main_v97 main_v98 (broadcastInDim S512x128 ![0, 1] bcast_S1x128_S512x128_0_1 : (⟨S1x128, .f32⟩ : BufTy).Contents (Elt F) → (⟨S512x128, .f32⟩ : BufTy).Contents (Elt F)),
    binary main_v96 main_v98 main_v99 (addf : (⟨S512x128, .f32⟩ : BufTy).Contents (Elt F) → (⟨S512x128, .f32⟩ : BufTy).Contents (Elt F) → (⟨S512x128, .f32⟩ : BufTy).Contents (Elt F)),
    binary main_v99 main_v83 main_v100 (addf : (⟨S512x128, .f32⟩ : BufTy).Contents (Elt F) → (⟨S512x128, .f32⟩ : BufTy).Contents (Elt F) → (⟨S512x128, .f32⟩ : BufTy).Contents (Elt F)),
    nullary main_cst_15 (constant S_ .f32 0x00000000#32),
    binary main_v100 main_cst_15 main_v101 ((fun x v => Host.reduceAdd x v reducesTo_S512x128_S512_d1 h_S_) : (⟨S512x128, .f32⟩ : BufTy).Contents (Elt F) → (⟨S_, .f32⟩ : BufTy).Contents (Elt F) → (⟨S512, .f32⟩ : BufTy).Contents (Elt F)),
    unary main_v101 main_v102 (broadcastInDim S512x1 ![0] bcast_S512_S512x1_0 : (⟨S512, .f32⟩ : BufTy).Contents (Elt F) → (⟨S512x1, .f32⟩ : BufTy).Contents (Elt F)),
    nullary main_cst_16 (constant S_ .f32 0x43000000#32),
    unary main_cst_16 main_v103 (broadcastInDim S512x1 ![] bcast_S_S512x1 : (⟨S_, .f32⟩ : BufTy).Contents (Elt F) → (⟨S512x1, .f32⟩ : BufTy).Contents (Elt F)),
    binary main_v102 main_v103 main_v104 (Host.divf : (⟨S512x1, .f32⟩ : BufTy).Contents (Elt F) → (⟨S512x1, .f32⟩ : BufTy).Contents (Elt F) → (⟨S512x1, .f32⟩ : BufTy).Contents (Elt F)),
    nullary main_c_17 (constantI S_ 32 0#32),
    TRef.nullary main_call7.cst (constant S_ .f32 0x00000000#32),
    TRef.binary (.of main_v100) main_call7.cst main_call7.v0 (fun x v => Host.reduceAdd x v reducesTo_S512x128_S512_d1 h_S_),
    TRef.unary main_call7.v0 main_call7.v1 (broadcastInDim S512x1 ![0] bcast_S512_S512x1_0),
    TRef.nullary main_call7.cst_0 (constant S_ .f32 0x43000000#32),
    TRef.unary main_call7.cst_0 main_call7.v2 (broadcastInDim S512x1 ![] bcast_S_S512x1),
    TRef.binary main_call7.v1 main_call7.v2 main_call7.v3 Host.divf,
    TRef.unary main_call7.v3 main_call7.v4 (broadcastInDim S512x128 ![0, 1] bcast_S512x1_S512x128_0_1),
    TRef.binary (.of main_v100) main_call7.v4 main_call7.v5 subf,
    TRef.binary main_call7.v5 main_call7.v5 main_call7.v6 mulf,
    TRef.unary (.of main_c_17) main_call7.v7 (sitofp .f32),
    TRef.nullary main_call7.cst_1 (constant S_ .f32 0x43000000#32),
    TRef.binary main_call7.cst_1 main_call7.v7 main_call7.v8 subf,
    TRef.nullary main_call7.cst_2 (constant S_ .f32 0x00000000#32),
    TRef.binary main_call7.v6 main_call7.cst_2 main_call7.v9 (fun x v => Host.reduceAdd x v reducesTo_S512x128_S512_d1 h_S_),
    TRef.unary main_call7.v9 main_call7.v10 (broadcastInDim S512x1 ![0] bcast_S512_S512x1_0),
    TRef.unary main_call7.v8 main_call7.v11 (broadcastInDim S512x1 ![] bcast_S_S512x1),
    TRef.binary main_call7.v10 main_call7.v11 main_call7.v12 Host.divf,
    TRef.nullary main_call7.cst_3 (constant S_ .f32 0x00000000#32),
    TRef.binary main_call7.v8 main_call7.cst_3 main_call7.v13 (cmpf .ogt),
    TRef.nullary main_call7.cst_4 (constant S_ .f32 0x7FC00000#32),
    TRef.unary main_call7.cst_4 main_call7.call0.v0 id,
    TRef.unary main_call7.call0.v0 main_call7.call0.v1 (broadcastInDim S512x1 ![] bcast_S_S512x1),
    TRef.ternary main_call7.v13 main_call7.v12 main_call7.call0.v1 main_call7.call0.v2 (fun p a b => select (broadcastInDim S512x1 ![] bcast_S_S512x1 p) a b),
    unary main_v104 main_v106 (broadcastInDim S512x128 ![0, 1] bcast_S512x1_S512x128_0_1 : (⟨S512x1, .f32⟩ : BufTy).Contents (Elt F) → (⟨S512x128, .f32⟩ : BufTy).Contents (Elt F)),
    binary main_v100 main_v106 main_v107 (subf : (⟨S512x128, .f32⟩ : BufTy).Contents (Elt F) → (⟨S512x128, .f32⟩ : BufTy).Contents (Elt F) → (⟨S512x128, .f32⟩ : BufTy).Contents (Elt F)),
    nullary main_cst_18 (constant S_ .f32 0x3727C5AC#32),
    unary main_cst_18 main_v108 (broadcastInDim S512x1 ![] bcast_S_S512x1 : (⟨S_, .f32⟩ : BufTy).Contents (Elt F) → (⟨S512x1, .f32⟩ : BufTy).Contents (Elt F)),
    binary main_v105 main_v108 main_v109 (addf : (⟨S512x1, .f32⟩ : BufTy).Contents (Elt F) → (⟨S512x1, .f32⟩ : BufTy).Contents (Elt F) → (⟨S512x1, .f32⟩ : BufTy).Contents (Elt F)),
    unary main_v109 main_v110 (Host.sqrt : (⟨S512x1, .f32⟩ : BufTy).Contents (Elt F) → (⟨S512x1, .f32⟩ : BufTy).Contents (Elt F)),
    unary main_v110 main_v111 (broadcastInDim S512x128 ![0, 1] bcast_S512x1_S512x128_0_1 : (⟨S512x1, .f32⟩ : BufTy).Contents (Elt F) → (⟨S512x128, .f32⟩ : BufTy).Contents (Elt F)),
    binary main_v107 main_v111 main_v112 (Host.divf : (⟨S512x128, .f32⟩ : BufTy).Contents (Elt F) → (⟨S512x128, .f32⟩ : BufTy).Contents (Elt F) → (⟨S512x128, .f32⟩ : BufTy).Contents (Elt F)),
    unary main_arg10 main_v113 (broadcastInDim S1x128 ![1] bcast_S128_S1x128_1 : (⟨S128, .f32⟩ : BufTy).Contents (Elt F) → (⟨S1x128, .f32⟩ : BufTy).Contents (Elt F)),
    unary main_v113 main_v114 (broadcastInDim S512x128 ![0, 1] bcast_S1x128_S512x128_0_1 : (⟨S1x128, .f32⟩ : BufTy).Contents (Elt F) → (⟨S512x128, .f32⟩ : BufTy).Contents (Elt F)),
    binary main_v112 main_v114 main_v115 (mulf : (⟨S512x128, .f32⟩ : BufTy).Contents (Elt F) → (⟨S512x128, .f32⟩ : BufTy).Contents (Elt F) → (⟨S512x128, .f32⟩ : BufTy).Contents (Elt F)),
    unary main_arg13 main_v116 (broadcastInDim S1x128 ![1] bcast_S128_S1x128_1 : (⟨S128, .f32⟩ : BufTy).Contents (Elt F) → (⟨S1x128, .f32⟩ : BufTy).Contents (Elt F)),
    unary main_v116 main_v117 (broadcastInDim S512x128 ![0, 1] bcast_S1x128_S512x128_0_1 : (⟨S1x128, .f32⟩ : BufTy).Contents (Elt F) → (⟨S512x128, .f32⟩ : BufTy).Contents (Elt F)),
    binary main_v115 main_v117 main_v118 (addf : (⟨S512x128, .f32⟩ : BufTy).Contents (Elt F) → (⟨S512x128, .f32⟩ : BufTy).Contents (Elt F) → (⟨S512x128, .f32⟩ : BufTy).Contents (Elt F)),
    TRef.nullary main_call8.cst (constant S_ .f32 0x00000000#32),
    TRef.unary main_call8.cst main_call8.v0 (broadcastInDim S512x128 ![] bcast_S_S512x128),
    TRef.binary (.of main_v118) main_call8.v0 main_call8.v1 maximumf ]

/-- Statements 142 to 146: 5 operations. -/
abbrev opsB1 : List (HloOp τ sig (Elt F)) :=
  [ unary main_arg1 main_v120 ((extractStridedSlice S1x512x512 ![1, 0, 0] · slices_S4x512x512_S1x512x512_1_0_0) : (⟨S4x512x512, .f32⟩ : BufTy).Contents (Elt F) → (⟨S1x512x512, .f32⟩ : BufTy).Contents (Elt F)),
    reshape main_v120 main_v121 rfl shapeCasts_S1x512x512_S512x512,
    reshape main_v121 main_v122 rfl shapeCasts_S512x512_S262144,
    unary main_arg0 main_v123 ((extractStridedSlice S1x512x128 ![1, 0, 0] · slices_S4x512x128_S1x512x128_1_0_0) : (⟨S4x512x128, .f32⟩ : BufTy).Contents (Elt F) → (⟨S1x512x128, .f32⟩ : BufTy).Contents (Elt F)),
    reshape main_v123 main_v124 rfl shapeCasts_S1x512x128_S512x128 ]

/-- Statements 147 to 189: 89 operations. -/
abbrev opsL10 : List (HloOp τ sig (Elt F)) :=
  [ binary main_v124 main_arg2 main_v125 ((fun l r => Host.dotGeneral dot_S512x128_S128x128_S512x128_1_0_0_1_n_n none l r) : (⟨S512x128, .f32⟩ : BufTy).Contents (Elt F) → (⟨S128x128, .f32⟩ : BufTy).Contents (Elt F) → (⟨S512x128, .f32⟩ : BufTy).Contents (Elt F)),
    unary main_v122 main_v126 (broadcastInDim S262144x1 ![0] bcast_S262144_S262144x1_0 : (⟨S262144, .f32⟩ : BufTy).Contents (Elt F) → (⟨S262144x1, .f32⟩ : BufTy).Contents (Elt F)),
    TRef.nullary main_call9.c (constantI S_ 32 0#32),
    TRef.unary main_call9.c main_call9.v0 (broadcastInDim S262144 ![] bcast_S_S262144),
    TRef.binary (.of main_v2) main_call9.v0 main_call9.v1 (cmpi .slt),
    TRef.nullary main_call9.c_0 (constantI S_ 32 512#32),
    TRef.unary main_call9.c_0 main_call9.v2 (broadcastInDim S262144 ![] bcast_S_S262144),
    TRef.binary (.of main_v2) main_call9.v2 main_call9.v3 addi,
    TRef.ternary main_call9.v1 main_call9.v3 (.of main_v2) main_call9.call0.v0 select,
    TRef.unary main_call9.call0.v0 main_call9.v5 (broadcastInDim S262144x1 ![0] bcast_S262144_S262144x1_0),
    TRef.nullary main_call9.c_1 (constantI S1 32 511#32),
    TRef.nullary main_call9.c_2 (constantI S_ 32 0#32),
    TRef.unary main_call9.c_2 main_call9.v6 (broadcastInDim S262144x1 ![] bcast_S_S262144x1),
    TRef.binary main_call9.v5 main_call9.v6 main_call9.v7 (cmpi .sge),
    TRef.unary main_call9.c_1 main_call9.v8 (broadcastInDim S1x1 ![1] bcast_S1_S1x1_1),
    TRef.unary main_call9.v8 main_call9.v9 (broadcastInDim S262144x1 ![0, 1] bcast_S1x1_S262144x1_0_1),
    TRef.binary main_call9.v5 main_call9.v9 main_call9.v10 (cmpi .sle),
    TRef.binary main_call9.v7 main_call9.v10 main_call9.v11 andi,
    TRef.nullary main_call9.c_3 (constantI S_ 1 1#1),
    TRef.binary main_call9.v11 main_call9.c_3 main_call9.v12 (fun x v => Host.reduce IntOp.andi x v reducesTo_S262144x1_S262144_d1 h_S_),
    TRef.binary (.of main_v125) main_call9.v5 main_call9.v13 (fun x i => Host.gather gather_S512x128_S262144x1_S262144x128_1_0_n_n_0_1_1128 x i),
    TRef.unary main_call9.v12 main_call9.v14 (broadcastInDim S262144x128 ![0] bcast_S262144_S262144x128_0),
    TRef.nullary main_call9.cst (constant S_ .f32 0x7FC00000#32),
    TRef.unary main_call9.cst main_call9.v15 (broadcastInDim S262144x128 ![] bcast_S_S262144x128),
    TRef.ternary main_call9.v14 main_call9.v13 main_call9.v15 main_call9.v16 select,
    unary main_v126 main_v128 (broadcastInDim S262144x128 ![0, 1] bcast_S262144x1_S262144x128_0_1 : (⟨S262144x1, .f32⟩ : BufTy).Contents (Elt F) → (⟨S262144x128, .f32⟩ : BufTy).Contents (Elt F)),
    binary main_v128 main_v127 main_v129 (mulf : (⟨S262144x128, .f32⟩ : BufTy).Contents (Elt F) → (⟨S262144x128, .f32⟩ : BufTy).Contents (Elt F) → (⟨S262144x128, .f32⟩ : BufTy).Contents (Elt F)),
    nullary main_cst_19 (constant S_ .f32 0x00000000#32),
    unary main_cst_19 main_v130 (broadcastInDim S512x128 ![] bcast_S_S512x128 : (⟨S_, .f32⟩ : BufTy).Contents (Elt F) → (⟨S512x128, .f32⟩ : BufTy).Contents (Elt F)),
    nullary main_c_20 (constantI S_ 32 0#32),
    unary main_c_20 main_v131 (broadcastInDim S262144 ![] bcast_S_S262144 : (⟨S_, .i32⟩ : BufTy).Contents (Elt F) → (⟨S262144, .i32⟩ : BufTy).Contents (Elt F)),
    binary main_v6 main_v131 main_v132 (cmpi .slt : (⟨S262144, .i32⟩ : BufTy).Contents (Elt F) → (⟨S262144, .i32⟩ : BufTy).Contents (Elt F) → (⟨S262144, .i1⟩ : BufTy).Contents (Elt F)),
    nullary main_c_21 (constantI S_ 32 512#32),
    unary main_c_21 main_v133 (broadcastInDim S262144 ![] bcast_S_S262144 : (⟨S_, .i32⟩ : BufTy).Contents (Elt F) → (⟨S262144, .i32⟩ : BufTy).Contents (Elt F)),
    binary main_v6 main_v133 main_v134 (addi : (⟨S262144, .i32⟩ : BufTy).Contents (Elt F) → (⟨S262144, .i32⟩ : BufTy).Contents (Elt F) → (⟨S262144, .i32⟩ : BufTy).Contents (Elt F)),
    ternary main_v132 main_v134 main_v6 main_v135 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v135 main_v136 (broadcastInDim S262144x1 ![0] bcast_S262144_S262144x1_0 : (⟨S262144, .i32⟩ : BufTy).Contents (Elt F) → (⟨S262144x1, .i32⟩ : BufTy).Contents (Elt F)),
    ternary main_v130 main_v136 main_v129 main_v137 ((fun x i u => Host.scatterAdd scatter_S512x128_S262144x1_S262144x128_1_0_0_1 x i u) : (⟨S512x128, .f32⟩ : BufTy).Contents (Elt F) → (⟨S262144x1, .i32⟩ : BufTy).Contents (Elt F) → (⟨S262144x128, .f32⟩ : BufTy).Contents (Elt F) → (⟨S512x128, .f32⟩ : BufTy).Contents (Elt F)),
    unary main_arg5 main_v138 (broadcastInDim S1x128 ![1] bcast_S128_S1x128_1 : (⟨S128, .f32⟩ : BufTy).Contents (Elt F) → (⟨S1x128, .f32⟩ : BufTy).Contents (Elt F)),
    unary main_v138 main_v139 (broadcastInDim S512x128 ![0, 1] bcast_S1x128_S512x128_0_1 : (⟨S1x128, .f32⟩ : BufTy).Contents (Elt F) → (⟨S512x128, .f32⟩ : BufTy).Contents (Elt F)),
    binary main_v137 main_v139 main_v140 (addf : (⟨S512x128, .f32⟩ : BufTy).Contents (Elt F) → (⟨S512x128, .f32⟩ : BufTy).Contents (Elt F) → (⟨S512x128, .f32⟩ : BufTy).Contents (Elt F)),
    binary main_v140 main_v124 main_v141 (addf : (⟨S512x128, .f32⟩ : BufTy).Contents (Elt F) → (⟨S512x128, .f32⟩ : BufTy).Contents (Elt F) → (⟨S512x128, .f32⟩ : BufTy).Contents (Elt F)),
    nullary main_cst_22 (constant S_ .f32 0x00000000#32),
    binary main_v141 main_cst_22 main_v142 ((fun x v => Host.reduceAdd x v reducesTo_S512x128_S512_d1 h_S_) : (⟨S512x128, .f32⟩ : BufTy).Contents (Elt F) → (⟨S_, .f32⟩ : BufTy).Contents (Elt F) → (⟨S512, .f32⟩ : BufTy).Contents (Elt F)),
    unary main_v142 main_v143 (broadcastInDim S512x1 ![0] bcast_S512_S512x1_0 : (⟨S512, .f32⟩ : BufTy).Contents (Elt F) → (⟨S512x1, .f32⟩ : BufTy).Contents (Elt F)),
    nullary main_cst_23 (constant S_ .f32 0x43000000#32),
    unary main_cst_23 main_v144 (broadcastInDim S512x1 ![] bcast_S_S512x1 : (⟨S_, .f32⟩ : BufTy).Contents (Elt F) → (⟨S512x1, .f32⟩ : BufTy).Contents (Elt F)),
    binary main_v143 main_v144 main_v145 (Host.divf : (⟨S512x1, .f32⟩ : BufTy).Contents (Elt F) → (⟨S512x1, .f32⟩ : BufTy).Contents (Elt F) → (⟨S512x1, .f32⟩ : BufTy).Contents (Elt F)),
    nullary main_c_24 (constantI S_ 32 0#32),
    TRef.nullary main_call10.cst (constant S_ .f32 0x00000000#32),
    TRef.binary (.of main_v141) main_call10.cst main_call10.v0 (fun x v => Host.reduceAdd x v reducesTo_S512x128_S512_d1 h_S_),
    TRef.unary main_call10.v0 main_call10.v1 (broadcastInDim S512x1 ![0] bcast_S512_S512x1_0),
    TRef.nullary main_call10.cst_0 (constant S_ .f32 0x43000000#32),
    TRef.unary main_call10.cst_0 main_call10.v2 (broadcastInDim S512x1 ![] bcast_S_S512x1),
    TRef.binary main_call10.v1 main_call10.v2 main_call10.v3 Host.divf,
    TRef.unary main_call10.v3 main_call10.v4 (broadcastInDim S512x128 ![0, 1] bcast_S512x1_S512x128_0_1),
    TRef.binary (.of main_v141) main_call10.v4 main_call10.v5 subf,
    TRef.binary main_call10.v5 main_call10.v5 main_call10.v6 mulf,
    TRef.unary (.of main_c_24) main_call10.v7 (sitofp .f32),
    TRef.nullary main_call10.cst_1 (constant S_ .f32 0x43000000#32),
    TRef.binary main_call10.cst_1 main_call10.v7 main_call10.v8 subf,
    TRef.nullary main_call10.cst_2 (constant S_ .f32 0x00000000#32),
    TRef.binary main_call10.v6 main_call10.cst_2 main_call10.v9 (fun x v => Host.reduceAdd x v reducesTo_S512x128_S512_d1 h_S_),
    TRef.unary main_call10.v9 main_call10.v10 (broadcastInDim S512x1 ![0] bcast_S512_S512x1_0),
    TRef.unary main_call10.v8 main_call10.v11 (broadcastInDim S512x1 ![] bcast_S_S512x1),
    TRef.binary main_call10.v10 main_call10.v11 main_call10.v12 Host.divf,
    TRef.nullary main_call10.cst_3 (constant S_ .f32 0x00000000#32),
    TRef.binary main_call10.v8 main_call10.cst_3 main_call10.v13 (cmpf .ogt),
    TRef.nullary main_call10.cst_4 (constant S_ .f32 0x7FC00000#32),
    TRef.unary main_call10.cst_4 main_call10.call0.v0 id,
    TRef.unary main_call10.call0.v0 main_call10.call0.v1 (broadcastInDim S512x1 ![] bcast_S_S512x1),
    TRef.ternary main_call10.v13 main_call10.v12 main_call10.call0.v1 main_call10.call0.v2 (fun p a b => select (broadcastInDim S512x1 ![] bcast_S_S512x1 p) a b),
    unary main_v145 main_v147 (broadcastInDim S512x128 ![0, 1] bcast_S512x1_S512x128_0_1 : (⟨S512x1, .f32⟩ : BufTy).Contents (Elt F) → (⟨S512x128, .f32⟩ : BufTy).Contents (Elt F)),
    binary main_v141 main_v147 main_v148 (subf : (⟨S512x128, .f32⟩ : BufTy).Contents (Elt F) → (⟨S512x128, .f32⟩ : BufTy).Contents (Elt F) → (⟨S512x128, .f32⟩ : BufTy).Contents (Elt F)),
    nullary main_cst_25 (constant S_ .f32 0x3727C5AC#32),
    unary main_cst_25 main_v149 (broadcastInDim S512x1 ![] bcast_S_S512x1 : (⟨S_, .f32⟩ : BufTy).Contents (Elt F) → (⟨S512x1, .f32⟩ : BufTy).Contents (Elt F)),
    binary main_v146 main_v149 main_v150 (addf : (⟨S512x1, .f32⟩ : BufTy).Contents (Elt F) → (⟨S512x1, .f32⟩ : BufTy).Contents (Elt F) → (⟨S512x1, .f32⟩ : BufTy).Contents (Elt F)),
    unary main_v150 main_v151 (Host.sqrt : (⟨S512x1, .f32⟩ : BufTy).Contents (Elt F) → (⟨S512x1, .f32⟩ : BufTy).Contents (Elt F)),
    unary main_v151 main_v152 (broadcastInDim S512x128 ![0, 1] bcast_S512x1_S512x128_0_1 : (⟨S512x1, .f32⟩ : BufTy).Contents (Elt F) → (⟨S512x128, .f32⟩ : BufTy).Contents (Elt F)),
    binary main_v148 main_v152 main_v153 (Host.divf : (⟨S512x128, .f32⟩ : BufTy).Contents (Elt F) → (⟨S512x128, .f32⟩ : BufTy).Contents (Elt F) → (⟨S512x128, .f32⟩ : BufTy).Contents (Elt F)),
    unary main_arg8 main_v154 (broadcastInDim S1x128 ![1] bcast_S128_S1x128_1 : (⟨S128, .f32⟩ : BufTy).Contents (Elt F) → (⟨S1x128, .f32⟩ : BufTy).Contents (Elt F)),
    unary main_v154 main_v155 (broadcastInDim S512x128 ![0, 1] bcast_S1x128_S512x128_0_1 : (⟨S1x128, .f32⟩ : BufTy).Contents (Elt F) → (⟨S512x128, .f32⟩ : BufTy).Contents (Elt F)),
    binary main_v153 main_v155 main_v156 (mulf : (⟨S512x128, .f32⟩ : BufTy).Contents (Elt F) → (⟨S512x128, .f32⟩ : BufTy).Contents (Elt F) → (⟨S512x128, .f32⟩ : BufTy).Contents (Elt F)),
    unary main_arg11 main_v157 (broadcastInDim S1x128 ![1] bcast_S128_S1x128_1 : (⟨S128, .f32⟩ : BufTy).Contents (Elt F) → (⟨S1x128, .f32⟩ : BufTy).Contents (Elt F)),
    unary main_v157 main_v158 (broadcastInDim S512x128 ![0, 1] bcast_S1x128_S512x128_0_1 : (⟨S1x128, .f32⟩ : BufTy).Contents (Elt F) → (⟨S512x128, .f32⟩ : BufTy).Contents (Elt F)),
    binary main_v156 main_v158 main_v159 (addf : (⟨S512x128, .f32⟩ : BufTy).Contents (Elt F) → (⟨S512x128, .f32⟩ : BufTy).Contents (Elt F) → (⟨S512x128, .f32⟩ : BufTy).Contents (Elt F)),
    TRef.nullary main_call11.cst (constant S_ .f32 0x00000000#32),
    TRef.unary main_call11.cst main_call11.v0 (broadcastInDim S512x128 ![] bcast_S_S512x128),
    TRef.binary (.of main_v159) main_call11.v0 main_call11.v1 maximumf ]

/-- Statements 190 to 232: 89 operations. -/
abbrev opsL11 : List (HloOp τ sig (Elt F)) :=
  [ binary main_v160 main_arg3 main_v161 ((fun l r => Host.dotGeneral dot_S512x128_S128x128_S512x128_1_0_0_1_n_n none l r) : (⟨S512x128, .f32⟩ : BufTy).Contents (Elt F) → (⟨S128x128, .f32⟩ : BufTy).Contents (Elt F) → (⟨S512x128, .f32⟩ : BufTy).Contents (Elt F)),
    unary main_v122 main_v162 (broadcastInDim S262144x1 ![0] bcast_S262144_S262144x1_0 : (⟨S262144, .f32⟩ : BufTy).Contents (Elt F) → (⟨S262144x1, .f32⟩ : BufTy).Contents (Elt F)),
    TRef.nullary main_call12.c (constantI S_ 32 0#32),
    TRef.unary main_call12.c main_call12.v0 (broadcastInDim S262144 ![] bcast_S_S262144),
    TRef.binary (.of main_v2) main_call12.v0 main_call12.v1 (cmpi .slt),
    TRef.nullary main_call12.c_0 (constantI S_ 32 512#32),
    TRef.unary main_call12.c_0 main_call12.v2 (broadcastInDim S262144 ![] bcast_S_S262144),
    TRef.binary (.of main_v2) main_call12.v2 main_call12.v3 addi,
    TRef.ternary main_call12.v1 main_call12.v3 (.of main_v2) main_call12.call0.v0 select,
    TRef.unary main_call12.call0.v0 main_call12.v5 (broadcastInDim S262144x1 ![0] bcast_S262144_S262144x1_0),
    TRef.nullary main_call12.c_1 (constantI S1 32 511#32),
    TRef.nullary main_call12.c_2 (constantI S_ 32 0#32),
    TRef.unary main_call12.c_2 main_call12.v6 (broadcastInDim S262144x1 ![] bcast_S_S262144x1),
    TRef.binary main_call12.v5 main_call12.v6 main_call12.v7 (cmpi .sge),
    TRef.unary main_call12.c_1 main_call12.v8 (broadcastInDim S1x1 ![1] bcast_S1_S1x1_1),
    TRef.unary main_call12.v8 main_call12.v9 (broadcastInDim S262144x1 ![0, 1] bcast_S1x1_S262144x1_0_1),
    TRef.binary main_call12.v5 main_call12.v9 main_call12.v10 (cmpi .sle),
    TRef.binary main_call12.v7 main_call12.v10 main_call12.v11 andi,
    TRef.nullary main_call12.c_3 (constantI S_ 1 1#1),
    TRef.binary main_call12.v11 main_call12.c_3 main_call12.v12 (fun x v => Host.reduce IntOp.andi x v reducesTo_S262144x1_S262144_d1 h_S_),
    TRef.binary (.of main_v161) main_call12.v5 main_call12.v13 (fun x i => Host.gather gather_S512x128_S262144x1_S262144x128_1_0_n_n_0_1_1128 x i),
    TRef.unary main_call12.v12 main_call12.v14 (broadcastInDim S262144x128 ![0] bcast_S262144_S262144x128_0),
    TRef.nullary main_call12.cst (constant S_ .f32 0x7FC00000#32),
    TRef.unary main_call12.cst main_call12.v15 (broadcastInDim S262144x128 ![] bcast_S_S262144x128),
    TRef.ternary main_call12.v14 main_call12.v13 main_call12.v15 main_call12.v16 select,
    unary main_v162 main_v164 (broadcastInDim S262144x128 ![0, 1] bcast_S262144x1_S262144x128_0_1 : (⟨S262144x1, .f32⟩ : BufTy).Contents (Elt F) → (⟨S262144x128, .f32⟩ : BufTy).Contents (Elt F)),
    binary main_v164 main_v163 main_v165 (mulf : (⟨S262144x128, .f32⟩ : BufTy).Contents (Elt F) → (⟨S262144x128, .f32⟩ : BufTy).Contents (Elt F) → (⟨S262144x128, .f32⟩ : BufTy).Contents (Elt F)),
    nullary main_cst_26 (constant S_ .f32 0x00000000#32),
    unary main_cst_26 main_v166 (broadcastInDim S512x128 ![] bcast_S_S512x128 : (⟨S_, .f32⟩ : BufTy).Contents (Elt F) → (⟨S512x128, .f32⟩ : BufTy).Contents (Elt F)),
    nullary main_c_27 (constantI S_ 32 0#32),
    unary main_c_27 main_v167 (broadcastInDim S262144 ![] bcast_S_S262144 : (⟨S_, .i32⟩ : BufTy).Contents (Elt F) → (⟨S262144, .i32⟩ : BufTy).Contents (Elt F)),
    binary main_v6 main_v167 main_v168 (cmpi .slt : (⟨S262144, .i32⟩ : BufTy).Contents (Elt F) → (⟨S262144, .i32⟩ : BufTy).Contents (Elt F) → (⟨S262144, .i1⟩ : BufTy).Contents (Elt F)),
    nullary main_c_28 (constantI S_ 32 512#32),
    unary main_c_28 main_v169 (broadcastInDim S262144 ![] bcast_S_S262144 : (⟨S_, .i32⟩ : BufTy).Contents (Elt F) → (⟨S262144, .i32⟩ : BufTy).Contents (Elt F)),
    binary main_v6 main_v169 main_v170 (addi : (⟨S262144, .i32⟩ : BufTy).Contents (Elt F) → (⟨S262144, .i32⟩ : BufTy).Contents (Elt F) → (⟨S262144, .i32⟩ : BufTy).Contents (Elt F)),
    ternary main_v168 main_v170 main_v6 main_v171 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v171 main_v172 (broadcastInDim S262144x1 ![0] bcast_S262144_S262144x1_0 : (⟨S262144, .i32⟩ : BufTy).Contents (Elt F) → (⟨S262144x1, .i32⟩ : BufTy).Contents (Elt F)),
    ternary main_v166 main_v172 main_v165 main_v173 ((fun x i u => Host.scatterAdd scatter_S512x128_S262144x1_S262144x128_1_0_0_1 x i u) : (⟨S512x128, .f32⟩ : BufTy).Contents (Elt F) → (⟨S262144x1, .i32⟩ : BufTy).Contents (Elt F) → (⟨S262144x128, .f32⟩ : BufTy).Contents (Elt F) → (⟨S512x128, .f32⟩ : BufTy).Contents (Elt F)),
    unary main_arg6 main_v174 (broadcastInDim S1x128 ![1] bcast_S128_S1x128_1 : (⟨S128, .f32⟩ : BufTy).Contents (Elt F) → (⟨S1x128, .f32⟩ : BufTy).Contents (Elt F)),
    unary main_v174 main_v175 (broadcastInDim S512x128 ![0, 1] bcast_S1x128_S512x128_0_1 : (⟨S1x128, .f32⟩ : BufTy).Contents (Elt F) → (⟨S512x128, .f32⟩ : BufTy).Contents (Elt F)),
    binary main_v173 main_v175 main_v176 (addf : (⟨S512x128, .f32⟩ : BufTy).Contents (Elt F) → (⟨S512x128, .f32⟩ : BufTy).Contents (Elt F) → (⟨S512x128, .f32⟩ : BufTy).Contents (Elt F)),
    binary main_v176 main_v160 main_v177 (addf : (⟨S512x128, .f32⟩ : BufTy).Contents (Elt F) → (⟨S512x128, .f32⟩ : BufTy).Contents (Elt F) → (⟨S512x128, .f32⟩ : BufTy).Contents (Elt F)),
    nullary main_cst_29 (constant S_ .f32 0x00000000#32),
    binary main_v177 main_cst_29 main_v178 ((fun x v => Host.reduceAdd x v reducesTo_S512x128_S512_d1 h_S_) : (⟨S512x128, .f32⟩ : BufTy).Contents (Elt F) → (⟨S_, .f32⟩ : BufTy).Contents (Elt F) → (⟨S512, .f32⟩ : BufTy).Contents (Elt F)),
    unary main_v178 main_v179 (broadcastInDim S512x1 ![0] bcast_S512_S512x1_0 : (⟨S512, .f32⟩ : BufTy).Contents (Elt F) → (⟨S512x1, .f32⟩ : BufTy).Contents (Elt F)),
    nullary main_cst_30 (constant S_ .f32 0x43000000#32),
    unary main_cst_30 main_v180 (broadcastInDim S512x1 ![] bcast_S_S512x1 : (⟨S_, .f32⟩ : BufTy).Contents (Elt F) → (⟨S512x1, .f32⟩ : BufTy).Contents (Elt F)),
    binary main_v179 main_v180 main_v181 (Host.divf : (⟨S512x1, .f32⟩ : BufTy).Contents (Elt F) → (⟨S512x1, .f32⟩ : BufTy).Contents (Elt F) → (⟨S512x1, .f32⟩ : BufTy).Contents (Elt F)),
    nullary main_c_31 (constantI S_ 32 0#32),
    TRef.nullary main_call13.cst (constant S_ .f32 0x00000000#32),
    TRef.binary (.of main_v177) main_call13.cst main_call13.v0 (fun x v => Host.reduceAdd x v reducesTo_S512x128_S512_d1 h_S_),
    TRef.unary main_call13.v0 main_call13.v1 (broadcastInDim S512x1 ![0] bcast_S512_S512x1_0),
    TRef.nullary main_call13.cst_0 (constant S_ .f32 0x43000000#32),
    TRef.unary main_call13.cst_0 main_call13.v2 (broadcastInDim S512x1 ![] bcast_S_S512x1),
    TRef.binary main_call13.v1 main_call13.v2 main_call13.v3 Host.divf,
    TRef.unary main_call13.v3 main_call13.v4 (broadcastInDim S512x128 ![0, 1] bcast_S512x1_S512x128_0_1),
    TRef.binary (.of main_v177) main_call13.v4 main_call13.v5 subf,
    TRef.binary main_call13.v5 main_call13.v5 main_call13.v6 mulf,
    TRef.unary (.of main_c_31) main_call13.v7 (sitofp .f32),
    TRef.nullary main_call13.cst_1 (constant S_ .f32 0x43000000#32),
    TRef.binary main_call13.cst_1 main_call13.v7 main_call13.v8 subf,
    TRef.nullary main_call13.cst_2 (constant S_ .f32 0x00000000#32),
    TRef.binary main_call13.v6 main_call13.cst_2 main_call13.v9 (fun x v => Host.reduceAdd x v reducesTo_S512x128_S512_d1 h_S_),
    TRef.unary main_call13.v9 main_call13.v10 (broadcastInDim S512x1 ![0] bcast_S512_S512x1_0),
    TRef.unary main_call13.v8 main_call13.v11 (broadcastInDim S512x1 ![] bcast_S_S512x1),
    TRef.binary main_call13.v10 main_call13.v11 main_call13.v12 Host.divf,
    TRef.nullary main_call13.cst_3 (constant S_ .f32 0x00000000#32),
    TRef.binary main_call13.v8 main_call13.cst_3 main_call13.v13 (cmpf .ogt),
    TRef.nullary main_call13.cst_4 (constant S_ .f32 0x7FC00000#32),
    TRef.unary main_call13.cst_4 main_call13.call0.v0 id,
    TRef.unary main_call13.call0.v0 main_call13.call0.v1 (broadcastInDim S512x1 ![] bcast_S_S512x1),
    TRef.ternary main_call13.v13 main_call13.v12 main_call13.call0.v1 main_call13.call0.v2 (fun p a b => select (broadcastInDim S512x1 ![] bcast_S_S512x1 p) a b),
    unary main_v181 main_v183 (broadcastInDim S512x128 ![0, 1] bcast_S512x1_S512x128_0_1 : (⟨S512x1, .f32⟩ : BufTy).Contents (Elt F) → (⟨S512x128, .f32⟩ : BufTy).Contents (Elt F)),
    binary main_v177 main_v183 main_v184 (subf : (⟨S512x128, .f32⟩ : BufTy).Contents (Elt F) → (⟨S512x128, .f32⟩ : BufTy).Contents (Elt F) → (⟨S512x128, .f32⟩ : BufTy).Contents (Elt F)),
    nullary main_cst_32 (constant S_ .f32 0x3727C5AC#32),
    unary main_cst_32 main_v185 (broadcastInDim S512x1 ![] bcast_S_S512x1 : (⟨S_, .f32⟩ : BufTy).Contents (Elt F) → (⟨S512x1, .f32⟩ : BufTy).Contents (Elt F)),
    binary main_v182 main_v185 main_v186 (addf : (⟨S512x1, .f32⟩ : BufTy).Contents (Elt F) → (⟨S512x1, .f32⟩ : BufTy).Contents (Elt F) → (⟨S512x1, .f32⟩ : BufTy).Contents (Elt F)),
    unary main_v186 main_v187 (Host.sqrt : (⟨S512x1, .f32⟩ : BufTy).Contents (Elt F) → (⟨S512x1, .f32⟩ : BufTy).Contents (Elt F)),
    unary main_v187 main_v188 (broadcastInDim S512x128 ![0, 1] bcast_S512x1_S512x128_0_1 : (⟨S512x1, .f32⟩ : BufTy).Contents (Elt F) → (⟨S512x128, .f32⟩ : BufTy).Contents (Elt F)),
    binary main_v184 main_v188 main_v189 (Host.divf : (⟨S512x128, .f32⟩ : BufTy).Contents (Elt F) → (⟨S512x128, .f32⟩ : BufTy).Contents (Elt F) → (⟨S512x128, .f32⟩ : BufTy).Contents (Elt F)),
    unary main_arg9 main_v190 (broadcastInDim S1x128 ![1] bcast_S128_S1x128_1 : (⟨S128, .f32⟩ : BufTy).Contents (Elt F) → (⟨S1x128, .f32⟩ : BufTy).Contents (Elt F)),
    unary main_v190 main_v191 (broadcastInDim S512x128 ![0, 1] bcast_S1x128_S512x128_0_1 : (⟨S1x128, .f32⟩ : BufTy).Contents (Elt F) → (⟨S512x128, .f32⟩ : BufTy).Contents (Elt F)),
    binary main_v189 main_v191 main_v192 (mulf : (⟨S512x128, .f32⟩ : BufTy).Contents (Elt F) → (⟨S512x128, .f32⟩ : BufTy).Contents (Elt F) → (⟨S512x128, .f32⟩ : BufTy).Contents (Elt F)),
    unary main_arg12 main_v193 (broadcastInDim S1x128 ![1] bcast_S128_S1x128_1 : (⟨S128, .f32⟩ : BufTy).Contents (Elt F) → (⟨S1x128, .f32⟩ : BufTy).Contents (Elt F)),
    unary main_v193 main_v194 (broadcastInDim S512x128 ![0, 1] bcast_S1x128_S512x128_0_1 : (⟨S1x128, .f32⟩ : BufTy).Contents (Elt F) → (⟨S512x128, .f32⟩ : BufTy).Contents (Elt F)),
    binary main_v192 main_v194 main_v195 (addf : (⟨S512x128, .f32⟩ : BufTy).Contents (Elt F) → (⟨S512x128, .f32⟩ : BufTy).Contents (Elt F) → (⟨S512x128, .f32⟩ : BufTy).Contents (Elt F)),
    TRef.nullary main_call14.cst (constant S_ .f32 0x00000000#32),
    TRef.unary main_call14.cst main_call14.v0 (broadcastInDim S512x128 ![] bcast_S_S512x128),
    TRef.binary (.of main_v195) main_call14.v0 main_call14.v1 maximumf ]

/-- Statements 233 to 275: 89 operations. -/
abbrev opsL12 : List (HloOp τ sig (Elt F)) :=
  [ binary main_v196 main_arg4 main_v197 ((fun l r => Host.dotGeneral dot_S512x128_S128x128_S512x128_1_0_0_1_n_n none l r) : (⟨S512x128, .f32⟩ : BufTy).Contents (Elt F) → (⟨S128x128, .f32⟩ : BufTy).Contents (Elt F) → (⟨S512x128, .f32⟩ : BufTy).Contents (Elt F)),
    unary main_v122 main_v198 (broadcastInDim S262144x1 ![0] bcast_S262144_S262144x1_0 : (⟨S262144, .f32⟩ : BufTy).Contents (Elt F) → (⟨S262144x1, .f32⟩ : BufTy).Contents (Elt F)),
    TRef.nullary main_call15.c (constantI S_ 32 0#32),
    TRef.unary main_call15.c main_call15.v0 (broadcastInDim S262144 ![] bcast_S_S262144),
    TRef.binary (.of main_v2) main_call15.v0 main_call15.v1 (cmpi .slt),
    TRef.nullary main_call15.c_0 (constantI S_ 32 512#32),
    TRef.unary main_call15.c_0 main_call15.v2 (broadcastInDim S262144 ![] bcast_S_S262144),
    TRef.binary (.of main_v2) main_call15.v2 main_call15.v3 addi,
    TRef.ternary main_call15.v1 main_call15.v3 (.of main_v2) main_call15.call0.v0 select,
    TRef.unary main_call15.call0.v0 main_call15.v5 (broadcastInDim S262144x1 ![0] bcast_S262144_S262144x1_0),
    TRef.nullary main_call15.c_1 (constantI S1 32 511#32),
    TRef.nullary main_call15.c_2 (constantI S_ 32 0#32),
    TRef.unary main_call15.c_2 main_call15.v6 (broadcastInDim S262144x1 ![] bcast_S_S262144x1),
    TRef.binary main_call15.v5 main_call15.v6 main_call15.v7 (cmpi .sge),
    TRef.unary main_call15.c_1 main_call15.v8 (broadcastInDim S1x1 ![1] bcast_S1_S1x1_1),
    TRef.unary main_call15.v8 main_call15.v9 (broadcastInDim S262144x1 ![0, 1] bcast_S1x1_S262144x1_0_1),
    TRef.binary main_call15.v5 main_call15.v9 main_call15.v10 (cmpi .sle),
    TRef.binary main_call15.v7 main_call15.v10 main_call15.v11 andi,
    TRef.nullary main_call15.c_3 (constantI S_ 1 1#1),
    TRef.binary main_call15.v11 main_call15.c_3 main_call15.v12 (fun x v => Host.reduce IntOp.andi x v reducesTo_S262144x1_S262144_d1 h_S_),
    TRef.binary (.of main_v197) main_call15.v5 main_call15.v13 (fun x i => Host.gather gather_S512x128_S262144x1_S262144x128_1_0_n_n_0_1_1128 x i),
    TRef.unary main_call15.v12 main_call15.v14 (broadcastInDim S262144x128 ![0] bcast_S262144_S262144x128_0),
    TRef.nullary main_call15.cst (constant S_ .f32 0x7FC00000#32),
    TRef.unary main_call15.cst main_call15.v15 (broadcastInDim S262144x128 ![] bcast_S_S262144x128),
    TRef.ternary main_call15.v14 main_call15.v13 main_call15.v15 main_call15.v16 select,
    unary main_v198 main_v200 (broadcastInDim S262144x128 ![0, 1] bcast_S262144x1_S262144x128_0_1 : (⟨S262144x1, .f32⟩ : BufTy).Contents (Elt F) → (⟨S262144x128, .f32⟩ : BufTy).Contents (Elt F)),
    binary main_v200 main_v199 main_v201 (mulf : (⟨S262144x128, .f32⟩ : BufTy).Contents (Elt F) → (⟨S262144x128, .f32⟩ : BufTy).Contents (Elt F) → (⟨S262144x128, .f32⟩ : BufTy).Contents (Elt F)),
    nullary main_cst_33 (constant S_ .f32 0x00000000#32),
    unary main_cst_33 main_v202 (broadcastInDim S512x128 ![] bcast_S_S512x128 : (⟨S_, .f32⟩ : BufTy).Contents (Elt F) → (⟨S512x128, .f32⟩ : BufTy).Contents (Elt F)),
    nullary main_c_34 (constantI S_ 32 0#32),
    unary main_c_34 main_v203 (broadcastInDim S262144 ![] bcast_S_S262144 : (⟨S_, .i32⟩ : BufTy).Contents (Elt F) → (⟨S262144, .i32⟩ : BufTy).Contents (Elt F)),
    binary main_v6 main_v203 main_v204 (cmpi .slt : (⟨S262144, .i32⟩ : BufTy).Contents (Elt F) → (⟨S262144, .i32⟩ : BufTy).Contents (Elt F) → (⟨S262144, .i1⟩ : BufTy).Contents (Elt F)),
    nullary main_c_35 (constantI S_ 32 512#32),
    unary main_c_35 main_v205 (broadcastInDim S262144 ![] bcast_S_S262144 : (⟨S_, .i32⟩ : BufTy).Contents (Elt F) → (⟨S262144, .i32⟩ : BufTy).Contents (Elt F)),
    binary main_v6 main_v205 main_v206 (addi : (⟨S262144, .i32⟩ : BufTy).Contents (Elt F) → (⟨S262144, .i32⟩ : BufTy).Contents (Elt F) → (⟨S262144, .i32⟩ : BufTy).Contents (Elt F)),
    ternary main_v204 main_v206 main_v6 main_v207 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v207 main_v208 (broadcastInDim S262144x1 ![0] bcast_S262144_S262144x1_0 : (⟨S262144, .i32⟩ : BufTy).Contents (Elt F) → (⟨S262144x1, .i32⟩ : BufTy).Contents (Elt F)),
    ternary main_v202 main_v208 main_v201 main_v209 ((fun x i u => Host.scatterAdd scatter_S512x128_S262144x1_S262144x128_1_0_0_1 x i u) : (⟨S512x128, .f32⟩ : BufTy).Contents (Elt F) → (⟨S262144x1, .i32⟩ : BufTy).Contents (Elt F) → (⟨S262144x128, .f32⟩ : BufTy).Contents (Elt F) → (⟨S512x128, .f32⟩ : BufTy).Contents (Elt F)),
    unary main_arg7 main_v210 (broadcastInDim S1x128 ![1] bcast_S128_S1x128_1 : (⟨S128, .f32⟩ : BufTy).Contents (Elt F) → (⟨S1x128, .f32⟩ : BufTy).Contents (Elt F)),
    unary main_v210 main_v211 (broadcastInDim S512x128 ![0, 1] bcast_S1x128_S512x128_0_1 : (⟨S1x128, .f32⟩ : BufTy).Contents (Elt F) → (⟨S512x128, .f32⟩ : BufTy).Contents (Elt F)),
    binary main_v209 main_v211 main_v212 (addf : (⟨S512x128, .f32⟩ : BufTy).Contents (Elt F) → (⟨S512x128, .f32⟩ : BufTy).Contents (Elt F) → (⟨S512x128, .f32⟩ : BufTy).Contents (Elt F)),
    binary main_v212 main_v196 main_v213 (addf : (⟨S512x128, .f32⟩ : BufTy).Contents (Elt F) → (⟨S512x128, .f32⟩ : BufTy).Contents (Elt F) → (⟨S512x128, .f32⟩ : BufTy).Contents (Elt F)),
    nullary main_cst_36 (constant S_ .f32 0x00000000#32),
    binary main_v213 main_cst_36 main_v214 ((fun x v => Host.reduceAdd x v reducesTo_S512x128_S512_d1 h_S_) : (⟨S512x128, .f32⟩ : BufTy).Contents (Elt F) → (⟨S_, .f32⟩ : BufTy).Contents (Elt F) → (⟨S512, .f32⟩ : BufTy).Contents (Elt F)),
    unary main_v214 main_v215 (broadcastInDim S512x1 ![0] bcast_S512_S512x1_0 : (⟨S512, .f32⟩ : BufTy).Contents (Elt F) → (⟨S512x1, .f32⟩ : BufTy).Contents (Elt F)),
    nullary main_cst_37 (constant S_ .f32 0x43000000#32),
    unary main_cst_37 main_v216 (broadcastInDim S512x1 ![] bcast_S_S512x1 : (⟨S_, .f32⟩ : BufTy).Contents (Elt F) → (⟨S512x1, .f32⟩ : BufTy).Contents (Elt F)),
    binary main_v215 main_v216 main_v217 (Host.divf : (⟨S512x1, .f32⟩ : BufTy).Contents (Elt F) → (⟨S512x1, .f32⟩ : BufTy).Contents (Elt F) → (⟨S512x1, .f32⟩ : BufTy).Contents (Elt F)),
    nullary main_c_38 (constantI S_ 32 0#32),
    TRef.nullary main_call16.cst (constant S_ .f32 0x00000000#32),
    TRef.binary (.of main_v213) main_call16.cst main_call16.v0 (fun x v => Host.reduceAdd x v reducesTo_S512x128_S512_d1 h_S_),
    TRef.unary main_call16.v0 main_call16.v1 (broadcastInDim S512x1 ![0] bcast_S512_S512x1_0),
    TRef.nullary main_call16.cst_0 (constant S_ .f32 0x43000000#32),
    TRef.unary main_call16.cst_0 main_call16.v2 (broadcastInDim S512x1 ![] bcast_S_S512x1),
    TRef.binary main_call16.v1 main_call16.v2 main_call16.v3 Host.divf,
    TRef.unary main_call16.v3 main_call16.v4 (broadcastInDim S512x128 ![0, 1] bcast_S512x1_S512x128_0_1),
    TRef.binary (.of main_v213) main_call16.v4 main_call16.v5 subf,
    TRef.binary main_call16.v5 main_call16.v5 main_call16.v6 mulf,
    TRef.unary (.of main_c_38) main_call16.v7 (sitofp .f32),
    TRef.nullary main_call16.cst_1 (constant S_ .f32 0x43000000#32),
    TRef.binary main_call16.cst_1 main_call16.v7 main_call16.v8 subf,
    TRef.nullary main_call16.cst_2 (constant S_ .f32 0x00000000#32),
    TRef.binary main_call16.v6 main_call16.cst_2 main_call16.v9 (fun x v => Host.reduceAdd x v reducesTo_S512x128_S512_d1 h_S_),
    TRef.unary main_call16.v9 main_call16.v10 (broadcastInDim S512x1 ![0] bcast_S512_S512x1_0),
    TRef.unary main_call16.v8 main_call16.v11 (broadcastInDim S512x1 ![] bcast_S_S512x1),
    TRef.binary main_call16.v10 main_call16.v11 main_call16.v12 Host.divf,
    TRef.nullary main_call16.cst_3 (constant S_ .f32 0x00000000#32),
    TRef.binary main_call16.v8 main_call16.cst_3 main_call16.v13 (cmpf .ogt),
    TRef.nullary main_call16.cst_4 (constant S_ .f32 0x7FC00000#32),
    TRef.unary main_call16.cst_4 main_call16.call0.v0 id,
    TRef.unary main_call16.call0.v0 main_call16.call0.v1 (broadcastInDim S512x1 ![] bcast_S_S512x1),
    TRef.ternary main_call16.v13 main_call16.v12 main_call16.call0.v1 main_call16.call0.v2 (fun p a b => select (broadcastInDim S512x1 ![] bcast_S_S512x1 p) a b),
    unary main_v217 main_v219 (broadcastInDim S512x128 ![0, 1] bcast_S512x1_S512x128_0_1 : (⟨S512x1, .f32⟩ : BufTy).Contents (Elt F) → (⟨S512x128, .f32⟩ : BufTy).Contents (Elt F)),
    binary main_v213 main_v219 main_v220 (subf : (⟨S512x128, .f32⟩ : BufTy).Contents (Elt F) → (⟨S512x128, .f32⟩ : BufTy).Contents (Elt F) → (⟨S512x128, .f32⟩ : BufTy).Contents (Elt F)),
    nullary main_cst_39 (constant S_ .f32 0x3727C5AC#32),
    unary main_cst_39 main_v221 (broadcastInDim S512x1 ![] bcast_S_S512x1 : (⟨S_, .f32⟩ : BufTy).Contents (Elt F) → (⟨S512x1, .f32⟩ : BufTy).Contents (Elt F)),
    binary main_v218 main_v221 main_v222 (addf : (⟨S512x1, .f32⟩ : BufTy).Contents (Elt F) → (⟨S512x1, .f32⟩ : BufTy).Contents (Elt F) → (⟨S512x1, .f32⟩ : BufTy).Contents (Elt F)),
    unary main_v222 main_v223 (Host.sqrt : (⟨S512x1, .f32⟩ : BufTy).Contents (Elt F) → (⟨S512x1, .f32⟩ : BufTy).Contents (Elt F)),
    unary main_v223 main_v224 (broadcastInDim S512x128 ![0, 1] bcast_S512x1_S512x128_0_1 : (⟨S512x1, .f32⟩ : BufTy).Contents (Elt F) → (⟨S512x128, .f32⟩ : BufTy).Contents (Elt F)),
    binary main_v220 main_v224 main_v225 (Host.divf : (⟨S512x128, .f32⟩ : BufTy).Contents (Elt F) → (⟨S512x128, .f32⟩ : BufTy).Contents (Elt F) → (⟨S512x128, .f32⟩ : BufTy).Contents (Elt F)),
    unary main_arg10 main_v226 (broadcastInDim S1x128 ![1] bcast_S128_S1x128_1 : (⟨S128, .f32⟩ : BufTy).Contents (Elt F) → (⟨S1x128, .f32⟩ : BufTy).Contents (Elt F)),
    unary main_v226 main_v227 (broadcastInDim S512x128 ![0, 1] bcast_S1x128_S512x128_0_1 : (⟨S1x128, .f32⟩ : BufTy).Contents (Elt F) → (⟨S512x128, .f32⟩ : BufTy).Contents (Elt F)),
    binary main_v225 main_v227 main_v228 (mulf : (⟨S512x128, .f32⟩ : BufTy).Contents (Elt F) → (⟨S512x128, .f32⟩ : BufTy).Contents (Elt F) → (⟨S512x128, .f32⟩ : BufTy).Contents (Elt F)),
    unary main_arg13 main_v229 (broadcastInDim S1x128 ![1] bcast_S128_S1x128_1 : (⟨S128, .f32⟩ : BufTy).Contents (Elt F) → (⟨S1x128, .f32⟩ : BufTy).Contents (Elt F)),
    unary main_v229 main_v230 (broadcastInDim S512x128 ![0, 1] bcast_S1x128_S512x128_0_1 : (⟨S1x128, .f32⟩ : BufTy).Contents (Elt F) → (⟨S512x128, .f32⟩ : BufTy).Contents (Elt F)),
    binary main_v228 main_v230 main_v231 (addf : (⟨S512x128, .f32⟩ : BufTy).Contents (Elt F) → (⟨S512x128, .f32⟩ : BufTy).Contents (Elt F) → (⟨S512x128, .f32⟩ : BufTy).Contents (Elt F)),
    TRef.nullary main_call17.cst (constant S_ .f32 0x00000000#32),
    TRef.unary main_call17.cst main_call17.v0 (broadcastInDim S512x128 ![] bcast_S_S512x128),
    TRef.binary (.of main_v231) main_call17.v0 main_call17.v1 maximumf ]

/-- Statements 276 to 280: 5 operations. -/
abbrev opsB2 : List (HloOp τ sig (Elt F)) :=
  [ unary main_arg1 main_v233 ((extractStridedSlice S1x512x512 ![2, 0, 0] · slices_S4x512x512_S1x512x512_2_0_0) : (⟨S4x512x512, .f32⟩ : BufTy).Contents (Elt F) → (⟨S1x512x512, .f32⟩ : BufTy).Contents (Elt F)),
    reshape main_v233 main_v234 rfl shapeCasts_S1x512x512_S512x512,
    reshape main_v234 main_v235 rfl shapeCasts_S512x512_S262144,
    unary main_arg0 main_v236 ((extractStridedSlice S1x512x128 ![2, 0, 0] · slices_S4x512x128_S1x512x128_2_0_0) : (⟨S4x512x128, .f32⟩ : BufTy).Contents (Elt F) → (⟨S1x512x128, .f32⟩ : BufTy).Contents (Elt F)),
    reshape main_v236 main_v237 rfl shapeCasts_S1x512x128_S512x128 ]

/-- Statements 281 to 323: 89 operations. -/
abbrev opsL20 : List (HloOp τ sig (Elt F)) :=
  [ binary main_v237 main_arg2 main_v238 ((fun l r => Host.dotGeneral dot_S512x128_S128x128_S512x128_1_0_0_1_n_n none l r) : (⟨S512x128, .f32⟩ : BufTy).Contents (Elt F) → (⟨S128x128, .f32⟩ : BufTy).Contents (Elt F) → (⟨S512x128, .f32⟩ : BufTy).Contents (Elt F)),
    unary main_v235 main_v239 (broadcastInDim S262144x1 ![0] bcast_S262144_S262144x1_0 : (⟨S262144, .f32⟩ : BufTy).Contents (Elt F) → (⟨S262144x1, .f32⟩ : BufTy).Contents (Elt F)),
    TRef.nullary main_call18.c (constantI S_ 32 0#32),
    TRef.unary main_call18.c main_call18.v0 (broadcastInDim S262144 ![] bcast_S_S262144),
    TRef.binary (.of main_v2) main_call18.v0 main_call18.v1 (cmpi .slt),
    TRef.nullary main_call18.c_0 (constantI S_ 32 512#32),
    TRef.unary main_call18.c_0 main_call18.v2 (broadcastInDim S262144 ![] bcast_S_S262144),
    TRef.binary (.of main_v2) main_call18.v2 main_call18.v3 addi,
    TRef.ternary main_call18.v1 main_call18.v3 (.of main_v2) main_call18.call0.v0 select,
    TRef.unary main_call18.call0.v0 main_call18.v5 (broadcastInDim S262144x1 ![0] bcast_S262144_S262144x1_0),
    TRef.nullary main_call18.c_1 (constantI S1 32 511#32),
    TRef.nullary main_call18.c_2 (constantI S_ 32 0#32),
    TRef.unary main_call18.c_2 main_call18.v6 (broadcastInDim S262144x1 ![] bcast_S_S262144x1),
    TRef.binary main_call18.v5 main_call18.v6 main_call18.v7 (cmpi .sge),
    TRef.unary main_call18.c_1 main_call18.v8 (broadcastInDim S1x1 ![1] bcast_S1_S1x1_1),
    TRef.unary main_call18.v8 main_call18.v9 (broadcastInDim S262144x1 ![0, 1] bcast_S1x1_S262144x1_0_1),
    TRef.binary main_call18.v5 main_call18.v9 main_call18.v10 (cmpi .sle),
    TRef.binary main_call18.v7 main_call18.v10 main_call18.v11 andi,
    TRef.nullary main_call18.c_3 (constantI S_ 1 1#1),
    TRef.binary main_call18.v11 main_call18.c_3 main_call18.v12 (fun x v => Host.reduce IntOp.andi x v reducesTo_S262144x1_S262144_d1 h_S_),
    TRef.binary (.of main_v238) main_call18.v5 main_call18.v13 (fun x i => Host.gather gather_S512x128_S262144x1_S262144x128_1_0_n_n_0_1_1128 x i),
    TRef.unary main_call18.v12 main_call18.v14 (broadcastInDim S262144x128 ![0] bcast_S262144_S262144x128_0),
    TRef.nullary main_call18.cst (constant S_ .f32 0x7FC00000#32),
    TRef.unary main_call18.cst main_call18.v15 (broadcastInDim S262144x128 ![] bcast_S_S262144x128),
    TRef.ternary main_call18.v14 main_call18.v13 main_call18.v15 main_call18.v16 select,
    unary main_v239 main_v241 (broadcastInDim S262144x128 ![0, 1] bcast_S262144x1_S262144x128_0_1 : (⟨S262144x1, .f32⟩ : BufTy).Contents (Elt F) → (⟨S262144x128, .f32⟩ : BufTy).Contents (Elt F)),
    binary main_v241 main_v240 main_v242 (mulf : (⟨S262144x128, .f32⟩ : BufTy).Contents (Elt F) → (⟨S262144x128, .f32⟩ : BufTy).Contents (Elt F) → (⟨S262144x128, .f32⟩ : BufTy).Contents (Elt F)),
    nullary main_cst_40 (constant S_ .f32 0x00000000#32),
    unary main_cst_40 main_v243 (broadcastInDim S512x128 ![] bcast_S_S512x128 : (⟨S_, .f32⟩ : BufTy).Contents (Elt F) → (⟨S512x128, .f32⟩ : BufTy).Contents (Elt F)),
    nullary main_c_41 (constantI S_ 32 0#32),
    unary main_c_41 main_v244 (broadcastInDim S262144 ![] bcast_S_S262144 : (⟨S_, .i32⟩ : BufTy).Contents (Elt F) → (⟨S262144, .i32⟩ : BufTy).Contents (Elt F)),
    binary main_v6 main_v244 main_v245 (cmpi .slt : (⟨S262144, .i32⟩ : BufTy).Contents (Elt F) → (⟨S262144, .i32⟩ : BufTy).Contents (Elt F) → (⟨S262144, .i1⟩ : BufTy).Contents (Elt F)),
    nullary main_c_42 (constantI S_ 32 512#32),
    unary main_c_42 main_v246 (broadcastInDim S262144 ![] bcast_S_S262144 : (⟨S_, .i32⟩ : BufTy).Contents (Elt F) → (⟨S262144, .i32⟩ : BufTy).Contents (Elt F)),
    binary main_v6 main_v246 main_v247 (addi : (⟨S262144, .i32⟩ : BufTy).Contents (Elt F) → (⟨S262144, .i32⟩ : BufTy).Contents (Elt F) → (⟨S262144, .i32⟩ : BufTy).Contents (Elt F)),
    ternary main_v245 main_v247 main_v6 main_v248 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v248 main_v249 (broadcastInDim S262144x1 ![0] bcast_S262144_S262144x1_0 : (⟨S262144, .i32⟩ : BufTy).Contents (Elt F) → (⟨S262144x1, .i32⟩ : BufTy).Contents (Elt F)),
    ternary main_v243 main_v249 main_v242 main_v250 ((fun x i u => Host.scatterAdd scatter_S512x128_S262144x1_S262144x128_1_0_0_1 x i u) : (⟨S512x128, .f32⟩ : BufTy).Contents (Elt F) → (⟨S262144x1, .i32⟩ : BufTy).Contents (Elt F) → (⟨S262144x128, .f32⟩ : BufTy).Contents (Elt F) → (⟨S512x128, .f32⟩ : BufTy).Contents (Elt F)),
    unary main_arg5 main_v251 (broadcastInDim S1x128 ![1] bcast_S128_S1x128_1 : (⟨S128, .f32⟩ : BufTy).Contents (Elt F) → (⟨S1x128, .f32⟩ : BufTy).Contents (Elt F)),
    unary main_v251 main_v252 (broadcastInDim S512x128 ![0, 1] bcast_S1x128_S512x128_0_1 : (⟨S1x128, .f32⟩ : BufTy).Contents (Elt F) → (⟨S512x128, .f32⟩ : BufTy).Contents (Elt F)),
    binary main_v250 main_v252 main_v253 (addf : (⟨S512x128, .f32⟩ : BufTy).Contents (Elt F) → (⟨S512x128, .f32⟩ : BufTy).Contents (Elt F) → (⟨S512x128, .f32⟩ : BufTy).Contents (Elt F)),
    binary main_v253 main_v237 main_v254 (addf : (⟨S512x128, .f32⟩ : BufTy).Contents (Elt F) → (⟨S512x128, .f32⟩ : BufTy).Contents (Elt F) → (⟨S512x128, .f32⟩ : BufTy).Contents (Elt F)),
    nullary main_cst_43 (constant S_ .f32 0x00000000#32),
    binary main_v254 main_cst_43 main_v255 ((fun x v => Host.reduceAdd x v reducesTo_S512x128_S512_d1 h_S_) : (⟨S512x128, .f32⟩ : BufTy).Contents (Elt F) → (⟨S_, .f32⟩ : BufTy).Contents (Elt F) → (⟨S512, .f32⟩ : BufTy).Contents (Elt F)),
    unary main_v255 main_v256 (broadcastInDim S512x1 ![0] bcast_S512_S512x1_0 : (⟨S512, .f32⟩ : BufTy).Contents (Elt F) → (⟨S512x1, .f32⟩ : BufTy).Contents (Elt F)),
    nullary main_cst_44 (constant S_ .f32 0x43000000#32),
    unary main_cst_44 main_v257 (broadcastInDim S512x1 ![] bcast_S_S512x1 : (⟨S_, .f32⟩ : BufTy).Contents (Elt F) → (⟨S512x1, .f32⟩ : BufTy).Contents (Elt F)),
    binary main_v256 main_v257 main_v258 (Host.divf : (⟨S512x1, .f32⟩ : BufTy).Contents (Elt F) → (⟨S512x1, .f32⟩ : BufTy).Contents (Elt F) → (⟨S512x1, .f32⟩ : BufTy).Contents (Elt F)),
    nullary main_c_45 (constantI S_ 32 0#32),
    TRef.nullary main_call19.cst (constant S_ .f32 0x00000000#32),
    TRef.binary (.of main_v254) main_call19.cst main_call19.v0 (fun x v => Host.reduceAdd x v reducesTo_S512x128_S512_d1 h_S_),
    TRef.unary main_call19.v0 main_call19.v1 (broadcastInDim S512x1 ![0] bcast_S512_S512x1_0),
    TRef.nullary main_call19.cst_0 (constant S_ .f32 0x43000000#32),
    TRef.unary main_call19.cst_0 main_call19.v2 (broadcastInDim S512x1 ![] bcast_S_S512x1),
    TRef.binary main_call19.v1 main_call19.v2 main_call19.v3 Host.divf,
    TRef.unary main_call19.v3 main_call19.v4 (broadcastInDim S512x128 ![0, 1] bcast_S512x1_S512x128_0_1),
    TRef.binary (.of main_v254) main_call19.v4 main_call19.v5 subf,
    TRef.binary main_call19.v5 main_call19.v5 main_call19.v6 mulf,
    TRef.unary (.of main_c_45) main_call19.v7 (sitofp .f32),
    TRef.nullary main_call19.cst_1 (constant S_ .f32 0x43000000#32),
    TRef.binary main_call19.cst_1 main_call19.v7 main_call19.v8 subf,
    TRef.nullary main_call19.cst_2 (constant S_ .f32 0x00000000#32),
    TRef.binary main_call19.v6 main_call19.cst_2 main_call19.v9 (fun x v => Host.reduceAdd x v reducesTo_S512x128_S512_d1 h_S_),
    TRef.unary main_call19.v9 main_call19.v10 (broadcastInDim S512x1 ![0] bcast_S512_S512x1_0),
    TRef.unary main_call19.v8 main_call19.v11 (broadcastInDim S512x1 ![] bcast_S_S512x1),
    TRef.binary main_call19.v10 main_call19.v11 main_call19.v12 Host.divf,
    TRef.nullary main_call19.cst_3 (constant S_ .f32 0x00000000#32),
    TRef.binary main_call19.v8 main_call19.cst_3 main_call19.v13 (cmpf .ogt),
    TRef.nullary main_call19.cst_4 (constant S_ .f32 0x7FC00000#32),
    TRef.unary main_call19.cst_4 main_call19.call0.v0 id,
    TRef.unary main_call19.call0.v0 main_call19.call0.v1 (broadcastInDim S512x1 ![] bcast_S_S512x1),
    TRef.ternary main_call19.v13 main_call19.v12 main_call19.call0.v1 main_call19.call0.v2 (fun p a b => select (broadcastInDim S512x1 ![] bcast_S_S512x1 p) a b),
    unary main_v258 main_v260 (broadcastInDim S512x128 ![0, 1] bcast_S512x1_S512x128_0_1 : (⟨S512x1, .f32⟩ : BufTy).Contents (Elt F) → (⟨S512x128, .f32⟩ : BufTy).Contents (Elt F)),
    binary main_v254 main_v260 main_v261 (subf : (⟨S512x128, .f32⟩ : BufTy).Contents (Elt F) → (⟨S512x128, .f32⟩ : BufTy).Contents (Elt F) → (⟨S512x128, .f32⟩ : BufTy).Contents (Elt F)),
    nullary main_cst_46 (constant S_ .f32 0x3727C5AC#32),
    unary main_cst_46 main_v262 (broadcastInDim S512x1 ![] bcast_S_S512x1 : (⟨S_, .f32⟩ : BufTy).Contents (Elt F) → (⟨S512x1, .f32⟩ : BufTy).Contents (Elt F)),
    binary main_v259 main_v262 main_v263 (addf : (⟨S512x1, .f32⟩ : BufTy).Contents (Elt F) → (⟨S512x1, .f32⟩ : BufTy).Contents (Elt F) → (⟨S512x1, .f32⟩ : BufTy).Contents (Elt F)),
    unary main_v263 main_v264 (Host.sqrt : (⟨S512x1, .f32⟩ : BufTy).Contents (Elt F) → (⟨S512x1, .f32⟩ : BufTy).Contents (Elt F)),
    unary main_v264 main_v265 (broadcastInDim S512x128 ![0, 1] bcast_S512x1_S512x128_0_1 : (⟨S512x1, .f32⟩ : BufTy).Contents (Elt F) → (⟨S512x128, .f32⟩ : BufTy).Contents (Elt F)),
    binary main_v261 main_v265 main_v266 (Host.divf : (⟨S512x128, .f32⟩ : BufTy).Contents (Elt F) → (⟨S512x128, .f32⟩ : BufTy).Contents (Elt F) → (⟨S512x128, .f32⟩ : BufTy).Contents (Elt F)),
    unary main_arg8 main_v267 (broadcastInDim S1x128 ![1] bcast_S128_S1x128_1 : (⟨S128, .f32⟩ : BufTy).Contents (Elt F) → (⟨S1x128, .f32⟩ : BufTy).Contents (Elt F)),
    unary main_v267 main_v268 (broadcastInDim S512x128 ![0, 1] bcast_S1x128_S512x128_0_1 : (⟨S1x128, .f32⟩ : BufTy).Contents (Elt F) → (⟨S512x128, .f32⟩ : BufTy).Contents (Elt F)),
    binary main_v266 main_v268 main_v269 (mulf : (⟨S512x128, .f32⟩ : BufTy).Contents (Elt F) → (⟨S512x128, .f32⟩ : BufTy).Contents (Elt F) → (⟨S512x128, .f32⟩ : BufTy).Contents (Elt F)),
    unary main_arg11 main_v270 (broadcastInDim S1x128 ![1] bcast_S128_S1x128_1 : (⟨S128, .f32⟩ : BufTy).Contents (Elt F) → (⟨S1x128, .f32⟩ : BufTy).Contents (Elt F)),
    unary main_v270 main_v271 (broadcastInDim S512x128 ![0, 1] bcast_S1x128_S512x128_0_1 : (⟨S1x128, .f32⟩ : BufTy).Contents (Elt F) → (⟨S512x128, .f32⟩ : BufTy).Contents (Elt F)),
    binary main_v269 main_v271 main_v272 (addf : (⟨S512x128, .f32⟩ : BufTy).Contents (Elt F) → (⟨S512x128, .f32⟩ : BufTy).Contents (Elt F) → (⟨S512x128, .f32⟩ : BufTy).Contents (Elt F)),
    TRef.nullary main_call20.cst (constant S_ .f32 0x00000000#32),
    TRef.unary main_call20.cst main_call20.v0 (broadcastInDim S512x128 ![] bcast_S_S512x128),
    TRef.binary (.of main_v272) main_call20.v0 main_call20.v1 maximumf ]

/-- Statements 324 to 366: 89 operations. -/
abbrev opsL21 : List (HloOp τ sig (Elt F)) :=
  [ binary main_v273 main_arg3 main_v274 ((fun l r => Host.dotGeneral dot_S512x128_S128x128_S512x128_1_0_0_1_n_n none l r) : (⟨S512x128, .f32⟩ : BufTy).Contents (Elt F) → (⟨S128x128, .f32⟩ : BufTy).Contents (Elt F) → (⟨S512x128, .f32⟩ : BufTy).Contents (Elt F)),
    unary main_v235 main_v275 (broadcastInDim S262144x1 ![0] bcast_S262144_S262144x1_0 : (⟨S262144, .f32⟩ : BufTy).Contents (Elt F) → (⟨S262144x1, .f32⟩ : BufTy).Contents (Elt F)),
    TRef.nullary main_call21.c (constantI S_ 32 0#32),
    TRef.unary main_call21.c main_call21.v0 (broadcastInDim S262144 ![] bcast_S_S262144),
    TRef.binary (.of main_v2) main_call21.v0 main_call21.v1 (cmpi .slt),
    TRef.nullary main_call21.c_0 (constantI S_ 32 512#32),
    TRef.unary main_call21.c_0 main_call21.v2 (broadcastInDim S262144 ![] bcast_S_S262144),
    TRef.binary (.of main_v2) main_call21.v2 main_call21.v3 addi,
    TRef.ternary main_call21.v1 main_call21.v3 (.of main_v2) main_call21.call0.v0 select,
    TRef.unary main_call21.call0.v0 main_call21.v5 (broadcastInDim S262144x1 ![0] bcast_S262144_S262144x1_0),
    TRef.nullary main_call21.c_1 (constantI S1 32 511#32),
    TRef.nullary main_call21.c_2 (constantI S_ 32 0#32),
    TRef.unary main_call21.c_2 main_call21.v6 (broadcastInDim S262144x1 ![] bcast_S_S262144x1),
    TRef.binary main_call21.v5 main_call21.v6 main_call21.v7 (cmpi .sge),
    TRef.unary main_call21.c_1 main_call21.v8 (broadcastInDim S1x1 ![1] bcast_S1_S1x1_1),
    TRef.unary main_call21.v8 main_call21.v9 (broadcastInDim S262144x1 ![0, 1] bcast_S1x1_S262144x1_0_1),
    TRef.binary main_call21.v5 main_call21.v9 main_call21.v10 (cmpi .sle),
    TRef.binary main_call21.v7 main_call21.v10 main_call21.v11 andi,
    TRef.nullary main_call21.c_3 (constantI S_ 1 1#1),
    TRef.binary main_call21.v11 main_call21.c_3 main_call21.v12 (fun x v => Host.reduce IntOp.andi x v reducesTo_S262144x1_S262144_d1 h_S_),
    TRef.binary (.of main_v274) main_call21.v5 main_call21.v13 (fun x i => Host.gather gather_S512x128_S262144x1_S262144x128_1_0_n_n_0_1_1128 x i),
    TRef.unary main_call21.v12 main_call21.v14 (broadcastInDim S262144x128 ![0] bcast_S262144_S262144x128_0),
    TRef.nullary main_call21.cst (constant S_ .f32 0x7FC00000#32),
    TRef.unary main_call21.cst main_call21.v15 (broadcastInDim S262144x128 ![] bcast_S_S262144x128),
    TRef.ternary main_call21.v14 main_call21.v13 main_call21.v15 main_call21.v16 select,
    unary main_v275 main_v277 (broadcastInDim S262144x128 ![0, 1] bcast_S262144x1_S262144x128_0_1 : (⟨S262144x1, .f32⟩ : BufTy).Contents (Elt F) → (⟨S262144x128, .f32⟩ : BufTy).Contents (Elt F)),
    binary main_v277 main_v276 main_v278 (mulf : (⟨S262144x128, .f32⟩ : BufTy).Contents (Elt F) → (⟨S262144x128, .f32⟩ : BufTy).Contents (Elt F) → (⟨S262144x128, .f32⟩ : BufTy).Contents (Elt F)),
    nullary main_cst_47 (constant S_ .f32 0x00000000#32),
    unary main_cst_47 main_v279 (broadcastInDim S512x128 ![] bcast_S_S512x128 : (⟨S_, .f32⟩ : BufTy).Contents (Elt F) → (⟨S512x128, .f32⟩ : BufTy).Contents (Elt F)),
    nullary main_c_48 (constantI S_ 32 0#32),
    unary main_c_48 main_v280 (broadcastInDim S262144 ![] bcast_S_S262144 : (⟨S_, .i32⟩ : BufTy).Contents (Elt F) → (⟨S262144, .i32⟩ : BufTy).Contents (Elt F)),
    binary main_v6 main_v280 main_v281 (cmpi .slt : (⟨S262144, .i32⟩ : BufTy).Contents (Elt F) → (⟨S262144, .i32⟩ : BufTy).Contents (Elt F) → (⟨S262144, .i1⟩ : BufTy).Contents (Elt F)),
    nullary main_c_49 (constantI S_ 32 512#32),
    unary main_c_49 main_v282 (broadcastInDim S262144 ![] bcast_S_S262144 : (⟨S_, .i32⟩ : BufTy).Contents (Elt F) → (⟨S262144, .i32⟩ : BufTy).Contents (Elt F)),
    binary main_v6 main_v282 main_v283 (addi : (⟨S262144, .i32⟩ : BufTy).Contents (Elt F) → (⟨S262144, .i32⟩ : BufTy).Contents (Elt F) → (⟨S262144, .i32⟩ : BufTy).Contents (Elt F)),
    ternary main_v281 main_v283 main_v6 main_v284 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v284 main_v285 (broadcastInDim S262144x1 ![0] bcast_S262144_S262144x1_0 : (⟨S262144, .i32⟩ : BufTy).Contents (Elt F) → (⟨S262144x1, .i32⟩ : BufTy).Contents (Elt F)),
    ternary main_v279 main_v285 main_v278 main_v286 ((fun x i u => Host.scatterAdd scatter_S512x128_S262144x1_S262144x128_1_0_0_1 x i u) : (⟨S512x128, .f32⟩ : BufTy).Contents (Elt F) → (⟨S262144x1, .i32⟩ : BufTy).Contents (Elt F) → (⟨S262144x128, .f32⟩ : BufTy).Contents (Elt F) → (⟨S512x128, .f32⟩ : BufTy).Contents (Elt F)),
    unary main_arg6 main_v287 (broadcastInDim S1x128 ![1] bcast_S128_S1x128_1 : (⟨S128, .f32⟩ : BufTy).Contents (Elt F) → (⟨S1x128, .f32⟩ : BufTy).Contents (Elt F)),
    unary main_v287 main_v288 (broadcastInDim S512x128 ![0, 1] bcast_S1x128_S512x128_0_1 : (⟨S1x128, .f32⟩ : BufTy).Contents (Elt F) → (⟨S512x128, .f32⟩ : BufTy).Contents (Elt F)),
    binary main_v286 main_v288 main_v289 (addf : (⟨S512x128, .f32⟩ : BufTy).Contents (Elt F) → (⟨S512x128, .f32⟩ : BufTy).Contents (Elt F) → (⟨S512x128, .f32⟩ : BufTy).Contents (Elt F)),
    binary main_v289 main_v273 main_v290 (addf : (⟨S512x128, .f32⟩ : BufTy).Contents (Elt F) → (⟨S512x128, .f32⟩ : BufTy).Contents (Elt F) → (⟨S512x128, .f32⟩ : BufTy).Contents (Elt F)),
    nullary main_cst_50 (constant S_ .f32 0x00000000#32),
    binary main_v290 main_cst_50 main_v291 ((fun x v => Host.reduceAdd x v reducesTo_S512x128_S512_d1 h_S_) : (⟨S512x128, .f32⟩ : BufTy).Contents (Elt F) → (⟨S_, .f32⟩ : BufTy).Contents (Elt F) → (⟨S512, .f32⟩ : BufTy).Contents (Elt F)),
    unary main_v291 main_v292 (broadcastInDim S512x1 ![0] bcast_S512_S512x1_0 : (⟨S512, .f32⟩ : BufTy).Contents (Elt F) → (⟨S512x1, .f32⟩ : BufTy).Contents (Elt F)),
    nullary main_cst_51 (constant S_ .f32 0x43000000#32),
    unary main_cst_51 main_v293 (broadcastInDim S512x1 ![] bcast_S_S512x1 : (⟨S_, .f32⟩ : BufTy).Contents (Elt F) → (⟨S512x1, .f32⟩ : BufTy).Contents (Elt F)),
    binary main_v292 main_v293 main_v294 (Host.divf : (⟨S512x1, .f32⟩ : BufTy).Contents (Elt F) → (⟨S512x1, .f32⟩ : BufTy).Contents (Elt F) → (⟨S512x1, .f32⟩ : BufTy).Contents (Elt F)),
    nullary main_c_52 (constantI S_ 32 0#32),
    TRef.nullary main_call22.cst (constant S_ .f32 0x00000000#32),
    TRef.binary (.of main_v290) main_call22.cst main_call22.v0 (fun x v => Host.reduceAdd x v reducesTo_S512x128_S512_d1 h_S_),
    TRef.unary main_call22.v0 main_call22.v1 (broadcastInDim S512x1 ![0] bcast_S512_S512x1_0),
    TRef.nullary main_call22.cst_0 (constant S_ .f32 0x43000000#32),
    TRef.unary main_call22.cst_0 main_call22.v2 (broadcastInDim S512x1 ![] bcast_S_S512x1),
    TRef.binary main_call22.v1 main_call22.v2 main_call22.v3 Host.divf,
    TRef.unary main_call22.v3 main_call22.v4 (broadcastInDim S512x128 ![0, 1] bcast_S512x1_S512x128_0_1),
    TRef.binary (.of main_v290) main_call22.v4 main_call22.v5 subf,
    TRef.binary main_call22.v5 main_call22.v5 main_call22.v6 mulf,
    TRef.unary (.of main_c_52) main_call22.v7 (sitofp .f32),
    TRef.nullary main_call22.cst_1 (constant S_ .f32 0x43000000#32),
    TRef.binary main_call22.cst_1 main_call22.v7 main_call22.v8 subf,
    TRef.nullary main_call22.cst_2 (constant S_ .f32 0x00000000#32),
    TRef.binary main_call22.v6 main_call22.cst_2 main_call22.v9 (fun x v => Host.reduceAdd x v reducesTo_S512x128_S512_d1 h_S_),
    TRef.unary main_call22.v9 main_call22.v10 (broadcastInDim S512x1 ![0] bcast_S512_S512x1_0),
    TRef.unary main_call22.v8 main_call22.v11 (broadcastInDim S512x1 ![] bcast_S_S512x1),
    TRef.binary main_call22.v10 main_call22.v11 main_call22.v12 Host.divf,
    TRef.nullary main_call22.cst_3 (constant S_ .f32 0x00000000#32),
    TRef.binary main_call22.v8 main_call22.cst_3 main_call22.v13 (cmpf .ogt),
    TRef.nullary main_call22.cst_4 (constant S_ .f32 0x7FC00000#32),
    TRef.unary main_call22.cst_4 main_call22.call0.v0 id,
    TRef.unary main_call22.call0.v0 main_call22.call0.v1 (broadcastInDim S512x1 ![] bcast_S_S512x1),
    TRef.ternary main_call22.v13 main_call22.v12 main_call22.call0.v1 main_call22.call0.v2 (fun p a b => select (broadcastInDim S512x1 ![] bcast_S_S512x1 p) a b),
    unary main_v294 main_v296 (broadcastInDim S512x128 ![0, 1] bcast_S512x1_S512x128_0_1 : (⟨S512x1, .f32⟩ : BufTy).Contents (Elt F) → (⟨S512x128, .f32⟩ : BufTy).Contents (Elt F)),
    binary main_v290 main_v296 main_v297 (subf : (⟨S512x128, .f32⟩ : BufTy).Contents (Elt F) → (⟨S512x128, .f32⟩ : BufTy).Contents (Elt F) → (⟨S512x128, .f32⟩ : BufTy).Contents (Elt F)),
    nullary main_cst_53 (constant S_ .f32 0x3727C5AC#32),
    unary main_cst_53 main_v298 (broadcastInDim S512x1 ![] bcast_S_S512x1 : (⟨S_, .f32⟩ : BufTy).Contents (Elt F) → (⟨S512x1, .f32⟩ : BufTy).Contents (Elt F)),
    binary main_v295 main_v298 main_v299 (addf : (⟨S512x1, .f32⟩ : BufTy).Contents (Elt F) → (⟨S512x1, .f32⟩ : BufTy).Contents (Elt F) → (⟨S512x1, .f32⟩ : BufTy).Contents (Elt F)),
    unary main_v299 main_v300 (Host.sqrt : (⟨S512x1, .f32⟩ : BufTy).Contents (Elt F) → (⟨S512x1, .f32⟩ : BufTy).Contents (Elt F)),
    unary main_v300 main_v301 (broadcastInDim S512x128 ![0, 1] bcast_S512x1_S512x128_0_1 : (⟨S512x1, .f32⟩ : BufTy).Contents (Elt F) → (⟨S512x128, .f32⟩ : BufTy).Contents (Elt F)),
    binary main_v297 main_v301 main_v302 (Host.divf : (⟨S512x128, .f32⟩ : BufTy).Contents (Elt F) → (⟨S512x128, .f32⟩ : BufTy).Contents (Elt F) → (⟨S512x128, .f32⟩ : BufTy).Contents (Elt F)),
    unary main_arg9 main_v303 (broadcastInDim S1x128 ![1] bcast_S128_S1x128_1 : (⟨S128, .f32⟩ : BufTy).Contents (Elt F) → (⟨S1x128, .f32⟩ : BufTy).Contents (Elt F)),
    unary main_v303 main_v304 (broadcastInDim S512x128 ![0, 1] bcast_S1x128_S512x128_0_1 : (⟨S1x128, .f32⟩ : BufTy).Contents (Elt F) → (⟨S512x128, .f32⟩ : BufTy).Contents (Elt F)),
    binary main_v302 main_v304 main_v305 (mulf : (⟨S512x128, .f32⟩ : BufTy).Contents (Elt F) → (⟨S512x128, .f32⟩ : BufTy).Contents (Elt F) → (⟨S512x128, .f32⟩ : BufTy).Contents (Elt F)),
    unary main_arg12 main_v306 (broadcastInDim S1x128 ![1] bcast_S128_S1x128_1 : (⟨S128, .f32⟩ : BufTy).Contents (Elt F) → (⟨S1x128, .f32⟩ : BufTy).Contents (Elt F)),
    unary main_v306 main_v307 (broadcastInDim S512x128 ![0, 1] bcast_S1x128_S512x128_0_1 : (⟨S1x128, .f32⟩ : BufTy).Contents (Elt F) → (⟨S512x128, .f32⟩ : BufTy).Contents (Elt F)),
    binary main_v305 main_v307 main_v308 (addf : (⟨S512x128, .f32⟩ : BufTy).Contents (Elt F) → (⟨S512x128, .f32⟩ : BufTy).Contents (Elt F) → (⟨S512x128, .f32⟩ : BufTy).Contents (Elt F)),
    TRef.nullary main_call23.cst (constant S_ .f32 0x00000000#32),
    TRef.unary main_call23.cst main_call23.v0 (broadcastInDim S512x128 ![] bcast_S_S512x128),
    TRef.binary (.of main_v308) main_call23.v0 main_call23.v1 maximumf ]

/-- Statements 367 to 409: 89 operations. -/
abbrev opsL22 : List (HloOp τ sig (Elt F)) :=
  [ binary main_v309 main_arg4 main_v310 ((fun l r => Host.dotGeneral dot_S512x128_S128x128_S512x128_1_0_0_1_n_n none l r) : (⟨S512x128, .f32⟩ : BufTy).Contents (Elt F) → (⟨S128x128, .f32⟩ : BufTy).Contents (Elt F) → (⟨S512x128, .f32⟩ : BufTy).Contents (Elt F)),
    unary main_v235 main_v311 (broadcastInDim S262144x1 ![0] bcast_S262144_S262144x1_0 : (⟨S262144, .f32⟩ : BufTy).Contents (Elt F) → (⟨S262144x1, .f32⟩ : BufTy).Contents (Elt F)),
    TRef.nullary main_call24.c (constantI S_ 32 0#32),
    TRef.unary main_call24.c main_call24.v0 (broadcastInDim S262144 ![] bcast_S_S262144),
    TRef.binary (.of main_v2) main_call24.v0 main_call24.v1 (cmpi .slt),
    TRef.nullary main_call24.c_0 (constantI S_ 32 512#32),
    TRef.unary main_call24.c_0 main_call24.v2 (broadcastInDim S262144 ![] bcast_S_S262144),
    TRef.binary (.of main_v2) main_call24.v2 main_call24.v3 addi,
    TRef.ternary main_call24.v1 main_call24.v3 (.of main_v2) main_call24.call0.v0 select,
    TRef.unary main_call24.call0.v0 main_call24.v5 (broadcastInDim S262144x1 ![0] bcast_S262144_S262144x1_0),
    TRef.nullary main_call24.c_1 (constantI S1 32 511#32),
    TRef.nullary main_call24.c_2 (constantI S_ 32 0#32),
    TRef.unary main_call24.c_2 main_call24.v6 (broadcastInDim S262144x1 ![] bcast_S_S262144x1),
    TRef.binary main_call24.v5 main_call24.v6 main_call24.v7 (cmpi .sge),
    TRef.unary main_call24.c_1 main_call24.v8 (broadcastInDim S1x1 ![1] bcast_S1_S1x1_1),
    TRef.unary main_call24.v8 main_call24.v9 (broadcastInDim S262144x1 ![0, 1] bcast_S1x1_S262144x1_0_1),
    TRef.binary main_call24.v5 main_call24.v9 main_call24.v10 (cmpi .sle),
    TRef.binary main_call24.v7 main_call24.v10 main_call24.v11 andi,
    TRef.nullary main_call24.c_3 (constantI S_ 1 1#1),
    TRef.binary main_call24.v11 main_call24.c_3 main_call24.v12 (fun x v => Host.reduce IntOp.andi x v reducesTo_S262144x1_S262144_d1 h_S_),
    TRef.binary (.of main_v310) main_call24.v5 main_call24.v13 (fun x i => Host.gather gather_S512x128_S262144x1_S262144x128_1_0_n_n_0_1_1128 x i),
    TRef.unary main_call24.v12 main_call24.v14 (broadcastInDim S262144x128 ![0] bcast_S262144_S262144x128_0),
    TRef.nullary main_call24.cst (constant S_ .f32 0x7FC00000#32),
    TRef.unary main_call24.cst main_call24.v15 (broadcastInDim S262144x128 ![] bcast_S_S262144x128),
    TRef.ternary main_call24.v14 main_call24.v13 main_call24.v15 main_call24.v16 select,
    unary main_v311 main_v313 (broadcastInDim S262144x128 ![0, 1] bcast_S262144x1_S262144x128_0_1 : (⟨S262144x1, .f32⟩ : BufTy).Contents (Elt F) → (⟨S262144x128, .f32⟩ : BufTy).Contents (Elt F)),
    binary main_v313 main_v312 main_v314 (mulf : (⟨S262144x128, .f32⟩ : BufTy).Contents (Elt F) → (⟨S262144x128, .f32⟩ : BufTy).Contents (Elt F) → (⟨S262144x128, .f32⟩ : BufTy).Contents (Elt F)),
    nullary main_cst_54 (constant S_ .f32 0x00000000#32),
    unary main_cst_54 main_v315 (broadcastInDim S512x128 ![] bcast_S_S512x128 : (⟨S_, .f32⟩ : BufTy).Contents (Elt F) → (⟨S512x128, .f32⟩ : BufTy).Contents (Elt F)),
    nullary main_c_55 (constantI S_ 32 0#32),
    unary main_c_55 main_v316 (broadcastInDim S262144 ![] bcast_S_S262144 : (⟨S_, .i32⟩ : BufTy).Contents (Elt F) → (⟨S262144, .i32⟩ : BufTy).Contents (Elt F)),
    binary main_v6 main_v316 main_v317 (cmpi .slt : (⟨S262144, .i32⟩ : BufTy).Contents (Elt F) → (⟨S262144, .i32⟩ : BufTy).Contents (Elt F) → (⟨S262144, .i1⟩ : BufTy).Contents (Elt F)),
    nullary main_c_56 (constantI S_ 32 512#32),
    unary main_c_56 main_v318 (broadcastInDim S262144 ![] bcast_S_S262144 : (⟨S_, .i32⟩ : BufTy).Contents (Elt F) → (⟨S262144, .i32⟩ : BufTy).Contents (Elt F)),
    binary main_v6 main_v318 main_v319 (addi : (⟨S262144, .i32⟩ : BufTy).Contents (Elt F) → (⟨S262144, .i32⟩ : BufTy).Contents (Elt F) → (⟨S262144, .i32⟩ : BufTy).Contents (Elt F)),
    ternary main_v317 main_v319 main_v6 main_v320 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v320 main_v321 (broadcastInDim S262144x1 ![0] bcast_S262144_S262144x1_0 : (⟨S262144, .i32⟩ : BufTy).Contents (Elt F) → (⟨S262144x1, .i32⟩ : BufTy).Contents (Elt F)),
    ternary main_v315 main_v321 main_v314 main_v322 ((fun x i u => Host.scatterAdd scatter_S512x128_S262144x1_S262144x128_1_0_0_1 x i u) : (⟨S512x128, .f32⟩ : BufTy).Contents (Elt F) → (⟨S262144x1, .i32⟩ : BufTy).Contents (Elt F) → (⟨S262144x128, .f32⟩ : BufTy).Contents (Elt F) → (⟨S512x128, .f32⟩ : BufTy).Contents (Elt F)),
    unary main_arg7 main_v323 (broadcastInDim S1x128 ![1] bcast_S128_S1x128_1 : (⟨S128, .f32⟩ : BufTy).Contents (Elt F) → (⟨S1x128, .f32⟩ : BufTy).Contents (Elt F)),
    unary main_v323 main_v324 (broadcastInDim S512x128 ![0, 1] bcast_S1x128_S512x128_0_1 : (⟨S1x128, .f32⟩ : BufTy).Contents (Elt F) → (⟨S512x128, .f32⟩ : BufTy).Contents (Elt F)),
    binary main_v322 main_v324 main_v325 (addf : (⟨S512x128, .f32⟩ : BufTy).Contents (Elt F) → (⟨S512x128, .f32⟩ : BufTy).Contents (Elt F) → (⟨S512x128, .f32⟩ : BufTy).Contents (Elt F)),
    binary main_v325 main_v309 main_v326 (addf : (⟨S512x128, .f32⟩ : BufTy).Contents (Elt F) → (⟨S512x128, .f32⟩ : BufTy).Contents (Elt F) → (⟨S512x128, .f32⟩ : BufTy).Contents (Elt F)),
    nullary main_cst_57 (constant S_ .f32 0x00000000#32),
    binary main_v326 main_cst_57 main_v327 ((fun x v => Host.reduceAdd x v reducesTo_S512x128_S512_d1 h_S_) : (⟨S512x128, .f32⟩ : BufTy).Contents (Elt F) → (⟨S_, .f32⟩ : BufTy).Contents (Elt F) → (⟨S512, .f32⟩ : BufTy).Contents (Elt F)),
    unary main_v327 main_v328 (broadcastInDim S512x1 ![0] bcast_S512_S512x1_0 : (⟨S512, .f32⟩ : BufTy).Contents (Elt F) → (⟨S512x1, .f32⟩ : BufTy).Contents (Elt F)),
    nullary main_cst_58 (constant S_ .f32 0x43000000#32),
    unary main_cst_58 main_v329 (broadcastInDim S512x1 ![] bcast_S_S512x1 : (⟨S_, .f32⟩ : BufTy).Contents (Elt F) → (⟨S512x1, .f32⟩ : BufTy).Contents (Elt F)),
    binary main_v328 main_v329 main_v330 (Host.divf : (⟨S512x1, .f32⟩ : BufTy).Contents (Elt F) → (⟨S512x1, .f32⟩ : BufTy).Contents (Elt F) → (⟨S512x1, .f32⟩ : BufTy).Contents (Elt F)),
    nullary main_c_59 (constantI S_ 32 0#32),
    TRef.nullary main_call25.cst (constant S_ .f32 0x00000000#32),
    TRef.binary (.of main_v326) main_call25.cst main_call25.v0 (fun x v => Host.reduceAdd x v reducesTo_S512x128_S512_d1 h_S_),
    TRef.unary main_call25.v0 main_call25.v1 (broadcastInDim S512x1 ![0] bcast_S512_S512x1_0),
    TRef.nullary main_call25.cst_0 (constant S_ .f32 0x43000000#32),
    TRef.unary main_call25.cst_0 main_call25.v2 (broadcastInDim S512x1 ![] bcast_S_S512x1),
    TRef.binary main_call25.v1 main_call25.v2 main_call25.v3 Host.divf,
    TRef.unary main_call25.v3 main_call25.v4 (broadcastInDim S512x128 ![0, 1] bcast_S512x1_S512x128_0_1),
    TRef.binary (.of main_v326) main_call25.v4 main_call25.v5 subf,
    TRef.binary main_call25.v5 main_call25.v5 main_call25.v6 mulf,
    TRef.unary (.of main_c_59) main_call25.v7 (sitofp .f32),
    TRef.nullary main_call25.cst_1 (constant S_ .f32 0x43000000#32),
    TRef.binary main_call25.cst_1 main_call25.v7 main_call25.v8 subf,
    TRef.nullary main_call25.cst_2 (constant S_ .f32 0x00000000#32),
    TRef.binary main_call25.v6 main_call25.cst_2 main_call25.v9 (fun x v => Host.reduceAdd x v reducesTo_S512x128_S512_d1 h_S_),
    TRef.unary main_call25.v9 main_call25.v10 (broadcastInDim S512x1 ![0] bcast_S512_S512x1_0),
    TRef.unary main_call25.v8 main_call25.v11 (broadcastInDim S512x1 ![] bcast_S_S512x1),
    TRef.binary main_call25.v10 main_call25.v11 main_call25.v12 Host.divf,
    TRef.nullary main_call25.cst_3 (constant S_ .f32 0x00000000#32),
    TRef.binary main_call25.v8 main_call25.cst_3 main_call25.v13 (cmpf .ogt),
    TRef.nullary main_call25.cst_4 (constant S_ .f32 0x7FC00000#32),
    TRef.unary main_call25.cst_4 main_call25.call0.v0 id,
    TRef.unary main_call25.call0.v0 main_call25.call0.v1 (broadcastInDim S512x1 ![] bcast_S_S512x1),
    TRef.ternary main_call25.v13 main_call25.v12 main_call25.call0.v1 main_call25.call0.v2 (fun p a b => select (broadcastInDim S512x1 ![] bcast_S_S512x1 p) a b),
    unary main_v330 main_v332 (broadcastInDim S512x128 ![0, 1] bcast_S512x1_S512x128_0_1 : (⟨S512x1, .f32⟩ : BufTy).Contents (Elt F) → (⟨S512x128, .f32⟩ : BufTy).Contents (Elt F)),
    binary main_v326 main_v332 main_v333 (subf : (⟨S512x128, .f32⟩ : BufTy).Contents (Elt F) → (⟨S512x128, .f32⟩ : BufTy).Contents (Elt F) → (⟨S512x128, .f32⟩ : BufTy).Contents (Elt F)),
    nullary main_cst_60 (constant S_ .f32 0x3727C5AC#32),
    unary main_cst_60 main_v334 (broadcastInDim S512x1 ![] bcast_S_S512x1 : (⟨S_, .f32⟩ : BufTy).Contents (Elt F) → (⟨S512x1, .f32⟩ : BufTy).Contents (Elt F)),
    binary main_v331 main_v334 main_v335 (addf : (⟨S512x1, .f32⟩ : BufTy).Contents (Elt F) → (⟨S512x1, .f32⟩ : BufTy).Contents (Elt F) → (⟨S512x1, .f32⟩ : BufTy).Contents (Elt F)),
    unary main_v335 main_v336 (Host.sqrt : (⟨S512x1, .f32⟩ : BufTy).Contents (Elt F) → (⟨S512x1, .f32⟩ : BufTy).Contents (Elt F)),
    unary main_v336 main_v337 (broadcastInDim S512x128 ![0, 1] bcast_S512x1_S512x128_0_1 : (⟨S512x1, .f32⟩ : BufTy).Contents (Elt F) → (⟨S512x128, .f32⟩ : BufTy).Contents (Elt F)),
    binary main_v333 main_v337 main_v338 (Host.divf : (⟨S512x128, .f32⟩ : BufTy).Contents (Elt F) → (⟨S512x128, .f32⟩ : BufTy).Contents (Elt F) → (⟨S512x128, .f32⟩ : BufTy).Contents (Elt F)),
    unary main_arg10 main_v339 (broadcastInDim S1x128 ![1] bcast_S128_S1x128_1 : (⟨S128, .f32⟩ : BufTy).Contents (Elt F) → (⟨S1x128, .f32⟩ : BufTy).Contents (Elt F)),
    unary main_v339 main_v340 (broadcastInDim S512x128 ![0, 1] bcast_S1x128_S512x128_0_1 : (⟨S1x128, .f32⟩ : BufTy).Contents (Elt F) → (⟨S512x128, .f32⟩ : BufTy).Contents (Elt F)),
    binary main_v338 main_v340 main_v341 (mulf : (⟨S512x128, .f32⟩ : BufTy).Contents (Elt F) → (⟨S512x128, .f32⟩ : BufTy).Contents (Elt F) → (⟨S512x128, .f32⟩ : BufTy).Contents (Elt F)),
    unary main_arg13 main_v342 (broadcastInDim S1x128 ![1] bcast_S128_S1x128_1 : (⟨S128, .f32⟩ : BufTy).Contents (Elt F) → (⟨S1x128, .f32⟩ : BufTy).Contents (Elt F)),
    unary main_v342 main_v343 (broadcastInDim S512x128 ![0, 1] bcast_S1x128_S512x128_0_1 : (⟨S1x128, .f32⟩ : BufTy).Contents (Elt F) → (⟨S512x128, .f32⟩ : BufTy).Contents (Elt F)),
    binary main_v341 main_v343 main_v344 (addf : (⟨S512x128, .f32⟩ : BufTy).Contents (Elt F) → (⟨S512x128, .f32⟩ : BufTy).Contents (Elt F) → (⟨S512x128, .f32⟩ : BufTy).Contents (Elt F)),
    TRef.nullary main_call26.cst (constant S_ .f32 0x00000000#32),
    TRef.unary main_call26.cst main_call26.v0 (broadcastInDim S512x128 ![] bcast_S_S512x128),
    TRef.binary (.of main_v344) main_call26.v0 main_call26.v1 maximumf ]

/-- Statements 410 to 414: 5 operations. -/
abbrev opsB3 : List (HloOp τ sig (Elt F)) :=
  [ unary main_arg1 main_v346 ((extractStridedSlice S1x512x512 ![3, 0, 0] · slices_S4x512x512_S1x512x512_3_0_0) : (⟨S4x512x512, .f32⟩ : BufTy).Contents (Elt F) → (⟨S1x512x512, .f32⟩ : BufTy).Contents (Elt F)),
    reshape main_v346 main_v347 rfl shapeCasts_S1x512x512_S512x512,
    reshape main_v347 main_v348 rfl shapeCasts_S512x512_S262144,
    unary main_arg0 main_v349 ((extractStridedSlice S1x512x128 ![3, 0, 0] · slices_S4x512x128_S1x512x128_3_0_0) : (⟨S4x512x128, .f32⟩ : BufTy).Contents (Elt F) → (⟨S1x512x128, .f32⟩ : BufTy).Contents (Elt F)),
    reshape main_v349 main_v350 rfl shapeCasts_S1x512x128_S512x128 ]

/-- Statements 415 to 457: 89 operations. -/
abbrev opsL30 : List (HloOp τ sig (Elt F)) :=
  [ binary main_v350 main_arg2 main_v351 ((fun l r => Host.dotGeneral dot_S512x128_S128x128_S512x128_1_0_0_1_n_n none l r) : (⟨S512x128, .f32⟩ : BufTy).Contents (Elt F) → (⟨S128x128, .f32⟩ : BufTy).Contents (Elt F) → (⟨S512x128, .f32⟩ : BufTy).Contents (Elt F)),
    unary main_v348 main_v352 (broadcastInDim S262144x1 ![0] bcast_S262144_S262144x1_0 : (⟨S262144, .f32⟩ : BufTy).Contents (Elt F) → (⟨S262144x1, .f32⟩ : BufTy).Contents (Elt F)),
    TRef.nullary main_call27.c (constantI S_ 32 0#32),
    TRef.unary main_call27.c main_call27.v0 (broadcastInDim S262144 ![] bcast_S_S262144),
    TRef.binary (.of main_v2) main_call27.v0 main_call27.v1 (cmpi .slt),
    TRef.nullary main_call27.c_0 (constantI S_ 32 512#32),
    TRef.unary main_call27.c_0 main_call27.v2 (broadcastInDim S262144 ![] bcast_S_S262144),
    TRef.binary (.of main_v2) main_call27.v2 main_call27.v3 addi,
    TRef.ternary main_call27.v1 main_call27.v3 (.of main_v2) main_call27.call0.v0 select,
    TRef.unary main_call27.call0.v0 main_call27.v5 (broadcastInDim S262144x1 ![0] bcast_S262144_S262144x1_0),
    TRef.nullary main_call27.c_1 (constantI S1 32 511#32),
    TRef.nullary main_call27.c_2 (constantI S_ 32 0#32),
    TRef.unary main_call27.c_2 main_call27.v6 (broadcastInDim S262144x1 ![] bcast_S_S262144x1),
    TRef.binary main_call27.v5 main_call27.v6 main_call27.v7 (cmpi .sge),
    TRef.unary main_call27.c_1 main_call27.v8 (broadcastInDim S1x1 ![1] bcast_S1_S1x1_1),
    TRef.unary main_call27.v8 main_call27.v9 (broadcastInDim S262144x1 ![0, 1] bcast_S1x1_S262144x1_0_1),
    TRef.binary main_call27.v5 main_call27.v9 main_call27.v10 (cmpi .sle),
    TRef.binary main_call27.v7 main_call27.v10 main_call27.v11 andi,
    TRef.nullary main_call27.c_3 (constantI S_ 1 1#1),
    TRef.binary main_call27.v11 main_call27.c_3 main_call27.v12 (fun x v => Host.reduce IntOp.andi x v reducesTo_S262144x1_S262144_d1 h_S_),
    TRef.binary (.of main_v351) main_call27.v5 main_call27.v13 (fun x i => Host.gather gather_S512x128_S262144x1_S262144x128_1_0_n_n_0_1_1128 x i),
    TRef.unary main_call27.v12 main_call27.v14 (broadcastInDim S262144x128 ![0] bcast_S262144_S262144x128_0),
    TRef.nullary main_call27.cst (constant S_ .f32 0x7FC00000#32),
    TRef.unary main_call27.cst main_call27.v15 (broadcastInDim S262144x128 ![] bcast_S_S262144x128),
    TRef.ternary main_call27.v14 main_call27.v13 main_call27.v15 main_call27.v16 select,
    unary main_v352 main_v354 (broadcastInDim S262144x128 ![0, 1] bcast_S262144x1_S262144x128_0_1 : (⟨S262144x1, .f32⟩ : BufTy).Contents (Elt F) → (⟨S262144x128, .f32⟩ : BufTy).Contents (Elt F)),
    binary main_v354 main_v353 main_v355 (mulf : (⟨S262144x128, .f32⟩ : BufTy).Contents (Elt F) → (⟨S262144x128, .f32⟩ : BufTy).Contents (Elt F) → (⟨S262144x128, .f32⟩ : BufTy).Contents (Elt F)),
    nullary main_cst_61 (constant S_ .f32 0x00000000#32),
    unary main_cst_61 main_v356 (broadcastInDim S512x128 ![] bcast_S_S512x128 : (⟨S_, .f32⟩ : BufTy).Contents (Elt F) → (⟨S512x128, .f32⟩ : BufTy).Contents (Elt F)),
    nullary main_c_62 (constantI S_ 32 0#32),
    unary main_c_62 main_v357 (broadcastInDim S262144 ![] bcast_S_S262144 : (⟨S_, .i32⟩ : BufTy).Contents (Elt F) → (⟨S262144, .i32⟩ : BufTy).Contents (Elt F)),
    binary main_v6 main_v357 main_v358 (cmpi .slt : (⟨S262144, .i32⟩ : BufTy).Contents (Elt F) → (⟨S262144, .i32⟩ : BufTy).Contents (Elt F) → (⟨S262144, .i1⟩ : BufTy).Contents (Elt F)),
    nullary main_c_63 (constantI S_ 32 512#32),
    unary main_c_63 main_v359 (broadcastInDim S262144 ![] bcast_S_S262144 : (⟨S_, .i32⟩ : BufTy).Contents (Elt F) → (⟨S262144, .i32⟩ : BufTy).Contents (Elt F)),
    binary main_v6 main_v359 main_v360 (addi : (⟨S262144, .i32⟩ : BufTy).Contents (Elt F) → (⟨S262144, .i32⟩ : BufTy).Contents (Elt F) → (⟨S262144, .i32⟩ : BufTy).Contents (Elt F)),
    ternary main_v358 main_v360 main_v6 main_v361 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v361 main_v362 (broadcastInDim S262144x1 ![0] bcast_S262144_S262144x1_0 : (⟨S262144, .i32⟩ : BufTy).Contents (Elt F) → (⟨S262144x1, .i32⟩ : BufTy).Contents (Elt F)),
    ternary main_v356 main_v362 main_v355 main_v363 ((fun x i u => Host.scatterAdd scatter_S512x128_S262144x1_S262144x128_1_0_0_1 x i u) : (⟨S512x128, .f32⟩ : BufTy).Contents (Elt F) → (⟨S262144x1, .i32⟩ : BufTy).Contents (Elt F) → (⟨S262144x128, .f32⟩ : BufTy).Contents (Elt F) → (⟨S512x128, .f32⟩ : BufTy).Contents (Elt F)),
    unary main_arg5 main_v364 (broadcastInDim S1x128 ![1] bcast_S128_S1x128_1 : (⟨S128, .f32⟩ : BufTy).Contents (Elt F) → (⟨S1x128, .f32⟩ : BufTy).Contents (Elt F)),
    unary main_v364 main_v365 (broadcastInDim S512x128 ![0, 1] bcast_S1x128_S512x128_0_1 : (⟨S1x128, .f32⟩ : BufTy).Contents (Elt F) → (⟨S512x128, .f32⟩ : BufTy).Contents (Elt F)),
    binary main_v363 main_v365 main_v366 (addf : (⟨S512x128, .f32⟩ : BufTy).Contents (Elt F) → (⟨S512x128, .f32⟩ : BufTy).Contents (Elt F) → (⟨S512x128, .f32⟩ : BufTy).Contents (Elt F)),
    binary main_v366 main_v350 main_v367 (addf : (⟨S512x128, .f32⟩ : BufTy).Contents (Elt F) → (⟨S512x128, .f32⟩ : BufTy).Contents (Elt F) → (⟨S512x128, .f32⟩ : BufTy).Contents (Elt F)),
    nullary main_cst_64 (constant S_ .f32 0x00000000#32),
    binary main_v367 main_cst_64 main_v368 ((fun x v => Host.reduceAdd x v reducesTo_S512x128_S512_d1 h_S_) : (⟨S512x128, .f32⟩ : BufTy).Contents (Elt F) → (⟨S_, .f32⟩ : BufTy).Contents (Elt F) → (⟨S512, .f32⟩ : BufTy).Contents (Elt F)),
    unary main_v368 main_v369 (broadcastInDim S512x1 ![0] bcast_S512_S512x1_0 : (⟨S512, .f32⟩ : BufTy).Contents (Elt F) → (⟨S512x1, .f32⟩ : BufTy).Contents (Elt F)),
    nullary main_cst_65 (constant S_ .f32 0x43000000#32),
    unary main_cst_65 main_v370 (broadcastInDim S512x1 ![] bcast_S_S512x1 : (⟨S_, .f32⟩ : BufTy).Contents (Elt F) → (⟨S512x1, .f32⟩ : BufTy).Contents (Elt F)),
    binary main_v369 main_v370 main_v371 (Host.divf : (⟨S512x1, .f32⟩ : BufTy).Contents (Elt F) → (⟨S512x1, .f32⟩ : BufTy).Contents (Elt F) → (⟨S512x1, .f32⟩ : BufTy).Contents (Elt F)),
    nullary main_c_66 (constantI S_ 32 0#32),
    TRef.nullary main_call28.cst (constant S_ .f32 0x00000000#32),
    TRef.binary (.of main_v367) main_call28.cst main_call28.v0 (fun x v => Host.reduceAdd x v reducesTo_S512x128_S512_d1 h_S_),
    TRef.unary main_call28.v0 main_call28.v1 (broadcastInDim S512x1 ![0] bcast_S512_S512x1_0),
    TRef.nullary main_call28.cst_0 (constant S_ .f32 0x43000000#32),
    TRef.unary main_call28.cst_0 main_call28.v2 (broadcastInDim S512x1 ![] bcast_S_S512x1),
    TRef.binary main_call28.v1 main_call28.v2 main_call28.v3 Host.divf,
    TRef.unary main_call28.v3 main_call28.v4 (broadcastInDim S512x128 ![0, 1] bcast_S512x1_S512x128_0_1),
    TRef.binary (.of main_v367) main_call28.v4 main_call28.v5 subf,
    TRef.binary main_call28.v5 main_call28.v5 main_call28.v6 mulf,
    TRef.unary (.of main_c_66) main_call28.v7 (sitofp .f32),
    TRef.nullary main_call28.cst_1 (constant S_ .f32 0x43000000#32),
    TRef.binary main_call28.cst_1 main_call28.v7 main_call28.v8 subf,
    TRef.nullary main_call28.cst_2 (constant S_ .f32 0x00000000#32),
    TRef.binary main_call28.v6 main_call28.cst_2 main_call28.v9 (fun x v => Host.reduceAdd x v reducesTo_S512x128_S512_d1 h_S_),
    TRef.unary main_call28.v9 main_call28.v10 (broadcastInDim S512x1 ![0] bcast_S512_S512x1_0),
    TRef.unary main_call28.v8 main_call28.v11 (broadcastInDim S512x1 ![] bcast_S_S512x1),
    TRef.binary main_call28.v10 main_call28.v11 main_call28.v12 Host.divf,
    TRef.nullary main_call28.cst_3 (constant S_ .f32 0x00000000#32),
    TRef.binary main_call28.v8 main_call28.cst_3 main_call28.v13 (cmpf .ogt),
    TRef.nullary main_call28.cst_4 (constant S_ .f32 0x7FC00000#32),
    TRef.unary main_call28.cst_4 main_call28.call0.v0 id,
    TRef.unary main_call28.call0.v0 main_call28.call0.v1 (broadcastInDim S512x1 ![] bcast_S_S512x1),
    TRef.ternary main_call28.v13 main_call28.v12 main_call28.call0.v1 main_call28.call0.v2 (fun p a b => select (broadcastInDim S512x1 ![] bcast_S_S512x1 p) a b),
    unary main_v371 main_v373 (broadcastInDim S512x128 ![0, 1] bcast_S512x1_S512x128_0_1 : (⟨S512x1, .f32⟩ : BufTy).Contents (Elt F) → (⟨S512x128, .f32⟩ : BufTy).Contents (Elt F)),
    binary main_v367 main_v373 main_v374 (subf : (⟨S512x128, .f32⟩ : BufTy).Contents (Elt F) → (⟨S512x128, .f32⟩ : BufTy).Contents (Elt F) → (⟨S512x128, .f32⟩ : BufTy).Contents (Elt F)),
    nullary main_cst_67 (constant S_ .f32 0x3727C5AC#32),
    unary main_cst_67 main_v375 (broadcastInDim S512x1 ![] bcast_S_S512x1 : (⟨S_, .f32⟩ : BufTy).Contents (Elt F) → (⟨S512x1, .f32⟩ : BufTy).Contents (Elt F)),
    binary main_v372 main_v375 main_v376 (addf : (⟨S512x1, .f32⟩ : BufTy).Contents (Elt F) → (⟨S512x1, .f32⟩ : BufTy).Contents (Elt F) → (⟨S512x1, .f32⟩ : BufTy).Contents (Elt F)),
    unary main_v376 main_v377 (Host.sqrt : (⟨S512x1, .f32⟩ : BufTy).Contents (Elt F) → (⟨S512x1, .f32⟩ : BufTy).Contents (Elt F)),
    unary main_v377 main_v378 (broadcastInDim S512x128 ![0, 1] bcast_S512x1_S512x128_0_1 : (⟨S512x1, .f32⟩ : BufTy).Contents (Elt F) → (⟨S512x128, .f32⟩ : BufTy).Contents (Elt F)),
    binary main_v374 main_v378 main_v379 (Host.divf : (⟨S512x128, .f32⟩ : BufTy).Contents (Elt F) → (⟨S512x128, .f32⟩ : BufTy).Contents (Elt F) → (⟨S512x128, .f32⟩ : BufTy).Contents (Elt F)),
    unary main_arg8 main_v380 (broadcastInDim S1x128 ![1] bcast_S128_S1x128_1 : (⟨S128, .f32⟩ : BufTy).Contents (Elt F) → (⟨S1x128, .f32⟩ : BufTy).Contents (Elt F)),
    unary main_v380 main_v381 (broadcastInDim S512x128 ![0, 1] bcast_S1x128_S512x128_0_1 : (⟨S1x128, .f32⟩ : BufTy).Contents (Elt F) → (⟨S512x128, .f32⟩ : BufTy).Contents (Elt F)),
    binary main_v379 main_v381 main_v382 (mulf : (⟨S512x128, .f32⟩ : BufTy).Contents (Elt F) → (⟨S512x128, .f32⟩ : BufTy).Contents (Elt F) → (⟨S512x128, .f32⟩ : BufTy).Contents (Elt F)),
    unary main_arg11 main_v383 (broadcastInDim S1x128 ![1] bcast_S128_S1x128_1 : (⟨S128, .f32⟩ : BufTy).Contents (Elt F) → (⟨S1x128, .f32⟩ : BufTy).Contents (Elt F)),
    unary main_v383 main_v384 (broadcastInDim S512x128 ![0, 1] bcast_S1x128_S512x128_0_1 : (⟨S1x128, .f32⟩ : BufTy).Contents (Elt F) → (⟨S512x128, .f32⟩ : BufTy).Contents (Elt F)),
    binary main_v382 main_v384 main_v385 (addf : (⟨S512x128, .f32⟩ : BufTy).Contents (Elt F) → (⟨S512x128, .f32⟩ : BufTy).Contents (Elt F) → (⟨S512x128, .f32⟩ : BufTy).Contents (Elt F)),
    TRef.nullary main_call29.cst (constant S_ .f32 0x00000000#32),
    TRef.unary main_call29.cst main_call29.v0 (broadcastInDim S512x128 ![] bcast_S_S512x128),
    TRef.binary (.of main_v385) main_call29.v0 main_call29.v1 maximumf ]

/-- Statements 458 to 500: 89 operations. -/
abbrev opsL31 : List (HloOp τ sig (Elt F)) :=
  [ binary main_v386 main_arg3 main_v387 ((fun l r => Host.dotGeneral dot_S512x128_S128x128_S512x128_1_0_0_1_n_n none l r) : (⟨S512x128, .f32⟩ : BufTy).Contents (Elt F) → (⟨S128x128, .f32⟩ : BufTy).Contents (Elt F) → (⟨S512x128, .f32⟩ : BufTy).Contents (Elt F)),
    unary main_v348 main_v388 (broadcastInDim S262144x1 ![0] bcast_S262144_S262144x1_0 : (⟨S262144, .f32⟩ : BufTy).Contents (Elt F) → (⟨S262144x1, .f32⟩ : BufTy).Contents (Elt F)),
    TRef.nullary main_call30.c (constantI S_ 32 0#32),
    TRef.unary main_call30.c main_call30.v0 (broadcastInDim S262144 ![] bcast_S_S262144),
    TRef.binary (.of main_v2) main_call30.v0 main_call30.v1 (cmpi .slt),
    TRef.nullary main_call30.c_0 (constantI S_ 32 512#32),
    TRef.unary main_call30.c_0 main_call30.v2 (broadcastInDim S262144 ![] bcast_S_S262144),
    TRef.binary (.of main_v2) main_call30.v2 main_call30.v3 addi,
    TRef.ternary main_call30.v1 main_call30.v3 (.of main_v2) main_call30.call0.v0 select,
    TRef.unary main_call30.call0.v0 main_call30.v5 (broadcastInDim S262144x1 ![0] bcast_S262144_S262144x1_0),
    TRef.nullary main_call30.c_1 (constantI S1 32 511#32),
    TRef.nullary main_call30.c_2 (constantI S_ 32 0#32),
    TRef.unary main_call30.c_2 main_call30.v6 (broadcastInDim S262144x1 ![] bcast_S_S262144x1),
    TRef.binary main_call30.v5 main_call30.v6 main_call30.v7 (cmpi .sge),
    TRef.unary main_call30.c_1 main_call30.v8 (broadcastInDim S1x1 ![1] bcast_S1_S1x1_1),
    TRef.unary main_call30.v8 main_call30.v9 (broadcastInDim S262144x1 ![0, 1] bcast_S1x1_S262144x1_0_1),
    TRef.binary main_call30.v5 main_call30.v9 main_call30.v10 (cmpi .sle),
    TRef.binary main_call30.v7 main_call30.v10 main_call30.v11 andi,
    TRef.nullary main_call30.c_3 (constantI S_ 1 1#1),
    TRef.binary main_call30.v11 main_call30.c_3 main_call30.v12 (fun x v => Host.reduce IntOp.andi x v reducesTo_S262144x1_S262144_d1 h_S_),
    TRef.binary (.of main_v387) main_call30.v5 main_call30.v13 (fun x i => Host.gather gather_S512x128_S262144x1_S262144x128_1_0_n_n_0_1_1128 x i),
    TRef.unary main_call30.v12 main_call30.v14 (broadcastInDim S262144x128 ![0] bcast_S262144_S262144x128_0),
    TRef.nullary main_call30.cst (constant S_ .f32 0x7FC00000#32),
    TRef.unary main_call30.cst main_call30.v15 (broadcastInDim S262144x128 ![] bcast_S_S262144x128),
    TRef.ternary main_call30.v14 main_call30.v13 main_call30.v15 main_call30.v16 select,
    unary main_v388 main_v390 (broadcastInDim S262144x128 ![0, 1] bcast_S262144x1_S262144x128_0_1 : (⟨S262144x1, .f32⟩ : BufTy).Contents (Elt F) → (⟨S262144x128, .f32⟩ : BufTy).Contents (Elt F)),
    binary main_v390 main_v389 main_v391 (mulf : (⟨S262144x128, .f32⟩ : BufTy).Contents (Elt F) → (⟨S262144x128, .f32⟩ : BufTy).Contents (Elt F) → (⟨S262144x128, .f32⟩ : BufTy).Contents (Elt F)),
    nullary main_cst_68 (constant S_ .f32 0x00000000#32),
    unary main_cst_68 main_v392 (broadcastInDim S512x128 ![] bcast_S_S512x128 : (⟨S_, .f32⟩ : BufTy).Contents (Elt F) → (⟨S512x128, .f32⟩ : BufTy).Contents (Elt F)),
    nullary main_c_69 (constantI S_ 32 0#32),
    unary main_c_69 main_v393 (broadcastInDim S262144 ![] bcast_S_S262144 : (⟨S_, .i32⟩ : BufTy).Contents (Elt F) → (⟨S262144, .i32⟩ : BufTy).Contents (Elt F)),
    binary main_v6 main_v393 main_v394 (cmpi .slt : (⟨S262144, .i32⟩ : BufTy).Contents (Elt F) → (⟨S262144, .i32⟩ : BufTy).Contents (Elt F) → (⟨S262144, .i1⟩ : BufTy).Contents (Elt F)),
    nullary main_c_70 (constantI S_ 32 512#32),
    unary main_c_70 main_v395 (broadcastInDim S262144 ![] bcast_S_S262144 : (⟨S_, .i32⟩ : BufTy).Contents (Elt F) → (⟨S262144, .i32⟩ : BufTy).Contents (Elt F)),
    binary main_v6 main_v395 main_v396 (addi : (⟨S262144, .i32⟩ : BufTy).Contents (Elt F) → (⟨S262144, .i32⟩ : BufTy).Contents (Elt F) → (⟨S262144, .i32⟩ : BufTy).Contents (Elt F)),
    ternary main_v394 main_v396 main_v6 main_v397 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v397 main_v398 (broadcastInDim S262144x1 ![0] bcast_S262144_S262144x1_0 : (⟨S262144, .i32⟩ : BufTy).Contents (Elt F) → (⟨S262144x1, .i32⟩ : BufTy).Contents (Elt F)),
    ternary main_v392 main_v398 main_v391 main_v399 ((fun x i u => Host.scatterAdd scatter_S512x128_S262144x1_S262144x128_1_0_0_1 x i u) : (⟨S512x128, .f32⟩ : BufTy).Contents (Elt F) → (⟨S262144x1, .i32⟩ : BufTy).Contents (Elt F) → (⟨S262144x128, .f32⟩ : BufTy).Contents (Elt F) → (⟨S512x128, .f32⟩ : BufTy).Contents (Elt F)),
    unary main_arg6 main_v400 (broadcastInDim S1x128 ![1] bcast_S128_S1x128_1 : (⟨S128, .f32⟩ : BufTy).Contents (Elt F) → (⟨S1x128, .f32⟩ : BufTy).Contents (Elt F)),
    unary main_v400 main_v401 (broadcastInDim S512x128 ![0, 1] bcast_S1x128_S512x128_0_1 : (⟨S1x128, .f32⟩ : BufTy).Contents (Elt F) → (⟨S512x128, .f32⟩ : BufTy).Contents (Elt F)),
    binary main_v399 main_v401 main_v402 (addf : (⟨S512x128, .f32⟩ : BufTy).Contents (Elt F) → (⟨S512x128, .f32⟩ : BufTy).Contents (Elt F) → (⟨S512x128, .f32⟩ : BufTy).Contents (Elt F)),
    binary main_v402 main_v386 main_v403 (addf : (⟨S512x128, .f32⟩ : BufTy).Contents (Elt F) → (⟨S512x128, .f32⟩ : BufTy).Contents (Elt F) → (⟨S512x128, .f32⟩ : BufTy).Contents (Elt F)),
    nullary main_cst_71 (constant S_ .f32 0x00000000#32),
    binary main_v403 main_cst_71 main_v404 ((fun x v => Host.reduceAdd x v reducesTo_S512x128_S512_d1 h_S_) : (⟨S512x128, .f32⟩ : BufTy).Contents (Elt F) → (⟨S_, .f32⟩ : BufTy).Contents (Elt F) → (⟨S512, .f32⟩ : BufTy).Contents (Elt F)),
    unary main_v404 main_v405 (broadcastInDim S512x1 ![0] bcast_S512_S512x1_0 : (⟨S512, .f32⟩ : BufTy).Contents (Elt F) → (⟨S512x1, .f32⟩ : BufTy).Contents (Elt F)),
    nullary main_cst_72 (constant S_ .f32 0x43000000#32),
    unary main_cst_72 main_v406 (broadcastInDim S512x1 ![] bcast_S_S512x1 : (⟨S_, .f32⟩ : BufTy).Contents (Elt F) → (⟨S512x1, .f32⟩ : BufTy).Contents (Elt F)),
    binary main_v405 main_v406 main_v407 (Host.divf : (⟨S512x1, .f32⟩ : BufTy).Contents (Elt F) → (⟨S512x1, .f32⟩ : BufTy).Contents (Elt F) → (⟨S512x1, .f32⟩ : BufTy).Contents (Elt F)),
    nullary main_c_73 (constantI S_ 32 0#32),
    TRef.nullary main_call31.cst (constant S_ .f32 0x00000000#32),
    TRef.binary (.of main_v403) main_call31.cst main_call31.v0 (fun x v => Host.reduceAdd x v reducesTo_S512x128_S512_d1 h_S_),
    TRef.unary main_call31.v0 main_call31.v1 (broadcastInDim S512x1 ![0] bcast_S512_S512x1_0),
    TRef.nullary main_call31.cst_0 (constant S_ .f32 0x43000000#32),
    TRef.unary main_call31.cst_0 main_call31.v2 (broadcastInDim S512x1 ![] bcast_S_S512x1),
    TRef.binary main_call31.v1 main_call31.v2 main_call31.v3 Host.divf,
    TRef.unary main_call31.v3 main_call31.v4 (broadcastInDim S512x128 ![0, 1] bcast_S512x1_S512x128_0_1),
    TRef.binary (.of main_v403) main_call31.v4 main_call31.v5 subf,
    TRef.binary main_call31.v5 main_call31.v5 main_call31.v6 mulf,
    TRef.unary (.of main_c_73) main_call31.v7 (sitofp .f32),
    TRef.nullary main_call31.cst_1 (constant S_ .f32 0x43000000#32),
    TRef.binary main_call31.cst_1 main_call31.v7 main_call31.v8 subf,
    TRef.nullary main_call31.cst_2 (constant S_ .f32 0x00000000#32),
    TRef.binary main_call31.v6 main_call31.cst_2 main_call31.v9 (fun x v => Host.reduceAdd x v reducesTo_S512x128_S512_d1 h_S_),
    TRef.unary main_call31.v9 main_call31.v10 (broadcastInDim S512x1 ![0] bcast_S512_S512x1_0),
    TRef.unary main_call31.v8 main_call31.v11 (broadcastInDim S512x1 ![] bcast_S_S512x1),
    TRef.binary main_call31.v10 main_call31.v11 main_call31.v12 Host.divf,
    TRef.nullary main_call31.cst_3 (constant S_ .f32 0x00000000#32),
    TRef.binary main_call31.v8 main_call31.cst_3 main_call31.v13 (cmpf .ogt),
    TRef.nullary main_call31.cst_4 (constant S_ .f32 0x7FC00000#32),
    TRef.unary main_call31.cst_4 main_call31.call0.v0 id,
    TRef.unary main_call31.call0.v0 main_call31.call0.v1 (broadcastInDim S512x1 ![] bcast_S_S512x1),
    TRef.ternary main_call31.v13 main_call31.v12 main_call31.call0.v1 main_call31.call0.v2 (fun p a b => select (broadcastInDim S512x1 ![] bcast_S_S512x1 p) a b),
    unary main_v407 main_v409 (broadcastInDim S512x128 ![0, 1] bcast_S512x1_S512x128_0_1 : (⟨S512x1, .f32⟩ : BufTy).Contents (Elt F) → (⟨S512x128, .f32⟩ : BufTy).Contents (Elt F)),
    binary main_v403 main_v409 main_v410 (subf : (⟨S512x128, .f32⟩ : BufTy).Contents (Elt F) → (⟨S512x128, .f32⟩ : BufTy).Contents (Elt F) → (⟨S512x128, .f32⟩ : BufTy).Contents (Elt F)),
    nullary main_cst_74 (constant S_ .f32 0x3727C5AC#32),
    unary main_cst_74 main_v411 (broadcastInDim S512x1 ![] bcast_S_S512x1 : (⟨S_, .f32⟩ : BufTy).Contents (Elt F) → (⟨S512x1, .f32⟩ : BufTy).Contents (Elt F)),
    binary main_v408 main_v411 main_v412 (addf : (⟨S512x1, .f32⟩ : BufTy).Contents (Elt F) → (⟨S512x1, .f32⟩ : BufTy).Contents (Elt F) → (⟨S512x1, .f32⟩ : BufTy).Contents (Elt F)),
    unary main_v412 main_v413 (Host.sqrt : (⟨S512x1, .f32⟩ : BufTy).Contents (Elt F) → (⟨S512x1, .f32⟩ : BufTy).Contents (Elt F)),
    unary main_v413 main_v414 (broadcastInDim S512x128 ![0, 1] bcast_S512x1_S512x128_0_1 : (⟨S512x1, .f32⟩ : BufTy).Contents (Elt F) → (⟨S512x128, .f32⟩ : BufTy).Contents (Elt F)),
    binary main_v410 main_v414 main_v415 (Host.divf : (⟨S512x128, .f32⟩ : BufTy).Contents (Elt F) → (⟨S512x128, .f32⟩ : BufTy).Contents (Elt F) → (⟨S512x128, .f32⟩ : BufTy).Contents (Elt F)),
    unary main_arg9 main_v416 (broadcastInDim S1x128 ![1] bcast_S128_S1x128_1 : (⟨S128, .f32⟩ : BufTy).Contents (Elt F) → (⟨S1x128, .f32⟩ : BufTy).Contents (Elt F)),
    unary main_v416 main_v417 (broadcastInDim S512x128 ![0, 1] bcast_S1x128_S512x128_0_1 : (⟨S1x128, .f32⟩ : BufTy).Contents (Elt F) → (⟨S512x128, .f32⟩ : BufTy).Contents (Elt F)),
    binary main_v415 main_v417 main_v418 (mulf : (⟨S512x128, .f32⟩ : BufTy).Contents (Elt F) → (⟨S512x128, .f32⟩ : BufTy).Contents (Elt F) → (⟨S512x128, .f32⟩ : BufTy).Contents (Elt F)),
    unary main_arg12 main_v419 (broadcastInDim S1x128 ![1] bcast_S128_S1x128_1 : (⟨S128, .f32⟩ : BufTy).Contents (Elt F) → (⟨S1x128, .f32⟩ : BufTy).Contents (Elt F)),
    unary main_v419 main_v420 (broadcastInDim S512x128 ![0, 1] bcast_S1x128_S512x128_0_1 : (⟨S1x128, .f32⟩ : BufTy).Contents (Elt F) → (⟨S512x128, .f32⟩ : BufTy).Contents (Elt F)),
    binary main_v418 main_v420 main_v421 (addf : (⟨S512x128, .f32⟩ : BufTy).Contents (Elt F) → (⟨S512x128, .f32⟩ : BufTy).Contents (Elt F) → (⟨S512x128, .f32⟩ : BufTy).Contents (Elt F)),
    TRef.nullary main_call32.cst (constant S_ .f32 0x00000000#32),
    TRef.unary main_call32.cst main_call32.v0 (broadcastInDim S512x128 ![] bcast_S_S512x128),
    TRef.binary (.of main_v421) main_call32.v0 main_call32.v1 maximumf ]

/-- Statements 501 to 543: 89 operations. -/
abbrev opsL32 : List (HloOp τ sig (Elt F)) :=
  [ binary main_v422 main_arg4 main_v423 ((fun l r => Host.dotGeneral dot_S512x128_S128x128_S512x128_1_0_0_1_n_n none l r) : (⟨S512x128, .f32⟩ : BufTy).Contents (Elt F) → (⟨S128x128, .f32⟩ : BufTy).Contents (Elt F) → (⟨S512x128, .f32⟩ : BufTy).Contents (Elt F)),
    unary main_v348 main_v424 (broadcastInDim S262144x1 ![0] bcast_S262144_S262144x1_0 : (⟨S262144, .f32⟩ : BufTy).Contents (Elt F) → (⟨S262144x1, .f32⟩ : BufTy).Contents (Elt F)),
    TRef.nullary main_call33.c (constantI S_ 32 0#32),
    TRef.unary main_call33.c main_call33.v0 (broadcastInDim S262144 ![] bcast_S_S262144),
    TRef.binary (.of main_v2) main_call33.v0 main_call33.v1 (cmpi .slt),
    TRef.nullary main_call33.c_0 (constantI S_ 32 512#32),
    TRef.unary main_call33.c_0 main_call33.v2 (broadcastInDim S262144 ![] bcast_S_S262144),
    TRef.binary (.of main_v2) main_call33.v2 main_call33.v3 addi,
    TRef.ternary main_call33.v1 main_call33.v3 (.of main_v2) main_call33.call0.v0 select,
    TRef.unary main_call33.call0.v0 main_call33.v5 (broadcastInDim S262144x1 ![0] bcast_S262144_S262144x1_0),
    TRef.nullary main_call33.c_1 (constantI S1 32 511#32),
    TRef.nullary main_call33.c_2 (constantI S_ 32 0#32),
    TRef.unary main_call33.c_2 main_call33.v6 (broadcastInDim S262144x1 ![] bcast_S_S262144x1),
    TRef.binary main_call33.v5 main_call33.v6 main_call33.v7 (cmpi .sge),
    TRef.unary main_call33.c_1 main_call33.v8 (broadcastInDim S1x1 ![1] bcast_S1_S1x1_1),
    TRef.unary main_call33.v8 main_call33.v9 (broadcastInDim S262144x1 ![0, 1] bcast_S1x1_S262144x1_0_1),
    TRef.binary main_call33.v5 main_call33.v9 main_call33.v10 (cmpi .sle),
    TRef.binary main_call33.v7 main_call33.v10 main_call33.v11 andi,
    TRef.nullary main_call33.c_3 (constantI S_ 1 1#1),
    TRef.binary main_call33.v11 main_call33.c_3 main_call33.v12 (fun x v => Host.reduce IntOp.andi x v reducesTo_S262144x1_S262144_d1 h_S_),
    TRef.binary (.of main_v423) main_call33.v5 main_call33.v13 (fun x i => Host.gather gather_S512x128_S262144x1_S262144x128_1_0_n_n_0_1_1128 x i),
    TRef.unary main_call33.v12 main_call33.v14 (broadcastInDim S262144x128 ![0] bcast_S262144_S262144x128_0),
    TRef.nullary main_call33.cst (constant S_ .f32 0x7FC00000#32),
    TRef.unary main_call33.cst main_call33.v15 (broadcastInDim S262144x128 ![] bcast_S_S262144x128),
    TRef.ternary main_call33.v14 main_call33.v13 main_call33.v15 main_call33.v16 select,
    unary main_v424 main_v426 (broadcastInDim S262144x128 ![0, 1] bcast_S262144x1_S262144x128_0_1 : (⟨S262144x1, .f32⟩ : BufTy).Contents (Elt F) → (⟨S262144x128, .f32⟩ : BufTy).Contents (Elt F)),
    binary main_v426 main_v425 main_v427 (mulf : (⟨S262144x128, .f32⟩ : BufTy).Contents (Elt F) → (⟨S262144x128, .f32⟩ : BufTy).Contents (Elt F) → (⟨S262144x128, .f32⟩ : BufTy).Contents (Elt F)),
    nullary main_cst_75 (constant S_ .f32 0x00000000#32),
    unary main_cst_75 main_v428 (broadcastInDim S512x128 ![] bcast_S_S512x128 : (⟨S_, .f32⟩ : BufTy).Contents (Elt F) → (⟨S512x128, .f32⟩ : BufTy).Contents (Elt F)),
    nullary main_c_76 (constantI S_ 32 0#32),
    unary main_c_76 main_v429 (broadcastInDim S262144 ![] bcast_S_S262144 : (⟨S_, .i32⟩ : BufTy).Contents (Elt F) → (⟨S262144, .i32⟩ : BufTy).Contents (Elt F)),
    binary main_v6 main_v429 main_v430 (cmpi .slt : (⟨S262144, .i32⟩ : BufTy).Contents (Elt F) → (⟨S262144, .i32⟩ : BufTy).Contents (Elt F) → (⟨S262144, .i1⟩ : BufTy).Contents (Elt F)),
    nullary main_c_77 (constantI S_ 32 512#32),
    unary main_c_77 main_v431 (broadcastInDim S262144 ![] bcast_S_S262144 : (⟨S_, .i32⟩ : BufTy).Contents (Elt F) → (⟨S262144, .i32⟩ : BufTy).Contents (Elt F)),
    binary main_v6 main_v431 main_v432 (addi : (⟨S262144, .i32⟩ : BufTy).Contents (Elt F) → (⟨S262144, .i32⟩ : BufTy).Contents (Elt F) → (⟨S262144, .i32⟩ : BufTy).Contents (Elt F)),
    ternary main_v430 main_v432 main_v6 main_v433 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v433 main_v434 (broadcastInDim S262144x1 ![0] bcast_S262144_S262144x1_0 : (⟨S262144, .i32⟩ : BufTy).Contents (Elt F) → (⟨S262144x1, .i32⟩ : BufTy).Contents (Elt F)),
    ternary main_v428 main_v434 main_v427 main_v435 ((fun x i u => Host.scatterAdd scatter_S512x128_S262144x1_S262144x128_1_0_0_1 x i u) : (⟨S512x128, .f32⟩ : BufTy).Contents (Elt F) → (⟨S262144x1, .i32⟩ : BufTy).Contents (Elt F) → (⟨S262144x128, .f32⟩ : BufTy).Contents (Elt F) → (⟨S512x128, .f32⟩ : BufTy).Contents (Elt F)),
    unary main_arg7 main_v436 (broadcastInDim S1x128 ![1] bcast_S128_S1x128_1 : (⟨S128, .f32⟩ : BufTy).Contents (Elt F) → (⟨S1x128, .f32⟩ : BufTy).Contents (Elt F)),
    unary main_v436 main_v437 (broadcastInDim S512x128 ![0, 1] bcast_S1x128_S512x128_0_1 : (⟨S1x128, .f32⟩ : BufTy).Contents (Elt F) → (⟨S512x128, .f32⟩ : BufTy).Contents (Elt F)),
    binary main_v435 main_v437 main_v438 (addf : (⟨S512x128, .f32⟩ : BufTy).Contents (Elt F) → (⟨S512x128, .f32⟩ : BufTy).Contents (Elt F) → (⟨S512x128, .f32⟩ : BufTy).Contents (Elt F)),
    binary main_v438 main_v422 main_v439 (addf : (⟨S512x128, .f32⟩ : BufTy).Contents (Elt F) → (⟨S512x128, .f32⟩ : BufTy).Contents (Elt F) → (⟨S512x128, .f32⟩ : BufTy).Contents (Elt F)),
    nullary main_cst_78 (constant S_ .f32 0x00000000#32),
    binary main_v439 main_cst_78 main_v440 ((fun x v => Host.reduceAdd x v reducesTo_S512x128_S512_d1 h_S_) : (⟨S512x128, .f32⟩ : BufTy).Contents (Elt F) → (⟨S_, .f32⟩ : BufTy).Contents (Elt F) → (⟨S512, .f32⟩ : BufTy).Contents (Elt F)),
    unary main_v440 main_v441 (broadcastInDim S512x1 ![0] bcast_S512_S512x1_0 : (⟨S512, .f32⟩ : BufTy).Contents (Elt F) → (⟨S512x1, .f32⟩ : BufTy).Contents (Elt F)),
    nullary main_cst_79 (constant S_ .f32 0x43000000#32),
    unary main_cst_79 main_v442 (broadcastInDim S512x1 ![] bcast_S_S512x1 : (⟨S_, .f32⟩ : BufTy).Contents (Elt F) → (⟨S512x1, .f32⟩ : BufTy).Contents (Elt F)),
    binary main_v441 main_v442 main_v443 (Host.divf : (⟨S512x1, .f32⟩ : BufTy).Contents (Elt F) → (⟨S512x1, .f32⟩ : BufTy).Contents (Elt F) → (⟨S512x1, .f32⟩ : BufTy).Contents (Elt F)),
    nullary main_c_80 (constantI S_ 32 0#32),
    TRef.nullary main_call34.cst (constant S_ .f32 0x00000000#32),
    TRef.binary (.of main_v439) main_call34.cst main_call34.v0 (fun x v => Host.reduceAdd x v reducesTo_S512x128_S512_d1 h_S_),
    TRef.unary main_call34.v0 main_call34.v1 (broadcastInDim S512x1 ![0] bcast_S512_S512x1_0),
    TRef.nullary main_call34.cst_0 (constant S_ .f32 0x43000000#32),
    TRef.unary main_call34.cst_0 main_call34.v2 (broadcastInDim S512x1 ![] bcast_S_S512x1),
    TRef.binary main_call34.v1 main_call34.v2 main_call34.v3 Host.divf,
    TRef.unary main_call34.v3 main_call34.v4 (broadcastInDim S512x128 ![0, 1] bcast_S512x1_S512x128_0_1),
    TRef.binary (.of main_v439) main_call34.v4 main_call34.v5 subf,
    TRef.binary main_call34.v5 main_call34.v5 main_call34.v6 mulf,
    TRef.unary (.of main_c_80) main_call34.v7 (sitofp .f32),
    TRef.nullary main_call34.cst_1 (constant S_ .f32 0x43000000#32),
    TRef.binary main_call34.cst_1 main_call34.v7 main_call34.v8 subf,
    TRef.nullary main_call34.cst_2 (constant S_ .f32 0x00000000#32),
    TRef.binary main_call34.v6 main_call34.cst_2 main_call34.v9 (fun x v => Host.reduceAdd x v reducesTo_S512x128_S512_d1 h_S_),
    TRef.unary main_call34.v9 main_call34.v10 (broadcastInDim S512x1 ![0] bcast_S512_S512x1_0),
    TRef.unary main_call34.v8 main_call34.v11 (broadcastInDim S512x1 ![] bcast_S_S512x1),
    TRef.binary main_call34.v10 main_call34.v11 main_call34.v12 Host.divf,
    TRef.nullary main_call34.cst_3 (constant S_ .f32 0x00000000#32),
    TRef.binary main_call34.v8 main_call34.cst_3 main_call34.v13 (cmpf .ogt),
    TRef.nullary main_call34.cst_4 (constant S_ .f32 0x7FC00000#32),
    TRef.unary main_call34.cst_4 main_call34.call0.v0 id,
    TRef.unary main_call34.call0.v0 main_call34.call0.v1 (broadcastInDim S512x1 ![] bcast_S_S512x1),
    TRef.ternary main_call34.v13 main_call34.v12 main_call34.call0.v1 main_call34.call0.v2 (fun p a b => select (broadcastInDim S512x1 ![] bcast_S_S512x1 p) a b),
    unary main_v443 main_v445 (broadcastInDim S512x128 ![0, 1] bcast_S512x1_S512x128_0_1 : (⟨S512x1, .f32⟩ : BufTy).Contents (Elt F) → (⟨S512x128, .f32⟩ : BufTy).Contents (Elt F)),
    binary main_v439 main_v445 main_v446 (subf : (⟨S512x128, .f32⟩ : BufTy).Contents (Elt F) → (⟨S512x128, .f32⟩ : BufTy).Contents (Elt F) → (⟨S512x128, .f32⟩ : BufTy).Contents (Elt F)),
    nullary main_cst_81 (constant S_ .f32 0x3727C5AC#32),
    unary main_cst_81 main_v447 (broadcastInDim S512x1 ![] bcast_S_S512x1 : (⟨S_, .f32⟩ : BufTy).Contents (Elt F) → (⟨S512x1, .f32⟩ : BufTy).Contents (Elt F)),
    binary main_v444 main_v447 main_v448 (addf : (⟨S512x1, .f32⟩ : BufTy).Contents (Elt F) → (⟨S512x1, .f32⟩ : BufTy).Contents (Elt F) → (⟨S512x1, .f32⟩ : BufTy).Contents (Elt F)),
    unary main_v448 main_v449 (Host.sqrt : (⟨S512x1, .f32⟩ : BufTy).Contents (Elt F) → (⟨S512x1, .f32⟩ : BufTy).Contents (Elt F)),
    unary main_v449 main_v450 (broadcastInDim S512x128 ![0, 1] bcast_S512x1_S512x128_0_1 : (⟨S512x1, .f32⟩ : BufTy).Contents (Elt F) → (⟨S512x128, .f32⟩ : BufTy).Contents (Elt F)),
    binary main_v446 main_v450 main_v451 (Host.divf : (⟨S512x128, .f32⟩ : BufTy).Contents (Elt F) → (⟨S512x128, .f32⟩ : BufTy).Contents (Elt F) → (⟨S512x128, .f32⟩ : BufTy).Contents (Elt F)),
    unary main_arg10 main_v452 (broadcastInDim S1x128 ![1] bcast_S128_S1x128_1 : (⟨S128, .f32⟩ : BufTy).Contents (Elt F) → (⟨S1x128, .f32⟩ : BufTy).Contents (Elt F)),
    unary main_v452 main_v453 (broadcastInDim S512x128 ![0, 1] bcast_S1x128_S512x128_0_1 : (⟨S1x128, .f32⟩ : BufTy).Contents (Elt F) → (⟨S512x128, .f32⟩ : BufTy).Contents (Elt F)),
    binary main_v451 main_v453 main_v454 (mulf : (⟨S512x128, .f32⟩ : BufTy).Contents (Elt F) → (⟨S512x128, .f32⟩ : BufTy).Contents (Elt F) → (⟨S512x128, .f32⟩ : BufTy).Contents (Elt F)),
    unary main_arg13 main_v455 (broadcastInDim S1x128 ![1] bcast_S128_S1x128_1 : (⟨S128, .f32⟩ : BufTy).Contents (Elt F) → (⟨S1x128, .f32⟩ : BufTy).Contents (Elt F)),
    unary main_v455 main_v456 (broadcastInDim S512x128 ![0, 1] bcast_S1x128_S512x128_0_1 : (⟨S1x128, .f32⟩ : BufTy).Contents (Elt F) → (⟨S512x128, .f32⟩ : BufTy).Contents (Elt F)),
    binary main_v454 main_v456 main_v457 (addf : (⟨S512x128, .f32⟩ : BufTy).Contents (Elt F) → (⟨S512x128, .f32⟩ : BufTy).Contents (Elt F) → (⟨S512x128, .f32⟩ : BufTy).Contents (Elt F)),
    TRef.nullary main_call35.cst (constant S_ .f32 0x00000000#32),
    TRef.unary main_call35.cst main_call35.v0 (broadcastInDim S512x128 ![] bcast_S_S512x128),
    TRef.binary (.of main_v457) main_call35.v0 main_call35.v1 maximumf ]

/-- Statements 544 to 548: 5 operations. -/
abbrev opsEpi : List (HloOp τ sig (Elt F)) :=
  [ unary main_v119 main_v459 (broadcastInDim S1x512x128 ![1, 2] bcast_S512x128_S1x512x128_1_2 : (⟨S512x128, .f32⟩ : BufTy).Contents (Elt F) → (⟨S1x512x128, .f32⟩ : BufTy).Contents (Elt F)),
    unary main_v232 main_v460 (broadcastInDim S1x512x128 ![1, 2] bcast_S512x128_S1x512x128_1_2 : (⟨S512x128, .f32⟩ : BufTy).Contents (Elt F) → (⟨S1x512x128, .f32⟩ : BufTy).Contents (Elt F)),
    unary main_v345 main_v461 (broadcastInDim S1x512x128 ![1, 2] bcast_S512x128_S1x512x128_1_2 : (⟨S512x128, .f32⟩ : BufTy).Contents (Elt F) → (⟨S1x512x128, .f32⟩ : BufTy).Contents (Elt F)),
    unary main_v458 main_v462 (broadcastInDim S1x512x128 ![1, 2] bcast_S512x128_S1x512x128_1_2 : (⟨S512x128, .f32⟩ : BufTy).Contents (Elt F) → (⟨S1x512x128, .f32⟩ : BufTy).Contents (Elt F)),
    nary ![main_v459, main_v460, main_v461, main_v462] main_v463 (fun u => concatenate S4x512x128 0 [⟨S1x512x128, u 0⟩, ⟨S1x512x128, u 1⟩, ⟨S1x512x128, u 2⟩, ⟨S1x512x128, u 3⟩] concatenates_S1x512x128_S1x512x128_S1x512x128_S1x512x128_S4x512x128_d0) ]

end Cert.ReferenceIdeal.Ops

end
-- ==== Proof.RefOps.Kept.lean ====
/-
  BUFFERS A LINE OF HOST OPERATIONS DOES NOT WRITE.  Each host operation writes one buffer; a line whose operations'
  written buffers all lie in a list of references leaves every reference outside the list as it found it
  (the library's `after_of_writes_sub`); here, the one-operation step that feeds it.
-/
import Idealize.ShloMosaic.Lib.StableHlo.Run

noncomputable section

namespace Idealize.ShloMosaic.StableHlo

open Idealize.ShloMosaic Idealize.SL.Sem

variable {τ : Topo} {sig : RefSig} {Val : EltTy → Type}

/-- An operation that writes exactly the buffer `y`, a member of the list `W`, writes inside `W`. -/
theorem writes_sub_of_eq {W : List (Ref sig .tc)} {op : HloOp τ sig Val} (y : Ref sig .tc)
    (h : op.writes = {(Proc.devRef .tc y : DevRef τ sig)}) (hy : y ∈ W) :
    op.writes ⊆ (W.map (Proc.devRef (τ := τ) .tc)).toFinset := by
  rw [h, Finset.singleton_subset_iff, List.mem_toFinset]
  exact List.mem_map_of_mem hy

end Idealize.ShloMosaic.StableHlo

end
-- ==== Proof.LibStretches.lean ====
/-
  STRAIGHT LINES OF HOST OPERATIONS CUT INTO STRETCHES.  A program that is a chain of stretches — each stretch a list of
  host operations run in order, for instance one stretch per call of a module-local function and one per run of
  operations between two calls — is the program of the stretches' concatenation; the buffer contents after a
  concatenation are the contents after the second list from the contents after the first, so a long line is read back
  stretch by stretch from ANY contents; a property of every operation of every stretch holds of every operation of
  the concatenation; and a value moved to a typed reference's buffer type and back is the value (what is left, between
  the operations of a module-local function's opened body, once the line has been read back).  Every lemma holds for any
  mesh, signature and values.
-/
import Idealize.ShloMosaic.Lib.StableHlo.Run
import Idealize.ShloMosaic.Lib.Pipeline.Regions

noncomputable section

namespace Idealize.ShloMosaic.Stretches

open Idealize.ShloMosaic Idealize.SL.Sem Idealize.ShloMosaic.StableHlo

variable {nD : Nat} {τ : Topo} {sig : RefSig} {Val : EltTy → Type} {Λ : Labels}

/-- The chain of the stretches' programs is the program of their concatenation. -/
theorem chain_map_seq : ∀ L : List (List (HloOp τ sig Val)),
    (Pipeline.chain (L.map fun l => (seq l : Prog (TpuEff nD τ sig Val Λ .tc) PUnit)) : Prog (TpuEff nD τ sig Val Λ .tc) PUnit)
      = seq L.flatten
  | [] => rfl
  | l :: L => by rw [List.map_cons, Pipeline.chain_cons, List.flatten_cons, seq_append, chain_map_seq L]

/-- The fold over a concatenation is the fold over the second list from the fold over the first. -/
theorem after_app : ∀ (l₁ l₂ : List (HloOp τ sig Val)) (V : Valuation τ sig Val), after (l₁ ++ l₂) V = after l₂ (after l₁ V)
  | [], _, _ => rfl
  | op :: l₁, l₂, V => by rw [List.cons_append, after_cons, after_cons, after_app l₁ l₂]

/-- A property of every operation of every stretch is one of every operation of the concatenation. -/
theorem forall_flatten {α : Type} {p : α → Prop} : ∀ L : List (List α), L.Forall (fun l => l.Forall p) → L.flatten.Forall p
  | [], _ => trivial
  | l :: L, h => by
    rw [List.forall_cons] at h
    rw [List.flatten_cons]
    exact List.forall_iff_forall_mem.2 fun x hx => (List.mem_append.1 hx).elim (List.forall_iff_forall_mem.1 h.1 x)
      (List.forall_iff_forall_mem.1 (forall_flatten L h.2) x)

/-- A value moved to a typed reference's buffer type and back is the value. -/
theorem ofBuf_toBuf {T : BufTy} (x : TRef sig T) (v : T.Contents Val) : x.ofBuf (x.toBuf v) = v := by
  obtain ⟨r, hty, hdev, hsc⟩ := x
  subst hty
  rfl

end Idealize.ShloMosaic.Stretches

end
-- ==== Proof.RefOps.SPro.lean ====
import proofs.«175100_g37074157699472_cont_sun_c4_777_8_alg».proof.Proof.Gen.ReferenceIdeal
import Idealize.ShloMosaic.Lib.StableHlo.Run
import proofs.«175100_g37074157699472_cont_sun_c4_777_8_alg».proof.Proof.RefOps.Stretches
import proofs.«175100_g37074157699472_cont_sun_c4_777_8_alg».proof.Proof.RefOps.Kept
import proofs.«175100_g37074157699472_cont_sun_c4_777_8_alg».proof.Proof.RefOut
import proofs.«175100_g37074157699472_cont_sun_c4_777_8_alg».proof.Proof.LibStretches

noncomputable section

namespace Cert.ReferenceIdeal.Ops

open Cert.ReferenceIdeal Cert.ReferenceIdeal.Gen Cert.ReferenceIdeal.Term Idealize.ShloMosaic Idealize.ShloMosaic.TcCoe Idealize.SL.Sem Idealize.ShloMosaic.StableHlo

variable {F : FTy → Type} [FloatOps F]

/-- The buffers the stretch writes, in order. -/
abbrev writesPro : List (Ref sig .tc) :=
  [ main_v0, main_v1, main_v2, main_v3, main_v4, main_v5, main_v6 ]

theorem opsPro_writes : (opsPro : List (HloOp τ sig (Elt F))).Forall fun op => op.writes ⊆ ((writesPro).map (Proc.devRef (τ := τ) .tc)).toFinset :=
  ⟨writes_sub_of_eq main_v0 rfl (by decide),
   writes_sub_of_eq main_v1 rfl (by decide),
   writes_sub_of_eq main_v2 rfl (by decide),
   writes_sub_of_eq main_v3 rfl (by decide),
   writes_sub_of_eq main_v4 rfl (by decide),
   writes_sub_of_eq main_v5 rfl (by decide),
   writes_sub_of_eq main_v6 rfl (by decide)⟩

/-- A buffer the stretch does not write keeps its contents. -/
theorem Pro_kept (V : Valuation τ sig (Elt F)) {r : Ref sig .tc} (hr : r ∉ writesPro) :
    after (no_index opsPro) V (no_index (Proc.devRef .tc r)) = V (Proc.devRef .tc r) :=
  after_of_writes_sub opsPro V opsPro_writes hr

theorem Pro_src (V : Valuation τ sig (Elt F)) :
    after (no_index opsPro) V (no_index (main_v2 : DevRef τ sig)) = srcF := by
  refine (fun (h : ∀ x, x = _ → x = _) => h _ rfl) ?_
  intro x hx
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', Stretches.ofBuf_toBuf, TRef.ofBuf, TRef.toBuf, cast_eq] at hx
  exact hx.trans rfl

theorem Pro_dst (V : Valuation τ sig (Elt F)) :
    after (no_index opsPro) V (no_index (main_v6 : DevRef τ sig)) = dstF := by
  refine (fun (h : ∀ x, x = _ → x = _) => h _ rfl) ?_
  intro x hx
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', Stretches.ofBuf_toBuf, TRef.ofBuf, TRef.toBuf, cast_eq] at hx
  exact hx.trans rfl

end Cert.ReferenceIdeal.Ops

end
-- ==== Proof.RefOps.SB0.lean ====
import proofs.«175100_g37074157699472_cont_sun_c4_777_8_alg».proof.Proof.Gen.ReferenceIdeal
import Idealize.ShloMosaic.Lib.StableHlo.Run
import proofs.«175100_g37074157699472_cont_sun_c4_777_8_alg».proof.Proof.RefOps.Stretches
import proofs.«175100_g37074157699472_cont_sun_c4_777_8_alg».proof.Proof.RefOps.Kept
import proofs.«175100_g37074157699472_cont_sun_c4_777_8_alg».proof.Proof.RefOut
import proofs.«175100_g37074157699472_cont_sun_c4_777_8_alg».proof.Proof.LibStretches

noncomputable section

namespace Cert.ReferenceIdeal.Ops

open Cert.ReferenceIdeal Cert.ReferenceIdeal.Gen Cert.ReferenceIdeal.Term Idealize.ShloMosaic Idealize.ShloMosaic.TcCoe Idealize.SL.Sem Idealize.ShloMosaic.StableHlo

variable {F : FTy → Type} [FloatOps F]

/-- The buffers the stretch writes, in order. -/
abbrev writesB0 : List (Ref sig .tc) :=
  [ main_v7, main_v8, main_v9, main_v10, main_v11 ]

theorem opsB0_writes : (opsB0 : List (HloOp τ sig (Elt F))).Forall fun op => op.writes ⊆ ((writesB0).map (Proc.devRef (τ := τ) .tc)).toFinset :=
  ⟨writes_sub_of_eq main_v7 rfl (by decide),
   writes_sub_of_eq main_v8 rfl (by decide),
   writes_sub_of_eq main_v9 rfl (by decide),
   writes_sub_of_eq main_v10 rfl (by decide),
   writes_sub_of_eq main_v11 rfl (by decide)⟩

/-- A buffer the stretch does not write keeps its contents. -/
theorem B0_kept (V : Valuation τ sig (Elt F)) {r : Ref sig .tc} (hr : r ∉ writesB0) :
    after (no_index opsB0) V (no_index (Proc.devRef .tc r)) = V (Proc.devRef .tc r) :=
  after_of_writes_sub opsB0 V opsB0_writes hr

theorem B0_w (V : Valuation τ sig (Elt F)) :
    after (no_index opsB0) V (no_index (main_v9 : DevRef τ sig)) = wB0 (V (main_arg1 : DevRef τ sig)) := by
  refine (fun (h : ∀ x, x = _ → x = _) => h _ rfl) ?_
  intro x hx
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', Stretches.ofBuf_toBuf, TRef.ofBuf, TRef.toBuf, cast_eq] at hx
  exact hx.trans rfl

theorem B0_x (V : Valuation τ sig (Elt F)) :
    after (no_index opsB0) V (no_index (main_v11 : DevRef τ sig)) = xB0 (V (main_arg0 : DevRef τ sig)) := by
  refine (fun (h : ∀ x, x = _ → x = _) => h _ rfl) ?_
  intro x hx
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', Stretches.ofBuf_toBuf, TRef.ofBuf, TRef.toBuf, cast_eq] at hx
  exact hx.trans rfl

end Cert.ReferenceIdeal.Ops

end
-- ==== Proof.RefOps.SL00.lean ====
import proofs.«175100_g37074157699472_cont_sun_c4_777_8_alg».proof.Proof.Gen.ReferenceIdeal
import Idealize.ShloMosaic.Lib.StableHlo.Run
import proofs.«175100_g37074157699472_cont_sun_c4_777_8_alg».proof.Proof.RefOps.Stretches
import proofs.«175100_g37074157699472_cont_sun_c4_777_8_alg».proof.Proof.RefOps.Kept
import proofs.«175100_g37074157699472_cont_sun_c4_777_8_alg».proof.Proof.RefOut
import proofs.«175100_g37074157699472_cont_sun_c4_777_8_alg».proof.Proof.LibStretches

noncomputable section

namespace Cert.ReferenceIdeal.Ops

open Cert.ReferenceIdeal Cert.ReferenceIdeal.Gen Cert.ReferenceIdeal.Term Idealize.ShloMosaic Idealize.ShloMosaic.TcCoe Idealize.SL.Sem Idealize.ShloMosaic.StableHlo

variable {F : FTy → Type} [FloatOps F]

/-- The buffers the stretch writes, in order. -/
abbrev writesL00 : List (Ref sig .tc) :=
  [ main_v12, main_v13, main_call0.c.ref, main_call0.v0.ref, main_call0.v1.ref, main_call0.c_0.ref, main_call0.v2.ref, main_call0.v3.ref, main_call0.call0.v0.ref, main_call0.v5.ref, main_call0.c_1.ref, main_call0.c_2.ref, main_call0.v6.ref, main_call0.v7.ref, main_call0.v8.ref, main_call0.v9.ref, main_call0.v10.ref, main_call0.v11.ref, main_call0.c_3.ref, main_call0.v12.ref, main_call0.v13.ref, main_call0.v14.ref, main_call0.cst.ref, main_call0.v15.ref, main_call0.v16.ref, main_v15, main_v16, main_cst, main_v17, main_c, main_v18, main_v19, main_c_0, main_v20, main_v21, main_v22, main_v23, main_v24, main_v25, main_v26, main_v27, main_v28, main_cst_1, main_v29, main_v30, main_cst_2, main_v31, main_v32, main_c_3, main_call1.cst.ref, main_call1.v0.ref, main_call1.v1.ref, main_call1.cst_0.ref, main_call1.v2.ref, main_call1.v3.ref, main_call1.v4.ref, main_call1.v5.ref, main_call1.v6.ref, main_call1.v7.ref, main_call1.cst_1.ref, main_call1.v8.ref, main_call1.cst_2.ref, main_call1.v9.ref, main_call1.v10.ref, main_call1.v11.ref, main_call1.v12.ref, main_call1.cst_3.ref, main_call1.v13.ref, main_call1.cst_4.ref, main_call1.call0.v0.ref, main_call1.call0.v1.ref, main_call1.call0.v2.ref, main_v34, main_v35, main_cst_4, main_v36, main_v37, main_v38, main_v39, main_v40, main_v41, main_v42, main_v43, main_v44, main_v45, main_v46, main_call2.cst.ref, main_call2.v0.ref, main_call2.v1.ref ]

theorem opsL00_writes : (opsL00 : List (HloOp τ sig (Elt F))).Forall fun op => op.writes ⊆ ((writesL00).map (Proc.devRef (τ := τ) .tc)).toFinset :=
  ⟨writes_sub_of_eq main_v12 rfl (by decide),
   writes_sub_of_eq main_v13 rfl (by decide),
   writes_sub_of_eq (main_call0.c.ref) rfl (by decide),
   writes_sub_of_eq (main_call0.v0.ref) rfl (by decide),
   writes_sub_of_eq (main_call0.v1.ref) rfl (by decide),
   writes_sub_of_eq (main_call0.c_0.ref) rfl (by decide),
   writes_sub_of_eq (main_call0.v2.ref) rfl (by decide),
   writes_sub_of_eq (main_call0.v3.ref) rfl (by decide),
   writes_sub_of_eq (main_call0.call0.v0.ref) rfl (by decide),
   writes_sub_of_eq (main_call0.v5.ref) rfl (by decide),
   writes_sub_of_eq (main_call0.c_1.ref) rfl (by decide),
   writes_sub_of_eq (main_call0.c_2.ref) rfl (by decide),
   writes_sub_of_eq (main_call0.v6.ref) rfl (by decide),
   writes_sub_of_eq (main_call0.v7.ref) rfl (by decide),
   writes_sub_of_eq (main_call0.v8.ref) rfl (by decide),
   writes_sub_of_eq (main_call0.v9.ref) rfl (by decide),
   writes_sub_of_eq (main_call0.v10.ref) rfl (by decide),
   writes_sub_of_eq (main_call0.v11.ref) rfl (by decide),
   writes_sub_of_eq (main_call0.c_3.ref) rfl (by decide),
   writes_sub_of_eq (main_call0.v12.ref) rfl (by decide),
   writes_sub_of_eq (main_call0.v13.ref) rfl (by decide),
   writes_sub_of_eq (main_call0.v14.ref) rfl (by decide),
   writes_sub_of_eq (main_call0.cst.ref) rfl (by decide),
   writes_sub_of_eq (main_call0.v15.ref) rfl (by decide),
   writes_sub_of_eq (main_call0.v16.ref) rfl (by decide),
   writes_sub_of_eq main_v15 rfl (by decide),
   writes_sub_of_eq main_v16 rfl (by decide),
   writes_sub_of_eq main_cst rfl (by decide),
   writes_sub_of_eq main_v17 rfl (by decide),
   writes_sub_of_eq main_c rfl (by decide),
   writes_sub_of_eq main_v18 rfl (by decide),
   writes_sub_of_eq main_v19 rfl (by decide),
   writes_sub_of_eq main_c_0 rfl (by decide),
   writes_sub_of_eq main_v20 rfl (by decide),
   writes_sub_of_eq main_v21 rfl (by decide),
   writes_sub_of_eq main_v22 rfl (by decide),
   writes_sub_of_eq main_v23 rfl (by decide),
   writes_sub_of_eq main_v24 rfl (by decide),
   writes_sub_of_eq main_v25 rfl (by decide),
   writes_sub_of_eq main_v26 rfl (by decide),
   writes_sub_of_eq main_v27 rfl (by decide),
   writes_sub_of_eq main_v28 rfl (by decide),
   writes_sub_of_eq main_cst_1 rfl (by decide),
   writes_sub_of_eq main_v29 rfl (by decide),
   writes_sub_of_eq main_v30 rfl (by decide),
   writes_sub_of_eq main_cst_2 rfl (by decide),
   writes_sub_of_eq main_v31 rfl (by decide),
   writes_sub_of_eq main_v32 rfl (by decide),
   writes_sub_of_eq main_c_3 rfl (by decide),
   writes_sub_of_eq (main_call1.cst.ref) rfl (by decide),
   writes_sub_of_eq (main_call1.v0.ref) rfl (by decide),
   writes_sub_of_eq (main_call1.v1.ref) rfl (by decide),
   writes_sub_of_eq (main_call1.cst_0.ref) rfl (by decide),
   writes_sub_of_eq (main_call1.v2.ref) rfl (by decide),
   writes_sub_of_eq (main_call1.v3.ref) rfl (by decide),
   writes_sub_of_eq (main_call1.v4.ref) rfl (by decide),
   writes_sub_of_eq (main_call1.v5.ref) rfl (by decide),
   writes_sub_of_eq (main_call1.v6.ref) rfl (by decide),
   writes_sub_of_eq (main_call1.v7.ref) rfl (by decide),
   writes_sub_of_eq (main_call1.cst_1.ref) rfl (by decide),
   writes_sub_of_eq (main_call1.v8.ref) rfl (by decide),
   writes_sub_of_eq (main_call1.cst_2.ref) rfl (by decide),
   writes_sub_of_eq (main_call1.v9.ref) rfl (by decide),
   writes_sub_of_eq (main_call1.v10.ref) rfl (by decide),
   writes_sub_of_eq (main_call1.v11.ref) rfl (by decide),
   writes_sub_of_eq (main_call1.v12.ref) rfl (by decide),
   writes_sub_of_eq (main_call1.cst_3.ref) rfl (by decide),
   writes_sub_of_eq (main_call1.v13.ref) rfl (by decide),
   writes_sub_of_eq (main_call1.cst_4.ref) rfl (by decide),
   writes_sub_of_eq (main_call1.call0.v0.ref) rfl (by decide),
   writes_sub_of_eq (main_call1.call0.v1.ref) rfl (by decide),
   writes_sub_of_eq (main_call1.call0.v2.ref) rfl (by decide),
   writes_sub_of_eq main_v34 rfl (by decide),
   writes_sub_of_eq main_v35 rfl (by decide),
   writes_sub_of_eq main_cst_4 rfl (by decide),
   writes_sub_of_eq main_v36 rfl (by decide),
   writes_sub_of_eq main_v37 rfl (by decide),
   writes_sub_of_eq main_v38 rfl (by decide),
   writes_sub_of_eq main_v39 rfl (by decide),
   writes_sub_of_eq main_v40 rfl (by decide),
   writes_sub_of_eq main_v41 rfl (by decide),
   writes_sub_of_eq main_v42 rfl (by decide),
   writes_sub_of_eq main_v43 rfl (by decide),
   writes_sub_of_eq main_v44 rfl (by decide),
   writes_sub_of_eq main_v45 rfl (by decide),
   writes_sub_of_eq main_v46 rfl (by decide),
   writes_sub_of_eq (main_call2.cst.ref) rfl (by decide),
   writes_sub_of_eq (main_call2.v0.ref) rfl (by decide),
   writes_sub_of_eq (main_call2.v1.ref) rfl (by decide)⟩

/-- A buffer the stretch does not write keeps its contents. -/
theorem L00_kept (V : Valuation τ sig (Elt F)) {r : Ref sig .tc} (hr : r ∉ writesL00) :
    after (no_index opsL00) V (no_index (Proc.devRef .tc r)) = V (Proc.devRef .tc r) :=
  after_of_writes_sub opsL00 V opsL00_writes hr

theorem L00_out (V : Valuation τ sig (Elt F)) :
    after (no_index opsL00) V (no_index (main_v47 : DevRef τ sig)) = refLayer (V (main_v11 : DevRef τ sig)) (V (main_v9 : DevRef τ sig)) (V (main_v2 : DevRef τ sig)) (V (main_v6 : DevRef τ sig)) (V (main_arg2 : DevRef τ sig)) (V (main_arg5 : DevRef τ sig)) (V (main_arg8 : DevRef τ sig)) (V (main_arg11 : DevRef τ sig)) := by
  refine (fun (h : ∀ x, x = _ → x = _) => h _ rfl) ?_
  intro x hx
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', Stretches.ofBuf_toBuf, TRef.ofBuf, TRef.toBuf, cast_eq] at hx
  exact hx.trans rfl

end Cert.ReferenceIdeal.Ops

end
-- ==== Proof.RefOps.SL01.lean ====
import proofs.«175100_g37074157699472_cont_sun_c4_777_8_alg».proof.Proof.Gen.ReferenceIdeal
import Idealize.ShloMosaic.Lib.StableHlo.Run
import proofs.«175100_g37074157699472_cont_sun_c4_777_8_alg».proof.Proof.RefOps.Stretches
import proofs.«175100_g37074157699472_cont_sun_c4_777_8_alg».proof.Proof.RefOps.Kept
import proofs.«175100_g37074157699472_cont_sun_c4_777_8_alg».proof.Proof.RefOut
import proofs.«175100_g37074157699472_cont_sun_c4_777_8_alg».proof.Proof.LibStretches

noncomputable section

namespace Cert.ReferenceIdeal.Ops

open Cert.ReferenceIdeal Cert.ReferenceIdeal.Gen Cert.ReferenceIdeal.Term Idealize.ShloMosaic Idealize.ShloMosaic.TcCoe Idealize.SL.Sem Idealize.ShloMosaic.StableHlo

variable {F : FTy → Type} [FloatOps F]

/-- The buffers the stretch writes, in order. -/
abbrev writesL01 : List (Ref sig .tc) :=
  [ main_v48, main_v49, main_call3.c.ref, main_call3.v0.ref, main_call3.v1.ref, main_call3.c_0.ref, main_call3.v2.ref, main_call3.v3.ref, main_call3.call0.v0.ref, main_call3.v5.ref, main_call3.c_1.ref, main_call3.c_2.ref, main_call3.v6.ref, main_call3.v7.ref, main_call3.v8.ref, main_call3.v9.ref, main_call3.v10.ref, main_call3.v11.ref, main_call3.c_3.ref, main_call3.v12.ref, main_call3.v13.ref, main_call3.v14.ref, main_call3.cst.ref, main_call3.v15.ref, main_call3.v16.ref, main_v51, main_v52, main_cst_5, main_v53, main_c_6, main_v54, main_v55, main_c_7, main_v56, main_v57, main_v58, main_v59, main_v60, main_v61, main_v62, main_v63, main_v64, main_cst_8, main_v65, main_v66, main_cst_9, main_v67, main_v68, main_c_10, main_call4.cst.ref, main_call4.v0.ref, main_call4.v1.ref, main_call4.cst_0.ref, main_call4.v2.ref, main_call4.v3.ref, main_call4.v4.ref, main_call4.v5.ref, main_call4.v6.ref, main_call4.v7.ref, main_call4.cst_1.ref, main_call4.v8.ref, main_call4.cst_2.ref, main_call4.v9.ref, main_call4.v10.ref, main_call4.v11.ref, main_call4.v12.ref, main_call4.cst_3.ref, main_call4.v13.ref, main_call4.cst_4.ref, main_call4.call0.v0.ref, main_call4.call0.v1.ref, main_call4.call0.v2.ref, main_v70, main_v71, main_cst_11, main_v72, main_v73, main_v74, main_v75, main_v76, main_v77, main_v78, main_v79, main_v80, main_v81, main_v82, main_call5.cst.ref, main_call5.v0.ref, main_call5.v1.ref ]

theorem opsL01_writes : (opsL01 : List (HloOp τ sig (Elt F))).Forall fun op => op.writes ⊆ ((writesL01).map (Proc.devRef (τ := τ) .tc)).toFinset :=
  ⟨writes_sub_of_eq main_v48 rfl (by decide),
   writes_sub_of_eq main_v49 rfl (by decide),
   writes_sub_of_eq (main_call3.c.ref) rfl (by decide),
   writes_sub_of_eq (main_call3.v0.ref) rfl (by decide),
   writes_sub_of_eq (main_call3.v1.ref) rfl (by decide),
   writes_sub_of_eq (main_call3.c_0.ref) rfl (by decide),
   writes_sub_of_eq (main_call3.v2.ref) rfl (by decide),
   writes_sub_of_eq (main_call3.v3.ref) rfl (by decide),
   writes_sub_of_eq (main_call3.call0.v0.ref) rfl (by decide),
   writes_sub_of_eq (main_call3.v5.ref) rfl (by decide),
   writes_sub_of_eq (main_call3.c_1.ref) rfl (by decide),
   writes_sub_of_eq (main_call3.c_2.ref) rfl (by decide),
   writes_sub_of_eq (main_call3.v6.ref) rfl (by decide),
   writes_sub_of_eq (main_call3.v7.ref) rfl (by decide),
   writes_sub_of_eq (main_call3.v8.ref) rfl (by decide),
   writes_sub_of_eq (main_call3.v9.ref) rfl (by decide),
   writes_sub_of_eq (main_call3.v10.ref) rfl (by decide),
   writes_sub_of_eq (main_call3.v11.ref) rfl (by decide),
   writes_sub_of_eq (main_call3.c_3.ref) rfl (by decide),
   writes_sub_of_eq (main_call3.v12.ref) rfl (by decide),
   writes_sub_of_eq (main_call3.v13.ref) rfl (by decide),
   writes_sub_of_eq (main_call3.v14.ref) rfl (by decide),
   writes_sub_of_eq (main_call3.cst.ref) rfl (by decide),
   writes_sub_of_eq (main_call3.v15.ref) rfl (by decide),
   writes_sub_of_eq (main_call3.v16.ref) rfl (by decide),
   writes_sub_of_eq main_v51 rfl (by decide),
   writes_sub_of_eq main_v52 rfl (by decide),
   writes_sub_of_eq main_cst_5 rfl (by decide),
   writes_sub_of_eq main_v53 rfl (by decide),
   writes_sub_of_eq main_c_6 rfl (by decide),
   writes_sub_of_eq main_v54 rfl (by decide),
   writes_sub_of_eq main_v55 rfl (by decide),
   writes_sub_of_eq main_c_7 rfl (by decide),
   writes_sub_of_eq main_v56 rfl (by decide),
   writes_sub_of_eq main_v57 rfl (by decide),
   writes_sub_of_eq main_v58 rfl (by decide),
   writes_sub_of_eq main_v59 rfl (by decide),
   writes_sub_of_eq main_v60 rfl (by decide),
   writes_sub_of_eq main_v61 rfl (by decide),
   writes_sub_of_eq main_v62 rfl (by decide),
   writes_sub_of_eq main_v63 rfl (by decide),
   writes_sub_of_eq main_v64 rfl (by decide),
   writes_sub_of_eq main_cst_8 rfl (by decide),
   writes_sub_of_eq main_v65 rfl (by decide),
   writes_sub_of_eq main_v66 rfl (by decide),
   writes_sub_of_eq main_cst_9 rfl (by decide),
   writes_sub_of_eq main_v67 rfl (by decide),
   writes_sub_of_eq main_v68 rfl (by decide),
   writes_sub_of_eq main_c_10 rfl (by decide),
   writes_sub_of_eq (main_call4.cst.ref) rfl (by decide),
   writes_sub_of_eq (main_call4.v0.ref) rfl (by decide),
   writes_sub_of_eq (main_call4.v1.ref) rfl (by decide),
   writes_sub_of_eq (main_call4.cst_0.ref) rfl (by decide),
   writes_sub_of_eq (main_call4.v2.ref) rfl (by decide),
   writes_sub_of_eq (main_call4.v3.ref) rfl (by decide),
   writes_sub_of_eq (main_call4.v4.ref) rfl (by decide),
   writes_sub_of_eq (main_call4.v5.ref) rfl (by decide),
   writes_sub_of_eq (main_call4.v6.ref) rfl (by decide),
   writes_sub_of_eq (main_call4.v7.ref) rfl (by decide),
   writes_sub_of_eq (main_call4.cst_1.ref) rfl (by decide),
   writes_sub_of_eq (main_call4.v8.ref) rfl (by decide),
   writes_sub_of_eq (main_call4.cst_2.ref) rfl (by decide),
   writes_sub_of_eq (main_call4.v9.ref) rfl (by decide),
   writes_sub_of_eq (main_call4.v10.ref) rfl (by decide),
   writes_sub_of_eq (main_call4.v11.ref) rfl (by decide),
   writes_sub_of_eq (main_call4.v12.ref) rfl (by decide),
   writes_sub_of_eq (main_call4.cst_3.ref) rfl (by decide),
   writes_sub_of_eq (main_call4.v13.ref) rfl (by decide),
   writes_sub_of_eq (main_call4.cst_4.ref) rfl (by decide),
   writes_sub_of_eq (main_call4.call0.v0.ref) rfl (by decide),
   writes_sub_of_eq (main_call4.call0.v1.ref) rfl (by decide),
   writes_sub_of_eq (main_call4.call0.v2.ref) rfl (by decide),
   writes_sub_of_eq main_v70 rfl (by decide),
   writes_sub_of_eq main_v71 rfl (by decide),
   writes_sub_of_eq main_cst_11 rfl (by decide),
   writes_sub_of_eq main_v72 rfl (by decide),
   writes_sub_of_eq main_v73 rfl (by decide),
   writes_sub_of_eq main_v74 rfl (by decide),
   writes_sub_of_eq main_v75 rfl (by decide),
   writes_sub_of_eq main_v76 rfl (by decide),
   writes_sub_of_eq main_v77 rfl (by decide),
   writes_sub_of_eq main_v78 rfl (by decide),
   writes_sub_of_eq main_v79 rfl (by decide),
   writes_sub_of_eq main_v80 rfl (by decide),
   writes_sub_of_eq main_v81 rfl (by decide),
   writes_sub_of_eq main_v82 rfl (by decide),
   writes_sub_of_eq (main_call5.cst.ref) rfl (by decide),
   writes_sub_of_eq (main_call5.v0.ref) rfl (by decide),
   writes_sub_of_eq (main_call5.v1.ref) rfl (by decide)⟩

/-- A buffer the stretch does not write keeps its contents. -/
theorem L01_kept (V : Valuation τ sig (Elt F)) {r : Ref sig .tc} (hr : r ∉ writesL01) :
    after (no_index opsL01) V (no_index (Proc.devRef .tc r)) = V (Proc.devRef .tc r) :=
  after_of_writes_sub opsL01 V opsL01_writes hr

theorem L01_out (V : Valuation τ sig (Elt F)) :
    after (no_index opsL01) V (no_index (main_v83 : DevRef τ sig)) = refLayer (V (main_v47 : DevRef τ sig)) (V (main_v9 : DevRef τ sig)) (V (main_v2 : DevRef τ sig)) (V (main_v6 : DevRef τ sig)) (V (main_arg3 : DevRef τ sig)) (V (main_arg6 : DevRef τ sig)) (V (main_arg9 : DevRef τ sig)) (V (main_arg12 : DevRef τ sig)) := by
  refine (fun (h : ∀ x, x = _ → x = _) => h _ rfl) ?_
  intro x hx
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', Stretches.ofBuf_toBuf, TRef.ofBuf, TRef.toBuf, cast_eq] at hx
  exact hx.trans rfl

end Cert.ReferenceIdeal.Ops

end
-- ==== Proof.RefOps.SL02.lean ====
import proofs.«175100_g37074157699472_cont_sun_c4_777_8_alg».proof.Proof.Gen.ReferenceIdeal
import Idealize.ShloMosaic.Lib.StableHlo.Run
import proofs.«175100_g37074157699472_cont_sun_c4_777_8_alg».proof.Proof.RefOps.Stretches
import proofs.«175100_g37074157699472_cont_sun_c4_777_8_alg».proof.Proof.RefOps.Kept
import proofs.«175100_g37074157699472_cont_sun_c4_777_8_alg».proof.Proof.RefOut
import proofs.«175100_g37074157699472_cont_sun_c4_777_8_alg».proof.Proof.LibStretches

noncomputable section

namespace Cert.ReferenceIdeal.Ops

open Cert.ReferenceIdeal Cert.ReferenceIdeal.Gen Cert.ReferenceIdeal.Term Idealize.ShloMosaic Idealize.ShloMosaic.TcCoe Idealize.SL.Sem Idealize.ShloMosaic.StableHlo

variable {F : FTy → Type} [FloatOps F]

/-- The buffers the stretch writes, in order. -/
abbrev writesL02 : List (Ref sig .tc) :=
  [ main_v84, main_v85, main_call6.c.ref, main_call6.v0.ref, main_call6.v1.ref, main_call6.c_0.ref, main_call6.v2.ref, main_call6.v3.ref, main_call6.call0.v0.ref, main_call6.v5.ref, main_call6.c_1.ref, main_call6.c_2.ref, main_call6.v6.ref, main_call6.v7.ref, main_call6.v8.ref, main_call6.v9.ref, main_call6.v10.ref, main_call6.v11.ref, main_call6.c_3.ref, main_call6.v12.ref, main_call6.v13.ref, main_call6.v14.ref, main_call6.cst.ref, main_call6.v15.ref, main_call6.v16.ref, main_v87, main_v88, main_cst_12, main_v89, main_c_13, main_v90, main_v91, main_c_14, main_v92, main_v93, main_v94, main_v95, main_v96, main_v97, main_v98, main_v99, main_v100, main_cst_15, main_v101, main_v102, main_cst_16, main_v103, main_v104, main_c_17, main_call7.cst.ref, main_call7.v0.ref, main_call7.v1.ref, main_call7.cst_0.ref, main_call7.v2.ref, main_call7.v3.ref, main_call7.v4.ref, main_call7.v5.ref, main_call7.v6.ref, main_call7.v7.ref, main_call7.cst_1.ref, main_call7.v8.ref, main_call7.cst_2.ref, main_call7.v9.ref, main_call7.v10.ref, main_call7.v11.ref, main_call7.v12.ref, main_call7.cst_3.ref, main_call7.v13.ref, main_call7.cst_4.ref, main_call7.call0.v0.ref, main_call7.call0.v1.ref, main_call7.call0.v2.ref, main_v106, main_v107, main_cst_18, main_v108, main_v109, main_v110, main_v111, main_v112, main_v113, main_v114, main_v115, main_v116, main_v117, main_v118, main_call8.cst.ref, main_call8.v0.ref, main_call8.v1.ref ]

theorem opsL02_writes : (opsL02 : List (HloOp τ sig (Elt F))).Forall fun op => op.writes ⊆ ((writesL02).map (Proc.devRef (τ := τ) .tc)).toFinset :=
  ⟨writes_sub_of_eq main_v84 rfl (by decide),
   writes_sub_of_eq main_v85 rfl (by decide),
   writes_sub_of_eq (main_call6.c.ref) rfl (by decide),
   writes_sub_of_eq (main_call6.v0.ref) rfl (by decide),
   writes_sub_of_eq (main_call6.v1.ref) rfl (by decide),
   writes_sub_of_eq (main_call6.c_0.ref) rfl (by decide),
   writes_sub_of_eq (main_call6.v2.ref) rfl (by decide),
   writes_sub_of_eq (main_call6.v3.ref) rfl (by decide),
   writes_sub_of_eq (main_call6.call0.v0.ref) rfl (by decide),
   writes_sub_of_eq (main_call6.v5.ref) rfl (by decide),
   writes_sub_of_eq (main_call6.c_1.ref) rfl (by decide),
   writes_sub_of_eq (main_call6.c_2.ref) rfl (by decide),
   writes_sub_of_eq (main_call6.v6.ref) rfl (by decide),
   writes_sub_of_eq (main_call6.v7.ref) rfl (by decide),
   writes_sub_of_eq (main_call6.v8.ref) rfl (by decide),
   writes_sub_of_eq (main_call6.v9.ref) rfl (by decide),
   writes_sub_of_eq (main_call6.v10.ref) rfl (by decide),
   writes_sub_of_eq (main_call6.v11.ref) rfl (by decide),
   writes_sub_of_eq (main_call6.c_3.ref) rfl (by decide),
   writes_sub_of_eq (main_call6.v12.ref) rfl (by decide),
   writes_sub_of_eq (main_call6.v13.ref) rfl (by decide),
   writes_sub_of_eq (main_call6.v14.ref) rfl (by decide),
   writes_sub_of_eq (main_call6.cst.ref) rfl (by decide),
   writes_sub_of_eq (main_call6.v15.ref) rfl (by decide),
   writes_sub_of_eq (main_call6.v16.ref) rfl (by decide),
   writes_sub_of_eq main_v87 rfl (by decide),
   writes_sub_of_eq main_v88 rfl (by decide),
   writes_sub_of_eq main_cst_12 rfl (by decide),
   writes_sub_of_eq main_v89 rfl (by decide),
   writes_sub_of_eq main_c_13 rfl (by decide),
   writes_sub_of_eq main_v90 rfl (by decide),
   writes_sub_of_eq main_v91 rfl (by decide),
   writes_sub_of_eq main_c_14 rfl (by decide),
   writes_sub_of_eq main_v92 rfl (by decide),
   writes_sub_of_eq main_v93 rfl (by decide),
   writes_sub_of_eq main_v94 rfl (by decide),
   writes_sub_of_eq main_v95 rfl (by decide),
   writes_sub_of_eq main_v96 rfl (by decide),
   writes_sub_of_eq main_v97 rfl (by decide),
   writes_sub_of_eq main_v98 rfl (by decide),
   writes_sub_of_eq main_v99 rfl (by decide),
   writes_sub_of_eq main_v100 rfl (by decide),
   writes_sub_of_eq main_cst_15 rfl (by decide),
   writes_sub_of_eq main_v101 rfl (by decide),
   writes_sub_of_eq main_v102 rfl (by decide),
   writes_sub_of_eq main_cst_16 rfl (by decide),
   writes_sub_of_eq main_v103 rfl (by decide),
   writes_sub_of_eq main_v104 rfl (by decide),
   writes_sub_of_eq main_c_17 rfl (by decide),
   writes_sub_of_eq (main_call7.cst.ref) rfl (by decide),
   writes_sub_of_eq (main_call7.v0.ref) rfl (by decide),
   writes_sub_of_eq (main_call7.v1.ref) rfl (by decide),
   writes_sub_of_eq (main_call7.cst_0.ref) rfl (by decide),
   writes_sub_of_eq (main_call7.v2.ref) rfl (by decide),
   writes_sub_of_eq (main_call7.v3.ref) rfl (by decide),
   writes_sub_of_eq (main_call7.v4.ref) rfl (by decide),
   writes_sub_of_eq (main_call7.v5.ref) rfl (by decide),
   writes_sub_of_eq (main_call7.v6.ref) rfl (by decide),
   writes_sub_of_eq (main_call7.v7.ref) rfl (by decide),
   writes_sub_of_eq (main_call7.cst_1.ref) rfl (by decide),
   writes_sub_of_eq (main_call7.v8.ref) rfl (by decide),
   writes_sub_of_eq (main_call7.cst_2.ref) rfl (by decide),
   writes_sub_of_eq (main_call7.v9.ref) rfl (by decide),
   writes_sub_of_eq (main_call7.v10.ref) rfl (by decide),
   writes_sub_of_eq (main_call7.v11.ref) rfl (by decide),
   writes_sub_of_eq (main_call7.v12.ref) rfl (by decide),
   writes_sub_of_eq (main_call7.cst_3.ref) rfl (by decide),
   writes_sub_of_eq (main_call7.v13.ref) rfl (by decide),
   writes_sub_of_eq (main_call7.cst_4.ref) rfl (by decide),
   writes_sub_of_eq (main_call7.call0.v0.ref) rfl (by decide),
   writes_sub_of_eq (main_call7.call0.v1.ref) rfl (by decide),
   writes_sub_of_eq (main_call7.call0.v2.ref) rfl (by decide),
   writes_sub_of_eq main_v106 rfl (by decide),
   writes_sub_of_eq main_v107 rfl (by decide),
   writes_sub_of_eq main_cst_18 rfl (by decide),
   writes_sub_of_eq main_v108 rfl (by decide),
   writes_sub_of_eq main_v109 rfl (by decide),
   writes_sub_of_eq main_v110 rfl (by decide),
   writes_sub_of_eq main_v111 rfl (by decide),
   writes_sub_of_eq main_v112 rfl (by decide),
   writes_sub_of_eq main_v113 rfl (by decide),
   writes_sub_of_eq main_v114 rfl (by decide),
   writes_sub_of_eq main_v115 rfl (by decide),
   writes_sub_of_eq main_v116 rfl (by decide),
   writes_sub_of_eq main_v117 rfl (by decide),
   writes_sub_of_eq main_v118 rfl (by decide),
   writes_sub_of_eq (main_call8.cst.ref) rfl (by decide),
   writes_sub_of_eq (main_call8.v0.ref) rfl (by decide),
   writes_sub_of_eq (main_call8.v1.ref) rfl (by decide)⟩

/-- A buffer the stretch does not write keeps its contents. -/
theorem L02_kept (V : Valuation τ sig (Elt F)) {r : Ref sig .tc} (hr : r ∉ writesL02) :
    after (no_index opsL02) V (no_index (Proc.devRef .tc r)) = V (Proc.devRef .tc r) :=
  after_of_writes_sub opsL02 V opsL02_writes hr

theorem L02_out (V : Valuation τ sig (Elt F)) :
    after (no_index opsL02) V (no_index (main_v119 : DevRef τ sig)) = refLayer (V (main_v83 : DevRef τ sig)) (V (main_v9 : DevRef τ sig)) (V (main_v2 : DevRef τ sig)) (V (main_v6 : DevRef τ sig)) (V (main_arg4 : DevRef τ sig)) (V (main_arg7 : DevRef τ sig)) (V (main_arg10 : DevRef τ sig)) (V (main_arg13 : DevRef τ sig)) := by
  refine (fun (h : ∀ x, x = _ → x = _) => h _ rfl) ?_
  intro x hx
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', Stretches.ofBuf_toBuf, TRef.ofBuf, TRef.toBuf, cast_eq] at hx
  exact hx.trans rfl

end Cert.ReferenceIdeal.Ops

end
-- ==== Proof.RefOps.SB1.lean ====
import proofs.«175100_g37074157699472_cont_sun_c4_777_8_alg».proof.Proof.Gen.ReferenceIdeal
import Idealize.ShloMosaic.Lib.StableHlo.Run
import proofs.«175100_g37074157699472_cont_sun_c4_777_8_alg».proof.Proof.RefOps.Stretches
import proofs.«175100_g37074157699472_cont_sun_c4_777_8_alg».proof.Proof.RefOps.Kept
import proofs.«175100_g37074157699472_cont_sun_c4_777_8_alg».proof.Proof.RefOut
import proofs.«175100_g37074157699472_cont_sun_c4_777_8_alg».proof.Proof.LibStretches

noncomputable section

namespace Cert.ReferenceIdeal.Ops

open Cert.ReferenceIdeal Cert.ReferenceIdeal.Gen Cert.ReferenceIdeal.Term Idealize.ShloMosaic Idealize.ShloMosaic.TcCoe Idealize.SL.Sem Idealize.ShloMosaic.StableHlo

variable {F : FTy → Type} [FloatOps F]

/-- The buffers the stretch writes, in order. -/
abbrev writesB1 : List (Ref sig .tc) :=
  [ main_v120, main_v121, main_v122, main_v123, main_v124 ]

theorem opsB1_writes : (opsB1 : List (HloOp τ sig (Elt F))).Forall fun op => op.writes ⊆ ((writesB1).map (Proc.devRef (τ := τ) .tc)).toFinset :=
  ⟨writes_sub_of_eq main_v120 rfl (by decide),
   writes_sub_of_eq main_v121 rfl (by decide),
   writes_sub_of_eq main_v122 rfl (by decide),
   writes_sub_of_eq main_v123 rfl (by decide),
   writes_sub_of_eq main_v124 rfl (by decide)⟩

/-- A buffer the stretch does not write keeps its contents. -/
theorem B1_kept (V : Valuation τ sig (Elt F)) {r : Ref sig .tc} (hr : r ∉ writesB1) :
    after (no_index opsB1) V (no_index (Proc.devRef .tc r)) = V (Proc.devRef .tc r) :=
  after_of_writes_sub opsB1 V opsB1_writes hr

theorem B1_w (V : Valuation τ sig (Elt F)) :
    after (no_index opsB1) V (no_index (main_v122 : DevRef τ sig)) = wB1 (V (main_arg1 : DevRef τ sig)) := by
  refine (fun (h : ∀ x, x = _ → x = _) => h _ rfl) ?_
  intro x hx
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', Stretches.ofBuf_toBuf, TRef.ofBuf, TRef.toBuf, cast_eq] at hx
  exact hx.trans rfl

theorem B1_x (V : Valuation τ sig (Elt F)) :
    after (no_index opsB1) V (no_index (main_v124 : DevRef τ sig)) = xB1 (V (main_arg0 : DevRef τ sig)) := by
  refine (fun (h : ∀ x, x = _ → x = _) => h _ rfl) ?_
  intro x hx
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', Stretches.ofBuf_toBuf, TRef.ofBuf, TRef.toBuf, cast_eq] at hx
  exact hx.trans rfl

end Cert.ReferenceIdeal.Ops

end
-- ==== Proof.RefOps.SL10.lean ====
import proofs.«175100_g37074157699472_cont_sun_c4_777_8_alg».proof.Proof.Gen.ReferenceIdeal
import Idealize.ShloMosaic.Lib.StableHlo.Run
import proofs.«175100_g37074157699472_cont_sun_c4_777_8_alg».proof.Proof.RefOps.Stretches
import proofs.«175100_g37074157699472_cont_sun_c4_777_8_alg».proof.Proof.RefOps.Kept
import proofs.«175100_g37074157699472_cont_sun_c4_777_8_alg».proof.Proof.RefOut
import proofs.«175100_g37074157699472_cont_sun_c4_777_8_alg».proof.Proof.LibStretches

noncomputable section

namespace Cert.ReferenceIdeal.Ops

open Cert.ReferenceIdeal Cert.ReferenceIdeal.Gen Cert.ReferenceIdeal.Term Idealize.ShloMosaic Idealize.ShloMosaic.TcCoe Idealize.SL.Sem Idealize.ShloMosaic.StableHlo

variable {F : FTy → Type} [FloatOps F]

/-- The buffers the stretch writes, in order. -/
abbrev writesL10 : List (Ref sig .tc) :=
  [ main_v125, main_v126, main_call9.c.ref, main_call9.v0.ref, main_call9.v1.ref, main_call9.c_0.ref, main_call9.v2.ref, main_call9.v3.ref, main_call9.call0.v0.ref, main_call9.v5.ref, main_call9.c_1.ref, main_call9.c_2.ref, main_call9.v6.ref, main_call9.v7.ref, main_call9.v8.ref, main_call9.v9.ref, main_call9.v10.ref, main_call9.v11.ref, main_call9.c_3.ref, main_call9.v12.ref, main_call9.v13.ref, main_call9.v14.ref, main_call9.cst.ref, main_call9.v15.ref, main_call9.v16.ref, main_v128, main_v129, main_cst_19, main_v130, main_c_20, main_v131, main_v132, main_c_21, main_v133, main_v134, main_v135, main_v136, main_v137, main_v138, main_v139, main_v140, main_v141, main_cst_22, main_v142, main_v143, main_cst_23, main_v144, main_v145, main_c_24, main_call10.cst.ref, main_call10.v0.ref, main_call10.v1.ref, main_call10.cst_0.ref, main_call10.v2.ref, main_call10.v3.ref, main_call10.v4.ref, main_call10.v5.ref, main_call10.v6.ref, main_call10.v7.ref, main_call10.cst_1.ref, main_call10.v8.ref, main_call10.cst_2.ref, main_call10.v9.ref, main_call10.v10.ref, main_call10.v11.ref, main_call10.v12.ref, main_call10.cst_3.ref, main_call10.v13.ref, main_call10.cst_4.ref, main_call10.call0.v0.ref, main_call10.call0.v1.ref, main_call10.call0.v2.ref, main_v147, main_v148, main_cst_25, main_v149, main_v150, main_v151, main_v152, main_v153, main_v154, main_v155, main_v156, main_v157, main_v158, main_v159, main_call11.cst.ref, main_call11.v0.ref, main_call11.v1.ref ]

theorem opsL10_writes : (opsL10 : List (HloOp τ sig (Elt F))).Forall fun op => op.writes ⊆ ((writesL10).map (Proc.devRef (τ := τ) .tc)).toFinset :=
  ⟨writes_sub_of_eq main_v125 rfl (by decide),
   writes_sub_of_eq main_v126 rfl (by decide),
   writes_sub_of_eq (main_call9.c.ref) rfl (by decide),
   writes_sub_of_eq (main_call9.v0.ref) rfl (by decide),
   writes_sub_of_eq (main_call9.v1.ref) rfl (by decide),
   writes_sub_of_eq (main_call9.c_0.ref) rfl (by decide),
   writes_sub_of_eq (main_call9.v2.ref) rfl (by decide),
   writes_sub_of_eq (main_call9.v3.ref) rfl (by decide),
   writes_sub_of_eq (main_call9.call0.v0.ref) rfl (by decide),
   writes_sub_of_eq (main_call9.v5.ref) rfl (by decide),
   writes_sub_of_eq (main_call9.c_1.ref) rfl (by decide),
   writes_sub_of_eq (main_call9.c_2.ref) rfl (by decide),
   writes_sub_of_eq (main_call9.v6.ref) rfl (by decide),
   writes_sub_of_eq (main_call9.v7.ref) rfl (by decide),
   writes_sub_of_eq (main_call9.v8.ref) rfl (by decide),
   writes_sub_of_eq (main_call9.v9.ref) rfl (by decide),
   writes_sub_of_eq (main_call9.v10.ref) rfl (by decide),
   writes_sub_of_eq (main_call9.v11.ref) rfl (by decide),
   writes_sub_of_eq (main_call9.c_3.ref) rfl (by decide),
   writes_sub_of_eq (main_call9.v12.ref) rfl (by decide),
   writes_sub_of_eq (main_call9.v13.ref) rfl (by decide),
   writes_sub_of_eq (main_call9.v14.ref) rfl (by decide),
   writes_sub_of_eq (main_call9.cst.ref) rfl (by decide),
   writes_sub_of_eq (main_call9.v15.ref) rfl (by decide),
   writes_sub_of_eq (main_call9.v16.ref) rfl (by decide),
   writes_sub_of_eq main_v128 rfl (by decide),
   writes_sub_of_eq main_v129 rfl (by decide),
   writes_sub_of_eq main_cst_19 rfl (by decide),
   writes_sub_of_eq main_v130 rfl (by decide),
   writes_sub_of_eq main_c_20 rfl (by decide),
   writes_sub_of_eq main_v131 rfl (by decide),
   writes_sub_of_eq main_v132 rfl (by decide),
   writes_sub_of_eq main_c_21 rfl (by decide),
   writes_sub_of_eq main_v133 rfl (by decide),
   writes_sub_of_eq main_v134 rfl (by decide),
   writes_sub_of_eq main_v135 rfl (by decide),
   writes_sub_of_eq main_v136 rfl (by decide),
   writes_sub_of_eq main_v137 rfl (by decide),
   writes_sub_of_eq main_v138 rfl (by decide),
   writes_sub_of_eq main_v139 rfl (by decide),
   writes_sub_of_eq main_v140 rfl (by decide),
   writes_sub_of_eq main_v141 rfl (by decide),
   writes_sub_of_eq main_cst_22 rfl (by decide),
   writes_sub_of_eq main_v142 rfl (by decide),
   writes_sub_of_eq main_v143 rfl (by decide),
   writes_sub_of_eq main_cst_23 rfl (by decide),
   writes_sub_of_eq main_v144 rfl (by decide),
   writes_sub_of_eq main_v145 rfl (by decide),
   writes_sub_of_eq main_c_24 rfl (by decide),
   writes_sub_of_eq (main_call10.cst.ref) rfl (by decide),
   writes_sub_of_eq (main_call10.v0.ref) rfl (by decide),
   writes_sub_of_eq (main_call10.v1.ref) rfl (by decide),
   writes_sub_of_eq (main_call10.cst_0.ref) rfl (by decide),
   writes_sub_of_eq (main_call10.v2.ref) rfl (by decide),
   writes_sub_of_eq (main_call10.v3.ref) rfl (by decide),
   writes_sub_of_eq (main_call10.v4.ref) rfl (by decide),
   writes_sub_of_eq (main_call10.v5.ref) rfl (by decide),
   writes_sub_of_eq (main_call10.v6.ref) rfl (by decide),
   writes_sub_of_eq (main_call10.v7.ref) rfl (by decide),
   writes_sub_of_eq (main_call10.cst_1.ref) rfl (by decide),
   writes_sub_of_eq (main_call10.v8.ref) rfl (by decide),
   writes_sub_of_eq (main_call10.cst_2.ref) rfl (by decide),
   writes_sub_of_eq (main_call10.v9.ref) rfl (by decide),
   writes_sub_of_eq (main_call10.v10.ref) rfl (by decide),
   writes_sub_of_eq (main_call10.v11.ref) rfl (by decide),
   writes_sub_of_eq (main_call10.v12.ref) rfl (by decide),
   writes_sub_of_eq (main_call10.cst_3.ref) rfl (by decide),
   writes_sub_of_eq (main_call10.v13.ref) rfl (by decide),
   writes_sub_of_eq (main_call10.cst_4.ref) rfl (by decide),
   writes_sub_of_eq (main_call10.call0.v0.ref) rfl (by decide),
   writes_sub_of_eq (main_call10.call0.v1.ref) rfl (by decide),
   writes_sub_of_eq (main_call10.call0.v2.ref) rfl (by decide),
   writes_sub_of_eq main_v147 rfl (by decide),
   writes_sub_of_eq main_v148 rfl (by decide),
   writes_sub_of_eq main_cst_25 rfl (by decide),
   writes_sub_of_eq main_v149 rfl (by decide),
   writes_sub_of_eq main_v150 rfl (by decide),
   writes_sub_of_eq main_v151 rfl (by decide),
   writes_sub_of_eq main_v152 rfl (by decide),
   writes_sub_of_eq main_v153 rfl (by decide),
   writes_sub_of_eq main_v154 rfl (by decide),
   writes_sub_of_eq main_v155 rfl (by decide),
   writes_sub_of_eq main_v156 rfl (by decide),
   writes_sub_of_eq main_v157 rfl (by decide),
   writes_sub_of_eq main_v158 rfl (by decide),
   writes_sub_of_eq main_v159 rfl (by decide),
   writes_sub_of_eq (main_call11.cst.ref) rfl (by decide),
   writes_sub_of_eq (main_call11.v0.ref) rfl (by decide),
   writes_sub_of_eq (main_call11.v1.ref) rfl (by decide)⟩

/-- A buffer the stretch does not write keeps its contents. -/
theorem L10_kept (V : Valuation τ sig (Elt F)) {r : Ref sig .tc} (hr : r ∉ writesL10) :
    after (no_index opsL10) V (no_index (Proc.devRef .tc r)) = V (Proc.devRef .tc r) :=
  after_of_writes_sub opsL10 V opsL10_writes hr

theorem L10_out (V : Valuation τ sig (Elt F)) :
    after (no_index opsL10) V (no_index (main_v160 : DevRef τ sig)) = refLayer (V (main_v124 : DevRef τ sig)) (V (main_v122 : DevRef τ sig)) (V (main_v2 : DevRef τ sig)) (V (main_v6 : DevRef τ sig)) (V (main_arg2 : DevRef τ sig)) (V (main_arg5 : DevRef τ sig)) (V (main_arg8 : DevRef τ sig)) (V (main_arg11 : DevRef τ sig)) := by
  refine (fun (h : ∀ x, x = _ → x = _) => h _ rfl) ?_
  intro x hx
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', Stretches.ofBuf_toBuf, TRef.ofBuf, TRef.toBuf, cast_eq] at hx
  exact hx.trans rfl

end Cert.ReferenceIdeal.Ops

end
-- ==== Proof.RefOps.SL11.lean ====
import proofs.«175100_g37074157699472_cont_sun_c4_777_8_alg».proof.Proof.Gen.ReferenceIdeal
import Idealize.ShloMosaic.Lib.StableHlo.Run
import proofs.«175100_g37074157699472_cont_sun_c4_777_8_alg».proof.Proof.RefOps.Stretches
import proofs.«175100_g37074157699472_cont_sun_c4_777_8_alg».proof.Proof.RefOps.Kept
import proofs.«175100_g37074157699472_cont_sun_c4_777_8_alg».proof.Proof.RefOut
import proofs.«175100_g37074157699472_cont_sun_c4_777_8_alg».proof.Proof.LibStretches

noncomputable section

namespace Cert.ReferenceIdeal.Ops

open Cert.ReferenceIdeal Cert.ReferenceIdeal.Gen Cert.ReferenceIdeal.Term Idealize.ShloMosaic Idealize.ShloMosaic.TcCoe Idealize.SL.Sem Idealize.ShloMosaic.StableHlo

variable {F : FTy → Type} [FloatOps F]

/-- The buffers the stretch writes, in order. -/
abbrev writesL11 : List (Ref sig .tc) :=
  [ main_v161, main_v162, main_call12.c.ref, main_call12.v0.ref, main_call12.v1.ref, main_call12.c_0.ref, main_call12.v2.ref, main_call12.v3.ref, main_call12.call0.v0.ref, main_call12.v5.ref, main_call12.c_1.ref, main_call12.c_2.ref, main_call12.v6.ref, main_call12.v7.ref, main_call12.v8.ref, main_call12.v9.ref, main_call12.v10.ref, main_call12.v11.ref, main_call12.c_3.ref, main_call12.v12.ref, main_call12.v13.ref, main_call12.v14.ref, main_call12.cst.ref, main_call12.v15.ref, main_call12.v16.ref, main_v164, main_v165, main_cst_26, main_v166, main_c_27, main_v167, main_v168, main_c_28, main_v169, main_v170, main_v171, main_v172, main_v173, main_v174, main_v175, main_v176, main_v177, main_cst_29, main_v178, main_v179, main_cst_30, main_v180, main_v181, main_c_31, main_call13.cst.ref, main_call13.v0.ref, main_call13.v1.ref, main_call13.cst_0.ref, main_call13.v2.ref, main_call13.v3.ref, main_call13.v4.ref, main_call13.v5.ref, main_call13.v6.ref, main_call13.v7.ref, main_call13.cst_1.ref, main_call13.v8.ref, main_call13.cst_2.ref, main_call13.v9.ref, main_call13.v10.ref, main_call13.v11.ref, main_call13.v12.ref, main_call13.cst_3.ref, main_call13.v13.ref, main_call13.cst_4.ref, main_call13.call0.v0.ref, main_call13.call0.v1.ref, main_call13.call0.v2.ref, main_v183, main_v184, main_cst_32, main_v185, main_v186, main_v187, main_v188, main_v189, main_v190, main_v191, main_v192, main_v193, main_v194, main_v195, main_call14.cst.ref, main_call14.v0.ref, main_call14.v1.ref ]

theorem opsL11_writes : (opsL11 : List (HloOp τ sig (Elt F))).Forall fun op => op.writes ⊆ ((writesL11).map (Proc.devRef (τ := τ) .tc)).toFinset :=
  ⟨writes_sub_of_eq main_v161 rfl (by decide),
   writes_sub_of_eq main_v162 rfl (by decide),
   writes_sub_of_eq (main_call12.c.ref) rfl (by decide),
   writes_sub_of_eq (main_call12.v0.ref) rfl (by decide),
   writes_sub_of_eq (main_call12.v1.ref) rfl (by decide),
   writes_sub_of_eq (main_call12.c_0.ref) rfl (by decide),
   writes_sub_of_eq (main_call12.v2.ref) rfl (by decide),
   writes_sub_of_eq (main_call12.v3.ref) rfl (by decide),
   writes_sub_of_eq (main_call12.call0.v0.ref) rfl (by decide),
   writes_sub_of_eq (main_call12.v5.ref) rfl (by decide),
   writes_sub_of_eq (main_call12.c_1.ref) rfl (by decide),
   writes_sub_of_eq (main_call12.c_2.ref) rfl (by decide),
   writes_sub_of_eq (main_call12.v6.ref) rfl (by decide),
   writes_sub_of_eq (main_call12.v7.ref) rfl (by decide),
   writes_sub_of_eq (main_call12.v8.ref) rfl (by decide),
   writes_sub_of_eq (main_call12.v9.ref) rfl (by decide),
   writes_sub_of_eq (main_call12.v10.ref) rfl (by decide),
   writes_sub_of_eq (main_call12.v11.ref) rfl (by decide),
   writes_sub_of_eq (main_call12.c_3.ref) rfl (by decide),
   writes_sub_of_eq (main_call12.v12.ref) rfl (by decide),
   writes_sub_of_eq (main_call12.v13.ref) rfl (by decide),
   writes_sub_of_eq (main_call12.v14.ref) rfl (by decide),
   writes_sub_of_eq (main_call12.cst.ref) rfl (by decide),
   writes_sub_of_eq (main_call12.v15.ref) rfl (by decide),
   writes_sub_of_eq (main_call12.v16.ref) rfl (by decide),
   writes_sub_of_eq main_v164 rfl (by decide),
   writes_sub_of_eq main_v165 rfl (by decide),
   writes_sub_of_eq main_cst_26 rfl (by decide),
   writes_sub_of_eq main_v166 rfl (by decide),
   writes_sub_of_eq main_c_27 rfl (by decide),
   writes_sub_of_eq main_v167 rfl (by decide),
   writes_sub_of_eq main_v168 rfl (by decide),
   writes_sub_of_eq main_c_28 rfl (by decide),
   writes_sub_of_eq main_v169 rfl (by decide),
   writes_sub_of_eq main_v170 rfl (by decide),
   writes_sub_of_eq main_v171 rfl (by decide),
   writes_sub_of_eq main_v172 rfl (by decide),
   writes_sub_of_eq main_v173 rfl (by decide),
   writes_sub_of_eq main_v174 rfl (by decide),
   writes_sub_of_eq main_v175 rfl (by decide),
   writes_sub_of_eq main_v176 rfl (by decide),
   writes_sub_of_eq main_v177 rfl (by decide),
   writes_sub_of_eq main_cst_29 rfl (by decide),
   writes_sub_of_eq main_v178 rfl (by decide),
   writes_sub_of_eq main_v179 rfl (by decide),
   writes_sub_of_eq main_cst_30 rfl (by decide),
   writes_sub_of_eq main_v180 rfl (by decide),
   writes_sub_of_eq main_v181 rfl (by decide),
   writes_sub_of_eq main_c_31 rfl (by decide),
   writes_sub_of_eq (main_call13.cst.ref) rfl (by decide),
   writes_sub_of_eq (main_call13.v0.ref) rfl (by decide),
   writes_sub_of_eq (main_call13.v1.ref) rfl (by decide),
   writes_sub_of_eq (main_call13.cst_0.ref) rfl (by decide),
   writes_sub_of_eq (main_call13.v2.ref) rfl (by decide),
   writes_sub_of_eq (main_call13.v3.ref) rfl (by decide),
   writes_sub_of_eq (main_call13.v4.ref) rfl (by decide),
   writes_sub_of_eq (main_call13.v5.ref) rfl (by decide),
   writes_sub_of_eq (main_call13.v6.ref) rfl (by decide),
   writes_sub_of_eq (main_call13.v7.ref) rfl (by decide),
   writes_sub_of_eq (main_call13.cst_1.ref) rfl (by decide),
   writes_sub_of_eq (main_call13.v8.ref) rfl (by decide),
   writes_sub_of_eq (main_call13.cst_2.ref) rfl (by decide),
   writes_sub_of_eq (main_call13.v9.ref) rfl (by decide),
   writes_sub_of_eq (main_call13.v10.ref) rfl (by decide),
   writes_sub_of_eq (main_call13.v11.ref) rfl (by decide),
   writes_sub_of_eq (main_call13.v12.ref) rfl (by decide),
   writes_sub_of_eq (main_call13.cst_3.ref) rfl (by decide),
   writes_sub_of_eq (main_call13.v13.ref) rfl (by decide),
   writes_sub_of_eq (main_call13.cst_4.ref) rfl (by decide),
   writes_sub_of_eq (main_call13.call0.v0.ref) rfl (by decide),
   writes_sub_of_eq (main_call13.call0.v1.ref) rfl (by decide),
   writes_sub_of_eq (main_call13.call0.v2.ref) rfl (by decide),
   writes_sub_of_eq main_v183 rfl (by decide),
   writes_sub_of_eq main_v184 rfl (by decide),
   writes_sub_of_eq main_cst_32 rfl (by decide),
   writes_sub_of_eq main_v185 rfl (by decide),
   writes_sub_of_eq main_v186 rfl (by decide),
   writes_sub_of_eq main_v187 rfl (by decide),
   writes_sub_of_eq main_v188 rfl (by decide),
   writes_sub_of_eq main_v189 rfl (by decide),
   writes_sub_of_eq main_v190 rfl (by decide),
   writes_sub_of_eq main_v191 rfl (by decide),
   writes_sub_of_eq main_v192 rfl (by decide),
   writes_sub_of_eq main_v193 rfl (by decide),
   writes_sub_of_eq main_v194 rfl (by decide),
   writes_sub_of_eq main_v195 rfl (by decide),
   writes_sub_of_eq (main_call14.cst.ref) rfl (by decide),
   writes_sub_of_eq (main_call14.v0.ref) rfl (by decide),
   writes_sub_of_eq (main_call14.v1.ref) rfl (by decide)⟩

/-- A buffer the stretch does not write keeps its contents. -/
theorem L11_kept (V : Valuation τ sig (Elt F)) {r : Ref sig .tc} (hr : r ∉ writesL11) :
    after (no_index opsL11) V (no_index (Proc.devRef .tc r)) = V (Proc.devRef .tc r) :=
  after_of_writes_sub opsL11 V opsL11_writes hr

theorem L11_out (V : Valuation τ sig (Elt F)) :
    after (no_index opsL11) V (no_index (main_v196 : DevRef τ sig)) = refLayer (V (main_v160 : DevRef τ sig)) (V (main_v122 : DevRef τ sig)) (V (main_v2 : DevRef τ sig)) (V (main_v6 : DevRef τ sig)) (V (main_arg3 : DevRef τ sig)) (V (main_arg6 : DevRef τ sig)) (V (main_arg9 : DevRef τ sig)) (V (main_arg12 : DevRef τ sig)) := by
  refine (fun (h : ∀ x, x = _ → x = _) => h _ rfl) ?_
  intro x hx
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', Stretches.ofBuf_toBuf, TRef.ofBuf, TRef.toBuf, cast_eq] at hx
  exact hx.trans rfl

end Cert.ReferenceIdeal.Ops

end
-- ==== Proof.RefOps.SL12.lean ====
import proofs.«175100_g37074157699472_cont_sun_c4_777_8_alg».proof.Proof.Gen.ReferenceIdeal
import Idealize.ShloMosaic.Lib.StableHlo.Run
import proofs.«175100_g37074157699472_cont_sun_c4_777_8_alg».proof.Proof.RefOps.Stretches
import proofs.«175100_g37074157699472_cont_sun_c4_777_8_alg».proof.Proof.RefOps.Kept
import proofs.«175100_g37074157699472_cont_sun_c4_777_8_alg».proof.Proof.RefOut
import proofs.«175100_g37074157699472_cont_sun_c4_777_8_alg».proof.Proof.LibStretches

noncomputable section

namespace Cert.ReferenceIdeal.Ops

open Cert.ReferenceIdeal Cert.ReferenceIdeal.Gen Cert.ReferenceIdeal.Term Idealize.ShloMosaic Idealize.ShloMosaic.TcCoe Idealize.SL.Sem Idealize.ShloMosaic.StableHlo

variable {F : FTy → Type} [FloatOps F]

/-- The buffers the stretch writes, in order. -/
abbrev writesL12 : List (Ref sig .tc) :=
  [ main_v197, main_v198, main_call15.c.ref, main_call15.v0.ref, main_call15.v1.ref, main_call15.c_0.ref, main_call15.v2.ref, main_call15.v3.ref, main_call15.call0.v0.ref, main_call15.v5.ref, main_call15.c_1.ref, main_call15.c_2.ref, main_call15.v6.ref, main_call15.v7.ref, main_call15.v8.ref, main_call15.v9.ref, main_call15.v10.ref, main_call15.v11.ref, main_call15.c_3.ref, main_call15.v12.ref, main_call15.v13.ref, main_call15.v14.ref, main_call15.cst.ref, main_call15.v15.ref, main_call15.v16.ref, main_v200, main_v201, main_cst_33, main_v202, main_c_34, main_v203, main_v204, main_c_35, main_v205, main_v206, main_v207, main_v208, main_v209, main_v210, main_v211, main_v212, main_v213, main_cst_36, main_v214, main_v215, main_cst_37, main_v216, main_v217, main_c_38, main_call16.cst.ref, main_call16.v0.ref, main_call16.v1.ref, main_call16.cst_0.ref, main_call16.v2.ref, main_call16.v3.ref, main_call16.v4.ref, main_call16.v5.ref, main_call16.v6.ref, main_call16.v7.ref, main_call16.cst_1.ref, main_call16.v8.ref, main_call16.cst_2.ref, main_call16.v9.ref, main_call16.v10.ref, main_call16.v11.ref, main_call16.v12.ref, main_call16.cst_3.ref, main_call16.v13.ref, main_call16.cst_4.ref, main_call16.call0.v0.ref, main_call16.call0.v1.ref, main_call16.call0.v2.ref, main_v219, main_v220, main_cst_39, main_v221, main_v222, main_v223, main_v224, main_v225, main_v226, main_v227, main_v228, main_v229, main_v230, main_v231, main_call17.cst.ref, main_call17.v0.ref, main_call17.v1.ref ]

theorem opsL12_writes : (opsL12 : List (HloOp τ sig (Elt F))).Forall fun op => op.writes ⊆ ((writesL12).map (Proc.devRef (τ := τ) .tc)).toFinset :=
  ⟨writes_sub_of_eq main_v197 rfl (by decide),
   writes_sub_of_eq main_v198 rfl (by decide),
   writes_sub_of_eq (main_call15.c.ref) rfl (by decide),
   writes_sub_of_eq (main_call15.v0.ref) rfl (by decide),
   writes_sub_of_eq (main_call15.v1.ref) rfl (by decide),
   writes_sub_of_eq (main_call15.c_0.ref) rfl (by decide),
   writes_sub_of_eq (main_call15.v2.ref) rfl (by decide),
   writes_sub_of_eq (main_call15.v3.ref) rfl (by decide),
   writes_sub_of_eq (main_call15.call0.v0.ref) rfl (by decide),
   writes_sub_of_eq (main_call15.v5.ref) rfl (by decide),
   writes_sub_of_eq (main_call15.c_1.ref) rfl (by decide),
   writes_sub_of_eq (main_call15.c_2.ref) rfl (by decide),
   writes_sub_of_eq (main_call15.v6.ref) rfl (by decide),
   writes_sub_of_eq (main_call15.v7.ref) rfl (by decide),
   writes_sub_of_eq (main_call15.v8.ref) rfl (by decide),
   writes_sub_of_eq (main_call15.v9.ref) rfl (by decide),
   writes_sub_of_eq (main_call15.v10.ref) rfl (by decide),
   writes_sub_of_eq (main_call15.v11.ref) rfl (by decide),
   writes_sub_of_eq (main_call15.c_3.ref) rfl (by decide),
   writes_sub_of_eq (main_call15.v12.ref) rfl (by decide),
   writes_sub_of_eq (main_call15.v13.ref) rfl (by decide),
   writes_sub_of_eq (main_call15.v14.ref) rfl (by decide),
   writes_sub_of_eq (main_call15.cst.ref) rfl (by decide),
   writes_sub_of_eq (main_call15.v15.ref) rfl (by decide),
   writes_sub_of_eq (main_call15.v16.ref) rfl (by decide),
   writes_sub_of_eq main_v200 rfl (by decide),
   writes_sub_of_eq main_v201 rfl (by decide),
   writes_sub_of_eq main_cst_33 rfl (by decide),
   writes_sub_of_eq main_v202 rfl (by decide),
   writes_sub_of_eq main_c_34 rfl (by decide),
   writes_sub_of_eq main_v203 rfl (by decide),
   writes_sub_of_eq main_v204 rfl (by decide),
   writes_sub_of_eq main_c_35 rfl (by decide),
   writes_sub_of_eq main_v205 rfl (by decide),
   writes_sub_of_eq main_v206 rfl (by decide),
   writes_sub_of_eq main_v207 rfl (by decide),
   writes_sub_of_eq main_v208 rfl (by decide),
   writes_sub_of_eq main_v209 rfl (by decide),
   writes_sub_of_eq main_v210 rfl (by decide),
   writes_sub_of_eq main_v211 rfl (by decide),
   writes_sub_of_eq main_v212 rfl (by decide),
   writes_sub_of_eq main_v213 rfl (by decide),
   writes_sub_of_eq main_cst_36 rfl (by decide),
   writes_sub_of_eq main_v214 rfl (by decide),
   writes_sub_of_eq main_v215 rfl (by decide),
   writes_sub_of_eq main_cst_37 rfl (by decide),
   writes_sub_of_eq main_v216 rfl (by decide),
   writes_sub_of_eq main_v217 rfl (by decide),
   writes_sub_of_eq main_c_38 rfl (by decide),
   writes_sub_of_eq (main_call16.cst.ref) rfl (by decide),
   writes_sub_of_eq (main_call16.v0.ref) rfl (by decide),
   writes_sub_of_eq (main_call16.v1.ref) rfl (by decide),
   writes_sub_of_eq (main_call16.cst_0.ref) rfl (by decide),
   writes_sub_of_eq (main_call16.v2.ref) rfl (by decide),
   writes_sub_of_eq (main_call16.v3.ref) rfl (by decide),
   writes_sub_of_eq (main_call16.v4.ref) rfl (by decide),
   writes_sub_of_eq (main_call16.v5.ref) rfl (by decide),
   writes_sub_of_eq (main_call16.v6.ref) rfl (by decide),
   writes_sub_of_eq (main_call16.v7.ref) rfl (by decide),
   writes_sub_of_eq (main_call16.cst_1.ref) rfl (by decide),
   writes_sub_of_eq (main_call16.v8.ref) rfl (by decide),
   writes_sub_of_eq (main_call16.cst_2.ref) rfl (by decide),
   writes_sub_of_eq (main_call16.v9.ref) rfl (by decide),
   writes_sub_of_eq (main_call16.v10.ref) rfl (by decide),
   writes_sub_of_eq (main_call16.v11.ref) rfl (by decide),
   writes_sub_of_eq (main_call16.v12.ref) rfl (by decide),
   writes_sub_of_eq (main_call16.cst_3.ref) rfl (by decide),
   writes_sub_of_eq (main_call16.v13.ref) rfl (by decide),
   writes_sub_of_eq (main_call16.cst_4.ref) rfl (by decide),
   writes_sub_of_eq (main_call16.call0.v0.ref) rfl (by decide),
   writes_sub_of_eq (main_call16.call0.v1.ref) rfl (by decide),
   writes_sub_of_eq (main_call16.call0.v2.ref) rfl (by decide),
   writes_sub_of_eq main_v219 rfl (by decide),
   writes_sub_of_eq main_v220 rfl (by decide),
   writes_sub_of_eq main_cst_39 rfl (by decide),
   writes_sub_of_eq main_v221 rfl (by decide),
   writes_sub_of_eq main_v222 rfl (by decide),
   writes_sub_of_eq main_v223 rfl (by decide),
   writes_sub_of_eq main_v224 rfl (by decide),
   writes_sub_of_eq main_v225 rfl (by decide),
   writes_sub_of_eq main_v226 rfl (by decide),
   writes_sub_of_eq main_v227 rfl (by decide),
   writes_sub_of_eq main_v228 rfl (by decide),
   writes_sub_of_eq main_v229 rfl (by decide),
   writes_sub_of_eq main_v230 rfl (by decide),
   writes_sub_of_eq main_v231 rfl (by decide),
   writes_sub_of_eq (main_call17.cst.ref) rfl (by decide),
   writes_sub_of_eq (main_call17.v0.ref) rfl (by decide),
   writes_sub_of_eq (main_call17.v1.ref) rfl (by decide)⟩

/-- A buffer the stretch does not write keeps its contents. -/
theorem L12_kept (V : Valuation τ sig (Elt F)) {r : Ref sig .tc} (hr : r ∉ writesL12) :
    after (no_index opsL12) V (no_index (Proc.devRef .tc r)) = V (Proc.devRef .tc r) :=
  after_of_writes_sub opsL12 V opsL12_writes hr

theorem L12_out (V : Valuation τ sig (Elt F)) :
    after (no_index opsL12) V (no_index (main_v232 : DevRef τ sig)) = refLayer (V (main_v196 : DevRef τ sig)) (V (main_v122 : DevRef τ sig)) (V (main_v2 : DevRef τ sig)) (V (main_v6 : DevRef τ sig)) (V (main_arg4 : DevRef τ sig)) (V (main_arg7 : DevRef τ sig)) (V (main_arg10 : DevRef τ sig)) (V (main_arg13 : DevRef τ sig)) := by
  refine (fun (h : ∀ x, x = _ → x = _) => h _ rfl) ?_
  intro x hx
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', Stretches.ofBuf_toBuf, TRef.ofBuf, TRef.toBuf, cast_eq] at hx
  exact hx.trans rfl

end Cert.ReferenceIdeal.Ops

end
-- ==== Proof.RefOps.SB2.lean ====
import proofs.«175100_g37074157699472_cont_sun_c4_777_8_alg».proof.Proof.Gen.ReferenceIdeal
import Idealize.ShloMosaic.Lib.StableHlo.Run
import proofs.«175100_g37074157699472_cont_sun_c4_777_8_alg».proof.Proof.RefOps.Stretches
import proofs.«175100_g37074157699472_cont_sun_c4_777_8_alg».proof.Proof.RefOps.Kept
import proofs.«175100_g37074157699472_cont_sun_c4_777_8_alg».proof.Proof.RefOut
import proofs.«175100_g37074157699472_cont_sun_c4_777_8_alg».proof.Proof.LibStretches

noncomputable section

namespace Cert.ReferenceIdeal.Ops

open Cert.ReferenceIdeal Cert.ReferenceIdeal.Gen Cert.ReferenceIdeal.Term Idealize.ShloMosaic Idealize.ShloMosaic.TcCoe Idealize.SL.Sem Idealize.ShloMosaic.StableHlo

variable {F : FTy → Type} [FloatOps F]

/-- The buffers the stretch writes, in order. -/
abbrev writesB2 : List (Ref sig .tc) :=
  [ main_v233, main_v234, main_v235, main_v236, main_v237 ]

theorem opsB2_writes : (opsB2 : List (HloOp τ sig (Elt F))).Forall fun op => op.writes ⊆ ((writesB2).map (Proc.devRef (τ := τ) .tc)).toFinset :=
  ⟨writes_sub_of_eq main_v233 rfl (by decide),
   writes_sub_of_eq main_v234 rfl (by decide),
   writes_sub_of_eq main_v235 rfl (by decide),
   writes_sub_of_eq main_v236 rfl (by decide),
   writes_sub_of_eq main_v237 rfl (by decide)⟩

/-- A buffer the stretch does not write keeps its contents. -/
theorem B2_kept (V : Valuation τ sig (Elt F)) {r : Ref sig .tc} (hr : r ∉ writesB2) :
    after (no_index opsB2) V (no_index (Proc.devRef .tc r)) = V (Proc.devRef .tc r) :=
  after_of_writes_sub opsB2 V opsB2_writes hr

theorem B2_w (V : Valuation τ sig (Elt F)) :
    after (no_index opsB2) V (no_index (main_v235 : DevRef τ sig)) = wB2 (V (main_arg1 : DevRef τ sig)) := by
  refine (fun (h : ∀ x, x = _ → x = _) => h _ rfl) ?_
  intro x hx
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', Stretches.ofBuf_toBuf, TRef.ofBuf, TRef.toBuf, cast_eq] at hx
  exact hx.trans rfl

theorem B2_x (V : Valuation τ sig (Elt F)) :
    after (no_index opsB2) V (no_index (main_v237 : DevRef τ sig)) = xB2 (V (main_arg0 : DevRef τ sig)) := by
  refine (fun (h : ∀ x, x = _ → x = _) => h _ rfl) ?_
  intro x hx
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', Stretches.ofBuf_toBuf, TRef.ofBuf, TRef.toBuf, cast_eq] at hx
  exact hx.trans rfl

end Cert.ReferenceIdeal.Ops

end
-- ==== Proof.RefOps.SL20.lean ====
import proofs.«175100_g37074157699472_cont_sun_c4_777_8_alg».proof.Proof.Gen.ReferenceIdeal
import Idealize.ShloMosaic.Lib.StableHlo.Run
import proofs.«175100_g37074157699472_cont_sun_c4_777_8_alg».proof.Proof.RefOps.Stretches
import proofs.«175100_g37074157699472_cont_sun_c4_777_8_alg».proof.Proof.RefOps.Kept
import proofs.«175100_g37074157699472_cont_sun_c4_777_8_alg».proof.Proof.RefOut
import proofs.«175100_g37074157699472_cont_sun_c4_777_8_alg».proof.Proof.LibStretches

noncomputable section

namespace Cert.ReferenceIdeal.Ops

open Cert.ReferenceIdeal Cert.ReferenceIdeal.Gen Cert.ReferenceIdeal.Term Idealize.ShloMosaic Idealize.ShloMosaic.TcCoe Idealize.SL.Sem Idealize.ShloMosaic.StableHlo

variable {F : FTy → Type} [FloatOps F]

/-- The buffers the stretch writes, in order. -/
abbrev writesL20 : List (Ref sig .tc) :=
  [ main_v238, main_v239, main_call18.c.ref, main_call18.v0.ref, main_call18.v1.ref, main_call18.c_0.ref, main_call18.v2.ref, main_call18.v3.ref, main_call18.call0.v0.ref, main_call18.v5.ref, main_call18.c_1.ref, main_call18.c_2.ref, main_call18.v6.ref, main_call18.v7.ref, main_call18.v8.ref, main_call18.v9.ref, main_call18.v10.ref, main_call18.v11.ref, main_call18.c_3.ref, main_call18.v12.ref, main_call18.v13.ref, main_call18.v14.ref, main_call18.cst.ref, main_call18.v15.ref, main_call18.v16.ref, main_v241, main_v242, main_cst_40, main_v243, main_c_41, main_v244, main_v245, main_c_42, main_v246, main_v247, main_v248, main_v249, main_v250, main_v251, main_v252, main_v253, main_v254, main_cst_43, main_v255, main_v256, main_cst_44, main_v257, main_v258, main_c_45, main_call19.cst.ref, main_call19.v0.ref, main_call19.v1.ref, main_call19.cst_0.ref, main_call19.v2.ref, main_call19.v3.ref, main_call19.v4.ref, main_call19.v5.ref, main_call19.v6.ref, main_call19.v7.ref, main_call19.cst_1.ref, main_call19.v8.ref, main_call19.cst_2.ref, main_call19.v9.ref, main_call19.v10.ref, main_call19.v11.ref, main_call19.v12.ref, main_call19.cst_3.ref, main_call19.v13.ref, main_call19.cst_4.ref, main_call19.call0.v0.ref, main_call19.call0.v1.ref, main_call19.call0.v2.ref, main_v260, main_v261, main_cst_46, main_v262, main_v263, main_v264, main_v265, main_v266, main_v267, main_v268, main_v269, main_v270, main_v271, main_v272, main_call20.cst.ref, main_call20.v0.ref, main_call20.v1.ref ]

theorem opsL20_writes : (opsL20 : List (HloOp τ sig (Elt F))).Forall fun op => op.writes ⊆ ((writesL20).map (Proc.devRef (τ := τ) .tc)).toFinset :=
  ⟨writes_sub_of_eq main_v238 rfl (by decide),
   writes_sub_of_eq main_v239 rfl (by decide),
   writes_sub_of_eq (main_call18.c.ref) rfl (by decide),
   writes_sub_of_eq (main_call18.v0.ref) rfl (by decide),
   writes_sub_of_eq (main_call18.v1.ref) rfl (by decide),
   writes_sub_of_eq (main_call18.c_0.ref) rfl (by decide),
   writes_sub_of_eq (main_call18.v2.ref) rfl (by decide),
   writes_sub_of_eq (main_call18.v3.ref) rfl (by decide),
   writes_sub_of_eq (main_call18.call0.v0.ref) rfl (by decide),
   writes_sub_of_eq (main_call18.v5.ref) rfl (by decide),
   writes_sub_of_eq (main_call18.c_1.ref) rfl (by decide),
   writes_sub_of_eq (main_call18.c_2.ref) rfl (by decide),
   writes_sub_of_eq (main_call18.v6.ref) rfl (by decide),
   writes_sub_of_eq (main_call18.v7.ref) rfl (by decide),
   writes_sub_of_eq (main_call18.v8.ref) rfl (by decide),
   writes_sub_of_eq (main_call18.v9.ref) rfl (by decide),
   writes_sub_of_eq (main_call18.v10.ref) rfl (by decide),
   writes_sub_of_eq (main_call18.v11.ref) rfl (by decide),
   writes_sub_of_eq (main_call18.c_3.ref) rfl (by decide),
   writes_sub_of_eq (main_call18.v12.ref) rfl (by decide),
   writes_sub_of_eq (main_call18.v13.ref) rfl (by decide),
   writes_sub_of_eq (main_call18.v14.ref) rfl (by decide),
   writes_sub_of_eq (main_call18.cst.ref) rfl (by decide),
   writes_sub_of_eq (main_call18.v15.ref) rfl (by decide),
   writes_sub_of_eq (main_call18.v16.ref) rfl (by decide),
   writes_sub_of_eq main_v241 rfl (by decide),
   writes_sub_of_eq main_v242 rfl (by decide),
   writes_sub_of_eq main_cst_40 rfl (by decide),
   writes_sub_of_eq main_v243 rfl (by decide),
   writes_sub_of_eq main_c_41 rfl (by decide),
   writes_sub_of_eq main_v244 rfl (by decide),
   writes_sub_of_eq main_v245 rfl (by decide),
   writes_sub_of_eq main_c_42 rfl (by decide),
   writes_sub_of_eq main_v246 rfl (by decide),
   writes_sub_of_eq main_v247 rfl (by decide),
   writes_sub_of_eq main_v248 rfl (by decide),
   writes_sub_of_eq main_v249 rfl (by decide),
   writes_sub_of_eq main_v250 rfl (by decide),
   writes_sub_of_eq main_v251 rfl (by decide),
   writes_sub_of_eq main_v252 rfl (by decide),
   writes_sub_of_eq main_v253 rfl (by decide),
   writes_sub_of_eq main_v254 rfl (by decide),
   writes_sub_of_eq main_cst_43 rfl (by decide),
   writes_sub_of_eq main_v255 rfl (by decide),
   writes_sub_of_eq main_v256 rfl (by decide),
   writes_sub_of_eq main_cst_44 rfl (by decide),
   writes_sub_of_eq main_v257 rfl (by decide),
   writes_sub_of_eq main_v258 rfl (by decide),
   writes_sub_of_eq main_c_45 rfl (by decide),
   writes_sub_of_eq (main_call19.cst.ref) rfl (by decide),
   writes_sub_of_eq (main_call19.v0.ref) rfl (by decide),
   writes_sub_of_eq (main_call19.v1.ref) rfl (by decide),
   writes_sub_of_eq (main_call19.cst_0.ref) rfl (by decide),
   writes_sub_of_eq (main_call19.v2.ref) rfl (by decide),
   writes_sub_of_eq (main_call19.v3.ref) rfl (by decide),
   writes_sub_of_eq (main_call19.v4.ref) rfl (by decide),
   writes_sub_of_eq (main_call19.v5.ref) rfl (by decide),
   writes_sub_of_eq (main_call19.v6.ref) rfl (by decide),
   writes_sub_of_eq (main_call19.v7.ref) rfl (by decide),
   writes_sub_of_eq (main_call19.cst_1.ref) rfl (by decide),
   writes_sub_of_eq (main_call19.v8.ref) rfl (by decide),
   writes_sub_of_eq (main_call19.cst_2.ref) rfl (by decide),
   writes_sub_of_eq (main_call19.v9.ref) rfl (by decide),
   writes_sub_of_eq (main_call19.v10.ref) rfl (by decide),
   writes_sub_of_eq (main_call19.v11.ref) rfl (by decide),
   writes_sub_of_eq (main_call19.v12.ref) rfl (by decide),
   writes_sub_of_eq (main_call19.cst_3.ref) rfl (by decide),
   writes_sub_of_eq (main_call19.v13.ref) rfl (by decide),
   writes_sub_of_eq (main_call19.cst_4.ref) rfl (by decide),
   writes_sub_of_eq (main_call19.call0.v0.ref) rfl (by decide),
   writes_sub_of_eq (main_call19.call0.v1.ref) rfl (by decide),
   writes_sub_of_eq (main_call19.call0.v2.ref) rfl (by decide),
   writes_sub_of_eq main_v260 rfl (by decide),
   writes_sub_of_eq main_v261 rfl (by decide),
   writes_sub_of_eq main_cst_46 rfl (by decide),
   writes_sub_of_eq main_v262 rfl (by decide),
   writes_sub_of_eq main_v263 rfl (by decide),
   writes_sub_of_eq main_v264 rfl (by decide),
   writes_sub_of_eq main_v265 rfl (by decide),
   writes_sub_of_eq main_v266 rfl (by decide),
   writes_sub_of_eq main_v267 rfl (by decide),
   writes_sub_of_eq main_v268 rfl (by decide),
   writes_sub_of_eq main_v269 rfl (by decide),
   writes_sub_of_eq main_v270 rfl (by decide),
   writes_sub_of_eq main_v271 rfl (by decide),
   writes_sub_of_eq main_v272 rfl (by decide),
   writes_sub_of_eq (main_call20.cst.ref) rfl (by decide),
   writes_sub_of_eq (main_call20.v0.ref) rfl (by decide),
   writes_sub_of_eq (main_call20.v1.ref) rfl (by decide)⟩

/-- A buffer the stretch does not write keeps its contents. -/
theorem L20_kept (V : Valuation τ sig (Elt F)) {r : Ref sig .tc} (hr : r ∉ writesL20) :
    after (no_index opsL20) V (no_index (Proc.devRef .tc r)) = V (Proc.devRef .tc r) :=
  after_of_writes_sub opsL20 V opsL20_writes hr

theorem L20_out (V : Valuation τ sig (Elt F)) :
    after (no_index opsL20) V (no_index (main_v273 : DevRef τ sig)) = refLayer (V (main_v237 : DevRef τ sig)) (V (main_v235 : DevRef τ sig)) (V (main_v2 : DevRef τ sig)) (V (main_v6 : DevRef τ sig)) (V (main_arg2 : DevRef τ sig)) (V (main_arg5 : DevRef τ sig)) (V (main_arg8 : DevRef τ sig)) (V (main_arg11 : DevRef τ sig)) := by
  refine (fun (h : ∀ x, x = _ → x = _) => h _ rfl) ?_
  intro x hx
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', Stretches.ofBuf_toBuf, TRef.ofBuf, TRef.toBuf, cast_eq] at hx
  exact hx.trans rfl

end Cert.ReferenceIdeal.Ops

end
-- ==== Proof.RefOps.SL21.lean ====
import proofs.«175100_g37074157699472_cont_sun_c4_777_8_alg».proof.Proof.Gen.ReferenceIdeal
import Idealize.ShloMosaic.Lib.StableHlo.Run
import proofs.«175100_g37074157699472_cont_sun_c4_777_8_alg».proof.Proof.RefOps.Stretches
import proofs.«175100_g37074157699472_cont_sun_c4_777_8_alg».proof.Proof.RefOps.Kept
import proofs.«175100_g37074157699472_cont_sun_c4_777_8_alg».proof.Proof.RefOut
import proofs.«175100_g37074157699472_cont_sun_c4_777_8_alg».proof.Proof.LibStretches

noncomputable section

namespace Cert.ReferenceIdeal.Ops

open Cert.ReferenceIdeal Cert.ReferenceIdeal.Gen Cert.ReferenceIdeal.Term Idealize.ShloMosaic Idealize.ShloMosaic.TcCoe Idealize.SL.Sem Idealize.ShloMosaic.StableHlo

variable {F : FTy → Type} [FloatOps F]

/-- The buffers the stretch writes, in order. -/
abbrev writesL21 : List (Ref sig .tc) :=
  [ main_v274, main_v275, main_call21.c.ref, main_call21.v0.ref, main_call21.v1.ref, main_call21.c_0.ref, main_call21.v2.ref, main_call21.v3.ref, main_call21.call0.v0.ref, main_call21.v5.ref, main_call21.c_1.ref, main_call21.c_2.ref, main_call21.v6.ref, main_call21.v7.ref, main_call21.v8.ref, main_call21.v9.ref, main_call21.v10.ref, main_call21.v11.ref, main_call21.c_3.ref, main_call21.v12.ref, main_call21.v13.ref, main_call21.v14.ref, main_call21.cst.ref, main_call21.v15.ref, main_call21.v16.ref, main_v277, main_v278, main_cst_47, main_v279, main_c_48, main_v280, main_v281, main_c_49, main_v282, main_v283, main_v284, main_v285, main_v286, main_v287, main_v288, main_v289, main_v290, main_cst_50, main_v291, main_v292, main_cst_51, main_v293, main_v294, main_c_52, main_call22.cst.ref, main_call22.v0.ref, main_call22.v1.ref, main_call22.cst_0.ref, main_call22.v2.ref, main_call22.v3.ref, main_call22.v4.ref, main_call22.v5.ref, main_call22.v6.ref, main_call22.v7.ref, main_call22.cst_1.ref, main_call22.v8.ref, main_call22.cst_2.ref, main_call22.v9.ref, main_call22.v10.ref, main_call22.v11.ref, main_call22.v12.ref, main_call22.cst_3.ref, main_call22.v13.ref, main_call22.cst_4.ref, main_call22.call0.v0.ref, main_call22.call0.v1.ref, main_call22.call0.v2.ref, main_v296, main_v297, main_cst_53, main_v298, main_v299, main_v300, main_v301, main_v302, main_v303, main_v304, main_v305, main_v306, main_v307, main_v308, main_call23.cst.ref, main_call23.v0.ref, main_call23.v1.ref ]

theorem opsL21_writes : (opsL21 : List (HloOp τ sig (Elt F))).Forall fun op => op.writes ⊆ ((writesL21).map (Proc.devRef (τ := τ) .tc)).toFinset :=
  ⟨writes_sub_of_eq main_v274 rfl (by decide),
   writes_sub_of_eq main_v275 rfl (by decide),
   writes_sub_of_eq (main_call21.c.ref) rfl (by decide),
   writes_sub_of_eq (main_call21.v0.ref) rfl (by decide),
   writes_sub_of_eq (main_call21.v1.ref) rfl (by decide),
   writes_sub_of_eq (main_call21.c_0.ref) rfl (by decide),
   writes_sub_of_eq (main_call21.v2.ref) rfl (by decide),
   writes_sub_of_eq (main_call21.v3.ref) rfl (by decide),
   writes_sub_of_eq (main_call21.call0.v0.ref) rfl (by decide),
   writes_sub_of_eq (main_call21.v5.ref) rfl (by decide),
   writes_sub_of_eq (main_call21.c_1.ref) rfl (by decide),
   writes_sub_of_eq (main_call21.c_2.ref) rfl (by decide),
   writes_sub_of_eq (main_call21.v6.ref) rfl (by decide),
   writes_sub_of_eq (main_call21.v7.ref) rfl (by decide),
   writes_sub_of_eq (main_call21.v8.ref) rfl (by decide),
   writes_sub_of_eq (main_call21.v9.ref) rfl (by decide),
   writes_sub_of_eq (main_call21.v10.ref) rfl (by decide),
   writes_sub_of_eq (main_call21.v11.ref) rfl (by decide),
   writes_sub_of_eq (main_call21.c_3.ref) rfl (by decide),
   writes_sub_of_eq (main_call21.v12.ref) rfl (by decide),
   writes_sub_of_eq (main_call21.v13.ref) rfl (by decide),
   writes_sub_of_eq (main_call21.v14.ref) rfl (by decide),
   writes_sub_of_eq (main_call21.cst.ref) rfl (by decide),
   writes_sub_of_eq (main_call21.v15.ref) rfl (by decide),
   writes_sub_of_eq (main_call21.v16.ref) rfl (by decide),
   writes_sub_of_eq main_v277 rfl (by decide),
   writes_sub_of_eq main_v278 rfl (by decide),
   writes_sub_of_eq main_cst_47 rfl (by decide),
   writes_sub_of_eq main_v279 rfl (by decide),
   writes_sub_of_eq main_c_48 rfl (by decide),
   writes_sub_of_eq main_v280 rfl (by decide),
   writes_sub_of_eq main_v281 rfl (by decide),
   writes_sub_of_eq main_c_49 rfl (by decide),
   writes_sub_of_eq main_v282 rfl (by decide),
   writes_sub_of_eq main_v283 rfl (by decide),
   writes_sub_of_eq main_v284 rfl (by decide),
   writes_sub_of_eq main_v285 rfl (by decide),
   writes_sub_of_eq main_v286 rfl (by decide),
   writes_sub_of_eq main_v287 rfl (by decide),
   writes_sub_of_eq main_v288 rfl (by decide),
   writes_sub_of_eq main_v289 rfl (by decide),
   writes_sub_of_eq main_v290 rfl (by decide),
   writes_sub_of_eq main_cst_50 rfl (by decide),
   writes_sub_of_eq main_v291 rfl (by decide),
   writes_sub_of_eq main_v292 rfl (by decide),
   writes_sub_of_eq main_cst_51 rfl (by decide),
   writes_sub_of_eq main_v293 rfl (by decide),
   writes_sub_of_eq main_v294 rfl (by decide),
   writes_sub_of_eq main_c_52 rfl (by decide),
   writes_sub_of_eq (main_call22.cst.ref) rfl (by decide),
   writes_sub_of_eq (main_call22.v0.ref) rfl (by decide),
   writes_sub_of_eq (main_call22.v1.ref) rfl (by decide),
   writes_sub_of_eq (main_call22.cst_0.ref) rfl (by decide),
   writes_sub_of_eq (main_call22.v2.ref) rfl (by decide),
   writes_sub_of_eq (main_call22.v3.ref) rfl (by decide),
   writes_sub_of_eq (main_call22.v4.ref) rfl (by decide),
   writes_sub_of_eq (main_call22.v5.ref) rfl (by decide),
   writes_sub_of_eq (main_call22.v6.ref) rfl (by decide),
   writes_sub_of_eq (main_call22.v7.ref) rfl (by decide),
   writes_sub_of_eq (main_call22.cst_1.ref) rfl (by decide),
   writes_sub_of_eq (main_call22.v8.ref) rfl (by decide),
   writes_sub_of_eq (main_call22.cst_2.ref) rfl (by decide),
   writes_sub_of_eq (main_call22.v9.ref) rfl (by decide),
   writes_sub_of_eq (main_call22.v10.ref) rfl (by decide),
   writes_sub_of_eq (main_call22.v11.ref) rfl (by decide),
   writes_sub_of_eq (main_call22.v12.ref) rfl (by decide),
   writes_sub_of_eq (main_call22.cst_3.ref) rfl (by decide),
   writes_sub_of_eq (main_call22.v13.ref) rfl (by decide),
   writes_sub_of_eq (main_call22.cst_4.ref) rfl (by decide),
   writes_sub_of_eq (main_call22.call0.v0.ref) rfl (by decide),
   writes_sub_of_eq (main_call22.call0.v1.ref) rfl (by decide),
   writes_sub_of_eq (main_call22.call0.v2.ref) rfl (by decide),
   writes_sub_of_eq main_v296 rfl (by decide),
   writes_sub_of_eq main_v297 rfl (by decide),
   writes_sub_of_eq main_cst_53 rfl (by decide),
   writes_sub_of_eq main_v298 rfl (by decide),
   writes_sub_of_eq main_v299 rfl (by decide),
   writes_sub_of_eq main_v300 rfl (by decide),
   writes_sub_of_eq main_v301 rfl (by decide),
   writes_sub_of_eq main_v302 rfl (by decide),
   writes_sub_of_eq main_v303 rfl (by decide),
   writes_sub_of_eq main_v304 rfl (by decide),
   writes_sub_of_eq main_v305 rfl (by decide),
   writes_sub_of_eq main_v306 rfl (by decide),
   writes_sub_of_eq main_v307 rfl (by decide),
   writes_sub_of_eq main_v308 rfl (by decide),
   writes_sub_of_eq (main_call23.cst.ref) rfl (by decide),
   writes_sub_of_eq (main_call23.v0.ref) rfl (by decide),
   writes_sub_of_eq (main_call23.v1.ref) rfl (by decide)⟩

/-- A buffer the stretch does not write keeps its contents. -/
theorem L21_kept (V : Valuation τ sig (Elt F)) {r : Ref sig .tc} (hr : r ∉ writesL21) :
    after (no_index opsL21) V (no_index (Proc.devRef .tc r)) = V (Proc.devRef .tc r) :=
  after_of_writes_sub opsL21 V opsL21_writes hr

theorem L21_out (V : Valuation τ sig (Elt F)) :
    after (no_index opsL21) V (no_index (main_v309 : DevRef τ sig)) = refLayer (V (main_v273 : DevRef τ sig)) (V (main_v235 : DevRef τ sig)) (V (main_v2 : DevRef τ sig)) (V (main_v6 : DevRef τ sig)) (V (main_arg3 : DevRef τ sig)) (V (main_arg6 : DevRef τ sig)) (V (main_arg9 : DevRef τ sig)) (V (main_arg12 : DevRef τ sig)) := by
  refine (fun (h : ∀ x, x = _ → x = _) => h _ rfl) ?_
  intro x hx
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', Stretches.ofBuf_toBuf, TRef.ofBuf, TRef.toBuf, cast_eq] at hx
  exact hx.trans rfl

end Cert.ReferenceIdeal.Ops

end
-- ==== Proof.RefOps.SL22.lean ====
import proofs.«175100_g37074157699472_cont_sun_c4_777_8_alg».proof.Proof.Gen.ReferenceIdeal
import Idealize.ShloMosaic.Lib.StableHlo.Run
import proofs.«175100_g37074157699472_cont_sun_c4_777_8_alg».proof.Proof.RefOps.Stretches
import proofs.«175100_g37074157699472_cont_sun_c4_777_8_alg».proof.Proof.RefOps.Kept
import proofs.«175100_g37074157699472_cont_sun_c4_777_8_alg».proof.Proof.RefOut
import proofs.«175100_g37074157699472_cont_sun_c4_777_8_alg».proof.Proof.LibStretches

noncomputable section

namespace Cert.ReferenceIdeal.Ops

open Cert.ReferenceIdeal Cert.ReferenceIdeal.Gen Cert.ReferenceIdeal.Term Idealize.ShloMosaic Idealize.ShloMosaic.TcCoe Idealize.SL.Sem Idealize.ShloMosaic.StableHlo

variable {F : FTy → Type} [FloatOps F]

/-- The buffers the stretch writes, in order. -/
abbrev writesL22 : List (Ref sig .tc) :=
  [ main_v310, main_v311, main_call24.c.ref, main_call24.v0.ref, main_call24.v1.ref, main_call24.c_0.ref, main_call24.v2.ref, main_call24.v3.ref, main_call24.call0.v0.ref, main_call24.v5.ref, main_call24.c_1.ref, main_call24.c_2.ref, main_call24.v6.ref, main_call24.v7.ref, main_call24.v8.ref, main_call24.v9.ref, main_call24.v10.ref, main_call24.v11.ref, main_call24.c_3.ref, main_call24.v12.ref, main_call24.v13.ref, main_call24.v14.ref, main_call24.cst.ref, main_call24.v15.ref, main_call24.v16.ref, main_v313, main_v314, main_cst_54, main_v315, main_c_55, main_v316, main_v317, main_c_56, main_v318, main_v319, main_v320, main_v321, main_v322, main_v323, main_v324, main_v325, main_v326, main_cst_57, main_v327, main_v328, main_cst_58, main_v329, main_v330, main_c_59, main_call25.cst.ref, main_call25.v0.ref, main_call25.v1.ref, main_call25.cst_0.ref, main_call25.v2.ref, main_call25.v3.ref, main_call25.v4.ref, main_call25.v5.ref, main_call25.v6.ref, main_call25.v7.ref, main_call25.cst_1.ref, main_call25.v8.ref, main_call25.cst_2.ref, main_call25.v9.ref, main_call25.v10.ref, main_call25.v11.ref, main_call25.v12.ref, main_call25.cst_3.ref, main_call25.v13.ref, main_call25.cst_4.ref, main_call25.call0.v0.ref, main_call25.call0.v1.ref, main_call25.call0.v2.ref, main_v332, main_v333, main_cst_60, main_v334, main_v335, main_v336, main_v337, main_v338, main_v339, main_v340, main_v341, main_v342, main_v343, main_v344, main_call26.cst.ref, main_call26.v0.ref, main_call26.v1.ref ]

theorem opsL22_writes : (opsL22 : List (HloOp τ sig (Elt F))).Forall fun op => op.writes ⊆ ((writesL22).map (Proc.devRef (τ := τ) .tc)).toFinset :=
  ⟨writes_sub_of_eq main_v310 rfl (by decide),
   writes_sub_of_eq main_v311 rfl (by decide),
   writes_sub_of_eq (main_call24.c.ref) rfl (by decide),
   writes_sub_of_eq (main_call24.v0.ref) rfl (by decide),
   writes_sub_of_eq (main_call24.v1.ref) rfl (by decide),
   writes_sub_of_eq (main_call24.c_0.ref) rfl (by decide),
   writes_sub_of_eq (main_call24.v2.ref) rfl (by decide),
   writes_sub_of_eq (main_call24.v3.ref) rfl (by decide),
   writes_sub_of_eq (main_call24.call0.v0.ref) rfl (by decide),
   writes_sub_of_eq (main_call24.v5.ref) rfl (by decide),
   writes_sub_of_eq (main_call24.c_1.ref) rfl (by decide),
   writes_sub_of_eq (main_call24.c_2.ref) rfl (by decide),
   writes_sub_of_eq (main_call24.v6.ref) rfl (by decide),
   writes_sub_of_eq (main_call24.v7.ref) rfl (by decide),
   writes_sub_of_eq (main_call24.v8.ref) rfl (by decide),
   writes_sub_of_eq (main_call24.v9.ref) rfl (by decide),
   writes_sub_of_eq (main_call24.v10.ref) rfl (by decide),
   writes_sub_of_eq (main_call24.v11.ref) rfl (by decide),
   writes_sub_of_eq (main_call24.c_3.ref) rfl (by decide),
   writes_sub_of_eq (main_call24.v12.ref) rfl (by decide),
   writes_sub_of_eq (main_call24.v13.ref) rfl (by decide),
   writes_sub_of_eq (main_call24.v14.ref) rfl (by decide),
   writes_sub_of_eq (main_call24.cst.ref) rfl (by decide),
   writes_sub_of_eq (main_call24.v15.ref) rfl (by decide),
   writes_sub_of_eq (main_call24.v16.ref) rfl (by decide),
   writes_sub_of_eq main_v313 rfl (by decide),
   writes_sub_of_eq main_v314 rfl (by decide),
   writes_sub_of_eq main_cst_54 rfl (by decide),
   writes_sub_of_eq main_v315 rfl (by decide),
   writes_sub_of_eq main_c_55 rfl (by decide),
   writes_sub_of_eq main_v316 rfl (by decide),
   writes_sub_of_eq main_v317 rfl (by decide),
   writes_sub_of_eq main_c_56 rfl (by decide),
   writes_sub_of_eq main_v318 rfl (by decide),
   writes_sub_of_eq main_v319 rfl (by decide),
   writes_sub_of_eq main_v320 rfl (by decide),
   writes_sub_of_eq main_v321 rfl (by decide),
   writes_sub_of_eq main_v322 rfl (by decide),
   writes_sub_of_eq main_v323 rfl (by decide),
   writes_sub_of_eq main_v324 rfl (by decide),
   writes_sub_of_eq main_v325 rfl (by decide),
   writes_sub_of_eq main_v326 rfl (by decide),
   writes_sub_of_eq main_cst_57 rfl (by decide),
   writes_sub_of_eq main_v327 rfl (by decide),
   writes_sub_of_eq main_v328 rfl (by decide),
   writes_sub_of_eq main_cst_58 rfl (by decide),
   writes_sub_of_eq main_v329 rfl (by decide),
   writes_sub_of_eq main_v330 rfl (by decide),
   writes_sub_of_eq main_c_59 rfl (by decide),
   writes_sub_of_eq (main_call25.cst.ref) rfl (by decide),
   writes_sub_of_eq (main_call25.v0.ref) rfl (by decide),
   writes_sub_of_eq (main_call25.v1.ref) rfl (by decide),
   writes_sub_of_eq (main_call25.cst_0.ref) rfl (by decide),
   writes_sub_of_eq (main_call25.v2.ref) rfl (by decide),
   writes_sub_of_eq (main_call25.v3.ref) rfl (by decide),
   writes_sub_of_eq (main_call25.v4.ref) rfl (by decide),
   writes_sub_of_eq (main_call25.v5.ref) rfl (by decide),
   writes_sub_of_eq (main_call25.v6.ref) rfl (by decide),
   writes_sub_of_eq (main_call25.v7.ref) rfl (by decide),
   writes_sub_of_eq (main_call25.cst_1.ref) rfl (by decide),
   writes_sub_of_eq (main_call25.v8.ref) rfl (by decide),
   writes_sub_of_eq (main_call25.cst_2.ref) rfl (by decide),
   writes_sub_of_eq (main_call25.v9.ref) rfl (by decide),
   writes_sub_of_eq (main_call25.v10.ref) rfl (by decide),
   writes_sub_of_eq (main_call25.v11.ref) rfl (by decide),
   writes_sub_of_eq (main_call25.v12.ref) rfl (by decide),
   writes_sub_of_eq (main_call25.cst_3.ref) rfl (by decide),
   writes_sub_of_eq (main_call25.v13.ref) rfl (by decide),
   writes_sub_of_eq (main_call25.cst_4.ref) rfl (by decide),
   writes_sub_of_eq (main_call25.call0.v0.ref) rfl (by decide),
   writes_sub_of_eq (main_call25.call0.v1.ref) rfl (by decide),
   writes_sub_of_eq (main_call25.call0.v2.ref) rfl (by decide),
   writes_sub_of_eq main_v332 rfl (by decide),
   writes_sub_of_eq main_v333 rfl (by decide),
   writes_sub_of_eq main_cst_60 rfl (by decide),
   writes_sub_of_eq main_v334 rfl (by decide),
   writes_sub_of_eq main_v335 rfl (by decide),
   writes_sub_of_eq main_v336 rfl (by decide),
   writes_sub_of_eq main_v337 rfl (by decide),
   writes_sub_of_eq main_v338 rfl (by decide),
   writes_sub_of_eq main_v339 rfl (by decide),
   writes_sub_of_eq main_v340 rfl (by decide),
   writes_sub_of_eq main_v341 rfl (by decide),
   writes_sub_of_eq main_v342 rfl (by decide),
   writes_sub_of_eq main_v343 rfl (by decide),
   writes_sub_of_eq main_v344 rfl (by decide),
   writes_sub_of_eq (main_call26.cst.ref) rfl (by decide),
   writes_sub_of_eq (main_call26.v0.ref) rfl (by decide),
   writes_sub_of_eq (main_call26.v1.ref) rfl (by decide)⟩

/-- A buffer the stretch does not write keeps its contents. -/
theorem L22_kept (V : Valuation τ sig (Elt F)) {r : Ref sig .tc} (hr : r ∉ writesL22) :
    after (no_index opsL22) V (no_index (Proc.devRef .tc r)) = V (Proc.devRef .tc r) :=
  after_of_writes_sub opsL22 V opsL22_writes hr

theorem L22_out (V : Valuation τ sig (Elt F)) :
    after (no_index opsL22) V (no_index (main_v345 : DevRef τ sig)) = refLayer (V (main_v309 : DevRef τ sig)) (V (main_v235 : DevRef τ sig)) (V (main_v2 : DevRef τ sig)) (V (main_v6 : DevRef τ sig)) (V (main_arg4 : DevRef τ sig)) (V (main_arg7 : DevRef τ sig)) (V (main_arg10 : DevRef τ sig)) (V (main_arg13 : DevRef τ sig)) := by
  refine (fun (h : ∀ x, x = _ → x = _) => h _ rfl) ?_
  intro x hx
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', Stretches.ofBuf_toBuf, TRef.ofBuf, TRef.toBuf, cast_eq] at hx
  exact hx.trans rfl

end Cert.ReferenceIdeal.Ops

end
-- ==== Proof.RefOps.SB3.lean ====
import proofs.«175100_g37074157699472_cont_sun_c4_777_8_alg».proof.Proof.Gen.ReferenceIdeal
import Idealize.ShloMosaic.Lib.StableHlo.Run
import proofs.«175100_g37074157699472_cont_sun_c4_777_8_alg».proof.Proof.RefOps.Stretches
import proofs.«175100_g37074157699472_cont_sun_c4_777_8_alg».proof.Proof.RefOps.Kept
import proofs.«175100_g37074157699472_cont_sun_c4_777_8_alg».proof.Proof.RefOut
import proofs.«175100_g37074157699472_cont_sun_c4_777_8_alg».proof.Proof.LibStretches

noncomputable section

namespace Cert.ReferenceIdeal.Ops

open Cert.ReferenceIdeal Cert.ReferenceIdeal.Gen Cert.ReferenceIdeal.Term Idealize.ShloMosaic Idealize.ShloMosaic.TcCoe Idealize.SL.Sem Idealize.ShloMosaic.StableHlo

variable {F : FTy → Type} [FloatOps F]

/-- The buffers the stretch writes, in order. -/
abbrev writesB3 : List (Ref sig .tc) :=
  [ main_v346, main_v347, main_v348, main_v349, main_v350 ]

theorem opsB3_writes : (opsB3 : List (HloOp τ sig (Elt F))).Forall fun op => op.writes ⊆ ((writesB3).map (Proc.devRef (τ := τ) .tc)).toFinset :=
  ⟨writes_sub_of_eq main_v346 rfl (by decide),
   writes_sub_of_eq main_v347 rfl (by decide),
   writes_sub_of_eq main_v348 rfl (by decide),
   writes_sub_of_eq main_v349 rfl (by decide),
   writes_sub_of_eq main_v350 rfl (by decide)⟩

/-- A buffer the stretch does not write keeps its contents. -/
theorem B3_kept (V : Valuation τ sig (Elt F)) {r : Ref sig .tc} (hr : r ∉ writesB3) :
    after (no_index opsB3) V (no_index (Proc.devRef .tc r)) = V (Proc.devRef .tc r) :=
  after_of_writes_sub opsB3 V opsB3_writes hr

theorem B3_w (V : Valuation τ sig (Elt F)) :
    after (no_index opsB3) V (no_index (main_v348 : DevRef τ sig)) = wB3 (V (main_arg1 : DevRef τ sig)) := by
  refine (fun (h : ∀ x, x = _ → x = _) => h _ rfl) ?_
  intro x hx
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', Stretches.ofBuf_toBuf, TRef.ofBuf, TRef.toBuf, cast_eq] at hx
  exact hx.trans rfl

theorem B3_x (V : Valuation τ sig (Elt F)) :
    after (no_index opsB3) V (no_index (main_v350 : DevRef τ sig)) = xB3 (V (main_arg0 : DevRef τ sig)) := by
  refine (fun (h : ∀ x, x = _ → x = _) => h _ rfl) ?_
  intro x hx
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', Stretches.ofBuf_toBuf, TRef.ofBuf, TRef.toBuf, cast_eq] at hx
  exact hx.trans rfl

end Cert.ReferenceIdeal.Ops

end
-- ==== Proof.RefOps.SL30.lean ====
import proofs.«175100_g37074157699472_cont_sun_c4_777_8_alg».proof.Proof.Gen.ReferenceIdeal
import Idealize.ShloMosaic.Lib.StableHlo.Run
import proofs.«175100_g37074157699472_cont_sun_c4_777_8_alg».proof.Proof.RefOps.Stretches
import proofs.«175100_g37074157699472_cont_sun_c4_777_8_alg».proof.Proof.RefOps.Kept
import proofs.«175100_g37074157699472_cont_sun_c4_777_8_alg».proof.Proof.RefOut
import proofs.«175100_g37074157699472_cont_sun_c4_777_8_alg».proof.Proof.LibStretches

noncomputable section

namespace Cert.ReferenceIdeal.Ops

open Cert.ReferenceIdeal Cert.ReferenceIdeal.Gen Cert.ReferenceIdeal.Term Idealize.ShloMosaic Idealize.ShloMosaic.TcCoe Idealize.SL.Sem Idealize.ShloMosaic.StableHlo

variable {F : FTy → Type} [FloatOps F]

/-- The buffers the stretch writes, in order. -/
abbrev writesL30 : List (Ref sig .tc) :=
  [ main_v351, main_v352, main_call27.c.ref, main_call27.v0.ref, main_call27.v1.ref, main_call27.c_0.ref, main_call27.v2.ref, main_call27.v3.ref, main_call27.call0.v0.ref, main_call27.v5.ref, main_call27.c_1.ref, main_call27.c_2.ref, main_call27.v6.ref, main_call27.v7.ref, main_call27.v8.ref, main_call27.v9.ref, main_call27.v10.ref, main_call27.v11.ref, main_call27.c_3.ref, main_call27.v12.ref, main_call27.v13.ref, main_call27.v14.ref, main_call27.cst.ref, main_call27.v15.ref, main_call27.v16.ref, main_v354, main_v355, main_cst_61, main_v356, main_c_62, main_v357, main_v358, main_c_63, main_v359, main_v360, main_v361, main_v362, main_v363, main_v364, main_v365, main_v366, main_v367, main_cst_64, main_v368, main_v369, main_cst_65, main_v370, main_v371, main_c_66, main_call28.cst.ref, main_call28.v0.ref, main_call28.v1.ref, main_call28.cst_0.ref, main_call28.v2.ref, main_call28.v3.ref, main_call28.v4.ref, main_call28.v5.ref, main_call28.v6.ref, main_call28.v7.ref, main_call28.cst_1.ref, main_call28.v8.ref, main_call28.cst_2.ref, main_call28.v9.ref, main_call28.v10.ref, main_call28.v11.ref, main_call28.v12.ref, main_call28.cst_3.ref, main_call28.v13.ref, main_call28.cst_4.ref, main_call28.call0.v0.ref, main_call28.call0.v1.ref, main_call28.call0.v2.ref, main_v373, main_v374, main_cst_67, main_v375, main_v376, main_v377, main_v378, main_v379, main_v380, main_v381, main_v382, main_v383, main_v384, main_v385, main_call29.cst.ref, main_call29.v0.ref, main_call29.v1.ref ]

theorem opsL30_writes : (opsL30 : List (HloOp τ sig (Elt F))).Forall fun op => op.writes ⊆ ((writesL30).map (Proc.devRef (τ := τ) .tc)).toFinset :=
  ⟨writes_sub_of_eq main_v351 rfl (by decide),
   writes_sub_of_eq main_v352 rfl (by decide),
   writes_sub_of_eq (main_call27.c.ref) rfl (by decide),
   writes_sub_of_eq (main_call27.v0.ref) rfl (by decide),
   writes_sub_of_eq (main_call27.v1.ref) rfl (by decide),
   writes_sub_of_eq (main_call27.c_0.ref) rfl (by decide),
   writes_sub_of_eq (main_call27.v2.ref) rfl (by decide),
   writes_sub_of_eq (main_call27.v3.ref) rfl (by decide),
   writes_sub_of_eq (main_call27.call0.v0.ref) rfl (by decide),
   writes_sub_of_eq (main_call27.v5.ref) rfl (by decide),
   writes_sub_of_eq (main_call27.c_1.ref) rfl (by decide),
   writes_sub_of_eq (main_call27.c_2.ref) rfl (by decide),
   writes_sub_of_eq (main_call27.v6.ref) rfl (by decide),
   writes_sub_of_eq (main_call27.v7.ref) rfl (by decide),
   writes_sub_of_eq (main_call27.v8.ref) rfl (by decide),
   writes_sub_of_eq (main_call27.v9.ref) rfl (by decide),
   writes_sub_of_eq (main_call27.v10.ref) rfl (by decide),
   writes_sub_of_eq (main_call27.v11.ref) rfl (by decide),
   writes_sub_of_eq (main_call27.c_3.ref) rfl (by decide),
   writes_sub_of_eq (main_call27.v12.ref) rfl (by decide),
   writes_sub_of_eq (main_call27.v13.ref) rfl (by decide),
   writes_sub_of_eq (main_call27.v14.ref) rfl (by decide),
   writes_sub_of_eq (main_call27.cst.ref) rfl (by decide),
   writes_sub_of_eq (main_call27.v15.ref) rfl (by decide),
   writes_sub_of_eq (main_call27.v16.ref) rfl (by decide),
   writes_sub_of_eq main_v354 rfl (by decide),
   writes_sub_of_eq main_v355 rfl (by decide),
   writes_sub_of_eq main_cst_61 rfl (by decide),
   writes_sub_of_eq main_v356 rfl (by decide),
   writes_sub_of_eq main_c_62 rfl (by decide),
   writes_sub_of_eq main_v357 rfl (by decide),
   writes_sub_of_eq main_v358 rfl (by decide),
   writes_sub_of_eq main_c_63 rfl (by decide),
   writes_sub_of_eq main_v359 rfl (by decide),
   writes_sub_of_eq main_v360 rfl (by decide),
   writes_sub_of_eq main_v361 rfl (by decide),
   writes_sub_of_eq main_v362 rfl (by decide),
   writes_sub_of_eq main_v363 rfl (by decide),
   writes_sub_of_eq main_v364 rfl (by decide),
   writes_sub_of_eq main_v365 rfl (by decide),
   writes_sub_of_eq main_v366 rfl (by decide),
   writes_sub_of_eq main_v367 rfl (by decide),
   writes_sub_of_eq main_cst_64 rfl (by decide),
   writes_sub_of_eq main_v368 rfl (by decide),
   writes_sub_of_eq main_v369 rfl (by decide),
   writes_sub_of_eq main_cst_65 rfl (by decide),
   writes_sub_of_eq main_v370 rfl (by decide),
   writes_sub_of_eq main_v371 rfl (by decide),
   writes_sub_of_eq main_c_66 rfl (by decide),
   writes_sub_of_eq (main_call28.cst.ref) rfl (by decide),
   writes_sub_of_eq (main_call28.v0.ref) rfl (by decide),
   writes_sub_of_eq (main_call28.v1.ref) rfl (by decide),
   writes_sub_of_eq (main_call28.cst_0.ref) rfl (by decide),
   writes_sub_of_eq (main_call28.v2.ref) rfl (by decide),
   writes_sub_of_eq (main_call28.v3.ref) rfl (by decide),
   writes_sub_of_eq (main_call28.v4.ref) rfl (by decide),
   writes_sub_of_eq (main_call28.v5.ref) rfl (by decide),
   writes_sub_of_eq (main_call28.v6.ref) rfl (by decide),
   writes_sub_of_eq (main_call28.v7.ref) rfl (by decide),
   writes_sub_of_eq (main_call28.cst_1.ref) rfl (by decide),
   writes_sub_of_eq (main_call28.v8.ref) rfl (by decide),
   writes_sub_of_eq (main_call28.cst_2.ref) rfl (by decide),
   writes_sub_of_eq (main_call28.v9.ref) rfl (by decide),
   writes_sub_of_eq (main_call28.v10.ref) rfl (by decide),
   writes_sub_of_eq (main_call28.v11.ref) rfl (by decide),
   writes_sub_of_eq (main_call28.v12.ref) rfl (by decide),
   writes_sub_of_eq (main_call28.cst_3.ref) rfl (by decide),
   writes_sub_of_eq (main_call28.v13.ref) rfl (by decide),
   writes_sub_of_eq (main_call28.cst_4.ref) rfl (by decide),
   writes_sub_of_eq (main_call28.call0.v0.ref) rfl (by decide),
   writes_sub_of_eq (main_call28.call0.v1.ref) rfl (by decide),
   writes_sub_of_eq (main_call28.call0.v2.ref) rfl (by decide),
   writes_sub_of_eq main_v373 rfl (by decide),
   writes_sub_of_eq main_v374 rfl (by decide),
   writes_sub_of_eq main_cst_67 rfl (by decide),
   writes_sub_of_eq main_v375 rfl (by decide),
   writes_sub_of_eq main_v376 rfl (by decide),
   writes_sub_of_eq main_v377 rfl (by decide),
   writes_sub_of_eq main_v378 rfl (by decide),
   writes_sub_of_eq main_v379 rfl (by decide),
   writes_sub_of_eq main_v380 rfl (by decide),
   writes_sub_of_eq main_v381 rfl (by decide),
   writes_sub_of_eq main_v382 rfl (by decide),
   writes_sub_of_eq main_v383 rfl (by decide),
   writes_sub_of_eq main_v384 rfl (by decide),
   writes_sub_of_eq main_v385 rfl (by decide),
   writes_sub_of_eq (main_call29.cst.ref) rfl (by decide),
   writes_sub_of_eq (main_call29.v0.ref) rfl (by decide),
   writes_sub_of_eq (main_call29.v1.ref) rfl (by decide)⟩

/-- A buffer the stretch does not write keeps its contents. -/
theorem L30_kept (V : Valuation τ sig (Elt F)) {r : Ref sig .tc} (hr : r ∉ writesL30) :
    after (no_index opsL30) V (no_index (Proc.devRef .tc r)) = V (Proc.devRef .tc r) :=
  after_of_writes_sub opsL30 V opsL30_writes hr

theorem L30_out (V : Valuation τ sig (Elt F)) :
    after (no_index opsL30) V (no_index (main_v386 : DevRef τ sig)) = refLayer (V (main_v350 : DevRef τ sig)) (V (main_v348 : DevRef τ sig)) (V (main_v2 : DevRef τ sig)) (V (main_v6 : DevRef τ sig)) (V (main_arg2 : DevRef τ sig)) (V (main_arg5 : DevRef τ sig)) (V (main_arg8 : DevRef τ sig)) (V (main_arg11 : DevRef τ sig)) := by
  refine (fun (h : ∀ x, x = _ → x = _) => h _ rfl) ?_
  intro x hx
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', Stretches.ofBuf_toBuf, TRef.ofBuf, TRef.toBuf, cast_eq] at hx
  exact hx.trans rfl

end Cert.ReferenceIdeal.Ops

end
-- ==== Proof.RefOps.SL31.lean ====
import proofs.«175100_g37074157699472_cont_sun_c4_777_8_alg».proof.Proof.Gen.ReferenceIdeal
import Idealize.ShloMosaic.Lib.StableHlo.Run
import proofs.«175100_g37074157699472_cont_sun_c4_777_8_alg».proof.Proof.RefOps.Stretches
import proofs.«175100_g37074157699472_cont_sun_c4_777_8_alg».proof.Proof.RefOps.Kept
import proofs.«175100_g37074157699472_cont_sun_c4_777_8_alg».proof.Proof.RefOut
import proofs.«175100_g37074157699472_cont_sun_c4_777_8_alg».proof.Proof.LibStretches

noncomputable section

namespace Cert.ReferenceIdeal.Ops

open Cert.ReferenceIdeal Cert.ReferenceIdeal.Gen Cert.ReferenceIdeal.Term Idealize.ShloMosaic Idealize.ShloMosaic.TcCoe Idealize.SL.Sem Idealize.ShloMosaic.StableHlo

variable {F : FTy → Type} [FloatOps F]

/-- The buffers the stretch writes, in order. -/
abbrev writesL31 : List (Ref sig .tc) :=
  [ main_v387, main_v388, main_call30.c.ref, main_call30.v0.ref, main_call30.v1.ref, main_call30.c_0.ref, main_call30.v2.ref, main_call30.v3.ref, main_call30.call0.v0.ref, main_call30.v5.ref, main_call30.c_1.ref, main_call30.c_2.ref, main_call30.v6.ref, main_call30.v7.ref, main_call30.v8.ref, main_call30.v9.ref, main_call30.v10.ref, main_call30.v11.ref, main_call30.c_3.ref, main_call30.v12.ref, main_call30.v13.ref, main_call30.v14.ref, main_call30.cst.ref, main_call30.v15.ref, main_call30.v16.ref, main_v390, main_v391, main_cst_68, main_v392, main_c_69, main_v393, main_v394, main_c_70, main_v395, main_v396, main_v397, main_v398, main_v399, main_v400, main_v401, main_v402, main_v403, main_cst_71, main_v404, main_v405, main_cst_72, main_v406, main_v407, main_c_73, main_call31.cst.ref, main_call31.v0.ref, main_call31.v1.ref, main_call31.cst_0.ref, main_call31.v2.ref, main_call31.v3.ref, main_call31.v4.ref, main_call31.v5.ref, main_call31.v6.ref, main_call31.v7.ref, main_call31.cst_1.ref, main_call31.v8.ref, main_call31.cst_2.ref, main_call31.v9.ref, main_call31.v10.ref, main_call31.v11.ref, main_call31.v12.ref, main_call31.cst_3.ref, main_call31.v13.ref, main_call31.cst_4.ref, main_call31.call0.v0.ref, main_call31.call0.v1.ref, main_call31.call0.v2.ref, main_v409, main_v410, main_cst_74, main_v411, main_v412, main_v413, main_v414, main_v415, main_v416, main_v417, main_v418, main_v419, main_v420, main_v421, main_call32.cst.ref, main_call32.v0.ref, main_call32.v1.ref ]

theorem opsL31_writes : (opsL31 : List (HloOp τ sig (Elt F))).Forall fun op => op.writes ⊆ ((writesL31).map (Proc.devRef (τ := τ) .tc)).toFinset :=
  ⟨writes_sub_of_eq main_v387 rfl (by decide),
   writes_sub_of_eq main_v388 rfl (by decide),
   writes_sub_of_eq (main_call30.c.ref) rfl (by decide),
   writes_sub_of_eq (main_call30.v0.ref) rfl (by decide),
   writes_sub_of_eq (main_call30.v1.ref) rfl (by decide),
   writes_sub_of_eq (main_call30.c_0.ref) rfl (by decide),
   writes_sub_of_eq (main_call30.v2.ref) rfl (by decide),
   writes_sub_of_eq (main_call30.v3.ref) rfl (by decide),
   writes_sub_of_eq (main_call30.call0.v0.ref) rfl (by decide),
   writes_sub_of_eq (main_call30.v5.ref) rfl (by decide),
   writes_sub_of_eq (main_call30.c_1.ref) rfl (by decide),
   writes_sub_of_eq (main_call30.c_2.ref) rfl (by decide),
   writes_sub_of_eq (main_call30.v6.ref) rfl (by decide),
   writes_sub_of_eq (main_call30.v7.ref) rfl (by decide),
   writes_sub_of_eq (main_call30.v8.ref) rfl (by decide),
   writes_sub_of_eq (main_call30.v9.ref) rfl (by decide),
   writes_sub_of_eq (main_call30.v10.ref) rfl (by decide),
   writes_sub_of_eq (main_call30.v11.ref) rfl (by decide),
   writes_sub_of_eq (main_call30.c_3.ref) rfl (by decide),
   writes_sub_of_eq (main_call30.v12.ref) rfl (by decide),
   writes_sub_of_eq (main_call30.v13.ref) rfl (by decide),
   writes_sub_of_eq (main_call30.v14.ref) rfl (by decide),
   writes_sub_of_eq (main_call30.cst.ref) rfl (by decide),
   writes_sub_of_eq (main_call30.v15.ref) rfl (by decide),
   writes_sub_of_eq (main_call30.v16.ref) rfl (by decide),
   writes_sub_of_eq main_v390 rfl (by decide),
   writes_sub_of_eq main_v391 rfl (by decide),
   writes_sub_of_eq main_cst_68 rfl (by decide),
   writes_sub_of_eq main_v392 rfl (by decide),
   writes_sub_of_eq main_c_69 rfl (by decide),
   writes_sub_of_eq main_v393 rfl (by decide),
   writes_sub_of_eq main_v394 rfl (by decide),
   writes_sub_of_eq main_c_70 rfl (by decide),
   writes_sub_of_eq main_v395 rfl (by decide),
   writes_sub_of_eq main_v396 rfl (by decide),
   writes_sub_of_eq main_v397 rfl (by decide),
   writes_sub_of_eq main_v398 rfl (by decide),
   writes_sub_of_eq main_v399 rfl (by decide),
   writes_sub_of_eq main_v400 rfl (by decide),
   writes_sub_of_eq main_v401 rfl (by decide),
   writes_sub_of_eq main_v402 rfl (by decide),
   writes_sub_of_eq main_v403 rfl (by decide),
   writes_sub_of_eq main_cst_71 rfl (by decide),
   writes_sub_of_eq main_v404 rfl (by decide),
   writes_sub_of_eq main_v405 rfl (by decide),
   writes_sub_of_eq main_cst_72 rfl (by decide),
   writes_sub_of_eq main_v406 rfl (by decide),
   writes_sub_of_eq main_v407 rfl (by decide),
   writes_sub_of_eq main_c_73 rfl (by decide),
   writes_sub_of_eq (main_call31.cst.ref) rfl (by decide),
   writes_sub_of_eq (main_call31.v0.ref) rfl (by decide),
   writes_sub_of_eq (main_call31.v1.ref) rfl (by decide),
   writes_sub_of_eq (main_call31.cst_0.ref) rfl (by decide),
   writes_sub_of_eq (main_call31.v2.ref) rfl (by decide),
   writes_sub_of_eq (main_call31.v3.ref) rfl (by decide),
   writes_sub_of_eq (main_call31.v4.ref) rfl (by decide),
   writes_sub_of_eq (main_call31.v5.ref) rfl (by decide),
   writes_sub_of_eq (main_call31.v6.ref) rfl (by decide),
   writes_sub_of_eq (main_call31.v7.ref) rfl (by decide),
   writes_sub_of_eq (main_call31.cst_1.ref) rfl (by decide),
   writes_sub_of_eq (main_call31.v8.ref) rfl (by decide),
   writes_sub_of_eq (main_call31.cst_2.ref) rfl (by decide),
   writes_sub_of_eq (main_call31.v9.ref) rfl (by decide),
   writes_sub_of_eq (main_call31.v10.ref) rfl (by decide),
   writes_sub_of_eq (main_call31.v11.ref) rfl (by decide),
   writes_sub_of_eq (main_call31.v12.ref) rfl (by decide),
   writes_sub_of_eq (main_call31.cst_3.ref) rfl (by decide),
   writes_sub_of_eq (main_call31.v13.ref) rfl (by decide),
   writes_sub_of_eq (main_call31.cst_4.ref) rfl (by decide),
   writes_sub_of_eq (main_call31.call0.v0.ref) rfl (by decide),
   writes_sub_of_eq (main_call31.call0.v1.ref) rfl (by decide),
   writes_sub_of_eq (main_call31.call0.v2.ref) rfl (by decide),
   writes_sub_of_eq main_v409 rfl (by decide),
   writes_sub_of_eq main_v410 rfl (by decide),
   writes_sub_of_eq main_cst_74 rfl (by decide),
   writes_sub_of_eq main_v411 rfl (by decide),
   writes_sub_of_eq main_v412 rfl (by decide),
   writes_sub_of_eq main_v413 rfl (by decide),
   writes_sub_of_eq main_v414 rfl (by decide),
   writes_sub_of_eq main_v415 rfl (by decide),
   writes_sub_of_eq main_v416 rfl (by decide),
   writes_sub_of_eq main_v417 rfl (by decide),
   writes_sub_of_eq main_v418 rfl (by decide),
   writes_sub_of_eq main_v419 rfl (by decide),
   writes_sub_of_eq main_v420 rfl (by decide),
   writes_sub_of_eq main_v421 rfl (by decide),
   writes_sub_of_eq (main_call32.cst.ref) rfl (by decide),
   writes_sub_of_eq (main_call32.v0.ref) rfl (by decide),
   writes_sub_of_eq (main_call32.v1.ref) rfl (by decide)⟩

/-- A buffer the stretch does not write keeps its contents. -/
theorem L31_kept (V : Valuation τ sig (Elt F)) {r : Ref sig .tc} (hr : r ∉ writesL31) :
    after (no_index opsL31) V (no_index (Proc.devRef .tc r)) = V (Proc.devRef .tc r) :=
  after_of_writes_sub opsL31 V opsL31_writes hr

theorem L31_out (V : Valuation τ sig (Elt F)) :
    after (no_index opsL31) V (no_index (main_v422 : DevRef τ sig)) = refLayer (V (main_v386 : DevRef τ sig)) (V (main_v348 : DevRef τ sig)) (V (main_v2 : DevRef τ sig)) (V (main_v6 : DevRef τ sig)) (V (main_arg3 : DevRef τ sig)) (V (main_arg6 : DevRef τ sig)) (V (main_arg9 : DevRef τ sig)) (V (main_arg12 : DevRef τ sig)) := by
  refine (fun (h : ∀ x, x = _ → x = _) => h _ rfl) ?_
  intro x hx
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', Stretches.ofBuf_toBuf, TRef.ofBuf, TRef.toBuf, cast_eq] at hx
  exact hx.trans rfl

end Cert.ReferenceIdeal.Ops

end
-- ==== Proof.RefOps.SL32.lean ====
import proofs.«175100_g37074157699472_cont_sun_c4_777_8_alg».proof.Proof.Gen.ReferenceIdeal
import Idealize.ShloMosaic.Lib.StableHlo.Run
import proofs.«175100_g37074157699472_cont_sun_c4_777_8_alg».proof.Proof.RefOps.Stretches
import proofs.«175100_g37074157699472_cont_sun_c4_777_8_alg».proof.Proof.RefOps.Kept
import proofs.«175100_g37074157699472_cont_sun_c4_777_8_alg».proof.Proof.RefOut
import proofs.«175100_g37074157699472_cont_sun_c4_777_8_alg».proof.Proof.LibStretches

noncomputable section

namespace Cert.ReferenceIdeal.Ops

open Cert.ReferenceIdeal Cert.ReferenceIdeal.Gen Cert.ReferenceIdeal.Term Idealize.ShloMosaic Idealize.ShloMosaic.TcCoe Idealize.SL.Sem Idealize.ShloMosaic.StableHlo

variable {F : FTy → Type} [FloatOps F]

/-- The buffers the stretch writes, in order. -/
abbrev writesL32 : List (Ref sig .tc) :=
  [ main_v423, main_v424, main_call33.c.ref, main_call33.v0.ref, main_call33.v1.ref, main_call33.c_0.ref, main_call33.v2.ref, main_call33.v3.ref, main_call33.call0.v0.ref, main_call33.v5.ref, main_call33.c_1.ref, main_call33.c_2.ref, main_call33.v6.ref, main_call33.v7.ref, main_call33.v8.ref, main_call33.v9.ref, main_call33.v10.ref, main_call33.v11.ref, main_call33.c_3.ref, main_call33.v12.ref, main_call33.v13.ref, main_call33.v14.ref, main_call33.cst.ref, main_call33.v15.ref, main_call33.v16.ref, main_v426, main_v427, main_cst_75, main_v428, main_c_76, main_v429, main_v430, main_c_77, main_v431, main_v432, main_v433, main_v434, main_v435, main_v436, main_v437, main_v438, main_v439, main_cst_78, main_v440, main_v441, main_cst_79, main_v442, main_v443, main_c_80, main_call34.cst.ref, main_call34.v0.ref, main_call34.v1.ref, main_call34.cst_0.ref, main_call34.v2.ref, main_call34.v3.ref, main_call34.v4.ref, main_call34.v5.ref, main_call34.v6.ref, main_call34.v7.ref, main_call34.cst_1.ref, main_call34.v8.ref, main_call34.cst_2.ref, main_call34.v9.ref, main_call34.v10.ref, main_call34.v11.ref, main_call34.v12.ref, main_call34.cst_3.ref, main_call34.v13.ref, main_call34.cst_4.ref, main_call34.call0.v0.ref, main_call34.call0.v1.ref, main_call34.call0.v2.ref, main_v445, main_v446, main_cst_81, main_v447, main_v448, main_v449, main_v450, main_v451, main_v452, main_v453, main_v454, main_v455, main_v456, main_v457, main_call35.cst.ref, main_call35.v0.ref, main_call35.v1.ref ]

theorem opsL32_writes : (opsL32 : List (HloOp τ sig (Elt F))).Forall fun op => op.writes ⊆ ((writesL32).map (Proc.devRef (τ := τ) .tc)).toFinset :=
  ⟨writes_sub_of_eq main_v423 rfl (by decide),
   writes_sub_of_eq main_v424 rfl (by decide),
   writes_sub_of_eq (main_call33.c.ref) rfl (by decide),
   writes_sub_of_eq (main_call33.v0.ref) rfl (by decide),
   writes_sub_of_eq (main_call33.v1.ref) rfl (by decide),
   writes_sub_of_eq (main_call33.c_0.ref) rfl (by decide),
   writes_sub_of_eq (main_call33.v2.ref) rfl (by decide),
   writes_sub_of_eq (main_call33.v3.ref) rfl (by decide),
   writes_sub_of_eq (main_call33.call0.v0.ref) rfl (by decide),
   writes_sub_of_eq (main_call33.v5.ref) rfl (by decide),
   writes_sub_of_eq (main_call33.c_1.ref) rfl (by decide),
   writes_sub_of_eq (main_call33.c_2.ref) rfl (by decide),
   writes_sub_of_eq (main_call33.v6.ref) rfl (by decide),
   writes_sub_of_eq (main_call33.v7.ref) rfl (by decide),
   writes_sub_of_eq (main_call33.v8.ref) rfl (by decide),
   writes_sub_of_eq (main_call33.v9.ref) rfl (by decide),
   writes_sub_of_eq (main_call33.v10.ref) rfl (by decide),
   writes_sub_of_eq (main_call33.v11.ref) rfl (by decide),
   writes_sub_of_eq (main_call33.c_3.ref) rfl (by decide),
   writes_sub_of_eq (main_call33.v12.ref) rfl (by decide),
   writes_sub_of_eq (main_call33.v13.ref) rfl (by decide),
   writes_sub_of_eq (main_call33.v14.ref) rfl (by decide),
   writes_sub_of_eq (main_call33.cst.ref) rfl (by decide),
   writes_sub_of_eq (main_call33.v15.ref) rfl (by decide),
   writes_sub_of_eq (main_call33.v16.ref) rfl (by decide),
   writes_sub_of_eq main_v426 rfl (by decide),
   writes_sub_of_eq main_v427 rfl (by decide),
   writes_sub_of_eq main_cst_75 rfl (by decide),
   writes_sub_of_eq main_v428 rfl (by decide),
   writes_sub_of_eq main_c_76 rfl (by decide),
   writes_sub_of_eq main_v429 rfl (by decide),
   writes_sub_of_eq main_v430 rfl (by decide),
   writes_sub_of_eq main_c_77 rfl (by decide),
   writes_sub_of_eq main_v431 rfl (by decide),
   writes_sub_of_eq main_v432 rfl (by decide),
   writes_sub_of_eq main_v433 rfl (by decide),
   writes_sub_of_eq main_v434 rfl (by decide),
   writes_sub_of_eq main_v435 rfl (by decide),
   writes_sub_of_eq main_v436 rfl (by decide),
   writes_sub_of_eq main_v437 rfl (by decide),
   writes_sub_of_eq main_v438 rfl (by decide),
   writes_sub_of_eq main_v439 rfl (by decide),
   writes_sub_of_eq main_cst_78 rfl (by decide),
   writes_sub_of_eq main_v440 rfl (by decide),
   writes_sub_of_eq main_v441 rfl (by decide),
   writes_sub_of_eq main_cst_79 rfl (by decide),
   writes_sub_of_eq main_v442 rfl (by decide),
   writes_sub_of_eq main_v443 rfl (by decide),
   writes_sub_of_eq main_c_80 rfl (by decide),
   writes_sub_of_eq (main_call34.cst.ref) rfl (by decide),
   writes_sub_of_eq (main_call34.v0.ref) rfl (by decide),
   writes_sub_of_eq (main_call34.v1.ref) rfl (by decide),
   writes_sub_of_eq (main_call34.cst_0.ref) rfl (by decide),
   writes_sub_of_eq (main_call34.v2.ref) rfl (by decide),
   writes_sub_of_eq (main_call34.v3.ref) rfl (by decide),
   writes_sub_of_eq (main_call34.v4.ref) rfl (by decide),
   writes_sub_of_eq (main_call34.v5.ref) rfl (by decide),
   writes_sub_of_eq (main_call34.v6.ref) rfl (by decide),
   writes_sub_of_eq (main_call34.v7.ref) rfl (by decide),
   writes_sub_of_eq (main_call34.cst_1.ref) rfl (by decide),
   writes_sub_of_eq (main_call34.v8.ref) rfl (by decide),
   writes_sub_of_eq (main_call34.cst_2.ref) rfl (by decide),
   writes_sub_of_eq (main_call34.v9.ref) rfl (by decide),
   writes_sub_of_eq (main_call34.v10.ref) rfl (by decide),
   writes_sub_of_eq (main_call34.v11.ref) rfl (by decide),
   writes_sub_of_eq (main_call34.v12.ref) rfl (by decide),
   writes_sub_of_eq (main_call34.cst_3.ref) rfl (by decide),
   writes_sub_of_eq (main_call34.v13.ref) rfl (by decide),
   writes_sub_of_eq (main_call34.cst_4.ref) rfl (by decide),
   writes_sub_of_eq (main_call34.call0.v0.ref) rfl (by decide),
   writes_sub_of_eq (main_call34.call0.v1.ref) rfl (by decide),
   writes_sub_of_eq (main_call34.call0.v2.ref) rfl (by decide),
   writes_sub_of_eq main_v445 rfl (by decide),
   writes_sub_of_eq main_v446 rfl (by decide),
   writes_sub_of_eq main_cst_81 rfl (by decide),
   writes_sub_of_eq main_v447 rfl (by decide),
   writes_sub_of_eq main_v448 rfl (by decide),
   writes_sub_of_eq main_v449 rfl (by decide),
   writes_sub_of_eq main_v450 rfl (by decide),
   writes_sub_of_eq main_v451 rfl (by decide),
   writes_sub_of_eq main_v452 rfl (by decide),
   writes_sub_of_eq main_v453 rfl (by decide),
   writes_sub_of_eq main_v454 rfl (by decide),
   writes_sub_of_eq main_v455 rfl (by decide),
   writes_sub_of_eq main_v456 rfl (by decide),
   writes_sub_of_eq main_v457 rfl (by decide),
   writes_sub_of_eq (main_call35.cst.ref) rfl (by decide),
   writes_sub_of_eq (main_call35.v0.ref) rfl (by decide),
   writes_sub_of_eq (main_call35.v1.ref) rfl (by decide)⟩

/-- A buffer the stretch does not write keeps its contents. -/
theorem L32_kept (V : Valuation τ sig (Elt F)) {r : Ref sig .tc} (hr : r ∉ writesL32) :
    after (no_index opsL32) V (no_index (Proc.devRef .tc r)) = V (Proc.devRef .tc r) :=
  after_of_writes_sub opsL32 V opsL32_writes hr

theorem L32_out (V : Valuation τ sig (Elt F)) :
    after (no_index opsL32) V (no_index (main_v458 : DevRef τ sig)) = refLayer (V (main_v422 : DevRef τ sig)) (V (main_v348 : DevRef τ sig)) (V (main_v2 : DevRef τ sig)) (V (main_v6 : DevRef τ sig)) (V (main_arg4 : DevRef τ sig)) (V (main_arg7 : DevRef τ sig)) (V (main_arg10 : DevRef τ sig)) (V (main_arg13 : DevRef τ sig)) := by
  refine (fun (h : ∀ x, x = _ → x = _) => h _ rfl) ?_
  intro x hx
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', Stretches.ofBuf_toBuf, TRef.ofBuf, TRef.toBuf, cast_eq] at hx
  exact hx.trans rfl

end Cert.ReferenceIdeal.Ops

end
-- ==== Proof.RefOps.SEpi.lean ====
import proofs.«175100_g37074157699472_cont_sun_c4_777_8_alg».proof.Proof.Gen.ReferenceIdeal
import Idealize.ShloMosaic.Lib.StableHlo.Run
import proofs.«175100_g37074157699472_cont_sun_c4_777_8_alg».proof.Proof.RefOps.Stretches
import proofs.«175100_g37074157699472_cont_sun_c4_777_8_alg».proof.Proof.RefOps.Kept
import proofs.«175100_g37074157699472_cont_sun_c4_777_8_alg».proof.Proof.RefOut
import proofs.«175100_g37074157699472_cont_sun_c4_777_8_alg».proof.Proof.LibStretches

noncomputable section

namespace Cert.ReferenceIdeal.Ops

open Cert.ReferenceIdeal Cert.ReferenceIdeal.Gen Cert.ReferenceIdeal.Term Idealize.ShloMosaic Idealize.ShloMosaic.TcCoe Idealize.SL.Sem Idealize.ShloMosaic.StableHlo

variable {F : FTy → Type} [FloatOps F]

/-- The buffers the stretch writes, in order. -/
abbrev writesEpi : List (Ref sig .tc) :=
  [ main_v459, main_v460, main_v461, main_v462, main_v463 ]

theorem opsEpi_writes : (opsEpi : List (HloOp τ sig (Elt F))).Forall fun op => op.writes ⊆ ((writesEpi).map (Proc.devRef (τ := τ) .tc)).toFinset :=
  ⟨writes_sub_of_eq main_v459 rfl (by decide),
   writes_sub_of_eq main_v460 rfl (by decide),
   writes_sub_of_eq main_v461 rfl (by decide),
   writes_sub_of_eq main_v462 rfl (by decide),
   writes_sub_of_eq main_v463 rfl (by decide)⟩

/-- A buffer the stretch does not write keeps its contents. -/
theorem Epi_kept (V : Valuation τ sig (Elt F)) {r : Ref sig .tc} (hr : r ∉ writesEpi) :
    after (no_index opsEpi) V (no_index (Proc.devRef .tc r)) = V (Proc.devRef .tc r) :=
  after_of_writes_sub opsEpi V opsEpi_writes hr

theorem Epi_out (V : Valuation τ sig (Elt F)) :
    after (no_index opsEpi) V (no_index (main_v463 : DevRef τ sig)) = stackF (V (main_v119 : DevRef τ sig)) (V (main_v232 : DevRef τ sig)) (V (main_v345 : DevRef τ sig)) (V (main_v458 : DevRef τ sig)) := by
  refine (fun (h : ∀ x, x = _ → x = _) => h _ rfl) ?_
  intro x hx
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', Stretches.ofBuf_toBuf, TRef.ofBuf, TRef.toBuf, cast_eq] at hx
  exact hx.trans rfl

end Cert.ReferenceIdeal.Ops

end
-- ==== Proof.RefValue.lean ====
/-
  WHAT THE REFERENCE'S RUN LEAVES IN ITS RESULT.  The 1100 operations, cut by what they compute — the two index
  vectors, then per batch element its two slices and its three layers, then the stacking — are read back stretch by
  stretch: each stretch leaves a named function of earlier buffers in the buffers read later and keeps every buffer it
  does not write, so the result buffer ends at the reference's whole-result function of the fourteen argument arrays,
  and the argument arrays end as they were.
-/
import proofs.«175100_g37074157699472_cont_sun_c4_777_8_alg».proof.Proof.RefRun
import proofs.«175100_g37074157699472_cont_sun_c4_777_8_alg».proof.Proof.RefOps.SPro
import proofs.«175100_g37074157699472_cont_sun_c4_777_8_alg».proof.Proof.RefOps.SB0
import proofs.«175100_g37074157699472_cont_sun_c4_777_8_alg».proof.Proof.RefOps.SL00
import proofs.«175100_g37074157699472_cont_sun_c4_777_8_alg».proof.Proof.RefOps.SL01
import proofs.«175100_g37074157699472_cont_sun_c4_777_8_alg».proof.Proof.RefOps.SL02
import proofs.«175100_g37074157699472_cont_sun_c4_777_8_alg».proof.Proof.RefOps.SB1
import proofs.«175100_g37074157699472_cont_sun_c4_777_8_alg».proof.Proof.RefOps.SL10
import proofs.«175100_g37074157699472_cont_sun_c4_777_8_alg».proof.Proof.RefOps.SL11
import proofs.«175100_g37074157699472_cont_sun_c4_777_8_alg».proof.Proof.RefOps.SL12
import proofs.«175100_g37074157699472_cont_sun_c4_777_8_alg».proof.Proof.RefOps.SB2
import proofs.«175100_g37074157699472_cont_sun_c4_777_8_alg».proof.Proof.RefOps.SL20
import proofs.«175100_g37074157699472_cont_sun_c4_777_8_alg».proof.Proof.RefOps.SL21
import proofs.«175100_g37074157699472_cont_sun_c4_777_8_alg».proof.Proof.RefOps.SL22
import proofs.«175100_g37074157699472_cont_sun_c4_777_8_alg».proof.Proof.RefOps.SB3
import proofs.«175100_g37074157699472_cont_sun_c4_777_8_alg».proof.Proof.RefOps.SL30
import proofs.«175100_g37074157699472_cont_sun_c4_777_8_alg».proof.Proof.RefOps.SL31
import proofs.«175100_g37074157699472_cont_sun_c4_777_8_alg».proof.Proof.RefOps.SL32
import proofs.«175100_g37074157699472_cont_sun_c4_777_8_alg».proof.Proof.RefOps.SEpi

noncomputable section

namespace Cert.ReferenceIdeal.Ops

open Cert.ReferenceIdeal Cert.ReferenceIdeal.Gen Cert.ReferenceIdeal.Term Idealize.ShloMosaic Idealize.ShloMosaic.TcCoe Idealize.SL.Sem Idealize.ShloMosaic.StableHlo

variable {F : FTy → Type} [FloatOps F]

/-- The stretches, in order. -/
abbrev opsS : List (HloOp τ sig (Elt F)) := opsPro ++ (opsB0 ++ (opsL00 ++ (opsL01 ++ (opsL02 ++ (opsB1 ++ (opsL10 ++ (opsL11 ++ (opsL12 ++ (opsB2 ++ (opsL20 ++ (opsL21 ++ (opsL22 ++ (opsB3 ++ (opsL30 ++ (opsL31 ++ (opsL32 ++ (opsEpi)))))))))))))))))

/-- The windows one after the other and the stretches one after the other are the same line. -/
theorem ops_eq : (ops : List (HloOp τ sig (Elt F))) = opsS := rfl

/-- The result buffer ends at the reference's whole-result function of the argument arrays. -/
theorem out_eq (V : Valuation τ sig (Elt F)) :
    after ops V (main_v463 : DevRef τ sig) = refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) := by
  rw [ops_eq]
  simp only [opsS, Stretches.after_app]
  simp (disch := decide) only [Epi_out, Epi_kept, L32_out, L32_kept, L31_out, L31_kept, L30_out, L30_kept, B3_w, B3_x, B3_kept, L22_out, L22_kept, L21_out, L21_kept, L20_out, L20_kept, B2_w, B2_x, B2_kept, L12_out, L12_kept, L11_out, L11_kept, L10_out, L10_kept, B1_w, B1_x, B1_kept, L02_out, L02_kept, L01_out, L01_kept, L00_out, L00_kept, B0_w, B0_x, B0_kept, Pro_src, Pro_dst, Pro_kept]
  rfl

/-- No stretch writes an argument array. -/
theorem args_kept (V : Valuation τ sig (Elt F)) :
    after ops V (main_arg0 : DevRef τ sig) = V (main_arg0 : DevRef τ sig)
    ∧ after ops V (main_arg1 : DevRef τ sig) = V (main_arg1 : DevRef τ sig)
    ∧ after ops V (main_arg2 : DevRef τ sig) = V (main_arg2 : DevRef τ sig)
    ∧ after ops V (main_arg3 : DevRef τ sig) = V (main_arg3 : DevRef τ sig)
    ∧ after ops V (main_arg4 : DevRef τ sig) = V (main_arg4 : DevRef τ sig)
    ∧ after ops V (main_arg5 : DevRef τ sig) = V (main_arg5 : DevRef τ sig)
    ∧ after ops V (main_arg6 : DevRef τ sig) = V (main_arg6 : DevRef τ sig)
    ∧ after ops V (main_arg7 : DevRef τ sig) = V (main_arg7 : DevRef τ sig)
    ∧ after ops V (main_arg8 : DevRef τ sig) = V (main_arg8 : DevRef τ sig)
    ∧ after ops V (main_arg9 : DevRef τ sig) = V (main_arg9 : DevRef τ sig)
    ∧ after ops V (main_arg10 : DevRef τ sig) = V (main_arg10 : DevRef τ sig)
    ∧ after ops V (main_arg11 : DevRef τ sig) = V (main_arg11 : DevRef τ sig)
    ∧ after ops V (main_arg12 : DevRef τ sig) = V (main_arg12 : DevRef τ sig)
    ∧ after ops V (main_arg13 : DevRef τ sig) = V (main_arg13 : DevRef τ sig) := by
  rw [ops_eq]
  simp only [opsS, Stretches.after_app]
  simp (disch := decide) only [Pro_kept, B0_kept, L00_kept, L01_kept, L02_kept, B1_kept, L10_kept, L11_kept, L12_kept, B2_kept, L20_kept, L21_kept, L22_kept, B3_kept, L30_kept, L31_kept, L32_kept, Epi_kept, and_self]

end Cert.ReferenceIdeal.Ops

end
-- ==== Proof.RIndex.lean ====
/-
  THE EDGES' SOURCES AND DESTINATIONS AT AN EDGE NUMBER.  Edge number 512·s + n (s, n below 512) has source s and
  destination n: the source vector is the row number of a 512×512 grid read in row-major order, the destination vector
  its column number.  Both are the words `BitVec.ofNat 32 s` and `BitVec.ofNat 32 n`, whose signed readings are s and n;
  they are not negative, so the wrap by 512 is not applied, and they lie in [0, 511].
-/
import proofs.«175100_g37074157699472_cont_sun_c4_777_8_alg».proof.Proof.RefTerm
import Idealize.ShloMosaic.Lib.IdealHost
import Idealize.ShloMosaic.Lib.ValueLayout
import Idealize.ShloMosaic.Lib.Pipeline.Value

noncomputable section

namespace Cert.ReferenceIdeal.LayerValue

open Idealize.ShloMosaic Idealize.ShloMosaic.ValueIdx Cert.ReferenceIdeal Cert.ReferenceIdeal.Gen Cert.ReferenceIdeal.Term

/-- Edge number 512·s + n. -/
abbrev edge (s n : Fin 512) : Fin 262144 := ⟨512 * s.val + n.val, by have := s.isLt; have := n.isLt; omega⟩

/-- Every edge number is 512·s + n for its quotient and remainder by 512. -/
theorem edge_divMod (e : Fin 262144) :
    edge ⟨e.val / 512, by have := e.isLt; omega⟩ ⟨e.val % 512, Nat.mod_lt _ (by norm_num)⟩ = e :=
  Fin.ext (by show 512 * (e.val / 512) + e.val % 512 = e.val; omega)

/-- The 512×512 grid in row-major order: position (s, n) is edge 512·s + n. -/
theorem grid_apply {α : Type} (x : S512x512.Idx → α) (s n : Fin 512) :
    shapeCast S262144 x shapeCasts_S512x512_S262144 (ix1 (edge s n)) = x (ix2 s n) :=
  shapeCast_apply x shapeCasts_S512x512_S262144 _ _ (by
    rw [Shape.rowMajor_val_two, Shape.rowMajor_val_one]
    show s.val * 512 + n.val = 512 * s.val + n.val
    omega)

/-- The source of edge 512·s + n is s. -/
theorem srcF_apply (s n : Fin 512) : srcF (F := Ideal) (ix1 (edge s n)) = BitVec.ofNat 32 s.val := by
  unfold srcF
  rw [grid_apply]
  refine (broadcastInDim_apply ![0] bcast_S512_S512x512_0 _ (ix2 s n) (ix1 s) (fun a => ?_)).trans ?_
  · match a with
    | ⟨0, _⟩ => rfl
  · rfl

/-- The destination of edge 512·s + n is n. -/
theorem dstF_apply (s n : Fin 512) : dstF (F := Ideal) (ix1 (edge s n)) = BitVec.ofNat 32 n.val := by
  unfold dstF
  rw [grid_apply]
  refine (broadcastInDim_apply ![0, 1] bcast_S1x512_S512x512_0_1 _ (ix2 s n) (ix2 (0 : Fin 1) n) (fun a => ?_)).trans ?_
  · match a with
    | ⟨0, _⟩ => rfl
    | ⟨1, _⟩ => rfl
  · rw [shapeCast_a_1a_apply]
    rfl

/-! ## The words of a node number -/

/-- The signed reading of the 32-bit word of a number below 512 is the number. -/
theorem toInt_node (k : Fin 512) : (BitVec.ofNat 32 k.val).toInt = (k.val : Int) := by
  have hk := k.isLt
  have hn : (BitVec.ofNat 32 k.val).toNat = k.val := by
    rw [BitVec.toNat_ofNat]
    exact Nat.mod_eq_of_lt (by omega)
  rw [BitVec.toInt_eq_toNat_of_lt (by rw [hn]; omega), hn]

/-- A node number's word is not negative: the signed comparison "below 0" is 0. -/
theorem slt_zero_node (k : Fin 512) : IntOp.cmpi .slt (BitVec.ofNat 32 k.val) 0#32 = 0#1 := by
  have h := toInt_node k
  have h0 : (0#32 : BitVec 32).toInt = 0 := by decide
  show BitVec.ofBool ((BitVec.ofNat 32 k.val).slt 0#32) = 0#1
  rw [BitVec.slt_eq_decide, h, h0, decide_eq_false (by omega)]
  rfl

/-- A node number's word is at least 0. -/
theorem sge_zero_node (k : Fin 512) : IntOp.cmpi .sge (BitVec.ofNat 32 k.val) 0#32 = 1#1 := by
  have h := toInt_node k
  have h0 : (0#32 : BitVec 32).toInt = 0 := by decide
  show BitVec.ofBool ((0#32 : BitVec 32).sle (BitVec.ofNat 32 k.val)) = 1#1
  rw [BitVec.sle_eq_decide, h, h0, decide_eq_true (by omega)]
  rfl

/-- A node number's word is at most 511. -/
theorem sle_511_node (k : Fin 512) : IntOp.cmpi .sle (BitVec.ofNat 32 k.val) 511#32 = 1#1 := by
  have h := toInt_node k
  have hk := k.isLt
  have h0 : (511#32 : BitVec 32).toInt = 511 := by decide
  show BitVec.ofBool ((BitVec.ofNat 32 k.val).sle 511#32) = 1#1
  rw [BitVec.sle_eq_decide, h, h0, decide_eq_true (by omega)]
  rfl

end Cert.ReferenceIdeal.LayerValue

end
-- ==== Proof.LibGatherScatter.lean ====
/-
  PICKING ROWS COMMUTES WITH AN ACCUMULATING SCATTER OF INDEX PAIRS.

  A table `table[t, i, j]` is built from weights `w[t, e]` and a list of index pairs `idx[e, ·]` by an accumulating
  scatter into a constant array: `table[t, i, j] = z + ∑ w[t, e]` over the `e` whose pair, read signed and not clamped,
  is `(i, j)` (a pair outside the array contributes nothing). Rows are then picked by slot indices `ii[b]`, read signed
  and clamped into `[0, T − 1]`: `A[b, i, j] = table[pick ii[b], i, j]`. Picking the weight rows first,
  `wg[b, e] = w[pick ii[b], e]`, and scattering per `b` gives the same array: both are
  `z + ∑ w[pick ii[b], e]` over the same set of `e` (`gather_scatterAdd_pairs`).

  On the way: a `stablehlo.gather` of whole rows along axis 0 of a rank-3 or rank-2 operand read at an index
  (`gather_rows3_apply`, `gather_rows2_apply`); when a scatter's result index is a given operand index
  (`resultIdx?_eq_some_iff`); and the accumulating scatter of scalar updates at index pairs, at the ideal instance,
  read at an index as the operand plus a sum over the `e` that land there (`scatterAdd_pairs_apply`).
-/
import Idealize.ShloMosaic.PureOps.Ideal
import Idealize.ShloMosaic.Lib.ValueIdx

noncomputable section

open scoped BigOperators

namespace Idealize.ShloMosaic.GatherScatter

open Idealize.ShloMosaic Idealize.ShloMosaic.ValueIdx

variable {α : Type}

/-! ## Picking rows: `stablehlo.gather` along axis 0 -/

/-- The dimension numbers of a gather of whole rows `[R, C]` of an operand `[T, R, C]` at start indices `[B, 1]`:
    axis 0 collapsed and indexed, the other two the result's offset axes. -/
abbrev rows3 (T B R C : Nat)
    (wf : GatherDims.WF ⟨3, ![T, R, C]⟩ ⟨2, ![B, 1]⟩ ⟨3, ![B, R, C]⟩ [1, 2] [0] [] [0] [] 1 ![1, R, C]) :
    GatherDims ⟨3, ![T, R, C]⟩ ⟨2, ![B, 1]⟩ ⟨3, ![B, R, C]⟩ :=
  { offsetDims := [1, 2], collapsedSliceDims := [0], operandBatchingDims := [], startIndicesBatchingDims := [],
    startIndexMap := [0], indexVectorDim := 1, sliceSizes := ![1, R, C], wf := wf }

/-- The dimension numbers of a gather of whole rows `[C]` of an operand `[T, C]` at start indices `[B, 1]`. -/
abbrev rows2 (T B C : Nat)
    (wf : GatherDims.WF ⟨2, ![T, C]⟩ ⟨2, ![B, 1]⟩ ⟨2, ![B, C]⟩ [1] [0] [] [0] [] 1 ![1, C]) :
    GatherDims ⟨2, ![T, C]⟩ ⟨2, ![B, 1]⟩ ⟨2, ![B, C]⟩ :=
  { offsetDims := [1], collapsedSliceDims := [0], operandBatchingDims := [], startIndicesBatchingDims := [],
    startIndexMap := [0], indexVectorDim := 1, sliceSizes := ![1, C], wf := wf }

/-- The row a slot index picks: the word read signed and clamped into `[0, T − 1]`. -/
def pick (T : Nat) (hT : 0 < T) {w : Nat} (v : BitVec w) : Fin T := ⟨min v.toInt.toNat (T - 1), by omega⟩

/-- A GATHER OF ROWS OF A RANK-3 OPERAND READ AT `(b, i, j)`: the operand at row `pick idx[b, 0]`, same `(i, j)`. -/
theorem gather_rows3_apply {T B R C w : Nat} (hT : 0 < T)
    (wf : GatherDims.WF ⟨3, ![T, R, C]⟩ ⟨2, ![B, 1]⟩ ⟨3, ![B, R, C]⟩ [1, 2] [0] [] [0] [] 1 ![1, R, C])
    (x : (⟨3, ![T, R, C]⟩ : Shape).Idx → α) (idx : IVec ⟨2, ![B, 1]⟩ w) (b : Fin B) (i : Fin R) (j : Fin C) :
    Host.gather (rows3 T B R C wf) x idx (ix3 b i j) = x (ix3 (pick T hT (idx (ix2 b (0 : Fin 1)))) i j) := by
  unfold Host.gather
  congr 1
  funext a
  refine Fin.ext ?_
  show (rows3 T B R C wf).start (ix3 b i j) idx a + (rows3 T B R C wf).batchCoord (ix3 b i j) a
    + (rows3 T B R C wf).offCoord (ix3 b i j) a = _
  rw [GatherDims.batchCoord_eq_zero _ _ _ List.not_mem_nil, Nat.add_zero]
  match a with
  | ⟨0, _⟩ =>
    show (rows3 T B R C wf).start (ix3 b i j) idx (0 : Fin 3) + (rows3 T B R C wf).offCoord (ix3 b i j) (0 : Fin 3)
      = min (idx (ix2 b (0 : Fin 1))).toInt.toNat (T - 1)
    rw [GatherDims.offCoord_eq_zero _ _ _ (fun h => ((GatherDims.mem_sKept _ _).mp h).1 (List.mem_singleton.mpr rfl)),
      Nat.add_zero]
    unfold GatherDims.start
    rw [dif_pos (show (0 : Fin 3) ∈ (rows3 T B R C wf).startIndexMap from List.mem_singleton.mpr rfl)]
    have hsi : (rows3 T B R C wf).siIdx (ix3 b i j) ⟨List.idxOf (0 : Fin 3) (rows3 T B R C wf).startIndexMap,
        List.idxOf_lt_length_iff.2 (List.mem_singleton.mpr rfl)⟩ = ix2 b (0 : Fin 1) := by
      funext c; refine Fin.ext ?_
      match c with
      | ⟨0, _⟩ => rfl
      | ⟨1, _⟩ => rfl
    rw [hsi]
    rfl
  | ⟨1, _⟩ =>
    show (rows3 T B R C wf).start (ix3 b i j) idx (1 : Fin 3) + (rows3 T B R C wf).offCoord (ix3 b i j) (1 : Fin 3)
      = i.val
    unfold GatherDims.start
    rw [dif_neg (fun h : (1 : Fin 3) ∈ (rows3 T B R C wf).startIndexMap =>
      Nat.one_ne_zero (congrArg Fin.val (List.mem_singleton.mp h))), Nat.zero_add]
    rfl
  | ⟨2, _⟩ =>
    show (rows3 T B R C wf).start (ix3 b i j) idx (2 : Fin 3) + (rows3 T B R C wf).offCoord (ix3 b i j) (2 : Fin 3)
      = j.val
    unfold GatherDims.start
    rw [dif_neg (fun h : (2 : Fin 3) ∈ (rows3 T B R C wf).startIndexMap =>
      (by decide : (2 : Nat) ≠ 0) (congrArg Fin.val (List.mem_singleton.mp h))), Nat.zero_add]
    rfl

/-- A GATHER OF ROWS OF A RANK-2 OPERAND READ AT `(b, j)`: the operand at row `pick idx[b, 0]`, same `j`. -/
theorem gather_rows2_apply {T B C w : Nat} (hT : 0 < T)
    (wf : GatherDims.WF ⟨2, ![T, C]⟩ ⟨2, ![B, 1]⟩ ⟨2, ![B, C]⟩ [1] [0] [] [0] [] 1 ![1, C])
    (x : (⟨2, ![T, C]⟩ : Shape).Idx → α) (idx : IVec ⟨2, ![B, 1]⟩ w) (b : Fin B) (j : Fin C) :
    Host.gather (rows2 T B C wf) x idx (ix2 b j) = x (ix2 (pick T hT (idx (ix2 b (0 : Fin 1)))) j) := by
  unfold Host.gather
  congr 1
  funext a
  refine Fin.ext ?_
  show (rows2 T B C wf).start (ix2 b j) idx a + (rows2 T B C wf).batchCoord (ix2 b j) a
    + (rows2 T B C wf).offCoord (ix2 b j) a = _
  rw [GatherDims.batchCoord_eq_zero _ _ _ List.not_mem_nil, Nat.add_zero]
  match a with
  | ⟨0, _⟩ =>
    show (rows2 T B C wf).start (ix2 b j) idx (0 : Fin 2) + (rows2 T B C wf).offCoord (ix2 b j) (0 : Fin 2)
      = min (idx (ix2 b (0 : Fin 1))).toInt.toNat (T - 1)
    rw [GatherDims.offCoord_eq_zero _ _ _ (fun h => ((GatherDims.mem_sKept _ _).mp h).1 (List.mem_singleton.mpr rfl)),
      Nat.add_zero]
    unfold GatherDims.start
    rw [dif_pos (show (0 : Fin 2) ∈ (rows2 T B C wf).startIndexMap from List.mem_singleton.mpr rfl)]
    have hsi : (rows2 T B C wf).siIdx (ix2 b j) ⟨List.idxOf (0 : Fin 2) (rows2 T B C wf).startIndexMap,
        List.idxOf_lt_length_iff.2 (List.mem_singleton.mpr rfl)⟩ = ix2 b (0 : Fin 1) := by
      funext c; refine Fin.ext ?_
      match c with
      | ⟨0, _⟩ => rfl
      | ⟨1, _⟩ => rfl
    rw [hsi]
    rfl
  | ⟨1, _⟩ =>
    show (rows2 T B C wf).start (ix2 b j) idx (1 : Fin 2) + (rows2 T B C wf).offCoord (ix2 b j) (1 : Fin 2)
      = j.val
    unfold GatherDims.start
    rw [dif_neg (fun h : (1 : Fin 2) ∈ (rows2 T B C wf).startIndexMap =>
      Nat.one_ne_zero (congrArg Fin.val (List.mem_singleton.mp h))), Nat.zero_add]
    rfl

/-! ## The accumulating scatter of scalar updates at index pairs -/

/-- A scatter's result index for update index `u` is the operand index `p` exactly when, on every operand axis, the
    start (read signed, not clamped) plus the window coordinate is `p`'s coordinate. -/
theorem resultIdx?_eq_some_iff {s si u : Shape} (d : ScatterDims s si u) {w : Nat} (j : u.Idx) (idx : IVec si w)
    (p : s.Idx) :
    d.resultIdx? j idx = some p ↔ ∀ a, d.start j idx a + (d.window j a : Int) = ((p a).val : Int) := by
  unfold ScatterDims.resultIdx?
  constructor
  · intro h a
    split at h
    · rename_i hh
      have hp := Option.some.inj h
      subst hp
      exact (Int.toNat_of_nonneg (hh a).1).symm
    · exact absurd h (by simp)
  · intro h
    have hh : ∀ a, 0 ≤ d.start j idx a + (d.window j a : Int) ∧ d.start j idx a + (d.window j a : Int) < s.size a := by
      intro a
      rw [h a]
      exact ⟨Int.natCast_nonneg _, by exact_mod_cast (p a).isLt⟩
    rw [dif_pos hh]
    congr 1
    funext a
    refine Fin.ext ?_
    show (d.start j idx a + (d.window j a : Int)).toNat = (p a).val
    rw [h a, Int.toNat_natCast]

/-- The dimension numbers of a scatter of scalar updates `[T, E]` into an operand `[T, N, N]` at the index pairs
    `[E, 2]`: update axis 0 is the window axis going to operand axis 0, update axis 1 runs over the pairs, whose two
    components are the starts on operand axes 1 and 2. -/
abbrev pairAdd (T N E : Nat) (wf : ScatterDims.WF ⟨3, ![T, N, N]⟩ ⟨2, ![E, 2]⟩ ⟨2, ![T, E]⟩ [0] [1, 2] [1, 2] 1) :
    ScatterDims ⟨3, ![T, N, N]⟩ ⟨2, ![E, 2]⟩ ⟨2, ![T, E]⟩ :=
  { updateWindowDims := [0], insertedWindowDims := [1, 2], scatterDimsToOperandDims := [1, 2], indexVectorDim := 1,
    wf := wf }

/-- Pair `e` lands on `(i, j)`: its two components, read signed, are `i` and `j`. -/
def lands {N E w : Nat} (idx : IVec ⟨2, ![E, 2]⟩ w) (i j : Fin N) (e : Fin E) : Prop :=
  (idx (ix2 e (0 : Fin 2))).toInt = (i.val : Int) ∧ (idx (ix2 e (1 : Fin 2))).toInt = (j.val : Int)

instance {N E w : Nat} (idx : IVec ⟨2, ![E, 2]⟩ w) (i j : Fin N) : DecidablePred (lands idx i j) := fun e => by
  unfold lands; infer_instance

/-- Update `(t', e)` of the pair scatter lands on `(t, i, j)` exactly when `t' = t` and pair `e` lands on `(i, j)`. -/
theorem pairAdd_resultIdx?_iff {T N E w : Nat}
    (wf : ScatterDims.WF ⟨3, ![T, N, N]⟩ ⟨2, ![E, 2]⟩ ⟨2, ![T, E]⟩ [0] [1, 2] [1, 2] 1)
    (idx : IVec ⟨2, ![E, 2]⟩ w) (t' : Fin T) (e : Fin E) (t : Fin T) (i j : Fin N) :
    (pairAdd T N E wf).resultIdx? (ix2 t' e) idx = some (ix3 t i j) ↔ t' = t ∧ lands idx i j e := by
  rw [resultIdx?_eq_some_iff]
  have h0 : (pairAdd T N E wf).start (ix2 t' e) idx 0 + ((pairAdd T N E wf).window (ix2 t' e) 0 : Int) = (t'.val : Int) := by
    unfold ScatterDims.start
    have n0 : ¬ ((0 : Fin 3) ∈ (pairAdd T N E wf).scatterDimsToOperandDims) := (by decide : ¬ ((0 : Fin 3) ∈ [(1 : Fin 3), 2]))
    rw [dif_neg n0, Int.zero_add]
    rfl
  have h1 : (pairAdd T N E wf).start (ix2 t' e) idx 1 + ((pairAdd T N E wf).window (ix2 t' e) 1 : Int)
      = (idx (ix2 e (0 : Fin 2))).toInt := by
    unfold ScatterDims.start
    have m1 : (1 : Fin 3) ∈ (pairAdd T N E wf).scatterDimsToOperandDims := (by decide : (1 : Fin 3) ∈ [(1 : Fin 3), 2])
    rw [dif_pos m1]
    have hw : (pairAdd T N E wf).window (ix2 t' e) 1 = 0 := rfl
    rw [hw, Int.natCast_zero, Int.add_zero]
    congr 2
    funext c; refine Fin.ext ?_
    match c with
    | ⟨0, _⟩ => rfl
    | ⟨1, _⟩ => rfl
  have h2 : (pairAdd T N E wf).start (ix2 t' e) idx 2 + ((pairAdd T N E wf).window (ix2 t' e) 2 : Int)
      = (idx (ix2 e (1 : Fin 2))).toInt := by
    unfold ScatterDims.start
    have m2 : (2 : Fin 3) ∈ (pairAdd T N E wf).scatterDimsToOperandDims := (by decide : (2 : Fin 3) ∈ [(1 : Fin 3), 2])
    rw [dif_pos m2]
    have hw : (pairAdd T N E wf).window (ix2 t' e) 2 = 0 := rfl
    rw [hw, Int.natCast_zero, Int.add_zero]
    congr 2
    funext c; refine Fin.ext ?_
    match c with
    | ⟨0, _⟩ => rfl
    | ⟨1, _⟩ => rfl
  constructor
  · intro h
    have e0 := h 0
    have e1 := h 1
    have e2 := h 2
    rw [h0] at e0
    rw [h1] at e1
    rw [h2] at e2
    refine ⟨Fin.ext (by exact_mod_cast e0), e1, e2⟩
  · rintro ⟨rfl, hl1, hl2⟩ a
    match a with
    | ⟨0, _⟩ => exact h0
    | ⟨1, _⟩ => exact h1.trans hl1
    | ⟨2, _⟩ => exact h2.trans hl2

/-- THE PAIR SCATTER READ AT `(t, i, j)`, at the ideal instance: the operand there plus the sum of the updates
    `upd[t, e]` over the pairs `e` that land on `(i, j)`. -/
theorem scatterAdd_pairs_apply {T N E w : Nat}
    (wf : ScatterDims.WF ⟨3, ![T, N, N]⟩ ⟨2, ![E, 2]⟩ ⟨2, ![T, E]⟩ [0] [1, 2] [1, 2] 1) {φ : FTy}
    (x : FVec Ideal ⟨3, ![T, N, N]⟩ φ) (idx : IVec ⟨2, ![E, 2]⟩ w) (upd : FVec Ideal ⟨2, ![T, E]⟩ φ)
    (t : Fin T) (i j : Fin N) :
    Host.scatterAdd (F := Ideal) (pairAdd T N E wf) x idx upd (ix3 t i j)
      = x (ix3 t i j) + ∑ e ∈ Finset.univ.filter (fun e : Fin E => lands idx i j e), upd (ix2 t e) := by
  unfold Host.scatterAdd
  rw [Ideal.hostScatterAdd_def]
  unfold Ideal.hostScatterAdd
  refine congrArg (x (ix3 t i j) + ·) ?_
  rw [Finset.sum_filter, Finset.sum_filter, sum_idx2, Finset.sum_eq_single t]
  · refine Finset.sum_congr rfl fun e _ => ?_
    by_cases hl : lands idx i j e
    · rw [if_pos hl, if_pos ((pairAdd_resultIdx?_iff wf idx t e t i j).2 ⟨rfl, hl⟩)]
    · rw [if_neg hl, if_neg (fun h => hl ((pairAdd_resultIdx?_iff wf idx t e t i j).1 h).2)]
  · intro t' _ hne
    refine Finset.sum_eq_zero fun e _ => ?_
    rw [if_neg (fun h => hne ((pairAdd_resultIdx?_iff wf idx t' e t i j).1 h).1)]
  · intro h
    exact absurd (Finset.mem_univ t) h

/-! ## The two orders agree -/

/-- PICKING ROWS OF THE SCATTERED TABLE IS SCATTERING THE PICKED WEIGHT ROWS. Scatter the weights `upd[t, e]` at the
    pairs `idx[e, ·]` into an operand that is `z` everywhere and then pick rows by `ii`; or pick the weight rows by
    `ii` first and scatter them, per picked row, at the same pairs into an operand that is `z` everywhere. At the ideal
    instance both give `z + ∑ upd[pick ii[b], e]` over the pairs `e` that land on `(i, j)`. -/
theorem gather_scatterAdd_pairs {T B N E w w' : Nat} (hT : 0 < T)
    (wfg3 : GatherDims.WF ⟨3, ![T, N, N]⟩ ⟨2, ![B, 1]⟩ ⟨3, ![B, N, N]⟩ [1, 2] [0] [] [0] [] 1 ![1, N, N])
    (wfg2 : GatherDims.WF ⟨2, ![T, E]⟩ ⟨2, ![B, 1]⟩ ⟨2, ![B, E]⟩ [1] [0] [] [0] [] 1 ![1, E])
    (wfsT : ScatterDims.WF ⟨3, ![T, N, N]⟩ ⟨2, ![E, 2]⟩ ⟨2, ![T, E]⟩ [0] [1, 2] [1, 2] 1)
    (wfsB : ScatterDims.WF ⟨3, ![B, N, N]⟩ ⟨2, ![E, 2]⟩ ⟨2, ![B, E]⟩ [0] [1, 2] [1, 2] 1) {φ : FTy} (z : EReal)
    (x : FVec Ideal ⟨3, ![T, N, N]⟩ φ) (hx : ∀ p, x p = z) (x' : FVec Ideal ⟨3, ![B, N, N]⟩ φ) (hx' : ∀ p, x' p = z)
    (idx : IVec ⟨2, ![E, 2]⟩ w) (ii : IVec ⟨2, ![B, 1]⟩ w') (upd : FVec Ideal ⟨2, ![T, E]⟩ φ) :
    Host.gather (rows3 T B N N wfg3) (Host.scatterAdd (F := Ideal) (pairAdd T N E wfsT) x idx upd) ii
      = Host.scatterAdd (F := Ideal) (pairAdd B N E wfsB) x' idx (Host.gather (rows2 T B E wfg2) upd ii) := by
  funext p
  obtain ⟨b, i, j, rfl⟩ : ∃ (b : Fin B) (i j : Fin N), p = ix3 b i j := ⟨p 0, p 1, p 2, eq_ix3 p⟩
  refine (gather_rows3_apply hT wfg3 _ ii b i j).trans ?_
  rw [scatterAdd_pairs_apply, scatterAdd_pairs_apply, hx, hx']
  refine congrArg (z + ·) (Finset.sum_congr rfl fun e _ => ?_)
  exact (gather_rows2_apply hT wfg2 upd ii b e).symm

/-- The conditions on the dimension numbers are decided at literal sizes. -/
example {φ : FTy} (z : EReal) (x : FVec Ideal ⟨3, ![24, 207, 207]⟩ φ) (hx : ∀ p, x p = z)
    (x' : FVec Ideal ⟨3, ![64, 207, 207]⟩ φ) (hx' : ∀ p, x' p = z) (idx : IVec ⟨2, ![1722, 2]⟩ 32)
    (ii : IVec ⟨2, ![64, 1]⟩ 32) (upd : FVec Ideal ⟨2, ![24, 1722]⟩ φ) :
    Host.gather (rows3 24 64 207 207 (by decide))
        (Host.scatterAdd (F := Ideal) (pairAdd 24 207 1722 (by decide)) x idx upd) ii
      = Host.scatterAdd (F := Ideal) (pairAdd 64 207 1722 (by decide)) x' idx
          (Host.gather (rows2 24 64 1722 (by decide)) upd ii) :=
  gather_scatterAdd_pairs (by decide) _ _ _ _ z x hx x' hx' idx ii upd

end Idealize.ShloMosaic.GatherScatter

end
-- ==== Proof.RTake.lean ====
/-
  THE ROW PICK AT AN EDGE.  When the index vector holds, at edge e, the word of a node number s below 512, the picked
  array at (e, d) is the operand at (s, d): the word is not negative, so it is not wrapped by 512; it is at least 0 and at
  most 511, so the validity mask is 1 and the fill pattern is not taken; and the row the gather picks (the word read
  signed and clamped into [0, 511]) is s.
-/
import proofs.«175100_g37074157699472_cont_sun_c4_777_8_alg».proof.Proof.RIndex
import proofs.«175100_g37074157699472_cont_sun_c4_777_8_alg».proof.Proof.LibGatherScatter
import Idealize.ShloMosaic.PureOps.Reduce

noncomputable section

namespace Cert.ReferenceIdeal.LayerValue

open Idealize.ShloMosaic Idealize.ShloMosaic.ValueIdx Cert.ReferenceIdeal Cert.ReferenceIdeal.Gen Cert.ReferenceIdeal.Term
open Idealize.ShloMosaic.GatherScatter

/-- The index vector with its negative entries wrapped by 512, as a column: at an edge whose entry is the word of a node
    number, that word. -/
theorem wrapCol_apply (idx : (⟨S262144, .i32⟩ : BufTy).Contents (Elt Ideal)) (e : Fin 262144) (s : Fin 512)
    (hidx : idx (ix1 e) = BitVec.ofNat 32 s.val) :
    broadcastInDim S262144x1 ![0] bcast_S262144_S262144x1_0
      (select (cmpi .slt idx (broadcastInDim S262144 ![] bcast_S_S262144 (constantI S_ 32 0#32)))
        (addi idx (broadcastInDim S262144 ![] bcast_S_S262144 (constantI S_ 32 512#32))) idx) (ix2 e (0 : Fin 1))
      = BitVec.ofNat 32 s.val := by
  refine (broadcastInDim_apply ![0] bcast_S262144_S262144x1_0 _ (ix2 e (0 : Fin 1)) (ix1 e) (fun a => ?_)).trans ?_
  · match a with
    | ⟨0, _⟩ => rfl
  · show Scalar.select (IntOp.cmpi .slt (idx (ix1 e)) 0#32) (IntOp.addi (idx (ix1 e)) 512#32) (idx (ix1 e)) = _
    rw [hidx, slt_zero_node, select_zero]

instance : Std.Commutative (IntOp.andi (w := 1)) := ⟨BitVec.and_comm⟩
instance : Std.Associative (IntOp.andi (w := 1)) := ⟨BitVec.and_assoc⟩

/-- A fold of the one-bit "and" over a one-element axis: the element and the start. -/
theorem fold_andi_one (b : BitVec 1) (g : Fin 1 → BitVec 1) :
    (Finset.univ : Finset (Fin 1)).fold IntOp.andi b g = IntOp.andi (g 0) b := by
  rw [Finset.univ_unique, Finset.fold_singleton]
  rfl

/-- The rows of `xw` picked by `idx`, at an edge whose entry is the word of the node number s: row s. -/
theorem takeF_apply (xw : (⟨S512x128, .f32⟩ : BufTy).Contents (Elt Ideal))
    (idx : (⟨S262144, .i32⟩ : BufTy).Contents (Elt Ideal)) (e : Fin 262144) (s : Fin 512) (d : Fin 128)
    (hidx : idx (ix1 e) = BitVec.ofNat 32 s.val) :
    takeF (F := Ideal) xw idx (ix2 e d) = xw (ix2 s d) := by
  have hcol := wrapCol_apply idx e s hidx
  generalize hc : broadcastInDim S262144x1 ![0] bcast_S262144_S262144x1_0
      (select (cmpi .slt idx (broadcastInDim S262144 ![] bcast_S_S262144 (constantI S_ 32 0#32)))
        (addi idx (broadcastInDim S262144 ![] bcast_S_S262144 (constantI S_ 32 512#32))) idx) = col at hcol
  have hR : S262144x1.Reduces [1] S262144 := by decide
  -- the validity mask at e is 1
  have hok : Host.reduce IntOp.andi
      (andi (cmpi .sge col (broadcastInDim S262144x1 ![] bcast_S_S262144x1 (constantI S_ 32 0#32)))
        (cmpi .sle col (broadcastInDim S262144x1 ![0, 1] bcast_S1x1_S262144x1_0_1
          (broadcastInDim S1x1 ![1] bcast_S1_S1x1_1 (constantI S1 32 511#32)))))
      (constantI S_ 1 1#1) reducesTo_S262144x1_S262144_d1 h_S_ (ix1 e) = 1#1 := by
    rw [Host.reduce_eq_fold_single IntOp.andi _ _ reducesTo_S262144x1_S262144_d1 hR h_S_]
    have hl : hR.lift (ix1 e) (0 : Fin 1) = ix2 e (0 : Fin 1) := by
      funext a; refine Fin.ext ?_
      match a with
      | ⟨0, _⟩ => rfl
      | ⟨1, _⟩ => rfl
    refine (fold_andi_one _ _).trans ?_
    show IntOp.andi (IntOp.andi (IntOp.cmpi .sge (col (hR.lift (ix1 e) (0 : Fin 1))) 0#32)
      (IntOp.cmpi .sle (col (hR.lift (ix1 e) (0 : Fin 1))) 511#32)) 1#1 = 1#1
    rw [hl, hcol, sge_zero_node, sle_511_node]
    rfl
  have hsel : takeF (F := Ideal) xw idx (ix2 e d)
      = Scalar.select (broadcastInDim S262144x128 ![0] bcast_S262144_S262144x128_0
          (Host.reduce IntOp.andi
            (andi (cmpi .sge col (broadcastInDim S262144x1 ![] bcast_S_S262144x1 (constantI S_ 32 0#32)))
              (cmpi .sle col (broadcastInDim S262144x1 ![0, 1] bcast_S1x1_S262144x1_0_1
                (broadcastInDim S1x1 ![1] bcast_S1_S1x1_1 (constantI S1 32 511#32)))))
            (constantI S_ 1 1#1) reducesTo_S262144x1_S262144_d1 h_S_) (ix2 e d))
        (Host.gather gather_S512x128_S262144x1_S262144x128_1_0_n_n_0_1_1128 xw col (ix2 e d))
        (broadcastInDim S262144x128 ![] bcast_S_S262144x128 (constant (F := Ideal) S_ .f32 0x7FC00000#32) (ix2 e d)) := by
    rw [← hc]
    rfl
  rw [hsel]
  rw [broadcastInDim_apply ![0] bcast_S262144_S262144x128_0 _ (ix2 e d) (ix1 e) (fun a => by
    match a with
    | ⟨0, _⟩ => rfl), hok, select_one]
  refine (gather_rows2_apply (by norm_num : 0 < 512) gather_S512x128_S262144x1_S262144x128_1_0_n_n_0_1_1128_wf
    xw col e d).trans ?_
  refine congrArg (fun r => xw (ix2 r d)) (Fin.ext ?_)
  show min (col (ix2 e (0 : Fin 1))).toInt.toNat (512 - 1) = s.val
  rw [hcol, toInt_node]
  have := s.isLt
  omega

end Cert.ReferenceIdeal.LayerValue

end
-- ==== Proof.LibRowScatter.lean ====
/-
  AN ACCUMULATING SCATTER OF WHOLE ROWS READ AT AN INDEX.

  An array `x[n, c]` receives rows `upd[e, ·]` at the row numbers `idx[e, 0]` by an accumulating scatter
  (`x.at[idx].add(upd)`: update axis 1 is the window axis going to operand axis 1, update axis 0 runs over the row
  numbers, whose one component is the start on operand axis 0). At the ideal instance the result at `(n, c)` is
  `x[n, c] + ∑ upd[e, c]` over the `e` whose row number, read signed and not clamped, is `n` (a row number outside the
  array contributes nothing): `scatterAdd_rows_apply`. On the way: when a scatter's result index for an update index
  is a given operand index (`resultIdx?_eq_some_iff`), and that criterion for the row scatter (`rowAdd_resultIdx?_iff`).
-/
import Idealize.ShloMosaic.PureOps.Ideal
import Idealize.ShloMosaic.Lib.ValueIdx

noncomputable section

open scoped BigOperators

namespace Idealize.ShloMosaic.RowScatter

open Idealize.ShloMosaic Idealize.ShloMosaic.ValueIdx

/-- A scatter's result index for update index `u` is the operand index `p` exactly when, on every operand axis, the
    start (read signed, not clamped) plus the window coordinate is `p`'s coordinate. -/
theorem resultIdx?_eq_some_iff {s si u : Shape} (d : ScatterDims s si u) {w : Nat} (j : u.Idx) (idx : IVec si w)
    (p : s.Idx) :
    d.resultIdx? j idx = some p ↔ ∀ a, d.start j idx a + (d.window j a : Int) = ((p a).val : Int) := by
  unfold ScatterDims.resultIdx?
  constructor
  · intro h a
    split at h
    · rename_i hh
      have hp := Option.some.inj h
      subst hp
      exact (Int.toNat_of_nonneg (hh a).1).symm
    · exact absurd h (by simp)
  · intro h
    have hh : ∀ a, 0 ≤ d.start j idx a + (d.window j a : Int) ∧ d.start j idx a + (d.window j a : Int) < s.size a := by
      intro a
      rw [h a]
      exact ⟨Int.natCast_nonneg _, by exact_mod_cast (p a).isLt⟩
    rw [dif_pos hh]
    congr 1
    funext a
    refine Fin.ext ?_
    show (d.start j idx a + (d.window j a : Int)).toNat = (p a).val
    rw [h a, Int.toNat_natCast]

/-- The dimension numbers of a scatter of rows `[E, C]` into an operand `[N, C]` at the row numbers `[E, 1]`: update
    axis 1 is the window axis going to operand axis 1, update axis 0 runs over the row numbers, whose one component is
    the start on operand axis 0. -/
abbrev rowAdd (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ :=
  { updateWindowDims := [1], insertedWindowDims := [0], scatterDimsToOperandDims := [0], indexVectorDim := 1,
    wf := wf }

/-- Update `(e, c')` of the row scatter lands on `(n, c)` exactly when row number `e`, read signed, is `n` and
    `c' = c`. -/
theorem rowAdd_resultIdx?_iff {N E C w : Nat}
    (wf : ScatterDims.WF ⟨2, ![N, C]⟩ ⟨2, ![E, 1]⟩ ⟨2, ![E, C]⟩ [1] [0] [0] 1)
    (idx : IVec ⟨2, ![E, 1]⟩ w) (e : Fin E) (c' : Fin C) (n : Fin N) (c : Fin C) :
    (rowAdd N E C wf).resultIdx? (ix2 e c') idx = some (ix2 n c)
      ↔ (idx (ix2 e (0 : Fin 1))).toInt = (n.val : Int) ∧ c' = c := by
  rw [resultIdx?_eq_some_iff]
  have h0 : (rowAdd N E C wf).start (ix2 e c') idx 0 + ((rowAdd N E C wf).window (ix2 e c') 0 : Int)
      = (idx (ix2 e (0 : Fin 1))).toInt := by
    unfold ScatterDims.start
    have m0 : (0 : Fin 2) ∈ (rowAdd N E C wf).scatterDimsToOperandDims := (by decide : (0 : Fin 2) ∈ [(0 : Fin 2)])
    rw [dif_pos m0]
    have hw : (rowAdd N E C wf).window (ix2 e c') 0 = 0 := rfl
    rw [hw, Int.natCast_zero, Int.add_zero]
    congr 2
    funext a; refine Fin.ext ?_
    match a with
    | ⟨0, _⟩ => rfl
    | ⟨1, _⟩ => rfl
  have h1 : (rowAdd N E C wf).start (ix2 e c') idx 1 + ((rowAdd N E C wf).window (ix2 e c') 1 : Int) = (c'.val : Int) := by
    unfold ScatterDims.start
    have n1 : ¬ ((1 : Fin 2) ∈ (rowAdd N E C wf).scatterDimsToOperandDims) := (by decide : ¬ ((1 : Fin 2) ∈ [(0 : Fin 2)]))
    rw [dif_neg n1, Int.zero_add]
    rfl
  constructor
  · intro h
    have e0 := h 0
    have e1 := h 1
    rw [h0] at e0
    rw [h1] at e1
    exact ⟨e0, Fin.ext (by exact_mod_cast e1)⟩
  · rintro ⟨hl, rfl⟩ a
    match a with
    | ⟨0, _⟩ => exact h0.trans hl
    | ⟨1, _⟩ => exact h1

/-- THE ROW SCATTER READ AT `(n, c)`, at the ideal instance: the operand there plus the sum of the updates `upd[e, c]`
    over the `e` whose row number is `n`. -/
theorem scatterAdd_rows_apply {N E C w : Nat}
    (wf : ScatterDims.WF ⟨2, ![N, C]⟩ ⟨2, ![E, 1]⟩ ⟨2, ![E, C]⟩ [1] [0] [0] 1) {φ : FTy}
    (x : FVec Ideal ⟨2, ![N, C]⟩ φ) (idx : IVec ⟨2, ![E, 1]⟩ w) (upd : FVec Ideal ⟨2, ![E, C]⟩ φ)
    (n : Fin N) (c : Fin C) :
    Host.scatterAdd (F := Ideal) (rowAdd N E C wf) x idx upd (ix2 n c)
      = x (ix2 n c) + ∑ e ∈ Finset.univ.filter (fun e : Fin E => (idx (ix2 e (0 : Fin 1))).toInt = (n.val : Int)),
          upd (ix2 e c) := by
  unfold Host.scatterAdd
  rw [Ideal.hostScatterAdd_def]
  unfold Ideal.hostScatterAdd
  refine congrArg (x (ix2 n c) + ·) ?_
  rw [Finset.sum_filter, Finset.sum_filter, sum_idx2]
  refine Finset.sum_congr rfl fun e _ => ?_
  by_cases hl : (idx (ix2 e (0 : Fin 1))).toInt = (n.val : Int)
  · rw [if_pos hl, Finset.sum_eq_single c]
    · rw [if_pos ((rowAdd_resultIdx?_iff wf idx e c n c).2 ⟨hl, rfl⟩)]
    · intro c' _ hne
      rw [if_neg (fun h => hne ((rowAdd_resultIdx?_iff wf idx e c' n c).1 h).2)]
    · intro h
      exact absurd (Finset.mem_univ c) h
  · rw [if_neg hl]
    refine Finset.sum_eq_zero fun c' _ => ?_
    rw [if_neg (fun h => hl ((rowAdd_resultIdx?_iff wf idx e c' n c).1 h).1)]

/-- The conditions on the dimension numbers are decided at literal sizes. -/
example {φ : FTy} (x : FVec Ideal ⟨2, ![512, 128]⟩ φ) (idx : IVec ⟨2, ![4096, 1]⟩ 32)
    (upd : FVec Ideal ⟨2, ![4096, 128]⟩ φ) (n : Fin 512) (c : Fin 128) :
    Host.scatterAdd (F := Ideal) (rowAdd 512 4096 128 (by decide)) x idx upd (ix2 n c)
      = x (ix2 n c) + ∑ e ∈ Finset.univ.filter (fun e : Fin 4096 => (idx (ix2 e (0 : Fin 1))).toInt = (n.val : Int)),
          upd (ix2 e c) :=
  scatterAdd_rows_apply _ x idx upd n c

end Idealize.ShloMosaic.RowScatter

end
-- ==== Proof.RScatter.lean ====
/-
  THE MESSAGE SUM.  The scatter of the weighted picked rows into the rows named by the edges' destinations, read at
  (n, d): the zero it starts from plus the sum, over the edges whose destination is n, of weight times picked row.
  Edge number e = 512·s + n' has destination n' and source s, so the edges with destination n are exactly 512·s + n
  for the 512 sources s, and the sum is the sum over s of a s n times (x·W) s d.
-/
import proofs.«175100_g37074157699472_cont_sun_c4_777_8_alg».proof.Proof.RTake
import proofs.«175100_g37074157699472_cont_sun_c4_777_8_alg».proof.Proof.LibRowScatter
import proofs.«175100_g37074157699472_cont_sun_c4_777_8_alg».proof.Proof.Spec
import Idealize.ShloMosaic.Lib.StackMember

noncomputable section

open scoped BigOperators

namespace Cert.ReferenceIdeal.LayerValue

open Idealize.ShloMosaic Idealize.ShloMosaic.ValueIdx Cert.ReferenceIdeal Cert.ReferenceIdeal.Gen Cert.ReferenceIdeal.Term
open Idealize.ShloMosaic.RowScatter

/-- Pairs (source, destination) against edge numbers. -/
def edgeEquiv : Fin 512 × Fin 512 ≃ Fin 262144 where
  toFun p := edge p.1 p.2
  invFun e := (⟨e.val / 512, by have := e.isLt; omega⟩, ⟨e.val % 512, Nat.mod_lt _ (by norm_num)⟩)
  left_inv p := by
    obtain ⟨s, n⟩ := p
    have := s.isLt
    have := n.isLt
    refine Prod.ext (Fin.ext ?_) (Fin.ext ?_)
    · show (512 * s.val + n.val) / 512 = s.val
      omega
    · show (512 * s.val + n.val) % 512 = n.val
      omega
  right_inv e := edge_divMod e

/-- A sum over the edges whose destination word reads n is the sum over the sources s of the term at edge 512·s + n,
    when the destination word of edge 512·s + n' is the word of n'. -/
theorem sum_dest {M : Type} [AddCommMonoid M] (idx : IVec S262144x1 32)
    (hidx : ∀ s n : Fin 512, idx (ix2 (edge s n) (0 : Fin 1)) = BitVec.ofNat 32 n.val) (f : Fin 262144 → M) (n : Fin 512) :
    ∑ e ∈ Finset.univ.filter (fun e : Fin 262144 => (idx (ix2 e (0 : Fin 1))).toInt = (n.val : Int)), f e
      = ∑ s : Fin 512, f (edge s n) := by
  rw [Finset.sum_filter, ← Equiv.sum_comp edgeEquiv, Fintype.sum_prod_type]
  refine Finset.sum_congr rfl fun s _ => ?_
  show ∑ n' : Fin 512, (if (idx (ix2 (edge s n') (0 : Fin 1))).toInt = (n.val : Int) then f (edge s n') else 0)
    = f (edge s n)
  rw [Finset.sum_eq_single n]
  · rw [if_pos (by rw [hidx, toInt_node])]
  · intro n' _ hne
    rw [if_neg]
    rw [hidx, toInt_node]
    intro h
    exact hne (Fin.ext (by exact_mod_cast h))
  · intro h
    exact absurd (Finset.mem_univ n) h

/-- The aggregated messages of one layer, in the host operations' own spelling. -/
def aggF (x : (⟨S512x128, .f32⟩ : BufTy).Contents (Elt Ideal)) (w : (⟨S262144, .f32⟩ : BufTy).Contents (Elt Ideal))
    (src dst : (⟨S262144, .i32⟩ : BufTy).Contents (Elt Ideal)) (W : (⟨S128x128, .f32⟩ : BufTy).Contents (Elt Ideal)) :
    (⟨S512x128, .f32⟩ : BufTy).Contents (Elt Ideal) :=
  Host.scatterAdd scatter_S512x128_S262144x1_S262144x128_1_0_0_1
    (broadcastInDim S512x128 ![] bcast_S_S512x128 (constant S_ .f32 0x00000000#32))
    (broadcastInDim S262144x1 ![0] bcast_S262144_S262144x1_0
      (select (cmpi .slt dst (broadcastInDim S262144 ![] bcast_S_S262144 (constantI S_ 32 0#32)))
        (addi dst (broadcastInDim S262144 ![] bcast_S_S262144 (constantI S_ 32 512#32))) dst))
    (mulf (broadcastInDim S262144x128 ![0, 1] bcast_S262144x1_S262144x128_0_1
        (broadcastInDim S262144x1 ![0] bcast_S262144_S262144x1_0 w))
      (takeF (Host.dotGeneral (φ₁ := .f32) (φ₂ := .f32) dot_S512x128_S128x128_S512x128_1_0_0_1_n_n none x W) src))

/-- The product x·W at (s, d), for arrays of real numbers. -/
theorem xw_apply (x : (⟨S512x128, .f32⟩ : BufTy).Contents (Elt Ideal)) (W : (⟨S128x128, .f32⟩ : BufTy).Contents (Elt Ideal))
    (xr : Fin 512 → Fin 128 → ℝ) (Wr : Fin 128 → Fin 128 → ℝ)
    (hx : ∀ (n : Fin 512) (d : Fin 128), x (ix2 n d) = ((xr n d : ℝ) : EReal))
    (hW : ∀ (k d : Fin 128), W (ix2 k d) = ((Wr k d : ℝ) : EReal)) (s : Fin 512) (d : Fin 128) :
    Host.dotGeneral (F := Ideal) (φ₁ := .f32) (φ₂ := .f32) dot_S512x128_S128x128_S512x128_1_0_0_1_n_n none x W (ix2 s d)
      = ((∑ k : Fin 128, xr s k * Wr k d : ℝ) : EReal) := by
  refine (StackMember.dotGeneral_plain_apply (m := 512) (n := 128) (k := 128) (φ₁ := .f32) (φ₂ := .f32) none x W s d).trans ?_
  rw [← Cert.Gnn.coe_sum]
  refine Finset.sum_congr rfl fun k _ => ?_
  rw [hx, hW, EReal.coe_mul]

/-- A vector over the edges spread over the features reads, at (e, d), its entry e. -/
theorem edgeBcast_apply {α : Type} (v : S262144.Idx → α) (e : Fin 262144) (d : Fin 128) :
    broadcastInDim S262144x128 ![0, 1] bcast_S262144x1_S262144x128_0_1
      (broadcastInDim S262144x1 ![0] bcast_S262144_S262144x1_0 v) (ix2 e d) = v (ix1 e) := by
  refine (broadcastInDim_apply ![0, 1] bcast_S262144x1_S262144x128_0_1 _ (ix2 e d) (ix2 e (0 : Fin 1)) (fun a => ?_)).trans ?_
  · match a with
    | ⟨0, _⟩ => rfl
    | ⟨1, _⟩ => rfl
  · refine broadcastInDim_apply ![0] bcast_S262144_S262144x1_0 v (ix2 e (0 : Fin 1)) (ix1 e) (fun a => ?_)
    match a with
    | ⟨0, _⟩ => rfl

/-- THE MESSAGE SUM at (n, d): the sum over the sources s of a s n times (x·W) s d. -/
theorem aggF_apply (x : (⟨S512x128, .f32⟩ : BufTy).Contents (Elt Ideal)) (w : (⟨S262144, .f32⟩ : BufTy).Contents (Elt Ideal))
    (W : (⟨S128x128, .f32⟩ : BufTy).Contents (Elt Ideal))
    (xr : Fin 512 → Fin 128 → ℝ) (ar : Fin 512 → Fin 512 → ℝ) (Wr : Fin 128 → Fin 128 → ℝ)
    (hx : ∀ (n : Fin 512) (d : Fin 128), x (ix2 n d) = ((xr n d : ℝ) : EReal))
    (hw : ∀ (s n : Fin 512), w (ix1 (edge s n)) = ((ar s n : ℝ) : EReal))
    (hW : ∀ (k d : Fin 128), W (ix2 k d) = ((Wr k d : ℝ) : EReal)) (n : Fin 512) (d : Fin 128) :
    aggF x w srcF dstF W (ix2 n d) = ((∑ s : Fin 512, ar s n * ∑ k : Fin 128, xr s k * Wr k d : ℝ) : EReal) := by
  unfold aggF
  refine (scatterAdd_rows_apply scatter_S512x128_S262144x1_S262144x128_1_0_0_1_wf _ _ _ n d).trans ?_
  rw [sum_dest _ (fun s n' => wrapCol_apply dstF (edge s n') n' (dstF_apply s n'))]
  rw [broadcastInDim_scalar_apply, constant_apply, Cert.Gnn.ofBits_zero, EReal.coe_zero, zero_add, ← Cert.Gnn.coe_sum]
  refine Finset.sum_congr rfl fun s _ => ?_
  show broadcastInDim S262144x128 ![0, 1] bcast_S262144x1_S262144x128_0_1
      (broadcastInDim S262144x1 ![0] bcast_S262144_S262144x1_0 w) (ix2 (edge s n) d)
    * takeF (Host.dotGeneral (F := Ideal) (φ₁ := .f32) (φ₂ := .f32) dot_S512x128_S128x128_S512x128_1_0_0_1_n_n none x W)
        srcF (ix2 (edge s n) d) = _
  rw [takeF_apply _ srcF (edge s n) s d (srcF_apply s n), xw_apply x W xr Wr hx hW s d, edgeBcast_apply, hw,
    ← EReal.coe_mul]

end Cert.ReferenceIdeal.LayerValue

end
-- ==== Proof.RNorm.lean ====
/-
  THE ROW NORMALISATION.  For an array z of real numbers: the row sums are finite sums of reals; the mean is the row sum
  over 128; the library variance, with zero degrees of freedom removed, divides by 128 − 0 = 128, which is positive, so
  its guard takes the quotient and not the fill pattern; variance plus eps is positive, so the square root is the
  real square root and the quotient by it is the product with its reciprocal; then scale, shift, and the floor at zero.
-/
import proofs.«175100_g37074157699472_cont_sun_c4_777_8_alg».proof.Proof.RIndex
import proofs.«175100_g37074157699472_cont_sun_c4_777_8_alg».proof.Proof.Spec

noncomputable section

open scoped BigOperators

namespace Cert.ReferenceIdeal.LayerValue

open Idealize.ShloMosaic Idealize.ShloMosaic.ValueIdx Cert.ReferenceIdeal Cert.ReferenceIdeal.Gen Cert.ReferenceIdeal.Term
open Cert.Gnn

/-! ## Broadcasts read at an index -/

/-- A vector over the features spread over the rows reads, at (n, d), its entry d. -/
theorem rowBcast_apply {α : Type} (v : S128.Idx → α) (n : Fin 512) (d : Fin 128) :
    broadcastInDim S512x128 ![0, 1] bcast_S1x128_S512x128_0_1 (broadcastInDim S1x128 ![1] bcast_S128_S1x128_1 v) (ix2 n d)
      = v (ix1 d) := by
  refine (broadcastInDim_apply ![0, 1] bcast_S1x128_S512x128_0_1 _ (ix2 n d) (ix2 (0 : Fin 1) d) (fun a => ?_)).trans ?_
  · match a with
    | ⟨0, _⟩ => rfl
    | ⟨1, _⟩ => rfl
  · refine broadcastInDim_apply ![1] bcast_S128_S1x128_1 v (ix2 (0 : Fin 1) d) (ix1 d) (fun a => ?_)
    match a with
    | ⟨0, _⟩ => rfl

/-- A column over the rows spread over the features reads, at (n, d), its entry n. -/
theorem colBcast_apply {α : Type} (v : S512x1.Idx → α) (n : Fin 512) (d : Fin 128) :
    broadcastInDim S512x128 ![0, 1] bcast_S512x1_S512x128_0_1 v (ix2 n d) = v (ix2 n (0 : Fin 1)) := by
  refine broadcastInDim_apply ![0, 1] bcast_S512x1_S512x128_0_1 v (ix2 n d) (ix2 n (0 : Fin 1)) (fun a => ?_)
  match a with
  | ⟨0, _⟩ => rfl
  | ⟨1, _⟩ => rfl

/-- A vector over the rows as a column reads, at (n, 0), its entry n. -/
theorem toCol_apply {α : Type} (v : S512.Idx → α) (n : Fin 512) :
    broadcastInDim S512x1 ![0] bcast_S512_S512x1_0 v (ix2 n (0 : Fin 1)) = v (ix1 n) := by
  refine broadcastInDim_apply ![0] bcast_S512_S512x1_0 v (ix2 n (0 : Fin 1)) (ix1 n) (fun a => ?_)
  match a with
  | ⟨0, _⟩ => rfl

/-! ## Sums, mean, variance -/

/-- The row sums of an array of real numbers. -/
theorem rowSum_apply (v : (⟨S512x128, .f32⟩ : BufTy).Contents (Elt Ideal)) (vr : Fin 512 → Fin 128 → ℝ)
    (hv : ∀ (n : Fin 512) (d : Fin 128), v (ix2 n d) = ((vr n d : ℝ) : EReal)) (n : Fin 512) :
    Host.reduceAdd (F := Ideal) (φ := .f32) v (constant S_ .f32 0x00000000#32) reducesTo_S512x128_S512_d1 h_S_ (ix1 n)
      = ((∑ d : Fin 128, vr n d : ℝ) : EReal) := by
  have hR : S512x128.Reduces [1] S512 := by decide
  show Ideal.hostReduceAdd reducesTo_S512x128_S512_d1 v (Ideal.ofBits .f32 0x00000000#32) (ix1 n) = _
  rw [Ideal.hostReduceAdd_single reducesTo_S512x128_S512_d1 hR, ofBits_zero, EReal.coe_zero, zero_add, ← coe_sum]
  show ∑ k : Fin 128, v (hR.lift (ix1 n) k) = _
  refine Finset.sum_congr rfl fun k _ => ?_
  have hl : hR.lift (ix1 n) k = ix2 n k := by
    funext a; refine Fin.ext ?_
    match a with
    | ⟨0, _⟩ => rfl
    | ⟨1, _⟩ => rfl
  rw [hl, hv]

/-- The row means, in the host operations' own spelling. -/
def muF (z : (⟨S512x128, .f32⟩ : BufTy).Contents (Elt Ideal)) : (⟨S512x1, .f32⟩ : BufTy).Contents (Elt Ideal) :=
  Host.divf (F := Ideal) (φ := .f32) (broadcastInDim S512x1 ![0] bcast_S512_S512x1_0
      (Host.reduceAdd (F := Ideal) (φ := .f32) z (constant S_ .f32 0x00000000#32) reducesTo_S512x128_S512_d1 h_S_))
    (broadcastInDim S512x1 ![] bcast_S_S512x1 (constant (F := Ideal) S_ .f32 0x43000000#32))

/-- The row mean of an array of real numbers. -/
theorem muF_apply (z : (⟨S512x128, .f32⟩ : BufTy).Contents (Elt Ideal)) (zr : Fin 512 → Fin 128 → ℝ)
    (hz : ∀ (n : Fin 512) (d : Fin 128), z (ix2 n d) = ((zr n d : ℝ) : EReal)) (n : Fin 512) :
    muF z (ix2 n (0 : Fin 1)) = ((muR zr n : ℝ) : EReal) := by
  show Ideal.div (broadcastInDim S512x1 ![0] bcast_S512_S512x1_0
      (Host.reduceAdd (F := Ideal) (φ := .f32) z (constant S_ .f32 0x00000000#32) reducesTo_S512x128_S512_d1 h_S_)
        (ix2 n (0 : Fin 1)))
    (broadcastInDim S512x1 ![] bcast_S_S512x1 (constant (F := Ideal) S_ .f32 0x43000000#32) (ix2 n (0 : Fin 1))) = _
  rw [toCol_apply, rowSum_apply z zr hz n, broadcastInDim_scalar_apply, constant_apply, ofBits_128, div_128]
  rfl

/-- The divisor of the variance: 128 minus zero degrees of freedom. -/
theorem divisor_apply (j : S_.Idx) :
    subf (F := Ideal) (φ := .f32) (constant (F := Ideal) S_ .f32 0x43000000#32) (sitofp (F := Ideal) .f32 (constantI S_ 32 0#32)) j
      = ((128 : ℝ) : EReal) := by
  show Ideal.ofBits .f32 0x43000000#32 - ((((0#32 : BitVec 32).toInt : ℝ)) : EReal) = _
  rw [ofBits_128, show (0#32 : BitVec 32).toInt = 0 from by decide, Int.cast_zero, ← EReal.coe_sub, sub_zero]

/-- The row variance of an array of real numbers, with zero degrees of freedom removed. -/
theorem varF_apply (z : (⟨S512x128, .f32⟩ : BufTy).Contents (Elt Ideal)) (zr : Fin 512 → Fin 128 → ℝ)
    (hz : ∀ (n : Fin 512) (d : Fin 128), z (ix2 n d) = ((zr n d : ℝ) : EReal)) (n : Fin 512) :
    varF (F := Ideal) z (constantI S_ 32 0#32) (ix2 n (0 : Fin 1)) = ((varR zr n : ℝ) : EReal) := by
  have hsel : varF (F := Ideal) z (constantI S_ 32 0#32) (ix2 n (0 : Fin 1))
      = Scalar.select
          (broadcastInDim S512x1 ![] bcast_S_S512x1
            (cmpf (F := Ideal) (φ := .f32) .ogt (subf (F := Ideal) (φ := .f32) (constant (F := Ideal) S_ .f32 0x43000000#32) (sitofp (F := Ideal) .f32 (constantI S_ 32 0#32)))
              (constant (F := Ideal) S_ .f32 0x00000000#32)) (ix2 n (0 : Fin 1)))
          (Ideal.div
            (broadcastInDim S512x1 ![0] bcast_S512_S512x1_0
              (Host.reduceAdd (F := Ideal) (φ := .f32)
                (mulf (F := Ideal) (φ := .f32)
                  (subf (F := Ideal) (φ := .f32) z (broadcastInDim S512x128 ![0, 1] bcast_S512x1_S512x128_0_1 (muF z)))
                  (subf (F := Ideal) (φ := .f32) z (broadcastInDim S512x128 ![0, 1] bcast_S512x1_S512x128_0_1 (muF z))))
                (constant S_ .f32 0x00000000#32) reducesTo_S512x128_S512_d1 h_S_) (ix2 n (0 : Fin 1)))
            (broadcastInDim S512x1 ![] bcast_S_S512x1
              (subf (F := Ideal) (φ := .f32) (constant (F := Ideal) S_ .f32 0x43000000#32)
                (sitofp (F := Ideal) .f32 (constantI S_ 32 0#32)))
              (ix2 n (0 : Fin 1))))
          (broadcastInDim S512x1 ![] bcast_S_S512x1 (id (constant (F := Ideal) S_ .f32 0x7FC00000#32)) (ix2 n (0 : Fin 1))) :=
    rfl
  rw [hsel]
  have hpos : broadcastInDim S512x1 ![] bcast_S_S512x1
      (cmpf (F := Ideal) (φ := .f32) .ogt (subf (F := Ideal) (φ := .f32) (constant (F := Ideal) S_ .f32 0x43000000#32) (sitofp (F := Ideal) .f32 (constantI S_ 32 0#32)))
        (constant S_ .f32 0x00000000#32)) (ix2 n (0 : Fin 1)) = 1#1 := by
    rw [broadcastInDim_scalar_apply]
    show Ideal.cmp .ogt (subf (F := Ideal) (φ := .f32) (constant (F := Ideal) S_ .f32 0x43000000#32)
        (sitofp (F := Ideal) .f32 (constantI S_ 32 0#32)) ix0)
      (Ideal.ofBits .f32 0x00000000#32) = 1#1
    rw [divisor_apply, ofBits_zero]
    show BitVec.ofBool (decide (((0 : ℝ) : EReal) < ((128 : ℝ) : EReal))) = 1#1
    rw [decide_eq_true (EReal.coe_lt_coe_iff.2 (by norm_num))]
    rfl
  rw [hpos, select_one, toCol_apply, broadcastInDim_scalar_apply, divisor_apply]
  rw [rowSum_apply _ (fun n d => (zr n d - muR zr n) * (zr n d - muR zr n)) (fun n' d => by
    show (z (ix2 n' d) - broadcastInDim S512x128 ![0, 1] bcast_S512x1_S512x128_0_1 (muF z) (ix2 n' d))
      * (z (ix2 n' d) - broadcastInDim S512x128 ![0, 1] bcast_S512x1_S512x128_0_1 (muF z) (ix2 n' d)) = _
    rw [colBcast_apply, muF_apply z zr hz n', hz, ← EReal.coe_sub, ← EReal.coe_mul]) n, div_128]
  rfl

/-! ## The normalised, scaled, shifted and floored array -/

/-- The normalisation of one layer, in the host operations' own spelling. -/
def normF (z : (⟨S512x128, .f32⟩ : BufTy).Contents (Elt Ideal)) (g t : (⟨S128, .f32⟩ : BufTy).Contents (Elt Ideal)) : (⟨S512x128, .f32⟩ : BufTy).Contents (Elt Ideal) :=
  reluF (F := Ideal) (addf (F := Ideal) (φ := .f32)
    (mulf (F := Ideal) (φ := .f32)
      (Host.divf (F := Ideal) (φ := .f32)
        (subf (F := Ideal) (φ := .f32) z (broadcastInDim S512x128 ![0, 1] bcast_S512x1_S512x128_0_1 (muF z)))
        (broadcastInDim S512x128 ![0, 1] bcast_S512x1_S512x128_0_1
          (Host.sqrt (F := Ideal) (φ := .f32) (addf (F := Ideal) (φ := .f32) (varF (F := Ideal) z (constantI S_ 32 0#32))
            (broadcastInDim S512x1 ![] bcast_S_S512x1 (constant (F := Ideal) S_ .f32 0x3727C5AC#32))))))
      (broadcastInDim S512x128 ![0, 1] bcast_S1x128_S512x128_0_1 (broadcastInDim S1x128 ![1] bcast_S128_S1x128_1 g)))
    (broadcastInDim S512x128 ![0, 1] bcast_S1x128_S512x128_0_1 (broadcastInDim S1x128 ![1] bcast_S128_S1x128_1 t)))

/-- THE NORMALISATION of an array of real numbers, at (n, d). -/
theorem normF_apply (z : (⟨S512x128, .f32⟩ : BufTy).Contents (Elt Ideal)) (g t : (⟨S128, .f32⟩ : BufTy).Contents (Elt Ideal))
    (zr : Fin 512 → Fin 128 → ℝ) (gr tr : Fin 128 → ℝ)
    (hz : ∀ (n : Fin 512) (d : Fin 128), z (ix2 n d) = ((zr n d : ℝ) : EReal))
    (hg : ∀ d : Fin 128, g (ix1 d) = ((gr d : ℝ) : EReal)) (ht : ∀ d : Fin 128, t (ix1 d) = ((tr d : ℝ) : EReal))
    (n : Fin 512) (d : Fin 128) :
    normF z g t (ix2 n d) = ((normR zr gr tr n d : ℝ) : EReal) := by
  show max
      (Ideal.div (z (ix2 n d) - broadcastInDim S512x128 ![0, 1] bcast_S512x1_S512x128_0_1 (muF z) (ix2 n d))
          (broadcastInDim S512x128 ![0, 1] bcast_S512x1_S512x128_0_1
            (Host.sqrt (F := Ideal) (φ := .f32) (addf (F := Ideal) (φ := .f32) (varF (F := Ideal) z (constantI S_ 32 0#32))
              (broadcastInDim S512x1 ![] bcast_S_S512x1 (constant (F := Ideal) S_ .f32 0x3727C5AC#32)))) (ix2 n d))
        * broadcastInDim S512x128 ![0, 1] bcast_S1x128_S512x128_0_1
            (broadcastInDim S1x128 ![1] bcast_S128_S1x128_1 g) (ix2 n d)
        + broadcastInDim S512x128 ![0, 1] bcast_S1x128_S512x128_0_1
            (broadcastInDim S1x128 ![1] bcast_S128_S1x128_1 t) (ix2 n d))
      (broadcastInDim S512x128 ![] bcast_S_S512x128 (constant (F := Ideal) S_ .f32 0x00000000#32) (ix2 n d)) = _
  rw [colBcast_apply, colBcast_apply, rowBcast_apply, rowBcast_apply, broadcastInDim_scalar_apply, constant_apply,
    ofBits_zero, muF_apply z zr hz n, hz, hg, ht]
  show max (Ideal.div (((zr n d : ℝ) : EReal) - ((muR zr n : ℝ) : EReal))
      (Ideal.sqrt (varF (F := Ideal) z (constantI S_ 32 0#32) (ix2 n (0 : Fin 1))
        + broadcastInDim S512x1 ![] bcast_S_S512x1 (constant (F := Ideal) S_ .f32 0x3727C5AC#32) (ix2 n (0 : Fin 1))))
      * ((gr d : ℝ) : EReal) + ((tr d : ℝ) : EReal)) ((0 : ℝ) : EReal) = _
  rw [varF_apply z zr hz n, broadcastInDim_scalar_apply, constant_apply, ofBits_eps, ← EReal.coe_sub, ← EReal.coe_add,
    div_sqrt_pos _ (var_eps_pos zr n), ← EReal.coe_mul, ← EReal.coe_add, max_zero]
  rfl

end Cert.ReferenceIdeal.LayerValue

end
-- ==== Proof.RLayer.lean ====
/-
  ONE LAYER, ASSEMBLED.  One layer of the edge-by-edge computation is the row normalisation applied to messages plus
  bias plus residual (the same host operations, grouped); and for arrays of real numbers messages plus bias plus
  residual, read at (n, d), is the real number z n d of the specification.
-/
import proofs.«175100_g37074157699472_cont_sun_c4_777_8_alg».proof.Proof.RScatter
import proofs.«175100_g37074157699472_cont_sun_c4_777_8_alg».proof.Proof.RNorm

noncomputable section

open scoped BigOperators

namespace Cert.ReferenceIdeal.LayerValue

open Idealize.ShloMosaic Idealize.ShloMosaic.ValueIdx Cert.ReferenceIdeal Cert.ReferenceIdeal.Gen Cert.ReferenceIdeal.Term

/-- Messages plus bias plus residual, in the host operations' own spelling. -/
def preNormF (x : FVec Ideal S512x128 .f32) (w : FVec Ideal S262144 .f32) (src dst : IVec S262144 32) (W : FVec Ideal S128x128 .f32)
    (b : FVec Ideal S128 .f32) : FVec Ideal S512x128 .f32 :=
  addf (F := Ideal) (φ := .f32) (addf (F := Ideal) (φ := .f32) (aggF x w src dst W)
    (broadcastInDim S512x128 ![0, 1] bcast_S1x128_S512x128_0_1 (broadcastInDim S1x128 ![1] bcast_S128_S1x128_1 b))) x

/-- One layer is the normalisation of messages plus bias plus residual. -/
theorem refLayer_eq (x : FVec Ideal S512x128 .f32) (w : FVec Ideal S262144 .f32) (src dst : IVec S262144 32) (W : FVec Ideal S128x128 .f32)
    (b g t : FVec Ideal S128 .f32) :
    refLayer (F := Ideal) x w src dst W b g t = normF (preNormF x w src dst W b) g t := rfl

/-- Messages plus bias plus residual of arrays of real numbers, at (n, d). -/
theorem preNormF_apply (x : FVec Ideal S512x128 .f32) (w : FVec Ideal S262144 .f32) (W : FVec Ideal S128x128 .f32) (b : FVec Ideal S128 .f32)
    (xr : Fin 512 → Fin 128 → ℝ) (ar : Fin 512 → Fin 512 → ℝ) (Wr : Fin 128 → Fin 128 → ℝ) (br : Fin 128 → ℝ)
    (hx : ∀ (n : Fin 512) (d : Fin 128), x (ix2 n d) = ((xr n d : ℝ) : EReal))
    (hw : ∀ (s n : Fin 512), w (ix1 (edge s n)) = ((ar s n : ℝ) : EReal))
    (hW : ∀ (k d : Fin 128), W (ix2 k d) = ((Wr k d : ℝ) : EReal))
    (hb : ∀ d : Fin 128, b (ix1 d) = ((br d : ℝ) : EReal)) (n : Fin 512) (d : Fin 128) :
    preNormF x w (srcF (F := Ideal)) (dstF (F := Ideal)) W b (ix2 n d) = ((Cert.Gnn.zR xr ar Wr br n d : ℝ) : EReal) := by
  show aggF x w (srcF (F := Ideal)) (dstF (F := Ideal)) W (ix2 n d)
      + broadcastInDim S512x128 ![0, 1] bcast_S1x128_S512x128_0_1 (broadcastInDim S1x128 ![1] bcast_S128_S1x128_1 b) (ix2 n d)
      + x (ix2 n d) = _
  rw [aggF_apply x w W xr ar Wr hx hw hW n d, rowBcast_apply, hb, hx, ← EReal.coe_add, ← EReal.coe_add]
  rfl

end Cert.ReferenceIdeal.LayerValue

end
-- ==== Proof.RefLayerValue.lean ====
/-
  ONE LAYER AND THREE LAYERS OF THE REFERENCE AS REAL NUMBERS.  For arrays of real numbers, one layer of the edge-by-edge
  computation, read at (n, d), is the real layer of the specification: the scatter of the weighted picked rows is the
  sum over the sources of adjacency times x·W, bias and residual are added entrywise, and the row normalisation with
  scale, shift and floor at zero is the real one.  Three layers in a row with the same edges are the real network.
-/
import proofs.«175100_g37074157699472_cont_sun_c4_777_8_alg».proof.Proof.RLayer

noncomputable section

namespace Cert.ReferenceIdeal.LayerValue

open Idealize.ShloMosaic Idealize.ShloMosaic.ValueIdx Cert.ReferenceIdeal Cert.ReferenceIdeal.Gen Cert.ReferenceIdeal.Term

theorem refLayer_real (x : FVec Ideal S512x128 .f32) (w : FVec Ideal S262144 .f32) (W : FVec Ideal S128x128 .f32) (b g t : FVec Ideal S128 .f32)
    (xr : Fin 512 → Fin 128 → ℝ) (ar : Fin 512 → Fin 512 → ℝ) (Wr : Fin 128 → Fin 128 → ℝ) (br gr tr : Fin 128 → ℝ)
    (hx : ∀ (n : Fin 512) (d : Fin 128), x (ix2 n d) = ((xr n d : ℝ) : EReal))
    (hw : ∀ (s n : Fin 512), w (ix1 (⟨512 * s.val + n.val, by have := s.isLt; have := n.isLt; omega⟩ : Fin 262144)) = ((ar s n : ℝ) : EReal))
    (hW : ∀ (k d : Fin 128), W (ix2 k d) = ((Wr k d : ℝ) : EReal))
    (hb : ∀ d : Fin 128, b (ix1 d) = ((br d : ℝ) : EReal)) (hg : ∀ d : Fin 128, g (ix1 d) = ((gr d : ℝ) : EReal)) (ht : ∀ d : Fin 128, t (ix1 d) = ((tr d : ℝ) : EReal)) :
    ∀ (n : Fin 512) (d : Fin 128), refLayer (F := Ideal) x w srcF dstF W b g t (ix2 n d) = ((Cert.Gnn.layerR xr ar Wr br gr tr n d : ℝ) : EReal) := by
  intro n d
  rw [refLayer_eq]
  exact normF_apply _ g t (Cert.Gnn.zR xr ar Wr br) gr tr (preNormF_apply x w W b xr ar Wr br hx hw hW hb) hg ht n d

theorem refBatch_real (x : FVec Ideal S512x128 .f32) (w : FVec Ideal S262144 .f32) (W0 W1 W2 : FVec Ideal S128x128 .f32)
    (b0 b1 b2 g0 g1 g2 t0 t1 t2 : FVec Ideal S128 .f32)
    (xr : Fin 512 → Fin 128 → ℝ) (ar : Fin 512 → Fin 512 → ℝ) (W0r W1r W2r : Fin 128 → Fin 128 → ℝ)
    (b0r b1r b2r g0r g1r g2r t0r t1r t2r : Fin 128 → ℝ)
    (hx : ∀ (n : Fin 512) (d : Fin 128), x (ix2 n d) = ((xr n d : ℝ) : EReal))
    (hw : ∀ (s n : Fin 512), w (ix1 (⟨512 * s.val + n.val, by have := s.isLt; have := n.isLt; omega⟩ : Fin 262144)) = ((ar s n : ℝ) : EReal))
    (hW0 : ∀ (k d : Fin 128), W0 (ix2 k d) = ((W0r k d : ℝ) : EReal))
    (hW1 : ∀ (k d : Fin 128), W1 (ix2 k d) = ((W1r k d : ℝ) : EReal))
    (hW2 : ∀ (k d : Fin 128), W2 (ix2 k d) = ((W2r k d : ℝ) : EReal))
    (hb0 : ∀ d : Fin 128, b0 (ix1 d) = ((b0r d : ℝ) : EReal)) (hb1 : ∀ d : Fin 128, b1 (ix1 d) = ((b1r d : ℝ) : EReal))
    (hb2 : ∀ d : Fin 128, b2 (ix1 d) = ((b2r d : ℝ) : EReal))
    (hg0 : ∀ d : Fin 128, g0 (ix1 d) = ((g0r d : ℝ) : EReal)) (hg1 : ∀ d : Fin 128, g1 (ix1 d) = ((g1r d : ℝ) : EReal))
    (hg2 : ∀ d : Fin 128, g2 (ix1 d) = ((g2r d : ℝ) : EReal))
    (ht0 : ∀ d : Fin 128, t0 (ix1 d) = ((t0r d : ℝ) : EReal)) (ht1 : ∀ d : Fin 128, t1 (ix1 d) = ((t1r d : ℝ) : EReal))
    (ht2 : ∀ d : Fin 128, t2 (ix1 d) = ((t2r d : ℝ) : EReal)) :
    ∀ (n : Fin 512) (d : Fin 128), refBatch (F := Ideal) x w srcF dstF W0 W1 W2 b0 b1 b2 g0 g1 g2 t0 t1 t2 (ix2 n d) = ((Cert.Gnn.gnnR xr ar W0r W1r W2r b0r b1r b2r g0r g1r g2r t0r t1r t2r n d : ℝ) : EReal) :=
  refLayer_real _ w W2 b2 g2 t2 _ ar W2r b2r g2r t2r
    (refLayer_real _ w W1 b1 g1 t1 _ ar W1r b1r g1r t1r
      (refLayer_real x w W0 b0 g0 t0 xr ar W0r b0r g0r t0r hx hw hW0 hb0 hg0 ht0) hw hW1 hb1 hg1 ht1)
    hw hW2 hb2 hg2 ht2

end Cert.ReferenceIdeal.LayerValue

end
-- ==== Proof.RefOutValue.lean ====
/-
  THE REFERENCE'S SLICING AND STACKING READ AT AN ENTRY.  The reference cuts batch element b out of the node features
  (a unit-thick slice at offset b, its leading axis dropped) and out of the adjacency (the same slice, then flattened
  so that edge number 512·s + n holds entry (b, s, n)), runs the three layers on each batch element, and stacks the
  four results along a new leading axis: entry (bi, n, d) of the stack is entry (n, d) of result bi.  So if one batch
  element's three layers on real inputs are the real network, the whole result at (bi, n, d) is the real network of
  batch element bi at (n, d).
-/
import proofs.«175100_g37074157699472_cont_sun_c4_777_8_alg».proof.Proof.RefOut
import proofs.«175100_g37074157699472_cont_sun_c4_777_8_alg».proof.Proof.Spec
import Idealize.ShloMosaic.Lib.ValueIdx
import Idealize.ShloMosaic.Lib.ValueLayout
import Idealize.ShloMosaic.Lib.Pipeline.Value

noncomputable section

namespace Cert.ReferenceIdeal.OutValue

open Cert.ReferenceIdeal Cert.ReferenceIdeal.Gen Cert.ReferenceIdeal.Term Idealize.ShloMosaic Idealize.ShloMosaic.ValueIdx

/-! ## The slices -/

/-- Batch element 0's node features at (n, d). -/
theorem xB0_apply (X : FVec Ideal S4x512x128 .f32) (n : Fin 512) (d : Fin 128) :
    xB0 (F := Ideal) X (ix2 n d) = X (ix3 (⟨0, by decide⟩ : Fin 4) n d) := by
  unfold xB0
  rw [shapeCast_1ab_ab_apply]
  refine extractStridedSlice_apply _ X _ _ _ fun a => ?_
  match a with
  | ⟨0, _⟩ => show (0 : Nat) = 0 + 0; rfl
  | ⟨1, _⟩ => show n.val = 0 + n.val; omega
  | ⟨2, _⟩ => show d.val = 0 + d.val; omega

/-- Batch element 0's edge weights: edge 512·s + n holds the adjacency's entry (0, s, n). -/
theorem wB0_apply (A : FVec Ideal S4x512x512 .f32) (s n : Fin 512) :
    wB0 (F := Ideal) A (ix1 (⟨512 * s.val + n.val, by have := s.isLt; have := n.isLt; omega⟩ : Fin 262144))
      = A (ix3 (⟨0, by decide⟩ : Fin 4) s n) := by
  unfold wB0
  refine (shapeCast_apply _ shapeCasts_S512x512_S262144 _ (ix2 s n) (by
    rw [Shape.rowMajor_val_two, Shape.rowMajor_val_one]
    show s.val * 512 + n.val = 512 * s.val + n.val
    omega)).trans ?_
  rw [shapeCast_1ab_ab_apply]
  refine extractStridedSlice_apply _ A _ _ _ fun a => ?_
  match a with
  | ⟨0, _⟩ => show (0 : Nat) = 0 + 0; rfl
  | ⟨1, _⟩ => show s.val = 0 + s.val; omega
  | ⟨2, _⟩ => show n.val = 0 + n.val; omega

/-- Batch element 1's node features at (n, d). -/
theorem xB1_apply (X : FVec Ideal S4x512x128 .f32) (n : Fin 512) (d : Fin 128) :
    xB1 (F := Ideal) X (ix2 n d) = X (ix3 (⟨1, by decide⟩ : Fin 4) n d) := by
  unfold xB1
  rw [shapeCast_1ab_ab_apply]
  refine extractStridedSlice_apply _ X _ _ _ fun a => ?_
  match a with
  | ⟨0, _⟩ => show (1 : Nat) = 1 + 0; rfl
  | ⟨1, _⟩ => show n.val = 0 + n.val; omega
  | ⟨2, _⟩ => show d.val = 0 + d.val; omega

/-- Batch element 1's edge weights: edge 512·s + n holds the adjacency's entry (1, s, n). -/
theorem wB1_apply (A : FVec Ideal S4x512x512 .f32) (s n : Fin 512) :
    wB1 (F := Ideal) A (ix1 (⟨512 * s.val + n.val, by have := s.isLt; have := n.isLt; omega⟩ : Fin 262144))
      = A (ix3 (⟨1, by decide⟩ : Fin 4) s n) := by
  unfold wB1
  refine (shapeCast_apply _ shapeCasts_S512x512_S262144 _ (ix2 s n) (by
    rw [Shape.rowMajor_val_two, Shape.rowMajor_val_one]
    show s.val * 512 + n.val = 512 * s.val + n.val
    omega)).trans ?_
  rw [shapeCast_1ab_ab_apply]
  refine extractStridedSlice_apply _ A _ _ _ fun a => ?_
  match a with
  | ⟨0, _⟩ => show (1 : Nat) = 1 + 0; rfl
  | ⟨1, _⟩ => show s.val = 0 + s.val; omega
  | ⟨2, _⟩ => show n.val = 0 + n.val; omega

/-- Batch element 2's node features at (n, d). -/
theorem xB2_apply (X : FVec Ideal S4x512x128 .f32) (n : Fin 512) (d : Fin 128) :
    xB2 (F := Ideal) X (ix2 n d) = X (ix3 (⟨2, by decide⟩ : Fin 4) n d) := by
  unfold xB2
  rw [shapeCast_1ab_ab_apply]
  refine extractStridedSlice_apply _ X _ _ _ fun a => ?_
  match a with
  | ⟨0, _⟩ => show (2 : Nat) = 2 + 0; rfl
  | ⟨1, _⟩ => show n.val = 0 + n.val; omega
  | ⟨2, _⟩ => show d.val = 0 + d.val; omega

/-- Batch element 2's edge weights: edge 512·s + n holds the adjacency's entry (2, s, n). -/
theorem wB2_apply (A : FVec Ideal S4x512x512 .f32) (s n : Fin 512) :
    wB2 (F := Ideal) A (ix1 (⟨512 * s.val + n.val, by have := s.isLt; have := n.isLt; omega⟩ : Fin 262144))
      = A (ix3 (⟨2, by decide⟩ : Fin 4) s n) := by
  unfold wB2
  refine (shapeCast_apply _ shapeCasts_S512x512_S262144 _ (ix2 s n) (by
    rw [Shape.rowMajor_val_two, Shape.rowMajor_val_one]
    show s.val * 512 + n.val = 512 * s.val + n.val
    omega)).trans ?_
  rw [shapeCast_1ab_ab_apply]
  refine extractStridedSlice_apply _ A _ _ _ fun a => ?_
  match a with
  | ⟨0, _⟩ => show (2 : Nat) = 2 + 0; rfl
  | ⟨1, _⟩ => show s.val = 0 + s.val; omega
  | ⟨2, _⟩ => show n.val = 0 + n.val; omega

/-- Batch element 3's node features at (n, d). -/
theorem xB3_apply (X : FVec Ideal S4x512x128 .f32) (n : Fin 512) (d : Fin 128) :
    xB3 (F := Ideal) X (ix2 n d) = X (ix3 (⟨3, by decide⟩ : Fin 4) n d) := by
  unfold xB3
  rw [shapeCast_1ab_ab_apply]
  refine extractStridedSlice_apply _ X _ _ _ fun a => ?_
  match a with
  | ⟨0, _⟩ => show (3 : Nat) = 3 + 0; rfl
  | ⟨1, _⟩ => show n.val = 0 + n.val; omega
  | ⟨2, _⟩ => show d.val = 0 + d.val; omega

/-- Batch element 3's edge weights: edge 512·s + n holds the adjacency's entry (3, s, n). -/
theorem wB3_apply (A : FVec Ideal S4x512x512 .f32) (s n : Fin 512) :
    wB3 (F := Ideal) A (ix1 (⟨512 * s.val + n.val, by have := s.isLt; have := n.isLt; omega⟩ : Fin 262144))
      = A (ix3 (⟨3, by decide⟩ : Fin 4) s n) := by
  unfold wB3
  refine (shapeCast_apply _ shapeCasts_S512x512_S262144 _ (ix2 s n) (by
    rw [Shape.rowMajor_val_two, Shape.rowMajor_val_one]
    show s.val * 512 + n.val = 512 * s.val + n.val
    omega)).trans ?_
  rw [shapeCast_1ab_ab_apply]
  refine extractStridedSlice_apply _ A _ _ _ fun a => ?_
  match a with
  | ⟨0, _⟩ => show (3 : Nat) = 3 + 0; rfl
  | ⟨1, _⟩ => show s.val = 0 + s.val; omega
  | ⟨2, _⟩ => show n.val = 0 + n.val; omega

/-! ## The stack -/

/-- One of four, by its number. -/
def sel4 {α : Type} (o0 o1 o2 o3 : α) : Fin 4 → α
  | ⟨0, _⟩ => o0
  | ⟨1, _⟩ => o1
  | ⟨2, _⟩ => o2
  | ⟨3, _⟩ => o3

/-- The k-th piece of the stack: result k with a leading unit axis. -/
def pieceF (o0 o1 o2 o3 : FVec Ideal S512x128 .f32) (k : Fin 4) : S1x512x128.Idx → EReal :=
  broadcastInDim S1x512x128 ![1, 2] bcast_S512x128_S1x512x128_1_2 (sel4 o0 o1 o2 o3 k)

/-- The stack's four pieces, listed by number. -/
theorem stackF_eq (o0 o1 o2 o3 : FVec Ideal S512x128 .f32) :
    stackF (F := Ideal) o0 o1 o2 o3
      = concatenate S4x512x128 0 (List.ofFn fun k : Fin 4 => (⟨S1x512x128, pieceF o0 o1 o2 o3 k⟩ : (s : Shape) × (s.Idx → EReal)))
          concatenates_S1x512x128_S1x512x128_S1x512x128_S1x512x128_S4x512x128_d0 := rfl

/-- Entry (bi, n, d) of the stack is entry (n, d) of result bi. -/
theorem stackF_apply (o0 o1 o2 o3 : FVec Ideal S512x128 .f32) (bi : Fin 4) (n : Fin 512) (d : Fin 128) :
    stackF (F := Ideal) o0 o1 o2 o3 (ix3 bi n d) = sel4 o0 o1 o2 o3 bi (ix2 n d) := by
  rw [stackF_eq]
  refine (concatenate_ofFn_unit_apply (0 : Fin S4x512x128.rank) (pieceF o0 o1 o2 o3) _ rfl rfl (ix3 bi n d) bi rfl
    (ix3 (0 : Fin 1) n d) (fun b hb => ?_)).trans ?_
  · match b with
    | ⟨0, _⟩ => exact absurd rfl hb
    | ⟨1, _⟩ => rfl
    | ⟨2, _⟩ => rfl
  · unfold pieceF
    refine broadcastInDim_apply _ bcast_S512x128_S1x512x128_1_2 _ (ix3 (0 : Fin 1) n d) (ix2 n d) fun a => ?_
    match a with
    | ⟨0, _⟩ => show n.val = if (512 : Nat) = 1 then 0 else n.val; rw [if_neg (by decide)]
    | ⟨1, _⟩ => show d.val = if (128 : Nat) = 1 then 0 else d.val; rw [if_neg (by decide)]

/-- The stack at (bi, n, d), by cases on bi, for four results named by variables. -/
theorem stackF_cases (r0 r1 r2 r3 : FVec Ideal S512x128 .f32) (bi : Fin 4) (n : Fin 512) (d : Fin 128) (v : EReal)
    (h0 : bi = ⟨0, by decide⟩ → r0 (ix2 n d) = v) (h1 : bi = ⟨1, by decide⟩ → r1 (ix2 n d) = v)
    (h2 : bi = ⟨2, by decide⟩ → r2 (ix2 n d) = v) (h3 : bi = ⟨3, by decide⟩ → r3 (ix2 n d) = v) :
    stackF (F := Ideal) r0 r1 r2 r3 (ix3 bi n d) = v := by
  rw [stackF_apply]
  match bi with
  | ⟨0, _⟩ => exact h0 rfl
  | ⟨1, _⟩ => exact h1 rfl
  | ⟨2, _⟩ => exact h2 rfl
  | ⟨3, _⟩ => exact h3 rfl

/-! ## The whole result -/

theorem refOut_real_of
    (hbatch : ∀ (x : FVec Ideal S512x128 .f32) (w : FVec Ideal S262144 .f32) (W0 W1 W2 : FVec Ideal S128x128 .f32)
      (b0 b1 b2 g0 g1 g2 t0 t1 t2 : FVec Ideal S128 .f32)
      (xr : Fin 512 → Fin 128 → ℝ) (ar : Fin 512 → Fin 512 → ℝ) (W0r W1r W2r : Fin 128 → Fin 128 → ℝ)
      (b0r b1r b2r g0r g1r g2r t0r t1r t2r : Fin 128 → ℝ),
      (∀ (n : Fin 512) (d : Fin 128), x (ix2 n d) = ((xr n d : ℝ) : EReal)) →
      (∀ (s n : Fin 512), w (ix1 (⟨512 * s.val + n.val, by have := s.isLt; have := n.isLt; omega⟩ : Fin 262144)) = ((ar s n : ℝ) : EReal)) →
      (∀ (k d : Fin 128), W0 (ix2 k d) = ((W0r k d : ℝ) : EReal)) →
      (∀ (k d : Fin 128), W1 (ix2 k d) = ((W1r k d : ℝ) : EReal)) →
      (∀ (k d : Fin 128), W2 (ix2 k d) = ((W2r k d : ℝ) : EReal)) →
      (∀ d : Fin 128, b0 (ix1 d) = ((b0r d : ℝ) : EReal)) →
      (∀ d : Fin 128, b1 (ix1 d) = ((b1r d : ℝ) : EReal)) →
      (∀ d : Fin 128, b2 (ix1 d) = ((b2r d : ℝ) : EReal)) →
      (∀ d : Fin 128, g0 (ix1 d) = ((g0r d : ℝ) : EReal)) →
      (∀ d : Fin 128, g1 (ix1 d) = ((g1r d : ℝ) : EReal)) →
      (∀ d : Fin 128, g2 (ix1 d) = ((g2r d : ℝ) : EReal)) →
      (∀ d : Fin 128, t0 (ix1 d) = ((t0r d : ℝ) : EReal)) →
      (∀ d : Fin 128, t1 (ix1 d) = ((t1r d : ℝ) : EReal)) →
      (∀ d : Fin 128, t2 (ix1 d) = ((t2r d : ℝ) : EReal)) →
      ∀ (n : Fin 512) (d : Fin 128),
        Cert.ReferenceIdeal.Term.refBatch (F := Ideal) x w Cert.ReferenceIdeal.Term.srcF Cert.ReferenceIdeal.Term.dstF
            W0 W1 W2 b0 b1 b2 g0 g1 g2 t0 t1 t2 (ix2 n d)
          = ((Cert.Gnn.gnnR xr ar W0r W1r W2r b0r b1r b2r g0r g1r g2r t0r t1r t2r n d : ℝ) : EReal))
    (X : FVec Ideal S4x512x128 .f32) (A : FVec Ideal S4x512x512 .f32) (W0 W1 W2 : FVec Ideal S128x128 .f32)
    (b0 b1 b2 g0 g1 g2 t0 t1 t2 : FVec Ideal S128 .f32)
    (Xr : Fin 4 → Fin 512 → Fin 128 → ℝ) (Ar : Fin 4 → Fin 512 → Fin 512 → ℝ) (W0r W1r W2r : Fin 128 → Fin 128 → ℝ)
    (b0r b1r b2r g0r g1r g2r t0r t1r t2r : Fin 128 → ℝ)
    (hX : ∀ (bi : Fin 4) (n : Fin 512) (d : Fin 128), X (ix3 bi n d) = ((Xr bi n d : ℝ) : EReal))
    (hA : ∀ (bi : Fin 4) (s n : Fin 512), A (ix3 bi s n) = ((Ar bi s n : ℝ) : EReal))
    (hW0 : ∀ (k d : Fin 128), W0 (ix2 k d) = ((W0r k d : ℝ) : EReal))
    (hW1 : ∀ (k d : Fin 128), W1 (ix2 k d) = ((W1r k d : ℝ) : EReal))
    (hW2 : ∀ (k d : Fin 128), W2 (ix2 k d) = ((W2r k d : ℝ) : EReal))
    (hb0 : ∀ d : Fin 128, b0 (ix1 d) = ((b0r d : ℝ) : EReal)) (hb1 : ∀ d : Fin 128, b1 (ix1 d) = ((b1r d : ℝ) : EReal)) (hb2 : ∀ d : Fin 128, b2 (ix1 d) = ((b2r d : ℝ) : EReal)) (hg0 : ∀ d : Fin 128, g0 (ix1 d) = ((g0r d : ℝ) : EReal)) (hg1 : ∀ d : Fin 128, g1 (ix1 d) = ((g1r d : ℝ) : EReal)) (hg2 : ∀ d : Fin 128, g2 (ix1 d) = ((g2r d : ℝ) : EReal)) (ht0 : ∀ d : Fin 128, t0 (ix1 d) = ((t0r d : ℝ) : EReal)) (ht1 : ∀ d : Fin 128, t1 (ix1 d) = ((t1r d : ℝ) : EReal)) (ht2 : ∀ d : Fin 128, t2 (ix1 d) = ((t2r d : ℝ) : EReal)) :
    ∀ (bi : Fin 4) (n : Fin 512) (d : Fin 128),
      Cert.ReferenceIdeal.Term.refOut (F := Ideal) X A W0 W1 W2 b0 b1 b2 g0 g1 g2 t0 t1 t2 (ix3 bi n d)
        = ((Cert.Gnn.gnnR (Xr bi) (Ar bi) W0r W1r W2r b0r b1r b2r g0r g1r g2r t0r t1r t2r n d : ℝ) : EReal) := by
  intro bi n d
  unfold refOut
  refine stackF_cases _ _ _ _ bi n d _ (fun hbi => ?_) (fun hbi => ?_) (fun hbi => ?_) (fun hbi => ?_)
  · subst hbi
    exact hbatch (xB0 (F := Ideal) X) (wB0 (F := Ideal) A) W0 W1 W2 b0 b1 b2 g0 g1 g2 t0 t1 t2 (Xr ⟨0, by decide⟩) (Ar ⟨0, by decide⟩) W0r W1r W2r b0r b1r b2r g0r g1r g2r t0r t1r t2r
      (fun n d => (xB0_apply X n d).trans (hX _ n d)) (fun s n => (wB0_apply A s n).trans (hA _ s n))
      hW0 hW1 hW2 hb0 hb1 hb2 hg0 hg1 hg2 ht0 ht1 ht2 n d
  · subst hbi
    exact hbatch (xB1 (F := Ideal) X) (wB1 (F := Ideal) A) W0 W1 W2 b0 b1 b2 g0 g1 g2 t0 t1 t2 (Xr ⟨1, by decide⟩) (Ar ⟨1, by decide⟩) W0r W1r W2r b0r b1r b2r g0r g1r g2r t0r t1r t2r
      (fun n d => (xB1_apply X n d).trans (hX _ n d)) (fun s n => (wB1_apply A s n).trans (hA _ s n))
      hW0 hW1 hW2 hb0 hb1 hb2 hg0 hg1 hg2 ht0 ht1 ht2 n d
  · subst hbi
    exact hbatch (xB2 (F := Ideal) X) (wB2 (F := Ideal) A) W0 W1 W2 b0 b1 b2 g0 g1 g2 t0 t1 t2 (Xr ⟨2, by decide⟩) (Ar ⟨2, by decide⟩) W0r W1r W2r b0r b1r b2r g0r g1r g2r t0r t1r t2r
      (fun n d => (xB2_apply X n d).trans (hX _ n d)) (fun s n => (wB2_apply A s n).trans (hA _ s n))
      hW0 hW1 hW2 hb0 hb1 hb2 hg0 hg1 hg2 ht0 ht1 ht2 n d
  · subst hbi
    exact hbatch (xB3 (F := Ideal) X) (wB3 (F := Ideal) A) W0 W1 W2 b0 b1 b2 g0 g1 g2 t0 t1 t2 (Xr ⟨3, by decide⟩) (Ar ⟨3, by decide⟩) W0r W1r W2r b0r b1r b2r g0r g1r g2r t0r t1r t2r
      (fun n d => (xB3_apply X n d).trans (hX _ n d)) (fun s n => (wB3_apply A s n).trans (hA _ s n))
      hW0 hW1 hW2 hb0 hb1 hb2 hg0 hg1 hg2 ht0 ht1 ht2 n d

end Cert.ReferenceIdeal.OutValue

end
-- ==== Proof.LibFiniteAll.lean ====
/-
  GENERAL LEMMA: a printed finiteness test read back, at the ideal values (no program is imported).

  A precondition "every entry of x is finite" is written `jnp.all(jnp.abs(x) < inf)` and prints as: the absolute value,
  a splat of the word of +∞, an ordered less-than, and a reduction by `and` over every axis from the constant 1. At the
  exact reading of the floats an entry is an extended real, and the test being 1 says it is neither infinity: it is a
  real number (`real_of_abs_lt_inf` for one value, `all_real` for an array of any shape).
-/
import Idealize.ShloMosaic.PureOps.Ideal
import Idealize.ShloMosaic.Lib.ValueIdx
import Idealize.ShloMosaic.Lib.ReduceAll
import Idealize.ShloMosaic.Lib.Pipeline.Value

noncomputable section

namespace Cert.FiniteAll

open Idealize.ShloMosaic Idealize.ShloMosaic.ValueIdx

/-- The scalar shape has one index. -/
instance : Subsingleton (⟨0, ![]⟩ : Shape).Idx := ⟨fun a b => funext fun d => d.elim0⟩

/-- One value: if |x| < +∞ tests true, x is a real number. -/
theorem real_of_abs_lt_inf (x : Ideal .f32)
    (h : FloatOps.cmpf .olt (FloatOps.hostAbsf x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  have h' : Ideal.cmp .olt (max (x : EReal) (-(x : EReal))) ⊤ = 1#1 := by rw [← htop]; exact h
  unfold Ideal.cmp at h'
  by_cases hlt : max (x : EReal) (-(x : EReal)) < ⊤
  · rw [max_lt_iff] at hlt
    have h1 : (x : EReal) ≠ ⊤ := hlt.1.ne
    have h2 : (x : EReal) ≠ ⊥ := by
      intro hh
      rw [hh] at hlt
      simp at hlt
    exact ⟨(x : EReal).toReal, (EReal.coe_toReal h1 h2).symm⟩
  · exfalso
    simp [hlt] at h'

/-- An array: if `jnp.all(|x| < +∞)` is 1, every entry of x is a real number. -/
theorem all_real {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel) (init : IVec ⟨0, ![]⟩ 1)
    (h : Host.reduce IntOp.andi (cmpf .olt (Host.absf x) (broadcastInDim s ![] hb (constant (F := Ideal) ⟨0, ![]⟩ .f32 0x7F800000#32)))
          init hr hu ix0 = 1#1) (i : s.Idx) : ∃ r : ℝ, x i = (r : EReal) := by
  have e := Host.reduce_andi_all _ init hr hu ix0 h i
  refine real_of_abs_lt_inf (x i) ?_
  rw [cmpf_apply, broadcastInDim_apply _ hb _ i ix0 (fun a => a.elim0)] at e
  exact e

end Cert.FiniteAll

end
-- ==== Proof.PreReal.lean ====
/-
  FROM THE PRECONDITION TO REAL NUMBERS.  The precondition tests, for each of the fourteen argument arrays, that every
  entry's absolute value is below plus infinity, and joins the fourteen tests by "and".  If the joined test is 1 then
  each test is 1, and an extended real whose absolute value is below plus infinity is a real number: so each array is,
  entry by entry, the reading of an array of real numbers.
-/
import proofs.«175100_g37074157699472_cont_sun_c4_777_8_alg».proof.Pre_finite_inputs
import proofs.«175100_g37074157699472_cont_sun_c4_777_8_alg».proof.Proof.LibFiniteAll
import Idealize.ShloMosaic.Lib.Affine
import Idealize.ShloMosaic.Lib.ValueIdx

noncomputable section

namespace Cert.PreReal

open Idealize.ShloMosaic Idealize.ShloMosaic.ValueIdx Cert.Pre_finite_inputs Cert.FiniteAll

theorem reals_of_fn [Cert.Pre_finite_inputs.Facts] (X : FVec Ideal S4x512x128 .f32) (A : FVec Ideal S4x512x512 .f32)
    (W0 W1 W2 : FVec Ideal S128x128 .f32) (b0 b1 b2 g0 g1 g2 t0 t1 t2 : FVec Ideal S128 .f32)
    (h : Cert.Pre_finite_inputs.fn (F := Ideal) X A W0 W1 W2 b0 b1 b2 g0 g1 g2 t0 t1 t2 = fun _ => 1#1) :
    ∃ (Xr : Fin 4 → Fin 512 → Fin 128 → ℝ) (Ar : Fin 4 → Fin 512 → Fin 512 → ℝ) (W0r W1r W2r : Fin 128 → Fin 128 → ℝ)
      (b0r b1r b2r g0r g1r g2r t0r t1r t2r : Fin 128 → ℝ),
      (∀ (bi : Fin 4) (n : Fin 512) (d : Fin 128), X (ix3 bi n d) = ((Xr bi n d : ℝ) : EReal))
      ∧ (∀ (bi : Fin 4) (s n : Fin 512), A (ix3 bi s n) = ((Ar bi s n : ℝ) : EReal))
      ∧ (∀ (k d : Fin 128), W0 (ix2 k d) = ((W0r k d : ℝ) : EReal))
      ∧ (∀ (k d : Fin 128), W1 (ix2 k d) = ((W1r k d : ℝ) : EReal))
      ∧ (∀ (k d : Fin 128), W2 (ix2 k d) = ((W2r k d : ℝ) : EReal))
      ∧ (∀ d : Fin 128, b0 (ix1 d) = ((b0r d : ℝ) : EReal))
      ∧ (∀ d : Fin 128, b1 (ix1 d) = ((b1r d : ℝ) : EReal))
      ∧ (∀ d : Fin 128, b2 (ix1 d) = ((b2r d : ℝ) : EReal))
      ∧ (∀ d : Fin 128, g0 (ix1 d) = ((g0r d : ℝ) : EReal))
      ∧ (∀ d : Fin 128, g1 (ix1 d) = ((g1r d : ℝ) : EReal))
      ∧ (∀ d : Fin 128, g2 (ix1 d) = ((g2r d : ℝ) : EReal))
      ∧ (∀ d : Fin 128, t0 (ix1 d) = ((t0r d : ℝ) : EReal))
      ∧ (∀ d : Fin 128, t1 (ix1 d) = ((t1r d : ℝ) : EReal))
      ∧ (∀ d : Fin 128, t2 (ix1 d) = ((t2r d : ℝ) : EReal)) := by
  have h0 := congrFun h ix0
  dsimp only [fn, fn_part1, fn_part2, fn_part3, fn_part4, Idealize.ShloMosaic.andi] at h0
  simp only [IntOp.andi_eq_one] at h0
  obtain ⟨⟨⟨⟨⟨⟨⟨⟨⟨⟨⟨⟨⟨hX, hA⟩, hW0⟩, hW1⟩, hW2⟩, hb0⟩, hb1⟩, hb2⟩, hg0⟩, hg1⟩, hg2⟩, ht0⟩, ht1⟩, ht2⟩ := h0
  choose Xr' hXr using fun i => all_real X _ _ _ _ hX i
  choose Ar' hAr using fun i => all_real A _ _ _ _ hA i
  choose W0r' hW0r using fun i => all_real W0 _ _ _ _ hW0 i
  choose W1r' hW1r using fun i => all_real W1 _ _ _ _ hW1 i
  choose W2r' hW2r using fun i => all_real W2 _ _ _ _ hW2 i
  choose b0r' hb0r using fun i => all_real b0 _ _ _ _ hb0 i
  choose b1r' hb1r using fun i => all_real b1 _ _ _ _ hb1 i
  choose b2r' hb2r using fun i => all_real b2 _ _ _ _ hb2 i
  choose g0r' hg0r using fun i => all_real g0 _ _ _ _ hg0 i
  choose g1r' hg1r using fun i => all_real g1 _ _ _ _ hg1 i
  choose g2r' hg2r using fun i => all_real g2 _ _ _ _ hg2 i
  choose t0r' ht0r using fun i => all_real t0 _ _ _ _ ht0 i
  choose t1r' ht1r using fun i => all_real t1 _ _ _ _ ht1 i
  choose t2r' ht2r using fun i => all_real t2 _ _ _ _ ht2 i
  exact ⟨fun bi n d => Xr' (ix3 bi n d), fun bi s n => Ar' (ix3 bi s n),
    fun k d => W0r' (ix2 k d), fun k d => W1r' (ix2 k d), fun k d => W2r' (ix2 k d),
    fun d => b0r' (ix1 d), fun d => b1r' (ix1 d), fun d => b2r' (ix1 d), fun d => g0r' (ix1 d), fun d => g1r' (ix1 d), fun d => g2r' (ix1 d), fun d => t0r' (ix1 d), fun d => t1r' (ix1 d), fun d => t2r' (ix1 d),
    fun bi n d => hXr _, fun bi s n => hAr _, fun k d => hW0r _, fun k d => hW1r _, fun k d => hW2r _,
    fun d => hb0r _, fun d => hb1r _, fun d => hb2r _, fun d => hg0r _, fun d => hg1r _, fun d => hg2r _, fun d => ht0r _, fun d => ht1r _, fun d => ht2r _⟩

end Cert.PreReal

end
-- ==== Proof.lean ====
/-
  A THREE-LAYER GRAPH CONVOLUTION ON A DENSE ADJACENCY: THE KERNEL AGAINST THE EDGE-BY-EDGE REFERENCE.

  For each of four batch elements, with x the 512×128 node features and a the 512×512 adjacency, a layer is
    z = aᵀ·(x·W) + b + x,   out = max (((z − mean z) · (var z + eps)^(−1/2)) · g + t, 0)      (mean and var along a row),
  and three layers follow one another with the same a.  The kernel computes aᵀ·(x·W) as two matrix products and
  multiplies by the reciprocal square root.  The reference enumerates every ordered pair (s, n) of nodes as an edge
  512·s + n with weight a[s, n], picks row s of x·W for it, scales it, and sums the scaled rows into row n (so row n
  receives Σ_s a[s, n]·(x·W)[s, ·], the same sum taken over the same terms), and it divides by the square root.

  Over the extended reals a product with a reciprocal square root and a quotient by a square root differ at the
  infinities, so the equality uses the precondition: every input entry is a real number.  Then every intermediate
  value is a real number — finite sums and products of reals, a quotient by 128, and, since a variance is not negative
  and eps is positive, the reciprocal square root and the square root of a positive real — and both programs' results
  are, index by index, the coercion of ONE real-valued function of the real inputs (Spec.lean, `gnnR`): the kernel's
  by reading its body at an index (KernelValue.lean and the modules under it), the reference's by reading its run
  stretch by stretch (RefRun.lean, RefValue.lean) and then each named stretch at an index (RefLayerValue.lean for a
  layer — the edge sum re-indexed by the pair (s, n) —, RefOutValue.lean for the slices and the stacking).  The real
  inputs come from the precondition's finiteness tests (PreReal.lean).  The three frames: the two kernels' are the
  generated ones, the reference's is its run with the argument arrays kept.  The idealization rewrote nothing, so
  the fourth claim is trivial.  Claims.lean assembles the five claims from these parts.
-/
import proofs.«175100_g37074157699472_cont_sun_c4_777_8_alg».proof.Defs
import proofs.«175100_g37074157699472_cont_sun_c4_777_8_alg».proof.Proof.Claims
import proofs.«175100_g37074157699472_cont_sun_c4_777_8_alg».proof.Proof.RefValue
import proofs.«175100_g37074157699472_cont_sun_c4_777_8_alg».proof.Proof.RefLayerValue
import proofs.«175100_g37074157699472_cont_sun_c4_777_8_alg».proof.Proof.RefOutValue
import proofs.«175100_g37074157699472_cont_sun_c4_777_8_alg».proof.Proof.PreReal

noncomputable section

namespace Cert.Proof

open Cert.Proof.GnnClaims

/-- The five claims, under the generated witnesses of the programs' stated side conditions. -/
theorem claim : Cert.Claim :=
  ⟨Cert.Kernel.Gen.facts, Cert.KernelIdeal.Gen.facts, Cert.ReferenceIdeal.Gen.facts, Cert.Pre_finite_inputs.Gen.facts,
    frame_k, frame_ki, frame_ri (fun V => Cert.ReferenceIdeal.Ops.args_kept V), preserves,
    algebraic (fun V => Cert.ReferenceIdeal.Ops.out_eq V) (fun V => Cert.ReferenceIdeal.Ops.args_kept V)
      (Cert.ReferenceIdeal.OutValue.refOut_real_of Cert.ReferenceIdeal.LayerValue.refBatch_real)
      Cert.PreReal.reals_of_fn⟩

end Cert.Proof

end
